-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S1x200x128 : Shape := ⟨3, ![1, 200, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x200x128 : S_.BroadcastsInDim S1x200x128 (![] : Fin 0 → Fin S1x200x128.rank)
  reducesTo_S1x200x128_S_d0_1_2 : S1x200x128.ReducesTo [0, 1, 2] S_
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100000x128 .f32) (main_arg2 : FVec F S1x200x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x200x128 .f32 := Host.absf main_arg2
  let main_cst_0 : FVec F S_ .f32 := constant S_ .f32 0x7F800000#32
  let main_v5 : FVec F S1x200x128 .f32 := broadcastInDim S1x200x128 ![] bcast_S_S1x200x128 main_cst_0
  let main_v6 : IVec S1x200x128 1 := cmpf .olt main_v4 main_v5
  let main_c_1 : IVec S_ 1 := constantI S_ 1 1#1
  let main_v7 : IVec S_ 1 := (fun x v => Host.reduce IntOp.andi x v reducesTo_S1x200x128_S_d0_1_2 h_S_) main_v6 main_c_1
  let main_v8 : IVec S_ 1 := andi main_v3 main_v7
  let main_c_2 : IVec S_ 32 := constantI S_ 32 0#32
  let main_v9 : IVec S4096x200 32 := broadcastInDim S4096x200 ![] bcast_S_S4096x200 main_c_2
  let main_v10 : IVec S4096x200 1 := cmpi .sge main_arg0 main_v9
  let main_c_3 : IVec S_ 32 := constantI S_ 32 99999#32
  let main_v11 : IVec S4096x200 32 := broadcastInDim S4096x200 ![] bcast_S_S4096x200 main_c_3
  let main_v12 : IVec S4096x200 1 := cmpi .sle main_arg0 main_v11
  let main_v13 : IVec S4096x200 1 := andi main_v10 main_v12
  let main_c_4 : IVec S_ 1 := constantI S_ 1 1#1
  let main_v14 : IVec S_ 1 := (fun x v => Host.reduce IntOp.andi x v reducesTo_S4096x200_S_d0_1 h_S_) main_v13 main_c_4
  let main_v15 : IVec S_ 1 := andi main_v8 main_v14
  main_v15
-- ==== Kernel.lean ====
abbrev S4096x200 : Shape := ⟨2, ![4096, 200]⟩
abbrev S100000x128 : Shape := ⟨2, ![100000, 128]⟩
abbrev S1x200x128 : Shape := ⟨3, ![1, 200, 128]⟩
abbrev S819200 : Shape := ⟨1, ![819200]⟩
abbrev S200x128 : Shape := ⟨2, ![200, 128]⟩
abbrev S4096x200x128 : Shape := ⟨3, ![4096, 200, 128]⟩
abbrev S25600 : Shape := ⟨1, ![25600]⟩
abbrev S10x40x128 : Shape := ⟨3, ![10, 40, 128]⟩
abbrev S_ : Shape := ⟨0, ![]⟩
abbrev S1x40x128 : Shape := ⟨3, ![1, 40, 128]⟩
abbrev S40x128 : Shape := ⟨2, ![40, 128]⟩
abbrev S40 : Shape := ⟨1, ![40]⟩
abbrev S1x16 : Shape := ⟨2, ![1, 16]⟩
abbrev S16 : Shape := ⟨1, ![16]⟩

abbrev nBuf : Table → Nat
  | .hbm => 6
  | .local .scVector .vmem => 3
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S1x200x128, .f32⟩
  | .hbm, ⟨3, _⟩ => ⟨S819200, .i32⟩
  | .hbm, ⟨4, _⟩ => ⟨S200x128, .f32⟩
  | .hbm, ⟨5, _⟩ => ⟨S4096x200x128, .f32⟩
  | .local .scVector .vmem, ⟨0, _⟩ => ⟨S200x128, .f32⟩
  | .local .scVector .vmem, ⟨1, _⟩ => ⟨S25600, .i32⟩
  | .local .scVector .vmem, ⟨2, _⟩ => ⟨S10x40x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_v1_scv : Ref sig .scVector := ⟨.hbm, 4, rfl⟩
abbrev main_arg1_scv : Ref sig .scVector := ⟨.hbm, 1, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c200_i32 : BitVec 32 := 200#32
  let v3 : BitVec 32 := Scalar.muli v2 c200_i32
  ![v3.toNat]
@[reducible] def k0_t1_loop : Scf.Loop 32 :=
  let c0_i32_22 : BitVec 32 := 0#32
  let c64_i32 : BitVec 32 := 64#32
  let v24 : BitVec 32 := Scalar.addi c0_i32_22 c64_i32
  let c1_i32_23 : BitVec 32 := 1#32
  ⟨c0_i32_22, v24, c1_i32_23⟩
def k0_cond1 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_119 : BitVec 32 := 0#32
  let v115 : BitVec 32 := Scalar.addi v114 c0_i32_119
  let c1_i32_135 : BitVec 32 := 1#32
  let v152 : BitVec 1 := Scalar.cmpi .sge v115 c1_i32_135
  let v153 : BitVec 32 := Scalar.extui v152
  let c0_i32_136 : BitVec 32 := 0#32
  let v154 : BitVec 1 := Scalar.cmpi .ne v153 c0_i32_136
  v154

def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_129 : BitVec 32 := 0#32
  let v135 : BitVec 1 := Scalar.cmpi .sgt v114 c0_i32_129
  let v136 : BitVec 32 := Scalar.extui v135
  let c0_i32_130 : BitVec 32 := 0#32
  let v137 : BitVec 1 := Scalar.cmpi .slt v114 c0_i32_130
  let v138 : BitVec 32 := Scalar.extui v137
  let v139 : BitVec 32 := Scalar.subi v136 v138
  let c5_i32_128 : BitVec 32 := 5#32
  let c0_i32_131 : BitVec 32 := 0#32
  let v140 : BitVec 1 := Scalar.cmpi .sgt c5_i32_128 c0_i32_131
  let v141 : BitVec 32 := Scalar.extui v140
  let c0_i32_132 : BitVec 32 := 0#32
  let v142 : BitVec 1 := Scalar.cmpi .slt c5_i32_128 c0_i32_132
  let v143 : BitVec 32 := Scalar.extui v142
  let v144 : BitVec 32 := Scalar.subi v141 v143
  let v145 : BitVec 1 := Scalar.cmpi .ne v139 v144
  let v146 : BitVec 32 := Scalar.remsi v114 c5_i32_128
  let c0_i32_133 : BitVec 32 := 0#32
  let v147 : BitVec 1 := Scalar.cmpi .ne v146 c0_i32_133
  let v148 : BitVec 1 := Scalar.andi v145 v147
  let v134 : BitVec 32 := Scalar.divsi v114 c5_i32_128
  let c1_i32_134 : BitVec 32 := 1#32
  let v149 : BitVec 32 := Scalar.subi v134 c1_i32_134
  let v150 : BitVec 32 := Scalar.select v148 v149 v134
  let c_m1_i32 : BitVec 32 := 4294967295#32
  let v151 : BitVec 32 := Scalar.addi v150 c_m1_i32
  let v615 : BitVec 32 := Scalar.addi v2 v151
  let c160_i32_450 : BitVec 32 := 160#32
  let c0_i32_451 : BitVec 32 := 0#32
  ![v615.toNat, 160, 0]
def k0_cond2 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_119 : BitVec 32 := 0#32
  let v115 : BitVec 32 := Scalar.addi v114 c0_i32_119
  let c5_i32_137 : BitVec 32 := 5#32
  let v155 : BitVec 32 := Scalar.addi v115 c5_i32_137
  let c640_i32 : BitVec 32 := 640#32
  let v156 : BitVec 1 := Scalar.cmpi .slt v155 c640_i32
  let v157 : BitVec 32 := Scalar.extui v156
  let c0_i32_138 : BitVec 32 := 0#32
  let v158 : BitVec 1 := Scalar.cmpi .ne v157 c0_i32_138
  v158

def k0_cond3 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_119 : BitVec 32 := 0#32
  let v115 : BitVec 32 := Scalar.addi v114 c0_i32_119
  let c5_i32_447 : BitVec 32 := 5#32
  let v615 : BitVec 1 := Scalar.cmpi .sge v115 c5_i32_447
  let v616 : BitVec 32 := Scalar.extui v615
  let c0_i32_448 : BitVec 32 := 0#32
  let v617 : BitVec 1 := Scalar.cmpi .ne v616 c0_i32_448
  v617

def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_459 : BitVec 32 := 0#32
  let c0_i32_460 : BitVec 32 := 0#32
  ![v2.toNat, 0, 0]
def k0_off4 (k0_t1 : Fin k0_t1_loop.trips) : Fin 1 → Nat :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_119 : BitVec 32 := 0#32
  let v115 : BitVec 32 := Scalar.addi v114 c0_i32_119
  let c5_i32_449 : BitVec 32 := 5#32
  let v618 : BitVec 32 := Scalar.addi v115 c5_i32_449
  let c40_i32_450 : BitVec 32 := 40#32
  let v619 : BitVec 32 := Scalar.muli v618 c40_i32_450
  ![v619.toNat]
def k0_off5 (k0_t1 : Fin k0_t1_loop.trips) (c0_i32_119 : BitVec 32) : Fin 1 → Nat :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let v115 : BitVec 32 := Scalar.addi v114 c0_i32_119
  let c40_i32_139 : BitVec 32 := 40#32
  let v159 : BitVec 32 := Scalar.muli v115 c40_i32_139
  ![v159.toNat]
@[reducible] def k0_t2_loop : Scf.Loop 32 :=
  let c0_i32_146 : BitVec 32 := 0#32
  let c40_i32_147 : BitVec 32 := 40#32
  let v164 : BitVec 32 := Scalar.addi c0_i32_146 c40_i32_147
  let c1_i32_148 : BitVec 32 := 1#32
  ⟨c0_i32_146, v164, c1_i32_148⟩
def k0_off6 (k0_t2 : Fin k0_t2_loop.trips) : Fin 2 → Nat :=
  let c0_i32_146 : BitVec 32 := 0#32
  let c1_i32_148 : BitVec 32 := 1#32
  let arg30 : BitVec 32 := Scf.iv c0_i32_146 c1_i32_148 k0_t2
  let v617 : Index := Scalar.indexCast arg30
  let c0 : Index := 0#32
  ![v617.toNat, 0]
def k0_off7 (k0_t2 : Fin k0_t2_loop.trips) : Fin 2 → Nat :=
  let c0_i32_449 : BitVec 32 := 0#32
  let c0_i32_146 : BitVec 32 := 0#32
  let c1_i32_148 : BitVec 32 := 1#32
  let arg30 : BitVec 32 := Scf.iv c0_i32_146 c1_i32_148 k0_t2
  let v622 : BitVec 32 := Scalar.addi c0_i32_449 arg30
  let v623 : Index := Scalar.indexCast v622
  let c0_450 : Index := 0#32
  ![v623.toNat, 0]
def k0_off8 (k0_t2 : Fin k0_t2_loop.trips) : Fin 2 → Nat :=
  let c0_i32_146 : BitVec 32 := 0#32
  let c1_i32_148 : BitVec 32 := 1#32
  let arg30 : BitVec 32 := Scf.iv c0_i32_146 c1_i32_148 k0_t2
  let v635 : Index := Scalar.indexCast arg30
  let c16 : Index := 16#32
  ![v635.toNat, 16]
def k0_off9 (k0_t2 : Fin k0_t2_loop.trips) : Fin 2 → Nat :=
  let c0_i32_457 : BitVec 32 := 0#32
  let c0_i32_146 : BitVec 32 := 0#32
  let c1_i32_148 : BitVec 32 := 1#32
  let arg30 : BitVec 32 := Scf.iv c0_i32_146 c1_i32_148 k0_t2
  let v640 : BitVec 32 := Scalar.addi c0_i32_457 arg30
  let v641 : Index := Scalar.indexCast v640
  let c16_458 : Index := 16#32
  ![v641.toNat, 16]
def k0_off10 (k0_t2 : Fin k0_t2_loop.trips) : Fin 2 → Nat :=
  let c0_i32_146 : BitVec 32 := 0#32
  let c1_i32_148 : BitVec 32 := 1#32
  let arg30 : BitVec 32 := Scf.iv c0_i32_146 c1_i32_148 k0_t2
  let v653 : Index := Scalar.indexCast arg30
  let c32 : Index := 32#32
  ![v653.toNat, 32]
def k0_off11 (k0_t2 : Fin k0_t2_loop.trips) : Fin 2 → Nat :=
  let c0_i32_465 : BitVec 32 := 0#32
  let c0_i32_146 : BitVec 32 := 0#32
  let c1_i32_148 : BitVec 32 := 1#32
  let arg30 : BitVec 32 := Scf.iv c0_i32_146 c1_i32_148 k0_t2
  let v658 : BitVec 32 := Scalar.addi c0_i32_465 arg30
  let v659 : Index := Scalar.indexCast v658
  let c32_466 : Index := 32#32
  ![v659.toNat, 32]
def k0_off12 (k0_t2 : Fin k0_t2_loop.trips) : Fin 2 → Nat :=
  let c0_i32_146 : BitVec 32 := 0#32
  let c1_i32_148 : BitVec 32 := 1#32
  let arg30 : BitVec 32 := Scf.iv c0_i32_146 c1_i32_148 k0_t2
  let v671 : Index := Scalar.indexCast arg30
  let c48 : Index := 48#32
  ![v671.toNat, 48]
def k0_off13 (k0_t2 : Fin k0_t2_loop.trips) : Fin 2 → Nat :=
  let c0_i32_473 : BitVec 32 := 0#32
  let c0_i32_146 : BitVec 32 := 0#32
  let c1_i32_148 : BitVec 32 := 1#32
  let arg30 : BitVec 32 := Scf.iv c0_i32_146 c1_i32_148 k0_t2
  let v676 : BitVec 32 := Scalar.addi c0_i32_473 arg30
  let v677 : Index := Scalar.indexCast v676
  let c48_474 : Index := 48#32
  ![v677.toNat, 48]
def k0_off14 (k0_t2 : Fin k0_t2_loop.trips) : Fin 2 → Nat :=
  let c0_i32_146 : BitVec 32 := 0#32
  let c1_i32_148 : BitVec 32 := 1#32
  let arg30 : BitVec 32 := Scf.iv c0_i32_146 c1_i32_148 k0_t2
  let v689 : Index := Scalar.indexCast arg30
  let c64 : Index := 64#32
  ![v689.toNat, 64]
def k0_off15 (k0_t2 : Fin k0_t2_loop.trips) : Fin 2 → Nat :=
  let c0_i32_481 : BitVec 32 := 0#32
  let c0_i32_146 : BitVec 32 := 0#32
  let c1_i32_148 : BitVec 32 := 1#32
  let arg30 : BitVec 32 := Scf.iv c0_i32_146 c1_i32_148 k0_t2
  let v694 : BitVec 32 := Scalar.addi c0_i32_481 arg30
  let v695 : Index := Scalar.indexCast v694
  let c64_482 : Index := 64#32
  ![v695.toNat, 64]
def k0_off16 (k0_t2 : Fin k0_t2_loop.trips) : Fin 2 → Nat :=
  let c0_i32_146 : BitVec 32 := 0#32
  let c1_i32_148 : BitVec 32 := 1#32
  let arg30 : BitVec 32 := Scf.iv c0_i32_146 c1_i32_148 k0_t2
  let v707 : Index := Scalar.indexCast arg30
  let c80 : Index := 80#32
  ![v707.toNat, 80]
def k0_off17 (k0_t2 : Fin k0_t2_loop.trips) : Fin 2 → Nat :=
  let c0_i32_489 : BitVec 32 := 0#32
  let c0_i32_146 : BitVec 32 := 0#32
  let c1_i32_148 : BitVec 32 := 1#32
  let arg30 : BitVec 32 := Scf.iv c0_i32_146 c1_i32_148 k0_t2
  let v712 : BitVec 32 := Scalar.addi c0_i32_489 arg30
  let v713 : Index := Scalar.indexCast v712
  let c80_490 : Index := 80#32
  ![v713.toNat, 80]
def k0_off18 (k0_t2 : Fin k0_t2_loop.trips) : Fin 2 → Nat :=
  let c0_i32_146 : BitVec 32 := 0#32
  let c1_i32_148 : BitVec 32 := 1#32
  let arg30 : BitVec 32 := Scf.iv c0_i32_146 c1_i32_148 k0_t2
  let v725 : Index := Scalar.indexCast arg30
  let c96 : Index := 96#32
  ![v725.toNat, 96]
def k0_off19 (k0_t2 : Fin k0_t2_loop.trips) : Fin 2 → Nat :=
  let c0_i32_497 : BitVec 32 := 0#32
  let c0_i32_146 : BitVec 32 := 0#32
  let c1_i32_148 : BitVec 32 := 1#32
  let arg30 : BitVec 32 := Scf.iv c0_i32_146 c1_i32_148 k0_t2
  let v730 : BitVec 32 := Scalar.addi c0_i32_497 arg30
  let v731 : Index := Scalar.indexCast v730
  let c96_498 : Index := 96#32
  ![v731.toNat, 96]
def k0_off20 (k0_t2 : Fin k0_t2_loop.trips) : Fin 2 → Nat :=
  let c0_i32_146 : BitVec 32 := 0#32
  let c1_i32_148 : BitVec 32 := 1#32
  let arg30 : BitVec 32 := Scf.iv c0_i32_146 c1_i32_148 k0_t2
  let v743 : Index := Scalar.indexCast arg30
  let c112 : Index := 112#32
  ![v743.toNat, 112]
def k0_off21 (k0_t2 : Fin k0_t2_loop.trips) : Fin 2 → Nat :=
  let c0_i32_505 : BitVec 32 := 0#32
  let c0_i32_146 : BitVec 32 := 0#32
  let c1_i32_148 : BitVec 32 := 1#32
  let arg30 : BitVec 32 := Scf.iv c0_i32_146 c1_i32_148 k0_t2
  let v748 : BitVec 32 := Scalar.addi c0_i32_505 arg30
  let v749 : Index := Scalar.indexCast v748
  let c112_506 : Index := 112#32
  ![v749.toNat, 112]
def k0_cond4 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c1_i32_150 : BitVec 32 := 1#32
  let v165 : BitVec 32 := Scalar.addi v114 c1_i32_150
  let c1_i32_167 : BitVec 32 := 1#32
  let v202 : BitVec 1 := Scalar.cmpi .sge v165 c1_i32_167
  let v203 : BitVec 32 := Scalar.extui v202
  let c0_i32_168 : BitVec 32 := 0#32
  let v204 : BitVec 1 := Scalar.cmpi .ne v203 c0_i32_168
  v204

def k0_off22 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_160 : BitVec 32 := 0#32
  let v185 : BitVec 1 := Scalar.cmpi .sgt v114 c0_i32_160
  let v186 : BitVec 32 := Scalar.extui v185
  let c0_i32_161 : BitVec 32 := 0#32
  let v187 : BitVec 1 := Scalar.cmpi .slt v114 c0_i32_161
  let v188 : BitVec 32 := Scalar.extui v187
  let v189 : BitVec 32 := Scalar.subi v186 v188
  let c5_i32_159 : BitVec 32 := 5#32
  let c0_i32_162 : BitVec 32 := 0#32
  let v190 : BitVec 1 := Scalar.cmpi .sgt c5_i32_159 c0_i32_162
  let v191 : BitVec 32 := Scalar.extui v190
  let c0_i32_163 : BitVec 32 := 0#32
  let v192 : BitVec 1 := Scalar.cmpi .slt c5_i32_159 c0_i32_163
  let v193 : BitVec 32 := Scalar.extui v192
  let v194 : BitVec 32 := Scalar.subi v191 v193
  let v195 : BitVec 1 := Scalar.cmpi .ne v189 v194
  let v196 : BitVec 32 := Scalar.remsi v114 c5_i32_159
  let c0_i32_164 : BitVec 32 := 0#32
  let v197 : BitVec 1 := Scalar.cmpi .ne v196 c0_i32_164
  let v198 : BitVec 1 := Scalar.andi v195 v197
  let v184 : BitVec 32 := Scalar.divsi v114 c5_i32_159
  let c1_i32_165 : BitVec 32 := 1#32
  let v199 : BitVec 32 := Scalar.subi v184 c1_i32_165
  let v200 : BitVec 32 := Scalar.select v198 v199 v184
  let c0_i32_166 : BitVec 32 := 0#32
  let v201 : BitVec 32 := Scalar.addi v200 c0_i32_166
  let v615 : BitVec 32 := Scalar.addi v2 v201
  let c0_i32_450 : BitVec 32 := 0#32
  let c0_i32_451 : BitVec 32 := 0#32
  ![v615.toNat, 0, 0]
def k0_cond5 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c1_i32_150 : BitVec 32 := 1#32
  let v165 : BitVec 32 := Scalar.addi v114 c1_i32_150
  let c5_i32_169 : BitVec 32 := 5#32
  let v205 : BitVec 32 := Scalar.addi v165 c5_i32_169
  let c640_i32_170 : BitVec 32 := 640#32
  let v206 : BitVec 1 := Scalar.cmpi .slt v205 c640_i32_170
  let v207 : BitVec 32 := Scalar.extui v206
  let c0_i32_171 : BitVec 32 := 0#32
  let v208 : BitVec 1 := Scalar.cmpi .ne v207 c0_i32_171
  v208

def k0_cond6 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c1_i32_150 : BitVec 32 := 1#32
  let v165 : BitVec 32 := Scalar.addi v114 c1_i32_150
  let c5_i32_447 : BitVec 32 := 5#32
  let v615 : BitVec 1 := Scalar.cmpi .sge v165 c5_i32_447
  let v616 : BitVec 32 := Scalar.extui v615
  let c0_i32_448 : BitVec 32 := 0#32
  let v617 : BitVec 1 := Scalar.cmpi .ne v616 c0_i32_448
  v617

def k0_off23 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_459 : BitVec 32 := 0#32
  let c0_i32_460 : BitVec 32 := 0#32
  ![v2.toNat, 0, 0]
def k0_off24 (k0_t1 : Fin k0_t1_loop.trips) : Fin 1 → Nat :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c1_i32_150 : BitVec 32 := 1#32
  let v165 : BitVec 32 := Scalar.addi v114 c1_i32_150
  let c5_i32_449 : BitVec 32 := 5#32
  let v618 : BitVec 32 := Scalar.addi v165 c5_i32_449
  let c40_i32_450 : BitVec 32 := 40#32
  let v619 : BitVec 32 := Scalar.muli v618 c40_i32_450
  ![v619.toNat]
@[reducible] def k0_t3_loop : Scf.Loop 32 :=
  let c0_i32_179 : BitVec 32 := 0#32
  let c40_i32_180 : BitVec 32 := 40#32
  let v214 : BitVec 32 := Scalar.addi c0_i32_179 c40_i32_180
  let c1_i32_181 : BitVec 32 := 1#32
  ⟨c0_i32_179, v214, c1_i32_181⟩
def k0_off25 (k0_t3 : Fin k0_t3_loop.trips) : Fin 2 → Nat :=
  let c0_i32_179 : BitVec 32 := 0#32
  let c1_i32_181 : BitVec 32 := 1#32
  let arg30 : BitVec 32 := Scf.iv c0_i32_179 c1_i32_181 k0_t3
  let v617 : Index := Scalar.indexCast arg30
  let c0 : Index := 0#32
  ![v617.toNat, 0]
def k0_off26 (k0_t3 : Fin k0_t3_loop.trips) : Fin 2 → Nat :=
  let c40_i32_449 : BitVec 32 := 40#32
  let c0_i32_179 : BitVec 32 := 0#32
  let c1_i32_181 : BitVec 32 := 1#32
  let arg30 : BitVec 32 := Scf.iv c0_i32_179 c1_i32_181 k0_t3
  let v622 : BitVec 32 := Scalar.addi c40_i32_449 arg30
  let v623 : Index := Scalar.indexCast v622
  let c0_450 : Index := 0#32
  ![v623.toNat, 0]
def k0_off27 (k0_t3 : Fin k0_t3_loop.trips) : Fin 2 → Nat :=
  let c0_i32_179 : BitVec 32 := 0#32
  let c1_i32_181 : BitVec 32 := 1#32
  let arg30 : BitVec 32 := Scf.iv c0_i32_179 c1_i32_181 k0_t3
  let v635 : Index := Scalar.indexCast arg30
  let c16 : Index := 16#32
  ![v635.toNat, 16]
def k0_off28 (k0_t3 : Fin k0_t3_loop.trips) : Fin 2 → Nat :=
  let c40_i32_457 : BitVec 32 := 40#32
  let c0_i32_179 : BitVec 32 := 0#32
  let c1_i32_181 : BitVec 32 := 1#32
  let arg30 : BitVec 32 := Scf.iv c0_i32_179 c1_i32_181 k0_t3
  let v640 : BitVec 32 := Scalar.addi c40_i32_457 arg30
  let v641 : Index := Scalar.indexCast v640
  let c16_458 : Index := 16#32
  ![v641.toNat, 16]
def k0_off29 (k0_t3 : Fin k0_t3_loop.trips) : Fin 2 → Nat :=
  let c0_i32_179 : BitVec 32 := 0#32
  let c1_i32_181 : BitVec 32 := 1#32
  let arg30 : BitVec 32 := Scf.iv c0_i32_179 c1_i32_181 k0_t3
  let v653 : Index := Scalar.indexCast arg30
  let c32 : Index := 32#32
  ![v653.toNat, 32]
def k0_off30 (k0_t3 : Fin k0_t3_loop.trips) : Fin 2 → Nat :=
  let c40_i32_465 : BitVec 32 := 40#32
  let c0_i32_179 : BitVec 32 := 0#32
  let c1_i32_181 : BitVec 32 := 1#32
  let arg30 : BitVec 32 := Scf.iv c0_i32_179 c1_i32_181 k0_t3
  let v658 : BitVec 32 := Scalar.addi c40_i32_465 arg30
  let v659 : Index := Scalar.indexCast v658
  let c32_466 : Index := 32#32
  ![v659.toNat, 32]
def k0_off31 (k0_t3 : Fin k0_t3_loop.trips) : Fin 2 → Nat :=
  let c0_i32_179 : BitVec 32 := 0#32
  let c1_i32_181 : BitVec 32 := 1#32
  let arg30 : BitVec 32 := Scf.iv c0_i32_179 c1_i32_181 k0_t3
  let v671 : Index := Scalar.indexCast arg30
  let c48 : Index := 48#32
  ![v671.toNat, 48]
def k0_off32 (k0_t3 : Fin k0_t3_loop.trips) : Fin 2 → Nat :=
  let c40_i32_473 : BitVec 32 := 40#32
  let c0_i32_179 : BitVec 32 := 0#32
  let c1_i32_181 : BitVec 32 := 1#32
  let arg30 : BitVec 32 := Scf.iv c0_i32_179 c1_i32_181 k0_t3
  let v676 : BitVec 32 := Scalar.addi c40_i32_473 arg30
  let v677 : Index := Scalar.indexCast v676
  let c48_474 : Index := 48#32
  ![v677.toNat, 48]
def k0_off33 (k0_t3 : Fin k0_t3_loop.trips) : Fin 2 → Nat :=
  let c0_i32_179 : BitVec 32 := 0#32
  let c1_i32_181 : BitVec 32 := 1#32
  let arg30 : BitVec 32 := Scf.iv c0_i32_179 c1_i32_181 k0_t3
  let v689 : Index := Scalar.indexCast arg30
  let c64 : Index := 64#32
  ![v689.toNat, 64]
def k0_off34 (k0_t3 : Fin k0_t3_loop.trips) : Fin 2 → Nat :=
  let c40_i32_481 : BitVec 32 := 40#32
  let c0_i32_179 : BitVec 32 := 0#32
  let c1_i32_181 : BitVec 32 := 1#32
  let arg30 : BitVec 32 := Scf.iv c0_i32_179 c1_i32_181 k0_t3
  let v694 : BitVec 32 := Scalar.addi c40_i32_481 arg30
  let v695 : Index := Scalar.indexCast v694
  let c64_482 : Index := 64#32
  ![v695.toNat, 64]
def k0_off35 (k0_t3 : Fin k0_t3_loop.trips) : Fin 2 → Nat :=
  let c0_i32_179 : BitVec 32 := 0#32
  let c1_i32_181 : BitVec 32 := 1#32
  let arg30 : BitVec 32 := Scf.iv c0_i32_179 c1_i32_181 k0_t3
  let v707 : Index := Scalar.indexCast arg30
  let c80 : Index := 80#32
  ![v707.toNat, 80]
def k0_off36 (k0_t3 : Fin k0_t3_loop.trips) : Fin 2 → Nat :=
  let c40_i32_489 : BitVec 32 := 40#32
  let c0_i32_179 : BitVec 32 := 0#32
  let c1_i32_181 : BitVec 32 := 1#32
  let arg30 : BitVec 32 := Scf.iv c0_i32_179 c1_i32_181 k0_t3
  let v712 : BitVec 32 := Scalar.addi c40_i32_489 arg30
  let v713 : Index := Scalar.indexCast v712
  let c80_490 : Index := 80#32
  ![v713.toNat, 80]
def k0_off37 (k0_t3 : Fin k0_t3_loop.trips) : Fin 2 → Nat :=
  let c0_i32_179 : BitVec 32 := 0#32
  let c1_i32_181 : BitVec 32 := 1#32
  let arg30 : BitVec 32 := Scf.iv c0_i32_179 c1_i32_181 k0_t3
  let v725 : Index := Scalar.indexCast arg30
  let c96 : Index := 96#32
  ![v725.toNat, 96]
def k0_off38 (k0_t3 : Fin k0_t3_loop.trips) : Fin 2 → Nat :=
  let c40_i32_497 : BitVec 32 := 40#32
  let c0_i32_179 : BitVec 32 := 0#32
  let c1_i32_181 : BitVec 32 := 1#32
  let arg30 : BitVec 32 := Scf.iv c0_i32_179 c1_i32_181 k0_t3
  let v730 : BitVec 32 := Scalar.addi c40_i32_497 arg30
  let v731 : Index := Scalar.indexCast v730
  let c96_498 : Index := 96#32
  ![v731.toNat, 96]
def k0_off39 (k0_t3 : Fin k0_t3_loop.trips) : Fin 2 → Nat :=
  let c0_i32_179 : BitVec 32 := 0#32
  let c1_i32_181 : BitVec 32 := 1#32
  let arg30 : BitVec 32 := Scf.iv c0_i32_179 c1_i32_181 k0_t3
  let v743 : Index := Scalar.indexCast arg30
  let c112 : Index := 112#32
  ![v743.toNat, 112]
def k0_off40 (k0_t3 : Fin k0_t3_loop.trips) : Fin 2 → Nat :=
  let c40_i32_505 : BitVec 32 := 40#32
  let c0_i32_179 : BitVec 32 := 0#32
  let c1_i32_181 : BitVec 32 := 1#32
  let arg30 : BitVec 32 := Scf.iv c0_i32_179 c1_i32_181 k0_t3
  let v748 : BitVec 32 := Scalar.addi c40_i32_505 arg30
  let v749 : Index := Scalar.indexCast v748
  let c112_506 : Index := 112#32
  ![v749.toNat, 112]
def k0_cond7 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c2_i32_183 : BitVec 32 := 2#32
  let v215 : BitVec 32 := Scalar.addi v114 c2_i32_183
  let c1_i32_200 : BitVec 32 := 1#32
  let v252 : BitVec 1 := Scalar.cmpi .sge v215 c1_i32_200
  let v253 : BitVec 32 := Scalar.extui v252
  let c0_i32_201 : BitVec 32 := 0#32
  let v254 : BitVec 1 := Scalar.cmpi .ne v253 c0_i32_201
  v254

def k0_off41 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_193 : BitVec 32 := 0#32
  let v235 : BitVec 1 := Scalar.cmpi .sgt v114 c0_i32_193
  let v236 : BitVec 32 := Scalar.extui v235
  let c0_i32_194 : BitVec 32 := 0#32
  let v237 : BitVec 1 := Scalar.cmpi .slt v114 c0_i32_194
  let v238 : BitVec 32 := Scalar.extui v237
  let v239 : BitVec 32 := Scalar.subi v236 v238
  let c5_i32_192 : BitVec 32 := 5#32
  let c0_i32_195 : BitVec 32 := 0#32
  let v240 : BitVec 1 := Scalar.cmpi .sgt c5_i32_192 c0_i32_195
  let v241 : BitVec 32 := Scalar.extui v240
  let c0_i32_196 : BitVec 32 := 0#32
  let v242 : BitVec 1 := Scalar.cmpi .slt c5_i32_192 c0_i32_196
  let v243 : BitVec 32 := Scalar.extui v242
  let v244 : BitVec 32 := Scalar.subi v241 v243
  let v245 : BitVec 1 := Scalar.cmpi .ne v239 v244
  let v246 : BitVec 32 := Scalar.remsi v114 c5_i32_192
  let c0_i32_197 : BitVec 32 := 0#32
  let v247 : BitVec 1 := Scalar.cmpi .ne v246 c0_i32_197
  let v248 : BitVec 1 := Scalar.andi v245 v247
  let v234 : BitVec 32 := Scalar.divsi v114 c5_i32_192
  let c1_i32_198 : BitVec 32 := 1#32
  let v249 : BitVec 32 := Scalar.subi v234 c1_i32_198
  let v250 : BitVec 32 := Scalar.select v248 v249 v234
  let c0_i32_199 : BitVec 32 := 0#32
  let v251 : BitVec 32 := Scalar.addi v250 c0_i32_199
  let v615 : BitVec 32 := Scalar.addi v2 v251
  let c40_i32_450 : BitVec 32 := 40#32
  let c0_i32_451 : BitVec 32 := 0#32
  ![v615.toNat, 40, 0]
def k0_cond8 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c2_i32_183 : BitVec 32 := 2#32
  let v215 : BitVec 32 := Scalar.addi v114 c2_i32_183
  let c5_i32_202 : BitVec 32 := 5#32
  let v255 : BitVec 32 := Scalar.addi v215 c5_i32_202
  let c640_i32_203 : BitVec 32 := 640#32
  let v256 : BitVec 1 := Scalar.cmpi .slt v255 c640_i32_203
  let v257 : BitVec 32 := Scalar.extui v256
  let c0_i32_204 : BitVec 32 := 0#32
  let v258 : BitVec 1 := Scalar.cmpi .ne v257 c0_i32_204
  v258

def k0_cond9 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c2_i32_183 : BitVec 32 := 2#32
  let v215 : BitVec 32 := Scalar.addi v114 c2_i32_183
  let c5_i32_447 : BitVec 32 := 5#32
  let v615 : BitVec 1 := Scalar.cmpi .sge v215 c5_i32_447
  let v616 : BitVec 32 := Scalar.extui v615
  let c0_i32_448 : BitVec 32 := 0#32
  let v617 : BitVec 1 := Scalar.cmpi .ne v616 c0_i32_448
  v617

def k0_off42 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_459 : BitVec 32 := 0#32
  let c0_i32_460 : BitVec 32 := 0#32
  ![v2.toNat, 0, 0]
def k0_off43 (k0_t1 : Fin k0_t1_loop.trips) : Fin 1 → Nat :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c2_i32_183 : BitVec 32 := 2#32
  let v215 : BitVec 32 := Scalar.addi v114 c2_i32_183
  let c5_i32_449 : BitVec 32 := 5#32
  let v618 : BitVec 32 := Scalar.addi v215 c5_i32_449
  let c40_i32_450 : BitVec 32 := 40#32
  let v619 : BitVec 32 := Scalar.muli v618 c40_i32_450
  ![v619.toNat]
@[reducible] def k0_t4_loop : Scf.Loop 32 :=
  let c0_i32_212 : BitVec 32 := 0#32
  let c40_i32_213 : BitVec 32 := 40#32
  let v264 : BitVec 32 := Scalar.addi c0_i32_212 c40_i32_213
  let c1_i32_214 : BitVec 32 := 1#32
  ⟨c0_i32_212, v264, c1_i32_214⟩
def k0_off44 (k0_t4 : Fin k0_t4_loop.trips) : Fin 2 → Nat :=
  let c0_i32_212 : BitVec 32 := 0#32
  let c1_i32_214 : BitVec 32 := 1#32
  let arg30 : BitVec 32 := Scf.iv c0_i32_212 c1_i32_214 k0_t4
  let v617 : Index := Scalar.indexCast arg30
  let c0 : Index := 0#32
  ![v617.toNat, 0]
def k0_off45 (k0_t4 : Fin k0_t4_loop.trips) : Fin 2 → Nat :=
  let c80_i32_449 : BitVec 32 := 80#32
  let c0_i32_212 : BitVec 32 := 0#32
  let c1_i32_214 : BitVec 32 := 1#32
  let arg30 : BitVec 32 := Scf.iv c0_i32_212 c1_i32_214 k0_t4
  let v622 : BitVec 32 := Scalar.addi c80_i32_449 arg30
  let v623 : Index := Scalar.indexCast v622
  let c0_450 : Index := 0#32
  ![v623.toNat, 0]
def k0_off46 (k0_t4 : Fin k0_t4_loop.trips) : Fin 2 → Nat :=
  let c0_i32_212 : BitVec 32 := 0#32
  let c1_i32_214 : BitVec 32 := 1#32
  let arg30 : BitVec 32 := Scf.iv c0_i32_212 c1_i32_214 k0_t4
  let v635 : Index := Scalar.indexCast arg30
  let c16 : Index := 16#32
  ![v635.toNat, 16]
def k0_off47 (k0_t4 : Fin k0_t4_loop.trips) : Fin 2 → Nat :=
  let c80_i32_457 : BitVec 32 := 80#32
  let c0_i32_212 : BitVec 32 := 0#32
  let c1_i32_214 : BitVec 32 := 1#32
  let arg30 : BitVec 32 := Scf.iv c0_i32_212 c1_i32_214 k0_t4
  let v640 : BitVec 32 := Scalar.addi c80_i32_457 arg30
  let v641 : Index := Scalar.indexCast v640
  let c16_458 : Index := 16#32
  ![v641.toNat, 16]
def k0_off48 (k0_t4 : Fin k0_t4_loop.trips) : Fin 2 → Nat :=
  let c0_i32_212 : BitVec 32 := 0#32
  let c1_i32_214 : BitVec 32 := 1#32
  let arg30 : BitVec 32 := Scf.iv c0_i32_212 c1_i32_214 k0_t4
  let v653 : Index := Scalar.indexCast arg30
  let c32 : Index := 32#32
  ![v653.toNat, 32]
def k0_off49 (k0_t4 : Fin k0_t4_loop.trips) : Fin 2 → Nat :=
  let c80_i32_465 : BitVec 32 := 80#32
  let c0_i32_212 : BitVec 32 := 0#32
  let c1_i32_214 : BitVec 32 := 1#32
  let arg30 : BitVec 32 := Scf.iv c0_i32_212 c1_i32_214 k0_t4
  let v658 : BitVec 32 := Scalar.addi c80_i32_465 arg30
  let v659 : Index := Scalar.indexCast v658
  let c32_466 : Index := 32#32
  ![v659.toNat, 32]
def k0_off50 (k0_t4 : Fin k0_t4_loop.trips) : Fin 2 → Nat :=
  let c0_i32_212 : BitVec 32 := 0#32
  let c1_i32_214 : BitVec 32 := 1#32
  let arg30 : BitVec 32 := Scf.iv c0_i32_212 c1_i32_214 k0_t4
  let v671 : Index := Scalar.indexCast arg30
  let c48 : Index := 48#32
  ![v671.toNat, 48]
def k0_off51 (k0_t4 : Fin k0_t4_loop.trips) : Fin 2 → Nat :=
  let c80_i32_473 : BitVec 32 := 80#32
  let c0_i32_212 : BitVec 32 := 0#32
  let c1_i32_214 : BitVec 32 := 1#32
  let arg30 : BitVec 32 := Scf.iv c0_i32_212 c1_i32_214 k0_t4
  let v676 : BitVec 32 := Scalar.addi c80_i32_473 arg30
  let v677 : Index := Scalar.indexCast v676
  let c48_474 : Index := 48#32
  ![v677.toNat, 48]
def k0_off52 (k0_t4 : Fin k0_t4_loop.trips) : Fin 2 → Nat :=
  let c0_i32_212 : BitVec 32 := 0#32
  let c1_i32_214 : BitVec 32 := 1#32
  let arg30 : BitVec 32 := Scf.iv c0_i32_212 c1_i32_214 k0_t4
  let v689 : Index := Scalar.indexCast arg30
  let c64 : Index := 64#32
  ![v689.toNat, 64]
def k0_off53 (k0_t4 : Fin k0_t4_loop.trips) : Fin 2 → Nat :=
  let c80_i32_481 : BitVec 32 := 80#32
  let c0_i32_212 : BitVec 32 := 0#32
  let c1_i32_214 : BitVec 32 := 1#32
  let arg30 : BitVec 32 := Scf.iv c0_i32_212 c1_i32_214 k0_t4
  let v694 : BitVec 32 := Scalar.addi c80_i32_481 arg30
  let v695 : Index := Scalar.indexCast v694
  let c64_482 : Index := 64#32
  ![v695.toNat, 64]
def k0_off54 (k0_t4 : Fin k0_t4_loop.trips) : Fin 2 → Nat :=
  let c0_i32_212 : BitVec 32 := 0#32
  let c1_i32_214 : BitVec 32 := 1#32
  let arg30 : BitVec 32 := Scf.iv c0_i32_212 c1_i32_214 k0_t4
  let v707 : Index := Scalar.indexCast arg30
  let c80 : Index := 80#32
  ![v707.toNat, 80]
def k0_off55 (k0_t4 : Fin k0_t4_loop.trips) : Fin 2 → Nat :=
  let c80_i32_489 : BitVec 32 := 80#32
  let c0_i32_212 : BitVec 32 := 0#32
  let c1_i32_214 : BitVec 32 := 1#32
  let arg30 : BitVec 32 := Scf.iv c0_i32_212 c1_i32_214 k0_t4
  let v712 : BitVec 32 := Scalar.addi c80_i32_489 arg30
  let v713 : Index := Scalar.indexCast v712
  let c80_490 : Index := 80#32
  ![v713.toNat, 80]
def k0_off56 (k0_t4 : Fin k0_t4_loop.trips) : Fin 2 → Nat :=
  let c0_i32_212 : BitVec 32 := 0#32
  let c1_i32_214 : BitVec 32 := 1#32
  let arg30 : BitVec 32 := Scf.iv c0_i32_212 c1_i32_214 k0_t4
  let v725 : Index := Scalar.indexCast arg30
  let c96 : Index := 96#32
  ![v725.toNat, 96]
def k0_off57 (k0_t4 : Fin k0_t4_loop.trips) : Fin 2 → Nat :=
  let c80_i32_497 : BitVec 32 := 80#32
  let c0_i32_212 : BitVec 32 := 0#32
  let c1_i32_214 : BitVec 32 := 1#32
  let arg30 : BitVec 32 := Scf.iv c0_i32_212 c1_i32_214 k0_t4
  let v730 : BitVec 32 := Scalar.addi c80_i32_497 arg30
  let v731 : Index := Scalar.indexCast v730
  let c96_498 : Index := 96#32
  ![v731.toNat, 96]
def k0_off58 (k0_t4 : Fin k0_t4_loop.trips) : Fin 2 → Nat :=
  let c0_i32_212 : BitVec 32 := 0#32
  let c1_i32_214 : BitVec 32 := 1#32
  let arg30 : BitVec 32 := Scf.iv c0_i32_212 c1_i32_214 k0_t4
  let v743 : Index := Scalar.indexCast arg30
  let c112 : Index := 112#32
  ![v743.toNat, 112]
def k0_off59 (k0_t4 : Fin k0_t4_loop.trips) : Fin 2 → Nat :=
  let c80_i32_505 : BitVec 32 := 80#32
  let c0_i32_212 : BitVec 32 := 0#32
  let c1_i32_214 : BitVec 32 := 1#32
  let arg30 : BitVec 32 := Scf.iv c0_i32_212 c1_i32_214 k0_t4
  let v748 : BitVec 32 := Scalar.addi c80_i32_505 arg30
  let v749 : Index := Scalar.indexCast v748
  let c112_506 : Index := 112#32
  ![v749.toNat, 112]
def k0_cond10 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c3_i32_216 : BitVec 32 := 3#32
  let v265 : BitVec 32 := Scalar.addi v114 c3_i32_216
  let c1_i32_233 : BitVec 32 := 1#32
  let v302 : BitVec 1 := Scalar.cmpi .sge v265 c1_i32_233
  let v303 : BitVec 32 := Scalar.extui v302
  let c0_i32_234 : BitVec 32 := 0#32
  let v304 : BitVec 1 := Scalar.cmpi .ne v303 c0_i32_234
  v304

def k0_off60 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_226 : BitVec 32 := 0#32
  let v285 : BitVec 1 := Scalar.cmpi .sgt v114 c0_i32_226
  let v286 : BitVec 32 := Scalar.extui v285
  let c0_i32_227 : BitVec 32 := 0#32
  let v287 : BitVec 1 := Scalar.cmpi .slt v114 c0_i32_227
  let v288 : BitVec 32 := Scalar.extui v287
  let v289 : BitVec 32 := Scalar.subi v286 v288
  let c5_i32_225 : BitVec 32 := 5#32
  let c0_i32_228 : BitVec 32 := 0#32
  let v290 : BitVec 1 := Scalar.cmpi .sgt c5_i32_225 c0_i32_228
  let v291 : BitVec 32 := Scalar.extui v290
  let c0_i32_229 : BitVec 32 := 0#32
  let v292 : BitVec 1 := Scalar.cmpi .slt c5_i32_225 c0_i32_229
  let v293 : BitVec 32 := Scalar.extui v292
  let v294 : BitVec 32 := Scalar.subi v291 v293
  let v295 : BitVec 1 := Scalar.cmpi .ne v289 v294
  let v296 : BitVec 32 := Scalar.remsi v114 c5_i32_225
  let c0_i32_230 : BitVec 32 := 0#32
  let v297 : BitVec 1 := Scalar.cmpi .ne v296 c0_i32_230
  let v298 : BitVec 1 := Scalar.andi v295 v297
  let v284 : BitVec 32 := Scalar.divsi v114 c5_i32_225
  let c1_i32_231 : BitVec 32 := 1#32
  let v299 : BitVec 32 := Scalar.subi v284 c1_i32_231
  let v300 : BitVec 32 := Scalar.select v298 v299 v284
  let c0_i32_232 : BitVec 32 := 0#32
  let v301 : BitVec 32 := Scalar.addi v300 c0_i32_232
  let v615 : BitVec 32 := Scalar.addi v2 v301
  let c80_i32_450 : BitVec 32 := 80#32
  let c0_i32_451 : BitVec 32 := 0#32
  ![v615.toNat, 80, 0]
def k0_cond11 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c3_i32_216 : BitVec 32 := 3#32
  let v265 : BitVec 32 := Scalar.addi v114 c3_i32_216
  let c5_i32_235 : BitVec 32 := 5#32
  let v305 : BitVec 32 := Scalar.addi v265 c5_i32_235
  let c640_i32_236 : BitVec 32 := 640#32
  let v306 : BitVec 1 := Scalar.cmpi .slt v305 c640_i32_236
  let v307 : BitVec 32 := Scalar.extui v306
  let c0_i32_237 : BitVec 32 := 0#32
  let v308 : BitVec 1 := Scalar.cmpi .ne v307 c0_i32_237
  v308

def k0_cond12 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c3_i32_216 : BitVec 32 := 3#32
  let v265 : BitVec 32 := Scalar.addi v114 c3_i32_216
  let c5_i32_447 : BitVec 32 := 5#32
  let v615 : BitVec 1 := Scalar.cmpi .sge v265 c5_i32_447
  let v616 : BitVec 32 := Scalar.extui v615
  let c0_i32_448 : BitVec 32 := 0#32
  let v617 : BitVec 1 := Scalar.cmpi .ne v616 c0_i32_448
  v617

def k0_off61 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_459 : BitVec 32 := 0#32
  let c0_i32_460 : BitVec 32 := 0#32
  ![v2.toNat, 0, 0]
def k0_off62 (k0_t1 : Fin k0_t1_loop.trips) : Fin 1 → Nat :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c3_i32_216 : BitVec 32 := 3#32
  let v265 : BitVec 32 := Scalar.addi v114 c3_i32_216
  let c5_i32_449 : BitVec 32 := 5#32
  let v618 : BitVec 32 := Scalar.addi v265 c5_i32_449
  let c40_i32_450 : BitVec 32 := 40#32
  let v619 : BitVec 32 := Scalar.muli v618 c40_i32_450
  ![v619.toNat]
@[reducible] def k0_t5_loop : Scf.Loop 32 :=
  let c0_i32_245 : BitVec 32 := 0#32
  let c40_i32_246 : BitVec 32 := 40#32
  let v314 : BitVec 32 := Scalar.addi c0_i32_245 c40_i32_246
  let c1_i32_247 : BitVec 32 := 1#32
  ⟨c0_i32_245, v314, c1_i32_247⟩
def k0_off63 (k0_t5 : Fin k0_t5_loop.trips) : Fin 2 → Nat :=
  let c0_i32_245 : BitVec 32 := 0#32
  let c1_i32_247 : BitVec 32 := 1#32
  let arg30 : BitVec 32 := Scf.iv c0_i32_245 c1_i32_247 k0_t5
  let v617 : Index := Scalar.indexCast arg30
  let c0 : Index := 0#32
  ![v617.toNat, 0]
def k0_off64 (k0_t5 : Fin k0_t5_loop.trips) : Fin 2 → Nat :=
  let c120_i32_449 : BitVec 32 := 120#32
  let c0_i32_245 : BitVec 32 := 0#32
  let c1_i32_247 : BitVec 32 := 1#32
  let arg30 : BitVec 32 := Scf.iv c0_i32_245 c1_i32_247 k0_t5
  let v622 : BitVec 32 := Scalar.addi c120_i32_449 arg30
  let v623 : Index := Scalar.indexCast v622
  let c0_450 : Index := 0#32
  ![v623.toNat, 0]
def k0_off65 (k0_t5 : Fin k0_t5_loop.trips) : Fin 2 → Nat :=
  let c0_i32_245 : BitVec 32 := 0#32
  let c1_i32_247 : BitVec 32 := 1#32
  let arg30 : BitVec 32 := Scf.iv c0_i32_245 c1_i32_247 k0_t5
  let v635 : Index := Scalar.indexCast arg30
  let c16 : Index := 16#32
  ![v635.toNat, 16]
def k0_off66 (k0_t5 : Fin k0_t5_loop.trips) : Fin 2 → Nat :=
  let c120_i32_457 : BitVec 32 := 120#32
  let c0_i32_245 : BitVec 32 := 0#32
  let c1_i32_247 : BitVec 32 := 1#32
  let arg30 : BitVec 32 := Scf.iv c0_i32_245 c1_i32_247 k0_t5
  let v640 : BitVec 32 := Scalar.addi c120_i32_457 arg30
  let v641 : Index := Scalar.indexCast v640
  let c16_458 : Index := 16#32
  ![v641.toNat, 16]
def k0_off67 (k0_t5 : Fin k0_t5_loop.trips) : Fin 2 → Nat :=
  let c0_i32_245 : BitVec 32 := 0#32
  let c1_i32_247 : BitVec 32 := 1#32
  let arg30 : BitVec 32 := Scf.iv c0_i32_245 c1_i32_247 k0_t5
  let v653 : Index := Scalar.indexCast arg30
  let c32 : Index := 32#32
  ![v653.toNat, 32]
def k0_off68 (k0_t5 : Fin k0_t5_loop.trips) : Fin 2 → Nat :=
  let c120_i32_465 : BitVec 32 := 120#32
  let c0_i32_245 : BitVec 32 := 0#32
  let c1_i32_247 : BitVec 32 := 1#32
  let arg30 : BitVec 32 := Scf.iv c0_i32_245 c1_i32_247 k0_t5
  let v658 : BitVec 32 := Scalar.addi c120_i32_465 arg30
  let v659 : Index := Scalar.indexCast v658
  let c32_466 : Index := 32#32
  ![v659.toNat, 32]
def k0_off69 (k0_t5 : Fin k0_t5_loop.trips) : Fin 2 → Nat :=
  let c0_i32_245 : BitVec 32 := 0#32
  let c1_i32_247 : BitVec 32 := 1#32
  let arg30 : BitVec 32 := Scf.iv c0_i32_245 c1_i32_247 k0_t5
  let v671 : Index := Scalar.indexCast arg30
  let c48 : Index := 48#32
  ![v671.toNat, 48]
def k0_off70 (k0_t5 : Fin k0_t5_loop.trips) : Fin 2 → Nat :=
  let c120_i32_473 : BitVec 32 := 120#32
  let c0_i32_245 : BitVec 32 := 0#32
  let c1_i32_247 : BitVec 32 := 1#32
  let arg30 : BitVec 32 := Scf.iv c0_i32_245 c1_i32_247 k0_t5
  let v676 : BitVec 32 := Scalar.addi c120_i32_473 arg30
  let v677 : Index := Scalar.indexCast v676
  let c48_474 : Index := 48#32
  ![v677.toNat, 48]
def k0_off71 (k0_t5 : Fin k0_t5_loop.trips) : Fin 2 → Nat :=
  let c0_i32_245 : BitVec 32 := 0#32
  let c1_i32_247 : BitVec 32 := 1#32
  let arg30 : BitVec 32 := Scf.iv c0_i32_245 c1_i32_247 k0_t5
  let v689 : Index := Scalar.indexCast arg30
  let c64 : Index := 64#32
  ![v689.toNat, 64]
def k0_off72 (k0_t5 : Fin k0_t5_loop.trips) : Fin 2 → Nat :=
  let c120_i32_481 : BitVec 32 := 120#32
  let c0_i32_245 : BitVec 32 := 0#32
  let c1_i32_247 : BitVec 32 := 1#32
  let arg30 : BitVec 32 := Scf.iv c0_i32_245 c1_i32_247 k0_t5
  let v694 : BitVec 32 := Scalar.addi c120_i32_481 arg30
  let v695 : Index := Scalar.indexCast v694
  let c64_482 : Index := 64#32
  ![v695.toNat, 64]
def k0_off73 (k0_t5 : Fin k0_t5_loop.trips) : Fin 2 → Nat :=
  let c0_i32_245 : BitVec 32 := 0#32
  let c1_i32_247 : BitVec 32 := 1#32
  let arg30 : BitVec 32 := Scf.iv c0_i32_245 c1_i32_247 k0_t5
  let v707 : Index := Scalar.indexCast arg30
  let c80 : Index := 80#32
  ![v707.toNat, 80]
def k0_off74 (k0_t5 : Fin k0_t5_loop.trips) : Fin 2 → Nat :=
  let c120_i32_489 : BitVec 32 := 120#32
  let c0_i32_245 : BitVec 32 := 0#32
  let c1_i32_247 : BitVec 32 := 1#32
  let arg30 : BitVec 32 := Scf.iv c0_i32_245 c1_i32_247 k0_t5
  let v712 : BitVec 32 := Scalar.addi c120_i32_489 arg30
  let v713 : Index := Scalar.indexCast v712
  let c80_490 : Index := 80#32
  ![v713.toNat, 80]
def k0_off75 (k0_t5 : Fin k0_t5_loop.trips) : Fin 2 → Nat :=
  let c0_i32_245 : BitVec 32 := 0#32
  let c1_i32_247 : BitVec 32 := 1#32
  let arg30 : BitVec 32 := Scf.iv c0_i32_245 c1_i32_247 k0_t5
  let v725 : Index := Scalar.indexCast arg30
  let c96 : Index := 96#32
  ![v725.toNat, 96]
def k0_off76 (k0_t5 : Fin k0_t5_loop.trips) : Fin 2 → Nat :=
  let c120_i32_497 : BitVec 32 := 120#32
  let c0_i32_245 : BitVec 32 := 0#32
  let c1_i32_247 : BitVec 32 := 1#32
  let arg30 : BitVec 32 := Scf.iv c0_i32_245 c1_i32_247 k0_t5
  let v730 : BitVec 32 := Scalar.addi c120_i32_497 arg30
  let v731 : Index := Scalar.indexCast v730
  let c96_498 : Index := 96#32
  ![v731.toNat, 96]
def k0_off77 (k0_t5 : Fin k0_t5_loop.trips) : Fin 2 → Nat :=
  let c0_i32_245 : BitVec 32 := 0#32
  let c1_i32_247 : BitVec 32 := 1#32
  let arg30 : BitVec 32 := Scf.iv c0_i32_245 c1_i32_247 k0_t5
  let v743 : Index := Scalar.indexCast arg30
  let c112 : Index := 112#32
  ![v743.toNat, 112]
def k0_off78 (k0_t5 : Fin k0_t5_loop.trips) : Fin 2 → Nat :=
  let c120_i32_505 : BitVec 32 := 120#32
  let c0_i32_245 : BitVec 32 := 0#32
  let c1_i32_247 : BitVec 32 := 1#32
  let arg30 : BitVec 32 := Scf.iv c0_i32_245 c1_i32_247 k0_t5
  let v748 : BitVec 32 := Scalar.addi c120_i32_505 arg30
  let v749 : Index := Scalar.indexCast v748
  let c112_506 : Index := 112#32
  ![v749.toNat, 112]
def k0_cond13 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c4_i32_249 : BitVec 32 := 4#32
  let v315 : BitVec 32 := Scalar.addi v114 c4_i32_249
  let c1_i32_266 : BitVec 32 := 1#32
  let v352 : BitVec 1 := Scalar.cmpi .sge v315 c1_i32_266
  let v353 : BitVec 32 := Scalar.extui v352
  let c0_i32_267 : BitVec 32 := 0#32
  let v354 : BitVec 1 := Scalar.cmpi .ne v353 c0_i32_267
  v354

def k0_off79 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_259 : BitVec 32 := 0#32
  let v335 : BitVec 1 := Scalar.cmpi .sgt v114 c0_i32_259
  let v336 : BitVec 32 := Scalar.extui v335
  let c0_i32_260 : BitVec 32 := 0#32
  let v337 : BitVec 1 := Scalar.cmpi .slt v114 c0_i32_260
  let v338 : BitVec 32 := Scalar.extui v337
  let v339 : BitVec 32 := Scalar.subi v336 v338
  let c5_i32_258 : BitVec 32 := 5#32
  let c0_i32_261 : BitVec 32 := 0#32
  let v340 : BitVec 1 := Scalar.cmpi .sgt c5_i32_258 c0_i32_261
  let v341 : BitVec 32 := Scalar.extui v340
  let c0_i32_262 : BitVec 32 := 0#32
  let v342 : BitVec 1 := Scalar.cmpi .slt c5_i32_258 c0_i32_262
  let v343 : BitVec 32 := Scalar.extui v342
  let v344 : BitVec 32 := Scalar.subi v341 v343
  let v345 : BitVec 1 := Scalar.cmpi .ne v339 v344
  let v346 : BitVec 32 := Scalar.remsi v114 c5_i32_258
  let c0_i32_263 : BitVec 32 := 0#32
  let v347 : BitVec 1 := Scalar.cmpi .ne v346 c0_i32_263
  let v348 : BitVec 1 := Scalar.andi v345 v347
  let v334 : BitVec 32 := Scalar.divsi v114 c5_i32_258
  let c1_i32_264 : BitVec 32 := 1#32
  let v349 : BitVec 32 := Scalar.subi v334 c1_i32_264
  let v350 : BitVec 32 := Scalar.select v348 v349 v334
  let c0_i32_265 : BitVec 32 := 0#32
  let v351 : BitVec 32 := Scalar.addi v350 c0_i32_265
  let v615 : BitVec 32 := Scalar.addi v2 v351
  let c120_i32_450 : BitVec 32 := 120#32
  let c0_i32_451 : BitVec 32 := 0#32
  ![v615.toNat, 120, 0]
def k0_cond14 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c4_i32_249 : BitVec 32 := 4#32
  let v315 : BitVec 32 := Scalar.addi v114 c4_i32_249
  let c5_i32_268 : BitVec 32 := 5#32
  let v355 : BitVec 32 := Scalar.addi v315 c5_i32_268
  let c640_i32_269 : BitVec 32 := 640#32
  let v356 : BitVec 1 := Scalar.cmpi .slt v355 c640_i32_269
  let v357 : BitVec 32 := Scalar.extui v356
  let c0_i32_270 : BitVec 32 := 0#32
  let v358 : BitVec 1 := Scalar.cmpi .ne v357 c0_i32_270
  v358

def k0_cond15 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c4_i32_249 : BitVec 32 := 4#32
  let v315 : BitVec 32 := Scalar.addi v114 c4_i32_249
  let c5_i32_447 : BitVec 32 := 5#32
  let v615 : BitVec 1 := Scalar.cmpi .sge v315 c5_i32_447
  let v616 : BitVec 32 := Scalar.extui v615
  let c0_i32_448 : BitVec 32 := 0#32
  let v617 : BitVec 1 := Scalar.cmpi .ne v616 c0_i32_448
  v617

def k0_off80 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_459 : BitVec 32 := 0#32
  let c0_i32_460 : BitVec 32 := 0#32
  ![v2.toNat, 0, 0]
def k0_off81 (k0_t1 : Fin k0_t1_loop.trips) : Fin 1 → Nat :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c4_i32_249 : BitVec 32 := 4#32
  let v315 : BitVec 32 := Scalar.addi v114 c4_i32_249
  let c5_i32_449 : BitVec 32 := 5#32
  let v618 : BitVec 32 := Scalar.addi v315 c5_i32_449
  let c40_i32_450 : BitVec 32 := 40#32
  let v619 : BitVec 32 := Scalar.muli v618 c40_i32_450
  ![v619.toNat]
@[reducible] def k0_t6_loop : Scf.Loop 32 :=
  let c0_i32_278 : BitVec 32 := 0#32
  let c40_i32_279 : BitVec 32 := 40#32
  let v364 : BitVec 32 := Scalar.addi c0_i32_278 c40_i32_279
  let c1_i32_280 : BitVec 32 := 1#32
  ⟨c0_i32_278, v364, c1_i32_280⟩
def k0_off82 (k0_t6 : Fin k0_t6_loop.trips) : Fin 2 → Nat :=
  let c0_i32_278 : BitVec 32 := 0#32
  let c1_i32_280 : BitVec 32 := 1#32
  let arg30 : BitVec 32 := Scf.iv c0_i32_278 c1_i32_280 k0_t6
  let v617 : Index := Scalar.indexCast arg30
  let c0 : Index := 0#32
  ![v617.toNat, 0]
def k0_off83 (k0_t6 : Fin k0_t6_loop.trips) : Fin 2 → Nat :=
  let c160_i32_449 : BitVec 32 := 160#32
  let c0_i32_278 : BitVec 32 := 0#32
  let c1_i32_280 : BitVec 32 := 1#32
  let arg30 : BitVec 32 := Scf.iv c0_i32_278 c1_i32_280 k0_t6
  let v622 : BitVec 32 := Scalar.addi c160_i32_449 arg30
  let v623 : Index := Scalar.indexCast v622
  let c0_450 : Index := 0#32
  ![v623.toNat, 0]
def k0_off84 (k0_t6 : Fin k0_t6_loop.trips) : Fin 2 → Nat :=
  let c0_i32_278 : BitVec 32 := 0#32
  let c1_i32_280 : BitVec 32 := 1#32
  let arg30 : BitVec 32 := Scf.iv c0_i32_278 c1_i32_280 k0_t6
  let v635 : Index := Scalar.indexCast arg30
  let c16 : Index := 16#32
  ![v635.toNat, 16]
def k0_off85 (k0_t6 : Fin k0_t6_loop.trips) : Fin 2 → Nat :=
  let c160_i32_457 : BitVec 32 := 160#32
  let c0_i32_278 : BitVec 32 := 0#32
  let c1_i32_280 : BitVec 32 := 1#32
  let arg30 : BitVec 32 := Scf.iv c0_i32_278 c1_i32_280 k0_t6
  let v640 : BitVec 32 := Scalar.addi c160_i32_457 arg30
  let v641 : Index := Scalar.indexCast v640
  let c16_458 : Index := 16#32
  ![v641.toNat, 16]
def k0_off86 (k0_t6 : Fin k0_t6_loop.trips) : Fin 2 → Nat :=
  let c0_i32_278 : BitVec 32 := 0#32
  let c1_i32_280 : BitVec 32 := 1#32
  let arg30 : BitVec 32 := Scf.iv c0_i32_278 c1_i32_280 k0_t6
  let v653 : Index := Scalar.indexCast arg30
  let c32 : Index := 32#32
  ![v653.toNat, 32]
def k0_off87 (k0_t6 : Fin k0_t6_loop.trips) : Fin 2 → Nat :=
  let c160_i32_465 : BitVec 32 := 160#32
  let c0_i32_278 : BitVec 32 := 0#32
  let c1_i32_280 : BitVec 32 := 1#32
  let arg30 : BitVec 32 := Scf.iv c0_i32_278 c1_i32_280 k0_t6
  let v658 : BitVec 32 := Scalar.addi c160_i32_465 arg30
  let v659 : Index := Scalar.indexCast v658
  let c32_466 : Index := 32#32
  ![v659.toNat, 32]
def k0_off88 (k0_t6 : Fin k0_t6_loop.trips) : Fin 2 → Nat :=
  let c0_i32_278 : BitVec 32 := 0#32
  let c1_i32_280 : BitVec 32 := 1#32
  let arg30 : BitVec 32 := Scf.iv c0_i32_278 c1_i32_280 k0_t6
  let v671 : Index := Scalar.indexCast arg30
  let c48 : Index := 48#32
  ![v671.toNat, 48]
def k0_off89 (k0_t6 : Fin k0_t6_loop.trips) : Fin 2 → Nat :=
  let c160_i32_473 : BitVec 32 := 160#32
  let c0_i32_278 : BitVec 32 := 0#32
  let c1_i32_280 : BitVec 32 := 1#32
  let arg30 : BitVec 32 := Scf.iv c0_i32_278 c1_i32_280 k0_t6
  let v676 : BitVec 32 := Scalar.addi c160_i32_473 arg30
  let v677 : Index := Scalar.indexCast v676
  let c48_474 : Index := 48#32
  ![v677.toNat, 48]
def k0_off90 (k0_t6 : Fin k0_t6_loop.trips) : Fin 2 → Nat :=
  let c0_i32_278 : BitVec 32 := 0#32
  let c1_i32_280 : BitVec 32 := 1#32
  let arg30 : BitVec 32 := Scf.iv c0_i32_278 c1_i32_280 k0_t6
  let v689 : Index := Scalar.indexCast arg30
  let c64 : Index := 64#32
  ![v689.toNat, 64]
def k0_off91 (k0_t6 : Fin k0_t6_loop.trips) : Fin 2 → Nat :=
  let c160_i32_481 : BitVec 32 := 160#32
  let c0_i32_278 : BitVec 32 := 0#32
  let c1_i32_280 : BitVec 32 := 1#32
  let arg30 : BitVec 32 := Scf.iv c0_i32_278 c1_i32_280 k0_t6
  let v694 : BitVec 32 := Scalar.addi c160_i32_481 arg30
  let v695 : Index := Scalar.indexCast v694
  let c64_482 : Index := 64#32
  ![v695.toNat, 64]
def k0_off92 (k0_t6 : Fin k0_t6_loop.trips) : Fin 2 → Nat :=
  let c0_i32_278 : BitVec 32 := 0#32
  let c1_i32_280 : BitVec 32 := 1#32
  let arg30 : BitVec 32 := Scf.iv c0_i32_278 c1_i32_280 k0_t6
  let v707 : Index := Scalar.indexCast arg30
  let c80 : Index := 80#32
  ![v707.toNat, 80]
def k0_off93 (k0_t6 : Fin k0_t6_loop.trips) : Fin 2 → Nat :=
  let c160_i32_489 : BitVec 32 := 160#32
  let c0_i32_278 : BitVec 32 := 0#32
  let c1_i32_280 : BitVec 32 := 1#32
  let arg30 : BitVec 32 := Scf.iv c0_i32_278 c1_i32_280 k0_t6
  let v712 : BitVec 32 := Scalar.addi c160_i32_489 arg30
  let v713 : Index := Scalar.indexCast v712
  let c80_490 : Index := 80#32
  ![v713.toNat, 80]
def k0_off94 (k0_t6 : Fin k0_t6_loop.trips) : Fin 2 → Nat :=
  let c0_i32_278 : BitVec 32 := 0#32
  let c1_i32_280 : BitVec 32 := 1#32
  let arg30 : BitVec 32 := Scf.iv c0_i32_278 c1_i32_280 k0_t6
  let v725 : Index := Scalar.indexCast arg30
  let c96 : Index := 96#32
  ![v725.toNat, 96]
def k0_off95 (k0_t6 : Fin k0_t6_loop.trips) : Fin 2 → Nat :=
  let c160_i32_497 : BitVec 32 := 160#32
  let c0_i32_278 : BitVec 32 := 0#32
  let c1_i32_280 : BitVec 32 := 1#32
  let arg30 : BitVec 32 := Scf.iv c0_i32_278 c1_i32_280 k0_t6
  let v730 : BitVec 32 := Scalar.addi c160_i32_497 arg30
  let v731 : Index := Scalar.indexCast v730
  let c96_498 : Index := 96#32
  ![v731.toNat, 96]
def k0_off96 (k0_t6 : Fin k0_t6_loop.trips) : Fin 2 → Nat :=
  let c0_i32_278 : BitVec 32 := 0#32
  let c1_i32_280 : BitVec 32 := 1#32
  let arg30 : BitVec 32 := Scf.iv c0_i32_278 c1_i32_280 k0_t6
  let v743 : Index := Scalar.indexCast arg30
  let c112 : Index := 112#32
  ![v743.toNat, 112]
def k0_off97 (k0_t6 : Fin k0_t6_loop.trips) : Fin 2 → Nat :=
  let c160_i32_505 : BitVec 32 := 160#32
  let c0_i32_278 : BitVec 32 := 0#32
  let c1_i32_280 : BitVec 32 := 1#32
  let arg30 : BitVec 32 := Scf.iv c0_i32_278 c1_i32_280 k0_t6
  let v748 : BitVec 32 := Scalar.addi c160_i32_505 arg30
  let v749 : Index := Scalar.indexCast v748
  let c112_506 : Index := 112#32
  ![v749.toNat, 112]
def k0_cond16 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c5_i32_282 : BitVec 32 := 5#32
  let v365 : BitVec 32 := Scalar.addi v114 c5_i32_282
  let c1_i32_299 : BitVec 32 := 1#32
  let v402 : BitVec 1 := Scalar.cmpi .sge v365 c1_i32_299
  let v403 : BitVec 32 := Scalar.extui v402
  let c0_i32_300 : BitVec 32 := 0#32
  let v404 : BitVec 1 := Scalar.cmpi .ne v403 c0_i32_300
  v404

def k0_off98 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_292 : BitVec 32 := 0#32
  let v385 : BitVec 1 := Scalar.cmpi .sgt v114 c0_i32_292
  let v386 : BitVec 32 := Scalar.extui v385
  let c0_i32_293 : BitVec 32 := 0#32
  let v387 : BitVec 1 := Scalar.cmpi .slt v114 c0_i32_293
  let v388 : BitVec 32 := Scalar.extui v387
  let v389 : BitVec 32 := Scalar.subi v386 v388
  let c5_i32_291 : BitVec 32 := 5#32
  let c0_i32_294 : BitVec 32 := 0#32
  let v390 : BitVec 1 := Scalar.cmpi .sgt c5_i32_291 c0_i32_294
  let v391 : BitVec 32 := Scalar.extui v390
  let c0_i32_295 : BitVec 32 := 0#32
  let v392 : BitVec 1 := Scalar.cmpi .slt c5_i32_291 c0_i32_295
  let v393 : BitVec 32 := Scalar.extui v392
  let v394 : BitVec 32 := Scalar.subi v391 v393
  let v395 : BitVec 1 := Scalar.cmpi .ne v389 v394
  let v396 : BitVec 32 := Scalar.remsi v114 c5_i32_291
  let c0_i32_296 : BitVec 32 := 0#32
  let v397 : BitVec 1 := Scalar.cmpi .ne v396 c0_i32_296
  let v398 : BitVec 1 := Scalar.andi v395 v397
  let v384 : BitVec 32 := Scalar.divsi v114 c5_i32_291
  let c1_i32_297 : BitVec 32 := 1#32
  let v399 : BitVec 32 := Scalar.subi v384 c1_i32_297
  let v400 : BitVec 32 := Scalar.select v398 v399 v384
  let c0_i32_298 : BitVec 32 := 0#32
  let v401 : BitVec 32 := Scalar.addi v400 c0_i32_298
  let v615 : BitVec 32 := Scalar.addi v2 v401
  let c160_i32_450 : BitVec 32 := 160#32
  let c0_i32_451 : BitVec 32 := 0#32
  ![v615.toNat, 160, 0]
def k0_cond17 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c5_i32_282 : BitVec 32 := 5#32
  let v365 : BitVec 32 := Scalar.addi v114 c5_i32_282
  let c5_i32_301 : BitVec 32 := 5#32
  let v405 : BitVec 32 := Scalar.addi v365 c5_i32_301
  let c640_i32_302 : BitVec 32 := 640#32
  let v406 : BitVec 1 := Scalar.cmpi .slt v405 c640_i32_302
  let v407 : BitVec 32 := Scalar.extui v406
  let c0_i32_303 : BitVec 32 := 0#32
  let v408 : BitVec 1 := Scalar.cmpi .ne v407 c0_i32_303
  v408

def k0_cond18 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c5_i32_282 : BitVec 32 := 5#32
  let v365 : BitVec 32 := Scalar.addi v114 c5_i32_282
  let c5_i32_447 : BitVec 32 := 5#32
  let v615 : BitVec 1 := Scalar.cmpi .sge v365 c5_i32_447
  let v616 : BitVec 32 := Scalar.extui v615
  let c0_i32_448 : BitVec 32 := 0#32
  let v617 : BitVec 1 := Scalar.cmpi .ne v616 c0_i32_448
  v617

def k0_off99 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_459 : BitVec 32 := 0#32
  let c0_i32_460 : BitVec 32 := 0#32
  ![v2.toNat, 0, 0]
def k0_off100 (k0_t1 : Fin k0_t1_loop.trips) : Fin 1 → Nat :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c5_i32_282 : BitVec 32 := 5#32
  let v365 : BitVec 32 := Scalar.addi v114 c5_i32_282
  let c5_i32_449 : BitVec 32 := 5#32
  let v618 : BitVec 32 := Scalar.addi v365 c5_i32_449
  let c40_i32_450 : BitVec 32 := 40#32
  let v619 : BitVec 32 := Scalar.muli v618 c40_i32_450
  ![v619.toNat]
@[reducible] def k0_t7_loop : Scf.Loop 32 :=
  let c0_i32_311 : BitVec 32 := 0#32
  let c40_i32_312 : BitVec 32 := 40#32
  let v414 : BitVec 32 := Scalar.addi c0_i32_311 c40_i32_312
  let c1_i32_313 : BitVec 32 := 1#32
  ⟨c0_i32_311, v414, c1_i32_313⟩
def k0_off101 (k0_t7 : Fin k0_t7_loop.trips) : Fin 2 → Nat :=
  let c0_i32_311 : BitVec 32 := 0#32
  let c1_i32_313 : BitVec 32 := 1#32
  let arg30 : BitVec 32 := Scf.iv c0_i32_311 c1_i32_313 k0_t7
  let v617 : Index := Scalar.indexCast arg30
  let c0 : Index := 0#32
  ![v617.toNat, 0]
def k0_off102 (k0_t7 : Fin k0_t7_loop.trips) : Fin 2 → Nat :=
  let c0_i32_449 : BitVec 32 := 0#32
  let c0_i32_311 : BitVec 32 := 0#32
  let c1_i32_313 : BitVec 32 := 1#32
  let arg30 : BitVec 32 := Scf.iv c0_i32_311 c1_i32_313 k0_t7
  let v622 : BitVec 32 := Scalar.addi c0_i32_449 arg30
  let v623 : Index := Scalar.indexCast v622
  let c0_450 : Index := 0#32
  ![v623.toNat, 0]
def k0_off103 (k0_t7 : Fin k0_t7_loop.trips) : Fin 2 → Nat :=
  let c0_i32_311 : BitVec 32 := 0#32
  let c1_i32_313 : BitVec 32 := 1#32
  let arg30 : BitVec 32 := Scf.iv c0_i32_311 c1_i32_313 k0_t7
  let v635 : Index := Scalar.indexCast arg30
  let c16 : Index := 16#32
  ![v635.toNat, 16]
def k0_off104 (k0_t7 : Fin k0_t7_loop.trips) : Fin 2 → Nat :=
  let c0_i32_457 : BitVec 32 := 0#32
  let c0_i32_311 : BitVec 32 := 0#32
  let c1_i32_313 : BitVec 32 := 1#32
  let arg30 : BitVec 32 := Scf.iv c0_i32_311 c1_i32_313 k0_t7
  let v640 : BitVec 32 := Scalar.addi c0_i32_457 arg30
  let v641 : Index := Scalar.indexCast v640
  let c16_458 : Index := 16#32
  ![v641.toNat, 16]
def k0_off105 (k0_t7 : Fin k0_t7_loop.trips) : Fin 2 → Nat :=
  let c0_i32_311 : BitVec 32 := 0#32
  let c1_i32_313 : BitVec 32 := 1#32
  let arg30 : BitVec 32 := Scf.iv c0_i32_311 c1_i32_313 k0_t7
  let v653 : Index := Scalar.indexCast arg30
  let c32 : Index := 32#32
  ![v653.toNat, 32]
def k0_off106 (k0_t7 : Fin k0_t7_loop.trips) : Fin 2 → Nat :=
  let c0_i32_465 : BitVec 32 := 0#32
  let c0_i32_311 : BitVec 32 := 0#32
  let c1_i32_313 : BitVec 32 := 1#32
  let arg30 : BitVec 32 := Scf.iv c0_i32_311 c1_i32_313 k0_t7
  let v658 : BitVec 32 := Scalar.addi c0_i32_465 arg30
  let v659 : Index := Scalar.indexCast v658
  let c32_466 : Index := 32#32
  ![v659.toNat, 32]
def k0_off107 (k0_t7 : Fin k0_t7_loop.trips) : Fin 2 → Nat :=
  let c0_i32_311 : BitVec 32 := 0#32
  let c1_i32_313 : BitVec 32 := 1#32
  let arg30 : BitVec 32 := Scf.iv c0_i32_311 c1_i32_313 k0_t7
  let v671 : Index := Scalar.indexCast arg30
  let c48 : Index := 48#32
  ![v671.toNat, 48]
def k0_off108 (k0_t7 : Fin k0_t7_loop.trips) : Fin 2 → Nat :=
  let c0_i32_473 : BitVec 32 := 0#32
  let c0_i32_311 : BitVec 32 := 0#32
  let c1_i32_313 : BitVec 32 := 1#32
  let arg30 : BitVec 32 := Scf.iv c0_i32_311 c1_i32_313 k0_t7
  let v676 : BitVec 32 := Scalar.addi c0_i32_473 arg30
  let v677 : Index := Scalar.indexCast v676
  let c48_474 : Index := 48#32
  ![v677.toNat, 48]
def k0_off109 (k0_t7 : Fin k0_t7_loop.trips) : Fin 2 → Nat :=
  let c0_i32_311 : BitVec 32 := 0#32
  let c1_i32_313 : BitVec 32 := 1#32
  let arg30 : BitVec 32 := Scf.iv c0_i32_311 c1_i32_313 k0_t7
  let v689 : Index := Scalar.indexCast arg30
  let c64 : Index := 64#32
  ![v689.toNat, 64]
def k0_off110 (k0_t7 : Fin k0_t7_loop.trips) : Fin 2 → Nat :=
  let c0_i32_481 : BitVec 32 := 0#32
  let c0_i32_311 : BitVec 32 := 0#32
  let c1_i32_313 : BitVec 32 := 1#32
  let arg30 : BitVec 32 := Scf.iv c0_i32_311 c1_i32_313 k0_t7
  let v694 : BitVec 32 := Scalar.addi c0_i32_481 arg30
  let v695 : Index := Scalar.indexCast v694
  let c64_482 : Index := 64#32
  ![v695.toNat, 64]
def k0_off111 (k0_t7 : Fin k0_t7_loop.trips) : Fin 2 → Nat :=
  let c0_i32_311 : BitVec 32 := 0#32
  let c1_i32_313 : BitVec 32 := 1#32
  let arg30 : BitVec 32 := Scf.iv c0_i32_311 c1_i32_313 k0_t7
  let v707 : Index := Scalar.indexCast arg30
  let c80 : Index := 80#32
  ![v707.toNat, 80]
def k0_off112 (k0_t7 : Fin k0_t7_loop.trips) : Fin 2 → Nat :=
  let c0_i32_489 : BitVec 32 := 0#32
  let c0_i32_311 : BitVec 32 := 0#32
  let c1_i32_313 : BitVec 32 := 1#32
  let arg30 : BitVec 32 := Scf.iv c0_i32_311 c1_i32_313 k0_t7
  let v712 : BitVec 32 := Scalar.addi c0_i32_489 arg30
  let v713 : Index := Scalar.indexCast v712
  let c80_490 : Index := 80#32
  ![v713.toNat, 80]
def k0_off113 (k0_t7 : Fin k0_t7_loop.trips) : Fin 2 → Nat :=
  let c0_i32_311 : BitVec 32 := 0#32
  let c1_i32_313 : BitVec 32 := 1#32
  let arg30 : BitVec 32 := Scf.iv c0_i32_311 c1_i32_313 k0_t7
  let v725 : Index := Scalar.indexCast arg30
  let c96 : Index := 96#32
  ![v725.toNat, 96]
def k0_off114 (k0_t7 : Fin k0_t7_loop.trips) : Fin 2 → Nat :=
  let c0_i32_497 : BitVec 32 := 0#32
  let c0_i32_311 : BitVec 32 := 0#32
  let c1_i32_313 : BitVec 32 := 1#32
  let arg30 : BitVec 32 := Scf.iv c0_i32_311 c1_i32_313 k0_t7
  let v730 : BitVec 32 := Scalar.addi c0_i32_497 arg30
  let v731 : Index := Scalar.indexCast v730
  let c96_498 : Index := 96#32
  ![v731.toNat, 96]
def k0_off115 (k0_t7 : Fin k0_t7_loop.trips) : Fin 2 → Nat :=
  let c0_i32_311 : BitVec 32 := 0#32
  let c1_i32_313 : BitVec 32 := 1#32
  let arg30 : BitVec 32 := Scf.iv c0_i32_311 c1_i32_313 k0_t7
  let v743 : Index := Scalar.indexCast arg30
  let c112 : Index := 112#32
  ![v743.toNat, 112]
def k0_off116 (k0_t7 : Fin k0_t7_loop.trips) : Fin 2 → Nat :=
  let c0_i32_505 : BitVec 32 := 0#32
  let c0_i32_311 : BitVec 32 := 0#32
  let c1_i32_313 : BitVec 32 := 1#32
  let arg30 : BitVec 32 := Scf.iv c0_i32_311 c1_i32_313 k0_t7
  let v748 : BitVec 32 := Scalar.addi c0_i32_505 arg30
  let v749 : Index := Scalar.indexCast v748
  let c112_506 : Index := 112#32
  ![v749.toNat, 112]
def k0_cond19 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c6_i32_315 : BitVec 32 := 6#32
  let v415 : BitVec 32 := Scalar.addi v114 c6_i32_315
  let c1_i32_332 : BitVec 32 := 1#32
  let v452 : BitVec 1 := Scalar.cmpi .sge v415 c1_i32_332
  let v453 : BitVec 32 := Scalar.extui v452
  let c0_i32_333 : BitVec 32 := 0#32
  let v454 : BitVec 1 := Scalar.cmpi .ne v453 c0_i32_333
  v454

def k0_off117 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_325 : BitVec 32 := 0#32
  let v435 : BitVec 1 := Scalar.cmpi .sgt v114 c0_i32_325
  let v436 : BitVec 32 := Scalar.extui v435
  let c0_i32_326 : BitVec 32 := 0#32
  let v437 : BitVec 1 := Scalar.cmpi .slt v114 c0_i32_326
  let v438 : BitVec 32 := Scalar.extui v437
  let v439 : BitVec 32 := Scalar.subi v436 v438
  let c5_i32_324 : BitVec 32 := 5#32
  let c0_i32_327 : BitVec 32 := 0#32
  let v440 : BitVec 1 := Scalar.cmpi .sgt c5_i32_324 c0_i32_327
  let v441 : BitVec 32 := Scalar.extui v440
  let c0_i32_328 : BitVec 32 := 0#32
  let v442 : BitVec 1 := Scalar.cmpi .slt c5_i32_324 c0_i32_328
  let v443 : BitVec 32 := Scalar.extui v442
  let v444 : BitVec 32 := Scalar.subi v441 v443
  let v445 : BitVec 1 := Scalar.cmpi .ne v439 v444
  let v446 : BitVec 32 := Scalar.remsi v114 c5_i32_324
  let c0_i32_329 : BitVec 32 := 0#32
  let v447 : BitVec 1 := Scalar.cmpi .ne v446 c0_i32_329
  let v448 : BitVec 1 := Scalar.andi v445 v447
  let v434 : BitVec 32 := Scalar.divsi v114 c5_i32_324
  let c1_i32_330 : BitVec 32 := 1#32
  let v449 : BitVec 32 := Scalar.subi v434 c1_i32_330
  let v450 : BitVec 32 := Scalar.select v448 v449 v434
  let c1_i32_331 : BitVec 32 := 1#32
  let v451 : BitVec 32 := Scalar.addi v450 c1_i32_331
  let v615 : BitVec 32 := Scalar.addi v2 v451
  let c0_i32_450 : BitVec 32 := 0#32
  let c0_i32_451 : BitVec 32 := 0#32
  ![v615.toNat, 0, 0]
def k0_cond20 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c6_i32_315 : BitVec 32 := 6#32
  let v415 : BitVec 32 := Scalar.addi v114 c6_i32_315
  let c5_i32_334 : BitVec 32 := 5#32
  let v455 : BitVec 32 := Scalar.addi v415 c5_i32_334
  let c640_i32_335 : BitVec 32 := 640#32
  let v456 : BitVec 1 := Scalar.cmpi .slt v455 c640_i32_335
  let v457 : BitVec 32 := Scalar.extui v456
  let c0_i32_336 : BitVec 32 := 0#32
  let v458 : BitVec 1 := Scalar.cmpi .ne v457 c0_i32_336
  v458

def k0_cond21 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c6_i32_315 : BitVec 32 := 6#32
  let v415 : BitVec 32 := Scalar.addi v114 c6_i32_315
  let c5_i32_447 : BitVec 32 := 5#32
  let v615 : BitVec 1 := Scalar.cmpi .sge v415 c5_i32_447
  let v616 : BitVec 32 := Scalar.extui v615
  let c0_i32_448 : BitVec 32 := 0#32
  let v617 : BitVec 1 := Scalar.cmpi .ne v616 c0_i32_448
  v617

def k0_off118 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_459 : BitVec 32 := 0#32
  let c0_i32_460 : BitVec 32 := 0#32
  ![v2.toNat, 0, 0]
def k0_off119 (k0_t1 : Fin k0_t1_loop.trips) : Fin 1 → Nat :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c6_i32_315 : BitVec 32 := 6#32
  let v415 : BitVec 32 := Scalar.addi v114 c6_i32_315
  let c5_i32_449 : BitVec 32 := 5#32
  let v618 : BitVec 32 := Scalar.addi v415 c5_i32_449
  let c40_i32_450 : BitVec 32 := 40#32
  let v619 : BitVec 32 := Scalar.muli v618 c40_i32_450
  ![v619.toNat]
@[reducible] def k0_t8_loop : Scf.Loop 32 :=
  let c0_i32_344 : BitVec 32 := 0#32
  let c40_i32_345 : BitVec 32 := 40#32
  let v464 : BitVec 32 := Scalar.addi c0_i32_344 c40_i32_345
  let c1_i32_346 : BitVec 32 := 1#32
  ⟨c0_i32_344, v464, c1_i32_346⟩
def k0_off120 (k0_t8 : Fin k0_t8_loop.trips) : Fin 2 → Nat :=
  let c0_i32_344 : BitVec 32 := 0#32
  let c1_i32_346 : BitVec 32 := 1#32
  let arg30 : BitVec 32 := Scf.iv c0_i32_344 c1_i32_346 k0_t8
  let v617 : Index := Scalar.indexCast arg30
  let c0 : Index := 0#32
  ![v617.toNat, 0]
def k0_off121 (k0_t8 : Fin k0_t8_loop.trips) : Fin 2 → Nat :=
  let c40_i32_449 : BitVec 32 := 40#32
  let c0_i32_344 : BitVec 32 := 0#32
  let c1_i32_346 : BitVec 32 := 1#32
  let arg30 : BitVec 32 := Scf.iv c0_i32_344 c1_i32_346 k0_t8
  let v622 : BitVec 32 := Scalar.addi c40_i32_449 arg30
  let v623 : Index := Scalar.indexCast v622
  let c0_450 : Index := 0#32
  ![v623.toNat, 0]
def k0_off122 (k0_t8 : Fin k0_t8_loop.trips) : Fin 2 → Nat :=
  let c0_i32_344 : BitVec 32 := 0#32
  let c1_i32_346 : BitVec 32 := 1#32
  let arg30 : BitVec 32 := Scf.iv c0_i32_344 c1_i32_346 k0_t8
  let v635 : Index := Scalar.indexCast arg30
  let c16 : Index := 16#32
  ![v635.toNat, 16]
def k0_off123 (k0_t8 : Fin k0_t8_loop.trips) : Fin 2 → Nat :=
  let c40_i32_457 : BitVec 32 := 40#32
  let c0_i32_344 : BitVec 32 := 0#32
  let c1_i32_346 : BitVec 32 := 1#32
  let arg30 : BitVec 32 := Scf.iv c0_i32_344 c1_i32_346 k0_t8
  let v640 : BitVec 32 := Scalar.addi c40_i32_457 arg30
  let v641 : Index := Scalar.indexCast v640
  let c16_458 : Index := 16#32
  ![v641.toNat, 16]
def k0_off124 (k0_t8 : Fin k0_t8_loop.trips) : Fin 2 → Nat :=
  let c0_i32_344 : BitVec 32 := 0#32
  let c1_i32_346 : BitVec 32 := 1#32
  let arg30 : BitVec 32 := Scf.iv c0_i32_344 c1_i32_346 k0_t8
  let v653 : Index := Scalar.indexCast arg30
  let c32 : Index := 32#32
  ![v653.toNat, 32]
def k0_off125 (k0_t8 : Fin k0_t8_loop.trips) : Fin 2 → Nat :=
  let c40_i32_465 : BitVec 32 := 40#32
  let c0_i32_344 : BitVec 32 := 0#32
  let c1_i32_346 : BitVec 32 := 1#32
  let arg30 : BitVec 32 := Scf.iv c0_i32_344 c1_i32_346 k0_t8
  let v658 : BitVec 32 := Scalar.addi c40_i32_465 arg30
  let v659 : Index := Scalar.indexCast v658
  let c32_466 : Index := 32#32
  ![v659.toNat, 32]
def k0_off126 (k0_t8 : Fin k0_t8_loop.trips) : Fin 2 → Nat :=
  let c0_i32_344 : BitVec 32 := 0#32
  let c1_i32_346 : BitVec 32 := 1#32
  let arg30 : BitVec 32 := Scf.iv c0_i32_344 c1_i32_346 k0_t8
  let v671 : Index := Scalar.indexCast arg30
  let c48 : Index := 48#32
  ![v671.toNat, 48]
def k0_off127 (k0_t8 : Fin k0_t8_loop.trips) : Fin 2 → Nat :=
  let c40_i32_473 : BitVec 32 := 40#32
  let c0_i32_344 : BitVec 32 := 0#32
  let c1_i32_346 : BitVec 32 := 1#32
  let arg30 : BitVec 32 := Scf.iv c0_i32_344 c1_i32_346 k0_t8
  let v676 : BitVec 32 := Scalar.addi c40_i32_473 arg30
  let v677 : Index := Scalar.indexCast v676
  let c48_474 : Index := 48#32
  ![v677.toNat, 48]
def k0_off128 (k0_t8 : Fin k0_t8_loop.trips) : Fin 2 → Nat :=
  let c0_i32_344 : BitVec 32 := 0#32
  let c1_i32_346 : BitVec 32 := 1#32
  let arg30 : BitVec 32 := Scf.iv c0_i32_344 c1_i32_346 k0_t8
  let v689 : Index := Scalar.indexCast arg30
  let c64 : Index := 64#32
  ![v689.toNat, 64]
def k0_off129 (k0_t8 : Fin k0_t8_loop.trips) : Fin 2 → Nat :=
  let c40_i32_481 : BitVec 32 := 40#32
  let c0_i32_344 : BitVec 32 := 0#32
  let c1_i32_346 : BitVec 32 := 1#32
  let arg30 : BitVec 32 := Scf.iv c0_i32_344 c1_i32_346 k0_t8
  let v694 : BitVec 32 := Scalar.addi c40_i32_481 arg30
  let v695 : Index := Scalar.indexCast v694
  let c64_482 : Index := 64#32
  ![v695.toNat, 64]
def k0_off130 (k0_t8 : Fin k0_t8_loop.trips) : Fin 2 → Nat :=
  let c0_i32_344 : BitVec 32 := 0#32
  let c1_i32_346 : BitVec 32 := 1#32
  let arg30 : BitVec 32 := Scf.iv c0_i32_344 c1_i32_346 k0_t8
  let v707 : Index := Scalar.indexCast arg30
  let c80 : Index := 80#32
  ![v707.toNat, 80]
def k0_off131 (k0_t8 : Fin k0_t8_loop.trips) : Fin 2 → Nat :=
  let c40_i32_489 : BitVec 32 := 40#32
  let c0_i32_344 : BitVec 32 := 0#32
  let c1_i32_346 : BitVec 32 := 1#32
  let arg30 : BitVec 32 := Scf.iv c0_i32_344 c1_i32_346 k0_t8
  let v712 : BitVec 32 := Scalar.addi c40_i32_489 arg30
  let v713 : Index := Scalar.indexCast v712
  let c80_490 : Index := 80#32
  ![v713.toNat, 80]
def k0_off132 (k0_t8 : Fin k0_t8_loop.trips) : Fin 2 → Nat :=
  let c0_i32_344 : BitVec 32 := 0#32
  let c1_i32_346 : BitVec 32 := 1#32
  let arg30 : BitVec 32 := Scf.iv c0_i32_344 c1_i32_346 k0_t8
  let v725 : Index := Scalar.indexCast arg30
  let c96 : Index := 96#32
  ![v725.toNat, 96]
def k0_off133 (k0_t8 : Fin k0_t8_loop.trips) : Fin 2 → Nat :=
  let c40_i32_497 : BitVec 32 := 40#32
  let c0_i32_344 : BitVec 32 := 0#32
  let c1_i32_346 : BitVec 32 := 1#32
  let arg30 : BitVec 32 := Scf.iv c0_i32_344 c1_i32_346 k0_t8
  let v730 : BitVec 32 := Scalar.addi c40_i32_497 arg30
  let v731 : Index := Scalar.indexCast v730
  let c96_498 : Index := 96#32
  ![v731.toNat, 96]
def k0_off134 (k0_t8 : Fin k0_t8_loop.trips) : Fin 2 → Nat :=
  let c0_i32_344 : BitVec 32 := 0#32
  let c1_i32_346 : BitVec 32 := 1#32
  let arg30 : BitVec 32 := Scf.iv c0_i32_344 c1_i32_346 k0_t8
  let v743 : Index := Scalar.indexCast arg30
  let c112 : Index := 112#32
  ![v743.toNat, 112]
def k0_off135 (k0_t8 : Fin k0_t8_loop.trips) : Fin 2 → Nat :=
  let c40_i32_505 : BitVec 32 := 40#32
  let c0_i32_344 : BitVec 32 := 0#32
  let c1_i32_346 : BitVec 32 := 1#32
  let arg30 : BitVec 32 := Scf.iv c0_i32_344 c1_i32_346 k0_t8
  let v748 : BitVec 32 := Scalar.addi c40_i32_505 arg30
  let v749 : Index := Scalar.indexCast v748
  let c112_506 : Index := 112#32
  ![v749.toNat, 112]
def k0_cond22 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c7_i32_348 : BitVec 32 := 7#32
  let v465 : BitVec 32 := Scalar.addi v114 c7_i32_348
  let c1_i32_365 : BitVec 32 := 1#32
  let v502 : BitVec 1 := Scalar.cmpi .sge v465 c1_i32_365
  let v503 : BitVec 32 := Scalar.extui v502
  let c0_i32_366 : BitVec 32 := 0#32
  let v504 : BitVec 1 := Scalar.cmpi .ne v503 c0_i32_366
  v504

def k0_off136 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_358 : BitVec 32 := 0#32
  let v485 : BitVec 1 := Scalar.cmpi .sgt v114 c0_i32_358
  let v486 : BitVec 32 := Scalar.extui v485
  let c0_i32_359 : BitVec 32 := 0#32
  let v487 : BitVec 1 := Scalar.cmpi .slt v114 c0_i32_359
  let v488 : BitVec 32 := Scalar.extui v487
  let v489 : BitVec 32 := Scalar.subi v486 v488
  let c5_i32_357 : BitVec 32 := 5#32
  let c0_i32_360 : BitVec 32 := 0#32
  let v490 : BitVec 1 := Scalar.cmpi .sgt c5_i32_357 c0_i32_360
  let v491 : BitVec 32 := Scalar.extui v490
  let c0_i32_361 : BitVec 32 := 0#32
  let v492 : BitVec 1 := Scalar.cmpi .slt c5_i32_357 c0_i32_361
  let v493 : BitVec 32 := Scalar.extui v492
  let v494 : BitVec 32 := Scalar.subi v491 v493
  let v495 : BitVec 1 := Scalar.cmpi .ne v489 v494
  let v496 : BitVec 32 := Scalar.remsi v114 c5_i32_357
  let c0_i32_362 : BitVec 32 := 0#32
  let v497 : BitVec 1 := Scalar.cmpi .ne v496 c0_i32_362
  let v498 : BitVec 1 := Scalar.andi v495 v497
  let v484 : BitVec 32 := Scalar.divsi v114 c5_i32_357
  let c1_i32_363 : BitVec 32 := 1#32
  let v499 : BitVec 32 := Scalar.subi v484 c1_i32_363
  let v500 : BitVec 32 := Scalar.select v498 v499 v484
  let c1_i32_364 : BitVec 32 := 1#32
  let v501 : BitVec 32 := Scalar.addi v500 c1_i32_364
  let v615 : BitVec 32 := Scalar.addi v2 v501
  let c40_i32_450 : BitVec 32 := 40#32
  let c0_i32_451 : BitVec 32 := 0#32
  ![v615.toNat, 40, 0]
def k0_cond23 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c7_i32_348 : BitVec 32 := 7#32
  let v465 : BitVec 32 := Scalar.addi v114 c7_i32_348
  let c5_i32_367 : BitVec 32 := 5#32
  let v505 : BitVec 32 := Scalar.addi v465 c5_i32_367
  let c640_i32_368 : BitVec 32 := 640#32
  let v506 : BitVec 1 := Scalar.cmpi .slt v505 c640_i32_368
  let v507 : BitVec 32 := Scalar.extui v506
  let c0_i32_369 : BitVec 32 := 0#32
  let v508 : BitVec 1 := Scalar.cmpi .ne v507 c0_i32_369
  v508

def k0_cond24 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c7_i32_348 : BitVec 32 := 7#32
  let v465 : BitVec 32 := Scalar.addi v114 c7_i32_348
  let c5_i32_447 : BitVec 32 := 5#32
  let v615 : BitVec 1 := Scalar.cmpi .sge v465 c5_i32_447
  let v616 : BitVec 32 := Scalar.extui v615
  let c0_i32_448 : BitVec 32 := 0#32
  let v617 : BitVec 1 := Scalar.cmpi .ne v616 c0_i32_448
  v617

def k0_off137 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_459 : BitVec 32 := 0#32
  let c0_i32_460 : BitVec 32 := 0#32
  ![v2.toNat, 0, 0]
def k0_off138 (k0_t1 : Fin k0_t1_loop.trips) : Fin 1 → Nat :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c7_i32_348 : BitVec 32 := 7#32
  let v465 : BitVec 32 := Scalar.addi v114 c7_i32_348
  let c5_i32_449 : BitVec 32 := 5#32
  let v618 : BitVec 32 := Scalar.addi v465 c5_i32_449
  let c40_i32_450 : BitVec 32 := 40#32
  let v619 : BitVec 32 := Scalar.muli v618 c40_i32_450
  ![v619.toNat]
@[reducible] def k0_t9_loop : Scf.Loop 32 :=
  let c0_i32_377 : BitVec 32 := 0#32
  let c40_i32_378 : BitVec 32 := 40#32
  let v514 : BitVec 32 := Scalar.addi c0_i32_377 c40_i32_378
  let c1_i32_379 : BitVec 32 := 1#32
  ⟨c0_i32_377, v514, c1_i32_379⟩
def k0_off139 (k0_t9 : Fin k0_t9_loop.trips) : Fin 2 → Nat :=
  let c0_i32_377 : BitVec 32 := 0#32
  let c1_i32_379 : BitVec 32 := 1#32
  let arg30 : BitVec 32 := Scf.iv c0_i32_377 c1_i32_379 k0_t9
  let v617 : Index := Scalar.indexCast arg30
  let c0 : Index := 0#32
  ![v617.toNat, 0]
def k0_off140 (k0_t9 : Fin k0_t9_loop.trips) : Fin 2 → Nat :=
  let c80_i32_449 : BitVec 32 := 80#32
  let c0_i32_377 : BitVec 32 := 0#32
  let c1_i32_379 : BitVec 32 := 1#32
  let arg30 : BitVec 32 := Scf.iv c0_i32_377 c1_i32_379 k0_t9
  let v622 : BitVec 32 := Scalar.addi c80_i32_449 arg30
  let v623 : Index := Scalar.indexCast v622
  let c0_450 : Index := 0#32
  ![v623.toNat, 0]
def k0_off141 (k0_t9 : Fin k0_t9_loop.trips) : Fin 2 → Nat :=
  let c0_i32_377 : BitVec 32 := 0#32
  let c1_i32_379 : BitVec 32 := 1#32
  let arg30 : BitVec 32 := Scf.iv c0_i32_377 c1_i32_379 k0_t9
  let v635 : Index := Scalar.indexCast arg30
  let c16 : Index := 16#32
  ![v635.toNat, 16]
def k0_off142 (k0_t9 : Fin k0_t9_loop.trips) : Fin 2 → Nat :=
  let c80_i32_457 : BitVec 32 := 80#32
  let c0_i32_377 : BitVec 32 := 0#32
  let c1_i32_379 : BitVec 32 := 1#32
  let arg30 : BitVec 32 := Scf.iv c0_i32_377 c1_i32_379 k0_t9
  let v640 : BitVec 32 := Scalar.addi c80_i32_457 arg30
  let v641 : Index := Scalar.indexCast v640
  let c16_458 : Index := 16#32
  ![v641.toNat, 16]
def k0_off143 (k0_t9 : Fin k0_t9_loop.trips) : Fin 2 → Nat :=
  let c0_i32_377 : BitVec 32 := 0#32
  let c1_i32_379 : BitVec 32 := 1#32
  let arg30 : BitVec 32 := Scf.iv c0_i32_377 c1_i32_379 k0_t9
  let v653 : Index := Scalar.indexCast arg30
  let c32 : Index := 32#32
  ![v653.toNat, 32]
def k0_off144 (k0_t9 : Fin k0_t9_loop.trips) : Fin 2 → Nat :=
  let c80_i32_465 : BitVec 32 := 80#32
  let c0_i32_377 : BitVec 32 := 0#32
  let c1_i32_379 : BitVec 32 := 1#32
  let arg30 : BitVec 32 := Scf.iv c0_i32_377 c1_i32_379 k0_t9
  let v658 : BitVec 32 := Scalar.addi c80_i32_465 arg30
  let v659 : Index := Scalar.indexCast v658
  let c32_466 : Index := 32#32
  ![v659.toNat, 32]
def k0_off145 (k0_t9 : Fin k0_t9_loop.trips) : Fin 2 → Nat :=
  let c0_i32_377 : BitVec 32 := 0#32
  let c1_i32_379 : BitVec 32 := 1#32
  let arg30 : BitVec 32 := Scf.iv c0_i32_377 c1_i32_379 k0_t9
  let v671 : Index := Scalar.indexCast arg30
  let c48 : Index := 48#32
  ![v671.toNat, 48]
def k0_off146 (k0_t9 : Fin k0_t9_loop.trips) : Fin 2 → Nat :=
  let c80_i32_473 : BitVec 32 := 80#32
  let c0_i32_377 : BitVec 32 := 0#32
  let c1_i32_379 : BitVec 32 := 1#32
  let arg30 : BitVec 32 := Scf.iv c0_i32_377 c1_i32_379 k0_t9
  let v676 : BitVec 32 := Scalar.addi c80_i32_473 arg30
  let v677 : Index := Scalar.indexCast v676
  let c48_474 : Index := 48#32
  ![v677.toNat, 48]
def k0_off147 (k0_t9 : Fin k0_t9_loop.trips) : Fin 2 → Nat :=
  let c0_i32_377 : BitVec 32 := 0#32
  let c1_i32_379 : BitVec 32 := 1#32
  let arg30 : BitVec 32 := Scf.iv c0_i32_377 c1_i32_379 k0_t9
  let v689 : Index := Scalar.indexCast arg30
  let c64 : Index := 64#32
  ![v689.toNat, 64]
def k0_off148 (k0_t9 : Fin k0_t9_loop.trips) : Fin 2 → Nat :=
  let c80_i32_481 : BitVec 32 := 80#32
  let c0_i32_377 : BitVec 32 := 0#32
  let c1_i32_379 : BitVec 32 := 1#32
  let arg30 : BitVec 32 := Scf.iv c0_i32_377 c1_i32_379 k0_t9
  let v694 : BitVec 32 := Scalar.addi c80_i32_481 arg30
  let v695 : Index := Scalar.indexCast v694
  let c64_482 : Index := 64#32
  ![v695.toNat, 64]
def k0_off149 (k0_t9 : Fin k0_t9_loop.trips) : Fin 2 → Nat :=
  let c0_i32_377 : BitVec 32 := 0#32
  let c1_i32_379 : BitVec 32 := 1#32
  let arg30 : BitVec 32 := Scf.iv c0_i32_377 c1_i32_379 k0_t9
  let v707 : Index := Scalar.indexCast arg30
  let c80 : Index := 80#32
  ![v707.toNat, 80]
def k0_off150 (k0_t9 : Fin k0_t9_loop.trips) : Fin 2 → Nat :=
  let c80_i32_489 : BitVec 32 := 80#32
  let c0_i32_377 : BitVec 32 := 0#32
  let c1_i32_379 : BitVec 32 := 1#32
  let arg30 : BitVec 32 := Scf.iv c0_i32_377 c1_i32_379 k0_t9
  let v712 : BitVec 32 := Scalar.addi c80_i32_489 arg30
  let v713 : Index := Scalar.indexCast v712
  let c80_490 : Index := 80#32
  ![v713.toNat, 80]
def k0_off151 (k0_t9 : Fin k0_t9_loop.trips) : Fin 2 → Nat :=
  let c0_i32_377 : BitVec 32 := 0#32
  let c1_i32_379 : BitVec 32 := 1#32
  let arg30 : BitVec 32 := Scf.iv c0_i32_377 c1_i32_379 k0_t9
  let v725 : Index := Scalar.indexCast arg30
  let c96 : Index := 96#32
  ![v725.toNat, 96]
def k0_off152 (k0_t9 : Fin k0_t9_loop.trips) : Fin 2 → Nat :=
  let c80_i32_497 : BitVec 32 := 80#32
  let c0_i32_377 : BitVec 32 := 0#32
  let c1_i32_379 : BitVec 32 := 1#32
  let arg30 : BitVec 32 := Scf.iv c0_i32_377 c1_i32_379 k0_t9
  let v730 : BitVec 32 := Scalar.addi c80_i32_497 arg30
  let v731 : Index := Scalar.indexCast v730
  let c96_498 : Index := 96#32
  ![v731.toNat, 96]
def k0_off153 (k0_t9 : Fin k0_t9_loop.trips) : Fin 2 → Nat :=
  let c0_i32_377 : BitVec 32 := 0#32
  let c1_i32_379 : BitVec 32 := 1#32
  let arg30 : BitVec 32 := Scf.iv c0_i32_377 c1_i32_379 k0_t9
  let v743 : Index := Scalar.indexCast arg30
  let c112 : Index := 112#32
  ![v743.toNat, 112]
def k0_off154 (k0_t9 : Fin k0_t9_loop.trips) : Fin 2 → Nat :=
  let c80_i32_505 : BitVec 32 := 80#32
  let c0_i32_377 : BitVec 32 := 0#32
  let c1_i32_379 : BitVec 32 := 1#32
  let arg30 : BitVec 32 := Scf.iv c0_i32_377 c1_i32_379 k0_t9
  let v748 : BitVec 32 := Scalar.addi c80_i32_505 arg30
  let v749 : Index := Scalar.indexCast v748
  let c112_506 : Index := 112#32
  ![v749.toNat, 112]
def k0_cond25 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c8_i32_381 : BitVec 32 := 8#32
  let v515 : BitVec 32 := Scalar.addi v114 c8_i32_381
  let c1_i32_398 : BitVec 32 := 1#32
  let v552 : BitVec 1 := Scalar.cmpi .sge v515 c1_i32_398
  let v553 : BitVec 32 := Scalar.extui v552
  let c0_i32_399 : BitVec 32 := 0#32
  let v554 : BitVec 1 := Scalar.cmpi .ne v553 c0_i32_399
  v554

def k0_off155 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_391 : BitVec 32 := 0#32
  let v535 : BitVec 1 := Scalar.cmpi .sgt v114 c0_i32_391
  let v536 : BitVec 32 := Scalar.extui v535
  let c0_i32_392 : BitVec 32 := 0#32
  let v537 : BitVec 1 := Scalar.cmpi .slt v114 c0_i32_392
  let v538 : BitVec 32 := Scalar.extui v537
  let v539 : BitVec 32 := Scalar.subi v536 v538
  let c5_i32_390 : BitVec 32 := 5#32
  let c0_i32_393 : BitVec 32 := 0#32
  let v540 : BitVec 1 := Scalar.cmpi .sgt c5_i32_390 c0_i32_393
  let v541 : BitVec 32 := Scalar.extui v540
  let c0_i32_394 : BitVec 32 := 0#32
  let v542 : BitVec 1 := Scalar.cmpi .slt c5_i32_390 c0_i32_394
  let v543 : BitVec 32 := Scalar.extui v542
  let v544 : BitVec 32 := Scalar.subi v541 v543
  let v545 : BitVec 1 := Scalar.cmpi .ne v539 v544
  let v546 : BitVec 32 := Scalar.remsi v114 c5_i32_390
  let c0_i32_395 : BitVec 32 := 0#32
  let v547 : BitVec 1 := Scalar.cmpi .ne v546 c0_i32_395
  let v548 : BitVec 1 := Scalar.andi v545 v547
  let v534 : BitVec 32 := Scalar.divsi v114 c5_i32_390
  let c1_i32_396 : BitVec 32 := 1#32
  let v549 : BitVec 32 := Scalar.subi v534 c1_i32_396
  let v550 : BitVec 32 := Scalar.select v548 v549 v534
  let c1_i32_397 : BitVec 32 := 1#32
  let v551 : BitVec 32 := Scalar.addi v550 c1_i32_397
  let v615 : BitVec 32 := Scalar.addi v2 v551
  let c80_i32_450 : BitVec 32 := 80#32
  let c0_i32_451 : BitVec 32 := 0#32
  ![v615.toNat, 80, 0]
def k0_cond26 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c8_i32_381 : BitVec 32 := 8#32
  let v515 : BitVec 32 := Scalar.addi v114 c8_i32_381
  let c5_i32_400 : BitVec 32 := 5#32
  let v555 : BitVec 32 := Scalar.addi v515 c5_i32_400
  let c640_i32_401 : BitVec 32 := 640#32
  let v556 : BitVec 1 := Scalar.cmpi .slt v555 c640_i32_401
  let v557 : BitVec 32 := Scalar.extui v556
  let c0_i32_402 : BitVec 32 := 0#32
  let v558 : BitVec 1 := Scalar.cmpi .ne v557 c0_i32_402
  v558

def k0_cond27 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c8_i32_381 : BitVec 32 := 8#32
  let v515 : BitVec 32 := Scalar.addi v114 c8_i32_381
  let c5_i32_447 : BitVec 32 := 5#32
  let v615 : BitVec 1 := Scalar.cmpi .sge v515 c5_i32_447
  let v616 : BitVec 32 := Scalar.extui v615
  let c0_i32_448 : BitVec 32 := 0#32
  let v617 : BitVec 1 := Scalar.cmpi .ne v616 c0_i32_448
  v617

def k0_off156 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_459 : BitVec 32 := 0#32
  let c0_i32_460 : BitVec 32 := 0#32
  ![v2.toNat, 0, 0]
def k0_off157 (k0_t1 : Fin k0_t1_loop.trips) : Fin 1 → Nat :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c8_i32_381 : BitVec 32 := 8#32
  let v515 : BitVec 32 := Scalar.addi v114 c8_i32_381
  let c5_i32_449 : BitVec 32 := 5#32
  let v618 : BitVec 32 := Scalar.addi v515 c5_i32_449
  let c40_i32_450 : BitVec 32 := 40#32
  let v619 : BitVec 32 := Scalar.muli v618 c40_i32_450
  ![v619.toNat]
@[reducible] def k0_t10_loop : Scf.Loop 32 :=
  let c0_i32_410 : BitVec 32 := 0#32
  let c40_i32_411 : BitVec 32 := 40#32
  let v564 : BitVec 32 := Scalar.addi c0_i32_410 c40_i32_411
  let c1_i32_412 : BitVec 32 := 1#32
  ⟨c0_i32_410, v564, c1_i32_412⟩
def k0_off158 (k0_t10 : Fin k0_t10_loop.trips) : Fin 2 → Nat :=
  let c0_i32_410 : BitVec 32 := 0#32
  let c1_i32_412 : BitVec 32 := 1#32
  let arg30 : BitVec 32 := Scf.iv c0_i32_410 c1_i32_412 k0_t10
  let v617 : Index := Scalar.indexCast arg30
  let c0 : Index := 0#32
  ![v617.toNat, 0]
def k0_off159 (k0_t10 : Fin k0_t10_loop.trips) : Fin 2 → Nat :=
  let c120_i32_449 : BitVec 32 := 120#32
  let c0_i32_410 : BitVec 32 := 0#32
  let c1_i32_412 : BitVec 32 := 1#32
  let arg30 : BitVec 32 := Scf.iv c0_i32_410 c1_i32_412 k0_t10
  let v622 : BitVec 32 := Scalar.addi c120_i32_449 arg30
  let v623 : Index := Scalar.indexCast v622
  let c0_450 : Index := 0#32
  ![v623.toNat, 0]
def k0_off160 (k0_t10 : Fin k0_t10_loop.trips) : Fin 2 → Nat :=
  let c0_i32_410 : BitVec 32 := 0#32
  let c1_i32_412 : BitVec 32 := 1#32
  let arg30 : BitVec 32 := Scf.iv c0_i32_410 c1_i32_412 k0_t10
  let v635 : Index := Scalar.indexCast arg30
  let c16 : Index := 16#32
  ![v635.toNat, 16]
def k0_off161 (k0_t10 : Fin k0_t10_loop.trips) : Fin 2 → Nat :=
  let c120_i32_457 : BitVec 32 := 120#32
  let c0_i32_410 : BitVec 32 := 0#32
  let c1_i32_412 : BitVec 32 := 1#32
  let arg30 : BitVec 32 := Scf.iv c0_i32_410 c1_i32_412 k0_t10
  let v640 : BitVec 32 := Scalar.addi c120_i32_457 arg30
  let v641 : Index := Scalar.indexCast v640
  let c16_458 : Index := 16#32
  ![v641.toNat, 16]
def k0_off162 (k0_t10 : Fin k0_t10_loop.trips) : Fin 2 → Nat :=
  let c0_i32_410 : BitVec 32 := 0#32
  let c1_i32_412 : BitVec 32 := 1#32
  let arg30 : BitVec 32 := Scf.iv c0_i32_410 c1_i32_412 k0_t10
  let v653 : Index := Scalar.indexCast arg30
  let c32 : Index := 32#32
  ![v653.toNat, 32]
def k0_off163 (k0_t10 : Fin k0_t10_loop.trips) : Fin 2 → Nat :=
  let c120_i32_465 : BitVec 32 := 120#32
  let c0_i32_410 : BitVec 32 := 0#32
  let c1_i32_412 : BitVec 32 := 1#32
  let arg30 : BitVec 32 := Scf.iv c0_i32_410 c1_i32_412 k0_t10
  let v658 : BitVec 32 := Scalar.addi c120_i32_465 arg30
  let v659 : Index := Scalar.indexCast v658
  let c32_466 : Index := 32#32
  ![v659.toNat, 32]
def k0_off164 (k0_t10 : Fin k0_t10_loop.trips) : Fin 2 → Nat :=
  let c0_i32_410 : BitVec 32 := 0#32
  let c1_i32_412 : BitVec 32 := 1#32
  let arg30 : BitVec 32 := Scf.iv c0_i32_410 c1_i32_412 k0_t10
  let v671 : Index := Scalar.indexCast arg30
  let c48 : Index := 48#32
  ![v671.toNat, 48]
def k0_off165 (k0_t10 : Fin k0_t10_loop.trips) : Fin 2 → Nat :=
  let c120_i32_473 : BitVec 32 := 120#32
  let c0_i32_410 : BitVec 32 := 0#32
  let c1_i32_412 : BitVec 32 := 1#32
  let arg30 : BitVec 32 := Scf.iv c0_i32_410 c1_i32_412 k0_t10
  let v676 : BitVec 32 := Scalar.addi c120_i32_473 arg30
  let v677 : Index := Scalar.indexCast v676
  let c48_474 : Index := 48#32
  ![v677.toNat, 48]
def k0_off166 (k0_t10 : Fin k0_t10_loop.trips) : Fin 2 → Nat :=
  let c0_i32_410 : BitVec 32 := 0#32
  let c1_i32_412 : BitVec 32 := 1#32
  let arg30 : BitVec 32 := Scf.iv c0_i32_410 c1_i32_412 k0_t10
  let v689 : Index := Scalar.indexCast arg30
  let c64 : Index := 64#32
  ![v689.toNat, 64]
def k0_off167 (k0_t10 : Fin k0_t10_loop.trips) : Fin 2 → Nat :=
  let c120_i32_481 : BitVec 32 := 120#32
  let c0_i32_410 : BitVec 32 := 0#32
  let c1_i32_412 : BitVec 32 := 1#32
  let arg30 : BitVec 32 := Scf.iv c0_i32_410 c1_i32_412 k0_t10
  let v694 : BitVec 32 := Scalar.addi c120_i32_481 arg30
  let v695 : Index := Scalar.indexCast v694
  let c64_482 : Index := 64#32
  ![v695.toNat, 64]
def k0_off168 (k0_t10 : Fin k0_t10_loop.trips) : Fin 2 → Nat :=
  let c0_i32_410 : BitVec 32 := 0#32
  let c1_i32_412 : BitVec 32 := 1#32
  let arg30 : BitVec 32 := Scf.iv c0_i32_410 c1_i32_412 k0_t10
  let v707 : Index := Scalar.indexCast arg30
  let c80 : Index := 80#32
  ![v707.toNat, 80]
def k0_off169 (k0_t10 : Fin k0_t10_loop.trips) : Fin 2 → Nat :=
  let c120_i32_489 : BitVec 32 := 120#32
  let c0_i32_410 : BitVec 32 := 0#32
  let c1_i32_412 : BitVec 32 := 1#32
  let arg30 : BitVec 32 := Scf.iv c0_i32_410 c1_i32_412 k0_t10
  let v712 : BitVec 32 := Scalar.addi c120_i32_489 arg30
  let v713 : Index := Scalar.indexCast v712
  let c80_490 : Index := 80#32
  ![v713.toNat, 80]
def k0_off170 (k0_t10 : Fin k0_t10_loop.trips) : Fin 2 → Nat :=
  let c0_i32_410 : BitVec 32 := 0#32
  let c1_i32_412 : BitVec 32 := 1#32
  let arg30 : BitVec 32 := Scf.iv c0_i32_410 c1_i32_412 k0_t10
  let v725 : Index := Scalar.indexCast arg30
  let c96 : Index := 96#32
  ![v725.toNat, 96]
def k0_off171 (k0_t10 : Fin k0_t10_loop.trips) : Fin 2 → Nat :=
  let c120_i32_497 : BitVec 32 := 120#32
  let c0_i32_410 : BitVec 32 := 0#32
  let c1_i32_412 : BitVec 32 := 1#32
  let arg30 : BitVec 32 := Scf.iv c0_i32_410 c1_i32_412 k0_t10
  let v730 : BitVec 32 := Scalar.addi c120_i32_497 arg30
  let v731 : Index := Scalar.indexCast v730
  let c96_498 : Index := 96#32
  ![v731.toNat, 96]
def k0_off172 (k0_t10 : Fin k0_t10_loop.trips) : Fin 2 → Nat :=
  let c0_i32_410 : BitVec 32 := 0#32
  let c1_i32_412 : BitVec 32 := 1#32
  let arg30 : BitVec 32 := Scf.iv c0_i32_410 c1_i32_412 k0_t10
  let v743 : Index := Scalar.indexCast arg30
  let c112 : Index := 112#32
  ![v743.toNat, 112]
def k0_off173 (k0_t10 : Fin k0_t10_loop.trips) : Fin 2 → Nat :=
  let c120_i32_505 : BitVec 32 := 120#32
  let c0_i32_410 : BitVec 32 := 0#32
  let c1_i32_412 : BitVec 32 := 1#32
  let arg30 : BitVec 32 := Scf.iv c0_i32_410 c1_i32_412 k0_t10
  let v748 : BitVec 32 := Scalar.addi c120_i32_505 arg30
  let v749 : Index := Scalar.indexCast v748
  let c112_506 : Index := 112#32
  ![v749.toNat, 112]
def k0_cond28 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c9_i32_414 : BitVec 32 := 9#32
  let v565 : BitVec 32 := Scalar.addi v114 c9_i32_414
  let c1_i32_431 : BitVec 32 := 1#32
  let v602 : BitVec 1 := Scalar.cmpi .sge v565 c1_i32_431
  let v603 : BitVec 32 := Scalar.extui v602
  let c0_i32_432 : BitVec 32 := 0#32
  let v604 : BitVec 1 := Scalar.cmpi .ne v603 c0_i32_432
  v604

def k0_off174 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c0_i32_424 : BitVec 32 := 0#32
  let v585 : BitVec 1 := Scalar.cmpi .sgt v114 c0_i32_424
  let v586 : BitVec 32 := Scalar.extui v585
  let c0_i32_425 : BitVec 32 := 0#32
  let v587 : BitVec 1 := Scalar.cmpi .slt v114 c0_i32_425
  let v588 : BitVec 32 := Scalar.extui v587
  let v589 : BitVec 32 := Scalar.subi v586 v588
  let c5_i32_423 : BitVec 32 := 5#32
  let c0_i32_426 : BitVec 32 := 0#32
  let v590 : BitVec 1 := Scalar.cmpi .sgt c5_i32_423 c0_i32_426
  let v591 : BitVec 32 := Scalar.extui v590
  let c0_i32_427 : BitVec 32 := 0#32
  let v592 : BitVec 1 := Scalar.cmpi .slt c5_i32_423 c0_i32_427
  let v593 : BitVec 32 := Scalar.extui v592
  let v594 : BitVec 32 := Scalar.subi v591 v593
  let v595 : BitVec 1 := Scalar.cmpi .ne v589 v594
  let v596 : BitVec 32 := Scalar.remsi v114 c5_i32_423
  let c0_i32_428 : BitVec 32 := 0#32
  let v597 : BitVec 1 := Scalar.cmpi .ne v596 c0_i32_428
  let v598 : BitVec 1 := Scalar.andi v595 v597
  let v584 : BitVec 32 := Scalar.divsi v114 c5_i32_423
  let c1_i32_429 : BitVec 32 := 1#32
  let v599 : BitVec 32 := Scalar.subi v584 c1_i32_429
  let v600 : BitVec 32 := Scalar.select v598 v599 v584
  let c1_i32_430 : BitVec 32 := 1#32
  let v601 : BitVec 32 := Scalar.addi v600 c1_i32_430
  let v615 : BitVec 32 := Scalar.addi v2 v601
  let c120_i32_450 : BitVec 32 := 120#32
  let c0_i32_451 : BitVec 32 := 0#32
  ![v615.toNat, 120, 0]
def k0_cond29 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c9_i32_414 : BitVec 32 := 9#32
  let v565 : BitVec 32 := Scalar.addi v114 c9_i32_414
  let c5_i32_433 : BitVec 32 := 5#32
  let v605 : BitVec 32 := Scalar.addi v565 c5_i32_433
  let c640_i32_434 : BitVec 32 := 640#32
  let v606 : BitVec 1 := Scalar.cmpi .slt v605 c640_i32_434
  let v607 : BitVec 32 := Scalar.extui v606
  let c0_i32_435 : BitVec 32 := 0#32
  let v608 : BitVec 1 := Scalar.cmpi .ne v607 c0_i32_435
  v608

def k0_cond30 (k0_t1 : Fin k0_t1_loop.trips) : BitVec 1 :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c9_i32_414 : BitVec 32 := 9#32
  let v565 : BitVec 32 := Scalar.addi v114 c9_i32_414
  let c5_i32_447 : BitVec 32 := 5#32
  let v615 : BitVec 1 := Scalar.cmpi .sge v565 c5_i32_447
  let v616 : BitVec 32 := Scalar.extui v615
  let c0_i32_448 : BitVec 32 := 0#32
  let v617 : BitVec 1 := Scalar.cmpi .ne v616 c0_i32_448
  v617

def k0_off175 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_459 : BitVec 32 := 0#32
  let c0_i32_460 : BitVec 32 := 0#32
  ![v2.toNat, 0, 0]
def k0_off176 (k0_t1 : Fin k0_t1_loop.trips) : Fin 1 → Nat :=
  let c0_i32_22 : BitVec 32 := 0#32
  let c1_i32_23 : BitVec 32 := 1#32
  let arg29 : BitVec 32 := Scf.iv c0_i32_22 c1_i32_23 k0_t1
  let c10_i32 : BitVec 32 := 10#32
  let v114 : BitVec 32 := Scalar.muli arg29 c10_i32
  let c9_i32_414 : BitVec 32 := 9#32
  let v565 : BitVec 32 := Scalar.addi v114 c9_i32_414
  let c5_i32_449 : BitVec 32 := 5#32
  let v618 : BitVec 32 := Scalar.addi v565 c5_i32_449
  let c40_i32_450 : BitVec 32 := 40#32
  let v619 : BitVec 32 := Scalar.muli v618 c40_i32_450
  ![v619.toNat]
@[reducible] def k0_t11_loop : Scf.Loop 32 :=
  let c0_i32_443 : BitVec 32 := 0#32
  let c40_i32_444 : BitVec 32 := 40#32
  let v614 : BitVec 32 := Scalar.addi c0_i32_443 c40_i32_444
  let c1_i32_445 : BitVec 32 := 1#32
  ⟨c0_i32_443, v614, c1_i32_445⟩
def k0_off177 (k0_t11 : Fin k0_t11_loop.trips) : Fin 2 → Nat :=
  let c0_i32_443 : BitVec 32 := 0#32
  let c1_i32_445 : BitVec 32 := 1#32
  let arg30 : BitVec 32 := Scf.iv c0_i32_443 c1_i32_445 k0_t11
  let v617 : Index := Scalar.indexCast arg30
  let c0 : Index := 0#32
  ![v617.toNat, 0]
def k0_off178 (k0_t11 : Fin k0_t11_loop.trips) : Fin 2 → Nat :=
  let c160_i32_449 : BitVec 32 := 160#32
  let c0_i32_443 : BitVec 32 := 0#32
  let c1_i32_445 : BitVec 32 := 1#32
  let arg30 : BitVec 32 := Scf.iv c0_i32_443 c1_i32_445 k0_t11
  let v622 : BitVec 32 := Scalar.addi c160_i32_449 arg30
  let v623 : Index := Scalar.indexCast v622
  let c0_450 : Index := 0#32
  ![v623.toNat, 0]
def k0_off179 (k0_t11 : Fin k0_t11_loop.trips) : Fin 2 → Nat :=
  let c0_i32_443 : BitVec 32 := 0#32
  let c1_i32_445 : BitVec 32 := 1#32
  let arg30 : BitVec 32 := Scf.iv c0_i32_443 c1_i32_445 k0_t11
  let v635 : Index := Scalar.indexCast arg30
  let c16 : Index := 16#32
  ![v635.toNat, 16]
def k0_off180 (k0_t11 : Fin k0_t11_loop.trips) : Fin 2 → Nat :=
  let c160_i32_457 : BitVec 32 := 160#32
  let c0_i32_443 : BitVec 32 := 0#32
  let c1_i32_445 : BitVec 32 := 1#32
  let arg30 : BitVec 32 := Scf.iv c0_i32_443 c1_i32_445 k0_t11
  let v640 : BitVec 32 := Scalar.addi c160_i32_457 arg30
  let v641 : Index := Scalar.indexCast v640
  let c16_458 : Index := 16#32
  ![v641.toNat, 16]
def k0_off181 (k0_t11 : Fin k0_t11_loop.trips) : Fin 2 → Nat :=
  let c0_i32_443 : BitVec 32 := 0#32
  let c1_i32_445 : BitVec 32 := 1#32
  let arg30 : BitVec 32 := Scf.iv c0_i32_443 c1_i32_445 k0_t11
  let v653 : Index := Scalar.indexCast arg30
  let c32 : Index := 32#32
  ![v653.toNat, 32]
def k0_off182 (k0_t11 : Fin k0_t11_loop.trips) : Fin 2 → Nat :=
  let c160_i32_465 : BitVec 32 := 160#32
  let c0_i32_443 : BitVec 32 := 0#32
  let c1_i32_445 : BitVec 32 := 1#32
  let arg30 : BitVec 32 := Scf.iv c0_i32_443 c1_i32_445 k0_t11
  let v658 : BitVec 32 := Scalar.addi c160_i32_465 arg30
  let v659 : Index := Scalar.indexCast v658
  let c32_466 : Index := 32#32
  ![v659.toNat, 32]
def k0_off183 (k0_t11 : Fin k0_t11_loop.trips) : Fin 2 → Nat :=
  let c0_i32_443 : BitVec 32 := 0#32
  let c1_i32_445 : BitVec 32 := 1#32
  let arg30 : BitVec 32 := Scf.iv c0_i32_443 c1_i32_445 k0_t11
  let v671 : Index := Scalar.indexCast arg30
  let c48 : Index := 48#32
  ![v671.toNat, 48]
def k0_off184 (k0_t11 : Fin k0_t11_loop.trips) : Fin 2 → Nat :=
  let c160_i32_473 : BitVec 32 := 160#32
  let c0_i32_443 : BitVec 32 := 0#32
  let c1_i32_445 : BitVec 32 := 1#32
  let arg30 : BitVec 32 := Scf.iv c0_i32_443 c1_i32_445 k0_t11
  let v676 : BitVec 32 := Scalar.addi c160_i32_473 arg30
  let v677 : Index := Scalar.indexCast v676
  let c48_474 : Index := 48#32
  ![v677.toNat, 48]
def k0_off185 (k0_t11 : Fin k0_t11_loop.trips) : Fin 2 → Nat :=
  let c0_i32_443 : BitVec 32 := 0#32
  let c1_i32_445 : BitVec 32 := 1#32
  let arg30 : BitVec 32 := Scf.iv c0_i32_443 c1_i32_445 k0_t11
  let v689 : Index := Scalar.indexCast arg30
  let c64 : Index := 64#32
  ![v689.toNat, 64]
def k0_off186 (k0_t11 : Fin k0_t11_loop.trips) : Fin 2 → Nat :=
  let c160_i32_481 : BitVec 32 := 160#32
  let c0_i32_443 : BitVec 32 := 0#32
  let c1_i32_445 : BitVec 32 := 1#32
  let arg30 : BitVec 32 := Scf.iv c0_i32_443 c1_i32_445 k0_t11
  let v694 : BitVec 32 := Scalar.addi c160_i32_481 arg30
  let v695 : Index := Scalar.indexCast v694
  let c64_482 : Index := 64#32
  ![v695.toNat, 64]
def k0_off187 (k0_t11 : Fin k0_t11_loop.trips) : Fin 2 → Nat :=
  let c0_i32_443 : BitVec 32 := 0#32
  let c1_i32_445 : BitVec 32 := 1#32
  let arg30 : BitVec 32 := Scf.iv c0_i32_443 c1_i32_445 k0_t11
  let v707 : Index := Scalar.indexCast arg30
  let c80 : Index := 80#32
  ![v707.toNat, 80]
def k0_off188 (k0_t11 : Fin k0_t11_loop.trips) : Fin 2 → Nat :=
  let c160_i32_489 : BitVec 32 := 160#32
  let c0_i32_443 : BitVec 32 := 0#32
  let c1_i32_445 : BitVec 32 := 1#32
  let arg30 : BitVec 32 := Scf.iv c0_i32_443 c1_i32_445 k0_t11
  let v712 : BitVec 32 := Scalar.addi c160_i32_489 arg30
  let v713 : Index := Scalar.indexCast v712
  let c80_490 : Index := 80#32
  ![v713.toNat, 80]
def k0_off189 (k0_t11 : Fin k0_t11_loop.trips) : Fin 2 → Nat :=
  let c0_i32_443 : BitVec 32 := 0#32
  let c1_i32_445 : BitVec 32 := 1#32
  let arg30 : BitVec 32 := Scf.iv c0_i32_443 c1_i32_445 k0_t11
  let v725 : Index := Scalar.indexCast arg30
  let c96 : Index := 96#32
  ![v725.toNat, 96]
def k0_off190 (k0_t11 : Fin k0_t11_loop.trips) : Fin 2 → Nat :=
  let c160_i32_497 : BitVec 32 := 160#32
  let c0_i32_443 : BitVec 32 := 0#32
  let c1_i32_445 : BitVec 32 := 1#32
  let arg30 : BitVec 32 := Scf.iv c0_i32_443 c1_i32_445 k0_t11
  let v730 : BitVec 32 := Scalar.addi c160_i32_497 arg30
  let v731 : Index := Scalar.indexCast v730
  let c96_498 : Index := 96#32
  ![v731.toNat, 96]
def k0_off191 (k0_t11 : Fin k0_t11_loop.trips) : Fin 2 → Nat :=
  let c0_i32_443 : BitVec 32 := 0#32
  let c1_i32_445 : BitVec 32 := 1#32
  let arg30 : BitVec 32 := Scf.iv c0_i32_443 c1_i32_445 k0_t11
  let v743 : Index := Scalar.indexCast arg30
  let c112 : Index := 112#32
  ![v743.toNat, 112]
def k0_off192 (k0_t11 : Fin k0_t11_loop.trips) : Fin 2 → Nat :=
  let c160_i32_505 : BitVec 32 := 160#32
  let c0_i32_443 : BitVec 32 := 0#32
  let c1_i32_445 : BitVec 32 := 1#32
  let arg30 : BitVec 32 := Scf.iv c0_i32_443 c1_i32_445 k0_t11
  let v748 : BitVec 32 := Scalar.addi c160_i32_505 arg30
  let v749 : Index := Scalar.indexCast v748
  let c112_506 : Index := 112#32
  ![v749.toNat, 112]
def k0_off193 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c127_i32 : BitVec 32 := 127#32
  let v25 : BitVec 32 := Scalar.addi v2 c127_i32
  let c160_i32_27 : BitVec 32 := 160#32
  let c0_i32_28 : BitVec 32 := 0#32
  ![v25.toNat, 160, 0]
def k0_off194 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_36 : BitVec 32 := 0#32
  let c0_i32_37 : BitVec 32 := 0#32
  ![v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S819200 : S4096x200.ShapeCasts S819200
  shapeCasts_S1x200x128_S200x128 : S1x200x128.ShapeCasts S200x128
  inb_S10x40x128_S1x40x128_0_0_0 : ∀ a, (![0, 0, 0] : Fin 3 → Nat) a + S1x40x128.size a ≤ S10x40x128.size a
  squeezes_S1x40x128_S40x128 : S1x40x128.Squeezes S40x128
  inb_S25600_S40_0 : ∀ a, (![0] : Fin 1 → Nat) a + S40.size a ≤ S25600.size a
  inb_S100000x128_S100000x128_0_0 : ∀ a, (![0, 0] : Fin 2 → Nat) a + S100000x128.size a ≤ S100000x128.size a
  gathers_S100000x128_S40x128 : S100000x128.Gathers 0 S40x128
  inb_S10x40x128_S1x40x128_1_0_0 : ∀ a, (![1, 0, 0] : Fin 3 → Nat) a + S1x40x128.size a ≤ S10x40x128.size a
  inb_S25600_S40_40 : ∀ a, (![40] : Fin 1 → Nat) a + S40.size a ≤ S25600.size a
  inb_S10x40x128_S1x40x128_2_0_0 : ∀ a, (![2, 0, 0] : Fin 3 → Nat) a + S1x40x128.size a ≤ S10x40x128.size a
  inb_S25600_S40_80 : ∀ a, (![80] : Fin 1 → Nat) a + S40.size a ≤ S25600.size a
  inb_S10x40x128_S1x40x128_3_0_0 : ∀ a, (![3, 0, 0] : Fin 3 → Nat) a + S1x40x128.size a ≤ S10x40x128.size a
  inb_S25600_S40_120 : ∀ a, (![120] : Fin 1 → Nat) a + S40.size a ≤ S25600.size a
  inb_S10x40x128_S1x40x128_4_0_0 : ∀ a, (![4, 0, 0] : Fin 3 → Nat) a + S1x40x128.size a ≤ S10x40x128.size a
  inb_S25600_S40_160 : ∀ a, (![160] : Fin 1 → Nat) a + S40.size a ≤ S25600.size a
  inb_S10x40x128_S1x40x128_9_0_0 : ∀ a, (![9, 0, 0] : Fin 3 → Nat) a + S1x40x128.size a ≤ S10x40x128.size a
  inb_S10x40x128_S1x40x128_5_0_0 : ∀ a, (![5, 0, 0] : Fin 3 → Nat) a + S1x40x128.size a ≤ S10x40x128.size a
  h_S1x16 : 0 < S1x16.numel
  shapeCasts_S1x16_S16 : S1x16.ShapeCasts S16
  shapeCasts_S16_S1x16 : S16.ShapeCasts S1x16
  inb_S10x40x128_S1x40x128_6_0_0 : ∀ a, (![6, 0, 0] : Fin 3 → Nat) a + S1x40x128.size a ≤ S10x40x128.size a
  inb_S10x40x128_S1x40x128_7_0_0 : ∀ a, (![7, 0, 0] : Fin 3 → Nat) a + S1x40x128.size a ≤ S10x40x128.size a
  inb_S10x40x128_S1x40x128_8_0_0 : ∀ a, (![8, 0, 0] : Fin 3 → Nat) a + S1x40x128.size a ≤ S10x40x128.size a
  hcc0_scratch3 : 0 + S_.numel ≤ 22
  hcc0_scratch4 : 1 + S_.numel ≤ 22
  hcc0_scratch5 : 2 + S_.numel ≤ 22
  hcc0_scratch6 : 3 + S_.numel ≤ 22
  hcc0_scratch7 : 4 + S_.numel ≤ 22
  hcc0_scratch8 : 5 + S_.numel ≤ 22
  hcc0_scratch9 : 6 + S_.numel ≤ 22
  hcc0_scratch10 : 7 + S_.numel ≤ 22
  hcc0_scratch11 : 8 + S_.numel ≤ 22
  hcc0_scratch12 : 9 + S_.numel ≤ 22
  hcc0_scratch13 : 10 + S_.numel ≤ 22
  hcc0_scratch14 : 11 + S_.numel ≤ 22
  hcc0_scratch15 : 12 + S_.numel ≤ 22
  hcc0_scratch16 : 13 + S_.numel ≤ 22
  hcc0_scratch17 : 14 + S_.numel ≤ 22
  hcc0_scratch18 : 15 + S_.numel ≤ 22
  hcc0_scratch19 : 16 + S_.numel ≤ 22
  hcc0_scratch20 : 17 + S_.numel ≤ 22
  hcc0_scratch21 : 18 + S_.numel ≤ 22
  hcc0_scratch22 : 19 + S_.numel ≤ 22
  hcc0_scoped0 : 20 + S_.numel ≤ 22
  hcc0_scoped1 : 21 + S_.numel ≤ 22
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S25600.size a ≤ S819200.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S1x40x128.size a ≤ S4096x200x128.size a
  k0_off3_inb : ∀ (i : grid0.Coords) (k0_t1 : Fin k0_t1_loop.trips), ∀ (k0_h2 : k0_cond2 k0_t1 = 1#1), ∀ (k0_h3 : k0_cond3 k0_t1 = 1#1), ∀ a, (k0_off3 i) a + S1x40x128.size a ≤ S4096x200x128.size a
  k0_off4_inb : ∀ k0_t1 : Fin k0_t1_loop.trips, ∀ (k0_h2 : k0_cond2 k0_t1 = 1#1), ∀ a, (k0_off4 k0_t1) a + S40.size a ≤ S25600.size a
  k0_off5_inb : ∀ k0_t1 : Fin k0_t1_loop.trips, ∀ (r : Fin 10), ∀ a, (k0_off5 k0_t1 (BitVec.ofNat 32 r.val)) a + S40.size a ≤ S25600.size a
  k0_t2_ok : k0_t2_loop.OK
  k0_off6_inb : ∀ k0_t2 : Fin k0_t2_loop.trips, ∀ a, (k0_off6 k0_t2) a + S1x16.size a ≤ S40x128.size a
  k0_off7_inb : ∀ k0_t2 : Fin k0_t2_loop.trips, ∀ a, (k0_off7 k0_t2) a + S1x16.size a ≤ S200x128.size a
  k0_off8_inb : ∀ k0_t2 : Fin k0_t2_loop.trips, ∀ a, (k0_off8 k0_t2) a + S1x16.size a ≤ S40x128.size a
  k0_off9_inb : ∀ k0_t2 : Fin k0_t2_loop.trips, ∀ a, (k0_off9 k0_t2) a + S1x16.size a ≤ S200x128.size a
  k0_off10_inb : ∀ k0_t2 : Fin k0_t2_loop.trips, ∀ a, (k0_off10 k0_t2) a + S1x16.size a ≤ S40x128.size a
  k0_off11_inb : ∀ k0_t2 : Fin k0_t2_loop.trips, ∀ a, (k0_off11 k0_t2) a + S1x16.size a ≤ S200x128.size a
  k0_off12_inb : ∀ k0_t2 : Fin k0_t2_loop.trips, ∀ a, (k0_off12 k0_t2) a + S1x16.size a ≤ S40x128.size a
  k0_off13_inb : ∀ k0_t2 : Fin k0_t2_loop.trips, ∀ a, (k0_off13 k0_t2) a + S1x16.size a ≤ S200x128.size a
  k0_off14_inb : ∀ k0_t2 : Fin k0_t2_loop.trips, ∀ a, (k0_off14 k0_t2) a + S1x16.size a ≤ S40x128.size a
  k0_off15_inb : ∀ k0_t2 : Fin k0_t2_loop.trips, ∀ a, (k0_off15 k0_t2) a + S1x16.size a ≤ S200x128.size a
  k0_off16_inb : ∀ k0_t2 : Fin k0_t2_loop.trips, ∀ a, (k0_off16 k0_t2) a + S1x16.size a ≤ S40x128.size a
  k0_off17_inb : ∀ k0_t2 : Fin k0_t2_loop.trips, ∀ a, (k0_off17 k0_t2) a + S1x16.size a ≤ S200x128.size a
  k0_off18_inb : ∀ k0_t2 : Fin k0_t2_loop.trips, ∀ a, (k0_off18 k0_t2) a + S1x16.size a ≤ S40x128.size a
  k0_off19_inb : ∀ k0_t2 : Fin k0_t2_loop.trips, ∀ a, (k0_off19 k0_t2) a + S1x16.size a ≤ S200x128.size a
  k0_off20_inb : ∀ k0_t2 : Fin k0_t2_loop.trips, ∀ a, (k0_off20 k0_t2) a + S1x16.size a ≤ S40x128.size a
  k0_off21_inb : ∀ k0_t2 : Fin k0_t2_loop.trips, ∀ a, (k0_off21 k0_t2) a + S1x16.size a ≤ S200x128.size a
  k0_off22_inb : ∀ (i : grid0.Coords) (k0_t1 : Fin k0_t1_loop.trips), ∀ (k0_h4 : k0_cond4 k0_t1 = 1#1), ∀ a, (k0_off22 i k0_t1) a + S1x40x128.size a ≤ S4096x200x128.size a
  k0_off23_inb : ∀ (i : grid0.Coords) (k0_t1 : Fin k0_t1_loop.trips), ∀ (k0_h5 : k0_cond5 k0_t1 = 1#1), ∀ (k0_h6 : k0_cond6 k0_t1 = 1#1), ∀ a, (k0_off23 i) a + S1x40x128.size a ≤ S4096x200x128.size a
  k0_off24_inb : ∀ k0_t1 : Fin k0_t1_loop.trips, ∀ (k0_h5 : k0_cond5 k0_t1 = 1#1), ∀ a, (k0_off24 k0_t1) a + S40.size a ≤ S25600.size a
  k0_t3_ok : k0_t3_loop.OK
  k0_off25_inb : ∀ k0_t3 : Fin k0_t3_loop.trips, ∀ a, (k0_off25 k0_t3) a + S1x16.size a ≤ S40x128.size a
  k0_off26_inb : ∀ k0_t3 : Fin k0_t3_loop.trips, ∀ a, (k0_off26 k0_t3) a + S1x16.size a ≤ S200x128.size a
  k0_off27_inb : ∀ k0_t3 : Fin k0_t3_loop.trips, ∀ a, (k0_off27 k0_t3) a + S1x16.size a ≤ S40x128.size a
  k0_off28_inb : ∀ k0_t3 : Fin k0_t3_loop.trips, ∀ a, (k0_off28 k0_t3) a + S1x16.size a ≤ S200x128.size a
  k0_off29_inb : ∀ k0_t3 : Fin k0_t3_loop.trips, ∀ a, (k0_off29 k0_t3) a + S1x16.size a ≤ S40x128.size a
  k0_off30_inb : ∀ k0_t3 : Fin k0_t3_loop.trips, ∀ a, (k0_off30 k0_t3) a + S1x16.size a ≤ S200x128.size a
  k0_off31_inb : ∀ k0_t3 : Fin k0_t3_loop.trips, ∀ a, (k0_off31 k0_t3) a + S1x16.size a ≤ S40x128.size a
  k0_off32_inb : ∀ k0_t3 : Fin k0_t3_loop.trips, ∀ a, (k0_off32 k0_t3) a + S1x16.size a ≤ S200x128.size a
  k0_off33_inb : ∀ k0_t3 : Fin k0_t3_loop.trips, ∀ a, (k0_off33 k0_t3) a + S1x16.size a ≤ S40x128.size a
  k0_off34_inb : ∀ k0_t3 : Fin k0_t3_loop.trips, ∀ a, (k0_off34 k0_t3) a + S1x16.size a ≤ S200x128.size a
  k0_off35_inb : ∀ k0_t3 : Fin k0_t3_loop.trips, ∀ a, (k0_off35 k0_t3) a + S1x16.size a ≤ S40x128.size a
  k0_off36_inb : ∀ k0_t3 : Fin k0_t3_loop.trips, ∀ a, (k0_off36 k0_t3) a + S1x16.size a ≤ S200x128.size a
  k0_off37_inb : ∀ k0_t3 : Fin k0_t3_loop.trips, ∀ a, (k0_off37 k0_t3) a + S1x16.size a ≤ S40x128.size a
  k0_off38_inb : ∀ k0_t3 : Fin k0_t3_loop.trips, ∀ a, (k0_off38 k0_t3) a + S1x16.size a ≤ S200x128.size a
  k0_off39_inb : ∀ k0_t3 : Fin k0_t3_loop.trips, ∀ a, (k0_off39 k0_t3) a + S1x16.size a ≤ S40x128.size a
  k0_off40_inb : ∀ k0_t3 : Fin k0_t3_loop.trips, ∀ a, (k0_off40 k0_t3) a + S1x16.size a ≤ S200x128.size a
  k0_off41_inb : ∀ (i : grid0.Coords) (k0_t1 : Fin k0_t1_loop.trips), ∀ (k0_h7 : k0_cond7 k0_t1 = 1#1), ∀ a, (k0_off41 i k0_t1) a + S1x40x128.size a ≤ S4096x200x128.size a
  k0_off42_inb : ∀ (i : grid0.Coords) (k0_t1 : Fin k0_t1_loop.trips), ∀ (k0_h8 : k0_cond8 k0_t1 = 1#1), ∀ (k0_h9 : k0_cond9 k0_t1 = 1#1), ∀ a, (k0_off42 i) a + S1x40x128.size a ≤ S4096x200x128.size a
  k0_off43_inb : ∀ k0_t1 : Fin k0_t1_loop.trips, ∀ (k0_h8 : k0_cond8 k0_t1 = 1#1), ∀ a, (k0_off43 k0_t1) a + S40.size a ≤ S25600.size a
  k0_t4_ok : k0_t4_loop.OK
  k0_off44_inb : ∀ k0_t4 : Fin k0_t4_loop.trips, ∀ a, (k0_off44 k0_t4) a + S1x16.size a ≤ S40x128.size a
  k0_off45_inb : ∀ k0_t4 : Fin k0_t4_loop.trips, ∀ a, (k0_off45 k0_t4) a + S1x16.size a ≤ S200x128.size a
  k0_off46_inb : ∀ k0_t4 : Fin k0_t4_loop.trips, ∀ a, (k0_off46 k0_t4) a + S1x16.size a ≤ S40x128.size a
  k0_off47_inb : ∀ k0_t4 : Fin k0_t4_loop.trips, ∀ a, (k0_off47 k0_t4) a + S1x16.size a ≤ S200x128.size a
  k0_off48_inb : ∀ k0_t4 : Fin k0_t4_loop.trips, ∀ a, (k0_off48 k0_t4) a + S1x16.size a ≤ S40x128.size a
  k0_off49_inb : ∀ k0_t4 : Fin k0_t4_loop.trips, ∀ a, (k0_off49 k0_t4) a + S1x16.size a ≤ S200x128.size a
  k0_off50_inb : ∀ k0_t4 : Fin k0_t4_loop.trips, ∀ a, (k0_off50 k0_t4) a + S1x16.size a ≤ S40x128.size a
  k0_off51_inb : ∀ k0_t4 : Fin k0_t4_loop.trips, ∀ a, (k0_off51 k0_t4) a + S1x16.size a ≤ S200x128.size a
  k0_off52_inb : ∀ k0_t4 : Fin k0_t4_loop.trips, ∀ a, (k0_off52 k0_t4) a + S1x16.size a ≤ S40x128.size a
  k0_off53_inb : ∀ k0_t4 : Fin k0_t4_loop.trips, ∀ a, (k0_off53 k0_t4) a + S1x16.size a ≤ S200x128.size a
  k0_off54_inb : ∀ k0_t4 : Fin k0_t4_loop.trips, ∀ a, (k0_off54 k0_t4) a + S1x16.size a ≤ S40x128.size a
  k0_off55_inb : ∀ k0_t4 : Fin k0_t4_loop.trips, ∀ a, (k0_off55 k0_t4) a + S1x16.size a ≤ S200x128.size a
  k0_off56_inb : ∀ k0_t4 : Fin k0_t4_loop.trips, ∀ a, (k0_off56 k0_t4) a + S1x16.size a ≤ S40x128.size a
  k0_off57_inb : ∀ k0_t4 : Fin k0_t4_loop.trips, ∀ a, (k0_off57 k0_t4) a + S1x16.size a ≤ S200x128.size a
  k0_off58_inb : ∀ k0_t4 : Fin k0_t4_loop.trips, ∀ a, (k0_off58 k0_t4) a + S1x16.size a ≤ S40x128.size a
  k0_off59_inb : ∀ k0_t4 : Fin k0_t4_loop.trips, ∀ a, (k0_off59 k0_t4) a + S1x16.size a ≤ S200x128.size a
  k0_off60_inb : ∀ (i : grid0.Coords) (k0_t1 : Fin k0_t1_loop.trips), ∀ (k0_h10 : k0_cond10 k0_t1 = 1#1), ∀ a, (k0_off60 i k0_t1) a + S1x40x128.size a ≤ S4096x200x128.size a
  k0_off61_inb : ∀ (i : grid0.Coords) (k0_t1 : Fin k0_t1_loop.trips), ∀ (k0_h11 : k0_cond11 k0_t1 = 1#1), ∀ (k0_h12 : k0_cond12 k0_t1 = 1#1), ∀ a, (k0_off61 i) a + S1x40x128.size a ≤ S4096x200x128.size a
  k0_off62_inb : ∀ k0_t1 : Fin k0_t1_loop.trips, ∀ (k0_h11 : k0_cond11 k0_t1 = 1#1), ∀ a, (k0_off62 k0_t1) a + S40.size a ≤ S25600.size a
  k0_t5_ok : k0_t5_loop.OK
  k0_off63_inb : ∀ k0_t5 : Fin k0_t5_loop.trips, ∀ a, (k0_off63 k0_t5) a + S1x16.size a ≤ S40x128.size a
  k0_off64_inb : ∀ k0_t5 : Fin k0_t5_loop.trips, ∀ a, (k0_off64 k0_t5) a + S1x16.size a ≤ S200x128.size a
  k0_off65_inb : ∀ k0_t5 : Fin k0_t5_loop.trips, ∀ a, (k0_off65 k0_t5) a + S1x16.size a ≤ S40x128.size a
  k0_off66_inb : ∀ k0_t5 : Fin k0_t5_loop.trips, ∀ a, (k0_off66 k0_t5) a + S1x16.size a ≤ S200x128.size a
  k0_off67_inb : ∀ k0_t5 : Fin k0_t5_loop.trips, ∀ a, (k0_off67 k0_t5) a + S1x16.size a ≤ S40x128.size a
  k0_off68_inb : ∀ k0_t5 : Fin k0_t5_loop.trips, ∀ a, (k0_off68 k0_t5) a + S1x16.size a ≤ S200x128.size a
  k0_off69_inb : ∀ k0_t5 : Fin k0_t5_loop.trips, ∀ a, (k0_off69 k0_t5) a + S1x16.size a ≤ S40x128.size a
  k0_off70_inb : ∀ k0_t5 : Fin k0_t5_loop.trips, ∀ a, (k0_off70 k0_t5) a + S1x16.size a ≤ S200x128.size a
  k0_off71_inb : ∀ k0_t5 : Fin k0_t5_loop.trips, ∀ a, (k0_off71 k0_t5) a + S1x16.size a ≤ S40x128.size a
  k0_off72_inb : ∀ k0_t5 : Fin k0_t5_loop.trips, ∀ a, (k0_off72 k0_t5) a + S1x16.size a ≤ S200x128.size a
  k0_off73_inb : ∀ k0_t5 : Fin k0_t5_loop.trips, ∀ a, (k0_off73 k0_t5) a + S1x16.size a ≤ S40x128.size a
  k0_off74_inb : ∀ k0_t5 : Fin k0_t5_loop.trips, ∀ a, (k0_off74 k0_t5) a + S1x16.size a ≤ S200x128.size a
  k0_off75_inb : ∀ k0_t5 : Fin k0_t5_loop.trips, ∀ a, (k0_off75 k0_t5) a + S1x16.size a ≤ S40x128.size a
  k0_off76_inb : ∀ k0_t5 : Fin k0_t5_loop.trips, ∀ a, (k0_off76 k0_t5) a + S1x16.size a ≤ S200x128.size a
  k0_off77_inb : ∀ k0_t5 : Fin k0_t5_loop.trips, ∀ a, (k0_off77 k0_t5) a + S1x16.size a ≤ S40x128.size a
  k0_off78_inb : ∀ k0_t5 : Fin k0_t5_loop.trips, ∀ a, (k0_off78 k0_t5) a + S1x16.size a ≤ S200x128.size a
  k0_off79_inb : ∀ (i : grid0.Coords) (k0_t1 : Fin k0_t1_loop.trips), ∀ (k0_h13 : k0_cond13 k0_t1 = 1#1), ∀ a, (k0_off79 i k0_t1) a + S1x40x128.size a ≤ S4096x200x128.size a
  k0_off80_inb : ∀ (i : grid0.Coords) (k0_t1 : Fin k0_t1_loop.trips), ∀ (k0_h14 : k0_cond14 k0_t1 = 1#1), ∀ (k0_h15 : k0_cond15 k0_t1 = 1#1), ∀ a, (k0_off80 i) a + S1x40x128.size a ≤ S4096x200x128.size a
  k0_off81_inb : ∀ k0_t1 : Fin k0_t1_loop.trips, ∀ (k0_h14 : k0_cond14 k0_t1 = 1#1), ∀ a, (k0_off81 k0_t1) a + S40.size a ≤ S25600.size a
  k0_t6_ok : k0_t6_loop.OK
  k0_off82_inb : ∀ k0_t6 : Fin k0_t6_loop.trips, ∀ a, (k0_off82 k0_t6) a + S1x16.size a ≤ S40x128.size a
  k0_off83_inb : ∀ k0_t6 : Fin k0_t6_loop.trips, ∀ a, (k0_off83 k0_t6) a + S1x16.size a ≤ S200x128.size a
  k0_off84_inb : ∀ k0_t6 : Fin k0_t6_loop.trips, ∀ a, (k0_off84 k0_t6) a + S1x16.size a ≤ S40x128.size a
  k0_off85_inb : ∀ k0_t6 : Fin k0_t6_loop.trips, ∀ a, (k0_off85 k0_t6) a + S1x16.size a ≤ S200x128.size a
  k0_off86_inb : ∀ k0_t6 : Fin k0_t6_loop.trips, ∀ a, (k0_off86 k0_t6) a + S1x16.size a ≤ S40x128.size a
  k0_off87_inb : ∀ k0_t6 : Fin k0_t6_loop.trips, ∀ a, (k0_off87 k0_t6) a + S1x16.size a ≤ S200x128.size a
  k0_off88_inb : ∀ k0_t6 : Fin k0_t6_loop.trips, ∀ a, (k0_off88 k0_t6) a + S1x16.size a ≤ S40x128.size a
  k0_off89_inb : ∀ k0_t6 : Fin k0_t6_loop.trips, ∀ a, (k0_off89 k0_t6) a + S1x16.size a ≤ S200x128.size a
  k0_off90_inb : ∀ k0_t6 : Fin k0_t6_loop.trips, ∀ a, (k0_off90 k0_t6) a + S1x16.size a ≤ S40x128.size a
  k0_off91_inb : ∀ k0_t6 : Fin k0_t6_loop.trips, ∀ a, (k0_off91 k0_t6) a + S1x16.size a ≤ S200x128.size a
  k0_off92_inb : ∀ k0_t6 : Fin k0_t6_loop.trips, ∀ a, (k0_off92 k0_t6) a + S1x16.size a ≤ S40x128.size a
  k0_off93_inb : ∀ k0_t6 : Fin k0_t6_loop.trips, ∀ a, (k0_off93 k0_t6) a + S1x16.size a ≤ S200x128.size a
  k0_off94_inb : ∀ k0_t6 : Fin k0_t6_loop.trips, ∀ a, (k0_off94 k0_t6) a + S1x16.size a ≤ S40x128.size a
  k0_off95_inb : ∀ k0_t6 : Fin k0_t6_loop.trips, ∀ a, (k0_off95 k0_t6) a + S1x16.size a ≤ S200x128.size a
  k0_off96_inb : ∀ k0_t6 : Fin k0_t6_loop.trips, ∀ a, (k0_off96 k0_t6) a + S1x16.size a ≤ S40x128.size a
  k0_off97_inb : ∀ k0_t6 : Fin k0_t6_loop.trips, ∀ a, (k0_off97 k0_t6) a + S1x16.size a ≤ S200x128.size a
  k0_off98_inb : ∀ (i : grid0.Coords) (k0_t1 : Fin k0_t1_loop.trips), ∀ (k0_h16 : k0_cond16 k0_t1 = 1#1), ∀ a, (k0_off98 i k0_t1) a + S1x40x128.size a ≤ S4096x200x128.size a
  k0_off99_inb : ∀ (i : grid0.Coords) (k0_t1 : Fin k0_t1_loop.trips), ∀ (k0_h17 : k0_cond17 k0_t1 = 1#1), ∀ (k0_h18 : k0_cond18 k0_t1 = 1#1), ∀ a, (k0_off99 i) a + S1x40x128.size a ≤ S4096x200x128.size a
  k0_off100_inb : ∀ k0_t1 : Fin k0_t1_loop.trips, ∀ (k0_h17 : k0_cond17 k0_t1 = 1#1), ∀ a, (k0_off100 k0_t1) a + S40.size a ≤ S25600.size a
  k0_t7_ok : k0_t7_loop.OK
  k0_off101_inb : ∀ k0_t7 : Fin k0_t7_loop.trips, ∀ a, (k0_off101 k0_t7) a + S1x16.size a ≤ S40x128.size a
  k0_off102_inb : ∀ k0_t7 : Fin k0_t7_loop.trips, ∀ a, (k0_off102 k0_t7) a + S1x16.size a ≤ S200x128.size a
  k0_off103_inb : ∀ k0_t7 : Fin k0_t7_loop.trips, ∀ a, (k0_off103 k0_t7) a + S1x16.size a ≤ S40x128.size a
  k0_off104_inb : ∀ k0_t7 : Fin k0_t7_loop.trips, ∀ a, (k0_off104 k0_t7) a + S1x16.size a ≤ S200x128.size a
  k0_off105_inb : ∀ k0_t7 : Fin k0_t7_loop.trips, ∀ a, (k0_off105 k0_t7) a + S1x16.size a ≤ S40x128.size a
  k0_off106_inb : ∀ k0_t7 : Fin k0_t7_loop.trips, ∀ a, (k0_off106 k0_t7) a + S1x16.size a ≤ S200x128.size a
  k0_off107_inb : ∀ k0_t7 : Fin k0_t7_loop.trips, ∀ a, (k0_off107 k0_t7) a + S1x16.size a ≤ S40x128.size a
  k0_off108_inb : ∀ k0_t7 : Fin k0_t7_loop.trips, ∀ a, (k0_off108 k0_t7) a + S1x16.size a ≤ S200x128.size a
  k0_off109_inb : ∀ k0_t7 : Fin k0_t7_loop.trips, ∀ a, (k0_off109 k0_t7) a + S1x16.size a ≤ S40x128.size a
  k0_off110_inb : ∀ k0_t7 : Fin k0_t7_loop.trips, ∀ a, (k0_off110 k0_t7) a + S1x16.size a ≤ S200x128.size a
  k0_off111_inb : ∀ k0_t7 : Fin k0_t7_loop.trips, ∀ a, (k0_off111 k0_t7) a + S1x16.size a ≤ S40x128.size a
  k0_off112_inb : ∀ k0_t7 : Fin k0_t7_loop.trips, ∀ a, (k0_off112 k0_t7) a + S1x16.size a ≤ S200x128.size a
  k0_off113_inb : ∀ k0_t7 : Fin k0_t7_loop.trips, ∀ a, (k0_off113 k0_t7) a + S1x16.size a ≤ S40x128.size a
  k0_off114_inb : ∀ k0_t7 : Fin k0_t7_loop.trips, ∀ a, (k0_off114 k0_t7) a + S1x16.size a ≤ S200x128.size a
  k0_off115_inb : ∀ k0_t7 : Fin k0_t7_loop.trips, ∀ a, (k0_off115 k0_t7) a + S1x16.size a ≤ S40x128.size a
  k0_off116_inb : ∀ k0_t7 : Fin k0_t7_loop.trips, ∀ a, (k0_off116 k0_t7) a + S1x16.size a ≤ S200x128.size a
  k0_off117_inb : ∀ (i : grid0.Coords) (k0_t1 : Fin k0_t1_loop.trips), ∀ (k0_h19 : k0_cond19 k0_t1 = 1#1), ∀ a, (k0_off117 i k0_t1) a + S1x40x128.size a ≤ S4096x200x128.size a
  k0_off118_inb : ∀ (i : grid0.Coords) (k0_t1 : Fin k0_t1_loop.trips), ∀ (k0_h20 : k0_cond20 k0_t1 = 1#1), ∀ (k0_h21 : k0_cond21 k0_t1 = 1#1), ∀ a, (k0_off118 i) a + S1x40x128.size a ≤ S4096x200x128.size a
  k0_off119_inb : ∀ k0_t1 : Fin k0_t1_loop.trips, ∀ (k0_h20 : k0_cond20 k0_t1 = 1#1), ∀ a, (k0_off119 k0_t1) a + S40.size a ≤ S25600.size a
  k0_t8_ok : k0_t8_loop.OK
  k0_off120_inb : ∀ k0_t8 : Fin k0_t8_loop.trips, ∀ a, (k0_off120 k0_t8) a + S1x16.size a ≤ S40x128.size a
  k0_off121_inb : ∀ k0_t8 : Fin k0_t8_loop.trips, ∀ a, (k0_off121 k0_t8) a + S1x16.size a ≤ S200x128.size a
  k0_off122_inb : ∀ k0_t8 : Fin k0_t8_loop.trips, ∀ a, (k0_off122 k0_t8) a + S1x16.size a ≤ S40x128.size a
  k0_off123_inb : ∀ k0_t8 : Fin k0_t8_loop.trips, ∀ a, (k0_off123 k0_t8) a + S1x16.size a ≤ S200x128.size a
  k0_off124_inb : ∀ k0_t8 : Fin k0_t8_loop.trips, ∀ a, (k0_off124 k0_t8) a + S1x16.size a ≤ S40x128.size a
  k0_off125_inb : ∀ k0_t8 : Fin k0_t8_loop.trips, ∀ a, (k0_off125 k0_t8) a + S1x16.size a ≤ S200x128.size a
  k0_off126_inb : ∀ k0_t8 : Fin k0_t8_loop.trips, ∀ a, (k0_off126 k0_t8) a + S1x16.size a ≤ S40x128.size a
  k0_off127_inb : ∀ k0_t8 : Fin k0_t8_loop.trips, ∀ a, (k0_off127 k0_t8) a + S1x16.size a ≤ S200x128.size a
  k0_off128_inb : ∀ k0_t8 : Fin k0_t8_loop.trips, ∀ a, (k0_off128 k0_t8) a + S1x16.size a ≤ S40x128.size a
  k0_off129_inb : ∀ k0_t8 : Fin k0_t8_loop.trips, ∀ a, (k0_off129 k0_t8) a + S1x16.size a ≤ S200x128.size a
  k0_off130_inb : ∀ k0_t8 : Fin k0_t8_loop.trips, ∀ a, (k0_off130 k0_t8) a + S1x16.size a ≤ S40x128.size a
  k0_off131_inb : ∀ k0_t8 : Fin k0_t8_loop.trips, ∀ a, (k0_off131 k0_t8) a + S1x16.size a ≤ S200x128.size a
  k0_off132_inb : ∀ k0_t8 : Fin k0_t8_loop.trips, ∀ a, (k0_off132 k0_t8) a + S1x16.size a ≤ S40x128.size a
  k0_off133_inb : ∀ k0_t8 : Fin k0_t8_loop.trips, ∀ a, (k0_off133 k0_t8) a + S1x16.size a ≤ S200x128.size a
  k0_off134_inb : ∀ k0_t8 : Fin k0_t8_loop.trips, ∀ a, (k0_off134 k0_t8) a + S1x16.size a ≤ S40x128.size a
  k0_off135_inb : ∀ k0_t8 : Fin k0_t8_loop.trips, ∀ a, (k0_off135 k0_t8) a + S1x16.size a ≤ S200x128.size a
  k0_off136_inb : ∀ (i : grid0.Coords) (k0_t1 : Fin k0_t1_loop.trips), ∀ (k0_h22 : k0_cond22 k0_t1 = 1#1), ∀ a, (k0_off136 i k0_t1) a + S1x40x128.size a ≤ S4096x200x128.size a
  k0_off137_inb : ∀ (i : grid0.Coords) (k0_t1 : Fin k0_t1_loop.trips), ∀ (k0_h23 : k0_cond23 k0_t1 = 1#1), ∀ (k0_h24 : k0_cond24 k0_t1 = 1#1), ∀ a, (k0_off137 i) a + S1x40x128.size a ≤ S4096x200x128.size a
  k0_off138_inb : ∀ k0_t1 : Fin k0_t1_loop.trips, ∀ (k0_h23 : k0_cond23 k0_t1 = 1#1), ∀ a, (k0_off138 k0_t1) a + S40.size a ≤ S25600.size a
  k0_t9_ok : k0_t9_loop.OK
  k0_off139_inb : ∀ k0_t9 : Fin k0_t9_loop.trips, ∀ a, (k0_off139 k0_t9) a + S1x16.size a ≤ S40x128.size a
  k0_off140_inb : ∀ k0_t9 : Fin k0_t9_loop.trips, ∀ a, (k0_off140 k0_t9) a + S1x16.size a ≤ S200x128.size a
  k0_off141_inb : ∀ k0_t9 : Fin k0_t9_loop.trips, ∀ a, (k0_off141 k0_t9) a + S1x16.size a ≤ S40x128.size a
  k0_off142_inb : ∀ k0_t9 : Fin k0_t9_loop.trips, ∀ a, (k0_off142 k0_t9) a + S1x16.size a ≤ S200x128.size a
  k0_off143_inb : ∀ k0_t9 : Fin k0_t9_loop.trips, ∀ a, (k0_off143 k0_t9) a + S1x16.size a ≤ S40x128.size a
  k0_off144_inb : ∀ k0_t9 : Fin k0_t9_loop.trips, ∀ a, (k0_off144 k0_t9) a + S1x16.size a ≤ S200x128.size a
  k0_off145_inb : ∀ k0_t9 : Fin k0_t9_loop.trips, ∀ a, (k0_off145 k0_t9) a + S1x16.size a ≤ S40x128.size a
  k0_off146_inb : ∀ k0_t9 : Fin k0_t9_loop.trips, ∀ a, (k0_off146 k0_t9) a + S1x16.size a ≤ S200x128.size a
  k0_off147_inb : ∀ k0_t9 : Fin k0_t9_loop.trips, ∀ a, (k0_off147 k0_t9) a + S1x16.size a ≤ S40x128.size a
  k0_off148_inb : ∀ k0_t9 : Fin k0_t9_loop.trips, ∀ a, (k0_off148 k0_t9) a + S1x16.size a ≤ S200x128.size a
  k0_off149_inb : ∀ k0_t9 : Fin k0_t9_loop.trips, ∀ a, (k0_off149 k0_t9) a + S1x16.size a ≤ S40x128.size a
  k0_off150_inb : ∀ k0_t9 : Fin k0_t9_loop.trips, ∀ a, (k0_off150 k0_t9) a + S1x16.size a ≤ S200x128.size a
  k0_off151_inb : ∀ k0_t9 : Fin k0_t9_loop.trips, ∀ a, (k0_off151 k0_t9) a + S1x16.size a ≤ S40x128.size a
  k0_off152_inb : ∀ k0_t9 : Fin k0_t9_loop.trips, ∀ a, (k0_off152 k0_t9) a + S1x16.size a ≤ S200x128.size a
  k0_off153_inb : ∀ k0_t9 : Fin k0_t9_loop.trips, ∀ a, (k0_off153 k0_t9) a + S1x16.size a ≤ S40x128.size a
  k0_off154_inb : ∀ k0_t9 : Fin k0_t9_loop.trips, ∀ a, (k0_off154 k0_t9) a + S1x16.size a ≤ S200x128.size a
  k0_off155_inb : ∀ (i : grid0.Coords) (k0_t1 : Fin k0_t1_loop.trips), ∀ (k0_h25 : k0_cond25 k0_t1 = 1#1), ∀ a, (k0_off155 i k0_t1) a + S1x40x128.size a ≤ S4096x200x128.size a
  k0_off156_inb : ∀ (i : grid0.Coords) (k0_t1 : Fin k0_t1_loop.trips), ∀ (k0_h26 : k0_cond26 k0_t1 = 1#1), ∀ (k0_h27 : k0_cond27 k0_t1 = 1#1), ∀ a, (k0_off156 i) a + S1x40x128.size a ≤ S4096x200x128.size a
  k0_off157_inb : ∀ k0_t1 : Fin k0_t1_loop.trips, ∀ (k0_h26 : k0_cond26 k0_t1 = 1#1), ∀ a, (k0_off157 k0_t1) a + S40.size a ≤ S25600.size a
  k0_t10_ok : k0_t10_loop.OK
  k0_off158_inb : ∀ k0_t10 : Fin k0_t10_loop.trips, ∀ a, (k0_off158 k0_t10) a + S1x16.size a ≤ S40x128.size a
  k0_off159_inb : ∀ k0_t10 : Fin k0_t10_loop.trips, ∀ a, (k0_off159 k0_t10) a + S1x16.size a ≤ S200x128.size a
  k0_off160_inb : ∀ k0_t10 : Fin k0_t10_loop.trips, ∀ a, (k0_off160 k0_t10) a + S1x16.size a ≤ S40x128.size a
  k0_off161_inb : ∀ k0_t10 : Fin k0_t10_loop.trips, ∀ a, (k0_off161 k0_t10) a + S1x16.size a ≤ S200x128.size a
  k0_off162_inb : ∀ k0_t10 : Fin k0_t10_loop.trips, ∀ a, (k0_off162 k0_t10) a + S1x16.size a ≤ S40x128.size a
  k0_off163_inb : ∀ k0_t10 : Fin k0_t10_loop.trips, ∀ a, (k0_off163 k0_t10) a + S1x16.size a ≤ S200x128.size a
  k0_off164_inb : ∀ k0_t10 : Fin k0_t10_loop.trips, ∀ a, (k0_off164 k0_t10) a + S1x16.size a ≤ S40x128.size a
  k0_off165_inb : ∀ k0_t10 : Fin k0_t10_loop.trips, ∀ a, (k0_off165 k0_t10) a + S1x16.size a ≤ S200x128.size a
  k0_off166_inb : ∀ k0_t10 : Fin k0_t10_loop.trips, ∀ a, (k0_off166 k0_t10) a + S1x16.size a ≤ S40x128.size a
  k0_off167_inb : ∀ k0_t10 : Fin k0_t10_loop.trips, ∀ a, (k0_off167 k0_t10) a + S1x16.size a ≤ S200x128.size a
  k0_off168_inb : ∀ k0_t10 : Fin k0_t10_loop.trips, ∀ a, (k0_off168 k0_t10) a + S1x16.size a ≤ S40x128.size a
  k0_off169_inb : ∀ k0_t10 : Fin k0_t10_loop.trips, ∀ a, (k0_off169 k0_t10) a + S1x16.size a ≤ S200x128.size a
  k0_off170_inb : ∀ k0_t10 : Fin k0_t10_loop.trips, ∀ a, (k0_off170 k0_t10) a + S1x16.size a ≤ S40x128.size a
  k0_off171_inb : ∀ k0_t10 : Fin k0_t10_loop.trips, ∀ a, (k0_off171 k0_t10) a + S1x16.size a ≤ S200x128.size a
  k0_off172_inb : ∀ k0_t10 : Fin k0_t10_loop.trips, ∀ a, (k0_off172 k0_t10) a + S1x16.size a ≤ S40x128.size a
  k0_off173_inb : ∀ k0_t10 : Fin k0_t10_loop.trips, ∀ a, (k0_off173 k0_t10) a + S1x16.size a ≤ S200x128.size a
  k0_off174_inb : ∀ (i : grid0.Coords) (k0_t1 : Fin k0_t1_loop.trips), ∀ (k0_h28 : k0_cond28 k0_t1 = 1#1), ∀ a, (k0_off174 i k0_t1) a + S1x40x128.size a ≤ S4096x200x128.size a
  k0_off175_inb : ∀ (i : grid0.Coords) (k0_t1 : Fin k0_t1_loop.trips), ∀ (k0_h29 : k0_cond29 k0_t1 = 1#1), ∀ (k0_h30 : k0_cond30 k0_t1 = 1#1), ∀ a, (k0_off175 i) a + S1x40x128.size a ≤ S4096x200x128.size a
  k0_off176_inb : ∀ k0_t1 : Fin k0_t1_loop.trips, ∀ (k0_h29 : k0_cond29 k0_t1 = 1#1), ∀ a, (k0_off176 k0_t1) a + S40.size a ≤ S25600.size a
  k0_t11_ok : k0_t11_loop.OK
  k0_off177_inb : ∀ k0_t11 : Fin k0_t11_loop.trips, ∀ a, (k0_off177 k0_t11) a + S1x16.size a ≤ S40x128.size a
  k0_off178_inb : ∀ k0_t11 : Fin k0_t11_loop.trips, ∀ a, (k0_off178 k0_t11) a + S1x16.size a ≤ S200x128.size a
  k0_off179_inb : ∀ k0_t11 : Fin k0_t11_loop.trips, ∀ a, (k0_off179 k0_t11) a + S1x16.size a ≤ S40x128.size a
  k0_off180_inb : ∀ k0_t11 : Fin k0_t11_loop.trips, ∀ a, (k0_off180 k0_t11) a + S1x16.size a ≤ S200x128.size a
  k0_off181_inb : ∀ k0_t11 : Fin k0_t11_loop.trips, ∀ a, (k0_off181 k0_t11) a + S1x16.size a ≤ S40x128.size a
  k0_off182_inb : ∀ k0_t11 : Fin k0_t11_loop.trips, ∀ a, (k0_off182 k0_t11) a + S1x16.size a ≤ S200x128.size a
  k0_off183_inb : ∀ k0_t11 : Fin k0_t11_loop.trips, ∀ a, (k0_off183 k0_t11) a + S1x16.size a ≤ S40x128.size a
  k0_off184_inb : ∀ k0_t11 : Fin k0_t11_loop.trips, ∀ a, (k0_off184 k0_t11) a + S1x16.size a ≤ S200x128.size a
  k0_off185_inb : ∀ k0_t11 : Fin k0_t11_loop.trips, ∀ a, (k0_off185 k0_t11) a + S1x16.size a ≤ S40x128.size a
  k0_off186_inb : ∀ k0_t11 : Fin k0_t11_loop.trips, ∀ a, (k0_off186 k0_t11) a + S1x16.size a ≤ S200x128.size a
  k0_off187_inb : ∀ k0_t11 : Fin k0_t11_loop.trips, ∀ a, (k0_off187 k0_t11) a + S1x16.size a ≤ S40x128.size a
  k0_off188_inb : ∀ k0_t11 : Fin k0_t11_loop.trips, ∀ a, (k0_off188 k0_t11) a + S1x16.size a ≤ S200x128.size a
  k0_off189_inb : ∀ k0_t11 : Fin k0_t11_loop.trips, ∀ a, (k0_off189 k0_t11) a + S1x16.size a ≤ S40x128.size a
  k0_off190_inb : ∀ k0_t11 : Fin k0_t11_loop.trips, ∀ a, (k0_off190 k0_t11) a + S1x16.size a ≤ S200x128.size a
  k0_off191_inb : ∀ k0_t11 : Fin k0_t11_loop.trips, ∀ a, (k0_off191 k0_t11) a + S1x16.size a ≤ S40x128.size a
  k0_off192_inb : ∀ k0_t11 : Fin k0_t11_loop.trips, ∀ a, (k0_off192 k0_t11) a + S1x16.size a ≤ S200x128.size a
  k0_off193_inb : ∀ i : grid0.Coords, ∀ a, (k0_off193 i) a + S1x40x128.size a ≤ S4096x200x128.size a
  k0_off194_inb : ∀ i : grid0.Coords, ∀ a, (k0_off194 i) a + S1x40x128.size a ≤ S4096x200x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scratch11 : DmaSems sig S_ := SemArray.consecutive 8 S_ hcc0_scratch11
abbrev cc0_scratch12 : DmaSems sig S_ := SemArray.consecutive 9 S_ hcc0_scratch12
abbrev cc0_scratch13 : DmaSems sig S_ := SemArray.consecutive 10 S_ hcc0_scratch13
abbrev cc0_scratch14 : DmaSems sig S_ := SemArray.consecutive 11 S_ hcc0_scratch14
abbrev cc0_scratch15 : DmaSems sig S_ := SemArray.consecutive 12 S_ hcc0_scratch15
abbrev cc0_scratch16 : DmaSems sig S_ := SemArray.consecutive 13 S_ hcc0_scratch16
abbrev cc0_scratch17 : DmaSems sig S_ := SemArray.consecutive 14 S_ hcc0_scratch17
abbrev cc0_scratch18 : DmaSems sig S_ := SemArray.consecutive 15 S_ hcc0_scratch18
abbrev cc0_scratch19 : DmaSems sig S_ := SemArray.consecutive 16 S_ hcc0_scratch19
abbrev cc0_scratch20 : DmaSems sig S_ := SemArray.consecutive 17 S_ hcc0_scratch20
abbrev cc0_scratch21 : DmaSems sig S_ := SemArray.consecutive 18 S_ hcc0_scratch21
abbrev cc0_scratch22 : DmaSems sig S_ := SemArray.consecutive 19 S_ hcc0_scratch22
abbrev cc0_scoped0 : DmaSems sig S_ := SemArray.consecutive 20 S_ hcc0_scoped0
abbrev cc0_scoped1 : DmaSems sig S_ := SemArray.consecutive 21 S_ hcc0_scoped1

class Facts : Prop extends Facts₀ where

variable [Facts]
-- ==== ReferenceIdeal.lean ====
abbrev S4096x200 : Shape := ⟨2, ![4096, 200]⟩
abbrev S100000x128 : Shape := ⟨2, ![100000, 128]⟩
abbrev S1x200x128 : Shape := ⟨3, ![1, 200, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 31
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S1x200x128, .f32⟩
  | .hbm, ⟨3, _⟩ => ⟨S_, .i32⟩
  | .hbm, ⟨4, _⟩ => ⟨S4096x200, .i32⟩
  | .hbm, ⟨5, _⟩ => ⟨S4096x200, .i1⟩
  | .hbm, ⟨6, _⟩ => ⟨S_, .i32⟩
  | .hbm, ⟨7, _⟩ => ⟨S4096x200, .i32⟩
  | .hbm, ⟨8, _⟩ => ⟨S4096x200, .i32⟩
  | .hbm, ⟨9, _⟩ => ⟨S4096x200, .i32⟩
  | .hbm, ⟨10, _⟩ => ⟨S4096x200x1, .i32⟩
  | .hbm, ⟨11, _⟩ => ⟨S1, .i32⟩
  | .hbm, ⟨12, _⟩ => ⟨S_, .i32⟩
  | .hbm, ⟨13, _⟩ => ⟨S4096x200x1, .i32⟩
  | .hbm, ⟨14, _⟩ => ⟨S4096x200x1, .i1⟩
  | .hbm, ⟨15, _⟩ => ⟨S1x1x1, .i32⟩
  | .hbm, ⟨16, _⟩ => ⟨S4096x200x1, .i32⟩
  | .hbm, ⟨17, _⟩ => ⟨S4096x200x1, .i1⟩
  | .hbm, ⟨18, _⟩ => ⟨S4096x200x1, .i1⟩
  | .hbm, ⟨19, _⟩ => ⟨S_, .i1⟩
  | .hbm, ⟨20, _⟩ => ⟨S4096x200, .i1⟩
  | .hbm, ⟨21, _⟩ => ⟨S4096x200x128, .f32⟩
  | .hbm, ⟨22, _⟩ => ⟨S4096x200x128, .i1⟩
  | .hbm, ⟨23, _⟩ => ⟨S_, .f32⟩
  | .hbm, ⟨24, _⟩ => ⟨S4096x200x128, .f32⟩
  | .hbm, ⟨25, _⟩ => ⟨S4096x200x128, .f32⟩
  | .hbm, ⟨26, _⟩ => ⟨S_, .f32⟩
  | .hbm, ⟨27, _⟩ => ⟨S4096x200x128, .f32⟩
  | .hbm, ⟨28, _⟩ => ⟨S4096x200x128, .f32⟩
  | .hbm, ⟨29, _⟩ => ⟨S4096x200x128, .f32⟩
  | .hbm, ⟨30, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  bcast_S1x200x128_S4096x200x128_0_1_2 : S1x200x128.BroadcastsInDim S4096x200x128 (![0, 1, 2] : Fin 3 → Fin S4096x200x128.rank)
  gather_S100000x128_S4096x200x1_S4096x200x128_2_0_n_n_0_2_1128_wf : GatherDims.WF S100000x128 S4096x200x1 S4096x200x128 [2] [0] [] [0] [] 2 ![1, 128]

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf

class Facts : Prop extends Facts₀ where

variable [Facts]
-- ==== Proof.PreIdx.lean ====
/-
  The index range the precondition states, read back.

  The precondition is a conjunction of three whole-array "all" reductions; the third says of every index word w of
  the [4096, 200] index array that 0 ≤ w and w ≤ 99999, both compared signed.  A 32-bit word that is nonnegative signed
  reads the same signed and unsigned, so every index word is below 100000 unsigned and has its top bit clear.
  The two conjuncts about the float arrays are not used.
-/
import proofs.«206279_g3710851744293_cont_8to1_b_253_31_alg».proof.Pre_input_domain
import proofs.«206279_g3710851744293_cont_8to1_b_253_31_alg».proof.Proof.Gen.Pre_input_domain
import Idealize.ShloMosaic.Lib.ReduceAll

noncomputable section

namespace Cert.PreIdx

open Idealize.ShloMosaic

/-- The rank-0 shape has one index. -/
instance : Subsingleton Cert.Pre_input_domain.S_.Idx := ⟨fun a b => funext fun d => d.elim0⟩

/-- A word in [0, n] signed, n below 2^31, is at most n unsigned, with its top bit clear. -/
theorem word_range (w : BitVec 32) (n : Nat) (hn : n < 2 ^ 31)
    (h0 : IntOp.cmpi .sge w (0#32) = 1#1) (h1 : IntOp.cmpi .sle w (BitVec.ofNat 32 n) = 1#1) :
    w.toNat ≤ n ∧ w.msb = false := by
  rw [IntOp.cmpi_sge] at h0
  rw [IntOp.cmpi_sle] at h1
  have z : (0#32 : BitVec 32).toInt = 0 := by decide
  rw [z] at h0
  have hlt : 2 * w.toNat < 2 ^ 32 := BitVec.toInt_pos_iff.1 h0
  have hw : w.toInt = (w.toNat : Int) := BitVec.toInt_eq_toNat_of_lt hlt
  have hnN : (BitVec.ofNat 32 n).toNat = n := by rw [BitVec.toNat_ofNat]; omega
  have hnI : (BitVec.ofNat 32 n).toInt = (n : Int) := by
    rw [BitVec.toInt_eq_toNat_of_lt (by omega), hnN]
  rw [hw, hnI] at h1
  refine ⟨by omega, ?_⟩
  rw [BitVec.msb_eq_false_iff_two_mul_lt]; exact hlt

variable {F : FTy → Type} [FloatOps F] [Cert.Pre_input_domain.Facts]

/-- THE PRECONDITION DECODED at an index: the index word is in [0, 99999] and its top bit is clear. -/
theorem idx_range (inp : IVec Cert.Pre_input_domain.S4096x200 32) (tbl : FVec F Cert.Pre_input_domain.S100000x128 .f32)
    (pe : FVec F Cert.Pre_input_domain.S1x200x128 .f32)
    (h : Cert.Pre_input_domain.fn (F := F) inp tbl pe = fun _ => 1#1) :
    ∀ j, (inp j).toNat ≤ 99999 ∧ (inp j).msb = false := by
  intro j
  have e := congrFun h (fun d => d.elim0)
  dsimp only [Cert.Pre_input_domain.fn] at e
  obtain ⟨-, e3⟩ := IntOp.andi_eq_one.1 e
  have ej := Host.reduce_andi_all _ _ _ _ _ e3 j
  obtain ⟨h0, h1⟩ := IntOp.andi_eq_one.1 ej
  exact word_range (inp j) 99999 (by decide) h0 h1

theorem idx_lt (inp : IVec Cert.Pre_input_domain.S4096x200 32) (tbl : FVec F Cert.Pre_input_domain.S100000x128 .f32)
    (pe : FVec F Cert.Pre_input_domain.S1x200x128 .f32)
    (h : Cert.Pre_input_domain.fn (F := F) inp tbl pe = fun _ => 1#1) : ∀ j, (inp j).toNat < 100000 :=
  fun j => Nat.lt_succ_of_le (idx_range inp tbl pe h j).1

theorem idx_nonneg (inp : IVec Cert.Pre_input_domain.S4096x200 32) (tbl : FVec F Cert.Pre_input_domain.S100000x128 .f32)
    (pe : FVec F Cert.Pre_input_domain.S1x200x128 .f32)
    (h : Cert.Pre_input_domain.fn (F := F) inp tbl pe = fun _ => 1#1) : ∀ j, (inp j).msb = false :=
  fun j => (idx_range inp tbl pe h j).2

end Cert.PreIdx

end
-- ==== Proof.Spec.lean ====
/-
  The function both programs compute, as ONE whole-array function of the three argument arrays.

  An embedding lookup with a positional term: for a batch row b, a position s and a lane l,

      out[b, s, l] = table[inputs[b, s], l] * c + pe[0, s, l]

  where c is the single-precision value nearest to sqrt 128 (the word 0x413504F3, the same word in both
  programs, so it is never evaluated).  The row of the table is named by a signed 32-bit word; read as the
  host's gather reads it (clamped to the table), which on words already in [0, 100000) is the word itself.
-/
import Idealize.ShloMosaic.PureOps.Ideal
import Idealize.ShloMosaic.Lib.ValueIdx

noncomputable section

namespace Cert.Spec

open Idealize.ShloMosaic Idealize.ShloMosaic.ValueIdx

abbrev SInp : Shape := ⟨2, ![4096, 200]⟩
abbrev STbl : Shape := ⟨2, ![100000, 128]⟩
abbrev SPe : Shape := ⟨3, ![1, 200, 128]⟩
abbrev SOut : Shape := ⟨3, ![4096, 200, 128]⟩

/-- The table row a signed 32-bit word names: the word, clamped into the table's rows. -/
def rowOf (w : BitVec 32) : Fin 100000 := ⟨min w.toInt.toNat 99999, by omega⟩

/-- A word already in [0, 100000) names the row of its own value. -/
theorem rowOf_val_of_lt {w : BitVec 32} (h : w.toNat < 100000) : (rowOf w).val = w.toNat := by
  have h1 : w.toInt = (w.toNat : Int) := by
    rw [BitVec.toInt_eq_toNat_cond]; split <;> omega
  simp only [rowOf, h1, Int.toNat_natCast]; omega

variable {F : FTy → Type} [FloatOps F]

/-- The result array: the looked-up row scaled by the constant, plus the positional row. -/
def G (inp : IVec SInp 32) (tbl : FVec F STbl .f32) (pe : FVec F SPe .f32) : FVec F SOut .f32 :=
  fun j => FloatOps.addf
    (FloatOps.mulf (tbl (ix2 (n0 := 100000) (n1 := 128) (rowOf (inp (ix2 (n0 := 4096) (n1 := 200) (j 0) (j 1)))) (j 2)))
      (FloatOps.ofBits .f32 0x413504F3#32))
    (pe (ix3 (n0 := 1) (n1 := 200) (n2 := 128) 0 (j 1) (j 2)))

end Cert.Spec

end
-- ==== Proof.RefOps.lean ====
/-
  The reference program's @main as one straight line.

  The reference's @main calls one outlined function (the row lookup), which itself calls another (a three-way
  select); unfolded at the calls, @main is one straight line of 28 operations over the buffers the calls name.
-/
import proofs.«206279_g3710851744293_cont_8to1_b_253_31_alg».proof.ReferenceIdeal
import proofs.«206279_g3710851744293_cont_8to1_b_253_31_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 28 operations in order, the two calls unfolded: the row lookup's 23 (its inner select among them, into
    the inner call's buffer), then @main's own five. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S100000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select,
    nullary main_cst (constant S_ .f32 0x413504F3#32),
    unary main_cst main_v1 (broadcastInDim S4096x200x128 ![] bcast_S_S4096x200x128 : (⟨S_, .f32⟩ : BufTy).Contents (Elt F) → (⟨S4096x200x128, .f32⟩ : BufTy).Contents (Elt F)),
    binary main_v0 main_v1 main_v2 (mulf : (⟨S4096x200x128, .f32⟩ : BufTy).Contents (Elt F) → (⟨S4096x200x128, .f32⟩ : BufTy).Contents (Elt F) → (⟨S4096x200x128, .f32⟩ : BufTy).Contents (Elt F)),
    unary main_arg2 main_v3 (broadcastInDim S4096x200x128 ![0, 1, 2] bcast_S1x200x128_S4096x200x128_0_1_2 : (⟨S1x200x128, .f32⟩ : BufTy).Contents (Elt F) → (⟨S4096x200x128, .f32⟩ : BufTy).Contents (Elt F)),
    binary main_v2 main_v3 main_v4 (addf : (⟨S4096x200x128, .f32⟩ : BufTy).Contents (Elt F) → (⟨S4096x200x128, .f32⟩ : BufTy).Contents (Elt F) → (⟨S4096x200x128, .f32⟩ : BufTy).Contents (Elt F)) ]

-- twenty-eight binds re-associated under the chain
set_option maxRecDepth 1024 in
/-- @main is that straight line: the two functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub .., unary_bufs_sub .., binary_bufs_sub ..⟩

end Cert.ReferenceIdeal.RefValue

end
-- ==== Proof.LibMask.lean ====
/-
  One-bit masks that are everywhere 1.  A reduction by `and` from the constant 1 over an array of ones is 1 at every
  result index (the converse of reading `jnp.all` back), a select under a mask that is everywhere 1 is its first branch,
  and a signed 32-bit row number that already lies in `[0, n)` passes jnp's fill-mode bounds test unchanged: its
  negative-index wrap `select (w < 0) (w + n) w` is `w` itself, which is `≥ 0` and `≤ n - 1`.
-/
import Idealize.ShloMosaic.Lib.ReduceAll
import Idealize.ShloMosaic.Lib.ValueIdx

namespace Cert.Lib.Mask

open Idealize.ShloMosaic

/-- A left fold by `and` over one-bit words that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

/-- A `stablehlo.reduce` by `and`, from an initial value that is 1, of an array of ones is 1 at every result index. -/
theorem reduce_andi_one {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl]
  exact foldl_andi_one x _ _ (hi _) (fun n _ => hx n)

/-- A select whose mask is 1 at every index is its first branch. -/
theorem select_of_all_one {s : Shape} {α : Type} (c : IVec s 1) (a b : s.Idx → α) (hc : ∀ i, c i = 1#1) : select c a b = a :=
  funext fun i => by rw [ValueIdx.select_apply, hc i]; exact ValueIdx.select_one _ _

/-- A row number `w` with `0 ≤ w < n` (signed, `n` below 2³¹) is its own negative-index wrap, and the wrap passes the
    bounds test `0 ≤ · ≤ n - 1`. -/
theorem wrap_in_range (w : BitVec 32) (n : Nat) (hn : n < 2 ^ 31) (h0 : 0 ≤ w.toInt) (h1 : w.toInt < n) :
    IntOp.andi
      (IntOp.cmpi .sge (Scalar.select (IntOp.cmpi .slt w 0#32) (IntOp.addi w (BitVec.ofNat 32 n)) w) 0#32)
      (IntOp.cmpi .sle (Scalar.select (IntOp.cmpi .slt w 0#32) (IntOp.addi w (BitVec.ofNat 32 n)) w) (BitVec.ofNat 32 (n - 1))) = 1#1 := by
  have hlt : IntOp.cmpi .slt w 0#32 = 0#1 :=
    ValueIdx.eq_zero_of_ne_one fun h => by
      have := IntOp.cmpi_slt.1 h
      simp only [BitVec.toInt_zero] at this
      omega
  rw [hlt, ValueIdx.select_zero, IntOp.andi_eq_one]
  refine ⟨IntOp.cmpi_sge.2 (by simp only [BitVec.toInt_zero]; exact h0), IntOp.cmpi_sle.2 ?_⟩
  have hlit : (BitVec.ofNat 32 (n - 1)).toInt = ((n - 1 : Nat) : Int) := by
    rw [BitVec.toInt_eq_toNat_of_lt (by simp only [BitVec.toNat_ofNat]; omega)]
    simp only [BitVec.toNat_ofNat]
    congr 1
    exact Nat.mod_eq_of_lt (by omega)
  rw [hlit]
  omega

end Cert.Lib.Mask
-- ==== Proof.RefTerm.lean ====
/-
  The reference's composed pure term, and its value.

  The reference program is an embedding lookup with a positional term: out = take(table, inputs) * c + pe.  Its
  operations compose to one pure function of the three argument arrays (refTerm below): the index words wrapped
  (w < 0 ? w + 100000 : w), a unit axis appended, a gather of [1, 128] slices of the table at those start indices,
  a bounds mask (0 ≤ start ≤ 99999, reduced by "and" over the unit axis, broadcast over the lanes) choosing between
  the gathered rows and a fill constant, the product with a broadcast constant and the sum with the positional
  array broadcast along the batch axis.

  Under the hypothesis that every index word is below 100000 unsigned (so nonnegative signed): the wrap is the
  identity, the mask is 1 everywhere, the select is the gathered rows, and the gather reads the table row
  min (toNat (toInt w)) 99999, which is the specification's row.  So refTerm is the specification's function G.
-/
import proofs.«206279_g3710851744293_cont_8to1_b_253_31_alg».proof.ReferenceIdeal
import proofs.«206279_g3710851744293_cont_8to1_b_253_31_alg».proof.Proof.Gen.ReferenceIdeal
import proofs.«206279_g3710851744293_cont_8to1_b_253_31_alg».proof.Proof.Spec
import proofs.«206279_g3710851744293_cont_8to1_b_253_31_alg».proof.Proof.LibMask
import Idealize.ShloMosaic.Lib.ValueIdx

noncomputable section

namespace Cert.ReferenceIdeal.RefValue

open Cert.ReferenceIdeal Cert.ReferenceIdeal.Gen Idealize.ShloMosaic Idealize.ShloMosaic.ValueIdx

variable {F : FTy → Type} [FloatOps F]

/-- The gather's dimension record. -/
abbrev gd : GatherDims S100000x128 S4096x200x1 S4096x200x128 := gather_S100000x128_S4096x200x1_S4096x200x128_2_0_n_n_0_2_1128

/-- The index words after the negative-index wrap. -/
def wrapped (inp : IVec S4096x200 32) : IVec S4096x200 32 :=
  select (cmpi .slt inp (broadcastInDim S4096x200 ![] bcast_S_S4096x200 (constantI S_ 32 0#32)))
    (addi inp (broadcastInDim S4096x200 ![] bcast_S_S4096x200 (constantI S_ 32 100000#32))) inp

/-- The wrapped index words as start indices: a unit axis appended. -/
def starts (inp : IVec S4096x200 32) : IVec S4096x200x1 32 :=
  broadcastInDim S4096x200x1 ![0, 1] bcast_S4096x200_S4096x200x1_0_1 (wrapped inp)

/-- The bounds mask: 0 ≤ start ≤ 99999, reduced by "and" over the unit axis. -/
def mask (inp : IVec S4096x200 32) : IVec S4096x200 1 :=
  Host.reduce IntOp.andi
    (andi (cmpi .sge (starts inp) (broadcastInDim S4096x200x1 ![] bcast_S_S4096x200x1 (constantI S_ 32 0#32)))
      (cmpi .sle (starts inp) (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_

/-- The row lookup's result: the gathered rows where the mask is 1, the fill constant elsewhere. -/
def taken (inp : IVec S4096x200 32) (tbl : FVec F S100000x128 .f32) : FVec F S4096x200x128 .f32 :=
  select (broadcastInDim S4096x200x128 ![0, 1] bcast_S4096x200_S4096x200x128_0_1 (mask inp))
    (Host.gather gd tbl (starts inp))
    (broadcastInDim S4096x200x128 ![] bcast_S_S4096x200x128 (constant S_ .f32 0x7FC00000#32))

/-- The operations' composed pure term at the result buffer. -/
def refTerm (inp : IVec S4096x200 32) (tbl : FVec F S100000x128 .f32) (pe : FVec F S1x200x128 .f32) : FVec F S4096x200x128 .f32 :=
  addf (mulf (taken inp tbl) (broadcastInDim S4096x200x128 ![] bcast_S_S4096x200x128 (constant S_ .f32 0x413504F3#32)))
    (broadcastInDim S4096x200x128 ![0, 1, 2] bcast_S1x200x128_S4096x200x128_0_1_2 pe)

/-! ## The value -/

/-- A word below 100000 unsigned reads the same signed. -/
theorem toInt_of_lt {w : BitVec 32} (h : w.toNat < 100000) : w.toInt = (w.toNat : Int) :=
  BitVec.toInt_eq_toNat_of_lt (by omega)

/-- The negative-index wrap of words that are already row numbers is the identity. -/
theorem wrapped_eq (inp : IVec S4096x200 32) (h : ∀ k, (inp k).toNat < 100000) : wrapped inp = inp := by
  funext k
  have hlt : IntOp.cmpi .slt (inp k) 0#32 = 0#1 :=
    eq_zero_of_ne_one fun e => by
      have := IntOp.cmpi_slt.1 e
      rw [toInt_of_lt (h k)] at this
      simp only [BitVec.toInt_zero] at this
      omega
  show Scalar.select (IntOp.cmpi .slt (inp k) 0#32) (IntOp.addi (inp k) 100000#32) (inp k) = inp k
  rw [hlt, select_zero]

/-- A row number passes the bounds test. -/
theorem bounds_one (w : BitVec 32) (h : w.toNat < 100000) :
    IntOp.andi (IntOp.cmpi .sge w 0#32) (IntOp.cmpi .sle w 99999#32) = 1#1 := by
  have h9 : (99999#32 : BitVec 32).toInt = 99999 := by decide
  rw [IntOp.andi_eq_one, IntOp.cmpi_sge, IntOp.cmpi_sle, toInt_of_lt h, h9]
  simp only [BitVec.toInt_zero]
  omega

/-- The bounds mask of row numbers is 1 at every position. -/
theorem mask_one (inp : IVec S4096x200 32) (h : ∀ k, (inp k).toNat < 100000) (k : S4096x200.Idx) : mask inp k = 1#1 := by
  unfold mask starts
  rw [wrapped_eq inp h]
  exact Cert.Lib.Mask.reduce_andi_one _ _ _ _ (fun _ => rfl) (fun i => bounds_one _ (h _)) k

/-- THE GATHER READ AT (b, s, l): the table at the row the start index [b, s, 0] names — read signed and clamped into
    [0, 99999] — and lane l. -/
theorem gather_apply {α : Type} (tbl : S100000x128.Idx → α) (idx : IVec S4096x200x1 32) (j : S4096x200x128.Idx) :
    Host.gather gd tbl idx j
      = tbl (ix2 (n0 := 100000) (n1 := 128)
          ⟨min (idx (ix3 (n0 := 4096) (n1 := 200) (n2 := 1) (j 0) (j 1) 0)).toInt.toNat 99999, by omega⟩ (j 2)) := by
  unfold Host.gather
  congr 1
  funext a
  refine Fin.ext ?_
  fin_cases a
  · show gd.start j idx 0 + gd.batchCoord j 0 + gd.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx j ⟨List.idxOf (0 : Fin 2) gd.startIndexMap,
        List.idxOf_lt_length_iff.2 (List.mem_singleton.mpr rfl)⟩ = ix3 (n0 := 4096) (n1 := 200) (n2 := 1) (j 0) (j 1) 0 := by
      funext b; refine Fin.ext ?_
      match b with
      | ⟨0, _⟩ => rfl
      | ⟨1, _⟩ => rfl
      | ⟨2, _⟩ => rfl
    rw [hsi]
    rfl
  · show gd.start j idx 1 + gd.batchCoord j 1 + gd.offCoord j 1 = (j 2).val
    rw [GatherDims.batchCoord_eq_zero _ _ _ List.not_mem_nil]
    unfold GatherDims.start
    rw [dif_neg (show (1 : Fin 2) ∉ gd.startIndexMap by decide)]
    simp only [Nat.zero_add, Nat.add_zero]
    rfl

/-- The table at a clamped row, stated so that the row's word can be replaced by an equal one. -/
theorem row_congr {α : Type} (tbl : S100000x128.Idx → α) (l : Fin 128) {w w' : BitVec 32} (e : w = w')
    (hb : min w.toInt.toNat 99999 < 100000) :
    tbl (ix2 (n0 := 100000) (n1 := 128) ⟨min w.toInt.toNat 99999, hb⟩ l)
      = tbl (ix2 (n0 := 100000) (n1 := 128) (Cert.Spec.rowOf w') l) := by
  subst e; rfl

/-- The start index at [b, s, 0] is the index word (b, s). -/
theorem starts_apply (inp : IVec S4096x200 32) (h : ∀ k, (inp k).toNat < 100000) (j : S4096x200x128.Idx) :
    starts inp (ix3 (n0 := 4096) (n1 := 200) (n2 := 1) (j 0) (j 1) 0) = inp (ix2 (n0 := 4096) (n1 := 200) (j 0) (j 1)) := by
  unfold starts
  rw [wrapped_eq inp h]
  show inp _ = inp _
  congr 1
  funext a
  fin_cases a <;> rfl

/-- A select under the lane-broadcast of a mask that is 1 at every position is its first branch. -/
theorem select_bcast_one {α : Type} (c : IVec S4096x200 1) (hc : ∀ k, c k = 1#1) (a b : S4096x200x128.Idx → α) :
    select (broadcastInDim S4096x200x128 ![0, 1] bcast_S4096x200_S4096x200x128_0_1 c) a b = a :=
  Cert.Lib.Mask.select_of_all_one _ _ _ (fun i => hc _)

attribute [local irreducible] mask starts Host.gather in
/-- The row lookup at (b, s, l) is the table at the specification's row of the index word (b, s), lane l. -/
theorem taken_apply (inp : IVec S4096x200 32) (tbl : FVec F S100000x128 .f32) (h : ∀ k, (inp k).toNat < 100000)
    (j : S4096x200x128.Idx) :
    taken inp tbl j
      = tbl (ix2 (n0 := 100000) (n1 := 128) (Cert.Spec.rowOf (inp (ix2 (n0 := 4096) (n1 := 200) (j 0) (j 1)))) (j 2)) := by
  unfold taken
  refine (congrFun (select_bcast_one (mask inp) (mask_one inp h) _ _) j).trans ?_
  refine (gather_apply tbl (starts inp) j).trans ?_
  exact row_congr tbl (j 2) (starts_apply inp h j) _

attribute [local irreducible] taken in
/-- THE REFERENCE'S VALUE: on index words below 100000 the composed term is the specification's function. -/
theorem refTerm_eq (inp : IVec S4096x200 32) (tbl : FVec F S100000x128 .f32) (pe : FVec F S1x200x128 .f32)
    (h : ∀ k, (inp k).toNat < 100000) : refTerm inp tbl pe = Cert.Spec.G (F := F) inp tbl pe := by
  funext j
  have e := taken_apply inp tbl h j
  show FloatOps.addf (FloatOps.mulf (taken inp tbl j) (FloatOps.ofBits .f32 0x413504F3#32)) (pe _)
    = FloatOps.addf (FloatOps.mulf (tbl _) (FloatOps.ofBits .f32 0x413504F3#32)) (pe _)
  refine congrArg₂ FloatOps.addf (congrArg (fun x => FloatOps.mulf x (FloatOps.ofBits .f32 0x413504F3#32)) e) (congrArg pe ?_)
  funext a
  fin_cases a <;> rfl

end Cert.ReferenceIdeal.RefValue

end
-- ==== Proof.RefRun.lean ====
/-
  The reference program's run.

  The reference's @main is one straight line of 28 operations (the two outlined functions unfolded at their calls).
  Every weakly fair execution of it terminates with each buffer at the fold of the operations' results over the
  launch contents; the result buffer then holds the composed pure term of the three argument arrays, and the
  arguments are unchanged.  Under the precondition every index word is below 100000, where that term is the
  specification's function.
-/
import proofs.«206279_g3710851744293_cont_8to1_b_253_31_alg».proof.Defs
import proofs.«206279_g3710851744293_cont_8to1_b_253_31_alg».proof.Proof.Gen.ReferenceIdeal
import proofs.«206279_g3710851744293_cont_8to1_b_253_31_alg».proof.Proof.Gen.Pre_input_domain
import proofs.«206279_g3710851744293_cont_8to1_b_253_31_alg».proof.Proof.Spec
import proofs.«206279_g3710851744293_cont_8to1_b_253_31_alg».proof.Proof.PreIdx
import proofs.«206279_g3710851744293_cont_8to1_b_253_31_alg».proof.Proof.RefOps
import proofs.«206279_g3710851744293_cont_8to1_b_253_31_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A value moved along a type equation and back is unchanged. -/
theorem cast_cast_id {α β : Type} (h : α = β) (h' : β = α) (v : α) : cast h' (cast h v) = v := by
  subst h; rfl

/-- Contents moved to a typed reference's buffer type and back are unchanged. -/
theorem ofBuf_toBuf {T : BufTy} (x : TRef sig T) (v : T.Contents (Elt F)) : x.ofBuf (x.toBuf v) = v :=
  cast_cast_id _ _ v

attribute [local irreducible] Host.reduce Host.gather in
/-- The fold at the result buffer is the composed term: each operation's result rewritten at its own buffer to its
    function's value and at any other to what was there, the moves between a value's type and its buffer's type
    cancelled; what is left is the term's definition unfolded.  The reduction and the gather are kept folded
    meanwhile (the equation never looks inside them). -/
theorem out_eq (V : Valuation τ sig (Elt F)) :
    after ops V (main_v4 : DevRef τ sig)
      = refTerm (V (main_arg0 : DevRef τ sig)) (V (main_arg1 : DevRef τ sig)) (V (main_arg2 : DevRef τ sig)) := by
  after_results_simp
  simp only [ofBuf_toBuf]
  unfold refTerm taken mask starts wrapped
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

theorem arg2_eq (V : Valuation τ sig (Elt F)) : after ops V (main_arg2 : DevRef τ sig) = V (main_arg2 : DevRef τ sig) := by
  after_results_simp

/-- On every device, for any float values, from any memory with zero counters: every weakly fair execution of @main
    terminates with the result at the composed term of the arguments and the arguments unchanged. -/
theorem run0 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

/-- THE REFERENCE'S RUN: at the ideal instance, from any memory of which the precondition holds, every weakly fair
    execution of @main terminates with the result at the specification's function of the arguments and the arguments
    unchanged. -/
theorem run (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v4)
        = Cert.Spec.G (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c => ⟨(h c).1.trans (refTerm_eq _ _ _ (Cert.PreIdx.idx_lt _ _ _ (hpre c))), (h c).2⟩)
    (run0 (F := Ideal) m g)

/-- The reference runs and its argument arrays end unchanged. -/
theorem frame : Cert.frame_ReferenceIdeal (hReferenceIdeal := Cert.ReferenceIdeal.Gen.facts) (hPre_input_domain := Cert.Pre_input_domain.Gen.facts) :=
  fun m g hpre => (θ_run _ _ _).mono (fun _ h c => (h c).2) (run m g hpre)

end Cert.ReferenceIdeal.RefValue

end
-- ==== Proof.KISetup.lean ====
/-
  The program as the launch theorem reads it, the resource algebra of its proof (the launch handshakes beside
  plain transfer counters: the kernel only makes copies of its own and waits for them), and the names of the
  arrays and scratch buffers a tile's task works on.
-/
import proofs.«206279_g3710851744293_cont_8to1_b_253_31_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206279_g3710851744293_cont_8to1_b_253_31_alg».proof.Proof.Gen.KernelIdeal
import proofs.«206279_g3710851744293_cont_8to1_b_253_31_alg».proof.Proof.Gen.KernelIdeal.Skeleton
import proofs.«206279_g3710851744293_cont_8to1_b_253_31_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

end Cert.Proof.KI

end
-- ==== Proof.KIRes.lean ====
/-
  What one tile's task is handed and what it hands back.

  The device's 32 tiles (2 SparseCores of 16) split the batch: tile w = 2 * subcore + core owns the batch rows
  [128 w, 128 w + 128) of the result, and only READS the flattened index array, the positional table and the
  embedding table.  So a tile is handed a read share of each of the three input arrays whole (token w of 32 of
  the full share) and the result array's elements on its own 128 batch rows outright; it hands the same back,
  the result's rows holding the looked-up, scaled and shifted rows.
-/
import proofs.«206279_g3710851744293_cont_8to1_b_253_31_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.Transfers (shareTok)

variable {F : FTy → Type}

local notation "𝕄" => MT nD τ sig (HIx 1) (Elt F) ℕ UU ℕ

/-- The four HBM arrays of the kernel, as locations of device `d`: the flattened indices, the positional table (two
    axes), the embedding table, the result. -/
abbrev iLoc (d : Dev nD) : Loc nD τ sig := (SparseCore.T d).loc main_v0
abbrev pLoc (d : Dev nD) : Loc nD τ sig := (SparseCore.T d).loc main_v1
abbrev tLoc (d : Dev nD) : Loc nD τ sig := (SparseCore.T d).loc main_arg1
abbrev oLoc (d : Dev nD) : Loc nD τ sig := (SparseCore.T d).loc main_v2

/-- The tile number of a grid point: 2 * subcore + core, below 32. -/
def wid (L : grid0.Coords) : Fin 32 := ⟨2 * (L 1).val + (L 0).val, by
  have h0 : (L 0).val < 2 := (L 0).isLt
  have h1 : (L 1).val < 16 := (L 1).isLt
  omega⟩

theorem hdiv32 : 32 ∣ S4096x200x128.size 0 := ⟨128, rfl⟩

/-- The 128 batch rows of the result that tile `w` owns, as a rectangle and as a set of indices. -/
abbrev tileRect (w : Fin 32) : Rect S4096x200x128 := Rect.part (s := S4096x200x128) (a₀ := 0) hdiv32 w
abbrev tileRows (w : Fin 32) : Finset S4096x200x128.Idx :=
  ((Memref.whole main_v2_scv : Memref sig .scVector .hbm S4096x200x128 .f32).view.slice (tileRect w)).set

/-- Tile `w`'s read share of an input array: token `w` of 32 of the full share. -/
abbrev tok (w : Fin 32) : PosShare TreeShare := shareTok fullShare 32 w

variable [FloatOps F]

/-- What a tile's task is handed: its read shares of the three inputs and its rows of the result. -/
def tileGo (d : Dev nD) (w : Fin 32) (fi : Buf (Elt F) (iLoc d)) (fp : Buf (Elt F) (pLoc d)) (ft : Buf (Elt F) (tLoc d))
    (fo : Buf (Elt F) (oLoc d)) : sProp 𝕄 :=
  iprop((iLoc d ↦{tok w} fi) ∗ (pLoc d ↦{tok w} fp) ∗ (tLoc d ↦{tok w} ft) ∗ (oLoc d ↦[tileRows w]{fullShare} fo))

/-- The result as the kernel leaves it, as ONE whole-array function of the flattened indices, the two-axis positional
    table and the embedding table: row (b, s) is the table's row named by index word 200 b + s, scaled, plus the
    positional row s. -/
def GK (fi : IVec S819200 32) (fp : FVec F S200x128 .f32) (ft : FVec F S100000x128 .f32) : FVec F S4096x200x128 .f32 :=
  fun j => FloatOps.addf
    (FloatOps.mulf (ft (ValueIdx.ix2 (n0 := 100000) (n1 := 128) (Cert.Spec.rowOf (fi (ValueIdx.ix1 (n := 819200) ⟨200 * (j 0).val + (j 1).val, by
        have h0 : (j 0).val < 4096 := (j 0).isLt
        have h1 : (j 1).val < 200 := (j 1).isLt
        omega⟩))) (j 2)))
      (FloatOps.ofBits .f32 0x413504F3#32))
    (fp (ValueIdx.ix2 (n0 := 200) (n1 := 128) (j 1) (j 2)))

/-- What a tile's task hands back: the same shares, its rows of the result at `GK`. -/
def tileTd (d : Dev nD) (w : Fin 32) (fi : Buf (Elt F) (iLoc d)) (fp : Buf (Elt F) (pLoc d)) (ft : Buf (Elt F) (tLoc d)) : sProp 𝕄 :=
  iprop((iLoc d ↦{tok w} fi) ∗ (pLoc d ↦{tok w} fp) ∗ (tLoc d ↦{tok w} ft) ∗ (oLoc d ↦[tileRows w]{fullShare} GK fi fp ft))

end Cert.Proof.KI

end
-- ==== Proof.KIStmt.lean ====
/-
  The statement of a tile's task, as the launch theorem's obligation will use it: from the task's shares and
  rows (and the subcore's own scratch and semaphores) the kernel function runs to the end and hands the shares
  back, its rows of the result at the specification.
-/
import proofs.«206279_g3710851744293_cont_8to1_b_253_31_alg».proof.Proof.KIRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-- The SparseCore and the vector subcore of a grid point, and its thread. -/
abbrev cV (L : grid0.Coords) : Fin τ.nSC := (L 0).castLE hcore0
abbrev jV (L : grid0.Coords) : Fin τ.nSub := (L 1).castLE hsub0

variable [FloatOps F]

/-- A tile's task: handed `tileGo` (with index words that name rows of the table), the kernel function at the grid
    point runs to its end, faulting nowhere, and hands back `tileTd`. -/
def TileBody : Prop :=
  ∀ (d : Dev nD) (L : grid0.Coords) (O : CellTallies nD τ sig (HIx 1)) (W : Waits sig (HIx 1)), (∀ g, O g none = 0) →
    ∀ (fi : Buf (Elt F) (iLoc d)) (fp : Buf (Elt F) (pLoc d)) (ft : Buf (Elt F) (tLoc d)) (fo : Buf (Elt F) (oLoc d)),
    (∀ j, (fi j).toNat < 100000) →
    (iprop(levAts (K (F := F)).L (K (F := F)).lev ∗ emp ∗ tileGo d (wid L) fi fp ft fo
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__embed_body L iV (Memref.isWhole_whole _) peV (Memref.isWhole_whole _) tV (Memref.isWhole_whole _) oV (Memref.isWhole_whole _)
            s6 (Memref.isWhole_whole _) s7 (Memref.isWhole_whole _) s8 (Memref.isWhole_whole _)
            cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1)
          fun _ => iprop(tileTd d (wid L) fi fp ft ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI

end
-- ==== Proof.KIInv.lean ====
/-
  Names for the pieces of memory a tile's task works on: the ten slots of its row buffer, a window of forty
  index words of its index buffer, a chunk of forty positions of one batch row of the result, the whole
  embedding table as the gathers slice it.  Chunk q (0 ≤ q < 640) of tile w is positions [40 (q mod 5), +40)
  of batch row 128 w + q div 5; its index words are words [40 q, 40 q + 40) of the tile's index buffer.
-/
import proofs.«206279_g3710851744293_cont_8to1_b_253_31_alg».proof.Proof.KIStmt
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-- The thread of the tile at a grid point. -/
abbrev thr (d : Dev nD) (L : grid0.Coords) : Thread nD τ := V d (cV L) (jV L)

abbrev slot0 : Memref sig .scVector .vmem S40x128 .f32 := ((s8).slice (Rect.unit (s := S10x40x128) ![0, 0, 0] S1x40x128.size inb_S10x40x128_S1x40x128_0_0_0) (fun _ => rfl)).squeeze S40x128 squeezes_S1x40x128_S40x128
abbrev slot1 : Memref sig .scVector .vmem S40x128 .f32 := ((s8).slice (Rect.unit (s := S10x40x128) ![1, 0, 0] S1x40x128.size inb_S10x40x128_S1x40x128_1_0_0) (fun _ => rfl)).squeeze S40x128 squeezes_S1x40x128_S40x128
abbrev slot2 : Memref sig .scVector .vmem S40x128 .f32 := ((s8).slice (Rect.unit (s := S10x40x128) ![2, 0, 0] S1x40x128.size inb_S10x40x128_S1x40x128_2_0_0) (fun _ => rfl)).squeeze S40x128 squeezes_S1x40x128_S40x128
abbrev slot3 : Memref sig .scVector .vmem S40x128 .f32 := ((s8).slice (Rect.unit (s := S10x40x128) ![3, 0, 0] S1x40x128.size inb_S10x40x128_S1x40x128_3_0_0) (fun _ => rfl)).squeeze S40x128 squeezes_S1x40x128_S40x128
abbrev slot4 : Memref sig .scVector .vmem S40x128 .f32 := ((s8).slice (Rect.unit (s := S10x40x128) ![4, 0, 0] S1x40x128.size inb_S10x40x128_S1x40x128_4_0_0) (fun _ => rfl)).squeeze S40x128 squeezes_S1x40x128_S40x128
abbrev slot5 : Memref sig .scVector .vmem S40x128 .f32 := ((s8).slice (Rect.unit (s := S10x40x128) ![5, 0, 0] S1x40x128.size inb_S10x40x128_S1x40x128_5_0_0) (fun _ => rfl)).squeeze S40x128 squeezes_S1x40x128_S40x128
abbrev slot6 : Memref sig .scVector .vmem S40x128 .f32 := ((s8).slice (Rect.unit (s := S10x40x128) ![6, 0, 0] S1x40x128.size inb_S10x40x128_S1x40x128_6_0_0) (fun _ => rfl)).squeeze S40x128 squeezes_S1x40x128_S40x128
abbrev slot7 : Memref sig .scVector .vmem S40x128 .f32 := ((s8).slice (Rect.unit (s := S10x40x128) ![7, 0, 0] S1x40x128.size inb_S10x40x128_S1x40x128_7_0_0) (fun _ => rfl)).squeeze S40x128 squeezes_S1x40x128_S40x128
abbrev slot8 : Memref sig .scVector .vmem S40x128 .f32 := ((s8).slice (Rect.unit (s := S10x40x128) ![8, 0, 0] S1x40x128.size inb_S10x40x128_S1x40x128_8_0_0) (fun _ => rfl)).squeeze S40x128 squeezes_S1x40x128_S40x128
abbrev slot9 : Memref sig .scVector .vmem S40x128 .f32 := ((s8).slice (Rect.unit (s := S10x40x128) ![9, 0, 0] S1x40x128.size inb_S10x40x128_S1x40x128_9_0_0) (fun _ => rfl)).squeeze S40x128 squeezes_S1x40x128_S40x128
/-- Slot `j` of the row buffer (`j` below 10; slot 0 otherwise). -/
abbrev slot (j : ℕ) : Memref sig .scVector .vmem S40x128 .f32 :=
  match j with
  | 0 => slot0 | 1 => slot1 | 2 => slot2 | 3 => slot3 | 4 => slot4
  | 5 => slot5 | 6 => slot6 | 7 => slot7 | 8 => slot8 | 9 => slot9 | _ => slot0

/-- The embedding table whole, as every gather slices it. -/
abbrev tW : Memref sig .scVector .hbm S100000x128 .f32 := ((tV).slice (Rect.unit (s := S100000x128) ![0, 0] S100000x128.size inb_S100000x128_S100000x128_0_0) (fun _ => rfl))

/-- The window of 40 index words at offset `off` of the index buffer. -/
abbrev win (off : ℕ) (h : off + 40 ≤ 25600) : Memref sig .scVector .vmem S40 .i32 :=
  (s7).slice (Rect.unit (s := S25600) ![off] S40.size (by intro a; obtain rfl : a = 0 := Subsingleton.elim _ _; simpa using h)) (fun _ => rfl)

/-- The first batch row of the tile at a grid point: 128 (2 subcore + core). -/
abbrev b0 (L : grid0.Coords) : ℕ := 256 * (L 1).val + 128 * (L 0).val

/-- The chunk of 40 positions starting at `col` of batch row `row` of the result. -/
abbrev och (row col : ℕ) (h : row + 1 ≤ 4096 ∧ col + 40 ≤ 200) : Memref sig .scVector .hbm S40x128 .f32 :=
  ((oV).slice (Rect.unit (s := S4096x200x128) ![row, col, 0] S1x40x128.size (by
      intro a; fin_cases a <;> simp <;> omega)) (fun _ => rfl)).squeeze S40x128 squeezes_S1x40x128_S40x128

theorem win_congr {a b : ℕ} (e : a = b) (ha : a + 40 ≤ 25600) (hb : b + 40 ≤ 25600) : win a ha = win b hb := by subst e; rfl
theorem och_congr {r r' c c' : ℕ} (e : r = r') (e' : c = c') (h : r + 1 ≤ 4096 ∧ c + 40 ≤ 200) (h' : r' + 1 ≤ 4096 ∧ c' + 40 ≤ 200) :
    och r c h = och r' c' h' := by subst e; subst e'; rfl

end Cert.Proof.KI
end
-- ==== Proof.KIInner.lean ====
/-
  The inner loop of a phase of the tile's task: the forty rows of one slot of the row buffer, each scaled by the
  constant and shifted by the matching row of the positional table, eight lane groups of sixteen words a row.
  One trip stores row r's eight groups; the invariant carries the slot's contents: rows below r done, the rest
  as the slot started.
-/
import proofs.«206279_g3710851744293_cont_8to1_b_253_31_alg».proof.Proof.KIInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type} [FloatOps F]

local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-! ## One lane group of one row -/

/-- What one trip stores in a lane group: the group's sixteen words, each scaled by the constant, plus the
    positional table's sixteen words. -/
def payF (A B : Vec F S1x16 .f32) : FVec F S1x16 .f32 :=
  shapeCast S1x16 (addf (mulf (shapeCast S16 A shapeCasts_S1x16_S16) (broadcast S16 (Scalar.ofBits .f32 0x413504F3#32)))
    (shapeCast S16 B shapeCasts_S1x16_S16)) shapeCasts_S16_S1x16

theorem payF_apply (A B : Vec F S1x16 .f32) (x : S1x16.Idx) :
    payF A B x = FloatOps.addf (FloatOps.mulf (A x) (FloatOps.ofBits .f32 0x413504F3#32)) (B x) := by
  unfold payF
  show FloatOps.addf (FloatOps.mulf (A (Shape.reshapeEquiv _ (Shape.reshapeEquiv _ x))) _) (B (Shape.reshapeEquiv _ (Shape.reshapeEquiv _ x))) = _
  rw [Shape.reshapeEquiv_reshapeEquiv, Shape.reshapeEquiv_self]
  rfl

/-- The row operation on a slot of forty rows: every word scaled by the constant, plus the word of the positional
    table's block `h` of forty rows at the same row and lane. -/
def rowOp (h : Fin 5) (P : S200x128.Idx → F .f32) (X : S40x128.Idx → F .f32) : S40x128.Idx → F .f32 :=
  fun y => FloatOps.addf (FloatOps.mulf (X y) (FloatOps.ofBits .f32 0x413504F3#32))
    (P (ix2 (n0 := 200) (n1 := 128) ⟨(y 0).val + 40 * h.val, by
      have h0 : (y 0).val < 40 := (y 0).isLt
      have h1 := h.isLt
      omega⟩ (y 1)))

/-- A lane group's payload, computed from the slot's row `r` as it stood and the positional table's row, is the row
    operation of the slot's contents at the words it is stored to. -/
theorem piece_ok (v : View sig .scVector .vmem S40x128 .f32) (h : Fin 5) (r c0 : ℕ)
    (ia : ∀ a, (![r, c0] : Fin 2 → ℕ) a + S1x16.size a ≤ S40x128.size a)
    (ib : ∀ a, (![r + 40 * h.val, c0] : Fin 2 → ℕ) a + S1x16.size a ≤ S200x128.size a)
    (P : S200x128.Idx → F .f32) (X0 : S40x128.Idx → F .f32) (f : v.ty.Contents (Elt F))
    (hf : ∀ y : S40x128.Idx, (y 0).val = r → v.read (Elt F) f y = X0 y) (x : S1x16.Idx) :
    payF (v.readAt (Elt F) (Rect.unit (s := S40x128) ![r, c0] S1x16.size ia).toLoadRect f)
        ((s6).view.readAt (Elt F) (Rect.unit (s := S200x128) ![r + 40 * h.val, c0] S1x16.size ib).toLoadRect P) x
      = rowOp h P X0 ((Rect.unit (s := S40x128) ![r, c0] S1x16.size ia).emb x) := by
  have hx0 : (x 0).val = 0 := by have h : (x 0).val < 1 := (x 0).isLt; omega
  have e0 : ((Rect.unit (s := S40x128) ![r, c0] S1x16.size ia).emb x 0).val = r := by
    rw [Rect.emb_apply]; simp [hx0]
  rw [payF_apply, View.readAt_apply, View.readAt_apply]
  rw [show (Rect.unit (s := S40x128) ![r, c0] S1x16.size ia).toLoadRect.idx x = (Rect.unit (s := S40x128) ![r, c0] S1x16.size ia).emb x from rfl, hf _ e0]
  unfold rowOp
  congr 1
  simp only [Memref.view_whole, View.read_whole]
  refine congrArg P (funext fun a => Fin.ext ?_)
  have e1 : ((Rect.unit (s := S40x128) ![r, c0] S1x16.size ia).emb x 1).val = c0 + (x 1).val := by
    rw [Rect.emb_apply]; simp
  match a with
  | ⟨0, _⟩ =>
    show r + 40 * h.val + 1 * (x 0).val = ((Rect.unit (s := S40x128) ![r, c0] S1x16.size ia).emb x 0).val + 40 * h.val
    omega
  | ⟨1, _⟩ =>
    show c0 + 1 * (x 1).val = ((Rect.unit (s := S40x128) ![r, c0] S1x16.size ia).emb x 1).val
    rw [e1]; omega

/-- One trip of the inner loop: the eight lane groups of row `r` stored (the last store first), rows below `r`
    already done, rows from `r` on as the slot started. -/
theorem rowStep (v : View sig .scVector .vmem S40x128 .f32) (h : Fin 5) (r : ℕ) (hr : r < 40)
    (P : S200x128.Idx → F .f32) (X0 : S40x128.Idx → F .f32) (f : v.ty.Contents (Elt F))
    {a0 a1 a2 a3 a4 a5 a6 a7 b0 b1 b2 b3 b4 b5 b6 b7 : Fin 2 → ℕ}
    {ia0 : ∀ a, a0 a + S1x16.size a ≤ S40x128.size a} {ib0 : ∀ a, b0 a + S1x16.size a ≤ S200x128.size a}
    {ia1 : ∀ a, a1 a + S1x16.size a ≤ S40x128.size a} {ib1 : ∀ a, b1 a + S1x16.size a ≤ S200x128.size a}
    {ia2 : ∀ a, a2 a + S1x16.size a ≤ S40x128.size a} {ib2 : ∀ a, b2 a + S1x16.size a ≤ S200x128.size a}
    {ia3 : ∀ a, a3 a + S1x16.size a ≤ S40x128.size a} {ib3 : ∀ a, b3 a + S1x16.size a ≤ S200x128.size a}
    {ia4 : ∀ a, a4 a + S1x16.size a ≤ S40x128.size a} {ib4 : ∀ a, b4 a + S1x16.size a ≤ S200x128.size a}
    {ia5 : ∀ a, a5 a + S1x16.size a ≤ S40x128.size a} {ib5 : ∀ a, b5 a + S1x16.size a ≤ S200x128.size a}
    {ia6 : ∀ a, a6 a + S1x16.size a ≤ S40x128.size a} {ib6 : ∀ a, b6 a + S1x16.size a ≤ S200x128.size a}
    {ia7 : ∀ a, a7 a + S1x16.size a ≤ S40x128.size a} {ib7 : ∀ a, b7 a + S1x16.size a ≤ S200x128.size a}
    (ea0 : a0 = ![r, 0]) (eb0 : b0 = ![r + 40 * h.val, 0])
    (ea1 : a1 = ![r, 16]) (eb1 : b1 = ![r + 40 * h.val, 16])
    (ea2 : a2 = ![r, 32]) (eb2 : b2 = ![r + 40 * h.val, 32])
    (ea3 : a3 = ![r, 48]) (eb3 : b3 = ![r + 40 * h.val, 48])
    (ea4 : a4 = ![r, 64]) (eb4 : b4 = ![r + 40 * h.val, 64])
    (ea5 : a5 = ![r, 80]) (eb5 : b5 = ![r + 40 * h.val, 80])
    (ea6 : a6 = ![r, 96]) (eb6 : b6 = ![r + 40 * h.val, 96])
    (ea7 : a7 = ![r, 112]) (eb7 : b7 = ![r + 40 * h.val, 112])
    (hf : ∀ y : S40x128.Idx, v.read (Elt F) f y = if (y 0).val < r then rowOp h P X0 y else X0 y) (y : S40x128.Idx) :
    v.read (Elt F) (v.writes (Elt F) f
      [⟨Rect.unit (s := S40x128) a7 S1x16.size ia7, payF (v.readAt (Elt F) (Rect.unit (s := S40x128) a7 S1x16.size ia7).toLoadRect f)
          ((s6).view.readAt (Elt F) (Rect.unit (s := S200x128) b7 S1x16.size ib7).toLoadRect P)⟩,
        ⟨Rect.unit (s := S40x128) a6 S1x16.size ia6, payF (v.readAt (Elt F) (Rect.unit (s := S40x128) a6 S1x16.size ia6).toLoadRect f)
          ((s6).view.readAt (Elt F) (Rect.unit (s := S200x128) b6 S1x16.size ib6).toLoadRect P)⟩,
        ⟨Rect.unit (s := S40x128) a5 S1x16.size ia5, payF (v.readAt (Elt F) (Rect.unit (s := S40x128) a5 S1x16.size ia5).toLoadRect f)
          ((s6).view.readAt (Elt F) (Rect.unit (s := S200x128) b5 S1x16.size ib5).toLoadRect P)⟩,
        ⟨Rect.unit (s := S40x128) a4 S1x16.size ia4, payF (v.readAt (Elt F) (Rect.unit (s := S40x128) a4 S1x16.size ia4).toLoadRect f)
          ((s6).view.readAt (Elt F) (Rect.unit (s := S200x128) b4 S1x16.size ib4).toLoadRect P)⟩,
        ⟨Rect.unit (s := S40x128) a3 S1x16.size ia3, payF (v.readAt (Elt F) (Rect.unit (s := S40x128) a3 S1x16.size ia3).toLoadRect f)
          ((s6).view.readAt (Elt F) (Rect.unit (s := S200x128) b3 S1x16.size ib3).toLoadRect P)⟩,
        ⟨Rect.unit (s := S40x128) a2 S1x16.size ia2, payF (v.readAt (Elt F) (Rect.unit (s := S40x128) a2 S1x16.size ia2).toLoadRect f)
          ((s6).view.readAt (Elt F) (Rect.unit (s := S200x128) b2 S1x16.size ib2).toLoadRect P)⟩,
        ⟨Rect.unit (s := S40x128) a1 S1x16.size ia1, payF (v.readAt (Elt F) (Rect.unit (s := S40x128) a1 S1x16.size ia1).toLoadRect f)
          ((s6).view.readAt (Elt F) (Rect.unit (s := S200x128) b1 S1x16.size ib1).toLoadRect P)⟩,
        ⟨Rect.unit (s := S40x128) a0 S1x16.size ia0, payF (v.readAt (Elt F) (Rect.unit (s := S40x128) a0 S1x16.size ia0).toLoadRect f)
          ((s6).view.readAt (Elt F) (Rect.unit (s := S200x128) b0 S1x16.size ib0).toLoadRect P)⟩]) y
      = if (y 0).val < r + 1 then rowOp h P X0 y else X0 y := by
  subst ea0; subst eb0; subst ea1; subst eb1; subst ea2; subst eb2; subst ea3; subst eb3; subst ea4; subst eb4; subst ea5; subst eb5; subst ea6; subst eb6; subst ea7; subst eb7
  have hrow : ∀ z : S40x128.Idx, (z 0).val = r → v.read (Elt F) f z = X0 z := fun z hz => by rw [hf z, if_neg (by omega)]
  by_cases hy : (y 0).val = r
  · rw [if_pos (by omega)]
    refine View.read_writes_apply_of_pieces v f (rowOp h P X0) _ ?_ y ?_
    · intro p hp x
      simp only [List.mem_cons, List.not_mem_nil, _root_.or_false] at hp
      rcases hp with rfl | rfl | rfl | rfl | rfl | rfl | rfl | rfl <;> exact piece_ok v h r _ _ _ P X0 f hrow x
    · have h1 : (y 1).val < 128 := (y 1).isLt
      have hm : ∀ (c0 : ℕ) (ia : ∀ a, (![r, c0] : Fin 2 → ℕ) a + S1x16.size a ≤ S40x128.size a), c0 ≤ (y 1).val → (y 1).val < c0 + 16 →
          y ∈ (Rect.unit (s := S40x128) ![r, c0] S1x16.size ia).set := fun c0 ia hl hu =>
        Rect.mem_set_unit.mpr fun a => match a with
          | ⟨0, _⟩ => ⟨by show r ≤ (y 0).val; omega, by show (y 0).val < r + 1; omega⟩
          | ⟨1, _⟩ => ⟨by show c0 ≤ (y 1).val; omega, by show (y 1).val < c0 + 16; omega⟩
      by_cases c7 : 112 ≤ (y 1).val
      · exact ⟨_, List.mem_cons_self, hm 112 ia7 c7 (by omega)⟩
      by_cases c6 : 96 ≤ (y 1).val
      · exact ⟨_, List.mem_cons_of_mem _ List.mem_cons_self, hm 96 ia6 c6 (by omega)⟩
      by_cases c5 : 80 ≤ (y 1).val
      · exact ⟨_, List.mem_cons_of_mem _ (List.mem_cons_of_mem _ List.mem_cons_self), hm 80 ia5 c5 (by omega)⟩
      by_cases c4 : 64 ≤ (y 1).val
      · exact ⟨_, List.mem_cons_of_mem _ (List.mem_cons_of_mem _ (List.mem_cons_of_mem _ List.mem_cons_self)), hm 64 ia4 c4 (by omega)⟩
      by_cases c3 : 48 ≤ (y 1).val
      · exact ⟨_, List.mem_cons_of_mem _ (List.mem_cons_of_mem _ (List.mem_cons_of_mem _ (List.mem_cons_of_mem _ List.mem_cons_self))), hm 48 ia3 c3 (by omega)⟩
      by_cases c2 : 32 ≤ (y 1).val
      · exact ⟨_, List.mem_cons_of_mem _ (List.mem_cons_of_mem _ (List.mem_cons_of_mem _ (List.mem_cons_of_mem _ (List.mem_cons_of_mem _ List.mem_cons_self)))), hm 32 ia2 c2 (by omega)⟩
      by_cases c1 : 16 ≤ (y 1).val
      · exact ⟨_, List.mem_cons_of_mem _ (List.mem_cons_of_mem _ (List.mem_cons_of_mem _ (List.mem_cons_of_mem _ (List.mem_cons_of_mem _ (List.mem_cons_of_mem _ List.mem_cons_self))))), hm 16 ia1 c1 (by omega)⟩
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), hm 0 ia0 (by omega) (by omega)⟩
  · have hn : ∀ (c0 : ℕ) (ia : ∀ a, (![r, c0] : Fin 2 → ℕ) a + S1x16.size a ≤ S40x128.size a),
        y ∉ (Rect.unit (s := S40x128) ![r, c0] S1x16.size ia).set := fun c0 ia hmem => by
      have h0 := (Rect.mem_set_unit.mp hmem) 0
      have h0' : r ≤ (y 0).val ∧ (y 0).val < r + 1 := h0
      omega
    rw [View.read_writes_apply_of_forall_not_mem v f y _ (by
      intro p hp
      simp only [List.mem_cons, List.not_mem_nil, _root_.or_false] at hp
      rcases hp with rfl | rfl | rfl | rfl | rfl | rfl | rfl | rfl <;>
        first | exact hn _ ia7 | exact hn _ ia6 | exact hn _ ia5 | exact hn _ ia4 | exact hn _ ia3 | exact hn _ ia2 | exact hn _ ia1 | exact hn _ ia0), hf y]
    by_cases hlt : (y 0).val < r
    · rw [if_pos hlt, if_pos (by omega)]
    · rw [if_neg hlt, if_neg (by omega)]

/-! ## Phase 0 -/

/-- Phase 0's invariant: the positional table untouched; rows below `r` of slot 0 done, the others as they started. -/
def invInV0 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot0).view.loc (thr d L) ↦[(slot0).view.set]{fullShare} f)
    ∗ ⌜∀ y : S40x128.Idx, (slot0).view.read (Elt F) f y = if (y 0).val < r then rowOp 0 P X0 y else X0 y⌝)

/-- Phase 0's inner loop: every row of slot 0 scaled and shifted by block 0 of the positional table. -/
theorem inner0 (d : Dev nD) (L : grid0.Coords) (P : Buf (Elt F) ((thr d L).loc cc0_scratch0)) (X : Buf (Elt F) ((thr d L).loc cc0_scratch2))
    (v2 : BitVec 32) (k : Fin k0_t1_loop.trips) (v114 v115 v151 v153 : BitVec 32) :
    (iprop(((s6).view.loc (thr d L) ↦{fullShare} P) ∗ ((slot0).view.loc (thr d L) ↦[(slot0).view.set]{fullShare} X)) : sProp 𝕄)
      ⊢ wp frame (wpE (defs₀ (F := F)) 𝒱₀ (thr d L) none) Set.univ
          (Scf.Loop.for k0_t2_loop k0_t2_ok ⟨⟩ (k0_t2_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k v114 v115 v151 v153))
          fun _ => iprop(((s6).view.loc (thr d L) ↦{fullShare} P) ∗ ∃ f, ((slot0).view.loc (thr d L) ↦[(slot0).view.set]{fullShare} f)
            ∗ ⌜(slot0).view.read (Elt F) f = rowOp 0 P ((slot0).view.read (Elt F) X)⌝) := by
  have htrips : Scf.trips k0_t2_loop.lb k0_t2_loop.ub k0_t2_loop.st = 40 := by decide
  iintro ⟨H6, H8⟩
  sl_for (invInV0 d L P ((slot0).view.read (Elt F) X)) $$ [H6 H8]
  case region =>
    intro r _
    have hr40 : r.val < 40 := lt_of_lt_of_eq r.isLt htrips
    unfold invInV0
    iintro ⟨H6, %f, H8, %hf⟩
    sl_exec
    sl_step
    isplitl [H6]; · iexact H6
    iexists _; isplitl [H8]; · iexact H8
    ipureintro
    sl_unfold_run_names
    intro y
    exact rowStep (slot0).view 0 r.val hr40 P _ f (k0_off6_eq r) (k0_off7_eq r) (k0_off8_eq r) (k0_off9_eq r) (k0_off10_eq r) (k0_off11_eq r) (k0_off12_eq r) (k0_off13_eq r) (k0_off14_eq r) (k0_off15_eq r) (k0_off16_eq r) (k0_off17_eq r) (k0_off18_eq r) (k0_off19_eq r) (k0_off20_eq r) (k0_off21_eq r) hf y
  isplitl [H6 H8]
  · unfold invInV0
    isplitl [H6]; · iexact H6
    iexists X; isplitl [H8]; · iexact H8
    ipureintro; intro y; rw [if_neg (Nat.not_lt_zero _)]
  iintro %_ HI
  unfold invInV0
  icases HI with ⟨H6, %f, H8, %hf⟩
  isplitl [H6]; · iexact H6
  iexists f; isplitl [H8]; · iexact H8
  ipureintro; funext y
  rw [hf y, htrips, if_pos (show (y 0).val < 40 from (y 0).isLt)]

end Cert.Proof.KI

end
-- ==== Proof.KIInner2.lean ====
/-
  The inner loops of phases 1 to 9 of the tile's task: the same forty-row loop as phase 0's, on slot j of the row
  buffer with block j mod 5 of the positional table.
-/
import proofs.«206279_g3710851744293_cont_8to1_b_253_31_alg».proof.Proof.KIInner

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type} [FloatOps F]

local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-! ## Phase 1 -/

/-- Phase 1's invariant: the positional table untouched; rows below `r` of slot 1 done, the others as they started. -/
def invInV1 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot1).view.loc (thr d L) ↦[(slot1).view.set]{fullShare} f)
    ∗ ⌜∀ y : S40x128.Idx, (slot1).view.read (Elt F) f y = if (y 0).val < r then rowOp 1 P X0 y else X0 y⌝)

/-- Phase 1's inner loop: every row of slot 1 scaled and shifted by block 1 of the positional table. -/
theorem inner1 (d : Dev nD) (L : grid0.Coords) (P : Buf (Elt F) ((thr d L).loc cc0_scratch0)) (X : Buf (Elt F) ((thr d L).loc cc0_scratch2))
    (v2 : BitVec 32) (k : Fin k0_t1_loop.trips) (v114 : BitVec 32) (v165 : BitVec 32) (c5_i32_159 : BitVec 32) (v184 : BitVec 32) :
    (iprop(((s6).view.loc (thr d L) ↦{fullShare} P) ∗ ((slot1).view.loc (thr d L) ↦[(slot1).view.set]{fullShare} X)) : sProp 𝕄)
      ⊢ wp frame (wpE (defs₀ (F := F)) 𝒱₀ (thr d L) none) Set.univ
          (Scf.Loop.for k0_t3_loop k0_t3_ok ⟨⟩ (k0_t3_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k v114 v165 c5_i32_159 v184))
          fun _ => iprop(((s6).view.loc (thr d L) ↦{fullShare} P) ∗ ∃ f, ((slot1).view.loc (thr d L) ↦[(slot1).view.set]{fullShare} f)
            ∗ ⌜(slot1).view.read (Elt F) f = rowOp 1 P ((slot1).view.read (Elt F) X)⌝) := by
  have htrips : Scf.trips k0_t3_loop.lb k0_t3_loop.ub k0_t3_loop.st = 40 := by decide
  iintro ⟨H6, H8⟩
  sl_for (invInV1 d L P ((slot1).view.read (Elt F) X)) $$ [H6 H8]
  case region =>
    intro r _
    have hr40 : r.val < 40 := lt_of_lt_of_eq r.isLt htrips
    unfold invInV1
    iintro ⟨H6, %f, H8, %hf⟩
    sl_exec
    sl_step
    isplitl [H6]; · iexact H6
    iexists _; isplitl [H8]; · iexact H8
    ipureintro
    sl_unfold_run_names
    intro y
    exact rowStep (slot1).view 1 r.val hr40 P _ f (k0_off25_eq r) (k0_off26_eq r) (k0_off27_eq r) (k0_off28_eq r) (k0_off29_eq r) (k0_off30_eq r) (k0_off31_eq r) (k0_off32_eq r) (k0_off33_eq r) (k0_off34_eq r) (k0_off35_eq r) (k0_off36_eq r) (k0_off37_eq r) (k0_off38_eq r) (k0_off39_eq r) (k0_off40_eq r) hf y
  isplitl [H6 H8]
  · unfold invInV1
    isplitl [H6]; · iexact H6
    iexists X; isplitl [H8]; · iexact H8
    ipureintro; intro y; rw [if_neg (Nat.not_lt_zero _)]
  iintro %_ HI
  unfold invInV1
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 2 -/

/-- Phase 2's invariant: the positional table untouched; rows below `r` of slot 2 done, the others as they started. -/
def invInV2 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot2).view.loc (thr d L) ↦[(slot2).view.set]{fullShare} f)
    ∗ ⌜∀ y : S40x128.Idx, (slot2).view.read (Elt F) f y = if (y 0).val < r then rowOp 2 P X0 y else X0 y⌝)

/-- Phase 2's inner loop: every row of slot 2 scaled and shifted by block 2 of the positional table. -/
theorem inner2 (d : Dev nD) (L : grid0.Coords) (P : Buf (Elt F) ((thr d L).loc cc0_scratch0)) (X : Buf (Elt F) ((thr d L).loc cc0_scratch2))
    (k : Fin k0_t1_loop.trips) (v114 : BitVec 32) (v215 : BitVec 32) (v255 : BitVec 32) (c640_i32_203 : BitVec 32) :
    (iprop(((s6).view.loc (thr d L) ↦{fullShare} P) ∗ ((slot2).view.loc (thr d L) ↦[(slot2).view.set]{fullShare} X)) : sProp 𝕄)
      ⊢ wp frame (wpE (defs₀ (F := F)) 𝒱₀ (thr d L) none) Set.univ
          (Scf.Loop.for k0_t4_loop k0_t4_ok ⟨⟩ (k0_t4_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 k v114 v215 v255 c640_i32_203))
          fun _ => iprop(((s6).view.loc (thr d L) ↦{fullShare} P) ∗ ∃ f, ((slot2).view.loc (thr d L) ↦[(slot2).view.set]{fullShare} f)
            ∗ ⌜(slot2).view.read (Elt F) f = rowOp 2 P ((slot2).view.read (Elt F) X)⌝) := by
  have htrips : Scf.trips k0_t4_loop.lb k0_t4_loop.ub k0_t4_loop.st = 40 := by decide
  iintro ⟨H6, H8⟩
  sl_for (invInV2 d L P ((slot2).view.read (Elt F) X)) $$ [H6 H8]
  case region =>
    intro r _
    have hr40 : r.val < 40 := lt_of_lt_of_eq r.isLt htrips
    unfold invInV2
    iintro ⟨H6, %f, H8, %hf⟩
    sl_exec
    sl_step
    isplitl [H6]; · iexact H6
    iexists _; isplitl [H8]; · iexact H8
    ipureintro
    sl_unfold_run_names
    intro y
    exact rowStep (slot2).view 2 r.val hr40 P _ f (k0_off44_eq r) (k0_off45_eq r) (k0_off46_eq r) (k0_off47_eq r) (k0_off48_eq r) (k0_off49_eq r) (k0_off50_eq r) (k0_off51_eq r) (k0_off52_eq r) (k0_off53_eq r) (k0_off54_eq r) (k0_off55_eq r) (k0_off56_eq r) (k0_off57_eq r) (k0_off58_eq r) (k0_off59_eq r) hf y
  isplitl [H6 H8]
  · unfold invInV2
    isplitl [H6]; · iexact H6
    iexists X; isplitl [H8]; · iexact H8
    ipureintro; intro y; rw [if_neg (Nat.not_lt_zero _)]
  iintro %_ HI
  unfold invInV2
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 3 -/

/-- Phase 3's invariant: the positional table untouched; rows below `r` of slot 3 done, the others as they started. -/
def invInV3 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot3).view.loc (thr d L) ↦[(slot3).view.set]{fullShare} f)
    ∗ ⌜∀ y : S40x128.Idx, (slot3).view.read (Elt F) f y = if (y 0).val < r then rowOp 3 P X0 y else X0 y⌝)

/-- Phase 3's inner loop: every row of slot 3 scaled and shifted by block 3 of the positional table. -/
theorem inner3 (d : Dev nD) (L : grid0.Coords) (P : Buf (Elt F) ((thr d L).loc cc0_scratch0)) (X : Buf (Elt F) ((thr d L).loc cc0_scratch2))
    (v2 : BitVec 32) (k : Fin k0_t1_loop.trips) (v114 : BitVec 32) (v265 : BitVec 32) (c5_i32_225 : BitVec 32) (v284 : BitVec 32) (v286 : BitVec 32) (v288 : BitVec 32) :
    (iprop(((s6).view.loc (thr d L) ↦{fullShare} P) ∗ ((slot3).view.loc (thr d L) ↦[(slot3).view.set]{fullShare} X)) : sProp 𝕄)
      ⊢ wp frame (wpE (defs₀ (F := F)) 𝒱₀ (thr d L) none) Set.univ
          (Scf.Loop.for k0_t5_loop k0_t5_ok ⟨⟩ (k0_t5_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k v114 v265 c5_i32_225 v284 v286 v288))
          fun _ => iprop(((s6).view.loc (thr d L) ↦{fullShare} P) ∗ ∃ f, ((slot3).view.loc (thr d L) ↦[(slot3).view.set]{fullShare} f)
            ∗ ⌜(slot3).view.read (Elt F) f = rowOp 3 P ((slot3).view.read (Elt F) X)⌝) := by
  have htrips : Scf.trips k0_t5_loop.lb k0_t5_loop.ub k0_t5_loop.st = 40 := by decide
  iintro ⟨H6, H8⟩
  sl_for (invInV3 d L P ((slot3).view.read (Elt F) X)) $$ [H6 H8]
  case region =>
    intro r _
    have hr40 : r.val < 40 := lt_of_lt_of_eq r.isLt htrips
    unfold invInV3
    iintro ⟨H6, %f, H8, %hf⟩
    sl_exec
    sl_step
    isplitl [H6]; · iexact H6
    iexists _; isplitl [H8]; · iexact H8
    ipureintro
    sl_unfold_run_names
    intro y
    exact rowStep (slot3).view 3 r.val hr40 P _ f (k0_off63_eq r) (k0_off64_eq r) (k0_off65_eq r) (k0_off66_eq r) (k0_off67_eq r) (k0_off68_eq r) (k0_off69_eq r) (k0_off70_eq r) (k0_off71_eq r) (k0_off72_eq r) (k0_off73_eq r) (k0_off74_eq r) (k0_off75_eq r) (k0_off76_eq r) (k0_off77_eq r) (k0_off78_eq r) hf y
  isplitl [H6 H8]
  · unfold invInV3
    isplitl [H6]; · iexact H6
    iexists X; isplitl [H8]; · iexact H8
    ipureintro; intro y; rw [if_neg (Nat.not_lt_zero _)]
  iintro %_ HI
  unfold invInV3
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 4 -/

/-- Phase 4's invariant: the positional table untouched; rows below `r` of slot 4 done, the others as they started. -/
def invInV4 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot4).view.loc (thr d L) ↦[(slot4).view.set]{fullShare} f)
    ∗ ⌜∀ y : S40x128.Idx, (slot4).view.read (Elt F) f y = if (y 0).val < r then rowOp 4 P X0 y else X0 y⌝)

/-- Phase 4's inner loop: every row of slot 4 scaled and shifted by block 4 of the positional table. -/
theorem inner4 (d : Dev nD) (L : grid0.Coords) (P : Buf (Elt F) ((thr d L).loc cc0_scratch0)) (X : Buf (Elt F) ((thr d L).loc cc0_scratch2))
    (k : Fin k0_t1_loop.trips) (v114 : BitVec 32) (v315 : BitVec 32) (c40_i32_271 : BitVec 32) :
    (iprop(((s6).view.loc (thr d L) ↦{fullShare} P) ∗ ((slot4).view.loc (thr d L) ↦[(slot4).view.set]{fullShare} X)) : sProp 𝕄)
      ⊢ wp frame (wpE (defs₀ (F := F)) 𝒱₀ (thr d L) none) Set.univ
          (Scf.Loop.for k0_t6_loop k0_t6_ok ⟨⟩ (k0_t6_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 k v114 v315 c40_i32_271))
          fun _ => iprop(((s6).view.loc (thr d L) ↦{fullShare} P) ∗ ∃ f, ((slot4).view.loc (thr d L) ↦[(slot4).view.set]{fullShare} f)
            ∗ ⌜(slot4).view.read (Elt F) f = rowOp 4 P ((slot4).view.read (Elt F) X)⌝) := by
  have htrips : Scf.trips k0_t6_loop.lb k0_t6_loop.ub k0_t6_loop.st = 40 := by decide
  iintro ⟨H6, H8⟩
  sl_for (invInV4 d L P ((slot4).view.read (Elt F) X)) $$ [H6 H8]
  case region =>
    intro r _
    have hr40 : r.val < 40 := lt_of_lt_of_eq r.isLt htrips
    unfold invInV4
    iintro ⟨H6, %f, H8, %hf⟩
    sl_exec
    sl_step
    isplitl [H6]; · iexact H6
    iexists _; isplitl [H8]; · iexact H8
    ipureintro
    sl_unfold_run_names
    intro y
    exact rowStep (slot4).view 4 r.val hr40 P _ f (k0_off82_eq r) (k0_off83_eq r) (k0_off84_eq r) (k0_off85_eq r) (k0_off86_eq r) (k0_off87_eq r) (k0_off88_eq r) (k0_off89_eq r) (k0_off90_eq r) (k0_off91_eq r) (k0_off92_eq r) (k0_off93_eq r) (k0_off94_eq r) (k0_off95_eq r) (k0_off96_eq r) (k0_off97_eq r) hf y
  isplitl [H6 H8]
  · unfold invInV4
    isplitl [H6]; · iexact H6
    iexists X; isplitl [H8]; · iexact H8
    ipureintro; intro y; rw [if_neg (Nat.not_lt_zero _)]
  iintro %_ HI
  unfold invInV4
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 5 -/

/-- Phase 5's invariant: the positional table untouched; rows below `r` of slot 5 done, the others as they started. -/
def invInV5 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot5).view.loc (thr d L) ↦[(slot5).view.set]{fullShare} f)
    ∗ ⌜∀ y : S40x128.Idx, (slot5).view.read (Elt F) f y = if (y 0).val < r then rowOp 0 P X0 y else X0 y⌝)

/-- Phase 5's inner loop: every row of slot 5 scaled and shifted by block 0 of the positional table. -/
theorem inner5 (d : Dev nD) (L : grid0.Coords) (P : Buf (Elt F) ((thr d L).loc cc0_scratch0)) (X : Buf (Elt F) ((thr d L).loc cc0_scratch2))
    (v2 : BitVec 32) (k : Fin k0_t1_loop.trips) (v114 : BitVec 32) (v365 : BitVec 32) (c5_i32_291 : BitVec 32) (v384 : BitVec 32) (v389 : BitVec 32) (v391 : BitVec 32) (v392 : BitVec 1) :
    (iprop(((s6).view.loc (thr d L) ↦{fullShare} P) ∗ ((slot5).view.loc (thr d L) ↦[(slot5).view.set]{fullShare} X)) : sProp 𝕄)
      ⊢ wp frame (wpE (defs₀ (F := F)) 𝒱₀ (thr d L) none) Set.univ
          (Scf.Loop.for k0_t7_loop k0_t7_ok ⟨⟩ (k0_t7_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k v114 v365 c5_i32_291 v384 v389 v391 v392))
          fun _ => iprop(((s6).view.loc (thr d L) ↦{fullShare} P) ∗ ∃ f, ((slot5).view.loc (thr d L) ↦[(slot5).view.set]{fullShare} f)
            ∗ ⌜(slot5).view.read (Elt F) f = rowOp 0 P ((slot5).view.read (Elt F) X)⌝) := by
  have htrips : Scf.trips k0_t7_loop.lb k0_t7_loop.ub k0_t7_loop.st = 40 := by decide
  iintro ⟨H6, H8⟩
  sl_for (invInV5 d L P ((slot5).view.read (Elt F) X)) $$ [H6 H8]
  case region =>
    intro r _
    have hr40 : r.val < 40 := lt_of_lt_of_eq r.isLt htrips
    unfold invInV5
    iintro ⟨H6, %f, H8, %hf⟩
    sl_exec
    sl_step
    isplitl [H6]; · iexact H6
    iexists _; isplitl [H8]; · iexact H8
    ipureintro
    sl_unfold_run_names
    intro y
    exact rowStep (slot5).view 0 r.val hr40 P _ f (k0_off101_eq r) (k0_off102_eq r) (k0_off103_eq r) (k0_off104_eq r) (k0_off105_eq r) (k0_off106_eq r) (k0_off107_eq r) (k0_off108_eq r) (k0_off109_eq r) (k0_off110_eq r) (k0_off111_eq r) (k0_off112_eq r) (k0_off113_eq r) (k0_off114_eq r) (k0_off115_eq r) (k0_off116_eq r) hf y
  isplitl [H6 H8]
  · unfold invInV5
    isplitl [H6]; · iexact H6
    iexists X; isplitl [H8]; · iexact H8
    ipureintro; intro y; rw [if_neg (Nat.not_lt_zero _)]
  iintro %_ HI
  unfold invInV5
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 6 -/

/-- Phase 6's invariant: the positional table untouched; rows below `r` of slot 6 done, the others as they started. -/
def invInV6 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot6).view.loc (thr d L) ↦[(slot6).view.set]{fullShare} f)
    ∗ ⌜∀ y : S40x128.Idx, (slot6).view.read (Elt F) f y = if (y 0).val < r then rowOp 1 P X0 y else X0 y⌝)

/-- Phase 6's inner loop: every row of slot 6 scaled and shifted by block 1 of the positional table. -/
theorem inner6 (d : Dev nD) (L : grid0.Coords) (P : Buf (Elt F) ((thr d L).loc cc0_scratch0)) (X : Buf (Elt F) ((thr d L).loc cc0_scratch2))
    (k : Fin k0_t1_loop.trips) (v114 : BitVec 32) :
    (iprop(((s6).view.loc (thr d L) ↦{fullShare} P) ∗ ((slot6).view.loc (thr d L) ↦[(slot6).view.set]{fullShare} X)) : sProp 𝕄)
      ⊢ wp frame (wpE (defs₀ (F := F)) 𝒱₀ (thr d L) none) Set.univ
          (Scf.Loop.for k0_t8_loop k0_t8_ok ⟨⟩ (k0_t8_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 k v114))
          fun _ => iprop(((s6).view.loc (thr d L) ↦{fullShare} P) ∗ ∃ f, ((slot6).view.loc (thr d L) ↦[(slot6).view.set]{fullShare} f)
            ∗ ⌜(slot6).view.read (Elt F) f = rowOp 1 P ((slot6).view.read (Elt F) X)⌝) := by
  have htrips : Scf.trips k0_t8_loop.lb k0_t8_loop.ub k0_t8_loop.st = 40 := by decide
  iintro ⟨H6, H8⟩
  sl_for (invInV6 d L P ((slot6).view.read (Elt F) X)) $$ [H6 H8]
  case region =>
    intro r _
    have hr40 : r.val < 40 := lt_of_lt_of_eq r.isLt htrips
    unfold invInV6
    iintro ⟨H6, %f, H8, %hf⟩
    sl_exec
    sl_step
    isplitl [H6]; · iexact H6
    iexists _; isplitl [H8]; · iexact H8
    ipureintro
    sl_unfold_run_names
    intro y
    exact rowStep (slot6).view 1 r.val hr40 P _ f (k0_off120_eq r) (k0_off121_eq r) (k0_off122_eq r) (k0_off123_eq r) (k0_off124_eq r) (k0_off125_eq r) (k0_off126_eq r) (k0_off127_eq r) (k0_off128_eq r) (k0_off129_eq r) (k0_off130_eq r) (k0_off131_eq r) (k0_off132_eq r) (k0_off133_eq r) (k0_off134_eq r) (k0_off135_eq r) hf y
  isplitl [H6 H8]
  · unfold invInV6
    isplitl [H6]; · iexact H6
    iexists X; isplitl [H8]; · iexact H8
    ipureintro; intro y; rw [if_neg (Nat.not_lt_zero _)]
  iintro %_ HI
  unfold invInV6
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 7 -/

/-- Phase 7's invariant: the positional table untouched; rows below `r` of slot 7 done, the others as they started. -/
def invInV7 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot7).view.loc (thr d L) ↦[(slot7).view.set]{fullShare} f)
    ∗ ⌜∀ y : S40x128.Idx, (slot7).view.read (Elt F) f y = if (y 0).val < r then rowOp 2 P X0 y else X0 y⌝)

/-- Phase 7's inner loop: every row of slot 7 scaled and shifted by block 2 of the positional table. -/
theorem inner7 (d : Dev nD) (L : grid0.Coords) (P : Buf (Elt F) ((thr d L).loc cc0_scratch0)) (X : Buf (Elt F) ((thr d L).loc cc0_scratch2))
    (v2 : BitVec 32) (k : Fin k0_t1_loop.trips) (v114 : BitVec 32) (v465 : BitVec 32) (v484 : BitVec 32) (v495 : BitVec 1) (v497 : BitVec 1) :
    (iprop(((s6).view.loc (thr d L) ↦{fullShare} P) ∗ ((slot7).view.loc (thr d L) ↦[(slot7).view.set]{fullShare} X)) : sProp 𝕄)
      ⊢ wp frame (wpE (defs₀ (F := F)) 𝒱₀ (thr d L) none) Set.univ
          (Scf.Loop.for k0_t9_loop k0_t9_ok ⟨⟩ (k0_t9_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k v114 v465 v484 v495 v497))
          fun _ => iprop(((s6).view.loc (thr d L) ↦{fullShare} P) ∗ ∃ f, ((slot7).view.loc (thr d L) ↦[(slot7).view.set]{fullShare} f)
            ∗ ⌜(slot7).view.read (Elt F) f = rowOp 2 P ((slot7).view.read (Elt F) X)⌝) := by
  have htrips : Scf.trips k0_t9_loop.lb k0_t9_loop.ub k0_t9_loop.st = 40 := by decide
  iintro ⟨H6, H8⟩
  sl_for (invInV7 d L P ((slot7).view.read (Elt F) X)) $$ [H6 H8]
  case region =>
    intro r _
    have hr40 : r.val < 40 := lt_of_lt_of_eq r.isLt htrips
    unfold invInV7
    iintro ⟨H6, %f, H8, %hf⟩
    sl_exec
    sl_step
    isplitl [H6]; · iexact H6
    iexists _; isplitl [H8]; · iexact H8
    ipureintro
    sl_unfold_run_names
    intro y
    exact rowStep (slot7).view 2 r.val hr40 P _ f (k0_off139_eq r) (k0_off140_eq r) (k0_off141_eq r) (k0_off142_eq r) (k0_off143_eq r) (k0_off144_eq r) (k0_off145_eq r) (k0_off146_eq r) (k0_off147_eq r) (k0_off148_eq r) (k0_off149_eq r) (k0_off150_eq r) (k0_off151_eq r) (k0_off152_eq r) (k0_off153_eq r) (k0_off154_eq r) hf y
  isplitl [H6 H8]
  · unfold invInV7
    isplitl [H6]; · iexact H6
    iexists X; isplitl [H8]; · iexact H8
    ipureintro; intro y; rw [if_neg (Nat.not_lt_zero _)]
  iintro %_ HI
  unfold invInV7
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 8 -/

/-- Phase 8's invariant: the positional table untouched; rows below `r` of slot 8 done, the others as they started. -/
def invInV8 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot8).view.loc (thr d L) ↦[(slot8).view.set]{fullShare} f)
    ∗ ⌜∀ y : S40x128.Idx, (slot8).view.read (Elt F) f y = if (y 0).val < r then rowOp 3 P X0 y else X0 y⌝)

/-- Phase 8's inner loop: every row of slot 8 scaled and shifted by block 3 of the positional table. -/
theorem inner8 (d : Dev nD) (L : grid0.Coords) (P : Buf (Elt F) ((thr d L).loc cc0_scratch0)) (X : Buf (Elt F) ((thr d L).loc cc0_scratch2))
    (v114 : BitVec 32) :
    (iprop(((s6).view.loc (thr d L) ↦{fullShare} P) ∗ ((slot8).view.loc (thr d L) ↦[(slot8).view.set]{fullShare} X)) : sProp 𝕄)
      ⊢ wp frame (wpE (defs₀ (F := F)) 𝒱₀ (thr d L) none) Set.univ
          (Scf.Loop.for k0_t10_loop k0_t10_ok ⟨⟩ (k0_t10_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v114))
          fun _ => iprop(((s6).view.loc (thr d L) ↦{fullShare} P) ∗ ∃ f, ((slot8).view.loc (thr d L) ↦[(slot8).view.set]{fullShare} f)
            ∗ ⌜(slot8).view.read (Elt F) f = rowOp 3 P ((slot8).view.read (Elt F) X)⌝) := by
  have htrips : Scf.trips k0_t10_loop.lb k0_t10_loop.ub k0_t10_loop.st = 40 := by decide
  iintro ⟨H6, H8⟩
  sl_for (invInV8 d L P ((slot8).view.read (Elt F) X)) $$ [H6 H8]
  case region =>
    intro r _
    have hr40 : r.val < 40 := lt_of_lt_of_eq r.isLt htrips
    unfold invInV8
    iintro ⟨H6, %f, H8, %hf⟩
    sl_exec
    sl_step
    isplitl [H6]; · iexact H6
    iexists _; isplitl [H8]; · iexact H8
    ipureintro
    sl_unfold_run_names
    intro y
    exact rowStep (slot8).view 3 r.val hr40 P _ f (k0_off158_eq r) (k0_off159_eq r) (k0_off160_eq r) (k0_off161_eq r) (k0_off162_eq r) (k0_off163_eq r) (k0_off164_eq r) (k0_off165_eq r) (k0_off166_eq r) (k0_off167_eq r) (k0_off168_eq r) (k0_off169_eq r) (k0_off170_eq r) (k0_off171_eq r) (k0_off172_eq r) (k0_off173_eq r) hf y
  isplitl [H6 H8]
  · unfold invInV8
    isplitl [H6]; · iexact H6
    iexists X; isplitl [H8]; · iexact H8
    ipureintro; intro y; rw [if_neg (Nat.not_lt_zero _)]
  iintro %_ HI
  unfold invInV8
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 9 -/

/-- Phase 9's invariant: the positional table untouched; rows below `r` of slot 9 done, the others as they started. -/
def invInV9 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot9).view.loc (thr d L) ↦[(slot9).view.set]{fullShare} f)
    ∗ ⌜∀ y : S40x128.Idx, (slot9).view.read (Elt F) f y = if (y 0).val < r then rowOp 4 P X0 y else X0 y⌝)

/-- Phase 9's inner loop: every row of slot 9 scaled and shifted by block 4 of the positional table. -/
theorem inner9 (d : Dev nD) (L : grid0.Coords) (P : Buf (Elt F) ((thr d L).loc cc0_scratch0)) (X : Buf (Elt F) ((thr d L).loc cc0_scratch2))
    (v2 : BitVec 32) :
    (iprop(((s6).view.loc (thr d L) ↦{fullShare} P) ∗ ((slot9).view.loc (thr d L) ↦[(slot9).view.set]{fullShare} X)) : sProp 𝕄)
      ⊢ wp frame (wpE (defs₀ (F := F)) 𝒱₀ (thr d L) none) Set.univ
          (Scf.Loop.for k0_t11_loop k0_t11_ok ⟨⟩ (k0_t11_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2))
          fun _ => iprop(((s6).view.loc (thr d L) ↦{fullShare} P) ∗ ∃ f, ((slot9).view.loc (thr d L) ↦[(slot9).view.set]{fullShare} f)
            ∗ ⌜(slot9).view.read (Elt F) f = rowOp 4 P ((slot9).view.read (Elt F) X)⌝) := by
  have htrips : Scf.trips k0_t11_loop.lb k0_t11_loop.ub k0_t11_loop.st = 40 := by decide
  iintro ⟨H6, H8⟩
  sl_for (invInV9 d L P ((slot9).view.read (Elt F) X)) $$ [H6 H8]
  case region =>
    intro r _
    have hr40 : r.val < 40 := lt_of_lt_of_eq r.isLt htrips
    unfold invInV9
    iintro ⟨H6, %f, H8, %hf⟩
    sl_exec
    sl_step
    isplitl [H6]; · iexact H6
    iexists _; isplitl [H8]; · iexact H8
    ipureintro
    sl_unfold_run_names
    intro y
    exact rowStep (slot9).view 4 r.val hr40 P _ f (k0_off177_eq r) (k0_off178_eq r) (k0_off179_eq r) (k0_off180_eq r) (k0_off181_eq r) (k0_off182_eq r) (k0_off183_eq r) (k0_off184_eq r) (k0_off185_eq r) (k0_off186_eq r) (k0_off187_eq r) (k0_off188_eq r) (k0_off189_eq r) (k0_off190_eq r) (k0_off191_eq r) (k0_off192_eq r) hf y
  isplitl [H6 H8]
  · unfold invInV9
    isplitl [H6]; · iexact H6
    iexists X; isplitl [H8]; · iexact H8
    ipureintro; intro y; rw [if_neg (Nat.not_lt_zero _)]
  iintro %_ HI
  unfold invInV9
  icases HI with ⟨H6, %f, H8, %hf⟩
  isplitl [H6]; · iexact H6
  iexists f; isplitl [H8]; · iexact H8
  ipureintro; funext y
  rw [hf y, htrips, if_pos (show (y 0).val < 40 from (y 0).isLt)]

end Cert.Proof.KI

end
-- ==== Proof.KIOwn.lean ====
/-
  A tile's own scratch and semaphores, opened.

  What a tile's task is handed of its own subcore — every buffer it owns whole at some contents, every one of its
  scoped semaphore cells at zero — is, taken apart: its three scratch buffers (the positional rows, the index words,
  the ten row slots), its 22 DMA semaphore cells by name, and the rest.  A separating conjunction over a finite set
  is the conjunction over a duplicate-free list of its members, then over the set without them.
-/
import proofs.«206279_g3710851744293_cont_8to1_b_253_31_alg».proof.Proof.KIInv
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-! ## A list of members taken out of a separating conjunction over a finite set -/

section SepList
variable {M : Type} [URA M]

/-- The separating conjunction of a list of assertions, then a remainder: a ∗ b ∗ … ∗ R. -/
def sepL : List (sProp M) → sProp M → sProp M
  | [], R => R
  | a :: l, R => iprop(a ∗ sepL l R)

theorem sepL_nil (R : sProp M) : sepL [] R = R := rfl
theorem sepL_cons (a : sProp M) (l : List (sProp M)) (R : sProp M) : sepL (a :: l) R = iprop(a ∗ sepL l R) := rfl

/-- A further conjunct goes into the remainder. -/
theorem sepL_sep (l : List (sProp M)) (R X : sProp M) : iprop(sepL l R ∗ X) = sepL l iprop(R ∗ X) := by
  induction l with
  | nil => rfl
  | cons a l ih =>
    rw [sepL_cons, sepL_cons, ← ih]
    exact BI.equiv_iff.mp ⟨Idealize.SL.BI.sep_assoc, Idealize.SL.BI.sep_assoc'⟩

/-- The conjunction over a finite set is the conjunction over a duplicate-free list of its members, then over the
    set without them. -/
theorem bigSep_take {I : Type} [DecidableEq I] (Φ : I → sProp M) :
    ∀ (l : List I) (s : Finset I), l.Nodup → (∀ i ∈ l, i ∈ s) → bigSep s Φ = sepL (l.map Φ) (bigSep (s \ l.toFinset) Φ)
  | [], s, _, _ => by
    rw [List.toFinset_nil, Finset.sdiff_empty]; rfl
  | a :: l, s, hnd, hs => by
    have ha : a ∈ s := hs a List.mem_cons_self
    have hnd' := List.nodup_cons.1 hnd
    have hl : ∀ i ∈ l, i ∈ s.erase a := fun i hi =>
      Finset.mem_erase.2 ⟨fun e => hnd'.1 (e ▸ hi), hs i (List.mem_cons_of_mem _ hi)⟩
    have hset : s.erase a \ l.toFinset = s \ (a :: l).toFinset := by
      ext x
      simp only [Finset.mem_sdiff, Finset.mem_erase, List.toFinset_cons, Finset.mem_insert, List.mem_toFinset]
      tauto
    refine (SparseCore.bigSep_erase' ha).trans ?_
    rw [bigSep_take Φ l (s.erase a) hnd'.2 hl, hset]
    rfl

end SepList

/-! ## The tile's own buffers and cells -/

/-- The tile's 22 DMA semaphore cells, in the order the kernel function takes them. -/
abbrev semList : List (SemLoc sig) :=
  [SemLoc.dma cc0_scratch3.sem, SemLoc.dma cc0_scratch4.sem, SemLoc.dma cc0_scratch5.sem, SemLoc.dma cc0_scratch6.sem, SemLoc.dma cc0_scratch7.sem, SemLoc.dma cc0_scratch8.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scratch19.sem, SemLoc.dma cc0_scratch20.sem, SemLoc.dma cc0_scratch21.sem, SemLoc.dma cc0_scratch22.sem, SemLoc.dma cc0_scoped0.sem, SemLoc.dma cc0_scoped1.sem]

theorem semList_nodup : semList.Nodup := by decide
theorem semList_scoped : ∀ sm ∈ semList, sm.isScoped .scVector = true := by decide

/-- The same cells as global cells of the tile's thread. -/
def cells (d : Dev nD) (L : grid0.Coords) : List (GSem nD τ sig) := semList.map fun sm => (thr d L, sm)

theorem cells_nodup (d : Dev nD) (L : grid0.Coords) : (cells d L).Nodup :=
  semList_nodup.map fun _ _ e => (Prod.mk.inj e).2

theorem cells_own (d : Dev nD) (L : grid0.Coords) : ∀ g ∈ cells d L, g ∈ ownCells (thr d L) := by
  intro g hg
  obtain ⟨sm, hsm, rfl⟩ := List.mem_map.1 hg
  exact mem_ownCells.mpr ⟨rfl, semList_scoped sm hsm⟩

/-- The tile's three scratch buffers as device references. -/
def bufList (L : grid0.Coords) : List (DevRef τ sig) :=
  [(Proc.scVector (cV L) (jV L)).devRef cc0_scratch0, (Proc.scVector (cV L) (jV L)).devRef cc0_scratch1,
    (Proc.scVector (cV L) (jV L)).devRef cc0_scratch2]

theorem bufList_nodup (L : grid0.Coords) : (bufList L).Nodup := by
  have h01 : (cc0_scratch0 : Ref sig .scVector) ≠ cc0_scratch1 := by decide
  have h02 : (cc0_scratch0 : Ref sig .scVector) ≠ cc0_scratch2 := by decide
  have h12 : (cc0_scratch1 : Ref sig .scVector) ≠ cc0_scratch2 := by decide
  simp only [bufList, List.nodup_cons, List.mem_cons, List.not_mem_nil, or_false, not_or, List.nodup_nil, and_true, not_false_eq_true]
  exact ⟨⟨fun e => h01 (Proc.devRef_injective _ e), fun e => h02 (Proc.devRef_injective _ e)⟩, fun e => h12 (Proc.devRef_injective _ e)⟩

theorem bufList_own (L : grid0.Coords) : ∀ b ∈ bufList L, b ∈ ownRefs (τ := τ) (sig := sig) (.scVector (cV L) (jV L)) := by
  intro b hb
  simp only [bufList, List.mem_cons, List.not_mem_nil, or_false] at hb
  rcases hb with rfl | rfl | rfl <;> exact SparseCore.Cfg.mem_ownRefs_of_owner rfl

/-- The tile's own buffers other than the three scratch buffers, each whole at some contents. -/
def restBufs (d : Dev nD) (L : grid0.Coords) : sProp 𝕄 :=
  bigSep (ownRefs (τ := τ) (sig := sig) (.scVector (cV L) (jV L)) \ (bufList L).toFinset)
    fun b => iprop(∃ f, ((d, b) : Loc nD τ sig) ↦{fullShare} f)

/-- The tile's own scoped cells other than the 22 named ones, each at zero. -/
def restSems (d : Dev nD) (L : grid0.Coords) : sProp 𝕄 :=
  bigSep (ownCells (thr d L) \ (cells d L).toFinset) fun g => semVal g 0

/-- THE TILE'S OWN STATE OPENED: the three scratch buffers, the other buffers, the 22 cells by name, the other cells. -/
theorem scoped_open (hF : (K (F := F)).Facts) (d : Dev nD) (L : grid0.Coords) :
    (iprop(scopedBufs (thr d L) ∗ scopedSems0 (thr d L)) : sProp 𝕄)
      = iprop((∃ f, (s6).view.loc (thr d L) ↦{fullShare} f) ∗ (∃ f, (s7).view.loc (thr d L) ↦{fullShare} f)
        ∗ (∃ f, (s8).view.loc (thr d L) ↦{fullShare} f) ∗ restBufs d L
        ∗ semVal ((thr d L, SemLoc.dma cc0_scratch3.sem) : GSem nD τ sig) 0
        ∗ semVal ((thr d L, SemLoc.dma cc0_scratch4.sem) : GSem nD τ sig) 0
        ∗ semVal ((thr d L, SemLoc.dma cc0_scratch5.sem) : GSem nD τ sig) 0
        ∗ semVal ((thr d L, SemLoc.dma cc0_scratch6.sem) : GSem nD τ sig) 0
        ∗ semVal ((thr d L, SemLoc.dma cc0_scratch7.sem) : GSem nD τ sig) 0
        ∗ semVal ((thr d L, SemLoc.dma cc0_scratch8.sem) : GSem nD τ sig) 0
        ∗ semVal ((thr d L, SemLoc.dma cc0_scratch9.sem) : GSem nD τ sig) 0
        ∗ semVal ((thr d L, SemLoc.dma cc0_scratch10.sem) : GSem nD τ sig) 0
        ∗ semVal ((thr d L, SemLoc.dma cc0_scratch11.sem) : GSem nD τ sig) 0
        ∗ semVal ((thr d L, SemLoc.dma cc0_scratch12.sem) : GSem nD τ sig) 0
        ∗ semVal ((thr d L, SemLoc.dma cc0_scratch13.sem) : GSem nD τ sig) 0
        ∗ semVal ((thr d L, SemLoc.dma cc0_scratch14.sem) : GSem nD τ sig) 0
        ∗ semVal ((thr d L, SemLoc.dma cc0_scratch15.sem) : GSem nD τ sig) 0
        ∗ semVal ((thr d L, SemLoc.dma cc0_scratch16.sem) : GSem nD τ sig) 0
        ∗ semVal ((thr d L, SemLoc.dma cc0_scratch17.sem) : GSem nD τ sig) 0
        ∗ semVal ((thr d L, SemLoc.dma cc0_scratch18.sem) : GSem nD τ sig) 0
        ∗ semVal ((thr d L, SemLoc.dma cc0_scratch19.sem) : GSem nD τ sig) 0
        ∗ semVal ((thr d L, SemLoc.dma cc0_scratch20.sem) : GSem nD τ sig) 0
        ∗ semVal ((thr d L, SemLoc.dma cc0_scratch21.sem) : GSem nD τ sig) 0
        ∗ semVal ((thr d L, SemLoc.dma cc0_scratch22.sem) : GSem nD τ sig) 0
        ∗ semVal ((thr d L, SemLoc.dma cc0_scoped0.sem) : GSem nD τ sig) 0
        ∗ semVal ((thr d L, SemLoc.dma cc0_scoped1.sem) : GSem nD τ sig) 0
        ∗ restSems d L) := by
  rw [(K (F := F)).scopedBufs_V hF d (cV L) (jV L), SparseCore.Cfg.scopedSems0_V (Val := Elt F) d (cV L) (jV L)]
  unfold SparseCore.Cfg.ownBufs SparseCore.Cfg.ownSems0
  rw [bigSep_take _ (bufList L) _ (bufList_nodup L) (bufList_own L), bigSep_take _ (cells d L) _ (cells_nodup d L) (cells_own d L), sepL_sep]
  rfl

end Cert.Proof.KI
end
-- ==== Proof.KISplit.lean ====
/-
  A tile's memory cut into the pieces its task works on.

  The row buffer is its ten slots; the index buffer is its 640 windows of forty words; the tile's 128 batch rows of
  the result are their 640 chunks of forty positions (five to a row).  Each is a points-to assertion along a family of
  pairwise disjoint element sets that cover the whole; a separating conjunction over an initial or final segment of
  the chunk numbers gives up, or takes, its boundary element.
-/
import proofs.«206279_g3710851744293_cont_8to1_b_253_31_alg».proof.Proof.KIOwn
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-! ## Lists and segments -/

section Lists
variable {M : Type} [URA M]

/-- A list's conjunction that ends in emp ends in its last element. -/
theorem sepL_snoc_emp (l : List (sProp M)) (a : sProp M) : sepL (l ++ [a]) iprop(emp) = sepL l a := by
  induction l with
  | nil => exact BI.equiv_iff.mp ⟨Idealize.SL.BI.sep_emp_elim, Idealize.SL.BI.sep_emp_intro⟩
  | cons b l ih => rw [List.cons_append, sepL_cons, sepL_cons, ih]

/-- The conjunction over all of Fin n is the conjunction of the list of its values in order. -/
theorem bigSep_univ_fin {n : Nat} (Φ : Fin n → sProp M) :
    bigSep Finset.univ Φ = sepL ((List.finRange n).map Φ) iprop(emp) := by
  rw [bigSep_take Φ (List.finRange n) Finset.univ (List.nodup_finRange n) (fun i _ => Finset.mem_univ i),
    List.toFinset_finRange, Finset.sdiff_self, bigSep_empty]
  rfl

variable {N : Nat}

/-- The chunk numbers from n on: n itself, and those from n + 1 on. -/
theorem bigSep_ge_step (Φ : Fin N → sProp M) (n : Nat) (h : n < N) :
    bigSep (Finset.univ.filter fun q : Fin N => n ≤ q.val) Φ
      = iprop(Φ ⟨n, h⟩ ∗ bigSep (Finset.univ.filter fun q : Fin N => n + 1 ≤ q.val) Φ) := by
  have hs : (Finset.univ.filter fun q : Fin N => n ≤ q.val) = insert ⟨n, h⟩ (Finset.univ.filter fun q : Fin N => n + 1 ≤ q.val) := by
    ext q
    simp only [Finset.mem_filter, Finset.mem_univ, true_and, Finset.mem_insert, Fin.ext_iff]
    omega
  rw [hs]
  exact SparseCore.bigSep_insert' (by simp only [Finset.mem_filter, Finset.mem_univ, true_and]; omega)

/-- The chunk numbers below n + 1: n itself, and those below n. -/
theorem bigSep_lt_step (Ψ : Fin N → sProp M) (n : Nat) (h : n < N) :
    bigSep (Finset.univ.filter fun q : Fin N => q.val < n + 1) Ψ
      = iprop(Ψ ⟨n, h⟩ ∗ bigSep (Finset.univ.filter fun q : Fin N => q.val < n) Ψ) := by
  have hs : (Finset.univ.filter fun q : Fin N => q.val < n + 1) = insert ⟨n, h⟩ (Finset.univ.filter fun q : Fin N => q.val < n) := by
    ext q
    simp only [Finset.mem_filter, Finset.mem_univ, true_and, Finset.mem_insert, Fin.ext_iff]
    omega
  rw [hs]
  exact SparseCore.bigSep_insert' (by simp only [Finset.mem_filter, Finset.mem_univ, true_and]; omega)

theorem filter_ge_zero : (Finset.univ.filter fun q : Fin N => 0 ≤ q.val) = Finset.univ :=
  Finset.filter_true_of_mem fun _ _ => Nat.zero_le _
theorem filter_lt_all : (Finset.univ.filter fun q : Fin N => q.val < N) = Finset.univ :=
  Finset.filter_true_of_mem fun q _ => q.isLt
theorem filter_ge_all : (Finset.univ.filter fun q : Fin N => N ≤ q.val) = ∅ :=
  Finset.filter_false_of_mem fun q _ => Nat.not_le.2 q.isLt
theorem filter_lt_zero : (Finset.univ.filter fun q : Fin N => q.val < 0) = ∅ :=
  Finset.filter_false_of_mem fun q _ => Nat.not_lt_zero _

/-- All the chunk numbers, as those from 0 on; those from N on are none. -/
theorem bigSep_univ_ge (Φ : Fin N → sProp M) : bigSep Finset.univ Φ = bigSep (Finset.univ.filter fun q : Fin N => 0 ≤ q.val) Φ := by
  rw [filter_ge_zero]
theorem bigSep_ge_all (Φ : Fin N → sProp M) : bigSep (Finset.univ.filter fun q : Fin N => N ≤ q.val) Φ = iprop(emp) := by
  rw [filter_ge_all, bigSep_empty]; rfl
theorem bigSep_lt_all (Ψ : Fin N → sProp M) : bigSep (Finset.univ.filter fun q : Fin N => q.val < N) Ψ = bigSep Finset.univ Ψ := by
  rw [filter_lt_all]
theorem bigSep_lt_zero (Ψ : Fin N → sProp M) : bigSep (Finset.univ.filter fun q : Fin N => q.val < 0) Ψ = iprop(emp) := by
  rw [filter_lt_zero, bigSep_empty]; rfl

end Lists

/-! ## The row buffer: ten slots -/

theorem h10 : 10 ∣ S10x40x128.size 0 := ⟨1, rfl⟩

/-- The unit block at row j of the row buffer is the j-th of the ten parts of its first axis. -/
theorem unit_row_eq_part (j : Fin 10) (inb : ∀ a, (![j.val, 0, 0] : Fin 3 → Nat) a + S1x40x128.size a ≤ S10x40x128.size a) :
    (Rect.unit (s := S10x40x128) ![j.val, 0, 0] S1x40x128.size inb).set = (Rect.part (s := S10x40x128) (a₀ := 0) h10 j).set := by
  ext i
  rw [Rect.mem_set_unit, Rect.mem_set_unit]
  refine forall_congr' fun a => ?_
  fin_cases a <;> simp [Shape.partIx, Shape.partSize]

theorem slot0_set : (slot0).view.set = (Rect.part (s := S10x40x128) (a₀ := 0) h10 0).set := by
  simp only [Memref.view_squeeze, View.set_reshape, Memref.view_slice, Memref.view_whole, View.set_slice_whole]
  exact unit_row_eq_part 0 _
theorem slot1_set : (slot1).view.set = (Rect.part (s := S10x40x128) (a₀ := 0) h10 1).set := by
  simp only [Memref.view_squeeze, View.set_reshape, Memref.view_slice, Memref.view_whole, View.set_slice_whole]
  exact unit_row_eq_part 1 _
theorem slot2_set : (slot2).view.set = (Rect.part (s := S10x40x128) (a₀ := 0) h10 2).set := by
  simp only [Memref.view_squeeze, View.set_reshape, Memref.view_slice, Memref.view_whole, View.set_slice_whole]
  exact unit_row_eq_part 2 _
theorem slot3_set : (slot3).view.set = (Rect.part (s := S10x40x128) (a₀ := 0) h10 3).set := by
  simp only [Memref.view_squeeze, View.set_reshape, Memref.view_slice, Memref.view_whole, View.set_slice_whole]
  exact unit_row_eq_part 3 _
theorem slot4_set : (slot4).view.set = (Rect.part (s := S10x40x128) (a₀ := 0) h10 4).set := by
  simp only [Memref.view_squeeze, View.set_reshape, Memref.view_slice, Memref.view_whole, View.set_slice_whole]
  exact unit_row_eq_part 4 _
theorem slot5_set : (slot5).view.set = (Rect.part (s := S10x40x128) (a₀ := 0) h10 5).set := by
  simp only [Memref.view_squeeze, View.set_reshape, Memref.view_slice, Memref.view_whole, View.set_slice_whole]
  exact unit_row_eq_part 5 _
theorem slot6_set : (slot6).view.set = (Rect.part (s := S10x40x128) (a₀ := 0) h10 6).set := by
  simp only [Memref.view_squeeze, View.set_reshape, Memref.view_slice, Memref.view_whole, View.set_slice_whole]
  exact unit_row_eq_part 6 _
theorem slot7_set : (slot7).view.set = (Rect.part (s := S10x40x128) (a₀ := 0) h10 7).set := by
  simp only [Memref.view_squeeze, View.set_reshape, Memref.view_slice, Memref.view_whole, View.set_slice_whole]
  exact unit_row_eq_part 7 _
theorem slot8_set : (slot8).view.set = (Rect.part (s := S10x40x128) (a₀ := 0) h10 8).set := by
  simp only [Memref.view_squeeze, View.set_reshape, Memref.view_slice, Memref.view_whole, View.set_slice_whole]
  exact unit_row_eq_part 8 _
theorem slot9_set : (slot9).view.set = (Rect.part (s := S10x40x128) (a₀ := 0) h10 9).set := by
  simp only [Memref.view_squeeze, View.set_reshape, Memref.view_slice, Memref.view_whole, View.set_slice_whole]
  exact unit_row_eq_part 9 _

/-- THE ROW BUFFER IS ITS TEN SLOTS. -/
theorem slots_split_eq (d : Dev nD) (L : grid0.Coords) (f : Buf (Elt F) ((thr d L).loc cc0_scratch2)) :
    ((s8).view.loc (thr d L) ↦{fullShare} f : sProp 𝕄)
      = iprop(((slot0).view.loc (thr d L) ↦[(slot0).view.set]{fullShare} f)
        ∗ ((slot1).view.loc (thr d L) ↦[(slot1).view.set]{fullShare} f)
        ∗ ((slot2).view.loc (thr d L) ↦[(slot2).view.set]{fullShare} f)
        ∗ ((slot3).view.loc (thr d L) ↦[(slot3).view.set]{fullShare} f)
        ∗ ((slot4).view.loc (thr d L) ↦[(slot4).view.set]{fullShare} f)
        ∗ ((slot5).view.loc (thr d L) ↦[(slot5).view.set]{fullShare} f)
        ∗ ((slot6).view.loc (thr d L) ↦[(slot6).view.set]{fullShare} f)
        ∗ ((slot7).view.loc (thr d L) ↦[(slot7).view.set]{fullShare} f)
        ∗ ((slot8).view.loc (thr d L) ↦[(slot8).view.set]{fullShare} f)
        ∗ ((slot9).view.loc (thr d L) ↦[(slot9).view.set]{fullShare} f)) := by
  have e : ((s8).view.loc (thr d L) ↦{fullShare} f : sProp 𝕄)
      = bigSep Finset.univ fun j : Fin 10 => (thr d L).loc cc0_scratch2 ↦[(Rect.part (s := S10x40x128) (a₀ := 0) h10 j).set]{fullShare} f := by
    rw [← pointsTo_biUnion Finset.univ (ℓ := (thr d L).loc cc0_scratch2) (fun j : Fin 10 => (Rect.part (s := S10x40x128) (a₀ := 0) h10 j).set)
      (fun i _ j _ h => Rect.part_disjoint h10 h), Rect.biUnion_part h10]
  rw [e, bigSep_univ_fin, slot0_set, slot1_set, slot2_set, slot3_set, slot4_set, slot5_set, slot6_set, slot7_set, slot8_set, slot9_set]
  let Φ : Fin 10 → sProp 𝕄 := fun j => (thr d L).loc cc0_scratch2 ↦[(Rect.part (s := S10x40x128) (a₀ := 0) h10 j).set]{fullShare} f
  exact sepL_snoc_emp [Φ 0, Φ 1, Φ 2, Φ 3, Φ 4, Φ 5, Φ 6, Φ 7, Φ 8] (Φ 9)

theorem slots_split (d : Dev nD) (L : grid0.Coords) (f : Buf (Elt F) ((thr d L).loc cc0_scratch2)) :
    ((s8).view.loc (thr d L) ↦{fullShare} f : sProp 𝕄)
      ⊣⊢ iprop(((slot0).view.loc (thr d L) ↦[(slot0).view.set]{fullShare} f)
        ∗ ((slot1).view.loc (thr d L) ↦[(slot1).view.set]{fullShare} f)
        ∗ ((slot2).view.loc (thr d L) ↦[(slot2).view.set]{fullShare} f)
        ∗ ((slot3).view.loc (thr d L) ↦[(slot3).view.set]{fullShare} f)
        ∗ ((slot4).view.loc (thr d L) ↦[(slot4).view.set]{fullShare} f)
        ∗ ((slot5).view.loc (thr d L) ↦[(slot5).view.set]{fullShare} f)
        ∗ ((slot6).view.loc (thr d L) ↦[(slot6).view.set]{fullShare} f)
        ∗ ((slot7).view.loc (thr d L) ↦[(slot7).view.set]{fullShare} f)
        ∗ ((slot8).view.loc (thr d L) ↦[(slot8).view.set]{fullShare} f)
        ∗ ((slot9).view.loc (thr d L) ↦[(slot9).view.set]{fullShare} f)) :=
  ⟨(BI.equiv_iff.mpr (slots_split_eq d L f)).1, (BI.equiv_iff.mpr (slots_split_eq d L f)).2⟩

/-! ## The index buffer: 640 windows of forty words -/

theorem h640 : 640 ∣ S25600.size 0 := ⟨40, rfl⟩

/-- Window q of the index buffer: its words [40 q, 40 q + 40). -/
abbrev winq (q : Fin 640) : Memref sig .scVector .vmem S40 .i32 :=
  win (40 * q.val) (by have := q.isLt; omega)

/-- Window q's elements are the q-th of the 640 parts of the index buffer. -/
theorem winq_set (q : Fin 640) : (winq q).view.set = (Rect.part (s := S25600) (a₀ := 0) h640 q).set := by
  simp only [Memref.view_slice, Memref.view_whole, View.set_slice_whole]
  ext i
  rw [Rect.mem_set_unit, Rect.mem_set_unit]
  refine forall_congr' fun a => ?_
  fin_cases a
  simp [Shape.partIx, Shape.partSize]
  omega

/-- THE INDEX BUFFER IS ITS 640 WINDOWS. -/
theorem wins_split_eq (d : Dev nD) (L : grid0.Coords) (f : Buf (Elt F) ((thr d L).loc cc0_scratch1)) :
    ((s7).view.loc (thr d L) ↦{fullShare} f : sProp 𝕄)
      = bigSep Finset.univ fun q : Fin 640 => (winq q).view.loc (thr d L) ↦[(winq q).view.set]{fullShare} f := by
  have e1 : (bigSep Finset.univ fun q : Fin 640 => (winq q).view.loc (thr d L) ↦[(winq q).view.set]{fullShare} f : sProp 𝕄)
      = bigSep Finset.univ fun q : Fin 640 => (thr d L).loc cc0_scratch1 ↦[(Rect.part (s := S25600) (a₀ := 0) h640 q).set]{fullShare} f :=
    bigSep_congr fun q _ => by rw [winq_set q]
  rw [e1, ← pointsTo_biUnion Finset.univ (ℓ := (thr d L).loc cc0_scratch1) (fun q : Fin 640 => (Rect.part (s := S25600) (a₀ := 0) h640 q).set)
    (fun i _ j _ h => Rect.part_disjoint h640 h), Rect.biUnion_part h640]

theorem wins_split (d : Dev nD) (L : grid0.Coords) (f : Buf (Elt F) ((thr d L).loc cc0_scratch1)) :
    ((s7).view.loc (thr d L) ↦{fullShare} f : sProp 𝕄)
      ⊣⊢ bigSep Finset.univ fun q : Fin 640 => (winq q).view.loc (thr d L) ↦[(winq q).view.set]{fullShare} f :=
  ⟨(BI.equiv_iff.mpr (wins_split_eq d L f)).1, (BI.equiv_iff.mpr (wins_split_eq d L f)).2⟩

/-! ## The tile's rows of the result: 640 chunks of forty positions -/

theorem ochq_inb (L : grid0.Coords) (q : Fin 640) : b0 L + q.val / 5 + 1 ≤ 4096 ∧ 40 * (q.val % 5) + 40 ≤ 200 := by
  have h0 : (L 0).val < 2 := (L 0).isLt
  have h1 : (L 1).val < 16 := (L 1).isLt
  have hb : b0 L = 256 * (L 1).val + 128 * (L 0).val := rfl
  have := q.isLt
  constructor <;> omega

/-- Chunk q of the tile at a grid point: positions [40 (q mod 5), +40) of batch row b0 + q div 5. -/
abbrev ochq (L : grid0.Coords) (q : Fin 640) : Memref sig .scVector .hbm S40x128 .f32 :=
  och (b0 L + q.val / 5) (40 * (q.val % 5)) (ochq_inb L q)

theorem b0_eq (L : grid0.Coords) : b0 L = 128 * (wid L).val := by
  show 256 * (L 1).val + 128 * (L 0).val = 128 * (2 * (L 1).val + (L 0).val)
  omega

/-- An element is in chunk q exactly when its batch row is the chunk's and its position is in the chunk's forty. -/
theorem mem_ochq (L : grid0.Coords) (q : Fin 640) (i : S4096x200x128.Idx) :
    i ∈ (ochq L q).view.set ↔ (i 0).val = b0 L + q.val / 5 ∧ 40 * (q.val % 5) ≤ (i 1).val ∧ (i 1).val < 40 * (q.val % 5) + 40 := by
  simp only [Memref.view_squeeze, View.set_reshape, Memref.view_slice, Memref.view_whole, View.set_slice_whole]
  change i ∈ (Rect.unit (s := S4096x200x128) ![b0 L + q.val / 5, 40 * (q.val % 5), 0] S1x40x128.size _).set ↔ _
  rw [Rect.mem_set_unit]
  have h2 : (i 2).val < 128 := (i 2).isLt
  constructor
  · intro h
    have h0 : b0 L + q.val / 5 ≤ (i 0).val ∧ (i 0).val < b0 L + q.val / 5 + 1 := h 0
    have h1 : 40 * (q.val % 5) ≤ (i 1).val ∧ (i 1).val < 40 * (q.val % 5) + 40 := h 1
    omega
  · intro h a
    fin_cases a
    · show b0 L + q.val / 5 ≤ (i 0).val ∧ (i 0).val < b0 L + q.val / 5 + 1
      omega
    · show 40 * (q.val % 5) ≤ (i 1).val ∧ (i 1).val < 40 * (q.val % 5) + 40
      omega
    · show 0 ≤ (i 2).val ∧ (i 2).val < 0 + 128
      omega

/-- An element is in the tile's rows exactly when its batch row is one of the tile's 128. -/
theorem mem_tileRows (w : Fin 32) (i : S4096x200x128.Idx) :
    i ∈ tileRows w ↔ 128 * w.val ≤ (i 0).val ∧ (i 0).val < 128 * w.val + 128 := by
  change i ∈ ((View.whole (main_v2_scv : Ref sig .scVector)).slice (tileRect w)).set ↔ _
  rw [View.set_slice_whole]
  change i ∈ (Rect.unit (s := S4096x200x128) (fun a => S4096x200x128.partIx 0 w.val a * S4096x200x128.partSize 0 32 a)
    (S4096x200x128.partSize 0 32) _).set ↔ _
  rw [Rect.mem_set_unit]
  have h1 : (i 1).val < 200 := (i 1).isLt
  have h2 : (i 2).val < 128 := (i 2).isLt
  constructor
  · intro h
    have h0 : w.val * 128 ≤ (i 0).val ∧ (i 0).val < w.val * 128 + 128 := h 0
    omega
  · intro h a
    fin_cases a
    · show w.val * 128 ≤ (i 0).val ∧ (i 0).val < w.val * 128 + 128
      omega
    · show 0 * 200 ≤ (i 1).val ∧ (i 1).val < 0 * 200 + 200
      omega
    · show 0 * 128 ≤ (i 2).val ∧ (i 2).val < 0 * 128 + 128
      omega

theorem ochq_disjoint (L : grid0.Coords) : ∀ q ∈ (Finset.univ : Finset (Fin 640)), ∀ q' ∈ (Finset.univ : Finset (Fin 640)), q ≠ q' →
    Disjoint (ochq L q).view.set (ochq L q').view.set := by
  intro q _ q' _ hne
  refine Finset.disjoint_left.2 fun i hi hi' => ?_
  rw [mem_ochq] at hi hi'
  exact hne (Fin.ext (by omega))

theorem ochq_cover (L : grid0.Coords) : (Finset.univ : Finset (Fin 640)).biUnion (fun q => (ochq L q).view.set) = tileRows (wid L) := by
  ext i
  rw [Finset.mem_biUnion, mem_tileRows, ← b0_eq]
  have h1 : (i 1).val < 200 := (i 1).isLt
  constructor
  · rintro ⟨q, -, hq⟩
    rw [mem_ochq] at hq
    have := q.isLt
    omega
  · intro h
    refine ⟨⟨5 * ((i 0).val - b0 L) + (i 1).val / 40, by omega⟩, Finset.mem_univ _, ?_⟩
    rw [mem_ochq]
    show (i 0).val = b0 L + (5 * ((i 0).val - b0 L) + (i 1).val / 40) / 5
      ∧ 40 * ((5 * ((i 0).val - b0 L) + (i 1).val / 40) % 5) ≤ (i 1).val
      ∧ (i 1).val < 40 * ((5 * ((i 0).val - b0 L) + (i 1).val / 40) % 5) + 40
    omega

/-- THE TILE'S ROWS OF THE RESULT ARE THEIR 640 CHUNKS. -/
theorem ochs_split_eq (d : Dev nD) (L : grid0.Coords) (f : Buf (Elt F) (oLoc d)) :
    (oLoc d ↦[tileRows (wid L)]{fullShare} f : sProp 𝕄)
      = bigSep Finset.univ fun q : Fin 640 => (ochq L q).view.loc (thr d L) ↦[(ochq L q).view.set]{fullShare} f := by
  rw [← ochq_cover L, pointsTo_biUnion Finset.univ (ℓ := oLoc d) (fun q : Fin 640 => (ochq L q).view.set) (ochq_disjoint L)]

theorem ochs_split (d : Dev nD) (L : grid0.Coords) (f : Buf (Elt F) (oLoc d)) :
    (oLoc d ↦[tileRows (wid L)]{fullShare} f : sProp 𝕄)
      ⊣⊢ bigSep Finset.univ fun q : Fin 640 => (ochq L q).view.loc (thr d L) ↦[(ochq L q).view.set]{fullShare} f :=
  ⟨(BI.equiv_iff.mpr (ochs_split_eq d L f)).1, (BI.equiv_iff.mpr (ochs_split_eq d L f)).2⟩

end Cert.Proof.KI
end
-- ==== Proof.KIInv2.lean ====
/-
  The same pieces named by the offsets the printed program computes (any offsets in range): the window of forty
  index words at `off`, the chunk of forty positions at `off`; and the equations that turn one spelling of a
  held piece into another when the offsets agree.
-/
import proofs.«206279_g3710851744293_cont_8to1_b_253_31_alg».proof.Proof.KISplit
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-- The window of 40 index words at offsets `off` of the index buffer. -/
abbrev win' (off : Fin 1 → ℕ) (h : ∀ a, off a + S40.size a ≤ S25600.size a) : Memref sig .scVector .vmem S40 .i32 :=
  (s7).slice (Rect.unit (s := S25600) off S40.size h) (fun _ => rfl)

/-- The chunk of 40 positions at offsets `off` of the result. -/
abbrev och' (off : Fin 3 → ℕ) (h : ∀ a, off a + S1x40x128.size a ≤ S4096x200x128.size a) : Memref sig .scVector .hbm S40x128 .f32 :=
  ((oV).slice (Rect.unit (s := S4096x200x128) off S1x40x128.size h) (fun _ => rfl)).squeeze S40x128 squeezes_S1x40x128_S40x128

theorem held_win'_congr (d : Dev nD) (L : grid0.Coords) {off off' : Fin 1 → ℕ} (e : off = off') (h) (h') (q : PosShare TreeShare)
    (f : Buf (Elt F) ((thr d L).loc cc0_scratch1)) :
    (((win' off h).view.loc (thr d L) ↦[(win' off h).view.set]{q} f) : sProp 𝕄)
      = ((win' off' h').view.loc (thr d L) ↦[(win' off' h').view.set]{q} f) := by
  subst e; rfl

theorem held_och'_congr (d : Dev nD) (L : grid0.Coords) {off off' : Fin 3 → ℕ} (e : off = off') (h) (h') (q : PosShare TreeShare)
    (f : Buf (Elt F) ((thr d L).loc main_v2_scv)) :
    (((och' off h).view.loc (thr d L) ↦[(och' off h).view.set]{q} f) : sProp 𝕄)
      = ((och' off' h').view.loc (thr d L) ↦[(och' off' h').view.set]{q} f) := by
  subst e; rfl

end Cert.Proof.KI
end
-- ==== Proof.KILoopIn.lean ====
/-
  The frame invariant of the inner loop over a slot's forty rows (the positional table and the slot held), and
  the bookkeeping of the waits a thread records.
-/
import proofs.«206279_g3710851744293_cont_8to1_b_253_31_alg».proof.Proof.KIInv2
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

def invIn0 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot0).view.loc (thr d L) ↦[(slot0).view.set]{fullShare} f))
def invIn1 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot1).view.loc (thr d L) ↦[(slot1).view.set]{fullShare} f))
def invIn2 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot2).view.loc (thr d L) ↦[(slot2).view.set]{fullShare} f))
def invIn3 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot3).view.loc (thr d L) ↦[(slot3).view.set]{fullShare} f))
def invIn4 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot4).view.loc (thr d L) ↦[(slot4).view.set]{fullShare} f))
def invIn5 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot5).view.loc (thr d L) ↦[(slot5).view.set]{fullShare} f))
def invIn6 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot6).view.loc (thr d L) ↦[(slot6).view.set]{fullShare} f))
def invIn7 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot7).view.loc (thr d L) ↦[(slot7).view.set]{fullShare} f))
def invIn8 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot8).view.loc (thr d L) ↦[(slot8).view.set]{fullShare} f))
def invIn9 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot9).view.loc (thr d L) ↦[(slot9).view.set]{fullShare} f))

theorem waits_step {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

end Cert.Proof.KI
end
-- ==== Proof.KIVal.lean ====
/-
  What a gather leaves in a slot, as a function of the table and of the window of index words it reads: row r of the
  slot is the table's row named by the window's r-th word.
-/
import proofs.«206279_g3710851744293_cont_8to1_b_253_31_alg».proof.Proof.KIInner2
import proofs.«206279_g3710851744293_cont_8to1_b_253_31_alg».proof.Proof.KILoopIn
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-- The forty table rows named by the window of index words at `off`. -/
def Gw (d : Dev nD) (L : grid0.Coords) (ft : Buf (Elt F) ((thr d L).loc main_arg1_scv)) (I : Buf (Elt F) ((thr d L).loc cc0_scratch1))
    (off : Fin 1 → ℕ) (h : ∀ a, off a + S40.size a ≤ S25600.size a) : S40x128.Idx → F .f32 :=
  fun y => ft (ValueIdx.ix2 (n0 := 100000) (n1 := 128)
    (Cert.Spec.rowOf ((win' off h).view.read (Elt F) I (ValueIdx.ix1 (n := 40) (y 0)))) (y 1))

end Cert.Proof.KI
end
-- ==== Proof.KIBooks.lean ====
/-
  The books a tile keeps over the main loop: which windows of its index buffer and which chunks of its rows of the
  result it holds outside the transfers in flight.  Windows below `a` have been gathered from and are back; windows
  from `b` on have not been used yet; chunks below `c` have been written and hold the contents `fd`; chunks from `e` on are
  untouched.  Between them lie the windows and chunks the transfers in flight hold.
-/
import proofs.«206279_g3710851744293_cont_8to1_b_253_31_alg».proof.Proof.KIInv2
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-- Window `q` of the index buffer held at contents `I`. -/
def Wn (d : Dev nD) (L : grid0.Coords) (I : Buf (Elt F) ((thr d L).loc cc0_scratch1)) (q : Fin 640) : sProp 𝕄 :=
  ((winq q).view.loc (thr d L) ↦[(winq q).view.set]{fullShare} I)
/-- Chunk `q` of the tile's rows of the result held at contents `f`. -/
def On (d : Dev nD) (L : grid0.Coords) (f : Buf (Elt F) ((thr d L).loc main_v2_scv)) (q : Fin 640) : sProp 𝕄 :=
  ((ochq L q).view.loc (thr d L) ↦[(ochq L q).view.set]{fullShare} f)
def Books (d : Dev nD) (L : grid0.Coords) (I : Buf (Elt F) ((thr d L).loc cc0_scratch1)) (fo fd : Buf (Elt F) ((thr d L).loc main_v2_scv))
    (a b c e : ℕ) : sProp 𝕄 :=
  iprop(BI.bigSep (Finset.univ.filter fun q : Fin 640 => q.val < a) (Wn d L I)
    ∗ BI.bigSep (Finset.univ.filter fun q : Fin 640 => b ≤ q.val) (Wn d L I)
    ∗ BI.bigSep (Finset.univ.filter fun q : Fin 640 => q.val < c) (On d L fd)
    ∗ BI.bigSep (Finset.univ.filter fun q : Fin 640 => e ≤ q.val) (On d L fo))

end Cert.Proof.KI
end
-- ==== Proof.KIRing.lean ====
/-
  The invariant of the main loop.  Besides the books (KIBooks) a tile holds, at the start of trip k: the positional
  table in its scratch; six read shares of the embedding table (five lent to the gathers in flight, which are those
  of chunks 10 k … 10 k + 4 into slots 0 … 4); for k ≥ 1 the write-outs of chunks 10 k - 5 … 10 k - 2 in flight from
  slots 5 … 8 and chunk 10 k - 1 computed in slot 9; and what each slot and each chunk in flight will read.
-/
import proofs.«206279_g3710851744293_cont_8to1_b_253_31_alg».proof.Proof.KIVal
import proofs.«206279_g3710851744293_cont_8to1_b_253_31_alg».proof.Proof.KIBooks
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

theorem conds_first : ∀ k : Fin k0_t1_loop.trips, k.val = 0 → (k0_cond2 k = 1#1 ∧ k0_cond4 k = 1#1 ∧ k0_cond5 k = 1#1 ∧ k0_cond7 k = 1#1 ∧ k0_cond8 k = 1#1 ∧ k0_cond10 k = 1#1 ∧ k0_cond11 k = 1#1 ∧ k0_cond13 k = 1#1 ∧ k0_cond14 k = 1#1 ∧ k0_cond16 k = 1#1 ∧ k0_cond17 k = 1#1 ∧ k0_cond18 k = 1#1 ∧ k0_cond19 k = 1#1 ∧ k0_cond20 k = 1#1 ∧ k0_cond21 k = 1#1 ∧ k0_cond22 k = 1#1 ∧ k0_cond23 k = 1#1 ∧ k0_cond24 k = 1#1 ∧ k0_cond25 k = 1#1 ∧ k0_cond26 k = 1#1 ∧ k0_cond27 k = 1#1 ∧ k0_cond28 k = 1#1 ∧ k0_cond29 k = 1#1 ∧ k0_cond30 k = 1#1) ∧ (¬ k0_cond1 k = 1#1 ∧ ¬ k0_cond3 k = 1#1 ∧ ¬ k0_cond6 k = 1#1 ∧ ¬ k0_cond9 k = 1#1 ∧ ¬ k0_cond12 k = 1#1 ∧ ¬ k0_cond15 k = 1#1) := by decide +kernel
theorem conds_mid : ∀ k : Fin k0_t1_loop.trips, 1 ≤ k.val → k.val ≤ 62 → k0_cond1 k = 1#1 ∧ k0_cond2 k = 1#1 ∧ k0_cond3 k = 1#1 ∧ k0_cond4 k = 1#1 ∧ k0_cond5 k = 1#1 ∧ k0_cond6 k = 1#1 ∧ k0_cond7 k = 1#1 ∧ k0_cond8 k = 1#1 ∧ k0_cond9 k = 1#1 ∧ k0_cond10 k = 1#1 ∧ k0_cond11 k = 1#1 ∧ k0_cond12 k = 1#1 ∧ k0_cond13 k = 1#1 ∧ k0_cond14 k = 1#1 ∧ k0_cond15 k = 1#1 ∧ k0_cond16 k = 1#1 ∧ k0_cond17 k = 1#1 ∧ k0_cond18 k = 1#1 ∧ k0_cond19 k = 1#1 ∧ k0_cond20 k = 1#1 ∧ k0_cond21 k = 1#1 ∧ k0_cond22 k = 1#1 ∧ k0_cond23 k = 1#1 ∧ k0_cond24 k = 1#1 ∧ k0_cond25 k = 1#1 ∧ k0_cond26 k = 1#1 ∧ k0_cond27 k = 1#1 ∧ k0_cond28 k = 1#1 ∧ k0_cond29 k = 1#1 ∧ k0_cond30 k = 1#1 := by decide +kernel
theorem conds_last : ∀ k : Fin k0_t1_loop.trips, k.val = 63 → (k0_cond1 k = 1#1 ∧ k0_cond2 k = 1#1 ∧ k0_cond3 k = 1#1 ∧ k0_cond4 k = 1#1 ∧ k0_cond5 k = 1#1 ∧ k0_cond6 k = 1#1 ∧ k0_cond7 k = 1#1 ∧ k0_cond8 k = 1#1 ∧ k0_cond9 k = 1#1 ∧ k0_cond10 k = 1#1 ∧ k0_cond11 k = 1#1 ∧ k0_cond12 k = 1#1 ∧ k0_cond13 k = 1#1 ∧ k0_cond14 k = 1#1 ∧ k0_cond15 k = 1#1 ∧ k0_cond16 k = 1#1 ∧ k0_cond19 k = 1#1 ∧ k0_cond22 k = 1#1 ∧ k0_cond25 k = 1#1 ∧ k0_cond28 k = 1#1) ∧ (¬ k0_cond17 k = 1#1 ∧ ¬ k0_cond20 k = 1#1 ∧ ¬ k0_cond23 k = 1#1 ∧ ¬ k0_cond26 k = 1#1 ∧ ¬ k0_cond29 k = 1#1) := by decide +kernel
theorem conds_le62 : ∀ k : Fin k0_t1_loop.trips, k.val ≤ 62 → k0_cond2 k = 1#1 ∧ k0_cond5 k = 1#1 ∧ k0_cond8 k = 1#1 ∧ k0_cond11 k = 1#1 ∧ k0_cond14 k = 1#1 ∧ k0_cond17 k = 1#1 ∧ k0_cond20 k = 1#1 ∧ k0_cond23 k = 1#1 ∧ k0_cond26 k = 1#1 ∧ k0_cond29 k = 1#1 ∧ k0_cond19 k = 1#1 ∧ k0_cond22 k = 1#1 ∧ k0_cond25 k = 1#1 ∧ k0_cond28 k = 1#1 := by decide +kernel
theorem conds_63 : ∀ k : Fin k0_t1_loop.trips, k.val = 63 → k0_cond1 k = 1#1 ∧ k0_cond4 k = 1#1 ∧ k0_cond7 k = 1#1 ∧ k0_cond10 k = 1#1 ∧ k0_cond13 k = 1#1 ∧ k0_cond16 k = 1#1 ∧ k0_cond19 k = 1#1 ∧ k0_cond22 k = 1#1 ∧ k0_cond25 k = 1#1 ∧ k0_cond28 k = 1#1 ∧ k0_cond2 k = 1#1 ∧ k0_cond5 k = 1#1 ∧ k0_cond8 k = 1#1 ∧ k0_cond11 k = 1#1 ∧ k0_cond14 k = 1#1 := by decide +kernel
theorem c2 (k : Fin k0_t1_loop.trips) (hk : k.val ≤ 62) : k0_cond2 k = 1#1 := by have h := conds_le62 k hk; exact h.1
theorem c5 (k : Fin k0_t1_loop.trips) (hk : k.val ≤ 62) : k0_cond5 k = 1#1 := by have h := conds_le62 k hk; exact h.2.1
theorem c8 (k : Fin k0_t1_loop.trips) (hk : k.val ≤ 62) : k0_cond8 k = 1#1 := by have h := conds_le62 k hk; exact h.2.2.1
theorem c11 (k : Fin k0_t1_loop.trips) (hk : k.val ≤ 62) : k0_cond11 k = 1#1 := by have h := conds_le62 k hk; exact h.2.2.2.1
theorem c14 (k : Fin k0_t1_loop.trips) (hk : k.val ≤ 62) : k0_cond14 k = 1#1 := by have h := conds_le62 k hk; exact h.2.2.2.2.1
theorem c17 (k : Fin k0_t1_loop.trips) (hk : k.val ≤ 62) : k0_cond17 k = 1#1 := by have h := conds_le62 k hk; exact h.2.2.2.2.2.1
theorem c20 (k : Fin k0_t1_loop.trips) (hk : k.val ≤ 62) : k0_cond20 k = 1#1 := by have h := conds_le62 k hk; exact h.2.2.2.2.2.2.1
theorem c23 (k : Fin k0_t1_loop.trips) (hk : k.val ≤ 62) : k0_cond23 k = 1#1 := by have h := conds_le62 k hk; exact h.2.2.2.2.2.2.2.1
theorem c26 (k : Fin k0_t1_loop.trips) (hk : k.val ≤ 62) : k0_cond26 k = 1#1 := by have h := conds_le62 k hk; exact h.2.2.2.2.2.2.2.2.1
theorem c29 (k : Fin k0_t1_loop.trips) (hk : k.val ≤ 62) : k0_cond29 k = 1#1 := by have h := conds_le62 k hk; exact h.2.2.2.2.2.2.2.2.2.1
theorem c19 (k : Fin k0_t1_loop.trips) (hk : k.val ≤ 62) : k0_cond19 k = 1#1 := by have h := conds_le62 k hk; exact h.2.2.2.2.2.2.2.2.2.2.1
theorem c22 (k : Fin k0_t1_loop.trips) (hk : k.val ≤ 62) : k0_cond22 k = 1#1 := by have h := conds_le62 k hk; exact h.2.2.2.2.2.2.2.2.2.2.2.1
theorem c25 (k : Fin k0_t1_loop.trips) (hk : k.val ≤ 62) : k0_cond25 k = 1#1 := by have h := conds_le62 k hk; exact h.2.2.2.2.2.2.2.2.2.2.2.2.1
theorem c28 (k : Fin k0_t1_loop.trips) (hk : k.val ≤ 62) : k0_cond28 k = 1#1 := by have h := conds_le62 k hk; exact h.2.2.2.2.2.2.2.2.2.2.2.2.2
theorem e1 (k : Fin k0_t1_loop.trips) (hk : k.val = 63) : k0_cond1 k = 1#1 := by have h := conds_63 k hk; exact h.1
theorem e4 (k : Fin k0_t1_loop.trips) (hk : k.val = 63) : k0_cond4 k = 1#1 := by have h := conds_63 k hk; exact h.2.1
theorem e7 (k : Fin k0_t1_loop.trips) (hk : k.val = 63) : k0_cond7 k = 1#1 := by have h := conds_63 k hk; exact h.2.2.1
theorem e10 (k : Fin k0_t1_loop.trips) (hk : k.val = 63) : k0_cond10 k = 1#1 := by have h := conds_63 k hk; exact h.2.2.2.1
theorem e13 (k : Fin k0_t1_loop.trips) (hk : k.val = 63) : k0_cond13 k = 1#1 := by have h := conds_63 k hk; exact h.2.2.2.2.1
theorem e16 (k : Fin k0_t1_loop.trips) (hk : k.val = 63) : k0_cond16 k = 1#1 := by have h := conds_63 k hk; exact h.2.2.2.2.2.1
theorem e19 (k : Fin k0_t1_loop.trips) (hk : k.val = 63) : k0_cond19 k = 1#1 := by have h := conds_63 k hk; exact h.2.2.2.2.2.2.1
theorem e22 (k : Fin k0_t1_loop.trips) (hk : k.val = 63) : k0_cond22 k = 1#1 := by have h := conds_63 k hk; exact h.2.2.2.2.2.2.2.1
theorem e25 (k : Fin k0_t1_loop.trips) (hk : k.val = 63) : k0_cond25 k = 1#1 := by have h := conds_63 k hk; exact h.2.2.2.2.2.2.2.2.1
theorem e28 (k : Fin k0_t1_loop.trips) (hk : k.val = 63) : k0_cond28 k = 1#1 := by have h := conds_63 k hk; exact h.2.2.2.2.2.2.2.2.2.1
theorem e2 (k : Fin k0_t1_loop.trips) (hk : k.val = 63) : k0_cond2 k = 1#1 := by have h := conds_63 k hk; exact h.2.2.2.2.2.2.2.2.2.2.1
theorem e5 (k : Fin k0_t1_loop.trips) (hk : k.val = 63) : k0_cond5 k = 1#1 := by have h := conds_63 k hk; exact h.2.2.2.2.2.2.2.2.2.2.2.1
theorem e8 (k : Fin k0_t1_loop.trips) (hk : k.val = 63) : k0_cond8 k = 1#1 := by have h := conds_63 k hk; exact h.2.2.2.2.2.2.2.2.2.2.2.2.1
theorem e11 (k : Fin k0_t1_loop.trips) (hk : k.val = 63) : k0_cond11 k = 1#1 := by have h := conds_63 k hk; exact h.2.2.2.2.2.2.2.2.2.2.2.2.2.1
theorem e14 (k : Fin k0_t1_loop.trips) (hk : k.val = 63) : k0_cond14 k = 1#1 := by have h := conds_63 k hk; exact h.2.2.2.2.2.2.2.2.2.2.2.2.2.2
theorem hgw0 : ∀ a, (![0] : Fin 1 → ℕ) a + S40.size a ≤ S25600.size a := by decide
theorem hgw1 : ∀ a, (![40] : Fin 1 → ℕ) a + S40.size a ≤ S25600.size a := by decide
theorem hgw2 : ∀ a, (![80] : Fin 1 → ℕ) a + S40.size a ≤ S25600.size a := by decide
theorem hgw3 : ∀ a, (![120] : Fin 1 → ℕ) a + S40.size a ≤ S25600.size a := by decide
theorem hgw4 : ∀ a, (![160] : Fin 1 → ℕ) a + S40.size a ≤ S25600.size a := by decide

/-- The trips as numbers of the loop: 62 and 63. -/
def k62 : Fin k0_t1_loop.trips := ⟨62, by decide⟩
def k63 : Fin k0_t1_loop.trips := ⟨63, by decide⟩

/-- Six read shares of the embedding table that join to the tile's token. -/
def ShJoin (d : Dev nD) (L : grid0.Coords) (q0 q1 q2 q3 q4 q5 : PosShare TreeShare) : Prop :=
  ∀ ft : Buf (Elt F) ((thr d L).loc main_arg1_scv),
    (iprop(((tV).view.loc (thr d L) ↦{q0} ft) ∗ ((tV).view.loc (thr d L) ↦{q1} ft) ∗ ((tV).view.loc (thr d L) ↦{q2} ft)
      ∗ ((tV).view.loc (thr d L) ↦{q3} ft) ∗ ((tV).view.loc (thr d L) ↦{q4} ft) ∗ ((tV).view.loc (thr d L) ↦{q5} ft)) : sProp 𝕄)
      ⊢ ((tV).view.loc (thr d L) ↦{tok (wid L)} ft)

section
variable (d : Dev nD) (L : grid0.Coords) (ft : Buf (Elt F) ((thr d L).loc main_arg1_scv))
  (I : Buf (Elt F) ((thr d L).loc cc0_scratch1)) (P : Buf (Elt F) ((thr d L).loc cc0_scratch0))

/-- Before the first trip. -/
def Ring0 : sProp 𝕄 :=
  iprop(∃ (q0 q1 q2 q3 q4 q5 : PosShare TreeShare) (X5 X6 X7 X8 X9 Xg0 Xg1 Xg2 Xg3 Xg4 : Buf (Elt F) ((thr d L).loc cc0_scratch2)),
    ⌜ShJoin (F := F) d L q0 q1 q2 q3 q4 q5⌝
    ∗ ((tV).view.loc (thr d L) ↦{q5} ft)
    ∗ ((slot5).view.loc (thr d L) ↦[(slot5).view.set]{fullShare} X5)
    ∗ ((slot6).view.loc (thr d L) ↦[(slot6).view.set]{fullShare} X6)
    ∗ ((slot7).view.loc (thr d L) ↦[(slot7).view.set]{fullShare} X7)
    ∗ ((slot8).view.loc (thr d L) ↦[(slot8).view.set]{fullShare} X8)
    ∗ ((slot9).view.loc (thr d L) ↦[(slot9).view.set]{fullShare} X9)
    ∗ semVal ((thr d L, SemLoc.dma cc0_scratch13.sem) : GSem nD τ sig) 0
    ∗ semVal ((thr d L, SemLoc.dma cc0_scratch14.sem) : GSem nD τ sig) 0
    ∗ semVal ((thr d L, SemLoc.dma cc0_scratch15.sem) : GSem nD τ sig) 0
    ∗ semVal ((thr d L, SemLoc.dma cc0_scratch16.sem) : GSem nD τ sig) 0
    ∗ semVal ((thr d L, SemLoc.dma cc0_scratch17.sem) : GSem nD τ sig) 0
    ∗ semVal ((thr d L, SemLoc.dma cc0_scratch18.sem) : GSem nD τ sig) 0
    ∗ semVal ((thr d L, SemLoc.dma cc0_scratch19.sem) : GSem nD τ sig) 0
    ∗ semVal ((thr d L, SemLoc.dma cc0_scratch20.sem) : GSem nD τ sig) 0
    ∗ semVal ((thr d L, SemLoc.dma cc0_scratch21.sem) : GSem nD τ sig) 0
    ∗ semVal ((thr d L, SemLoc.dma cc0_scratch22.sem) : GSem nD τ sig) 0
    ∗ semVal ((thr d L, SemLoc.dma cc0_scratch8.sem) : GSem nD τ sig) 0
    ∗ semVal ((thr d L, SemLoc.dma cc0_scratch9.sem) : GSem nD τ sig) 0
    ∗ semVal ((thr d L, SemLoc.dma cc0_scratch10.sem) : GSem nD τ sig) 0
    ∗ semVal ((thr d L, SemLoc.dma cc0_scratch11.sem) : GSem nD τ sig) 0
    ∗ semVal ((thr d L, SemLoc.dma cc0_scratch12.sem) : GSem nD τ sig) 0
    ∗ Transfers.Flight countersEmb (thr d L) (SemLoc.dma cc0_scratch3.sem) default 163840
            iprop((((slot0).view.loc (thr d L) ↦[(slot0).view.set]{fullShare} Xg0) ∗ ((win' ![0] hgw0).view.loc (thr d L) ↦[(win' ![0] hgw0).view.set]{fullShare} I))
              ∗ ((tV).view.loc (thr d L) ↦[(tW).view.set]{q0} ft))
    ∗ ((tV).view.loc (thr d L) ↦[Finset.univ \ (tW).view.set]{q0} ft)
    ∗ Transfers.Flight countersEmb (thr d L) (SemLoc.dma cc0_scratch4.sem) default 163840
            iprop((((slot1).view.loc (thr d L) ↦[(slot1).view.set]{fullShare} Xg1) ∗ ((win' ![40] hgw1).view.loc (thr d L) ↦[(win' ![40] hgw1).view.set]{fullShare} I))
              ∗ ((tV).view.loc (thr d L) ↦[(tW).view.set]{q1} ft))
    ∗ ((tV).view.loc (thr d L) ↦[Finset.univ \ (tW).view.set]{q1} ft)
    ∗ Transfers.Flight countersEmb (thr d L) (SemLoc.dma cc0_scratch5.sem) default 163840
            iprop((((slot2).view.loc (thr d L) ↦[(slot2).view.set]{fullShare} Xg2) ∗ ((win' ![80] hgw2).view.loc (thr d L) ↦[(win' ![80] hgw2).view.set]{fullShare} I))
              ∗ ((tV).view.loc (thr d L) ↦[(tW).view.set]{q2} ft))
    ∗ ((tV).view.loc (thr d L) ↦[Finset.univ \ (tW).view.set]{q2} ft)
    ∗ Transfers.Flight countersEmb (thr d L) (SemLoc.dma cc0_scratch6.sem) default 163840
            iprop((((slot3).view.loc (thr d L) ↦[(slot3).view.set]{fullShare} Xg3) ∗ ((win' ![120] hgw3).view.loc (thr d L) ↦[(win' ![120] hgw3).view.set]{fullShare} I))
              ∗ ((tV).view.loc (thr d L) ↦[(tW).view.set]{q3} ft))
    ∗ ((tV).view.loc (thr d L) ↦[Finset.univ \ (tW).view.set]{q3} ft)
    ∗ Transfers.Flight countersEmb (thr d L) (SemLoc.dma cc0_scratch7.sem) default 163840
            iprop((((slot4).view.loc (thr d L) ↦[(slot4).view.set]{fullShare} Xg4) ∗ ((win' ![160] hgw4).view.loc (thr d L) ↦[(win' ![160] hgw4).view.set]{fullShare} I))
              ∗ ((tV).view.loc (thr d L) ↦[(tW).view.set]{q4} ft))
    ∗ ((tV).view.loc (thr d L) ↦[Finset.univ \ (tW).view.set]{q4} ft)
    ∗ ⌜(slot0).view.read (Elt F) Xg0 = Gw d L ft I ![0] hgw0⌝
    ∗ ⌜(slot1).view.read (Elt F) Xg1 = Gw d L ft I ![40] hgw1⌝
    ∗ ⌜(slot2).view.read (Elt F) Xg2 = Gw d L ft I ![80] hgw2⌝
    ∗ ⌜(slot3).view.read (Elt F) Xg3 = Gw d L ft I ![120] hgw3⌝
    ∗ ⌜(slot4).view.read (Elt F) Xg4 = Gw d L ft I ![160] hgw4⌝)

/-- After trip `k` (0 ≤ k ≤ 62), in the spelling the printed program gives that trip's rectangles. -/
def RingMid (k : Fin k0_t1_loop.trips) : sProp 𝕄 :=
  if hk : k.val ≤ 62 then
    iprop(∃ (q0 q1 q2 q3 q4 q5 : PosShare TreeShare) (Y0 Y1 Y2 Y3 Y4 Z5 Z6 Z7 Z8 X9 : Buf (Elt F) ((thr d L).loc cc0_scratch2))
        (g5 g6 g7 g8 : Buf (Elt F) ((thr d L).loc main_v2_scv)),
      ⌜ShJoin (F := F) d L q0 q1 q2 q3 q4 q5⌝
      ∗ ((tV).view.loc (thr d L) ↦{q5} ft)
      ∗ ((slot9).view.loc (thr d L) ↦[(slot9).view.set]{fullShare} X9)
      ∗ semVal ((thr d L, SemLoc.dma cc0_scratch22.sem) : GSem nD τ sig) 0
      ∗ semVal ((thr d L, SemLoc.dma cc0_scratch13.sem) : GSem nD τ sig) 0
      ∗ semVal ((thr d L, SemLoc.dma cc0_scratch14.sem) : GSem nD τ sig) 0
      ∗ semVal ((thr d L, SemLoc.dma cc0_scratch15.sem) : GSem nD τ sig) 0
      ∗ semVal ((thr d L, SemLoc.dma cc0_scratch16.sem) : GSem nD τ sig) 0
      ∗ semVal ((thr d L, SemLoc.dma cc0_scratch17.sem) : GSem nD τ sig) 0
      ∗ semVal ((thr d L, SemLoc.dma cc0_scratch8.sem) : GSem nD τ sig) 0
      ∗ semVal ((thr d L, SemLoc.dma cc0_scratch9.sem) : GSem nD τ sig) 0
      ∗ semVal ((thr d L, SemLoc.dma cc0_scratch10.sem) : GSem nD τ sig) 0
      ∗ semVal ((thr d L, SemLoc.dma cc0_scratch11.sem) : GSem nD τ sig) 0
      ∗ semVal ((thr d L, SemLoc.dma cc0_scratch12.sem) : GSem nD τ sig) 0
      ∗ Transfers.Flight countersEmb (thr d L) (SemLoc.dma cc0_scratch3.sem) default 163840
            iprop((((slot0).view.loc (thr d L) ↦[(slot0).view.set]{fullShare} Y0) ∗ ((win' (k0_off100 k) (k0_off100_inb k (c17 k hk))).view.loc (thr d L) ↦[(win' (k0_off100 k) (k0_off100_inb k (c17 k hk))).view.set]{fullShare} I))
              ∗ ((tV).view.loc (thr d L) ↦[(tW).view.set]{q0} ft))
      ∗ ((tV).view.loc (thr d L) ↦[Finset.univ \ (tW).view.set]{q0} ft)
      ∗ Transfers.Flight countersEmb (thr d L) (SemLoc.dma cc0_scratch4.sem) default 163840
            iprop((((slot1).view.loc (thr d L) ↦[(slot1).view.set]{fullShare} Y1) ∗ ((win' (k0_off119 k) (k0_off119_inb k (c20 k hk))).view.loc (thr d L) ↦[(win' (k0_off119 k) (k0_off119_inb k (c20 k hk))).view.set]{fullShare} I))
              ∗ ((tV).view.loc (thr d L) ↦[(tW).view.set]{q1} ft))
      ∗ ((tV).view.loc (thr d L) ↦[Finset.univ \ (tW).view.set]{q1} ft)
      ∗ Transfers.Flight countersEmb (thr d L) (SemLoc.dma cc0_scratch5.sem) default 163840
            iprop((((slot2).view.loc (thr d L) ↦[(slot2).view.set]{fullShare} Y2) ∗ ((win' (k0_off138 k) (k0_off138_inb k (c23 k hk))).view.loc (thr d L) ↦[(win' (k0_off138 k) (k0_off138_inb k (c23 k hk))).view.set]{fullShare} I))
              ∗ ((tV).view.loc (thr d L) ↦[(tW).view.set]{q2} ft))
      ∗ ((tV).view.loc (thr d L) ↦[Finset.univ \ (tW).view.set]{q2} ft)
      ∗ Transfers.Flight countersEmb (thr d L) (SemLoc.dma cc0_scratch6.sem) default 163840
            iprop((((slot3).view.loc (thr d L) ↦[(slot3).view.set]{fullShare} Y3) ∗ ((win' (k0_off157 k) (k0_off157_inb k (c26 k hk))).view.loc (thr d L) ↦[(win' (k0_off157 k) (k0_off157_inb k (c26 k hk))).view.set]{fullShare} I))
              ∗ ((tV).view.loc (thr d L) ↦[(tW).view.set]{q3} ft))
      ∗ ((tV).view.loc (thr d L) ↦[Finset.univ \ (tW).view.set]{q3} ft)
      ∗ Transfers.Flight countersEmb (thr d L) (SemLoc.dma cc0_scratch7.sem) default 163840
            iprop((((slot4).view.loc (thr d L) ↦[(slot4).view.set]{fullShare} Y4) ∗ ((win' (k0_off176 k) (k0_off176_inb k (c29 k hk))).view.loc (thr d L) ↦[(win' (k0_off176 k) (k0_off176_inb k (c29 k hk))).view.set]{fullShare} I))
              ∗ ((tV).view.loc (thr d L) ↦[(tW).view.set]{q4} ft))
      ∗ ((tV).view.loc (thr d L) ↦[Finset.univ \ (tW).view.set]{q4} ft)
      ∗ Transfers.Flight countersEmb (thr d L) (SemLoc.dma cc0_scratch18.sem) default 163840
            iprop(((och' (k0_off117 L k) (k0_off117_inb L k (c19 k hk))).view.loc (thr d L) ↦[(och' (k0_off117 L k) (k0_off117_inb L k (c19 k hk))).view.set]{fullShare} g5) ∗ ((slot5).view.loc (thr d L) ↦[(slot5).view.set]{fullShare} Z5))
      ∗ Transfers.Flight countersEmb (thr d L) (SemLoc.dma cc0_scratch19.sem) default 163840
            iprop(((och' (k0_off136 L k) (k0_off136_inb L k (c22 k hk))).view.loc (thr d L) ↦[(och' (k0_off136 L k) (k0_off136_inb L k (c22 k hk))).view.set]{fullShare} g6) ∗ ((slot6).view.loc (thr d L) ↦[(slot6).view.set]{fullShare} Z6))
      ∗ Transfers.Flight countersEmb (thr d L) (SemLoc.dma cc0_scratch20.sem) default 163840
            iprop(((och' (k0_off155 L k) (k0_off155_inb L k (c25 k hk))).view.loc (thr d L) ↦[(och' (k0_off155 L k) (k0_off155_inb L k (c25 k hk))).view.set]{fullShare} g7) ∗ ((slot7).view.loc (thr d L) ↦[(slot7).view.set]{fullShare} Z7))
      ∗ Transfers.Flight countersEmb (thr d L) (SemLoc.dma cc0_scratch21.sem) default 163840
            iprop(((och' (k0_off174 L k) (k0_off174_inb L k (c28 k hk))).view.loc (thr d L) ↦[(och' (k0_off174 L k) (k0_off174_inb L k (c28 k hk))).view.set]{fullShare} g8) ∗ ((slot8).view.loc (thr d L) ↦[(slot8).view.set]{fullShare} Z8))
      ∗ ⌜(slot9).view.read (Elt F) X9 = rowOp 4 P (Gw d L ft I (k0_off81 k) (k0_off81_inb k (c14 k hk)))⌝
      ∗ ⌜(slot0).view.read (Elt F) Y0 = Gw d L ft I (k0_off100 k) (k0_off100_inb k (c17 k hk))⌝
      ∗ ⌜(slot1).view.read (Elt F) Y1 = Gw d L ft I (k0_off119 k) (k0_off119_inb k (c20 k hk))⌝
      ∗ ⌜(slot2).view.read (Elt F) Y2 = Gw d L ft I (k0_off138 k) (k0_off138_inb k (c23 k hk))⌝
      ∗ ⌜(slot3).view.read (Elt F) Y3 = Gw d L ft I (k0_off157 k) (k0_off157_inb k (c26 k hk))⌝
      ∗ ⌜(slot4).view.read (Elt F) Y4 = Gw d L ft I (k0_off176 k) (k0_off176_inb k (c29 k hk))⌝
      ∗ ⌜(och' (k0_off117 L k) (k0_off117_inb L k (c19 k hk))).view.read (Elt F) g5 = rowOp 0 P (Gw d L ft I (k0_off4 k) (k0_off4_inb k (c2 k hk)))⌝
      ∗ ⌜(och' (k0_off136 L k) (k0_off136_inb L k (c22 k hk))).view.read (Elt F) g6 = rowOp 1 P (Gw d L ft I (k0_off24 k) (k0_off24_inb k (c5 k hk)))⌝
      ∗ ⌜(och' (k0_off155 L k) (k0_off155_inb L k (c25 k hk))).view.read (Elt F) g7 = rowOp 2 P (Gw d L ft I (k0_off43 k) (k0_off43_inb k (c8 k hk)))⌝
      ∗ ⌜(och' (k0_off174 L k) (k0_off174_inb L k (c28 k hk))).view.read (Elt F) g8 = rowOp 3 P (Gw d L ft I (k0_off62 k) (k0_off62_inb k (c11 k hk)))⌝)
  else iprop(False)

/-- After the last trip. -/
def RingEnd : sProp 𝕄 :=
  iprop(∃ (q0 q1 q2 q3 q4 q5 : PosShare TreeShare) (Z0 Z1 Z2 Z3 Z4 Z5 Z6 Z7 Z8 X9 : Buf (Elt F) ((thr d L).loc cc0_scratch2))
      (g0 g1 g2 g3 g4 g5 g6 g7 g8 : Buf (Elt F) ((thr d L).loc main_v2_scv)),
    ⌜ShJoin (F := F) d L q0 q1 q2 q3 q4 q5⌝
    ∗ ((tV).view.loc (thr d L) ↦{q0} ft)
    ∗ ((tV).view.loc (thr d L) ↦{q1} ft)
    ∗ ((tV).view.loc (thr d L) ↦{q2} ft)
    ∗ ((tV).view.loc (thr d L) ↦{q3} ft)
    ∗ ((tV).view.loc (thr d L) ↦{q4} ft)
    ∗ ((tV).view.loc (thr d L) ↦{q5} ft)
    ∗ ((slot9).view.loc (thr d L) ↦[(slot9).view.set]{fullShare} X9)
    ∗ semVal ((thr d L, SemLoc.dma cc0_scratch22.sem) : GSem nD τ sig) 0
    ∗ semVal ((thr d L, SemLoc.dma cc0_scratch3.sem) : GSem nD τ sig) 0
    ∗ semVal ((thr d L, SemLoc.dma cc0_scratch4.sem) : GSem nD τ sig) 0
    ∗ semVal ((thr d L, SemLoc.dma cc0_scratch5.sem) : GSem nD τ sig) 0
    ∗ semVal ((thr d L, SemLoc.dma cc0_scratch6.sem) : GSem nD τ sig) 0
    ∗ semVal ((thr d L, SemLoc.dma cc0_scratch7.sem) : GSem nD τ sig) 0
    ∗ semVal ((thr d L, SemLoc.dma cc0_scratch8.sem) : GSem nD τ sig) 0
    ∗ semVal ((thr d L, SemLoc.dma cc0_scratch9.sem) : GSem nD τ sig) 0
    ∗ semVal ((thr d L, SemLoc.dma cc0_scratch10.sem) : GSem nD τ sig) 0
    ∗ semVal ((thr d L, SemLoc.dma cc0_scratch11.sem) : GSem nD τ sig) 0
    ∗ semVal ((thr d L, SemLoc.dma cc0_scratch12.sem) : GSem nD τ sig) 0
    ∗ Transfers.Flight countersEmb (thr d L) (SemLoc.dma cc0_scratch13.sem) default 163840
            iprop(((och' (k0_off22 L k63) (k0_off22_inb L k63 (e4 k63 rfl))).view.loc (thr d L) ↦[(och' (k0_off22 L k63) (k0_off22_inb L k63 (e4 k63 rfl))).view.set]{fullShare} g0) ∗ ((slot0).view.loc (thr d L) ↦[(slot0).view.set]{fullShare} Z0))
    ∗ Transfers.Flight countersEmb (thr d L) (SemLoc.dma cc0_scratch14.sem) default 163840
            iprop(((och' (k0_off41 L k63) (k0_off41_inb L k63 (e7 k63 rfl))).view.loc (thr d L) ↦[(och' (k0_off41 L k63) (k0_off41_inb L k63 (e7 k63 rfl))).view.set]{fullShare} g1) ∗ ((slot1).view.loc (thr d L) ↦[(slot1).view.set]{fullShare} Z1))
    ∗ Transfers.Flight countersEmb (thr d L) (SemLoc.dma cc0_scratch15.sem) default 163840
            iprop(((och' (k0_off60 L k63) (k0_off60_inb L k63 (e10 k63 rfl))).view.loc (thr d L) ↦[(och' (k0_off60 L k63) (k0_off60_inb L k63 (e10 k63 rfl))).view.set]{fullShare} g2) ∗ ((slot2).view.loc (thr d L) ↦[(slot2).view.set]{fullShare} Z2))
    ∗ Transfers.Flight countersEmb (thr d L) (SemLoc.dma cc0_scratch16.sem) default 163840
            iprop(((och' (k0_off79 L k63) (k0_off79_inb L k63 (e13 k63 rfl))).view.loc (thr d L) ↦[(och' (k0_off79 L k63) (k0_off79_inb L k63 (e13 k63 rfl))).view.set]{fullShare} g3) ∗ ((slot3).view.loc (thr d L) ↦[(slot3).view.set]{fullShare} Z3))
    ∗ Transfers.Flight countersEmb (thr d L) (SemLoc.dma cc0_scratch17.sem) default 163840
            iprop(((och' (k0_off98 L k63) (k0_off98_inb L k63 (e16 k63 rfl))).view.loc (thr d L) ↦[(och' (k0_off98 L k63) (k0_off98_inb L k63 (e16 k63 rfl))).view.set]{fullShare} g4) ∗ ((slot4).view.loc (thr d L) ↦[(slot4).view.set]{fullShare} Z4))
    ∗ Transfers.Flight countersEmb (thr d L) (SemLoc.dma cc0_scratch18.sem) default 163840
            iprop(((och' (k0_off117 L k63) (k0_off117_inb L k63 (e19 k63 rfl))).view.loc (thr d L) ↦[(och' (k0_off117 L k63) (k0_off117_inb L k63 (e19 k63 rfl))).view.set]{fullShare} g5) ∗ ((slot5).view.loc (thr d L) ↦[(slot5).view.set]{fullShare} Z5))
    ∗ Transfers.Flight countersEmb (thr d L) (SemLoc.dma cc0_scratch19.sem) default 163840
            iprop(((och' (k0_off136 L k63) (k0_off136_inb L k63 (e22 k63 rfl))).view.loc (thr d L) ↦[(och' (k0_off136 L k63) (k0_off136_inb L k63 (e22 k63 rfl))).view.set]{fullShare} g6) ∗ ((slot6).view.loc (thr d L) ↦[(slot6).view.set]{fullShare} Z6))
    ∗ Transfers.Flight countersEmb (thr d L) (SemLoc.dma cc0_scratch20.sem) default 163840
            iprop(((och' (k0_off155 L k63) (k0_off155_inb L k63 (e25 k63 rfl))).view.loc (thr d L) ↦[(och' (k0_off155 L k63) (k0_off155_inb L k63 (e25 k63 rfl))).view.set]{fullShare} g7) ∗ ((slot7).view.loc (thr d L) ↦[(slot7).view.set]{fullShare} Z7))
    ∗ Transfers.Flight countersEmb (thr d L) (SemLoc.dma cc0_scratch21.sem) default 163840
            iprop(((och' (k0_off174 L k63) (k0_off174_inb L k63 (e28 k63 rfl))).view.loc (thr d L) ↦[(och' (k0_off174 L k63) (k0_off174_inb L k63 (e28 k63 rfl))).view.set]{fullShare} g8) ∗ ((slot8).view.loc (thr d L) ↦[(slot8).view.set]{fullShare} Z8))
    ∗ ⌜(slot9).view.read (Elt F) X9 = rowOp 4 P (Gw d L ft I (k0_off81 k63) (k0_off81_inb k63 (e14 k63 rfl)))⌝
    ∗ ⌜(och' (k0_off22 L k63) (k0_off22_inb L k63 (e4 k63 rfl))).view.read (Elt F) g0 = rowOp 0 P (Gw d L ft I (k0_off100 k62) (k0_off100_inb k62 (c17 k62 (by decide))))⌝
    ∗ ⌜(och' (k0_off41 L k63) (k0_off41_inb L k63 (e7 k63 rfl))).view.read (Elt F) g1 = rowOp 1 P (Gw d L ft I (k0_off119 k62) (k0_off119_inb k62 (c20 k62 (by decide))))⌝
    ∗ ⌜(och' (k0_off60 L k63) (k0_off60_inb L k63 (e10 k63 rfl))).view.read (Elt F) g2 = rowOp 2 P (Gw d L ft I (k0_off138 k62) (k0_off138_inb k62 (c23 k62 (by decide))))⌝
    ∗ ⌜(och' (k0_off79 L k63) (k0_off79_inb L k63 (e13 k63 rfl))).view.read (Elt F) g3 = rowOp 3 P (Gw d L ft I (k0_off157 k62) (k0_off157_inb k62 (c26 k62 (by decide))))⌝
    ∗ ⌜(och' (k0_off98 L k63) (k0_off98_inb L k63 (e16 k63 rfl))).view.read (Elt F) g4 = rowOp 4 P (Gw d L ft I (k0_off176 k62) (k0_off176_inb k62 (c29 k62 (by decide))))⌝
    ∗ ⌜(och' (k0_off117 L k63) (k0_off117_inb L k63 (e19 k63 rfl))).view.read (Elt F) g5 = rowOp 0 P (Gw d L ft I (k0_off4 k63) (k0_off4_inb k63 (e2 k63 rfl)))⌝
    ∗ ⌜(och' (k0_off136 L k63) (k0_off136_inb L k63 (e22 k63 rfl))).view.read (Elt F) g6 = rowOp 1 P (Gw d L ft I (k0_off24 k63) (k0_off24_inb k63 (e5 k63 rfl)))⌝
    ∗ ⌜(och' (k0_off155 L k63) (k0_off155_inb L k63 (e25 k63 rfl))).view.read (Elt F) g7 = rowOp 2 P (Gw d L ft I (k0_off43 k63) (k0_off43_inb k63 (e8 k63 rfl)))⌝
    ∗ ⌜(och' (k0_off174 L k63) (k0_off174_inb L k63 (e28 k63 rfl))).view.read (Elt F) g8 = rowOp 3 P (Gw d L ft I (k0_off62 k63) (k0_off62_inb k63 (e11 k63 rfl)))⌝)

variable (O : CellTallies nD τ sig (HIx 1)) (W : Waits sig (HIx 1)) (fo fd : Buf (Elt F) ((thr d L).loc main_v2_scv))

/-- The loop's invariant before trip `k`. -/
def Inv (k : ℕ) (_ : Unit) : sProp 𝕄 :=
  iprop(∃ W' : Waits sig (HIx 1), levAts (K (F := F)).L (K (F := F)).lev ∗ owes (thr d L) O W' ∗ ⌜∀ p ∈ W', p ∈ W ∨ p.2 = none⌝
    ∗ ((s6).view.loc (thr d L) ↦{fullShare} P)
    ∗ (if k = 0 then iprop(Books d L I fo fd 0 5 0 0 ∗ Ring0 d L ft I)
       else if k ≤ 63 then iprop(Books d L I fo fd (10 * k) (10 * k + 5) (10 * k - 5) (10 * k - 1)
          ∗ ∃ k' : Fin k0_t1_loop.trips, ⌜k'.val + 1 = k⌝ ∗ RingMid d L ft I P k')
       else iprop(Books d L I fo fd 640 640 630 639 ∗ RingEnd d L ft I P)))
end

end Cert.Proof.KI
end
-- ==== Proof.KIPre.lean ====
/-
  Getting ready for a tile's task: the input arrays as the tile's memrefs address them, and the tile's read share of
  the embedding table cut in six (five gathers and a sixth starting are in flight at once, each holding a share).
-/
import proofs.«206279_g3710851744293_cont_8to1_b_253_31_alg».proof.Proof.KIRing
import proofs.«206279_g3710851744293_cont_8to1_b_253_31_alg».proof.Proof.KIOwn
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

open Idealize.ShloMosaic.Transfers (shareTok)

omit [FloatOps F] in
theorem pts_i (d : Dev nD) (L : grid0.Coords) (q : PosShare TreeShare) (f : Buf (Elt F) (iLoc d)) :
    (((iV).view.loc (thr d L) ↦{q} f) : sProp 𝕄) = (iLoc d ↦{q} f) := by
  simp only [Memref.view_whole, View.set_whole]
omit [FloatOps F] in
theorem pts_p (d : Dev nD) (L : grid0.Coords) (q : PosShare TreeShare) (f : Buf (Elt F) (pLoc d)) :
    (((peV).view.loc (thr d L) ↦{q} f) : sProp 𝕄) = (pLoc d ↦{q} f) := by
  simp only [Memref.view_whole, View.set_whole]
omit [FloatOps F] in
theorem pts_t (d : Dev nD) (L : grid0.Coords) (q : PosShare TreeShare) (f : Buf (Elt F) (tLoc d)) :
    (((tV).view.loc (thr d L) ↦{q} f) : sProp 𝕄) = (tLoc d ↦{q} f) := by
  simp only [Memref.view_whole, View.set_whole]

/-- The six shares: the token halved five times, the right half kept each time, and what is left. -/
def sh (w : Fin 32) : ℕ → PosShare TreeShare
  | 0 => tok w
  | n + 1 => (sh w n).left
abbrev tq (w : Fin 32) (j : ℕ) : PosShare TreeShare := (sh w j).right

omit [FloatOps F] in
theorem share_step (d : Dev nD) (L : grid0.Coords) (ft : Buf (Elt F) ((thr d L).loc main_arg1_scv)) (n : ℕ) :
    (((tV).view.loc (thr d L) ↦{sh (wid L) n} ft) : sProp 𝕄)
      ⊣⊢ iprop(((tV).view.loc (thr d L) ↦{sh (wid L) (n + 1)} ft) ∗ ((tV).view.loc (thr d L) ↦{tq (wid L) n} ft)) :=
  pointsTo_share (PosShare.mem_left_op_right _)

omit [FloatOps F] in
theorem table_split (d : Dev nD) (L : grid0.Coords) (ft : Buf (Elt F) ((thr d L).loc main_arg1_scv)) :
    (((tV).view.loc (thr d L) ↦{tok (wid L)} ft) : sProp 𝕄)
      ⊢ iprop(((tV).view.loc (thr d L) ↦{tq (wid L) 0} ft) ∗ ((tV).view.loc (thr d L) ↦{tq (wid L) 1} ft)
        ∗ ((tV).view.loc (thr d L) ↦{tq (wid L) 2} ft) ∗ ((tV).view.loc (thr d L) ↦{tq (wid L) 3} ft)
        ∗ ((tV).view.loc (thr d L) ↦{tq (wid L) 4} ft) ∗ ((tV).view.loc (thr d L) ↦{sh (wid L) 5} ft)) := by
  show (((tV).view.loc (thr d L) ↦{sh (wid L) 0} ft) : sProp 𝕄) ⊢ _
  iintro H
  ihave H := (share_step d L ft 0).1 $$ H
  icases H with ⟨H, H0⟩
  ihave H := (share_step d L ft 1).1 $$ H
  icases H with ⟨H, H1⟩
  ihave H := (share_step d L ft 2).1 $$ H
  icases H with ⟨H, H2⟩
  ihave H := (share_step d L ft 3).1 $$ H
  icases H with ⟨H, H3⟩
  ihave H := (share_step d L ft 4).1 $$ H
  icases H with ⟨H, H4⟩
  isplitl [H0]; · iexact H0
  isplitl [H1]; · iexact H1
  isplitl [H2]; · iexact H2
  isplitl [H3]; · iexact H3
  isplitl [H4]; · iexact H4
  iexact H

omit [FloatOps F] in
theorem table_join (d : Dev nD) (L : grid0.Coords) :
    ShJoin (F := F) d L (tq (wid L) 0) (tq (wid L) 1) (tq (wid L) 2) (tq (wid L) 3) (tq (wid L) 4) (sh (wid L) 5) := by
  intro ft
  show _ ⊢ (((tV).view.loc (thr d L) ↦{sh (wid L) 0} ft) : sProp 𝕄)
  iintro ⟨H0, H1, H2, H3, H4, H⟩
  ihave H := (share_step d L ft 4).2 $$ [H H4]
  · isplitl [H] <;> iassumption
  ihave H := (share_step d L ft 3).2 $$ [H H3]
  · isplitl [H] <;> iassumption
  ihave H := (share_step d L ft 2).2 $$ [H H2]
  · isplitl [H] <;> iassumption
  ihave H := (share_step d L ft 1).2 $$ [H H1]
  · isplitl [H] <;> iassumption
  ihave H := (share_step d L ft 0).2 $$ [H H0]
  · isplitl [H] <;> iassumption
  iexact H

/-- The shares in any other order join as well (sep is commutative): the order the loop leaves them in. -/
theorem ShJoin.rot {d : Dev nD} {L : grid0.Coords} {q0 q1 q2 q3 q4 q5 : PosShare TreeShare}
    (h : ShJoin (F := F) d L q0 q1 q2 q3 q4 q5) : ShJoin (F := F) d L q4 q5 q0 q1 q2 q3 := by
  intro ft
  refine BIBase.Entails.trans ?_ (h ft)
  iintro ⟨H4, H5, H0, H1, H2, H3⟩
  isplitl [H0]; · iexact H0
  isplitl [H1]; · iexact H1
  isplitl [H2]; · iexact H2
  isplitl [H3]; · iexact H3
  isplitl [H4]; · iexact H4
  iexact H5

end Cert.Proof.KI
end
-- ==== Proof.KIChunk.lean ====
/-
  From what a tile's task leaves in a chunk of the result to the specification.

  A chunk of forty positions of one batch row, read through its view, is row by row the gathered table rows scaled by
  the constant plus the positional rows of the chunk's block of forty.  The index words the gather read are the
  tile's 25600 words of the flattened index array, and the positional scratch holds the positional table; so element
  (b, s, l) of the chunk is the specification's: the table row named by index word 200 b + s, scaled, plus
  positional row s.
-/
import proofs.«206279_g3710851744293_cont_8to1_b_253_31_alg».proof.Proof.KIVal
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

open Idealize.ShloMosaic.ValueIdx

/-! ## The views' placements, by coordinates -/

/-- The chunk view places (row, lane) of the chunk at (batch row, first position + row, lane) of the result. -/
theorem och'_emb_val (off3 : Fin 3 → ℕ) (h3 : ∀ a, off3 a + S1x40x128.size a ≤ S4096x200x128.size a) (y : S40x128.Idx) :
    (((och' off3 h3).view.emb y : S4096x200x128.Idx) 0).val = off3 0
      ∧ (((och' off3 h3).view.emb y : S4096x200x128.Idx) 1).val = off3 1 + (y 0).val
      ∧ (((och' off3 h3).view.emb y : S4096x200x128.Idx) 2).val = off3 2 + (y 1).val := by
  have hre : Shape.reshapeEquiv squeezes_S1x40x128_S40x128.numel_eq y = ix3 (n0 := 1) (n1 := 40) (n2 := 128) 0 (y 0) (y 1) :=
    Shape.reshapeEquiv_eq_of_rowMajor _ (by
      rw [Shape.rowMajor_val_three, Shape.rowMajor_val_two]
      show ((0 : ℕ) * 40 + (y 0).val) * 128 + (y 1).val = (y 0).val * 128 + (y 1).val
      omega)
  have hemb : ((och' off3 h3).view.emb y : S4096x200x128.Idx)
      = (Rect.unit (s := S4096x200x128) off3 S1x40x128.size h3).emb (ix3 (n0 := 1) (n1 := 40) (n2 := 128) 0 (y 0) (y 1)) := by
    rw [← hre]; rfl
  rw [hemb]
  refine ⟨?_, ?_, ?_⟩
  · show off3 0 + 1 * 0 = off3 0
    omega
  · show off3 1 + 1 * (y 0).val = off3 1 + (y 0).val
    omega
  · show off3 2 + 1 * (y 1).val = off3 2 + (y 1).val
    omega

/-- The window view places word r of the window at word (offset + r) of the index buffer. -/
theorem win'_emb_val (off1 : Fin 1 → ℕ) (h1 : ∀ a, off1 a + S40.size a ≤ S25600.size a) (x : S40.Idx) :
    (((win' off1 h1).view.emb x : S25600.Idx) 0).val = off1 0 + (x 0).val := by
  show off1 0 + 1 * (x 0).val = off1 0 + (x 0).val
  omega

/-! ## One element of a chunk -/

/-- The specification's element, stated so that the index word, the lane and the positional word can each be replaced
    by an equal one. -/
theorem elt_congr (ft : S100000x128.Idx → F .f32) {w w' : BitVec 32} {l l' : Fin 128} {a b : F .f32}
    (hw : w = w') (hl : l = l') (hab : a = b) :
    FloatOps.addf (FloatOps.mulf (ft (ix2 (n0 := 100000) (n1 := 128) (Cert.Spec.rowOf w) l)) (FloatOps.ofBits .f32 0x413504F3#32)) a
      = FloatOps.addf (FloatOps.mulf (ft (ix2 (n0 := 100000) (n1 := 128) (Cert.Spec.rowOf w') l')) (FloatOps.ofBits .f32 0x413504F3#32)) b := by
  subst hw; subst hl; subst hab; rfl

/-- A word of a rank-one array is named by its position alone. -/
theorem ix1_congr {n : ℕ} {α : Type} (g : (⟨1, ![n]⟩ : Shape).Idx → α) {i j : (⟨1, ![n]⟩ : Shape).Idx} (h : (i 0).val = (j 0).val) : g i = g j := by
  congr 1
  funext a
  obtain rfl : a = 0 := Subsingleton.elim _ _
  exact Fin.ext h

/-- A word of a rank-two array is named by its two coordinates alone. -/
theorem ix2_congr {n0 n1 : ℕ} {α : Type} (g : (⟨2, ![n0, n1]⟩ : Shape).Idx → α) {i j : (⟨2, ![n0, n1]⟩ : Shape).Idx}
    (h0 : (i 0).val = (j 0).val) (h1 : (i 1).val = (j 1).val) : g i = g j := by
  congr 1
  funext a
  match a with
  | ⟨0, _⟩ => exact Fin.ext h0
  | ⟨1, _⟩ => exact Fin.ext h1

/-- THE CHUNK'S VALUE IS THE SPECIFICATION'S: a chunk that holds the row operation of its gathered rows holds the
    specification's function on its elements. -/
theorem chunk_to_GK (d : Dev nD) (L : grid0.Coords) (fi : Buf (Elt F) (iLoc d)) (fp : Buf (Elt F) (pLoc d)) (ft : Buf (Elt F) (tLoc d))
    (I : Buf (Elt F) ((thr d L).loc cc0_scratch1)) (P : Buf (Elt F) ((thr d L).loc cc0_scratch0))
    (hI : ∀ j : Fin 25600, I (ix1 (n := 25600) j) = fi (ix1 (n := 819200) ⟨25600 * (wid L).val + j.val, by
      have := (wid L).isLt; have := j.isLt; omega⟩))
    (hP : ∀ y : S200x128.Idx, P y = fp y)
    (off3 : Fin 3 → ℕ) (h3 : ∀ a, off3 a + S1x40x128.size a ≤ S4096x200x128.size a)
    (off1 : Fin 1 → ℕ) (h1 : ∀ a, off1 a + S40.size a ≤ S25600.size a) (hh : Fin 5)
    (hrow : b0 L ≤ off3 0) (hoff : off1 0 = 200 * (off3 0 - b0 L) + off3 1) (hcol : off3 1 = 40 * hh.val) (hz : off3 2 = 0)
    (f : Buf (Elt F) ((thr d L).loc main_v2_scv))
    (hf : (och' off3 h3).view.read (Elt F) f = rowOp hh P (Gw d L ft I off1 h1)) :
    (((och' off3 h3).view.loc (thr d L) ↦[(och' off3 h3).view.set]{fullShare} f) : sProp 𝕄)
      ⊢ ((och' off3 h3).view.loc (thr d L) ↦[(och' off3 h3).view.set]{fullShare} GK fi fp ft) := by
  refine Entails.of_eq (pointsTo_congr fun i hi => ?_)
  obtain ⟨y, -, rfl⟩ := Finset.mem_map.mp hi
  have hfy : f ((och' off3 h3).view.emb y) = rowOp hh P (Gw d L ft I off1 h1) y := congrFun hf y
  refine hfy.trans ?_
  obtain ⟨e0, e1, e2⟩ := och'_emb_val off3 h3 y
  have hb := b0_eq L
  have hw := (wid L).isLt
  have hy0 : (y 0).val < 40 := (y 0).isLt
  have h1' : off1 0 + 40 ≤ 25600 := h1 0
  -- the index word the gather read is the specification's
  have hA : (win' off1 h1).view.read (Elt F) I (ix1 (n := 40) (y 0))
      = fi (ix1 (n := 819200) ⟨200 * (((och' off3 h3).view.emb y : S4096x200x128.Idx) 0).val + (((och' off3 h3).view.emb y : S4096x200x128.Idx) 1).val, by
          have hi0 : (((och' off3 h3).view.emb y : S4096x200x128.Idx) 0).val < 4096 := (((och' off3 h3).view.emb y : S4096x200x128.Idx) 0).isLt
          have hi1 : (((och' off3 h3).view.emb y : S4096x200x128.Idx) 1).val < 200 := (((och' off3 h3).view.emb y : S4096x200x128.Idx) 1).isLt
          omega⟩) := by
    have hr : (win' off1 h1).view.read (Elt F) I (ix1 (n := 40) (y 0)) = I ((win' off1 h1).view.emb (ix1 (n := 40) (y 0))) := rfl
    rw [hr]
    have hj : off1 0 + (y 0).val < 25600 := by omega
    refine (ix1_congr (n := 25600) I (j := ix1 (n := 25600) ⟨off1 0 + (y 0).val, hj⟩) (win'_emb_val off1 h1 _)).trans ?_
    rw [hI ⟨off1 0 + (y 0).val, hj⟩]
    refine ix1_congr (n := 819200) fi ?_
    show 25600 * (wid L).val + (off1 0 + (y 0).val) = 200 * _ + _
    rw [e0, e1]
    omega
  -- the lane
  have hB : (y 1) = (((och' off3 h3).view.emb y : S4096x200x128.Idx) 2) := Fin.ext (by rw [e2, hz]; omega)
  -- the positional word
  have hC : P (ix2 (n0 := 200) (n1 := 128) ⟨(y 0).val + 40 * hh.val, by have := hh.isLt; omega⟩ (y 1))
      = fp (ix2 (n0 := 200) (n1 := 128) (((och' off3 h3).view.emb y : S4096x200x128.Idx) 1) (((och' off3 h3).view.emb y : S4096x200x128.Idx) 2)) := by
    rw [hP]
    refine ix2_congr (n0 := 200) (n1 := 128) fp ?_ ?_
    · show (y 0).val + 40 * hh.val = _
      rw [e1, hcol]; omega
    · show (y 1).val = _
      rw [e2, hz]; omega
  exact elt_congr ft hA hB hC

/-! ## The two copies at the start of the task -/

/-- After the copy of the whole positional table, the positional scratch holds the table. -/
theorem pe_copy (d : Dev nD) (L : grid0.Coords) (f6 : Buf (Elt F) ((thr d L).loc cc0_scratch0))
    (fp : Buf (Elt F) ((thr d L).loc main_v1_scv)) :
    View.write (Elt F) (s6).view f6 (ReadAs.same.apply (View.read (Elt F) (peV).view fp)) Finset.univ = fp :=
  View.write_whole_univ cc0_scratch0 f6 _

/-- After the copy of the tile's 25600 words of the flattened index array, word j of the index scratch is word
    25600 w + j of the array, w the tile's number. -/
theorem idx_copy (d : Dev nD) (L : grid0.Coords) (f7 : Buf (Elt F) ((thr d L).loc cc0_scratch1))
    (fi : Buf (Elt F) ((thr d L).loc main_v0_scv)) :
    ∀ j : Fin 25600,
      (View.write (Elt F) (s7).view f7
        (ReadAs.same.apply (View.read (Elt F)
          ((iV).slice (Rect.unit (s := S819200) (k0_off1 L) S25600.size (k0_off1_inb L)) (fun _ => rfl)).view fi)) Finset.univ)
          (ix1 (n := 25600) j)
        = fi (ix1 (n := 819200) ⟨25600 * (wid L).val + j.val, by
            have := (wid L).isLt; have := j.isLt; omega⟩) := by
  intro j
  refine (congrFun (View.write_whole_univ cc0_scratch1 f7 _) (ix1 (n := 25600) j)).trans ?_
  show fi (((iV).slice (Rect.unit (s := S819200) (k0_off1 L) S25600.size (k0_off1_inb L)) (fun _ => rfl)).view.emb (ix1 (n := 25600) j)) = _
  refine ix1_congr (n := 819200) fi ?_
  show k0_off1 L 0 + 1 * j.val = 25600 * (wid L).val + j.val
  rw [k0_off1_eq L]
  show 51200 * (L 1).val + 25600 * (L 0).val + 1 * j.val = 25600 * (2 * (L 1).val + (L 0).val) + j.val
  omega

end Cert.Proof.KI
end
-- ==== Proof.KIValLemmas.lean ====
/-
  Pure facts about what a trip's transfers deliver: a gather through a window of index words lands the forty table
  rows those words name; a copy of a slot lands what the slot reads.
-/
import proofs.«206279_g3710851744293_cont_8to1_b_253_31_alg».proof.Proof.KIVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type} [FloatOps F]

local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-- The table's row block a window of forty index words names, as the gather lands it: row r of the payload is the
    table's row named by word r of the window (every word below 100000 names the row of its own value). -/
theorem gather_eq_Gw (d : Dev nD) (L : grid0.Coords) (ft : Buf (Elt F) ((thr d L).loc main_arg1_scv)) (I : Buf (Elt F) ((thr d L).loc cc0_scratch1))
    (off : Fin 1 → ℕ) (h : ∀ a, off a + S40.size a ≤ S25600.size a)
    (hn : S40.numel = S40x128.size (gathers_S100000x128_S40x128).axis')
    (hin : ∀ x, ((win' off h).view.read (Elt F) I x).toNat < S100000x128.size (gathers_S100000x128_S40x128).axis) :
    SparseCore.gatherPayload gathers_S100000x128_S40x128 ((tW).view.read (Elt F) ft)
        (SparseCore.rows ((win' off h).view.read (Elt F) I) hn hin) = Gw d L ft I off h := by
  funext y
  unfold SparseCore.gatherPayload Gw
  rw [View.read_apply]
  show ft _ = ft _
  have hz : ∀ z : S100000x128.Idx, (tW).view.emb z = z := fun z => by
    funext a; apply Fin.ext
    show (![0, 0] : Fin 2 → ℕ) a + 1 * (z a).val = (z a).val
    match a with
    | ⟨0, _⟩ => show 0 + 1 * (z 0).val = (z 0).val; omega
    | ⟨1, _⟩ => show 0 + 1 * (z 1).val = (z 1).val; omega
  rw [hz]
  refine congrArg ft (funext fun a => Fin.ext ?_)
  match a with
  | ⟨0, _⟩ =>
    show ((gathers_S100000x128_S40x128).idx (SparseCore.rows ((win' off h).view.read (Elt F) I) hn hin) y (gathers_S100000x128_S40x128).axis).val
      = (Cert.Spec.rowOf ((win' off h).view.read (Elt F) I (ix1 (n := 40) (y 0)))).val
    rw [Shape.Gathers.idx_axis, Cert.Spec.rowOf_val_of_lt (hin _)]
    show ((win' off h).view.read (Elt F) I (S40.rowMajor.symm ((y (gathers_S100000x128_S40x128).axis').cast hn.symm))).toNat
      = ((win' off h).view.read (Elt F) I (ix1 (n := 40) (y 0))).toNat
    have e : S40.rowMajor.symm ((y (gathers_S100000x128_S40x128).axis').cast hn.symm) = ix1 (n := 40) (y 0) :=
      (Equiv.symm_apply_eq _).mpr (Fin.ext (by rw [Shape.rowMajor_val_one]; rfl))
    rw [e]
  | ⟨1, _⟩ =>
    exact Shape.Gathers.idx_of_ne (gathers_S100000x128_S40x128) _ y ⟨1, by decide⟩ (by decide)

end Cert.Proof.KI

end
-- ==== Proof.KIJoin.lean ====
/-
  The ten slots back into the row buffer.

  Ten slots held at ten different contents are the row buffer held at some contents: the slots' element sets are the
  ten parts of the buffer's first axis, pairwise disjoint and covering it, and contents given part by part are the
  parts of one function on the whole.
-/
import proofs.«206279_g3710851744293_cont_8to1_b_253_31_alg».proof.Proof.KISplit
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-- THE TEN SLOTS JOIN INTO THE ROW BUFFER, whatever each holds. -/
theorem slots_join (d : Dev nD) (L : grid0.Coords) :
    (iprop((∃ f, (slot0).view.loc (thr d L) ↦[(slot0).view.set]{fullShare} f)
        ∗ (∃ f, (slot1).view.loc (thr d L) ↦[(slot1).view.set]{fullShare} f)
        ∗ (∃ f, (slot2).view.loc (thr d L) ↦[(slot2).view.set]{fullShare} f)
        ∗ (∃ f, (slot3).view.loc (thr d L) ↦[(slot3).view.set]{fullShare} f)
        ∗ (∃ f, (slot4).view.loc (thr d L) ↦[(slot4).view.set]{fullShare} f)
        ∗ (∃ f, (slot5).view.loc (thr d L) ↦[(slot5).view.set]{fullShare} f)
        ∗ (∃ f, (slot6).view.loc (thr d L) ↦[(slot6).view.set]{fullShare} f)
        ∗ (∃ f, (slot7).view.loc (thr d L) ↦[(slot7).view.set]{fullShare} f)
        ∗ (∃ f, (slot8).view.loc (thr d L) ↦[(slot8).view.set]{fullShare} f)
        ∗ (∃ f, (slot9).view.loc (thr d L) ↦[(slot9).view.set]{fullShare} f)) : sProp 𝕄)
      ⊢ iprop(∃ f, (s8).view.loc (thr d L) ↦{fullShare} f) := by
  let Ψ : Fin 10 → sProp 𝕄 := fun j =>
    iprop(∃ f, (thr d L).loc cc0_scratch2 ↦[(Rect.part (s := S10x40x128) (a₀ := 0) h10 j).set]{fullShare} f)
  have e : (iprop((∃ f, (slot0).view.loc (thr d L) ↦[(slot0).view.set]{fullShare} f)
        ∗ (∃ f, (slot1).view.loc (thr d L) ↦[(slot1).view.set]{fullShare} f)
        ∗ (∃ f, (slot2).view.loc (thr d L) ↦[(slot2).view.set]{fullShare} f)
        ∗ (∃ f, (slot3).view.loc (thr d L) ↦[(slot3).view.set]{fullShare} f)
        ∗ (∃ f, (slot4).view.loc (thr d L) ↦[(slot4).view.set]{fullShare} f)
        ∗ (∃ f, (slot5).view.loc (thr d L) ↦[(slot5).view.set]{fullShare} f)
        ∗ (∃ f, (slot6).view.loc (thr d L) ↦[(slot6).view.set]{fullShare} f)
        ∗ (∃ f, (slot7).view.loc (thr d L) ↦[(slot7).view.set]{fullShare} f)
        ∗ (∃ f, (slot8).view.loc (thr d L) ↦[(slot8).view.set]{fullShare} f)
        ∗ (∃ f, (slot9).view.loc (thr d L) ↦[(slot9).view.set]{fullShare} f)) : sProp 𝕄) = bigSep Finset.univ Ψ := by
    rw [bigSep_univ_fin, slot0_set, slot1_set, slot2_set, slot3_set, slot4_set, slot5_set, slot6_set, slot7_set, slot8_set, slot9_set]
    exact (sepL_snoc_emp [Ψ 0, Ψ 1, Ψ 2, Ψ 3, Ψ 4, Ψ 5, Ψ 6, Ψ 7, Ψ 8] (Ψ 9)).symm
  refine (Entails.of_eq e).trans ?_
  refine (bigSep_exists_pi Finset.univ (fun (j : Fin 10) (f : Buf (Elt F) ((thr d L).loc cc0_scratch2)) =>
    ((thr d L).loc cc0_scratch2 ↦[(Rect.part (s := S10x40x128) (a₀ := 0) h10 j).set]{fullShare} f : sProp 𝕄))).trans ?_
  iintro ⟨%fs, H⟩
  ihave H' := (pointsTo_biUnion_join Finset.univ (fun j : Fin 10 => (Rect.part (s := S10x40x128) (a₀ := 0) h10 j).set) fs (fs 0)
    (fun i _ j _ h => Rect.part_disjoint h10 h)) $$ H
  icases H' with ⟨%g, -, Hg⟩
  rw [Rect.biUnion_part h10]
  iexists g; iexact Hg

end Cert.Proof.KI
end
-- ==== Proof.KIBooksLemmas.lean ====
/-
  The books around one trip of the main loop: ten windows and ten chunks leave the books in the spelling the program
  uses for them at that trip, and ten of each come back.  Every step takes the least element out of a final segment
  of the chunk numbers, or puts the next element into an initial segment, and respells the piece by an offset equation.
-/
import proofs.«206279_g3710851744293_cont_8to1_b_253_31_alg».proof.Proof.KIBooks
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-! ## One spelling of a held piece for another -/

/-- On a trip where the first phase's write-out is waited for, its chunk is the last of the batch row before the trip's first. -/
theorem k0_off2_eq' : ∀ (L : grid0.Coords) (k : Fin k0_t1_loop.trips), k0_cond1 k = 1#1 →
    k0_off2 L k = ![256 * (L 1).val + 128 * (L 0).val + 2 * k.val - 1, 160, 0] := by decide +kernel

/-- Window `q` of the books is the window the program names by any offset equal to `40 q`. -/
theorem Wn_spell (d : Dev nD) (L : grid0.Coords) (I : Buf (Elt F) ((thr d L).loc cc0_scratch1)) (q : Fin 640)
    {off : Fin 1 → ℕ} (h : ∀ a, off a + S40.size a ≤ S25600.size a) {x : ℕ} (e : off = ![x]) (hx : x = 40 * q.val) :
    Wn d L I q = ((win' off h).view.loc (thr d L) ↦[(win' off h).view.set]{fullShare} I) := by
  subst hx; subst e; rfl

/-- Chunk `q` of the books is the chunk the program names by any offsets equal to (first row + q div 5, 40 (q mod 5), 0). -/
theorem On_spell (d : Dev nD) (L : grid0.Coords) (f : Buf (Elt F) ((thr d L).loc main_v2_scv)) (q : Fin 640)
    {off : Fin 3 → ℕ} (h : ∀ a, off a + S1x40x128.size a ≤ S4096x200x128.size a) {r c : ℕ} (e : off = ![r, c, 0])
    (hr : r = 256 * (L 1).val + 128 * (L 0).val + q.val / 5) (hc : c = 40 * (q.val % 5)) :
    On d L f q = ((och' off h).view.loc (thr d L) ↦[(och' off h).view.set]{fullShare} f) := by
  subst hr; subst hc; subst e; rfl

/-- An equation between assertions read as an entailment, either way. -/
theorem eq_entails {M : Type} [URA M] {P Q : sProp M} (e : P = Q) : P ⊢ Q := by subst e; exact .rfl
theorem eq_entails' {M : Type} [URA M] {P Q : sProp M} (e : P = Q) : Q ⊢ P := by subst e; exact .rfl

/-! ## Taking the least element out of a final segment, putting the next element into an initial segment

Each lemma also takes what the remaining segment has already been shown equal to, so that ten of them nest into one
equation. -/

/-- The windows from `n` on: window `n` in the program's spelling, and those from `n + 1` on. -/
theorem takeW (d : Dev nD) (L : grid0.Coords) (I : Buf (Elt F) ((thr d L).loc cc0_scratch1)) (n m : ℕ) (hm : m = n + 1) (hn : n < 640)
    {off : Fin 1 → ℕ} (h : ∀ a, off a + S40.size a ≤ S25600.size a) {x : ℕ} (e : off = ![x]) (hx : x = 40 * n) {R : sProp 𝕄}
    (hR : bigSep (Finset.univ.filter fun q : Fin 640 => m ≤ q.val) (Wn d L I) = R) :
    bigSep (Finset.univ.filter fun q : Fin 640 => n ≤ q.val) (Wn d L I)
      = iprop(((win' off h).view.loc (thr d L) ↦[(win' off h).view.set]{fullShare} I) ∗ R) := by
  subst hm; subst hR
  rw [bigSep_ge_step _ n hn, Wn_spell d L I ⟨n, hn⟩ h e hx]

/-- The windows below `n + 1`: window `n` in the program's spelling, and those below `n`. -/
theorem putW (d : Dev nD) (L : grid0.Coords) (I : Buf (Elt F) ((thr d L).loc cc0_scratch1)) (m n : ℕ) (hm : m = n + 1) (hn : n < 640)
    {off : Fin 1 → ℕ} (h : ∀ a, off a + S40.size a ≤ S25600.size a) {x : ℕ} (e : off = ![x]) (hx : x = 40 * n) {R : sProp 𝕄}
    (hR : bigSep (Finset.univ.filter fun q : Fin 640 => q.val < n) (Wn d L I) = R) :
    bigSep (Finset.univ.filter fun q : Fin 640 => q.val < m) (Wn d L I)
      = iprop(((win' off h).view.loc (thr d L) ↦[(win' off h).view.set]{fullShare} I) ∗ R) := by
  subst hm; subst hR
  rw [bigSep_lt_step _ n hn, Wn_spell d L I ⟨n, hn⟩ h e hx]

/-- The chunks from `n` on: chunk `n` in the program's spelling, and those from `n + 1` on. -/
theorem takeO (d : Dev nD) (L : grid0.Coords) (f : Buf (Elt F) ((thr d L).loc main_v2_scv)) (n m : ℕ) (hm : m = n + 1) (hn : n < 640)
    {off : Fin 3 → ℕ} (h : ∀ a, off a + S1x40x128.size a ≤ S4096x200x128.size a) {r c : ℕ} (e : off = ![r, c, 0])
    (hr : r = 256 * (L 1).val + 128 * (L 0).val + n / 5) (hc : c = 40 * (n % 5)) {R : sProp 𝕄}
    (hR : bigSep (Finset.univ.filter fun q : Fin 640 => m ≤ q.val) (On d L f) = R) :
    bigSep (Finset.univ.filter fun q : Fin 640 => n ≤ q.val) (On d L f)
      = iprop(((och' off h).view.loc (thr d L) ↦[(och' off h).view.set]{fullShare} f) ∗ R) := by
  subst hm; subst hR
  rw [bigSep_ge_step _ n hn, On_spell d L f ⟨n, hn⟩ h e hr hc]

/-- The chunks below `n + 1`: chunk `n` in the program's spelling, and those below `n`. -/
theorem putO (d : Dev nD) (L : grid0.Coords) (f : Buf (Elt F) ((thr d L).loc main_v2_scv)) (m n : ℕ) (hm : m = n + 1) (hn : n < 640)
    {off : Fin 3 → ℕ} (h : ∀ a, off a + S1x40x128.size a ≤ S4096x200x128.size a) {r c : ℕ} (e : off = ![r, c, 0])
    (hr : r = 256 * (L 1).val + 128 * (L 0).val + n / 5) (hc : c = 40 * (n % 5)) {R : sProp 𝕄}
    (hR : bigSep (Finset.univ.filter fun q : Fin 640 => q.val < n) (On d L f) = R) :
    bigSep (Finset.univ.filter fun q : Fin 640 => q.val < m) (On d L f)
      = iprop(((och' off h).view.loc (thr d L) ↦[(och' off h).view.set]{fullShare} f) ∗ R) := by
  subst hm; subst hR
  rw [bigSep_lt_step _ n hn, On_spell d L f ⟨n, hn⟩ h e hr hc]

/-! ## A trip in the middle of the loop -/

theorem books_take_mid (d : Dev nD) (L : grid0.Coords) (I : Buf (Elt F) ((thr d L).loc cc0_scratch1)) (fo fd : Buf (Elt F) ((thr d L).loc main_v2_scv))
    (k : Fin k0_t1_loop.trips) (hk1 : 1 ≤ k.val) (hk2 : k.val ≤ 62) (k0_h2 : k0_cond2 k = 1#1) (k0_h5 : k0_cond5 k = 1#1) (k0_h8 : k0_cond8 k = 1#1) (k0_h11 : k0_cond11 k = 1#1) (k0_h14 : k0_cond14 k = 1#1) (k0_h17 : k0_cond17 k = 1#1) (k0_h20 : k0_cond20 k = 1#1) (k0_h23 : k0_cond23 k = 1#1) (k0_h26 : k0_cond26 k = 1#1) (k0_h29 : k0_cond29 k = 1#1) (k0_h1 : k0_cond1 k = 1#1) (k0_h4 : k0_cond4 k = 1#1) (k0_h7 : k0_cond7 k = 1#1) (k0_h10 : k0_cond10 k = 1#1) (k0_h13 : k0_cond13 k = 1#1) (k0_h16 : k0_cond16 k = 1#1) (k0_h19 : k0_cond19 k = 1#1) (k0_h22 : k0_cond22 k = 1#1) (k0_h25 : k0_cond25 k = 1#1) (k0_h28 : k0_cond28 k = 1#1) :
    (Books d L I fo fd (10 * k.val) (10 * k.val + 5) (10 * k.val - 5) (10 * k.val - 1) : sProp 𝕄)
      ⊢ iprop(Books d L I fo fd (10 * k.val) (10 * k.val + 15) (10 * k.val - 5) (10 * k.val + 9)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((win' (k0_off100 k) (k0_off100_inb k k0_h17)).view.loc (thr d L) ↦[(win' (k0_off100 k) (k0_off100_inb k k0_h17)).view.set]{fullShare} I)
        ∗ ((win' (k0_off119 k) (k0_off119_inb k k0_h20)).view.loc (thr d L) ↦[(win' (k0_off119 k) (k0_off119_inb k k0_h20)).view.set]{fullShare} I)
        ∗ ((win' (k0_off138 k) (k0_off138_inb k k0_h23)).view.loc (thr d L) ↦[(win' (k0_off138 k) (k0_off138_inb k k0_h23)).view.set]{fullShare} I)
        ∗ ((win' (k0_off157 k) (k0_off157_inb k k0_h26)).view.loc (thr d L) ↦[(win' (k0_off157 k) (k0_off157_inb k k0_h26)).view.set]{fullShare} I)
        ∗ ((win' (k0_off176 k) (k0_off176_inb k k0_h29)).view.loc (thr d L) ↦[(win' (k0_off176 k) (k0_off176_inb k k0_h29)).view.set]{fullShare} I)
        ∗ ((och' (k0_off2 L k) (k0_off2_inb L k k0_h1)).view.loc (thr d L) ↦[(och' (k0_off2 L k) (k0_off2_inb L k k0_h1)).view.set]{fullShare} fo)
        ∗ ((och' (k0_off22 L k) (k0_off22_inb L k k0_h4)).view.loc (thr d L) ↦[(och' (k0_off22 L k) (k0_off22_inb L k k0_h4)).view.set]{fullShare} fo)
        ∗ ((och' (k0_off41 L k) (k0_off41_inb L k k0_h7)).view.loc (thr d L) ↦[(och' (k0_off41 L k) (k0_off41_inb L k k0_h7)).view.set]{fullShare} fo)
        ∗ ((och' (k0_off60 L k) (k0_off60_inb L k k0_h10)).view.loc (thr d L) ↦[(och' (k0_off60 L k) (k0_off60_inb L k k0_h10)).view.set]{fullShare} fo)
        ∗ ((och' (k0_off79 L k) (k0_off79_inb L k k0_h13)).view.loc (thr d L) ↦[(och' (k0_off79 L k) (k0_off79_inb L k k0_h13)).view.set]{fullShare} fo)
        ∗ ((och' (k0_off98 L k) (k0_off98_inb L k k0_h16)).view.loc (thr d L) ↦[(och' (k0_off98 L k) (k0_off98_inb L k k0_h16)).view.set]{fullShare} fo)
        ∗ ((och' (k0_off117 L k) (k0_off117_inb L k k0_h19)).view.loc (thr d L) ↦[(och' (k0_off117 L k) (k0_off117_inb L k k0_h19)).view.set]{fullShare} fo)
        ∗ ((och' (k0_off136 L k) (k0_off136_inb L k k0_h22)).view.loc (thr d L) ↦[(och' (k0_off136 L k) (k0_off136_inb L k k0_h22)).view.set]{fullShare} fo)
        ∗ ((och' (k0_off155 L k) (k0_off155_inb L k k0_h25)).view.loc (thr d L) ↦[(och' (k0_off155 L k) (k0_off155_inb L k k0_h25)).view.set]{fullShare} fo)
        ∗ ((och' (k0_off174 L k) (k0_off174_inb L k k0_h28)).view.loc (thr d L) ↦[(och' (k0_off174 L k) (k0_off174_inb L k k0_h28)).view.set]{fullShare} fo)) := by
  have eB :=
    takeW d L I (10 * k.val + 5) (10 * k.val + 6) (by omega) (by omega) (k0_off4_inb k k0_h2) (k0_off4_eq k) (by omega) <|
    takeW d L I (10 * k.val + 6) (10 * k.val + 7) (by omega) (by omega) (k0_off24_inb k k0_h5) (k0_off24_eq k) (by omega) <|
    takeW d L I (10 * k.val + 7) (10 * k.val + 8) (by omega) (by omega) (k0_off43_inb k k0_h8) (k0_off43_eq k) (by omega) <|
    takeW d L I (10 * k.val + 8) (10 * k.val + 9) (by omega) (by omega) (k0_off62_inb k k0_h11) (k0_off62_eq k) (by omega) <|
    takeW d L I (10 * k.val + 9) (10 * k.val + 10) (by omega) (by omega) (k0_off81_inb k k0_h14) (k0_off81_eq k) (by omega) <|
    takeW d L I (10 * k.val + 10) (10 * k.val + 11) (by omega) (by omega) (k0_off100_inb k k0_h17) (k0_off100_eq k) (by omega) <|
    takeW d L I (10 * k.val + 11) (10 * k.val + 12) (by omega) (by omega) (k0_off119_inb k k0_h20) (k0_off119_eq k) (by omega) <|
    takeW d L I (10 * k.val + 12) (10 * k.val + 13) (by omega) (by omega) (k0_off138_inb k k0_h23) (k0_off138_eq k) (by omega) <|
    takeW d L I (10 * k.val + 13) (10 * k.val + 14) (by omega) (by omega) (k0_off157_inb k k0_h26) (k0_off157_eq k) (by omega) <|
    takeW d L I (10 * k.val + 14) (10 * k.val + 15) (by omega) (by omega) (k0_off176_inb k k0_h29) (k0_off176_eq k) (by omega) <|
    rfl
  have eD :=
    takeO d L fo (10 * k.val - 1) (10 * k.val) (by omega) (by omega) (k0_off2_inb L k k0_h1) (k0_off2_eq' L k k0_h1) (by omega) (by omega) <|
    takeO d L fo (10 * k.val) (10 * k.val + 1) (by omega) (by omega) (k0_off22_inb L k k0_h4) (k0_off22_eq L k) (by omega) (by omega) <|
    takeO d L fo (10 * k.val + 1) (10 * k.val + 2) (by omega) (by omega) (k0_off41_inb L k k0_h7) (k0_off41_eq L k) (by omega) (by omega) <|
    takeO d L fo (10 * k.val + 2) (10 * k.val + 3) (by omega) (by omega) (k0_off60_inb L k k0_h10) (k0_off60_eq L k) (by omega) (by omega) <|
    takeO d L fo (10 * k.val + 3) (10 * k.val + 4) (by omega) (by omega) (k0_off79_inb L k k0_h13) (k0_off79_eq L k) (by omega) (by omega) <|
    takeO d L fo (10 * k.val + 4) (10 * k.val + 5) (by omega) (by omega) (k0_off98_inb L k k0_h16) (k0_off98_eq L k) (by omega) (by omega) <|
    takeO d L fo (10 * k.val + 5) (10 * k.val + 6) (by omega) (by omega) (k0_off117_inb L k k0_h19) (k0_off117_eq L k) (by omega) (by omega) <|
    takeO d L fo (10 * k.val + 6) (10 * k.val + 7) (by omega) (by omega) (k0_off136_inb L k k0_h22) (k0_off136_eq L k) (by omega) (by omega) <|
    takeO d L fo (10 * k.val + 7) (10 * k.val + 8) (by omega) (by omega) (k0_off155_inb L k k0_h25) (k0_off155_eq L k) (by omega) (by omega) <|
    takeO d L fo (10 * k.val + 8) (10 * k.val + 9) (by omega) (by omega) (k0_off174_inb L k k0_h28) (k0_off174_eq L k) (by omega) (by omega) <|
    rfl
  unfold Books
  iintro ⟨A, B, C, D⟩
  ihave B2 := (eq_entails eB) $$ B
  icases B2 with ⟨W0, W1, W2, W3, W4, W5, W6, W7, W8, W9, B⟩
  ihave D2 := (eq_entails eD) $$ D
  icases D2 with ⟨O0, O1, O2, O3, O4, O5, O6, O7, O8, O9, D⟩
  isplitl [A B C D]
  · isplitl [A]; · iexact A
    isplitl [B]; · iexact B
    isplitl [C]; · iexact C
    iexact D
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  iexact O9

theorem books_put_mid (d : Dev nD) (L : grid0.Coords) (I : Buf (Elt F) ((thr d L).loc cc0_scratch1)) (fo fd : Buf (Elt F) ((thr d L).loc main_v2_scv))
    (k k' : Fin k0_t1_loop.trips) (hk : k'.val + 1 = k.val) (hk2 : k.val ≤ 62) (k0_h2 : k0_cond2 k = 1#1) (k0_h5 : k0_cond5 k = 1#1) (k0_h8 : k0_cond8 k = 1#1) (k0_h11 : k0_cond11 k = 1#1) (k0_h14 : k0_cond14 k = 1#1) (k0_h1 : k0_cond1 k = 1#1) (k0_h4 : k0_cond4 k = 1#1) (k0_h7 : k0_cond7 k = 1#1) (k0_h10 : k0_cond10 k = 1#1) (k0_h13 : k0_cond13 k = 1#1) (k0_h16 : k0_cond16 k = 1#1) (k0_p17 : k0_cond17 k' = 1#1) (k0_p20 : k0_cond20 k' = 1#1) (k0_p23 : k0_cond23 k' = 1#1) (k0_p26 : k0_cond26 k' = 1#1) (k0_p29 : k0_cond29 k' = 1#1) (k0_p19 : k0_cond19 k' = 1#1) (k0_p22 : k0_cond22 k' = 1#1) (k0_p25 : k0_cond25 k' = 1#1) (k0_p28 : k0_cond28 k' = 1#1) :
    (iprop(Books d L I fo fd (10 * k.val) (10 * k.val + 15) (10 * k.val - 5) (10 * k.val + 9)
        ∗ ((win' (k0_off100 k') (k0_off100_inb k' k0_p17)).view.loc (thr d L) ↦[(win' (k0_off100 k') (k0_off100_inb k' k0_p17)).view.set]{fullShare} I)
        ∗ ((win' (k0_off119 k') (k0_off119_inb k' k0_p20)).view.loc (thr d L) ↦[(win' (k0_off119 k') (k0_off119_inb k' k0_p20)).view.set]{fullShare} I)
        ∗ ((win' (k0_off138 k') (k0_off138_inb k' k0_p23)).view.loc (thr d L) ↦[(win' (k0_off138 k') (k0_off138_inb k' k0_p23)).view.set]{fullShare} I)
        ∗ ((win' (k0_off157 k') (k0_off157_inb k' k0_p26)).view.loc (thr d L) ↦[(win' (k0_off157 k') (k0_off157_inb k' k0_p26)).view.set]{fullShare} I)
        ∗ ((win' (k0_off176 k') (k0_off176_inb k' k0_p29)).view.loc (thr d L) ↦[(win' (k0_off176 k') (k0_off176_inb k' k0_p29)).view.set]{fullShare} I)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((och' (k0_off117 L k') (k0_off117_inb L k' k0_p19)).view.loc (thr d L) ↦[(och' (k0_off117 L k') (k0_off117_inb L k' k0_p19)).view.set]{fullShare} fd)
        ∗ ((och' (k0_off136 L k') (k0_off136_inb L k' k0_p22)).view.loc (thr d L) ↦[(och' (k0_off136 L k') (k0_off136_inb L k' k0_p22)).view.set]{fullShare} fd)
        ∗ ((och' (k0_off155 L k') (k0_off155_inb L k' k0_p25)).view.loc (thr d L) ↦[(och' (k0_off155 L k') (k0_off155_inb L k' k0_p25)).view.set]{fullShare} fd)
        ∗ ((och' (k0_off174 L k') (k0_off174_inb L k' k0_p28)).view.loc (thr d L) ↦[(och' (k0_off174 L k') (k0_off174_inb L k' k0_p28)).view.set]{fullShare} fd)
        ∗ ((och' (k0_off2 L k) (k0_off2_inb L k k0_h1)).view.loc (thr d L) ↦[(och' (k0_off2 L k) (k0_off2_inb L k k0_h1)).view.set]{fullShare} fd)
        ∗ ((och' (k0_off22 L k) (k0_off22_inb L k k0_h4)).view.loc (thr d L) ↦[(och' (k0_off22 L k) (k0_off22_inb L k k0_h4)).view.set]{fullShare} fd)
        ∗ ((och' (k0_off41 L k) (k0_off41_inb L k k0_h7)).view.loc (thr d L) ↦[(och' (k0_off41 L k) (k0_off41_inb L k k0_h7)).view.set]{fullShare} fd)
        ∗ ((och' (k0_off60 L k) (k0_off60_inb L k k0_h10)).view.loc (thr d L) ↦[(och' (k0_off60 L k) (k0_off60_inb L k k0_h10)).view.set]{fullShare} fd)
        ∗ ((och' (k0_off79 L k) (k0_off79_inb L k k0_h13)).view.loc (thr d L) ↦[(och' (k0_off79 L k) (k0_off79_inb L k k0_h13)).view.set]{fullShare} fd)
        ∗ ((och' (k0_off98 L k) (k0_off98_inb L k k0_h16)).view.loc (thr d L) ↦[(och' (k0_off98 L k) (k0_off98_inb L k k0_h16)).view.set]{fullShare} fd)) : sProp 𝕄)
      ⊢ Books d L I fo fd (10 * k.val + 10) (10 * k.val + 15) (10 * k.val + 5) (10 * k.val + 9) := by
  have hk1 : 1 ≤ k.val := by omega
  have eA :=
    putW d L I (10 * k.val + 10) (10 * k.val + 9) (by omega) (by omega) (k0_off81_inb k k0_h14) (k0_off81_eq k) (by omega) <|
    putW d L I (10 * k.val + 9) (10 * k.val + 8) (by omega) (by omega) (k0_off62_inb k k0_h11) (k0_off62_eq k) (by omega) <|
    putW d L I (10 * k.val + 8) (10 * k.val + 7) (by omega) (by omega) (k0_off43_inb k k0_h8) (k0_off43_eq k) (by omega) <|
    putW d L I (10 * k.val + 7) (10 * k.val + 6) (by omega) (by omega) (k0_off24_inb k k0_h5) (k0_off24_eq k) (by omega) <|
    putW d L I (10 * k.val + 6) (10 * k.val + 5) (by omega) (by omega) (k0_off4_inb k k0_h2) (k0_off4_eq k) (by omega) <|
    putW d L I (10 * k.val + 5) (10 * k.val + 4) (by omega) (by omega) (k0_off176_inb k' k0_p29) (k0_off176_eq k') (by omega) <|
    putW d L I (10 * k.val + 4) (10 * k.val + 3) (by omega) (by omega) (k0_off157_inb k' k0_p26) (k0_off157_eq k') (by omega) <|
    putW d L I (10 * k.val + 3) (10 * k.val + 2) (by omega) (by omega) (k0_off138_inb k' k0_p23) (k0_off138_eq k') (by omega) <|
    putW d L I (10 * k.val + 2) (10 * k.val + 1) (by omega) (by omega) (k0_off119_inb k' k0_p20) (k0_off119_eq k') (by omega) <|
    putW d L I (10 * k.val + 1) (10 * k.val) (by omega) (by omega) (k0_off100_inb k' k0_p17) (k0_off100_eq k') (by omega) <|
    rfl
  have eC :=
    putO d L fd (10 * k.val + 5) (10 * k.val + 4) (by omega) (by omega) (k0_off98_inb L k k0_h16) (k0_off98_eq L k) (by omega) (by omega) <|
    putO d L fd (10 * k.val + 4) (10 * k.val + 3) (by omega) (by omega) (k0_off79_inb L k k0_h13) (k0_off79_eq L k) (by omega) (by omega) <|
    putO d L fd (10 * k.val + 3) (10 * k.val + 2) (by omega) (by omega) (k0_off60_inb L k k0_h10) (k0_off60_eq L k) (by omega) (by omega) <|
    putO d L fd (10 * k.val + 2) (10 * k.val + 1) (by omega) (by omega) (k0_off41_inb L k k0_h7) (k0_off41_eq L k) (by omega) (by omega) <|
    putO d L fd (10 * k.val + 1) (10 * k.val) (by omega) (by omega) (k0_off22_inb L k k0_h4) (k0_off22_eq L k) (by omega) (by omega) <|
    putO d L fd (10 * k.val) (10 * k.val - 1) (by omega) (by omega) (k0_off2_inb L k k0_h1) (k0_off2_eq' L k k0_h1) (by omega) (by omega) <|
    putO d L fd (10 * k.val - 1) (10 * k.val - 2) (by omega) (by omega) (k0_off174_inb L k' k0_p28) (k0_off174_eq L k') (by omega) (by omega) <|
    putO d L fd (10 * k.val - 2) (10 * k.val - 3) (by omega) (by omega) (k0_off155_inb L k' k0_p25) (k0_off155_eq L k') (by omega) (by omega) <|
    putO d L fd (10 * k.val - 3) (10 * k.val - 4) (by omega) (by omega) (k0_off136_inb L k' k0_p22) (k0_off136_eq L k') (by omega) (by omega) <|
    putO d L fd (10 * k.val - 4) (10 * k.val - 5) (by omega) (by omega) (k0_off117_inb L k' k0_p19) (k0_off117_eq L k') (by omega) (by omega) <|
    rfl
  unfold Books
  iintro ⟨⟨A, B, C, D⟩, W0, W1, W2, W3, W4, W5, W6, W7, W8, W9, O0, O1, O2, O3, O4, O5, O6, O7, O8, O9⟩
  isplitl [A W0 W1 W2 W3 W4 W5 W6 W7 W8 W9]
  · iapply (eq_entails' eA)
    isplitl [W9]; · iexact W9
    isplitl [W8]; · iexact W8
    isplitl [W7]; · iexact W7
    isplitl [W6]; · iexact W6
    isplitl [W5]; · iexact W5
    isplitl [W4]; · iexact W4
    isplitl [W3]; · iexact W3
    isplitl [W2]; · iexact W2
    isplitl [W1]; · iexact W1
    isplitl [W0]; · iexact W0
    iexact A
  isplitl [B]; · iexact B
  isplitl [C O0 O1 O2 O3 O4 O5 O6 O7 O8 O9]
  · iapply (eq_entails' eC)
    isplitl [O9]; · iexact O9
    isplitl [O8]; · iexact O8
    isplitl [O7]; · iexact O7
    isplitl [O6]; · iexact O6
    isplitl [O5]; · iexact O5
    isplitl [O4]; · iexact O4
    isplitl [O3]; · iexact O3
    isplitl [O2]; · iexact O2
    isplitl [O1]; · iexact O1
    isplitl [O0]; · iexact O0
    iexact C
  iexact D

end Cert.Proof.KI
end
-- ==== Proof.KIBooksLemmas2.lean ====
/-
  The books around the first trip, the last trip, and the write-out after the loop: the same steps as in the middle
  of the loop, at the numbers those trips have.
-/
import proofs.«206279_g3710851744293_cont_8to1_b_253_31_alg».proof.Proof.KIBooksLemmas
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-! ## The first trip -/

theorem books_take_first (d : Dev nD) (L : grid0.Coords) (I : Buf (Elt F) ((thr d L).loc cc0_scratch1)) (fo fd : Buf (Elt F) ((thr d L).loc main_v2_scv))
    (k : Fin k0_t1_loop.trips) (hk0 : k.val = 0) (k0_h2 : k0_cond2 k = 1#1) (k0_h5 : k0_cond5 k = 1#1) (k0_h8 : k0_cond8 k = 1#1) (k0_h11 : k0_cond11 k = 1#1) (k0_h14 : k0_cond14 k = 1#1) (k0_h17 : k0_cond17 k = 1#1) (k0_h20 : k0_cond20 k = 1#1) (k0_h23 : k0_cond23 k = 1#1) (k0_h26 : k0_cond26 k = 1#1) (k0_h29 : k0_cond29 k = 1#1) (k0_h4 : k0_cond4 k = 1#1) (k0_h7 : k0_cond7 k = 1#1) (k0_h10 : k0_cond10 k = 1#1) (k0_h13 : k0_cond13 k = 1#1) (k0_h16 : k0_cond16 k = 1#1) (k0_h19 : k0_cond19 k = 1#1) (k0_h22 : k0_cond22 k = 1#1) (k0_h25 : k0_cond25 k = 1#1) (k0_h28 : k0_cond28 k = 1#1) :
    (Books d L I fo fd 0 5 0 0 : sProp 𝕄)
      ⊢ iprop(Books d L I fo fd 0 15 0 9
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((win' (k0_off100 k) (k0_off100_inb k k0_h17)).view.loc (thr d L) ↦[(win' (k0_off100 k) (k0_off100_inb k k0_h17)).view.set]{fullShare} I)
        ∗ ((win' (k0_off119 k) (k0_off119_inb k k0_h20)).view.loc (thr d L) ↦[(win' (k0_off119 k) (k0_off119_inb k k0_h20)).view.set]{fullShare} I)
        ∗ ((win' (k0_off138 k) (k0_off138_inb k k0_h23)).view.loc (thr d L) ↦[(win' (k0_off138 k) (k0_off138_inb k k0_h23)).view.set]{fullShare} I)
        ∗ ((win' (k0_off157 k) (k0_off157_inb k k0_h26)).view.loc (thr d L) ↦[(win' (k0_off157 k) (k0_off157_inb k k0_h26)).view.set]{fullShare} I)
        ∗ ((win' (k0_off176 k) (k0_off176_inb k k0_h29)).view.loc (thr d L) ↦[(win' (k0_off176 k) (k0_off176_inb k k0_h29)).view.set]{fullShare} I)
        ∗ ((och' (k0_off22 L k) (k0_off22_inb L k k0_h4)).view.loc (thr d L) ↦[(och' (k0_off22 L k) (k0_off22_inb L k k0_h4)).view.set]{fullShare} fo)
        ∗ ((och' (k0_off41 L k) (k0_off41_inb L k k0_h7)).view.loc (thr d L) ↦[(och' (k0_off41 L k) (k0_off41_inb L k k0_h7)).view.set]{fullShare} fo)
        ∗ ((och' (k0_off60 L k) (k0_off60_inb L k k0_h10)).view.loc (thr d L) ↦[(och' (k0_off60 L k) (k0_off60_inb L k k0_h10)).view.set]{fullShare} fo)
        ∗ ((och' (k0_off79 L k) (k0_off79_inb L k k0_h13)).view.loc (thr d L) ↦[(och' (k0_off79 L k) (k0_off79_inb L k k0_h13)).view.set]{fullShare} fo)
        ∗ ((och' (k0_off98 L k) (k0_off98_inb L k k0_h16)).view.loc (thr d L) ↦[(och' (k0_off98 L k) (k0_off98_inb L k k0_h16)).view.set]{fullShare} fo)
        ∗ ((och' (k0_off117 L k) (k0_off117_inb L k k0_h19)).view.loc (thr d L) ↦[(och' (k0_off117 L k) (k0_off117_inb L k k0_h19)).view.set]{fullShare} fo)
        ∗ ((och' (k0_off136 L k) (k0_off136_inb L k k0_h22)).view.loc (thr d L) ↦[(och' (k0_off136 L k) (k0_off136_inb L k k0_h22)).view.set]{fullShare} fo)
        ∗ ((och' (k0_off155 L k) (k0_off155_inb L k k0_h25)).view.loc (thr d L) ↦[(och' (k0_off155 L k) (k0_off155_inb L k k0_h25)).view.set]{fullShare} fo)
        ∗ ((och' (k0_off174 L k) (k0_off174_inb L k k0_h28)).view.loc (thr d L) ↦[(och' (k0_off174 L k) (k0_off174_inb L k k0_h28)).view.set]{fullShare} fo)) := by
  have eB :=
    takeW d L I (5) (6) (by omega) (by omega) (k0_off4_inb k k0_h2) (k0_off4_eq k) (by omega) <|
    takeW d L I (6) (7) (by omega) (by omega) (k0_off24_inb k k0_h5) (k0_off24_eq k) (by omega) <|
    takeW d L I (7) (8) (by omega) (by omega) (k0_off43_inb k k0_h8) (k0_off43_eq k) (by omega) <|
    takeW d L I (8) (9) (by omega) (by omega) (k0_off62_inb k k0_h11) (k0_off62_eq k) (by omega) <|
    takeW d L I (9) (10) (by omega) (by omega) (k0_off81_inb k k0_h14) (k0_off81_eq k) (by omega) <|
    takeW d L I (10) (11) (by omega) (by omega) (k0_off100_inb k k0_h17) (k0_off100_eq k) (by omega) <|
    takeW d L I (11) (12) (by omega) (by omega) (k0_off119_inb k k0_h20) (k0_off119_eq k) (by omega) <|
    takeW d L I (12) (13) (by omega) (by omega) (k0_off138_inb k k0_h23) (k0_off138_eq k) (by omega) <|
    takeW d L I (13) (14) (by omega) (by omega) (k0_off157_inb k k0_h26) (k0_off157_eq k) (by omega) <|
    takeW d L I (14) (15) (by omega) (by omega) (k0_off176_inb k k0_h29) (k0_off176_eq k) (by omega) <|
    rfl
  have eD :=
    takeO d L fo (0) (1) (by omega) (by omega) (k0_off22_inb L k k0_h4) (k0_off22_eq L k) (by omega) (by omega) <|
    takeO d L fo (1) (2) (by omega) (by omega) (k0_off41_inb L k k0_h7) (k0_off41_eq L k) (by omega) (by omega) <|
    takeO d L fo (2) (3) (by omega) (by omega) (k0_off60_inb L k k0_h10) (k0_off60_eq L k) (by omega) (by omega) <|
    takeO d L fo (3) (4) (by omega) (by omega) (k0_off79_inb L k k0_h13) (k0_off79_eq L k) (by omega) (by omega) <|
    takeO d L fo (4) (5) (by omega) (by omega) (k0_off98_inb L k k0_h16) (k0_off98_eq L k) (by omega) (by omega) <|
    takeO d L fo (5) (6) (by omega) (by omega) (k0_off117_inb L k k0_h19) (k0_off117_eq L k) (by omega) (by omega) <|
    takeO d L fo (6) (7) (by omega) (by omega) (k0_off136_inb L k k0_h22) (k0_off136_eq L k) (by omega) (by omega) <|
    takeO d L fo (7) (8) (by omega) (by omega) (k0_off155_inb L k k0_h25) (k0_off155_eq L k) (by omega) (by omega) <|
    takeO d L fo (8) (9) (by omega) (by omega) (k0_off174_inb L k k0_h28) (k0_off174_eq L k) (by omega) (by omega) <|
    rfl
  unfold Books
  iintro ⟨A, B, C, D⟩
  ihave B2 := (eq_entails eB) $$ B
  icases B2 with ⟨W0, W1, W2, W3, W4, W5, W6, W7, W8, W9, B⟩
  ihave D2 := (eq_entails eD) $$ D
  icases D2 with ⟨O0, O1, O2, O3, O4, O5, O6, O7, O8, D⟩
  isplitl [A B C D]
  · isplitl [A]; · iexact A
    isplitl [B]; · iexact B
    isplitl [C]; · iexact C
    iexact D
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  iexact O8

theorem books_put_first (d : Dev nD) (L : grid0.Coords) (I : Buf (Elt F) ((thr d L).loc cc0_scratch1)) (fo fd : Buf (Elt F) ((thr d L).loc main_v2_scv))
    (k : Fin k0_t1_loop.trips) (hk0 : k.val = 0) (k0_h2 : k0_cond2 k = 1#1) (k0_h5 : k0_cond5 k = 1#1) (k0_h8 : k0_cond8 k = 1#1) (k0_h11 : k0_cond11 k = 1#1) (k0_h14 : k0_cond14 k = 1#1) (k0_h4 : k0_cond4 k = 1#1) (k0_h7 : k0_cond7 k = 1#1) (k0_h10 : k0_cond10 k = 1#1) (k0_h13 : k0_cond13 k = 1#1) (k0_h16 : k0_cond16 k = 1#1)
    (hg0 : ∀ a, (![0] : Fin 1 → ℕ) a + S40.size a ≤ S25600.size a) (hg1 : ∀ a, (![40] : Fin 1 → ℕ) a + S40.size a ≤ S25600.size a) (hg2 : ∀ a, (![80] : Fin 1 → ℕ) a + S40.size a ≤ S25600.size a) (hg3 : ∀ a, (![120] : Fin 1 → ℕ) a + S40.size a ≤ S25600.size a) (hg4 : ∀ a, (![160] : Fin 1 → ℕ) a + S40.size a ≤ S25600.size a) :
    (iprop(Books d L I fo fd 0 15 0 9
        ∗ ((win' ![0] hg0).view.loc (thr d L) ↦[(win' ![0] hg0).view.set]{fullShare} I)
        ∗ ((win' ![40] hg1).view.loc (thr d L) ↦[(win' ![40] hg1).view.set]{fullShare} I)
        ∗ ((win' ![80] hg2).view.loc (thr d L) ↦[(win' ![80] hg2).view.set]{fullShare} I)
        ∗ ((win' ![120] hg3).view.loc (thr d L) ↦[(win' ![120] hg3).view.set]{fullShare} I)
        ∗ ((win' ![160] hg4).view.loc (thr d L) ↦[(win' ![160] hg4).view.set]{fullShare} I)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((och' (k0_off22 L k) (k0_off22_inb L k k0_h4)).view.loc (thr d L) ↦[(och' (k0_off22 L k) (k0_off22_inb L k k0_h4)).view.set]{fullShare} fd)
        ∗ ((och' (k0_off41 L k) (k0_off41_inb L k k0_h7)).view.loc (thr d L) ↦[(och' (k0_off41 L k) (k0_off41_inb L k k0_h7)).view.set]{fullShare} fd)
        ∗ ((och' (k0_off60 L k) (k0_off60_inb L k k0_h10)).view.loc (thr d L) ↦[(och' (k0_off60 L k) (k0_off60_inb L k k0_h10)).view.set]{fullShare} fd)
        ∗ ((och' (k0_off79 L k) (k0_off79_inb L k k0_h13)).view.loc (thr d L) ↦[(och' (k0_off79 L k) (k0_off79_inb L k k0_h13)).view.set]{fullShare} fd)
        ∗ ((och' (k0_off98 L k) (k0_off98_inb L k k0_h16)).view.loc (thr d L) ↦[(och' (k0_off98 L k) (k0_off98_inb L k k0_h16)).view.set]{fullShare} fd)) : sProp 𝕄)
      ⊢ Books d L I fo fd 10 15 5 9 := by
  have eA :=
    putW d L I (10) (9) (by omega) (by omega) (k0_off81_inb k k0_h14) (k0_off81_eq k) (by omega) <|
    putW d L I (9) (8) (by omega) (by omega) (k0_off62_inb k k0_h11) (k0_off62_eq k) (by omega) <|
    putW d L I (8) (7) (by omega) (by omega) (k0_off43_inb k k0_h8) (k0_off43_eq k) (by omega) <|
    putW d L I (7) (6) (by omega) (by omega) (k0_off24_inb k k0_h5) (k0_off24_eq k) (by omega) <|
    putW d L I (6) (5) (by omega) (by omega) (k0_off4_inb k k0_h2) (k0_off4_eq k) (by omega) <|
    putW d L I (5) (4) (by omega) (by omega) hg4 rfl (by omega) <|
    putW d L I (4) (3) (by omega) (by omega) hg3 rfl (by omega) <|
    putW d L I (3) (2) (by omega) (by omega) hg2 rfl (by omega) <|
    putW d L I (2) (1) (by omega) (by omega) hg1 rfl (by omega) <|
    putW d L I (1) (0) (by omega) (by omega) hg0 rfl (by omega) <|
    rfl
  have eC :=
    putO d L fd (5) (4) (by omega) (by omega) (k0_off98_inb L k k0_h16) (k0_off98_eq L k) (by omega) (by omega) <|
    putO d L fd (4) (3) (by omega) (by omega) (k0_off79_inb L k k0_h13) (k0_off79_eq L k) (by omega) (by omega) <|
    putO d L fd (3) (2) (by omega) (by omega) (k0_off60_inb L k k0_h10) (k0_off60_eq L k) (by omega) (by omega) <|
    putO d L fd (2) (1) (by omega) (by omega) (k0_off41_inb L k k0_h7) (k0_off41_eq L k) (by omega) (by omega) <|
    putO d L fd (1) (0) (by omega) (by omega) (k0_off22_inb L k k0_h4) (k0_off22_eq L k) (by omega) (by omega) <|
    rfl
  unfold Books
  iintro ⟨⟨A, B, C, D⟩, W0, W1, W2, W3, W4, W5, W6, W7, W8, W9, O0, O1, O2, O3, O4⟩
  isplitl [A W0 W1 W2 W3 W4 W5 W6 W7 W8 W9]
  · iapply (eq_entails' eA)
    isplitl [W9]; · iexact W9
    isplitl [W8]; · iexact W8
    isplitl [W7]; · iexact W7
    isplitl [W6]; · iexact W6
    isplitl [W5]; · iexact W5
    isplitl [W4]; · iexact W4
    isplitl [W3]; · iexact W3
    isplitl [W2]; · iexact W2
    isplitl [W1]; · iexact W1
    isplitl [W0]; · iexact W0
    iexact A
  isplitl [B]; · iexact B
  isplitl [C O0 O1 O2 O3 O4]
  · iapply (eq_entails' eC)
    isplitl [O4]; · iexact O4
    isplitl [O3]; · iexact O3
    isplitl [O2]; · iexact O2
    isplitl [O1]; · iexact O1
    isplitl [O0]; · iexact O0
    iexact C
  iexact D

/-! ## The last trip -/

theorem books_take_last (d : Dev nD) (L : grid0.Coords) (I : Buf (Elt F) ((thr d L).loc cc0_scratch1)) (fo fd : Buf (Elt F) ((thr d L).loc main_v2_scv))
    (k : Fin k0_t1_loop.trips) (hk : k.val = 63) (k0_h2 : k0_cond2 k = 1#1) (k0_h5 : k0_cond5 k = 1#1) (k0_h8 : k0_cond8 k = 1#1) (k0_h11 : k0_cond11 k = 1#1) (k0_h14 : k0_cond14 k = 1#1) (k0_h1 : k0_cond1 k = 1#1) (k0_h4 : k0_cond4 k = 1#1) (k0_h7 : k0_cond7 k = 1#1) (k0_h10 : k0_cond10 k = 1#1) (k0_h13 : k0_cond13 k = 1#1) (k0_h16 : k0_cond16 k = 1#1) (k0_h19 : k0_cond19 k = 1#1) (k0_h22 : k0_cond22 k = 1#1) (k0_h25 : k0_cond25 k = 1#1) (k0_h28 : k0_cond28 k = 1#1) :
    (Books d L I fo fd 630 635 625 629 : sProp 𝕄)
      ⊢ iprop(Books d L I fo fd 630 640 625 639
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((och' (k0_off2 L k) (k0_off2_inb L k k0_h1)).view.loc (thr d L) ↦[(och' (k0_off2 L k) (k0_off2_inb L k k0_h1)).view.set]{fullShare} fo)
        ∗ ((och' (k0_off22 L k) (k0_off22_inb L k k0_h4)).view.loc (thr d L) ↦[(och' (k0_off22 L k) (k0_off22_inb L k k0_h4)).view.set]{fullShare} fo)
        ∗ ((och' (k0_off41 L k) (k0_off41_inb L k k0_h7)).view.loc (thr d L) ↦[(och' (k0_off41 L k) (k0_off41_inb L k k0_h7)).view.set]{fullShare} fo)
        ∗ ((och' (k0_off60 L k) (k0_off60_inb L k k0_h10)).view.loc (thr d L) ↦[(och' (k0_off60 L k) (k0_off60_inb L k k0_h10)).view.set]{fullShare} fo)
        ∗ ((och' (k0_off79 L k) (k0_off79_inb L k k0_h13)).view.loc (thr d L) ↦[(och' (k0_off79 L k) (k0_off79_inb L k k0_h13)).view.set]{fullShare} fo)
        ∗ ((och' (k0_off98 L k) (k0_off98_inb L k k0_h16)).view.loc (thr d L) ↦[(och' (k0_off98 L k) (k0_off98_inb L k k0_h16)).view.set]{fullShare} fo)
        ∗ ((och' (k0_off117 L k) (k0_off117_inb L k k0_h19)).view.loc (thr d L) ↦[(och' (k0_off117 L k) (k0_off117_inb L k k0_h19)).view.set]{fullShare} fo)
        ∗ ((och' (k0_off136 L k) (k0_off136_inb L k k0_h22)).view.loc (thr d L) ↦[(och' (k0_off136 L k) (k0_off136_inb L k k0_h22)).view.set]{fullShare} fo)
        ∗ ((och' (k0_off155 L k) (k0_off155_inb L k k0_h25)).view.loc (thr d L) ↦[(och' (k0_off155 L k) (k0_off155_inb L k k0_h25)).view.set]{fullShare} fo)
        ∗ ((och' (k0_off174 L k) (k0_off174_inb L k k0_h28)).view.loc (thr d L) ↦[(och' (k0_off174 L k) (k0_off174_inb L k k0_h28)).view.set]{fullShare} fo)) := by
  have eB :=
    takeW d L I (635) (636) (by omega) (by omega) (k0_off4_inb k k0_h2) (k0_off4_eq k) (by omega) <|
    takeW d L I (636) (637) (by omega) (by omega) (k0_off24_inb k k0_h5) (k0_off24_eq k) (by omega) <|
    takeW d L I (637) (638) (by omega) (by omega) (k0_off43_inb k k0_h8) (k0_off43_eq k) (by omega) <|
    takeW d L I (638) (639) (by omega) (by omega) (k0_off62_inb k k0_h11) (k0_off62_eq k) (by omega) <|
    takeW d L I (639) (640) (by omega) (by omega) (k0_off81_inb k k0_h14) (k0_off81_eq k) (by omega) <|
    rfl
  have eD :=
    takeO d L fo (629) (630) (by omega) (by omega) (k0_off2_inb L k k0_h1) (k0_off2_eq' L k k0_h1) (by omega) (by omega) <|
    takeO d L fo (630) (631) (by omega) (by omega) (k0_off22_inb L k k0_h4) (k0_off22_eq L k) (by omega) (by omega) <|
    takeO d L fo (631) (632) (by omega) (by omega) (k0_off41_inb L k k0_h7) (k0_off41_eq L k) (by omega) (by omega) <|
    takeO d L fo (632) (633) (by omega) (by omega) (k0_off60_inb L k k0_h10) (k0_off60_eq L k) (by omega) (by omega) <|
    takeO d L fo (633) (634) (by omega) (by omega) (k0_off79_inb L k k0_h13) (k0_off79_eq L k) (by omega) (by omega) <|
    takeO d L fo (634) (635) (by omega) (by omega) (k0_off98_inb L k k0_h16) (k0_off98_eq L k) (by omega) (by omega) <|
    takeO d L fo (635) (636) (by omega) (by omega) (k0_off117_inb L k k0_h19) (k0_off117_eq L k) (by omega) (by omega) <|
    takeO d L fo (636) (637) (by omega) (by omega) (k0_off136_inb L k k0_h22) (k0_off136_eq L k) (by omega) (by omega) <|
    takeO d L fo (637) (638) (by omega) (by omega) (k0_off155_inb L k k0_h25) (k0_off155_eq L k) (by omega) (by omega) <|
    takeO d L fo (638) (639) (by omega) (by omega) (k0_off174_inb L k k0_h28) (k0_off174_eq L k) (by omega) (by omega) <|
    rfl
  unfold Books
  iintro ⟨A, B, C, D⟩
  ihave B2 := (eq_entails eB) $$ B
  icases B2 with ⟨W0, W1, W2, W3, W4, B⟩
  ihave D2 := (eq_entails eD) $$ D
  icases D2 with ⟨O0, O1, O2, O3, O4, O5, O6, O7, O8, O9, D⟩
  isplitl [A B C D]
  · isplitl [A]; · iexact A
    isplitl [B]; · iexact B
    isplitl [C]; · iexact C
    iexact D
  isplitl [W0]; · iexact W0
  isplitl [W1]; · iexact W1
  isplitl [W2]; · iexact W2
  isplitl [W3]; · iexact W3
  isplitl [W4]; · iexact W4
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  iexact O9

theorem books_put_last (d : Dev nD) (L : grid0.Coords) (I : Buf (Elt F) ((thr d L).loc cc0_scratch1)) (fo fd : Buf (Elt F) ((thr d L).loc main_v2_scv))
    (k k' : Fin k0_t1_loop.trips) (hk : k.val = 63) (hk' : k'.val = 62) (k0_h2 : k0_cond2 k = 1#1) (k0_h5 : k0_cond5 k = 1#1) (k0_h8 : k0_cond8 k = 1#1) (k0_h11 : k0_cond11 k = 1#1) (k0_h14 : k0_cond14 k = 1#1) (k0_h1 : k0_cond1 k = 1#1) (k0_p17 : k0_cond17 k' = 1#1) (k0_p20 : k0_cond20 k' = 1#1) (k0_p23 : k0_cond23 k' = 1#1) (k0_p26 : k0_cond26 k' = 1#1) (k0_p29 : k0_cond29 k' = 1#1) (k0_p19 : k0_cond19 k' = 1#1) (k0_p22 : k0_cond22 k' = 1#1) (k0_p25 : k0_cond25 k' = 1#1) (k0_p28 : k0_cond28 k' = 1#1) :
    (iprop(Books d L I fo fd 630 640 625 639
        ∗ ((win' (k0_off100 k') (k0_off100_inb k' k0_p17)).view.loc (thr d L) ↦[(win' (k0_off100 k') (k0_off100_inb k' k0_p17)).view.set]{fullShare} I)
        ∗ ((win' (k0_off119 k') (k0_off119_inb k' k0_p20)).view.loc (thr d L) ↦[(win' (k0_off119 k') (k0_off119_inb k' k0_p20)).view.set]{fullShare} I)
        ∗ ((win' (k0_off138 k') (k0_off138_inb k' k0_p23)).view.loc (thr d L) ↦[(win' (k0_off138 k') (k0_off138_inb k' k0_p23)).view.set]{fullShare} I)
        ∗ ((win' (k0_off157 k') (k0_off157_inb k' k0_p26)).view.loc (thr d L) ↦[(win' (k0_off157 k') (k0_off157_inb k' k0_p26)).view.set]{fullShare} I)
        ∗ ((win' (k0_off176 k') (k0_off176_inb k' k0_p29)).view.loc (thr d L) ↦[(win' (k0_off176 k') (k0_off176_inb k' k0_p29)).view.set]{fullShare} I)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((och' (k0_off117 L k') (k0_off117_inb L k' k0_p19)).view.loc (thr d L) ↦[(och' (k0_off117 L k') (k0_off117_inb L k' k0_p19)).view.set]{fullShare} fd)
        ∗ ((och' (k0_off136 L k') (k0_off136_inb L k' k0_p22)).view.loc (thr d L) ↦[(och' (k0_off136 L k') (k0_off136_inb L k' k0_p22)).view.set]{fullShare} fd)
        ∗ ((och' (k0_off155 L k') (k0_off155_inb L k' k0_p25)).view.loc (thr d L) ↦[(och' (k0_off155 L k') (k0_off155_inb L k' k0_p25)).view.set]{fullShare} fd)
        ∗ ((och' (k0_off174 L k') (k0_off174_inb L k' k0_p28)).view.loc (thr d L) ↦[(och' (k0_off174 L k') (k0_off174_inb L k' k0_p28)).view.set]{fullShare} fd)
        ∗ ((och' (k0_off2 L k) (k0_off2_inb L k k0_h1)).view.loc (thr d L) ↦[(och' (k0_off2 L k) (k0_off2_inb L k k0_h1)).view.set]{fullShare} fd)) : sProp 𝕄)
      ⊢ Books d L I fo fd 640 640 630 639 := by
  have eA :=
    putW d L I (640) (639) (by omega) (by omega) (k0_off81_inb k k0_h14) (k0_off81_eq k) (by omega) <|
    putW d L I (639) (638) (by omega) (by omega) (k0_off62_inb k k0_h11) (k0_off62_eq k) (by omega) <|
    putW d L I (638) (637) (by omega) (by omega) (k0_off43_inb k k0_h8) (k0_off43_eq k) (by omega) <|
    putW d L I (637) (636) (by omega) (by omega) (k0_off24_inb k k0_h5) (k0_off24_eq k) (by omega) <|
    putW d L I (636) (635) (by omega) (by omega) (k0_off4_inb k k0_h2) (k0_off4_eq k) (by omega) <|
    putW d L I (635) (634) (by omega) (by omega) (k0_off176_inb k' k0_p29) (k0_off176_eq k') (by omega) <|
    putW d L I (634) (633) (by omega) (by omega) (k0_off157_inb k' k0_p26) (k0_off157_eq k') (by omega) <|
    putW d L I (633) (632) (by omega) (by omega) (k0_off138_inb k' k0_p23) (k0_off138_eq k') (by omega) <|
    putW d L I (632) (631) (by omega) (by omega) (k0_off119_inb k' k0_p20) (k0_off119_eq k') (by omega) <|
    putW d L I (631) (630) (by omega) (by omega) (k0_off100_inb k' k0_p17) (k0_off100_eq k') (by omega) <|
    rfl
  have eC :=
    putO d L fd (630) (629) (by omega) (by omega) (k0_off2_inb L k k0_h1) (k0_off2_eq' L k k0_h1) (by omega) (by omega) <|
    putO d L fd (629) (628) (by omega) (by omega) (k0_off174_inb L k' k0_p28) (k0_off174_eq L k') (by omega) (by omega) <|
    putO d L fd (628) (627) (by omega) (by omega) (k0_off155_inb L k' k0_p25) (k0_off155_eq L k') (by omega) (by omega) <|
    putO d L fd (627) (626) (by omega) (by omega) (k0_off136_inb L k' k0_p22) (k0_off136_eq L k') (by omega) (by omega) <|
    putO d L fd (626) (625) (by omega) (by omega) (k0_off117_inb L k' k0_p19) (k0_off117_eq L k') (by omega) (by omega) <|
    rfl
  unfold Books
  iintro ⟨⟨A, B, C, D⟩, W0, W1, W2, W3, W4, W5, W6, W7, W8, W9, O0, O1, O2, O3, O4⟩
  isplitl [A W0 W1 W2 W3 W4 W5 W6 W7 W8 W9]
  · iapply (eq_entails' eA)
    isplitl [W9]; · iexact W9
    isplitl [W8]; · iexact W8
    isplitl [W7]; · iexact W7
    isplitl [W6]; · iexact W6
    isplitl [W5]; · iexact W5
    isplitl [W4]; · iexact W4
    isplitl [W3]; · iexact W3
    isplitl [W2]; · iexact W2
    isplitl [W1]; · iexact W1
    isplitl [W0]; · iexact W0
    iexact A
  isplitl [B]; · iexact B
  isplitl [C O0 O1 O2 O3 O4]
  · iapply (eq_entails' eC)
    isplitl [O4]; · iexact O4
    isplitl [O3]; · iexact O3
    isplitl [O2]; · iexact O2
    isplitl [O1]; · iexact O1
    isplitl [O0]; · iexact O0
    iexact C
  iexact D

/-! ## After the loop -/

theorem books_take_end (d : Dev nD) (L : grid0.Coords) (I : Buf (Elt F) ((thr d L).loc cc0_scratch1)) (fo fd : Buf (Elt F) ((thr d L).loc main_v2_scv)) :
    (Books d L I fo fd 640 640 630 639 : sProp 𝕄)
      ⊢ iprop(Books d L I fo fd 640 640 630 640 ∗ ((och' (k0_off193 L) (k0_off193_inb L)).view.loc (thr d L) ↦[(och' (k0_off193 L) (k0_off193_inb L)).view.set]{fullShare} fo)) := by
  have eD :=
    takeO d L fo (639) (640) (by omega) (by omega) (k0_off193_inb L) (k0_off193_eq L) (by omega) (by omega) <|
    rfl
  unfold Books
  iintro ⟨A, B, C, D⟩
  ihave D2 := (eq_entails eD) $$ D
  icases D2 with ⟨O0, D⟩
  isplitl [A B C D]
  · isplitl [A]; · iexact A
    isplitl [B]; · iexact B
    isplitl [C]; · iexact C
    iexact D
  iexact O0

theorem books_put_end (d : Dev nD) (L : grid0.Coords) (I : Buf (Elt F) ((thr d L).loc cc0_scratch1)) (fo fd : Buf (Elt F) ((thr d L).loc main_v2_scv))
    (k : Fin k0_t1_loop.trips) (hk : k.val = 63) (k0_h4 : k0_cond4 k = 1#1) (k0_h7 : k0_cond7 k = 1#1) (k0_h10 : k0_cond10 k = 1#1) (k0_h13 : k0_cond13 k = 1#1) (k0_h16 : k0_cond16 k = 1#1) (k0_h19 : k0_cond19 k = 1#1) (k0_h22 : k0_cond22 k = 1#1) (k0_h25 : k0_cond25 k = 1#1) (k0_h28 : k0_cond28 k = 1#1) :
    (iprop(Books d L I fo fd 640 640 630 640
        ∗ ((och' (k0_off22 L k) (k0_off22_inb L k k0_h4)).view.loc (thr d L) ↦[(och' (k0_off22 L k) (k0_off22_inb L k k0_h4)).view.set]{fullShare} fd)
        ∗ ((och' (k0_off41 L k) (k0_off41_inb L k k0_h7)).view.loc (thr d L) ↦[(och' (k0_off41 L k) (k0_off41_inb L k k0_h7)).view.set]{fullShare} fd)
        ∗ ((och' (k0_off60 L k) (k0_off60_inb L k k0_h10)).view.loc (thr d L) ↦[(och' (k0_off60 L k) (k0_off60_inb L k k0_h10)).view.set]{fullShare} fd)
        ∗ ((och' (k0_off79 L k) (k0_off79_inb L k k0_h13)).view.loc (thr d L) ↦[(och' (k0_off79 L k) (k0_off79_inb L k k0_h13)).view.set]{fullShare} fd)
        ∗ ((och' (k0_off98 L k) (k0_off98_inb L k k0_h16)).view.loc (thr d L) ↦[(och' (k0_off98 L k) (k0_off98_inb L k k0_h16)).view.set]{fullShare} fd)
        ∗ ((och' (k0_off117 L k) (k0_off117_inb L k k0_h19)).view.loc (thr d L) ↦[(och' (k0_off117 L k) (k0_off117_inb L k k0_h19)).view.set]{fullShare} fd)
        ∗ ((och' (k0_off136 L k) (k0_off136_inb L k k0_h22)).view.loc (thr d L) ↦[(och' (k0_off136 L k) (k0_off136_inb L k k0_h22)).view.set]{fullShare} fd)
        ∗ ((och' (k0_off155 L k) (k0_off155_inb L k k0_h25)).view.loc (thr d L) ↦[(och' (k0_off155 L k) (k0_off155_inb L k k0_h25)).view.set]{fullShare} fd)
        ∗ ((och' (k0_off174 L k) (k0_off174_inb L k k0_h28)).view.loc (thr d L) ↦[(och' (k0_off174 L k) (k0_off174_inb L k k0_h28)).view.set]{fullShare} fd)
        ∗ ((och' (k0_off193 L) (k0_off193_inb L)).view.loc (thr d L) ↦[(och' (k0_off193 L) (k0_off193_inb L)).view.set]{fullShare} fd)) : sProp 𝕄)
      ⊢ Books d L I fo fd 640 640 640 640 := by
  have eC :=
    putO d L fd (640) (639) (by omega) (by omega) (k0_off193_inb L) (k0_off193_eq L) (by omega) (by omega) <|
    putO d L fd (639) (638) (by omega) (by omega) (k0_off174_inb L k k0_h28) (k0_off174_eq L k) (by omega) (by omega) <|
    putO d L fd (638) (637) (by omega) (by omega) (k0_off155_inb L k k0_h25) (k0_off155_eq L k) (by omega) (by omega) <|
    putO d L fd (637) (636) (by omega) (by omega) (k0_off136_inb L k k0_h22) (k0_off136_eq L k) (by omega) (by omega) <|
    putO d L fd (636) (635) (by omega) (by omega) (k0_off117_inb L k k0_h19) (k0_off117_eq L k) (by omega) (by omega) <|
    putO d L fd (635) (634) (by omega) (by omega) (k0_off98_inb L k k0_h16) (k0_off98_eq L k) (by omega) (by omega) <|
    putO d L fd (634) (633) (by omega) (by omega) (k0_off79_inb L k k0_h13) (k0_off79_eq L k) (by omega) (by omega) <|
    putO d L fd (633) (632) (by omega) (by omega) (k0_off60_inb L k k0_h10) (k0_off60_eq L k) (by omega) (by omega) <|
    putO d L fd (632) (631) (by omega) (by omega) (k0_off41_inb L k k0_h7) (k0_off41_eq L k) (by omega) (by omega) <|
    putO d L fd (631) (630) (by omega) (by omega) (k0_off22_inb L k k0_h4) (k0_off22_eq L k) (by omega) (by omega) <|
    rfl
  unfold Books
  iintro ⟨⟨A, B, C, D⟩, O0, O1, O2, O3, O4, O5, O6, O7, O8, O9⟩
  isplitl [A ]
  · iexact A
  isplitl [B]; · iexact B
  isplitl [C O0 O1 O2 O3 O4 O5 O6 O7 O8 O9]
  · iapply (eq_entails' eC)
    isplitl [O9]; · iexact O9
    isplitl [O8]; · iexact O8
    isplitl [O7]; · iexact O7
    isplitl [O6]; · iexact O6
    isplitl [O5]; · iexact O5
    isplitl [O4]; · iexact O4
    isplitl [O3]; · iexact O3
    isplitl [O2]; · iexact O2
    isplitl [O1]; · iexact O1
    isplitl [O0]; · iexact O0
    iexact C
  iexact D

end Cert.Proof.KI
end
-- ==== Proof.KIRegionPre.lean ====
/-
  Small steps shared by the three regions of the main loop: the books at equal bounds, a returned chunk's value turned
  into the specification's through the closed forms of its offsets, a case split read at the case that holds, and
  the waits a trip adds.
-/
import proofs.«206279_g3710851744293_cont_8to1_b_253_31_alg».proof.Proof.KIPre
import proofs.«206279_g3710851744293_cont_8to1_b_253_31_alg».proof.Proof.KIChunk
import proofs.«206279_g3710851744293_cont_8to1_b_253_31_alg».proof.Proof.KIBooksLemmas2
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-! ## Small steps the three regions share -/

/-- The books at equal bounds. -/
theorem Books_congr (d : Dev nD) (L : grid0.Coords) (I : Buf (Elt F) ((thr d L).loc cc0_scratch1)) (fo fd : Buf (Elt F) ((thr d L).loc main_v2_scv))
    (a b c e a' b' c' e' : ℕ) (ha : a = a') (hb : b = b') (hc : c = c') (he : e = e') :
    (Books d L I fo fd a b c e : sProp 𝕄) ⊢ Books d L I fo fd a' b' c' e' := by
  subst ha; subst hb; subst hc; subst he; exact .rfl

/-- A chunk that holds the row operation of the rows its window named holds the specification's values, the two
    offsets given by their closed forms: the window's offset is 200 (batch row - first row) + first position. -/
theorem chunk_to_GK' (d : Dev nD) (L : grid0.Coords) (fi : Buf (Elt F) (iLoc d)) (fp : Buf (Elt F) (pLoc d))
    (ft : Buf (Elt F) ((thr d L).loc main_arg1_scv))
    (I : Buf (Elt F) ((thr d L).loc cc0_scratch1)) (P : Buf (Elt F) ((thr d L).loc cc0_scratch0))
    (hI : ∀ j : Fin 25600, I (ValueIdx.ix1 j) = fi (ValueIdx.ix1 ⟨25600 * (wid L).val + j.val, by have := (wid L).isLt; have := j.isLt; omega⟩))
    (hP : ∀ y, P y = fp y)
    {off3 : Fin 3 → ℕ} (h3 : ∀ a, off3 a + S1x40x128.size a ≤ S4096x200x128.size a)
    {off1 : Fin 1 → ℕ} (h1 : ∀ a, off1 a + S40.size a ≤ S25600.size a) {r c x : ℕ}
    (e3 : off3 = ![r, c, 0]) (e1 : off1 = ![x]) (hh : Fin 5)
    (hrow : 256 * (L 1).val + 128 * (L 0).val ≤ r) (hoff : x = 200 * (r - (256 * (L 1).val + 128 * (L 0).val)) + c) (hcol : c = 40 * hh.val)
    (f : Buf (Elt F) ((thr d L).loc main_v2_scv))
    (hf : (och' off3 h3).view.read (Elt F) f = rowOp hh P (Gw d L ft I off1 h1)) :
    (((och' off3 h3).view.loc (thr d L) ↦[(och' off3 h3).view.set]{fullShare} f) : sProp 𝕄)
      ⊢ ((och' off3 h3).view.loc (thr d L) ↦[(och' off3 h3).view.set]{fullShare} GK fi fp ft) := by
  subst e3; subst e1
  exact chunk_to_GK d L fi fp ft I P hI hP _ h3 _ h1 hh hrow hoff hcol rfl f hf

/-- A case split on a decidable fact, read at the case that holds. -/
theorem dite_pos_ent {M : Type} [URA M] {c : Prop} [Decidable c] (hc : c) {t : c → sProp M} {e : ¬ c → sProp M} :
    (dite c t e) ⊢ t hc := by rw [dif_pos hc]
theorem dite_pos_ent' {M : Type} [URA M] {c : Prop} [Decidable c] (hc : c) {t : c → sProp M} {e : ¬ c → sProp M} :
    t hc ⊢ (dite c t e) := by rw [dif_pos hc]

/-- What a trip adds to the waits stays within what the loop may add. -/
theorem waits_trans {W W' W'' : Waits sig (HIx 1)} (h : ∀ p ∈ W', p ∈ W ∨ p.2 = none) (h' : ∀ p ∈ W'', p ∈ W' ∨ p.2 = none) :
    ∀ p ∈ W'', p ∈ W ∨ p.2 = none := by
  intro p hp
  rcases h' p hp with h1 | h1
  · exact h p h1
  · exact .inr h1

end Cert.Proof.KI
end
-- ==== Proof.KITripFirstV.lean ====
import proofs.«206279_g3710851744293_cont_8to1_b_253_31_alg».proof.Proof.KIValLemmas
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

-- The first trip with the contents tracked: what each slot reads before it, what each slot and chunk reads after it.
set_option maxHeartbeats 1600000 in
theorem trip_firstV (d : Dev nD) (L : grid0.Coords) (O : CellTallies nD τ sig (HIx 1)) (W : Waits sig (HIx 1)) (hO : ∀ g, O g none = 0)
    (k : Fin k0_t1_loop.trips) (v2 : BitVec 32)
    (q0 q1 q2 q3 q4 q5 : PosShare TreeShare)
    (ft : Buf (Elt F) ((thr d L).loc main_arg1_scv)) (fo : Buf (Elt F) ((thr d L).loc main_v2_scv))
    (P : Buf (Elt F) ((thr d L).loc cc0_scratch0)) (I : Buf (Elt F) ((thr d L).loc cc0_scratch1))
    (hI : ∀ j, (I j).toNat < 100000) (k0_h2 : k0_cond2 k = 1#1) (k0_h4 : k0_cond4 k = 1#1) (k0_h5 : k0_cond5 k = 1#1) (k0_h7 : k0_cond7 k = 1#1) (k0_h8 : k0_cond8 k = 1#1) (k0_h10 : k0_cond10 k = 1#1) (k0_h11 : k0_cond11 k = 1#1) (k0_h13 : k0_cond13 k = 1#1) (k0_h14 : k0_cond14 k = 1#1) (k0_h16 : k0_cond16 k = 1#1) (k0_h17 : k0_cond17 k = 1#1) (k0_h18 : k0_cond18 k = 1#1) (k0_h19 : k0_cond19 k = 1#1) (k0_h20 : k0_cond20 k = 1#1) (k0_h21 : k0_cond21 k = 1#1) (k0_h22 : k0_cond22 k = 1#1) (k0_h23 : k0_cond23 k = 1#1) (k0_h24 : k0_cond24 k = 1#1) (k0_h25 : k0_cond25 k = 1#1) (k0_h26 : k0_cond26 k = 1#1) (k0_h27 : k0_cond27 k = 1#1) (k0_h28 : k0_cond28 k = 1#1) (k0_h29 : k0_cond29 k = 1#1) (k0_h30 : k0_cond30 k = 1#1) (k0_n1 : ¬ k0_cond1 k = 1#1) (k0_n3 : ¬ k0_cond3 k = 1#1) (k0_n6 : ¬ k0_cond6 k = 1#1) (k0_n9 : ¬ k0_cond9 k = 1#1) (k0_n12 : ¬ k0_cond12 k = 1#1) (k0_n15 : ¬ k0_cond15 k = 1#1)
    (X5 X6 X7 X8 X9 Xg0 Xg1 Xg2 Xg3 Xg4 : Buf (Elt F) ((thr d L).loc cc0_scratch2))
    (go0 go1 go2 go3 go4 : Fin 1 → ℕ) (hgo0 : ∀ a, go0 a + S40.size a ≤ S25600.size a) (hgo1 : ∀ a, go1 a + S40.size a ≤ S25600.size a) (hgo2 : ∀ a, go2 a + S40.size a ≤ S25600.size a) (hgo3 : ∀ a, go3 a + S40.size a ≤ S25600.size a) (hgo4 : ∀ a, go4 a + S40.size a ≤ S25600.size a)
    (hXg0 : (slot0).view.read (Elt F) Xg0 = Gw d L ft I go0 hgo0)
    (hXg1 : (slot1).view.read (Elt F) Xg1 = Gw d L ft I go1 hgo1)
    (hXg2 : (slot2).view.read (Elt F) Xg2 = Gw d L ft I go2 hgo2)
    (hXg3 : (slot3).view.read (Elt F) Xg3 = Gw d L ft I go3 hgo3)
    (hXg4 : (slot4).view.read (Elt F) Xg4 = Gw d L ft I go4 hgo4) :
    (iprop(levAts (K (F := F)).L (K (F := F)).lev
        ∗ ((tV).view.loc (thr d L) ↦{q5} ft)
        ∗ ((s6).view.loc (thr d L) ↦{fullShare} P)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((win' (k0_off100 k) (k0_off100_inb k k0_h17)).view.loc (thr d L) ↦[(win' (k0_off100 k) (k0_off100_inb k k0_h17)).view.set]{fullShare} I)
        ∗ ((win' (k0_off119 k) (k0_off119_inb k k0_h20)).view.loc (thr d L) ↦[(win' (k0_off119 k) (k0_off119_inb k k0_h20)).view.set]{fullShare} I)
        ∗ ((win' (k0_off138 k) (k0_off138_inb k k0_h23)).view.loc (thr d L) ↦[(win' (k0_off138 k) (k0_off138_inb k k0_h23)).view.set]{fullShare} I)
        ∗ ((win' (k0_off157 k) (k0_off157_inb k k0_h26)).view.loc (thr d L) ↦[(win' (k0_off157 k) (k0_off157_inb k k0_h26)).view.set]{fullShare} I)
        ∗ ((win' (k0_off176 k) (k0_off176_inb k k0_h29)).view.loc (thr d L) ↦[(win' (k0_off176 k) (k0_off176_inb k k0_h29)).view.set]{fullShare} I)
        ∗ ((och' (k0_off22 L k) (k0_off22_inb L k k0_h4)).view.loc (thr d L) ↦[(och' (k0_off22 L k) (k0_off22_inb L k k0_h4)).view.set]{fullShare} fo)
        ∗ ((och' (k0_off41 L k) (k0_off41_inb L k k0_h7)).view.loc (thr d L) ↦[(och' (k0_off41 L k) (k0_off41_inb L k k0_h7)).view.set]{fullShare} fo)
        ∗ ((och' (k0_off60 L k) (k0_off60_inb L k k0_h10)).view.loc (thr d L) ↦[(och' (k0_off60 L k) (k0_off60_inb L k k0_h10)).view.set]{fullShare} fo)
        ∗ ((och' (k0_off79 L k) (k0_off79_inb L k k0_h13)).view.loc (thr d L) ↦[(och' (k0_off79 L k) (k0_off79_inb L k k0_h13)).view.set]{fullShare} fo)
        ∗ ((och' (k0_off98 L k) (k0_off98_inb L k k0_h16)).view.loc (thr d L) ↦[(och' (k0_off98 L k) (k0_off98_inb L k k0_h16)).view.set]{fullShare} fo)
        ∗ ((och' (k0_off117 L k) (k0_off117_inb L k k0_h19)).view.loc (thr d L) ↦[(och' (k0_off117 L k) (k0_off117_inb L k k0_h19)).view.set]{fullShare} fo)
        ∗ ((och' (k0_off136 L k) (k0_off136_inb L k k0_h22)).view.loc (thr d L) ↦[(och' (k0_off136 L k) (k0_off136_inb L k k0_h22)).view.set]{fullShare} fo)
        ∗ ((och' (k0_off155 L k) (k0_off155_inb L k k0_h25)).view.loc (thr d L) ↦[(och' (k0_off155 L k) (k0_off155_inb L k k0_h25)).view.set]{fullShare} fo)
        ∗ ((och' (k0_off174 L k) (k0_off174_inb L k k0_h28)).view.loc (thr d L) ↦[(och' (k0_off174 L k) (k0_off174_inb L k k0_h28)).view.set]{fullShare} fo)
        ∗ ((slot5).view.loc (thr d L) ↦[(slot5).view.set]{fullShare} X5)
        ∗ ((slot6).view.loc (thr d L) ↦[(slot6).view.set]{fullShare} X6)
        ∗ ((slot7).view.loc (thr d L) ↦[(slot7).view.set]{fullShare} X7)
        ∗ ((slot8).view.loc (thr d L) ↦[(slot8).view.set]{fullShare} X8)
        ∗ ((slot9).view.loc (thr d L) ↦[(slot9).view.set]{fullShare} X9)
        ∗ semVal ((thr d L, SemLoc.dma cc0_scratch13.sem) : GSem nD τ sig) 0
        ∗ semVal ((thr d L, SemLoc.dma cc0_scratch14.sem) : GSem nD τ sig) 0
        ∗ semVal ((thr d L, SemLoc.dma cc0_scratch15.sem) : GSem nD τ sig) 0
        ∗ semVal ((thr d L, SemLoc.dma cc0_scratch16.sem) : GSem nD τ sig) 0
        ∗ semVal ((thr d L, SemLoc.dma cc0_scratch17.sem) : GSem nD τ sig) 0
        ∗ semVal ((thr d L, SemLoc.dma cc0_scratch18.sem) : GSem nD τ sig) 0
        ∗ semVal ((thr d L, SemLoc.dma cc0_scratch19.sem) : GSem nD τ sig) 0
        ∗ semVal ((thr d L, SemLoc.dma cc0_scratch20.sem) : GSem nD τ sig) 0
        ∗ semVal ((thr d L, SemLoc.dma cc0_scratch21.sem) : GSem nD τ sig) 0
        ∗ semVal ((thr d L, SemLoc.dma cc0_scratch22.sem) : GSem nD τ sig) 0
        ∗ semVal ((thr d L, SemLoc.dma cc0_scratch8.sem) : GSem nD τ sig) 0
        ∗ semVal ((thr d L, SemLoc.dma cc0_scratch9.sem) : GSem nD τ sig) 0
        ∗ semVal ((thr d L, SemLoc.dma cc0_scratch10.sem) : GSem nD τ sig) 0
        ∗ semVal ((thr d L, SemLoc.dma cc0_scratch11.sem) : GSem nD τ sig) 0
        ∗ semVal ((thr d L, SemLoc.dma cc0_scratch12.sem) : GSem nD τ sig) 0
        ∗ Transfers.Flight countersEmb (thr d L) (SemLoc.dma cc0_scratch3.sem) default 163840
            iprop((((slot0).view.loc (thr d L) ↦[(slot0).view.set]{fullShare} Xg0) ∗ ((win' go0 hgo0).view.loc (thr d L) ↦[(win' go0 hgo0).view.set]{fullShare} I))
              ∗ ((tV).view.loc (thr d L) ↦[(tW).view.set]{q0} ft))
        ∗ ((tV).view.loc (thr d L) ↦[Finset.univ \ (tW).view.set]{q0} ft)
        ∗ Transfers.Flight countersEmb (thr d L) (SemLoc.dma cc0_scratch4.sem) default 163840
            iprop((((slot1).view.loc (thr d L) ↦[(slot1).view.set]{fullShare} Xg1) ∗ ((win' go1 hgo1).view.loc (thr d L) ↦[(win' go1 hgo1).view.set]{fullShare} I))
              ∗ ((tV).view.loc (thr d L) ↦[(tW).view.set]{q1} ft))
        ∗ ((tV).view.loc (thr d L) ↦[Finset.univ \ (tW).view.set]{q1} ft)
        ∗ Transfers.Flight countersEmb (thr d L) (SemLoc.dma cc0_scratch5.sem) default 163840
            iprop((((slot2).view.loc (thr d L) ↦[(slot2).view.set]{fullShare} Xg2) ∗ ((win' go2 hgo2).view.loc (thr d L) ↦[(win' go2 hgo2).view.set]{fullShare} I))
              ∗ ((tV).view.loc (thr d L) ↦[(tW).view.set]{q2} ft))
        ∗ ((tV).view.loc (thr d L) ↦[Finset.univ \ (tW).view.set]{q2} ft)
        ∗ Transfers.Flight countersEmb (thr d L) (SemLoc.dma cc0_scratch6.sem) default 163840
            iprop((((slot3).view.loc (thr d L) ↦[(slot3).view.set]{fullShare} Xg3) ∗ ((win' go3 hgo3).view.loc (thr d L) ↦[(win' go3 hgo3).view.set]{fullShare} I))
              ∗ ((tV).view.loc (thr d L) ↦[(tW).view.set]{q3} ft))
        ∗ ((tV).view.loc (thr d L) ↦[Finset.univ \ (tW).view.set]{q3} ft)
        ∗ Transfers.Flight countersEmb (thr d L) (SemLoc.dma cc0_scratch7.sem) default 163840
            iprop((((slot4).view.loc (thr d L) ↦[(slot4).view.set]{fullShare} Xg4) ∗ ((win' go4 hgo4).view.loc (thr d L) ↦[(win' go4 hgo4).view.set]{fullShare} I))
              ∗ ((tV).view.loc (thr d L) ↦[(tW).view.set]{q4} ft))
        ∗ ((tV).view.loc (thr d L) ↦[Finset.univ \ (tW).view.set]{q4} ft)
        ∗ owes (thr d L) O W) : sProp 𝕄)
      ⊢ wp frame (wpE (defs₀ (F := F)) 𝒱₀ (thr d L) none) Set.univ
          (k0_t1_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k ⟨⟩)
          fun _ => iprop(∃ (W' : Waits sig (HIx 1)) (Y0 Y1 Y2 Y3 Y4 Z5 Z6 Z7 Z8 X9' : Buf (Elt F) ((thr d L).loc cc0_scratch2)) (g5 g6 g7 g8 : Buf (Elt F) ((thr d L).loc main_v2_scv)),
            owes (thr d L) O W'
            ∗ ((s6).view.loc (thr d L) ↦{fullShare} P)
            ∗ ((tV).view.loc (thr d L) ↦{q3} ft)
            ∗ ((win' go0 hgo0).view.loc (thr d L) ↦[(win' go0 hgo0).view.set]{fullShare} I)
            ∗ ((win' go1 hgo1).view.loc (thr d L) ↦[(win' go1 hgo1).view.set]{fullShare} I)
            ∗ ((win' go2 hgo2).view.loc (thr d L) ↦[(win' go2 hgo2).view.set]{fullShare} I)
            ∗ ((win' go3 hgo3).view.loc (thr d L) ↦[(win' go3 hgo3).view.set]{fullShare} I)
            ∗ ((win' go4 hgo4).view.loc (thr d L) ↦[(win' go4 hgo4).view.set]{fullShare} I)
            ∗ ((win' (k0_off4 k) (k0_off4_inb k k0_h2)).view.loc (thr d L) ↦[(win' (k0_off4 k) (k0_off4_inb k k0_h2)).view.set]{fullShare} I)
            ∗ ((win' (k0_off24 k) (k0_off24_inb k k0_h5)).view.loc (thr d L) ↦[(win' (k0_off24 k) (k0_off24_inb k k0_h5)).view.set]{fullShare} I)
            ∗ ((win' (k0_off43 k) (k0_off43_inb k k0_h8)).view.loc (thr d L) ↦[(win' (k0_off43 k) (k0_off43_inb k k0_h8)).view.set]{fullShare} I)
            ∗ ((win' (k0_off62 k) (k0_off62_inb k k0_h11)).view.loc (thr d L) ↦[(win' (k0_off62 k) (k0_off62_inb k k0_h11)).view.set]{fullShare} I)
            ∗ ((win' (k0_off81 k) (k0_off81_inb k k0_h14)).view.loc (thr d L) ↦[(win' (k0_off81 k) (k0_off81_inb k k0_h14)).view.set]{fullShare} I)
            ∗ (∃ f, ((och' (k0_off22 L k) (k0_off22_inb L k k0_h4)).view.loc (thr d L) ↦[(och' (k0_off22 L k) (k0_off22_inb L k k0_h4)).view.set]{fullShare} f) ∗ ⌜(och' (k0_off22 L k) (k0_off22_inb L k k0_h4)).view.read (Elt F) f = rowOp 0 P (Gw d L ft I go0 hgo0)⌝)
            ∗ (∃ f, ((och' (k0_off41 L k) (k0_off41_inb L k k0_h7)).view.loc (thr d L) ↦[(och' (k0_off41 L k) (k0_off41_inb L k k0_h7)).view.set]{fullShare} f) ∗ ⌜(och' (k0_off41 L k) (k0_off41_inb L k k0_h7)).view.read (Elt F) f = rowOp 1 P (Gw d L ft I go1 hgo1)⌝)
            ∗ (∃ f, ((och' (k0_off60 L k) (k0_off60_inb L k k0_h10)).view.loc (thr d L) ↦[(och' (k0_off60 L k) (k0_off60_inb L k k0_h10)).view.set]{fullShare} f) ∗ ⌜(och' (k0_off60 L k) (k0_off60_inb L k k0_h10)).view.read (Elt F) f = rowOp 2 P (Gw d L ft I go2 hgo2)⌝)
            ∗ (∃ f, ((och' (k0_off79 L k) (k0_off79_inb L k k0_h13)).view.loc (thr d L) ↦[(och' (k0_off79 L k) (k0_off79_inb L k k0_h13)).view.set]{fullShare} f) ∗ ⌜(och' (k0_off79 L k) (k0_off79_inb L k k0_h13)).view.read (Elt F) f = rowOp 3 P (Gw d L ft I go3 hgo3)⌝)
            ∗ (∃ f, ((och' (k0_off98 L k) (k0_off98_inb L k k0_h16)).view.loc (thr d L) ↦[(och' (k0_off98 L k) (k0_off98_inb L k k0_h16)).view.set]{fullShare} f) ∗ ⌜(och' (k0_off98 L k) (k0_off98_inb L k k0_h16)).view.read (Elt F) f = rowOp 4 P (Gw d L ft I go4 hgo4)⌝)
            ∗ ((slot9).view.loc (thr d L) ↦[(slot9).view.set]{fullShare} X9')
            ∗ semVal ((thr d L, SemLoc.dma cc0_scratch22.sem) : GSem nD τ sig) 0
            ∗ semVal ((thr d L, SemLoc.dma cc0_scratch13.sem) : GSem nD τ sig) 0
            ∗ semVal ((thr d L, SemLoc.dma cc0_scratch14.sem) : GSem nD τ sig) 0
            ∗ semVal ((thr d L, SemLoc.dma cc0_scratch15.sem) : GSem nD τ sig) 0
            ∗ semVal ((thr d L, SemLoc.dma cc0_scratch16.sem) : GSem nD τ sig) 0
            ∗ semVal ((thr d L, SemLoc.dma cc0_scratch17.sem) : GSem nD τ sig) 0
            ∗ semVal ((thr d L, SemLoc.dma cc0_scratch8.sem) : GSem nD τ sig) 0
            ∗ semVal ((thr d L, SemLoc.dma cc0_scratch9.sem) : GSem nD τ sig) 0
            ∗ semVal ((thr d L, SemLoc.dma cc0_scratch10.sem) : GSem nD τ sig) 0
            ∗ semVal ((thr d L, SemLoc.dma cc0_scratch11.sem) : GSem nD τ sig) 0
            ∗ semVal ((thr d L, SemLoc.dma cc0_scratch12.sem) : GSem nD τ sig) 0
            ∗ Transfers.Flight countersEmb (thr d L) (SemLoc.dma cc0_scratch3.sem) default 163840
            iprop((((slot0).view.loc (thr d L) ↦[(slot0).view.set]{fullShare} Y0) ∗ ((win' (k0_off100 k) (k0_off100_inb k k0_h17)).view.loc (thr d L) ↦[(win' (k0_off100 k) (k0_off100_inb k k0_h17)).view.set]{fullShare} I))
              ∗ ((tV).view.loc (thr d L) ↦[(tW).view.set]{q4} ft))
            ∗ ((tV).view.loc (thr d L) ↦[Finset.univ \ (tW).view.set]{q4} ft)
            ∗ Transfers.Flight countersEmb (thr d L) (SemLoc.dma cc0_scratch4.sem) default 163840
            iprop((((slot1).view.loc (thr d L) ↦[(slot1).view.set]{fullShare} Y1) ∗ ((win' (k0_off119 k) (k0_off119_inb k k0_h20)).view.loc (thr d L) ↦[(win' (k0_off119 k) (k0_off119_inb k k0_h20)).view.set]{fullShare} I))
              ∗ ((tV).view.loc (thr d L) ↦[(tW).view.set]{q5} ft))
            ∗ ((tV).view.loc (thr d L) ↦[Finset.univ \ (tW).view.set]{q5} ft)
            ∗ Transfers.Flight countersEmb (thr d L) (SemLoc.dma cc0_scratch5.sem) default 163840
            iprop((((slot2).view.loc (thr d L) ↦[(slot2).view.set]{fullShare} Y2) ∗ ((win' (k0_off138 k) (k0_off138_inb k k0_h23)).view.loc (thr d L) ↦[(win' (k0_off138 k) (k0_off138_inb k k0_h23)).view.set]{fullShare} I))
              ∗ ((tV).view.loc (thr d L) ↦[(tW).view.set]{q0} ft))
            ∗ ((tV).view.loc (thr d L) ↦[Finset.univ \ (tW).view.set]{q0} ft)
            ∗ Transfers.Flight countersEmb (thr d L) (SemLoc.dma cc0_scratch6.sem) default 163840
            iprop((((slot3).view.loc (thr d L) ↦[(slot3).view.set]{fullShare} Y3) ∗ ((win' (k0_off157 k) (k0_off157_inb k k0_h26)).view.loc (thr d L) ↦[(win' (k0_off157 k) (k0_off157_inb k k0_h26)).view.set]{fullShare} I))
              ∗ ((tV).view.loc (thr d L) ↦[(tW).view.set]{q1} ft))
            ∗ ((tV).view.loc (thr d L) ↦[Finset.univ \ (tW).view.set]{q1} ft)
            ∗ Transfers.Flight countersEmb (thr d L) (SemLoc.dma cc0_scratch7.sem) default 163840
            iprop((((slot4).view.loc (thr d L) ↦[(slot4).view.set]{fullShare} Y4) ∗ ((win' (k0_off176 k) (k0_off176_inb k k0_h29)).view.loc (thr d L) ↦[(win' (k0_off176 k) (k0_off176_inb k k0_h29)).view.set]{fullShare} I))
              ∗ ((tV).view.loc (thr d L) ↦[(tW).view.set]{q2} ft))
            ∗ ((tV).view.loc (thr d L) ↦[Finset.univ \ (tW).view.set]{q2} ft)
            ∗ Transfers.Flight countersEmb (thr d L) (SemLoc.dma cc0_scratch18.sem) default 163840
            iprop(((och' (k0_off117 L k) (k0_off117_inb L k k0_h19)).view.loc (thr d L) ↦[(och' (k0_off117 L k) (k0_off117_inb L k k0_h19)).view.set]{fullShare} g5) ∗ ((slot5).view.loc (thr d L) ↦[(slot5).view.set]{fullShare} Z5))
            ∗ Transfers.Flight countersEmb (thr d L) (SemLoc.dma cc0_scratch19.sem) default 163840
            iprop(((och' (k0_off136 L k) (k0_off136_inb L k k0_h22)).view.loc (thr d L) ↦[(och' (k0_off136 L k) (k0_off136_inb L k k0_h22)).view.set]{fullShare} g6) ∗ ((slot6).view.loc (thr d L) ↦[(slot6).view.set]{fullShare} Z6))
            ∗ Transfers.Flight countersEmb (thr d L) (SemLoc.dma cc0_scratch20.sem) default 163840
            iprop(((och' (k0_off155 L k) (k0_off155_inb L k k0_h25)).view.loc (thr d L) ↦[(och' (k0_off155 L k) (k0_off155_inb L k k0_h25)).view.set]{fullShare} g7) ∗ ((slot7).view.loc (thr d L) ↦[(slot7).view.set]{fullShare} Z7))
            ∗ Transfers.Flight countersEmb (thr d L) (SemLoc.dma cc0_scratch21.sem) default 163840
            iprop(((och' (k0_off174 L k) (k0_off174_inb L k k0_h28)).view.loc (thr d L) ↦[(och' (k0_off174 L k) (k0_off174_inb L k k0_h28)).view.set]{fullShare} g8) ∗ ((slot8).view.loc (thr d L) ↦[(slot8).view.set]{fullShare} Z8))
            ∗ ⌜∀ p ∈ W', p ∈ W ∨ p.2 = none⌝
            ∗ ⌜(slot9).view.read (Elt F) X9' = rowOp 4 P (Gw d L ft I (k0_off81 k) (k0_off81_inb k k0_h14))⌝
            ∗ ⌜(slot0).view.read (Elt F) Y0 = Gw d L ft I (k0_off100 k) (k0_off100_inb k k0_h17)⌝
            ∗ ⌜(slot1).view.read (Elt F) Y1 = Gw d L ft I (k0_off119 k) (k0_off119_inb k k0_h20)⌝
            ∗ ⌜(slot2).view.read (Elt F) Y2 = Gw d L ft I (k0_off138 k) (k0_off138_inb k k0_h23)⌝
            ∗ ⌜(slot3).view.read (Elt F) Y3 = Gw d L ft I (k0_off157 k) (k0_off157_inb k k0_h26)⌝
            ∗ ⌜(slot4).view.read (Elt F) Y4 = Gw d L ft I (k0_off176 k) (k0_off176_inb k k0_h29)⌝
            ∗ ⌜(och' (k0_off117 L k) (k0_off117_inb L k k0_h19)).view.read (Elt F) g5 = rowOp 0 P (Gw d L ft I (k0_off4 k) (k0_off4_inb k k0_h2))⌝
            ∗ ⌜(och' (k0_off136 L k) (k0_off136_inb L k k0_h22)).view.read (Elt F) g6 = rowOp 1 P (Gw d L ft I (k0_off24 k) (k0_off24_inb k k0_h5))⌝
            ∗ ⌜(och' (k0_off155 L k) (k0_off155_inb L k k0_h25)).view.read (Elt F) g7 = rowOp 2 P (Gw d L ft I (k0_off43 k) (k0_off43_inb k k0_h8))⌝
            ∗ ⌜(och' (k0_off174 L k) (k0_off174_inb L k k0_h28)).view.read (Elt F) g8 = rowOp 3 P (Gw d L ft I (k0_off62 k) (k0_off62_inb k k0_h11))⌝) := by
  have htrips0 : Scf.trips k0_t2_loop.lb k0_t2_loop.ub k0_t2_loop.st = 40 := by decide
  have htrips1 : Scf.trips k0_t3_loop.lb k0_t3_loop.ub k0_t3_loop.st = 40 := by decide
  have htrips2 : Scf.trips k0_t4_loop.lb k0_t4_loop.ub k0_t4_loop.st = 40 := by decide
  have htrips3 : Scf.trips k0_t5_loop.lb k0_t5_loop.ub k0_t5_loop.st = 40 := by decide
  have htrips4 : Scf.trips k0_t6_loop.lb k0_t6_loop.ub k0_t6_loop.st = 40 := by decide
  have htrips5 : Scf.trips k0_t7_loop.lb k0_t7_loop.ub k0_t7_loop.st = 40 := by decide
  have htrips6 : Scf.trips k0_t8_loop.lb k0_t8_loop.ub k0_t8_loop.st = 40 := by decide
  have htrips7 : Scf.trips k0_t9_loop.lb k0_t9_loop.ub k0_t9_loop.st = 40 := by decide
  have htrips8 : Scf.trips k0_t10_loop.lb k0_t10_loop.ub k0_t10_loop.st = 40 := by decide
  have htrips9 : Scf.trips k0_t11_loop.lb k0_t11_loop.ub k0_t11_loop.st = 40 := by decide
  unfold k0_t1_body
  iintro ⟨#Hlv, Ht5, H6, Hwin0, Hwin1, Hwin2, Hwin3, Hwin4, Hwin5, Hwin6, Hwin7, Hwin8, Hwin9, Hoch1, Hoch2, Hoch3, Hoch4, Hoch5, Hoch6, Hoch7, Hoch8, Hoch9, Hs5, Hs6, Hs7, Hs8, H9, Hw0, Hw1, Hw2, Hw3, Hw4, Hw5, Hw6, Hw7, Hw8, Hw9, Hg5, Hg6, Hg7, Hg8, Hg9, GF0, RT0, GF1, RT1, GF2, RT2, GF3, RT3, GF4, RT4, HO⟩
  ihave Hmw := ((K (F := F)).mayWaits_none (thr := thr d L) hO) $$ Hlv
  have hin : ∀ (r : Rect S25600) (hr) (x : r.shape.Idx),
      BitVec.toNat (View.read (Elt F) ((s7).slice r hr).view I x) < 100000 := fun r hr x => by
    rw [View.read_apply]; exact hI _
  sl_exec
  sl_for (invInV0 d L P (Gw d L ft I go0 hgo0)) $$ [H6 GF0_dst]
  case region =>
    intro r _
    have hr40 : r.val < 40 := lt_of_lt_of_eq r.isLt htrips0
    unfold invInV0
    iintro ⟨H6, %f, Hs, %hf⟩
    sl_exec
    sl_step
    isplitl [H6]; · iexact H6
    iexists _; isplitl [Hs]; · iexact Hs
    ipureintro
    sl_unfold_run_names
    intro y
    exact rowStep (slot0).view 0 r.val hr40 P _ f (k0_off6_eq r) (k0_off7_eq r) (k0_off8_eq r) (k0_off9_eq r) (k0_off10_eq r) (k0_off11_eq r) (k0_off12_eq r) (k0_off13_eq r) (k0_off14_eq r) (k0_off15_eq r) (k0_off16_eq r) (k0_off17_eq r) (k0_off18_eq r) (k0_off19_eq r) (k0_off20_eq r) (k0_off21_eq r) hf y
  · unfold invInV0
    isplitl [H6]; · iexact H6
    iexists _; isplitl [GF0_dst]; · iexact GF0_dst
    ipureintro; intro y; rw [if_neg (Nat.not_lt_zero _)]
    exact congrFun hXg0 y
  iintro %_ HI
  unfold invInV0
  icases HI with ⟨H6, %fs0, Hsl0, %hf0⟩
  have hr0 : (slot0).view.read (Elt F) fs0 = rowOp 0 P (Gw d L ft I go0 hgo0) := by
    funext y; rw [hf0 y, htrips0, if_pos (show (y 0).val < 40 from (y 0).isLt)]
  sl_exec
  sl_for (invInV1 d L P (Gw d L ft I go1 hgo1)) $$ [H6 GF1_dst]
  case region =>
    intro r _
    have hr40 : r.val < 40 := lt_of_lt_of_eq r.isLt htrips1
    unfold invInV1
    iintro ⟨H6, %f, Hs, %hf⟩
    sl_exec
    sl_step
    isplitl [H6]; · iexact H6
    iexists _; isplitl [Hs]; · iexact Hs
    ipureintro
    sl_unfold_run_names
    intro y
    exact rowStep (slot1).view 1 r.val hr40 P _ f (k0_off25_eq r) (k0_off26_eq r) (k0_off27_eq r) (k0_off28_eq r) (k0_off29_eq r) (k0_off30_eq r) (k0_off31_eq r) (k0_off32_eq r) (k0_off33_eq r) (k0_off34_eq r) (k0_off35_eq r) (k0_off36_eq r) (k0_off37_eq r) (k0_off38_eq r) (k0_off39_eq r) (k0_off40_eq r) hf y
  · unfold invInV1
    isplitl [H6]; · iexact H6
    iexists _; isplitl [GF1_dst]; · iexact GF1_dst
    ipureintro; intro y; rw [if_neg (Nat.not_lt_zero _)]
    exact congrFun hXg1 y
  iintro %_ HI
  unfold invInV1
  icases HI with ⟨H6, %fs1, Hsl1, %hf1⟩
  have hr1 : (slot1).view.read (Elt F) fs1 = rowOp 1 P (Gw d L ft I go1 hgo1) := by
    funext y; rw [hf1 y, htrips1, if_pos (show (y 0).val < 40 from (y 0).isLt)]
  sl_exec
  sl_for (invInV2 d L P (Gw d L ft I go2 hgo2)) $$ [H6 GF2_dst]
  case region =>
    intro r _
    have hr40 : r.val < 40 := lt_of_lt_of_eq r.isLt htrips2
    unfold invInV2
    iintro ⟨H6, %f, Hs, %hf⟩
    sl_exec
    sl_step
    isplitl [H6]; · iexact H6
    iexists _; isplitl [Hs]; · iexact Hs
    ipureintro
    sl_unfold_run_names
    intro y
    exact rowStep (slot2).view 2 r.val hr40 P _ f (k0_off44_eq r) (k0_off45_eq r) (k0_off46_eq r) (k0_off47_eq r) (k0_off48_eq r) (k0_off49_eq r) (k0_off50_eq r) (k0_off51_eq r) (k0_off52_eq r) (k0_off53_eq r) (k0_off54_eq r) (k0_off55_eq r) (k0_off56_eq r) (k0_off57_eq r) (k0_off58_eq r) (k0_off59_eq r) hf y
  · unfold invInV2
    isplitl [H6]; · iexact H6
    iexists _; isplitl [GF2_dst]; · iexact GF2_dst
    ipureintro; intro y; rw [if_neg (Nat.not_lt_zero _)]
    exact congrFun hXg2 y
  iintro %_ HI
  unfold invInV2
  icases HI with ⟨H6, %fs2, Hsl2, %hf2⟩
  have hr2 : (slot2).view.read (Elt F) fs2 = rowOp 2 P (Gw d L ft I go2 hgo2) := by
    funext y; rw [hf2 y, htrips2, if_pos (show (y 0).val < 40 from (y 0).isLt)]
  sl_exec
  sl_for (invInV3 d L P (Gw d L ft I go3 hgo3)) $$ [H6 GF3_dst]
  case region =>
    intro r _
    have hr40 : r.val < 40 := lt_of_lt_of_eq r.isLt htrips3
    unfold invInV3
    iintro ⟨H6, %f, Hs, %hf⟩
    sl_exec
    sl_step
    isplitl [H6]; · iexact H6
    iexists _; isplitl [Hs]; · iexact Hs
    ipureintro
    sl_unfold_run_names
    intro y
    exact rowStep (slot3).view 3 r.val hr40 P _ f (k0_off63_eq r) (k0_off64_eq r) (k0_off65_eq r) (k0_off66_eq r) (k0_off67_eq r) (k0_off68_eq r) (k0_off69_eq r) (k0_off70_eq r) (k0_off71_eq r) (k0_off72_eq r) (k0_off73_eq r) (k0_off74_eq r) (k0_off75_eq r) (k0_off76_eq r) (k0_off77_eq r) (k0_off78_eq r) hf y
  · unfold invInV3
    isplitl [H6]; · iexact H6
    iexists _; isplitl [GF3_dst]; · iexact GF3_dst
    ipureintro; intro y; rw [if_neg (Nat.not_lt_zero _)]
    exact congrFun hXg3 y
  iintro %_ HI
  unfold invInV3
  icases HI with ⟨H6, %fs3, Hsl3, %hf3⟩
  have hr3 : (slot3).view.read (Elt F) fs3 = rowOp 3 P (Gw d L ft I go3 hgo3) := by
    funext y; rw [hf3 y, htrips3, if_pos (show (y 0).val < 40 from (y 0).isLt)]
  sl_exec
  sl_for (invInV4 d L P (Gw d L ft I go4 hgo4)) $$ [H6 GF4_dst]
  case region =>
    intro r _
    have hr40 : r.val < 40 := lt_of_lt_of_eq r.isLt htrips4
    unfold invInV4
    iintro ⟨H6, %f, Hs, %hf⟩
    sl_exec
    sl_step
    isplitl [H6]; · iexact H6
    iexists _; isplitl [Hs]; · iexact Hs
    ipureintro
    sl_unfold_run_names
    intro y
    exact rowStep (slot4).view 4 r.val hr40 P _ f (k0_off82_eq r) (k0_off83_eq r) (k0_off84_eq r) (k0_off85_eq r) (k0_off86_eq r) (k0_off87_eq r) (k0_off88_eq r) (k0_off89_eq r) (k0_off90_eq r) (k0_off91_eq r) (k0_off92_eq r) (k0_off93_eq r) (k0_off94_eq r) (k0_off95_eq r) (k0_off96_eq r) (k0_off97_eq r) hf y
  · unfold invInV4
    isplitl [H6]; · iexact H6
    iexists _; isplitl [GF4_dst]; · iexact GF4_dst
    ipureintro; intro y; rw [if_neg (Nat.not_lt_zero _)]
    exact congrFun hXg4 y
  iintro %_ HI
  unfold invInV4
  icases HI with ⟨H6, %fs4, Hsl4, %hf4⟩
  have hr4 : (slot4).view.read (Elt F) fs4 = rowOp 4 P (Gw d L ft I go4 hgo4) := by
    funext y; rw [hf4 y, htrips4, if_pos (show (y 0).val < 40 from (y 0).isLt)]
  sl_exec
  sl_for (invInV5 d L P (Gw d L ft I (k0_off4 k) (k0_off4_inb k k0_h2))) $$ [H6 Hs5]
  case region =>
    intro r _
    have hr40 : r.val < 40 := lt_of_lt_of_eq r.isLt htrips5
    unfold invInV5
    iintro ⟨H6, %f, Hs, %hf⟩
    sl_exec
    sl_step
    isplitl [H6]; · iexact H6
    iexists _; isplitl [Hs]; · iexact Hs
    ipureintro
    sl_unfold_run_names
    intro y
    exact rowStep (slot5).view 0 r.val hr40 P _ f (k0_off101_eq r) (k0_off102_eq r) (k0_off103_eq r) (k0_off104_eq r) (k0_off105_eq r) (k0_off106_eq r) (k0_off107_eq r) (k0_off108_eq r) (k0_off109_eq r) (k0_off110_eq r) (k0_off111_eq r) (k0_off112_eq r) (k0_off113_eq r) (k0_off114_eq r) (k0_off115_eq r) (k0_off116_eq r) hf y
  · unfold invInV5
    isplitl [H6]; · iexact H6
    iexists _; isplitl [Hs5]; · iexact Hs5
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV5
  icases HI with ⟨H6, %fs5, Hsl5, %hf5⟩
  have hr5 : (slot5).view.read (Elt F) fs5 = rowOp 0 P (Gw d L ft I (k0_off4 k) (k0_off4_inb k k0_h2)) := by
    funext y; rw [hf5 y, htrips5, if_pos (show (y 0).val < 40 from (y 0).isLt)]
  sl_exec
  sl_for (invInV6 d L P (Gw d L ft I (k0_off24 k) (k0_off24_inb k k0_h5))) $$ [H6 Hs6]
  case region =>
    intro r _
    have hr40 : r.val < 40 := lt_of_lt_of_eq r.isLt htrips6
    unfold invInV6
    iintro ⟨H6, %f, Hs, %hf⟩
    sl_exec
    sl_step
    isplitl [H6]; · iexact H6
    iexists _; isplitl [Hs]; · iexact Hs
    ipureintro
    sl_unfold_run_names
    intro y
    exact rowStep (slot6).view 1 r.val hr40 P _ f (k0_off120_eq r) (k0_off121_eq r) (k0_off122_eq r) (k0_off123_eq r) (k0_off124_eq r) (k0_off125_eq r) (k0_off126_eq r) (k0_off127_eq r) (k0_off128_eq r) (k0_off129_eq r) (k0_off130_eq r) (k0_off131_eq r) (k0_off132_eq r) (k0_off133_eq r) (k0_off134_eq r) (k0_off135_eq r) hf y
  · unfold invInV6
    isplitl [H6]; · iexact H6
    iexists _; isplitl [Hs6]; · iexact Hs6
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV6
  icases HI with ⟨H6, %fs6, Hsl6, %hf6⟩
  have hr6 : (slot6).view.read (Elt F) fs6 = rowOp 1 P (Gw d L ft I (k0_off24 k) (k0_off24_inb k k0_h5)) := by
    funext y; rw [hf6 y, htrips6, if_pos (show (y 0).val < 40 from (y 0).isLt)]
  sl_exec
  sl_for (invInV7 d L P (Gw d L ft I (k0_off43 k) (k0_off43_inb k k0_h8))) $$ [H6 Hs7]
  case region =>
    intro r _
    have hr40 : r.val < 40 := lt_of_lt_of_eq r.isLt htrips7
    unfold invInV7
    iintro ⟨H6, %f, Hs, %hf⟩
    sl_exec
    sl_step
    isplitl [H6]; · iexact H6
    iexists _; isplitl [Hs]; · iexact Hs
    ipureintro
    sl_unfold_run_names
    intro y
    exact rowStep (slot7).view 2 r.val hr40 P _ f (k0_off139_eq r) (k0_off140_eq r) (k0_off141_eq r) (k0_off142_eq r) (k0_off143_eq r) (k0_off144_eq r) (k0_off145_eq r) (k0_off146_eq r) (k0_off147_eq r) (k0_off148_eq r) (k0_off149_eq r) (k0_off150_eq r) (k0_off151_eq r) (k0_off152_eq r) (k0_off153_eq r) (k0_off154_eq r) hf y
  · unfold invInV7
    isplitl [H6]; · iexact H6
    iexists _; isplitl [Hs7]; · iexact Hs7
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV7
  icases HI with ⟨H6, %fs7, Hsl7, %hf7⟩
  have hr7 : (slot7).view.read (Elt F) fs7 = rowOp 2 P (Gw d L ft I (k0_off43 k) (k0_off43_inb k k0_h8)) := by
    funext y; rw [hf7 y, htrips7, if_pos (show (y 0).val < 40 from (y 0).isLt)]
  sl_exec
  sl_for (invInV8 d L P (Gw d L ft I (k0_off62 k) (k0_off62_inb k k0_h11))) $$ [H6 Hs8]
  case region =>
    intro r _
    have hr40 : r.val < 40 := lt_of_lt_of_eq r.isLt htrips8
    unfold invInV8
    iintro ⟨H6, %f, Hs, %hf⟩
    sl_exec
    sl_step
    isplitl [H6]; · iexact H6
    iexists _; isplitl [Hs]; · iexact Hs
    ipureintro
    sl_unfold_run_names
    intro y
    exact rowStep (slot8).view 3 r.val hr40 P _ f (k0_off158_eq r) (k0_off159_eq r) (k0_off160_eq r) (k0_off161_eq r) (k0_off162_eq r) (k0_off163_eq r) (k0_off164_eq r) (k0_off165_eq r) (k0_off166_eq r) (k0_off167_eq r) (k0_off168_eq r) (k0_off169_eq r) (k0_off170_eq r) (k0_off171_eq r) (k0_off172_eq r) (k0_off173_eq r) hf y
  · unfold invInV8
    isplitl [H6]; · iexact H6
    iexists _; isplitl [Hs8]; · iexact Hs8
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV8
  icases HI with ⟨H6, %fs8, Hsl8, %hf8⟩
  have hr8 : (slot8).view.read (Elt F) fs8 = rowOp 3 P (Gw d L ft I (k0_off62 k) (k0_off62_inb k k0_h11)) := by
    funext y; rw [hf8 y, htrips8, if_pos (show (y 0).val < 40 from (y 0).isLt)]
  sl_exec
  sl_for (invInV9 d L P (Gw d L ft I (k0_off81 k) (k0_off81_inb k k0_h14))) $$ [H6 H9]
  case region =>
    intro r _
    have hr40 : r.val < 40 := lt_of_lt_of_eq r.isLt htrips9
    unfold invInV9
    iintro ⟨H6, %f, Hs, %hf⟩
    sl_exec
    sl_step
    isplitl [H6]; · iexact H6
    iexists _; isplitl [Hs]; · iexact Hs
    ipureintro
    sl_unfold_run_names
    intro y
    exact rowStep (slot9).view 4 r.val hr40 P _ f (k0_off177_eq r) (k0_off178_eq r) (k0_off179_eq r) (k0_off180_eq r) (k0_off181_eq r) (k0_off182_eq r) (k0_off183_eq r) (k0_off184_eq r) (k0_off185_eq r) (k0_off186_eq r) (k0_off187_eq r) (k0_off188_eq r) (k0_off189_eq r) (k0_off190_eq r) (k0_off191_eq r) (k0_off192_eq r) hf y
  · unfold invInV9
    isplitl [H6]; · iexact H6
    iexists _; isplitl [H9]; · iexact H9
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV9
  icases HI with ⟨H6, %fs9, Hsl9, %hf9⟩
  have hr9 : (slot9).view.read (Elt F) fs9 = rowOp 4 P (Gw d L ft I (k0_off81 k) (k0_off81_inb k k0_h14)) := by
    funext y; rw [hf9 y, htrips9, if_pos (show (y 0).val < 40 from (y 0).isLt)]
  sl_exec
  sl_step
  iexists _, _, _, _, _, _, _, _, _, _, _, _, _, _, _
  isplitl [HO]; · iexact HO
  isplitl [H6]; · iexact H6
  isplitl [RT3]; · iexact RT3
  isplitl [GF0_dst_and]; · iexact GF0_dst_and
  isplitl [GF1_dst_and]; · iexact GF1_dst_and
  isplitl [GF2_dst_and]; · iexact GF2_dst_and
  isplitl [GF3_dst_and]; · iexact GF3_dst_and
  isplitl [GF4_dst_and]; · iexact GF4_dst_and
  isplitl [Hwin0]; · iexact Hwin0
  isplitl [Hwin1]; · iexact Hwin1
  isplitl [Hwin2]; · iexact Hwin2
  isplitl [Hwin3]; · iexact Hwin3
  isplitl [Hwin4]; · iexact Hwin4
  isplitl [Hoch1]
  · iexists _; isplitl [Hoch1]; · iexact Hoch1
    ipureintro; refine (View.read_writes_whole _ _ _).trans ?_; sl_unfold_run_names; exact hr0
  isplitl [Hoch2]
  · iexists _; isplitl [Hoch2]; · iexact Hoch2
    ipureintro; refine (View.read_writes_whole _ _ _).trans ?_; sl_unfold_run_names; exact hr1
  isplitl [Hoch3]
  · iexists _; isplitl [Hoch3]; · iexact Hoch3
    ipureintro; refine (View.read_writes_whole _ _ _).trans ?_; sl_unfold_run_names; exact hr2
  isplitl [Hoch4]
  · iexists _; isplitl [Hoch4]; · iexact Hoch4
    ipureintro; refine (View.read_writes_whole _ _ _).trans ?_; sl_unfold_run_names; exact hr3
  isplitl [Hoch5]
  · iexists _; isplitl [Hoch5]; · iexact Hoch5
    ipureintro; refine (View.read_writes_whole _ _ _).trans ?_; sl_unfold_run_names; exact hr4
  isplitl [Hsl9]; · iexact Hsl9
  isplitl [Hw9]; · iexact Hw9
  isplitl [Hw0]; · iexact Hw0
  isplitl [Hw1]; · iexact Hw1
  isplitl [Hw2]; · iexact Hw2
  isplitl [Hw3]; · iexact Hw3
  isplitl [Hw4]; · iexact Hw4
  isplitl [Hg5]; · iexact Hg5
  isplitl [Hg6]; · iexact Hg6
  isplitl [Hg7]; · iexact Hg7
  isplitl [Hg8]; · iexact Hg8
  isplitl [Hg9]; · iexact Hg9
  isplitl [GF0]; · iexact GF0
  isplitl [RT4]; · iexact RT4
  isplitl [GF1]; · iexact GF1
  isplitl [Ht5]; · iexact Ht5
  isplitl [GF2]; · iexact GF2
  isplitl [RT0]; · iexact RT0
  isplitl [GF3]; · iexact GF3
  isplitl [RT1]; · iexact RT1
  isplitl [GF4]; · iexact GF4
  isplitl [RT2]; · iexact RT2
  isplitl [Hw5]; · iexact Hw5
  isplitl [Hw6]; · iexact Hw6
  isplitl [Hw7]; · iexact Hw7
  isplitl [Hw8]; · iexact Hw8
  isplitr
  · ipureintro
    repeat' apply waits_step
    exact fun p hp => .inl hp
  isplitr; · ipureintro; exact hr9
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact hr5
  isplitr; · ipureintro; refine (View.read_writes_whole _ _ _).trans ?_; sl_unfold_run_names; exact hr6
  isplitr; · ipureintro; refine (View.read_writes_whole _ _ _).trans ?_; sl_unfold_run_names; exact hr7
  ipureintro; refine (View.read_writes_whole _ _ _).trans ?_; sl_unfold_run_names; exact hr8

end Cert.Proof.KI
end
-- ==== Proof.KIRegionFirst.lean ====
/-
  The first trip of the main loop takes the loop's invariant before it to the invariant after it: the five gathers
  started before the loop are the transfers in flight, no write-out is waited for, and the chunks the trip computes
  are the first five of the tile's rows.
-/
import proofs.«206279_g3710851744293_cont_8to1_b_253_31_alg».proof.Proof.KIRegionPre
import proofs.«206279_g3710851744293_cont_8to1_b_253_31_alg».proof.Proof.KITripFirstV
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

theorem region_first (d : Dev nD) (L : grid0.Coords) (O : CellTallies nD τ sig (HIx 1)) (W : Waits sig (HIx 1)) (hO : ∀ g, O g none = 0)
    (fi : Buf (Elt F) (iLoc d)) (fp : Buf (Elt F) (pLoc d))
    (ft : Buf (Elt F) ((thr d L).loc main_arg1_scv)) (fo : Buf (Elt F) ((thr d L).loc main_v2_scv))
    (P : Buf (Elt F) ((thr d L).loc cc0_scratch0)) (I : Buf (Elt F) ((thr d L).loc cc0_scratch1))
    (hI : ∀ j, (I j).toNat < 100000)
    (hIdef : ∀ j : Fin 25600, I (ValueIdx.ix1 j) = fi (ValueIdx.ix1 ⟨25600 * (wid L).val + j.val, by have := (wid L).isLt; have := j.isLt; omega⟩))
    (hP : ∀ y, P y = fp y) (k : Fin k0_t1_loop.trips) (hk : k.val = 0) (v2 : BitVec 32) :
    (Inv d L ft I P O W fo (GK fi fp ft) k.val () : sProp 𝕄)
      ⊢ wp frame (wpE (defs₀ (F := F)) 𝒱₀ (thr d L) none) Set.univ
          (k0_t1_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k ⟨⟩)
          fun _ => Inv d L ft I P O W fo (GK fi fp ft) (k.val + 1) () := by
  obtain ⟨⟨k0_h2, k0_h4, k0_h5, k0_h7, k0_h8, k0_h10, k0_h11, k0_h13, k0_h14, k0_h16, k0_h17, k0_h18, k0_h19, k0_h20, k0_h21, k0_h22, k0_h23, k0_h24, k0_h25, k0_h26, k0_h27, k0_h28, k0_h29, k0_h30⟩, k0_n1, k0_n3, k0_n6, k0_n9, k0_n12, k0_n15⟩ := conds_first k hk
  have hk62 : k.val ≤ 62 := by omega
  have hk0' : ¬ (k.val + 1 = 0) := by omega
  have hk63' : k.val + 1 ≤ 63 := by omega
  unfold Inv RingMid Ring0
  rw [if_pos hk, if_neg hk0', if_pos hk63']
  iintro ⟨%W', #Hlev, Howes, %hW', H6, Hbooks, %q0, %q1, %q2, %q3, %q4, %q5, %X5, %X6, %X7, %X8, %X9, %Xg0, %Xg1, %Xg2, %Xg3, %Xg4, %hSh, Ht5, Hs5, Hs6, Hs7, Hs8, Hs9, S13, S14, S15, S16, S17, S18, S19, S20, S21, S22, S8, S9, S10, S11, S12, GF0, RT0, GF1, RT1, GF2, RT2, GF3, RT3, GF4, RT4, %hXg0, %hXg1, %hXg2, %hXg3, %hXg4⟩
  ihave Hb := (books_take_first d L I fo (GK fi fp ft) k hk k0_h2 k0_h5 k0_h8 k0_h11 k0_h14 k0_h17 k0_h20 k0_h23 k0_h26 k0_h29 k0_h4 k0_h7 k0_h10 k0_h13 k0_h16 k0_h19 k0_h22 k0_h25 k0_h28) $$ Hbooks
  icases Hb with ⟨Hbooks, Hw4, Hw24, Hw43, Hw62, Hw81, Hw100, Hw119, Hw138, Hw157, Hw176, Ho22, Ho41, Ho60, Ho79, Ho98, Ho117, Ho136, Ho155, Ho174⟩
  iapply (wp_wand_r frame _ _)
  isplitl [Ht5 H6 Hw4 Hw24 Hw43 Hw62 Hw81 Hw100 Hw119 Hw138 Hw157 Hw176 Ho22 Ho41 Ho60 Ho79 Ho98 Ho117 Ho136 Ho155 Ho174 Hs5 Hs6 Hs7 Hs8 Hs9 S13 S14 S15 S16 S17 S18 S19 S20 S21 S22 S8 S9 S10 S11 S12 GF0 RT0 GF1 RT1 GF2 RT2 GF3 RT3 GF4 RT4 Howes]
  · iapply (trip_firstV d L O W' hO k v2 q0 q1 q2 q3 q4 q5 ft fo P I hI k0_h2 k0_h4 k0_h5 k0_h7 k0_h8 k0_h10 k0_h11 k0_h13 k0_h14 k0_h16 k0_h17 k0_h18 k0_h19 k0_h20 k0_h21 k0_h22 k0_h23 k0_h24 k0_h25 k0_h26 k0_h27 k0_h28 k0_h29 k0_h30 k0_n1 k0_n3 k0_n6 k0_n9 k0_n12 k0_n15 X5 X6 X7 X8 X9 Xg0 Xg1 Xg2 Xg3 Xg4 ![0] ![40] ![80] ![120] ![160] hgw0 hgw1 hgw2 hgw3 hgw4 hXg0 hXg1 hXg2 hXg3 hXg4)
    isplitl []; · iexact Hlev
    isplitl [Ht5]; · iexact Ht5
    isplitl [H6]; · iexact H6
    isplitl [Hw4]; · iexact Hw4
    isplitl [Hw24]; · iexact Hw24
    isplitl [Hw43]; · iexact Hw43
    isplitl [Hw62]; · iexact Hw62
    isplitl [Hw81]; · iexact Hw81
    isplitl [Hw100]; · iexact Hw100
    isplitl [Hw119]; · iexact Hw119
    isplitl [Hw138]; · iexact Hw138
    isplitl [Hw157]; · iexact Hw157
    isplitl [Hw176]; · iexact Hw176
    isplitl [Ho22]; · iexact Ho22
    isplitl [Ho41]; · iexact Ho41
    isplitl [Ho60]; · iexact Ho60
    isplitl [Ho79]; · iexact Ho79
    isplitl [Ho98]; · iexact Ho98
    isplitl [Ho117]; · iexact Ho117
    isplitl [Ho136]; · iexact Ho136
    isplitl [Ho155]; · iexact Ho155
    isplitl [Ho174]; · iexact Ho174
    isplitl [Hs5]; · iexact Hs5
    isplitl [Hs6]; · iexact Hs6
    isplitl [Hs7]; · iexact Hs7
    isplitl [Hs8]; · iexact Hs8
    isplitl [Hs9]; · iexact Hs9
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S8]; · iexact S8
    isplitl [S9]; · iexact S9
    isplitl [S10]; · iexact S10
    isplitl [S11]; · iexact S11
    isplitl [S12]; · iexact S12
    isplitl [GF0]; · iexact GF0
    isplitl [RT0]; · iexact RT0
    isplitl [GF1]; · iexact GF1
    isplitl [RT1]; · iexact RT1
    isplitl [GF2]; · iexact GF2
    isplitl [RT2]; · iexact RT2
    isplitl [GF3]; · iexact GF3
    isplitl [RT3]; · iexact RT3
    isplitl [GF4]; · iexact GF4
    isplitl [RT4]; · iexact RT4
    iexact Howes
  iintro %u Hpost
  icases Hpost with ⟨%W'', %Y0', %Y1', %Y2', %Y3', %Y4', %Z5', %Z6', %Z7', %Z8', %X9', %g5', %g6', %g7', %g8', Howes, H6, Ht3, Hwg0, Hwg1, Hwg2, Hwg3, Hwg4, Hw4, Hw24, Hw43, Hw62, Hw81, ⟨%f22, Ho22, %hf22⟩, ⟨%f41, Ho41, %hf41⟩, ⟨%f60, Ho60, %hf60⟩, ⟨%f79, Ho79, %hf79⟩, ⟨%f98, Ho98, %hf98⟩, Hs9, S22, S13, S14, S15, S16, S17, S8, S9, S10, S11, S12, GF0, RT4, GF1, RT5, GF2, RT0, GF3, RT1, GF4, RT2, WF5, WF6, WF7, WF8, %hW'', %hX9', %hY0', %hY1', %hY2', %hY3', %hY4', %hg5', %hg6', %hg7', %hg8'⟩
  ihave Ho22 := (chunk_to_GK' d L fi fp ft I P hIdef hP (k0_off22_inb L k k0_h4) hgw0 (k0_off22_eq L k) rfl 0 (by omega) (by omega) rfl f22 hf22) $$ Ho22
  ihave Ho41 := (chunk_to_GK' d L fi fp ft I P hIdef hP (k0_off41_inb L k k0_h7) hgw1 (k0_off41_eq L k) rfl 1 (by omega) (by omega) rfl f41 hf41) $$ Ho41
  ihave Ho60 := (chunk_to_GK' d L fi fp ft I P hIdef hP (k0_off60_inb L k k0_h10) hgw2 (k0_off60_eq L k) rfl 2 (by omega) (by omega) rfl f60 hf60) $$ Ho60
  ihave Ho79 := (chunk_to_GK' d L fi fp ft I P hIdef hP (k0_off79_inb L k k0_h13) hgw3 (k0_off79_eq L k) rfl 3 (by omega) (by omega) rfl f79 hf79) $$ Ho79
  ihave Ho98 := (chunk_to_GK' d L fi fp ft I P hIdef hP (k0_off98_inb L k k0_h16) hgw4 (k0_off98_eq L k) rfl 4 (by omega) (by omega) rfl f98 hf98) $$ Ho98
  ihave Hbooks2 := (books_put_first d L I fo (GK fi fp ft) k hk k0_h2 k0_h5 k0_h8 k0_h11 k0_h14 k0_h4 k0_h7 k0_h10 k0_h13 k0_h16 hgw0 hgw1 hgw2 hgw3 hgw4) $$ [Hbooks Hwg0 Hwg1 Hwg2 Hwg3 Hwg4 Hw4 Hw24 Hw43 Hw62 Hw81 Ho22 Ho41 Ho60 Ho79 Ho98]
  · isplitl [Hbooks]; · iexact Hbooks
    isplitl [Hwg0]; · iexact Hwg0
    isplitl [Hwg1]; · iexact Hwg1
    isplitl [Hwg2]; · iexact Hwg2
    isplitl [Hwg3]; · iexact Hwg3
    isplitl [Hwg4]; · iexact Hwg4
    isplitl [Hw4]; · iexact Hw4
    isplitl [Hw24]; · iexact Hw24
    isplitl [Hw43]; · iexact Hw43
    isplitl [Hw62]; · iexact Hw62
    isplitl [Hw81]; · iexact Hw81
    isplitl [Ho22]; · iexact Ho22
    isplitl [Ho41]; · iexact Ho41
    isplitl [Ho60]; · iexact Ho60
    isplitl [Ho79]; · iexact Ho79
    iexact Ho98
  iexists W''
  isplitl []; · iexact Hlev
  isplitl [Howes]; · iexact Howes
  isplitl []; · ipureintro; exact waits_trans hW' hW''
  isplitl [H6]; · iexact H6
  isplitl [Hbooks2]; · iapply (Books_congr d L I fo (GK fi fp ft) 10 15 5 9 (10 * (k.val + 1)) (10 * (k.val + 1) + 5) (10 * (k.val + 1) - 5) (10 * (k.val + 1) - 1) (by omega) (by omega) (by omega) (by omega)); iexact Hbooks2
  iexists k
  isplitl []; · ipureintro; rfl
  iapply (dite_pos_ent' hk62)
  iexists q4, q5, q0, q1, q2, q3, Y0', Y1', Y2', Y3', Y4', Z5', Z6', Z7', Z8', X9', g5', g6', g7', g8'
  isplitl []; · ipureintro; exact hSh.rot
  isplitl [Ht3]; · iexact Ht3
  isplitl [Hs9]; · iexact Hs9
  isplitl [S22]; · iexact S22
  isplitl [S13]; · iexact S13
  isplitl [S14]; · iexact S14
  isplitl [S15]; · iexact S15
  isplitl [S16]; · iexact S16
  isplitl [S17]; · iexact S17
  isplitl [S8]; · iexact S8
  isplitl [S9]; · iexact S9
  isplitl [S10]; · iexact S10
  isplitl [S11]; · iexact S11
  isplitl [S12]; · iexact S12
  isplitl [GF0]; · iexact GF0
  isplitl [RT4]; · iexact RT4
  isplitl [GF1]; · iexact GF1
  isplitl [RT5]; · iexact RT5
  isplitl [GF2]; · iexact GF2
  isplitl [RT0]; · iexact RT0
  isplitl [GF3]; · iexact GF3
  isplitl [RT1]; · iexact RT1
  isplitl [GF4]; · iexact GF4
  isplitl [RT2]; · iexact RT2
  isplitl [WF5]; · iexact WF5
  isplitl [WF6]; · iexact WF6
  isplitl [WF7]; · iexact WF7
  isplitl [WF8]; · iexact WF8
  isplitl []; · ipureintro; exact hX9'
  isplitl []; · ipureintro; exact hY0'
  isplitl []; · ipureintro; exact hY1'
  isplitl []; · ipureintro; exact hY2'
  isplitl []; · ipureintro; exact hY3'
  isplitl []; · ipureintro; exact hY4'
  isplitl []; · ipureintro; exact hg5'
  isplitl []; · ipureintro; exact hg6'
  isplitl []; · ipureintro; exact hg7'
  ipureintro; exact hg8'

end Cert.Proof.KI
end
-- ==== Proof.KITripMidV.lean ====
import proofs.«206279_g3710851744293_cont_8to1_b_253_31_alg».proof.Proof.KIValLemmas
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

-- A middle trip with the contents tracked: what each slot and each chunk reads before it, and after it.
set_option maxHeartbeats 1600000 in
theorem trip_midV (d : Dev nD) (L : grid0.Coords) (O : CellTallies nD τ sig (HIx 1)) (W : Waits sig (HIx 1)) (hO : ∀ g, O g none = 0)
    (k : Fin k0_t1_loop.trips) (v2 : BitVec 32)
    (q0 q1 q2 q3 q4 q5 : PosShare TreeShare)
    (ft : Buf (Elt F) ((thr d L).loc main_arg1_scv)) (fo : Buf (Elt F) ((thr d L).loc main_v2_scv))
    (P : Buf (Elt F) ((thr d L).loc cc0_scratch0)) (I : Buf (Elt F) ((thr d L).loc cc0_scratch1))
    (hI : ∀ j, (I j).toNat < 100000) (k0_h1 : k0_cond1 k = 1#1) (k0_h2 : k0_cond2 k = 1#1) (k0_h3 : k0_cond3 k = 1#1) (k0_h4 : k0_cond4 k = 1#1) (k0_h5 : k0_cond5 k = 1#1) (k0_h6 : k0_cond6 k = 1#1) (k0_h7 : k0_cond7 k = 1#1) (k0_h8 : k0_cond8 k = 1#1) (k0_h9 : k0_cond9 k = 1#1) (k0_h10 : k0_cond10 k = 1#1) (k0_h11 : k0_cond11 k = 1#1) (k0_h12 : k0_cond12 k = 1#1) (k0_h13 : k0_cond13 k = 1#1) (k0_h14 : k0_cond14 k = 1#1) (k0_h15 : k0_cond15 k = 1#1) (k0_h16 : k0_cond16 k = 1#1) (k0_h17 : k0_cond17 k = 1#1) (k0_h18 : k0_cond18 k = 1#1) (k0_h19 : k0_cond19 k = 1#1) (k0_h20 : k0_cond20 k = 1#1) (k0_h21 : k0_cond21 k = 1#1) (k0_h22 : k0_cond22 k = 1#1) (k0_h23 : k0_cond23 k = 1#1) (k0_h24 : k0_cond24 k = 1#1) (k0_h25 : k0_cond25 k = 1#1) (k0_h26 : k0_cond26 k = 1#1) (k0_h27 : k0_cond27 k = 1#1) (k0_h28 : k0_cond28 k = 1#1) (k0_h29 : k0_cond29 k = 1#1) (k0_h30 : k0_cond30 k = 1#1)
    (X9 Xg0 Xg1 Xg2 Xg3 Xg4 Xw5 Xw6 Xw7 Xw8 : Buf (Elt F) ((thr d L).loc cc0_scratch2)) (fw5 fw6 fw7 fw8 : Buf (Elt F) ((thr d L).loc main_v2_scv))
    (go0 go1 go2 go3 go4 : Fin 1 → ℕ) (hgo0 : ∀ a, go0 a + S40.size a ≤ S25600.size a) (hgo1 : ∀ a, go1 a + S40.size a ≤ S25600.size a) (hgo2 : ∀ a, go2 a + S40.size a ≤ S25600.size a) (hgo3 : ∀ a, go3 a + S40.size a ≤ S25600.size a) (hgo4 : ∀ a, go4 a + S40.size a ≤ S25600.size a)
    (ro5 ro6 ro7 ro8 : Fin 3 → ℕ) (hro5 : ∀ a, ro5 a + S1x40x128.size a ≤ S4096x200x128.size a) (hro6 : ∀ a, ro6 a + S1x40x128.size a ≤ S4096x200x128.size a) (hro7 : ∀ a, ro7 a + S1x40x128.size a ≤ S4096x200x128.size a) (hro8 : ∀ a, ro8 a + S1x40x128.size a ≤ S4096x200x128.size a)
    (C9 : S40x128.Idx → F .f32) (hX9 : (slot9).view.read (Elt F) X9 = C9)
    (hXg0 : (slot0).view.read (Elt F) Xg0 = Gw d L ft I go0 hgo0)
    (hXg1 : (slot1).view.read (Elt F) Xg1 = Gw d L ft I go1 hgo1)
    (hXg2 : (slot2).view.read (Elt F) Xg2 = Gw d L ft I go2 hgo2)
    (hXg3 : (slot3).view.read (Elt F) Xg3 = Gw d L ft I go3 hgo3)
    (hXg4 : (slot4).view.read (Elt F) Xg4 = Gw d L ft I go4 hgo4) :
    (iprop(levAts (K (F := F)).L (K (F := F)).lev
        ∗ ((tV).view.loc (thr d L) ↦{q5} ft)
        ∗ ((s6).view.loc (thr d L) ↦{fullShare} P)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((win' (k0_off100 k) (k0_off100_inb k k0_h17)).view.loc (thr d L) ↦[(win' (k0_off100 k) (k0_off100_inb k k0_h17)).view.set]{fullShare} I)
        ∗ ((win' (k0_off119 k) (k0_off119_inb k k0_h20)).view.loc (thr d L) ↦[(win' (k0_off119 k) (k0_off119_inb k k0_h20)).view.set]{fullShare} I)
        ∗ ((win' (k0_off138 k) (k0_off138_inb k k0_h23)).view.loc (thr d L) ↦[(win' (k0_off138 k) (k0_off138_inb k k0_h23)).view.set]{fullShare} I)
        ∗ ((win' (k0_off157 k) (k0_off157_inb k k0_h26)).view.loc (thr d L) ↦[(win' (k0_off157 k) (k0_off157_inb k k0_h26)).view.set]{fullShare} I)
        ∗ ((win' (k0_off176 k) (k0_off176_inb k k0_h29)).view.loc (thr d L) ↦[(win' (k0_off176 k) (k0_off176_inb k k0_h29)).view.set]{fullShare} I)
        ∗ ((och' (k0_off2 L k) (k0_off2_inb L k k0_h1)).view.loc (thr d L) ↦[(och' (k0_off2 L k) (k0_off2_inb L k k0_h1)).view.set]{fullShare} fo)
        ∗ ((och' (k0_off22 L k) (k0_off22_inb L k k0_h4)).view.loc (thr d L) ↦[(och' (k0_off22 L k) (k0_off22_inb L k k0_h4)).view.set]{fullShare} fo)
        ∗ ((och' (k0_off41 L k) (k0_off41_inb L k k0_h7)).view.loc (thr d L) ↦[(och' (k0_off41 L k) (k0_off41_inb L k k0_h7)).view.set]{fullShare} fo)
        ∗ ((och' (k0_off60 L k) (k0_off60_inb L k k0_h10)).view.loc (thr d L) ↦[(och' (k0_off60 L k) (k0_off60_inb L k k0_h10)).view.set]{fullShare} fo)
        ∗ ((och' (k0_off79 L k) (k0_off79_inb L k k0_h13)).view.loc (thr d L) ↦[(och' (k0_off79 L k) (k0_off79_inb L k k0_h13)).view.set]{fullShare} fo)
        ∗ ((och' (k0_off98 L k) (k0_off98_inb L k k0_h16)).view.loc (thr d L) ↦[(och' (k0_off98 L k) (k0_off98_inb L k k0_h16)).view.set]{fullShare} fo)
        ∗ ((och' (k0_off117 L k) (k0_off117_inb L k k0_h19)).view.loc (thr d L) ↦[(och' (k0_off117 L k) (k0_off117_inb L k k0_h19)).view.set]{fullShare} fo)
        ∗ ((och' (k0_off136 L k) (k0_off136_inb L k k0_h22)).view.loc (thr d L) ↦[(och' (k0_off136 L k) (k0_off136_inb L k k0_h22)).view.set]{fullShare} fo)
        ∗ ((och' (k0_off155 L k) (k0_off155_inb L k k0_h25)).view.loc (thr d L) ↦[(och' (k0_off155 L k) (k0_off155_inb L k k0_h25)).view.set]{fullShare} fo)
        ∗ ((och' (k0_off174 L k) (k0_off174_inb L k k0_h28)).view.loc (thr d L) ↦[(och' (k0_off174 L k) (k0_off174_inb L k k0_h28)).view.set]{fullShare} fo)
        ∗ ((slot9).view.loc (thr d L) ↦[(slot9).view.set]{fullShare} X9)
        ∗ semVal ((thr d L, SemLoc.dma cc0_scratch22.sem) : GSem nD τ sig) 0
        ∗ semVal ((thr d L, SemLoc.dma cc0_scratch13.sem) : GSem nD τ sig) 0
        ∗ semVal ((thr d L, SemLoc.dma cc0_scratch14.sem) : GSem nD τ sig) 0
        ∗ semVal ((thr d L, SemLoc.dma cc0_scratch15.sem) : GSem nD τ sig) 0
        ∗ semVal ((thr d L, SemLoc.dma cc0_scratch16.sem) : GSem nD τ sig) 0
        ∗ semVal ((thr d L, SemLoc.dma cc0_scratch17.sem) : GSem nD τ sig) 0
        ∗ semVal ((thr d L, SemLoc.dma cc0_scratch8.sem) : GSem nD τ sig) 0
        ∗ semVal ((thr d L, SemLoc.dma cc0_scratch9.sem) : GSem nD τ sig) 0
        ∗ semVal ((thr d L, SemLoc.dma cc0_scratch10.sem) : GSem nD τ sig) 0
        ∗ semVal ((thr d L, SemLoc.dma cc0_scratch11.sem) : GSem nD τ sig) 0
        ∗ semVal ((thr d L, SemLoc.dma cc0_scratch12.sem) : GSem nD τ sig) 0
        ∗ Transfers.Flight countersEmb (thr d L) (SemLoc.dma cc0_scratch18.sem) default 163840
            iprop(((och' ro5 hro5).view.loc (thr d L) ↦[(och' ro5 hro5).view.set]{fullShare} fw5) ∗ ((slot5).view.loc (thr d L) ↦[(slot5).view.set]{fullShare} Xw5))
        ∗ Transfers.Flight countersEmb (thr d L) (SemLoc.dma cc0_scratch19.sem) default 163840
            iprop(((och' ro6 hro6).view.loc (thr d L) ↦[(och' ro6 hro6).view.set]{fullShare} fw6) ∗ ((slot6).view.loc (thr d L) ↦[(slot6).view.set]{fullShare} Xw6))
        ∗ Transfers.Flight countersEmb (thr d L) (SemLoc.dma cc0_scratch20.sem) default 163840
            iprop(((och' ro7 hro7).view.loc (thr d L) ↦[(och' ro7 hro7).view.set]{fullShare} fw7) ∗ ((slot7).view.loc (thr d L) ↦[(slot7).view.set]{fullShare} Xw7))
        ∗ Transfers.Flight countersEmb (thr d L) (SemLoc.dma cc0_scratch21.sem) default 163840
            iprop(((och' ro8 hro8).view.loc (thr d L) ↦[(och' ro8 hro8).view.set]{fullShare} fw8) ∗ ((slot8).view.loc (thr d L) ↦[(slot8).view.set]{fullShare} Xw8))
        ∗ Transfers.Flight countersEmb (thr d L) (SemLoc.dma cc0_scratch3.sem) default 163840
            iprop((((slot0).view.loc (thr d L) ↦[(slot0).view.set]{fullShare} Xg0) ∗ ((win' go0 hgo0).view.loc (thr d L) ↦[(win' go0 hgo0).view.set]{fullShare} I))
              ∗ ((tV).view.loc (thr d L) ↦[(tW).view.set]{q0} ft))
        ∗ ((tV).view.loc (thr d L) ↦[Finset.univ \ (tW).view.set]{q0} ft)
        ∗ Transfers.Flight countersEmb (thr d L) (SemLoc.dma cc0_scratch4.sem) default 163840
            iprop((((slot1).view.loc (thr d L) ↦[(slot1).view.set]{fullShare} Xg1) ∗ ((win' go1 hgo1).view.loc (thr d L) ↦[(win' go1 hgo1).view.set]{fullShare} I))
              ∗ ((tV).view.loc (thr d L) ↦[(tW).view.set]{q1} ft))
        ∗ ((tV).view.loc (thr d L) ↦[Finset.univ \ (tW).view.set]{q1} ft)
        ∗ Transfers.Flight countersEmb (thr d L) (SemLoc.dma cc0_scratch5.sem) default 163840
            iprop((((slot2).view.loc (thr d L) ↦[(slot2).view.set]{fullShare} Xg2) ∗ ((win' go2 hgo2).view.loc (thr d L) ↦[(win' go2 hgo2).view.set]{fullShare} I))
              ∗ ((tV).view.loc (thr d L) ↦[(tW).view.set]{q2} ft))
        ∗ ((tV).view.loc (thr d L) ↦[Finset.univ \ (tW).view.set]{q2} ft)
        ∗ Transfers.Flight countersEmb (thr d L) (SemLoc.dma cc0_scratch6.sem) default 163840
            iprop((((slot3).view.loc (thr d L) ↦[(slot3).view.set]{fullShare} Xg3) ∗ ((win' go3 hgo3).view.loc (thr d L) ↦[(win' go3 hgo3).view.set]{fullShare} I))
              ∗ ((tV).view.loc (thr d L) ↦[(tW).view.set]{q3} ft))
        ∗ ((tV).view.loc (thr d L) ↦[Finset.univ \ (tW).view.set]{q3} ft)
        ∗ Transfers.Flight countersEmb (thr d L) (SemLoc.dma cc0_scratch7.sem) default 163840
            iprop((((slot4).view.loc (thr d L) ↦[(slot4).view.set]{fullShare} Xg4) ∗ ((win' go4 hgo4).view.loc (thr d L) ↦[(win' go4 hgo4).view.set]{fullShare} I))
              ∗ ((tV).view.loc (thr d L) ↦[(tW).view.set]{q4} ft))
        ∗ ((tV).view.loc (thr d L) ↦[Finset.univ \ (tW).view.set]{q4} ft)
        ∗ owes (thr d L) O W) : sProp 𝕄)
      ⊢ wp frame (wpE (defs₀ (F := F)) 𝒱₀ (thr d L) none) Set.univ
          (k0_t1_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k ⟨⟩)
          fun _ => iprop(∃ (W' : Waits sig (HIx 1)) (Y0 Y1 Y2 Y3 Y4 Z5 Z6 Z7 Z8 X9' : Buf (Elt F) ((thr d L).loc cc0_scratch2)) (g5 g6 g7 g8 : Buf (Elt F) ((thr d L).loc main_v2_scv)),
            owes (thr d L) O W'
            ∗ ((s6).view.loc (thr d L) ↦{fullShare} P)
            ∗ ((tV).view.loc (thr d L) ↦{q3} ft)
            ∗ ((win' go0 hgo0).view.loc (thr d L) ↦[(win' go0 hgo0).view.set]{fullShare} I)
            ∗ ((win' go1 hgo1).view.loc (thr d L) ↦[(win' go1 hgo1).view.set]{fullShare} I)
            ∗ ((win' go2 hgo2).view.loc (thr d L) ↦[(win' go2 hgo2).view.set]{fullShare} I)
            ∗ ((win' go3 hgo3).view.loc (thr d L) ↦[(win' go3 hgo3).view.set]{fullShare} I)
            ∗ ((win' go4 hgo4).view.loc (thr d L) ↦[(win' go4 hgo4).view.set]{fullShare} I)
            ∗ ((win' (k0_off4 k) (k0_off4_inb k k0_h2)).view.loc (thr d L) ↦[(win' (k0_off4 k) (k0_off4_inb k k0_h2)).view.set]{fullShare} I)
            ∗ ((win' (k0_off24 k) (k0_off24_inb k k0_h5)).view.loc (thr d L) ↦[(win' (k0_off24 k) (k0_off24_inb k k0_h5)).view.set]{fullShare} I)
            ∗ ((win' (k0_off43 k) (k0_off43_inb k k0_h8)).view.loc (thr d L) ↦[(win' (k0_off43 k) (k0_off43_inb k k0_h8)).view.set]{fullShare} I)
            ∗ ((win' (k0_off62 k) (k0_off62_inb k k0_h11)).view.loc (thr d L) ↦[(win' (k0_off62 k) (k0_off62_inb k k0_h11)).view.set]{fullShare} I)
            ∗ ((win' (k0_off81 k) (k0_off81_inb k k0_h14)).view.loc (thr d L) ↦[(win' (k0_off81 k) (k0_off81_inb k k0_h14)).view.set]{fullShare} I)
            ∗ ((och' ro5 hro5).view.loc (thr d L) ↦[(och' ro5 hro5).view.set]{fullShare} fw5)
            ∗ ((och' ro6 hro6).view.loc (thr d L) ↦[(och' ro6 hro6).view.set]{fullShare} fw6)
            ∗ ((och' ro7 hro7).view.loc (thr d L) ↦[(och' ro7 hro7).view.set]{fullShare} fw7)
            ∗ ((och' ro8 hro8).view.loc (thr d L) ↦[(och' ro8 hro8).view.set]{fullShare} fw8)
            ∗ (∃ f, ((och' (k0_off2 L k) (k0_off2_inb L k k0_h1)).view.loc (thr d L) ↦[(och' (k0_off2 L k) (k0_off2_inb L k k0_h1)).view.set]{fullShare} f) ∗ ⌜(och' (k0_off2 L k) (k0_off2_inb L k k0_h1)).view.read (Elt F) f = C9⌝)
            ∗ (∃ f, ((och' (k0_off22 L k) (k0_off22_inb L k k0_h4)).view.loc (thr d L) ↦[(och' (k0_off22 L k) (k0_off22_inb L k k0_h4)).view.set]{fullShare} f) ∗ ⌜(och' (k0_off22 L k) (k0_off22_inb L k k0_h4)).view.read (Elt F) f = rowOp 0 P (Gw d L ft I go0 hgo0)⌝)
            ∗ (∃ f, ((och' (k0_off41 L k) (k0_off41_inb L k k0_h7)).view.loc (thr d L) ↦[(och' (k0_off41 L k) (k0_off41_inb L k k0_h7)).view.set]{fullShare} f) ∗ ⌜(och' (k0_off41 L k) (k0_off41_inb L k k0_h7)).view.read (Elt F) f = rowOp 1 P (Gw d L ft I go1 hgo1)⌝)
            ∗ (∃ f, ((och' (k0_off60 L k) (k0_off60_inb L k k0_h10)).view.loc (thr d L) ↦[(och' (k0_off60 L k) (k0_off60_inb L k k0_h10)).view.set]{fullShare} f) ∗ ⌜(och' (k0_off60 L k) (k0_off60_inb L k k0_h10)).view.read (Elt F) f = rowOp 2 P (Gw d L ft I go2 hgo2)⌝)
            ∗ (∃ f, ((och' (k0_off79 L k) (k0_off79_inb L k k0_h13)).view.loc (thr d L) ↦[(och' (k0_off79 L k) (k0_off79_inb L k k0_h13)).view.set]{fullShare} f) ∗ ⌜(och' (k0_off79 L k) (k0_off79_inb L k k0_h13)).view.read (Elt F) f = rowOp 3 P (Gw d L ft I go3 hgo3)⌝)
            ∗ (∃ f, ((och' (k0_off98 L k) (k0_off98_inb L k k0_h16)).view.loc (thr d L) ↦[(och' (k0_off98 L k) (k0_off98_inb L k k0_h16)).view.set]{fullShare} f) ∗ ⌜(och' (k0_off98 L k) (k0_off98_inb L k k0_h16)).view.read (Elt F) f = rowOp 4 P (Gw d L ft I go4 hgo4)⌝)
            ∗ ((slot9).view.loc (thr d L) ↦[(slot9).view.set]{fullShare} X9')
            ∗ semVal ((thr d L, SemLoc.dma cc0_scratch22.sem) : GSem nD τ sig) 0
            ∗ semVal ((thr d L, SemLoc.dma cc0_scratch13.sem) : GSem nD τ sig) 0
            ∗ semVal ((thr d L, SemLoc.dma cc0_scratch14.sem) : GSem nD τ sig) 0
            ∗ semVal ((thr d L, SemLoc.dma cc0_scratch15.sem) : GSem nD τ sig) 0
            ∗ semVal ((thr d L, SemLoc.dma cc0_scratch16.sem) : GSem nD τ sig) 0
            ∗ semVal ((thr d L, SemLoc.dma cc0_scratch17.sem) : GSem nD τ sig) 0
            ∗ semVal ((thr d L, SemLoc.dma cc0_scratch8.sem) : GSem nD τ sig) 0
            ∗ semVal ((thr d L, SemLoc.dma cc0_scratch9.sem) : GSem nD τ sig) 0
            ∗ semVal ((thr d L, SemLoc.dma cc0_scratch10.sem) : GSem nD τ sig) 0
            ∗ semVal ((thr d L, SemLoc.dma cc0_scratch11.sem) : GSem nD τ sig) 0
            ∗ semVal ((thr d L, SemLoc.dma cc0_scratch12.sem) : GSem nD τ sig) 0
            ∗ Transfers.Flight countersEmb (thr d L) (SemLoc.dma cc0_scratch3.sem) default 163840
            iprop((((slot0).view.loc (thr d L) ↦[(slot0).view.set]{fullShare} Y0) ∗ ((win' (k0_off100 k) (k0_off100_inb k k0_h17)).view.loc (thr d L) ↦[(win' (k0_off100 k) (k0_off100_inb k k0_h17)).view.set]{fullShare} I))
              ∗ ((tV).view.loc (thr d L) ↦[(tW).view.set]{q4} ft))
            ∗ ((tV).view.loc (thr d L) ↦[Finset.univ \ (tW).view.set]{q4} ft)
            ∗ Transfers.Flight countersEmb (thr d L) (SemLoc.dma cc0_scratch4.sem) default 163840
            iprop((((slot1).view.loc (thr d L) ↦[(slot1).view.set]{fullShare} Y1) ∗ ((win' (k0_off119 k) (k0_off119_inb k k0_h20)).view.loc (thr d L) ↦[(win' (k0_off119 k) (k0_off119_inb k k0_h20)).view.set]{fullShare} I))
              ∗ ((tV).view.loc (thr d L) ↦[(tW).view.set]{q5} ft))
            ∗ ((tV).view.loc (thr d L) ↦[Finset.univ \ (tW).view.set]{q5} ft)
            ∗ Transfers.Flight countersEmb (thr d L) (SemLoc.dma cc0_scratch5.sem) default 163840
            iprop((((slot2).view.loc (thr d L) ↦[(slot2).view.set]{fullShare} Y2) ∗ ((win' (k0_off138 k) (k0_off138_inb k k0_h23)).view.loc (thr d L) ↦[(win' (k0_off138 k) (k0_off138_inb k k0_h23)).view.set]{fullShare} I))
              ∗ ((tV).view.loc (thr d L) ↦[(tW).view.set]{q0} ft))
            ∗ ((tV).view.loc (thr d L) ↦[Finset.univ \ (tW).view.set]{q0} ft)
            ∗ Transfers.Flight countersEmb (thr d L) (SemLoc.dma cc0_scratch6.sem) default 163840
            iprop((((slot3).view.loc (thr d L) ↦[(slot3).view.set]{fullShare} Y3) ∗ ((win' (k0_off157 k) (k0_off157_inb k k0_h26)).view.loc (thr d L) ↦[(win' (k0_off157 k) (k0_off157_inb k k0_h26)).view.set]{fullShare} I))
              ∗ ((tV).view.loc (thr d L) ↦[(tW).view.set]{q1} ft))
            ∗ ((tV).view.loc (thr d L) ↦[Finset.univ \ (tW).view.set]{q1} ft)
            ∗ Transfers.Flight countersEmb (thr d L) (SemLoc.dma cc0_scratch7.sem) default 163840
            iprop((((slot4).view.loc (thr d L) ↦[(slot4).view.set]{fullShare} Y4) ∗ ((win' (k0_off176 k) (k0_off176_inb k k0_h29)).view.loc (thr d L) ↦[(win' (k0_off176 k) (k0_off176_inb k k0_h29)).view.set]{fullShare} I))
              ∗ ((tV).view.loc (thr d L) ↦[(tW).view.set]{q2} ft))
            ∗ ((tV).view.loc (thr d L) ↦[Finset.univ \ (tW).view.set]{q2} ft)
            ∗ Transfers.Flight countersEmb (thr d L) (SemLoc.dma cc0_scratch18.sem) default 163840
            iprop(((och' (k0_off117 L k) (k0_off117_inb L k k0_h19)).view.loc (thr d L) ↦[(och' (k0_off117 L k) (k0_off117_inb L k k0_h19)).view.set]{fullShare} g5) ∗ ((slot5).view.loc (thr d L) ↦[(slot5).view.set]{fullShare} Z5))
            ∗ Transfers.Flight countersEmb (thr d L) (SemLoc.dma cc0_scratch19.sem) default 163840
            iprop(((och' (k0_off136 L k) (k0_off136_inb L k k0_h22)).view.loc (thr d L) ↦[(och' (k0_off136 L k) (k0_off136_inb L k k0_h22)).view.set]{fullShare} g6) ∗ ((slot6).view.loc (thr d L) ↦[(slot6).view.set]{fullShare} Z6))
            ∗ Transfers.Flight countersEmb (thr d L) (SemLoc.dma cc0_scratch20.sem) default 163840
            iprop(((och' (k0_off155 L k) (k0_off155_inb L k k0_h25)).view.loc (thr d L) ↦[(och' (k0_off155 L k) (k0_off155_inb L k k0_h25)).view.set]{fullShare} g7) ∗ ((slot7).view.loc (thr d L) ↦[(slot7).view.set]{fullShare} Z7))
            ∗ Transfers.Flight countersEmb (thr d L) (SemLoc.dma cc0_scratch21.sem) default 163840
            iprop(((och' (k0_off174 L k) (k0_off174_inb L k k0_h28)).view.loc (thr d L) ↦[(och' (k0_off174 L k) (k0_off174_inb L k k0_h28)).view.set]{fullShare} g8) ∗ ((slot8).view.loc (thr d L) ↦[(slot8).view.set]{fullShare} Z8))
            ∗ ⌜∀ p ∈ W', p ∈ W ∨ p.2 = none⌝
            ∗ ⌜(slot9).view.read (Elt F) X9' = rowOp 4 P (Gw d L ft I (k0_off81 k) (k0_off81_inb k k0_h14))⌝
            ∗ ⌜(slot0).view.read (Elt F) Y0 = Gw d L ft I (k0_off100 k) (k0_off100_inb k k0_h17)⌝
            ∗ ⌜(slot1).view.read (Elt F) Y1 = Gw d L ft I (k0_off119 k) (k0_off119_inb k k0_h20)⌝
            ∗ ⌜(slot2).view.read (Elt F) Y2 = Gw d L ft I (k0_off138 k) (k0_off138_inb k k0_h23)⌝
            ∗ ⌜(slot3).view.read (Elt F) Y3 = Gw d L ft I (k0_off157 k) (k0_off157_inb k k0_h26)⌝
            ∗ ⌜(slot4).view.read (Elt F) Y4 = Gw d L ft I (k0_off176 k) (k0_off176_inb k k0_h29)⌝
            ∗ ⌜(och' (k0_off117 L k) (k0_off117_inb L k k0_h19)).view.read (Elt F) g5 = rowOp 0 P (Gw d L ft I (k0_off4 k) (k0_off4_inb k k0_h2))⌝
            ∗ ⌜(och' (k0_off136 L k) (k0_off136_inb L k k0_h22)).view.read (Elt F) g6 = rowOp 1 P (Gw d L ft I (k0_off24 k) (k0_off24_inb k k0_h5))⌝
            ∗ ⌜(och' (k0_off155 L k) (k0_off155_inb L k k0_h25)).view.read (Elt F) g7 = rowOp 2 P (Gw d L ft I (k0_off43 k) (k0_off43_inb k k0_h8))⌝
            ∗ ⌜(och' (k0_off174 L k) (k0_off174_inb L k k0_h28)).view.read (Elt F) g8 = rowOp 3 P (Gw d L ft I (k0_off62 k) (k0_off62_inb k k0_h11))⌝) := by
  have htrips0 : Scf.trips k0_t2_loop.lb k0_t2_loop.ub k0_t2_loop.st = 40 := by decide
  have htrips1 : Scf.trips k0_t3_loop.lb k0_t3_loop.ub k0_t3_loop.st = 40 := by decide
  have htrips2 : Scf.trips k0_t4_loop.lb k0_t4_loop.ub k0_t4_loop.st = 40 := by decide
  have htrips3 : Scf.trips k0_t5_loop.lb k0_t5_loop.ub k0_t5_loop.st = 40 := by decide
  have htrips4 : Scf.trips k0_t6_loop.lb k0_t6_loop.ub k0_t6_loop.st = 40 := by decide
  have htrips5 : Scf.trips k0_t7_loop.lb k0_t7_loop.ub k0_t7_loop.st = 40 := by decide
  have htrips6 : Scf.trips k0_t8_loop.lb k0_t8_loop.ub k0_t8_loop.st = 40 := by decide
  have htrips7 : Scf.trips k0_t9_loop.lb k0_t9_loop.ub k0_t9_loop.st = 40 := by decide
  have htrips8 : Scf.trips k0_t10_loop.lb k0_t10_loop.ub k0_t10_loop.st = 40 := by decide
  have htrips9 : Scf.trips k0_t11_loop.lb k0_t11_loop.ub k0_t11_loop.st = 40 := by decide
  unfold k0_t1_body
  iintro ⟨#Hlv, Ht5, H6, Hwin0, Hwin1, Hwin2, Hwin3, Hwin4, Hwin5, Hwin6, Hwin7, Hwin8, Hwin9, Hoch0, Hoch1, Hoch2, Hoch3, Hoch4, Hoch5, Hoch6, Hoch7, Hoch8, Hoch9, H9, Hw9, Hw0, Hw1, Hw2, Hw3, Hw4, Hg5, Hg6, Hg7, Hg8, Hg9, WF5, WF6, WF7, WF8, GF0, RT0, GF1, RT1, GF2, RT2, GF3, RT3, GF4, RT4, HO⟩
  ihave Hmw := ((K (F := F)).mayWaits_none (thr := thr d L) hO) $$ Hlv
  have hin : ∀ (r : Rect S25600) (hr) (x : r.shape.Idx),
      BitVec.toNat (View.read (Elt F) ((s7).slice r hr).view I x) < 100000 := fun r hr x => by
    rw [View.read_apply]; exact hI _
  sl_exec
  sl_for (invInV0 d L P (Gw d L ft I go0 hgo0)) $$ [H6 GF0_dst]
  case region =>
    intro r _
    have hr40 : r.val < 40 := lt_of_lt_of_eq r.isLt htrips0
    unfold invInV0
    iintro ⟨H6, %f, Hs, %hf⟩
    sl_exec
    sl_step
    isplitl [H6]; · iexact H6
    iexists _; isplitl [Hs]; · iexact Hs
    ipureintro
    sl_unfold_run_names
    intro y
    exact rowStep (slot0).view 0 r.val hr40 P _ f (k0_off6_eq r) (k0_off7_eq r) (k0_off8_eq r) (k0_off9_eq r) (k0_off10_eq r) (k0_off11_eq r) (k0_off12_eq r) (k0_off13_eq r) (k0_off14_eq r) (k0_off15_eq r) (k0_off16_eq r) (k0_off17_eq r) (k0_off18_eq r) (k0_off19_eq r) (k0_off20_eq r) (k0_off21_eq r) hf y
  · unfold invInV0
    isplitl [H6]; · iexact H6
    iexists _; isplitl [GF0_dst]; · iexact GF0_dst
    ipureintro; intro y; rw [if_neg (Nat.not_lt_zero _)]
    exact congrFun hXg0 y
  iintro %_ HI
  unfold invInV0
  icases HI with ⟨H6, %fs0, Hsl0, %hf0⟩
  have hr0 : (slot0).view.read (Elt F) fs0 = rowOp 0 P (Gw d L ft I go0 hgo0) := by
    funext y; rw [hf0 y, htrips0, if_pos (show (y 0).val < 40 from (y 0).isLt)]
  sl_exec
  sl_for (invInV1 d L P (Gw d L ft I go1 hgo1)) $$ [H6 GF1_dst]
  case region =>
    intro r _
    have hr40 : r.val < 40 := lt_of_lt_of_eq r.isLt htrips1
    unfold invInV1
    iintro ⟨H6, %f, Hs, %hf⟩
    sl_exec
    sl_step
    isplitl [H6]; · iexact H6
    iexists _; isplitl [Hs]; · iexact Hs
    ipureintro
    sl_unfold_run_names
    intro y
    exact rowStep (slot1).view 1 r.val hr40 P _ f (k0_off25_eq r) (k0_off26_eq r) (k0_off27_eq r) (k0_off28_eq r) (k0_off29_eq r) (k0_off30_eq r) (k0_off31_eq r) (k0_off32_eq r) (k0_off33_eq r) (k0_off34_eq r) (k0_off35_eq r) (k0_off36_eq r) (k0_off37_eq r) (k0_off38_eq r) (k0_off39_eq r) (k0_off40_eq r) hf y
  · unfold invInV1
    isplitl [H6]; · iexact H6
    iexists _; isplitl [GF1_dst]; · iexact GF1_dst
    ipureintro; intro y; rw [if_neg (Nat.not_lt_zero _)]
    exact congrFun hXg1 y
  iintro %_ HI
  unfold invInV1
  icases HI with ⟨H6, %fs1, Hsl1, %hf1⟩
  have hr1 : (slot1).view.read (Elt F) fs1 = rowOp 1 P (Gw d L ft I go1 hgo1) := by
    funext y; rw [hf1 y, htrips1, if_pos (show (y 0).val < 40 from (y 0).isLt)]
  sl_exec
  sl_for (invInV2 d L P (Gw d L ft I go2 hgo2)) $$ [H6 GF2_dst]
  case region =>
    intro r _
    have hr40 : r.val < 40 := lt_of_lt_of_eq r.isLt htrips2
    unfold invInV2
    iintro ⟨H6, %f, Hs, %hf⟩
    sl_exec
    sl_step
    isplitl [H6]; · iexact H6
    iexists _; isplitl [Hs]; · iexact Hs
    ipureintro
    sl_unfold_run_names
    intro y
    exact rowStep (slot2).view 2 r.val hr40 P _ f (k0_off44_eq r) (k0_off45_eq r) (k0_off46_eq r) (k0_off47_eq r) (k0_off48_eq r) (k0_off49_eq r) (k0_off50_eq r) (k0_off51_eq r) (k0_off52_eq r) (k0_off53_eq r) (k0_off54_eq r) (k0_off55_eq r) (k0_off56_eq r) (k0_off57_eq r) (k0_off58_eq r) (k0_off59_eq r) hf y
  · unfold invInV2
    isplitl [H6]; · iexact H6
    iexists _; isplitl [GF2_dst]; · iexact GF2_dst
    ipureintro; intro y; rw [if_neg (Nat.not_lt_zero _)]
    exact congrFun hXg2 y
  iintro %_ HI
  unfold invInV2
  icases HI with ⟨H6, %fs2, Hsl2, %hf2⟩
  have hr2 : (slot2).view.read (Elt F) fs2 = rowOp 2 P (Gw d L ft I go2 hgo2) := by
    funext y; rw [hf2 y, htrips2, if_pos (show (y 0).val < 40 from (y 0).isLt)]
  sl_exec
  sl_for (invInV3 d L P (Gw d L ft I go3 hgo3)) $$ [H6 GF3_dst]
  case region =>
    intro r _
    have hr40 : r.val < 40 := lt_of_lt_of_eq r.isLt htrips3
    unfold invInV3
    iintro ⟨H6, %f, Hs, %hf⟩
    sl_exec
    sl_step
    isplitl [H6]; · iexact H6
    iexists _; isplitl [Hs]; · iexact Hs
    ipureintro
    sl_unfold_run_names
    intro y
    exact rowStep (slot3).view 3 r.val hr40 P _ f (k0_off63_eq r) (k0_off64_eq r) (k0_off65_eq r) (k0_off66_eq r) (k0_off67_eq r) (k0_off68_eq r) (k0_off69_eq r) (k0_off70_eq r) (k0_off71_eq r) (k0_off72_eq r) (k0_off73_eq r) (k0_off74_eq r) (k0_off75_eq r) (k0_off76_eq r) (k0_off77_eq r) (k0_off78_eq r) hf y
  · unfold invInV3
    isplitl [H6]; · iexact H6
    iexists _; isplitl [GF3_dst]; · iexact GF3_dst
    ipureintro; intro y; rw [if_neg (Nat.not_lt_zero _)]
    exact congrFun hXg3 y
  iintro %_ HI
  unfold invInV3
  icases HI with ⟨H6, %fs3, Hsl3, %hf3⟩
  have hr3 : (slot3).view.read (Elt F) fs3 = rowOp 3 P (Gw d L ft I go3 hgo3) := by
    funext y; rw [hf3 y, htrips3, if_pos (show (y 0).val < 40 from (y 0).isLt)]
  sl_exec
  sl_for (invInV4 d L P (Gw d L ft I go4 hgo4)) $$ [H6 GF4_dst]
  case region =>
    intro r _
    have hr40 : r.val < 40 := lt_of_lt_of_eq r.isLt htrips4
    unfold invInV4
    iintro ⟨H6, %f, Hs, %hf⟩
    sl_exec
    sl_step
    isplitl [H6]; · iexact H6
    iexists _; isplitl [Hs]; · iexact Hs
    ipureintro
    sl_unfold_run_names
    intro y
    exact rowStep (slot4).view 4 r.val hr40 P _ f (k0_off82_eq r) (k0_off83_eq r) (k0_off84_eq r) (k0_off85_eq r) (k0_off86_eq r) (k0_off87_eq r) (k0_off88_eq r) (k0_off89_eq r) (k0_off90_eq r) (k0_off91_eq r) (k0_off92_eq r) (k0_off93_eq r) (k0_off94_eq r) (k0_off95_eq r) (k0_off96_eq r) (k0_off97_eq r) hf y
  · unfold invInV4
    isplitl [H6]; · iexact H6
    iexists _; isplitl [GF4_dst]; · iexact GF4_dst
    ipureintro; intro y; rw [if_neg (Nat.not_lt_zero _)]
    exact congrFun hXg4 y
  iintro %_ HI
  unfold invInV4
  icases HI with ⟨H6, %fs4, Hsl4, %hf4⟩
  have hr4 : (slot4).view.read (Elt F) fs4 = rowOp 4 P (Gw d L ft I go4 hgo4) := by
    funext y; rw [hf4 y, htrips4, if_pos (show (y 0).val < 40 from (y 0).isLt)]
  sl_exec
  sl_for (invInV5 d L P (Gw d L ft I (k0_off4 k) (k0_off4_inb k k0_h2))) $$ [H6 WF5_src]
  case region =>
    intro r _
    have hr40 : r.val < 40 := lt_of_lt_of_eq r.isLt htrips5
    unfold invInV5
    iintro ⟨H6, %f, Hs, %hf⟩
    sl_exec
    sl_step
    isplitl [H6]; · iexact H6
    iexists _; isplitl [Hs]; · iexact Hs
    ipureintro
    sl_unfold_run_names
    intro y
    exact rowStep (slot5).view 0 r.val hr40 P _ f (k0_off101_eq r) (k0_off102_eq r) (k0_off103_eq r) (k0_off104_eq r) (k0_off105_eq r) (k0_off106_eq r) (k0_off107_eq r) (k0_off108_eq r) (k0_off109_eq r) (k0_off110_eq r) (k0_off111_eq r) (k0_off112_eq r) (k0_off113_eq r) (k0_off114_eq r) (k0_off115_eq r) (k0_off116_eq r) hf y
  · unfold invInV5
    isplitl [H6]; · iexact H6
    iexists _; isplitl [WF5_src]; · iexact WF5_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV5
  icases HI with ⟨H6, %fs5, Hsl5, %hf5⟩
  have hr5 : (slot5).view.read (Elt F) fs5 = rowOp 0 P (Gw d L ft I (k0_off4 k) (k0_off4_inb k k0_h2)) := by
    funext y; rw [hf5 y, htrips5, if_pos (show (y 0).val < 40 from (y 0).isLt)]
  sl_exec
  sl_for (invInV6 d L P (Gw d L ft I (k0_off24 k) (k0_off24_inb k k0_h5))) $$ [H6 WF6_src]
  case region =>
    intro r _
    have hr40 : r.val < 40 := lt_of_lt_of_eq r.isLt htrips6
    unfold invInV6
    iintro ⟨H6, %f, Hs, %hf⟩
    sl_exec
    sl_step
    isplitl [H6]; · iexact H6
    iexists _; isplitl [Hs]; · iexact Hs
    ipureintro
    sl_unfold_run_names
    intro y
    exact rowStep (slot6).view 1 r.val hr40 P _ f (k0_off120_eq r) (k0_off121_eq r) (k0_off122_eq r) (k0_off123_eq r) (k0_off124_eq r) (k0_off125_eq r) (k0_off126_eq r) (k0_off127_eq r) (k0_off128_eq r) (k0_off129_eq r) (k0_off130_eq r) (k0_off131_eq r) (k0_off132_eq r) (k0_off133_eq r) (k0_off134_eq r) (k0_off135_eq r) hf y
  · unfold invInV6
    isplitl [H6]; · iexact H6
    iexists _; isplitl [WF6_src]; · iexact WF6_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV6
  icases HI with ⟨H6, %fs6, Hsl6, %hf6⟩
  have hr6 : (slot6).view.read (Elt F) fs6 = rowOp 1 P (Gw d L ft I (k0_off24 k) (k0_off24_inb k k0_h5)) := by
    funext y; rw [hf6 y, htrips6, if_pos (show (y 0).val < 40 from (y 0).isLt)]
  sl_exec
  sl_for (invInV7 d L P (Gw d L ft I (k0_off43 k) (k0_off43_inb k k0_h8))) $$ [H6 WF7_src]
  case region =>
    intro r _
    have hr40 : r.val < 40 := lt_of_lt_of_eq r.isLt htrips7
    unfold invInV7
    iintro ⟨H6, %f, Hs, %hf⟩
    sl_exec
    sl_step
    isplitl [H6]; · iexact H6
    iexists _; isplitl [Hs]; · iexact Hs
    ipureintro
    sl_unfold_run_names
    intro y
    exact rowStep (slot7).view 2 r.val hr40 P _ f (k0_off139_eq r) (k0_off140_eq r) (k0_off141_eq r) (k0_off142_eq r) (k0_off143_eq r) (k0_off144_eq r) (k0_off145_eq r) (k0_off146_eq r) (k0_off147_eq r) (k0_off148_eq r) (k0_off149_eq r) (k0_off150_eq r) (k0_off151_eq r) (k0_off152_eq r) (k0_off153_eq r) (k0_off154_eq r) hf y
  · unfold invInV7
    isplitl [H6]; · iexact H6
    iexists _; isplitl [WF7_src]; · iexact WF7_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV7
  icases HI with ⟨H6, %fs7, Hsl7, %hf7⟩
  have hr7 : (slot7).view.read (Elt F) fs7 = rowOp 2 P (Gw d L ft I (k0_off43 k) (k0_off43_inb k k0_h8)) := by
    funext y; rw [hf7 y, htrips7, if_pos (show (y 0).val < 40 from (y 0).isLt)]
  sl_exec
  sl_for (invInV8 d L P (Gw d L ft I (k0_off62 k) (k0_off62_inb k k0_h11))) $$ [H6 WF8_src]
  case region =>
    intro r _
    have hr40 : r.val < 40 := lt_of_lt_of_eq r.isLt htrips8
    unfold invInV8
    iintro ⟨H6, %f, Hs, %hf⟩
    sl_exec
    sl_step
    isplitl [H6]; · iexact H6
    iexists _; isplitl [Hs]; · iexact Hs
    ipureintro
    sl_unfold_run_names
    intro y
    exact rowStep (slot8).view 3 r.val hr40 P _ f (k0_off158_eq r) (k0_off159_eq r) (k0_off160_eq r) (k0_off161_eq r) (k0_off162_eq r) (k0_off163_eq r) (k0_off164_eq r) (k0_off165_eq r) (k0_off166_eq r) (k0_off167_eq r) (k0_off168_eq r) (k0_off169_eq r) (k0_off170_eq r) (k0_off171_eq r) (k0_off172_eq r) (k0_off173_eq r) hf y
  · unfold invInV8
    isplitl [H6]; · iexact H6
    iexists _; isplitl [WF8_src]; · iexact WF8_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV8
  icases HI with ⟨H6, %fs8, Hsl8, %hf8⟩
  have hr8 : (slot8).view.read (Elt F) fs8 = rowOp 3 P (Gw d L ft I (k0_off62 k) (k0_off62_inb k k0_h11)) := by
    funext y; rw [hf8 y, htrips8, if_pos (show (y 0).val < 40 from (y 0).isLt)]
  sl_exec
  sl_for (invInV9 d L P (Gw d L ft I (k0_off81 k) (k0_off81_inb k k0_h14))) $$ [H6 H9]
  case region =>
    intro r _
    have hr40 : r.val < 40 := lt_of_lt_of_eq r.isLt htrips9
    unfold invInV9
    iintro ⟨H6, %f, Hs, %hf⟩
    sl_exec
    sl_step
    isplitl [H6]; · iexact H6
    iexists _; isplitl [Hs]; · iexact Hs
    ipureintro
    sl_unfold_run_names
    intro y
    exact rowStep (slot9).view 4 r.val hr40 P _ f (k0_off177_eq r) (k0_off178_eq r) (k0_off179_eq r) (k0_off180_eq r) (k0_off181_eq r) (k0_off182_eq r) (k0_off183_eq r) (k0_off184_eq r) (k0_off185_eq r) (k0_off186_eq r) (k0_off187_eq r) (k0_off188_eq r) (k0_off189_eq r) (k0_off190_eq r) (k0_off191_eq r) (k0_off192_eq r) hf y
  · unfold invInV9
    isplitl [H6]; · iexact H6
    iexists _; isplitl [H9]; · iexact H9
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV9
  icases HI with ⟨H6, %fs9, Hsl9, %hf9⟩
  have hr9 : (slot9).view.read (Elt F) fs9 = rowOp 4 P (Gw d L ft I (k0_off81 k) (k0_off81_inb k k0_h14)) := by
    funext y; rw [hf9 y, htrips9, if_pos (show (y 0).val < 40 from (y 0).isLt)]
  sl_exec
  sl_step
  iexists _, _, _, _, _, _, _, _, _, _, _, _, _, _, _
  isplitl [HO]; · iexact HO
  isplitl [H6]; · iexact H6
  isplitl [RT3]; · iexact RT3
  isplitl [GF0_dst_and]; · iexact GF0_dst_and
  isplitl [GF1_dst_and]; · iexact GF1_dst_and
  isplitl [GF2_dst_and]; · iexact GF2_dst_and
  isplitl [GF3_dst_and]; · iexact GF3_dst_and
  isplitl [GF4_dst_and]; · iexact GF4_dst_and
  isplitl [Hwin0]; · iexact Hwin0
  isplitl [Hwin1]; · iexact Hwin1
  isplitl [Hwin2]; · iexact Hwin2
  isplitl [Hwin3]; · iexact Hwin3
  isplitl [Hwin4]; · iexact Hwin4
  isplitl [WF5_dst]; · iexact WF5_dst
  isplitl [WF6_dst]; · iexact WF6_dst
  isplitl [WF7_dst]; · iexact WF7_dst
  isplitl [WF8_dst]; · iexact WF8_dst
  isplitl [Hoch0]
  · iexists _; isplitl [Hoch0]; · iexact Hoch0
    ipureintro; refine (View.read_writes_whole _ _ _).trans ?_; sl_unfold_run_names; exact hX9
  isplitl [Hoch1]
  · iexists _; isplitl [Hoch1]; · iexact Hoch1
    ipureintro; refine (View.read_writes_whole _ _ _).trans ?_; sl_unfold_run_names; exact hr0
  isplitl [Hoch2]
  · iexists _; isplitl [Hoch2]; · iexact Hoch2
    ipureintro; refine (View.read_writes_whole _ _ _).trans ?_; sl_unfold_run_names; exact hr1
  isplitl [Hoch3]
  · iexists _; isplitl [Hoch3]; · iexact Hoch3
    ipureintro; refine (View.read_writes_whole _ _ _).trans ?_; sl_unfold_run_names; exact hr2
  isplitl [Hoch4]
  · iexists _; isplitl [Hoch4]; · iexact Hoch4
    ipureintro; refine (View.read_writes_whole _ _ _).trans ?_; sl_unfold_run_names; exact hr3
  isplitl [Hoch5]
  · iexists _; isplitl [Hoch5]; · iexact Hoch5
    ipureintro; refine (View.read_writes_whole _ _ _).trans ?_; sl_unfold_run_names; exact hr4
  isplitl [Hsl9]; · iexact Hsl9
  isplitl [Hw9]; · iexact Hw9
  isplitl [Hw0]; · iexact Hw0
  isplitl [Hw1]; · iexact Hw1
  isplitl [Hw2]; · iexact Hw2
  isplitl [Hw3]; · iexact Hw3
  isplitl [Hw4]; · iexact Hw4
  isplitl [Hg5]; · iexact Hg5
  isplitl [Hg6]; · iexact Hg6
  isplitl [Hg7]; · iexact Hg7
  isplitl [Hg8]; · iexact Hg8
  isplitl [Hg9]; · iexact Hg9
  isplitl [GF0]; · iexact GF0
  isplitl [RT4]; · iexact RT4
  isplitl [GF1]; · iexact GF1
  isplitl [Ht5]; · iexact Ht5
  isplitl [GF2]; · iexact GF2
  isplitl [RT0]; · iexact RT0
  isplitl [GF3]; · iexact GF3
  isplitl [RT1]; · iexact RT1
  isplitl [GF4]; · iexact GF4
  isplitl [RT2]; · iexact RT2
  isplitl [WF5]; · iexact WF5
  isplitl [WF6]; · iexact WF6
  isplitl [WF7]; · iexact WF7
  isplitl [WF8]; · iexact WF8
  isplitr
  · ipureintro
    repeat' apply waits_step
    exact fun p hp => .inl hp
  isplitr; · ipureintro; exact hr9
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact hr5
  isplitr; · ipureintro; refine (View.read_writes_whole _ _ _).trans ?_; sl_unfold_run_names; exact hr6
  isplitr; · ipureintro; refine (View.read_writes_whole _ _ _).trans ?_; sl_unfold_run_names; exact hr7
  ipureintro; refine (View.read_writes_whole _ _ _).trans ?_; sl_unfold_run_names; exact hr8

end Cert.Proof.KI
end
-- ==== Proof.KIRegionMid.lean ====
/-
  One trip in the middle of the main loop takes the loop's invariant before it to the invariant after it: the
  invariant gives the trip its ten windows and ten chunks out of the books and the transfers in flight; what the trip
  hands back goes into the books again, every returned chunk at the specification's values, and the transfers it
  leaves in flight are the next invariant's, the read shares of the table rotated by two.
-/
import proofs.«206279_g3710851744293_cont_8to1_b_253_31_alg».proof.Proof.KIRegionPre
import proofs.«206279_g3710851744293_cont_8to1_b_253_31_alg».proof.Proof.KITripMidV
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

theorem region_mid (d : Dev nD) (L : grid0.Coords) (O : CellTallies nD τ sig (HIx 1)) (W : Waits sig (HIx 1)) (hO : ∀ g, O g none = 0)
    (fi : Buf (Elt F) (iLoc d)) (fp : Buf (Elt F) (pLoc d))
    (ft : Buf (Elt F) ((thr d L).loc main_arg1_scv)) (fo : Buf (Elt F) ((thr d L).loc main_v2_scv))
    (P : Buf (Elt F) ((thr d L).loc cc0_scratch0)) (I : Buf (Elt F) ((thr d L).loc cc0_scratch1))
    (hI : ∀ j, (I j).toNat < 100000)
    (hIdef : ∀ j : Fin 25600, I (ValueIdx.ix1 j) = fi (ValueIdx.ix1 ⟨25600 * (wid L).val + j.val, by have := (wid L).isLt; have := j.isLt; omega⟩))
    (hP : ∀ y, P y = fp y) (k : Fin k0_t1_loop.trips) (hk1 : 1 ≤ k.val) (hk2 : k.val ≤ 62) (v2 : BitVec 32) :
    (Inv d L ft I P O W fo (GK fi fp ft) k.val () : sProp 𝕄)
      ⊢ wp frame (wpE (defs₀ (F := F)) 𝒱₀ (thr d L) none) Set.univ
          (k0_t1_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k ⟨⟩)
          fun _ => Inv d L ft I P O W fo (GK fi fp ft) (k.val + 1) () := by
  obtain ⟨k0_h1, k0_h2, k0_h3, k0_h4, k0_h5, k0_h6, k0_h7, k0_h8, k0_h9, k0_h10, k0_h11, k0_h12, k0_h13, k0_h14, k0_h15, k0_h16, k0_h17, k0_h18, k0_h19, k0_h20, k0_h21, k0_h22, k0_h23, k0_h24, k0_h25, k0_h26, k0_h27, k0_h28, k0_h29, k0_h30⟩ := conds_mid k hk1 hk2
  have hk0 : ¬ (k.val = 0) := by omega
  have hk63 : k.val ≤ 63 := by omega
  have hk0' : ¬ (k.val + 1 = 0) := by omega
  have hk63' : k.val + 1 ≤ 63 := by omega
  unfold Inv RingMid
  rw [if_neg hk0, if_pos hk63, if_neg hk0', if_pos hk63']
  iintro ⟨%W', #Hlev, Howes, %hW', H6, Hbooks, %k', %hk', Hring⟩
  have hk'62 : k'.val ≤ 62 := by omega
  ihave Hring2 := (dite_pos_ent hk'62) $$ Hring
  icases Hring2 with ⟨%q0, %q1, %q2, %q3, %q4, %q5, %Y0, %Y1, %Y2, %Y3, %Y4, %Z5, %Z6, %Z7, %Z8, %X9, %g5, %g6, %g7, %g8, %hSh, Ht5, Hs9, S22, S13, S14, S15, S16, S17, S8, S9, S10, S11, S12, GF0, RT0, GF1, RT1, GF2, RT2, GF3, RT3, GF4, RT4, WF5, WF6, WF7, WF8, %hX9, %hY0, %hY1, %hY2, %hY3, %hY4, %hg5, %hg6, %hg7, %hg8⟩
  ihave Hb := (books_take_mid d L I fo (GK fi fp ft) k hk1 hk2 k0_h2 k0_h5 k0_h8 k0_h11 k0_h14 k0_h17 k0_h20 k0_h23 k0_h26 k0_h29 k0_h1 k0_h4 k0_h7 k0_h10 k0_h13 k0_h16 k0_h19 k0_h22 k0_h25 k0_h28) $$ Hbooks
  icases Hb with ⟨Hbooks, Hw4, Hw24, Hw43, Hw62, Hw81, Hw100, Hw119, Hw138, Hw157, Hw176, Ho2, Ho22, Ho41, Ho60, Ho79, Ho98, Ho117, Ho136, Ho155, Ho174⟩
  iapply (wp_wand_r frame _ _)
  isplitl [Ht5 H6 Hw4 Hw24 Hw43 Hw62 Hw81 Hw100 Hw119 Hw138 Hw157 Hw176 Ho2 Ho22 Ho41 Ho60 Ho79 Ho98 Ho117 Ho136 Ho155 Ho174 Hs9 S22 S13 S14 S15 S16 S17 S8 S9 S10 S11 S12 WF5 WF6 WF7 WF8 GF0 RT0 GF1 RT1 GF2 RT2 GF3 RT3 GF4 RT4 Howes]
  · iapply (trip_midV d L O W' hO k v2 q0 q1 q2 q3 q4 q5 ft fo P I hI k0_h1 k0_h2 k0_h3 k0_h4 k0_h5 k0_h6 k0_h7 k0_h8 k0_h9 k0_h10 k0_h11 k0_h12 k0_h13 k0_h14 k0_h15 k0_h16 k0_h17 k0_h18 k0_h19 k0_h20 k0_h21 k0_h22 k0_h23 k0_h24 k0_h25 k0_h26 k0_h27 k0_h28 k0_h29 k0_h30 X9 Y0 Y1 Y2 Y3 Y4 Z5 Z6 Z7 Z8 g5 g6 g7 g8 (k0_off100 k') (k0_off119 k') (k0_off138 k') (k0_off157 k') (k0_off176 k') (k0_off100_inb k' (c17 k' hk'62)) (k0_off119_inb k' (c20 k' hk'62)) (k0_off138_inb k' (c23 k' hk'62)) (k0_off157_inb k' (c26 k' hk'62)) (k0_off176_inb k' (c29 k' hk'62)) (k0_off117 L k') (k0_off136 L k') (k0_off155 L k') (k0_off174 L k') (k0_off117_inb L k' (c19 k' hk'62)) (k0_off136_inb L k' (c22 k' hk'62)) (k0_off155_inb L k' (c25 k' hk'62)) (k0_off174_inb L k' (c28 k' hk'62)) (rowOp 4 P (Gw d L ft I (k0_off81 k') (k0_off81_inb k' (c14 k' hk'62)))) hX9 hY0 hY1 hY2 hY3 hY4)
    isplitl []; · iexact Hlev
    isplitl [Ht5]; · iexact Ht5
    isplitl [H6]; · iexact H6
    isplitl [Hw4]; · iexact Hw4
    isplitl [Hw24]; · iexact Hw24
    isplitl [Hw43]; · iexact Hw43
    isplitl [Hw62]; · iexact Hw62
    isplitl [Hw81]; · iexact Hw81
    isplitl [Hw100]; · iexact Hw100
    isplitl [Hw119]; · iexact Hw119
    isplitl [Hw138]; · iexact Hw138
    isplitl [Hw157]; · iexact Hw157
    isplitl [Hw176]; · iexact Hw176
    isplitl [Ho2]; · iexact Ho2
    isplitl [Ho22]; · iexact Ho22
    isplitl [Ho41]; · iexact Ho41
    isplitl [Ho60]; · iexact Ho60
    isplitl [Ho79]; · iexact Ho79
    isplitl [Ho98]; · iexact Ho98
    isplitl [Ho117]; · iexact Ho117
    isplitl [Ho136]; · iexact Ho136
    isplitl [Ho155]; · iexact Ho155
    isplitl [Ho174]; · iexact Ho174
    isplitl [Hs9]; · iexact Hs9
    isplitl [S22]; · iexact S22
    isplitl [S13]; · iexact S13
    isplitl [S14]; · iexact S14
    isplitl [S15]; · iexact S15
    isplitl [S16]; · iexact S16
    isplitl [S17]; · iexact S17
    isplitl [S8]; · iexact S8
    isplitl [S9]; · iexact S9
    isplitl [S10]; · iexact S10
    isplitl [S11]; · iexact S11
    isplitl [S12]; · iexact S12
    isplitl [WF5]; · iexact WF5
    isplitl [WF6]; · iexact WF6
    isplitl [WF7]; · iexact WF7
    isplitl [WF8]; · iexact WF8
    isplitl [GF0]; · iexact GF0
    isplitl [RT0]; · iexact RT0
    isplitl [GF1]; · iexact GF1
    isplitl [RT1]; · iexact RT1
    isplitl [GF2]; · iexact GF2
    isplitl [RT2]; · iexact RT2
    isplitl [GF3]; · iexact GF3
    isplitl [RT3]; · iexact RT3
    isplitl [GF4]; · iexact GF4
    isplitl [RT4]; · iexact RT4
    iexact Howes
  iintro %u Hpost
  icases Hpost with ⟨%W'', %Y0', %Y1', %Y2', %Y3', %Y4', %Z5', %Z6', %Z7', %Z8', %X9', %g5', %g6', %g7', %g8', Howes, H6, Ht3, Hwg0, Hwg1, Hwg2, Hwg3, Hwg4, Hw4, Hw24, Hw43, Hw62, Hw81, Hor5, Hor6, Hor7, Hor8, ⟨%f2, Ho2, %hf2⟩, ⟨%f22, Ho22, %hf22⟩, ⟨%f41, Ho41, %hf41⟩, ⟨%f60, Ho60, %hf60⟩, ⟨%f79, Ho79, %hf79⟩, ⟨%f98, Ho98, %hf98⟩, Hs9, S22, S13, S14, S15, S16, S17, S8, S9, S10, S11, S12, GF0, RT4, GF1, RT5, GF2, RT0, GF3, RT1, GF4, RT2, WF5, WF6, WF7, WF8, %hW'', %hX9', %hY0', %hY1', %hY2', %hY3', %hY4', %hg5', %hg6', %hg7', %hg8'⟩
  ihave Hor5 := (chunk_to_GK' d L fi fp ft I P hIdef hP (k0_off117_inb L k' (c19 k' hk'62)) (k0_off4_inb k' (c2 k' hk'62)) (k0_off117_eq L k') (k0_off4_eq k') 0 (by omega) (by omega) rfl g5 hg5) $$ Hor5
  ihave Hor6 := (chunk_to_GK' d L fi fp ft I P hIdef hP (k0_off136_inb L k' (c22 k' hk'62)) (k0_off24_inb k' (c5 k' hk'62)) (k0_off136_eq L k') (k0_off24_eq k') 1 (by omega) (by omega) rfl g6 hg6) $$ Hor6
  ihave Hor7 := (chunk_to_GK' d L fi fp ft I P hIdef hP (k0_off155_inb L k' (c25 k' hk'62)) (k0_off43_inb k' (c8 k' hk'62)) (k0_off155_eq L k') (k0_off43_eq k') 2 (by omega) (by omega) rfl g7 hg7) $$ Hor7
  ihave Hor8 := (chunk_to_GK' d L fi fp ft I P hIdef hP (k0_off174_inb L k' (c28 k' hk'62)) (k0_off62_inb k' (c11 k' hk'62)) (k0_off174_eq L k') (k0_off62_eq k') 3 (by omega) (by omega) rfl g8 hg8) $$ Hor8
  ihave Ho2 := (chunk_to_GK' d L fi fp ft I P hIdef hP (k0_off2_inb L k k0_h1) (k0_off81_inb k' (c14 k' hk'62)) (k0_off2_eq' L k k0_h1) (k0_off81_eq k') 4 (by omega) (by omega) rfl f2 hf2) $$ Ho2
  ihave Ho22 := (chunk_to_GK' d L fi fp ft I P hIdef hP (k0_off22_inb L k k0_h4) (k0_off100_inb k' (c17 k' hk'62)) (k0_off22_eq L k) (k0_off100_eq k') 0 (by omega) (by omega) rfl f22 hf22) $$ Ho22
  ihave Ho41 := (chunk_to_GK' d L fi fp ft I P hIdef hP (k0_off41_inb L k k0_h7) (k0_off119_inb k' (c20 k' hk'62)) (k0_off41_eq L k) (k0_off119_eq k') 1 (by omega) (by omega) rfl f41 hf41) $$ Ho41
  ihave Ho60 := (chunk_to_GK' d L fi fp ft I P hIdef hP (k0_off60_inb L k k0_h10) (k0_off138_inb k' (c23 k' hk'62)) (k0_off60_eq L k) (k0_off138_eq k') 2 (by omega) (by omega) rfl f60 hf60) $$ Ho60
  ihave Ho79 := (chunk_to_GK' d L fi fp ft I P hIdef hP (k0_off79_inb L k k0_h13) (k0_off157_inb k' (c26 k' hk'62)) (k0_off79_eq L k) (k0_off157_eq k') 3 (by omega) (by omega) rfl f79 hf79) $$ Ho79
  ihave Ho98 := (chunk_to_GK' d L fi fp ft I P hIdef hP (k0_off98_inb L k k0_h16) (k0_off176_inb k' (c29 k' hk'62)) (k0_off98_eq L k) (k0_off176_eq k') 4 (by omega) (by omega) rfl f98 hf98) $$ Ho98
  ihave Hbooks2 := (books_put_mid d L I fo (GK fi fp ft) k k' hk' hk2 k0_h2 k0_h5 k0_h8 k0_h11 k0_h14 k0_h1 k0_h4 k0_h7 k0_h10 k0_h13 k0_h16 (c17 k' hk'62) (c20 k' hk'62) (c23 k' hk'62) (c26 k' hk'62) (c29 k' hk'62) (c19 k' hk'62) (c22 k' hk'62) (c25 k' hk'62) (c28 k' hk'62)) $$ [Hbooks Hwg0 Hwg1 Hwg2 Hwg3 Hwg4 Hw4 Hw24 Hw43 Hw62 Hw81 Hor5 Hor6 Hor7 Hor8 Ho2 Ho22 Ho41 Ho60 Ho79 Ho98]
  · isplitl [Hbooks]; · iexact Hbooks
    isplitl [Hwg0]; · iexact Hwg0
    isplitl [Hwg1]; · iexact Hwg1
    isplitl [Hwg2]; · iexact Hwg2
    isplitl [Hwg3]; · iexact Hwg3
    isplitl [Hwg4]; · iexact Hwg4
    isplitl [Hw4]; · iexact Hw4
    isplitl [Hw24]; · iexact Hw24
    isplitl [Hw43]; · iexact Hw43
    isplitl [Hw62]; · iexact Hw62
    isplitl [Hw81]; · iexact Hw81
    isplitl [Hor5]; · iexact Hor5
    isplitl [Hor6]; · iexact Hor6
    isplitl [Hor7]; · iexact Hor7
    isplitl [Hor8]; · iexact Hor8
    isplitl [Ho2]; · iexact Ho2
    isplitl [Ho22]; · iexact Ho22
    isplitl [Ho41]; · iexact Ho41
    isplitl [Ho60]; · iexact Ho60
    isplitl [Ho79]; · iexact Ho79
    iexact Ho98
  iexists W''
  isplitl []; · iexact Hlev
  isplitl [Howes]; · iexact Howes
  isplitl []; · ipureintro; exact waits_trans hW' hW''
  isplitl [H6]; · iexact H6
  isplitl [Hbooks2]; · iapply (Books_congr d L I fo (GK fi fp ft) (10 * k.val + 10) (10 * k.val + 15) (10 * k.val + 5) (10 * k.val + 9) (10 * (k.val + 1)) (10 * (k.val + 1) + 5) (10 * (k.val + 1) - 5) (10 * (k.val + 1) - 1) (by omega) (by omega) (by omega) (by omega)); iexact Hbooks2
  iexists k
  isplitl []; · ipureintro; rfl
  iapply (dite_pos_ent' hk2)
  iexists q4, q5, q0, q1, q2, q3, Y0', Y1', Y2', Y3', Y4', Z5', Z6', Z7', Z8', X9', g5', g6', g7', g8'
  isplitl []; · ipureintro; exact hSh.rot
  isplitl [Ht3]; · iexact Ht3
  isplitl [Hs9]; · iexact Hs9
  isplitl [S22]; · iexact S22
  isplitl [S13]; · iexact S13
  isplitl [S14]; · iexact S14
  isplitl [S15]; · iexact S15
  isplitl [S16]; · iexact S16
  isplitl [S17]; · iexact S17
  isplitl [S8]; · iexact S8
  isplitl [S9]; · iexact S9
  isplitl [S10]; · iexact S10
  isplitl [S11]; · iexact S11
  isplitl [S12]; · iexact S12
  isplitl [GF0]; · iexact GF0
  isplitl [RT4]; · iexact RT4
  isplitl [GF1]; · iexact GF1
  isplitl [RT5]; · iexact RT5
  isplitl [GF2]; · iexact GF2
  isplitl [RT0]; · iexact RT0
  isplitl [GF3]; · iexact GF3
  isplitl [RT1]; · iexact RT1
  isplitl [GF4]; · iexact GF4
  isplitl [RT2]; · iexact RT2
  isplitl [WF5]; · iexact WF5
  isplitl [WF6]; · iexact WF6
  isplitl [WF7]; · iexact WF7
  isplitl [WF8]; · iexact WF8
  isplitl []; · ipureintro; exact hX9'
  isplitl []; · ipureintro; exact hY0'
  isplitl []; · ipureintro; exact hY1'
  isplitl []; · ipureintro; exact hY2'
  isplitl []; · ipureintro; exact hY3'
  isplitl []; · ipureintro; exact hY4'
  isplitl []; · ipureintro; exact hg5'
  isplitl []; · ipureintro; exact hg6'
  isplitl []; · ipureintro; exact hg7'
  ipureintro; exact hg8'

end Cert.Proof.KI
end
-- ==== Proof.KITripLastV.lean ====
import proofs.«206279_g3710851744293_cont_8to1_b_253_31_alg».proof.Proof.KIValLemmas
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

-- The last trip with the contents tracked: what each slot and each chunk reads before it, and after it.
set_option maxHeartbeats 1600000 in
theorem trip_lastV (d : Dev nD) (L : grid0.Coords) (O : CellTallies nD τ sig (HIx 1)) (W : Waits sig (HIx 1)) (hO : ∀ g, O g none = 0)
    (k : Fin k0_t1_loop.trips) (v2 : BitVec 32)
    (q0 q1 q2 q3 q4 q5 : PosShare TreeShare)
    (ft : Buf (Elt F) ((thr d L).loc main_arg1_scv)) (fo : Buf (Elt F) ((thr d L).loc main_v2_scv))
    (P : Buf (Elt F) ((thr d L).loc cc0_scratch0)) (I : Buf (Elt F) ((thr d L).loc cc0_scratch1))
    (hI : ∀ j, (I j).toNat < 100000) (k0_h1 : k0_cond1 k = 1#1) (k0_h2 : k0_cond2 k = 1#1) (k0_h3 : k0_cond3 k = 1#1) (k0_h4 : k0_cond4 k = 1#1) (k0_h5 : k0_cond5 k = 1#1) (k0_h6 : k0_cond6 k = 1#1) (k0_h7 : k0_cond7 k = 1#1) (k0_h8 : k0_cond8 k = 1#1) (k0_h9 : k0_cond9 k = 1#1) (k0_h10 : k0_cond10 k = 1#1) (k0_h11 : k0_cond11 k = 1#1) (k0_h12 : k0_cond12 k = 1#1) (k0_h13 : k0_cond13 k = 1#1) (k0_h14 : k0_cond14 k = 1#1) (k0_h15 : k0_cond15 k = 1#1) (k0_h16 : k0_cond16 k = 1#1) (k0_h19 : k0_cond19 k = 1#1) (k0_h22 : k0_cond22 k = 1#1) (k0_h25 : k0_cond25 k = 1#1) (k0_h28 : k0_cond28 k = 1#1) (k0_n17 : ¬ k0_cond17 k = 1#1) (k0_n20 : ¬ k0_cond20 k = 1#1) (k0_n23 : ¬ k0_cond23 k = 1#1) (k0_n26 : ¬ k0_cond26 k = 1#1) (k0_n29 : ¬ k0_cond29 k = 1#1)
    (X9 Xg0 Xg1 Xg2 Xg3 Xg4 Xw5 Xw6 Xw7 Xw8 : Buf (Elt F) ((thr d L).loc cc0_scratch2)) (fw5 fw6 fw7 fw8 : Buf (Elt F) ((thr d L).loc main_v2_scv))
    (go0 go1 go2 go3 go4 : Fin 1 → ℕ) (hgo0 : ∀ a, go0 a + S40.size a ≤ S25600.size a) (hgo1 : ∀ a, go1 a + S40.size a ≤ S25600.size a) (hgo2 : ∀ a, go2 a + S40.size a ≤ S25600.size a) (hgo3 : ∀ a, go3 a + S40.size a ≤ S25600.size a) (hgo4 : ∀ a, go4 a + S40.size a ≤ S25600.size a)
    (ro5 ro6 ro7 ro8 : Fin 3 → ℕ) (hro5 : ∀ a, ro5 a + S1x40x128.size a ≤ S4096x200x128.size a) (hro6 : ∀ a, ro6 a + S1x40x128.size a ≤ S4096x200x128.size a) (hro7 : ∀ a, ro7 a + S1x40x128.size a ≤ S4096x200x128.size a) (hro8 : ∀ a, ro8 a + S1x40x128.size a ≤ S4096x200x128.size a)
    (C9 : S40x128.Idx → F .f32) (hX9 : (slot9).view.read (Elt F) X9 = C9)
    (hXg0 : (slot0).view.read (Elt F) Xg0 = Gw d L ft I go0 hgo0)
    (hXg1 : (slot1).view.read (Elt F) Xg1 = Gw d L ft I go1 hgo1)
    (hXg2 : (slot2).view.read (Elt F) Xg2 = Gw d L ft I go2 hgo2)
    (hXg3 : (slot3).view.read (Elt F) Xg3 = Gw d L ft I go3 hgo3)
    (hXg4 : (slot4).view.read (Elt F) Xg4 = Gw d L ft I go4 hgo4) :
    (iprop(levAts (K (F := F)).L (K (F := F)).lev
        ∗ ((tV).view.loc (thr d L) ↦{q5} ft)
        ∗ ((s6).view.loc (thr d L) ↦{fullShare} P)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((och' (k0_off2 L k) (k0_off2_inb L k k0_h1)).view.loc (thr d L) ↦[(och' (k0_off2 L k) (k0_off2_inb L k k0_h1)).view.set]{fullShare} fo)
        ∗ ((och' (k0_off22 L k) (k0_off22_inb L k k0_h4)).view.loc (thr d L) ↦[(och' (k0_off22 L k) (k0_off22_inb L k k0_h4)).view.set]{fullShare} fo)
        ∗ ((och' (k0_off41 L k) (k0_off41_inb L k k0_h7)).view.loc (thr d L) ↦[(och' (k0_off41 L k) (k0_off41_inb L k k0_h7)).view.set]{fullShare} fo)
        ∗ ((och' (k0_off60 L k) (k0_off60_inb L k k0_h10)).view.loc (thr d L) ↦[(och' (k0_off60 L k) (k0_off60_inb L k k0_h10)).view.set]{fullShare} fo)
        ∗ ((och' (k0_off79 L k) (k0_off79_inb L k k0_h13)).view.loc (thr d L) ↦[(och' (k0_off79 L k) (k0_off79_inb L k k0_h13)).view.set]{fullShare} fo)
        ∗ ((och' (k0_off98 L k) (k0_off98_inb L k k0_h16)).view.loc (thr d L) ↦[(och' (k0_off98 L k) (k0_off98_inb L k k0_h16)).view.set]{fullShare} fo)
        ∗ ((och' (k0_off117 L k) (k0_off117_inb L k k0_h19)).view.loc (thr d L) ↦[(och' (k0_off117 L k) (k0_off117_inb L k k0_h19)).view.set]{fullShare} fo)
        ∗ ((och' (k0_off136 L k) (k0_off136_inb L k k0_h22)).view.loc (thr d L) ↦[(och' (k0_off136 L k) (k0_off136_inb L k k0_h22)).view.set]{fullShare} fo)
        ∗ ((och' (k0_off155 L k) (k0_off155_inb L k k0_h25)).view.loc (thr d L) ↦[(och' (k0_off155 L k) (k0_off155_inb L k k0_h25)).view.set]{fullShare} fo)
        ∗ ((och' (k0_off174 L k) (k0_off174_inb L k k0_h28)).view.loc (thr d L) ↦[(och' (k0_off174 L k) (k0_off174_inb L k k0_h28)).view.set]{fullShare} fo)
        ∗ ((slot9).view.loc (thr d L) ↦[(slot9).view.set]{fullShare} X9)
        ∗ semVal ((thr d L, SemLoc.dma cc0_scratch22.sem) : GSem nD τ sig) 0
        ∗ semVal ((thr d L, SemLoc.dma cc0_scratch13.sem) : GSem nD τ sig) 0
        ∗ semVal ((thr d L, SemLoc.dma cc0_scratch14.sem) : GSem nD τ sig) 0
        ∗ semVal ((thr d L, SemLoc.dma cc0_scratch15.sem) : GSem nD τ sig) 0
        ∗ semVal ((thr d L, SemLoc.dma cc0_scratch16.sem) : GSem nD τ sig) 0
        ∗ semVal ((thr d L, SemLoc.dma cc0_scratch17.sem) : GSem nD τ sig) 0
        ∗ semVal ((thr d L, SemLoc.dma cc0_scratch8.sem) : GSem nD τ sig) 0
        ∗ semVal ((thr d L, SemLoc.dma cc0_scratch9.sem) : GSem nD τ sig) 0
        ∗ semVal ((thr d L, SemLoc.dma cc0_scratch10.sem) : GSem nD τ sig) 0
        ∗ semVal ((thr d L, SemLoc.dma cc0_scratch11.sem) : GSem nD τ sig) 0
        ∗ semVal ((thr d L, SemLoc.dma cc0_scratch12.sem) : GSem nD τ sig) 0
        ∗ Transfers.Flight countersEmb (thr d L) (SemLoc.dma cc0_scratch18.sem) default 163840
            iprop(((och' ro5 hro5).view.loc (thr d L) ↦[(och' ro5 hro5).view.set]{fullShare} fw5) ∗ ((slot5).view.loc (thr d L) ↦[(slot5).view.set]{fullShare} Xw5))
        ∗ Transfers.Flight countersEmb (thr d L) (SemLoc.dma cc0_scratch19.sem) default 163840
            iprop(((och' ro6 hro6).view.loc (thr d L) ↦[(och' ro6 hro6).view.set]{fullShare} fw6) ∗ ((slot6).view.loc (thr d L) ↦[(slot6).view.set]{fullShare} Xw6))
        ∗ Transfers.Flight countersEmb (thr d L) (SemLoc.dma cc0_scratch20.sem) default 163840
            iprop(((och' ro7 hro7).view.loc (thr d L) ↦[(och' ro7 hro7).view.set]{fullShare} fw7) ∗ ((slot7).view.loc (thr d L) ↦[(slot7).view.set]{fullShare} Xw7))
        ∗ Transfers.Flight countersEmb (thr d L) (SemLoc.dma cc0_scratch21.sem) default 163840
            iprop(((och' ro8 hro8).view.loc (thr d L) ↦[(och' ro8 hro8).view.set]{fullShare} fw8) ∗ ((slot8).view.loc (thr d L) ↦[(slot8).view.set]{fullShare} Xw8))
        ∗ Transfers.Flight countersEmb (thr d L) (SemLoc.dma cc0_scratch3.sem) default 163840
            iprop((((slot0).view.loc (thr d L) ↦[(slot0).view.set]{fullShare} Xg0) ∗ ((win' go0 hgo0).view.loc (thr d L) ↦[(win' go0 hgo0).view.set]{fullShare} I))
              ∗ ((tV).view.loc (thr d L) ↦[(tW).view.set]{q0} ft))
        ∗ ((tV).view.loc (thr d L) ↦[Finset.univ \ (tW).view.set]{q0} ft)
        ∗ Transfers.Flight countersEmb (thr d L) (SemLoc.dma cc0_scratch4.sem) default 163840
            iprop((((slot1).view.loc (thr d L) ↦[(slot1).view.set]{fullShare} Xg1) ∗ ((win' go1 hgo1).view.loc (thr d L) ↦[(win' go1 hgo1).view.set]{fullShare} I))
              ∗ ((tV).view.loc (thr d L) ↦[(tW).view.set]{q1} ft))
        ∗ ((tV).view.loc (thr d L) ↦[Finset.univ \ (tW).view.set]{q1} ft)
        ∗ Transfers.Flight countersEmb (thr d L) (SemLoc.dma cc0_scratch5.sem) default 163840
            iprop((((slot2).view.loc (thr d L) ↦[(slot2).view.set]{fullShare} Xg2) ∗ ((win' go2 hgo2).view.loc (thr d L) ↦[(win' go2 hgo2).view.set]{fullShare} I))
              ∗ ((tV).view.loc (thr d L) ↦[(tW).view.set]{q2} ft))
        ∗ ((tV).view.loc (thr d L) ↦[Finset.univ \ (tW).view.set]{q2} ft)
        ∗ Transfers.Flight countersEmb (thr d L) (SemLoc.dma cc0_scratch6.sem) default 163840
            iprop((((slot3).view.loc (thr d L) ↦[(slot3).view.set]{fullShare} Xg3) ∗ ((win' go3 hgo3).view.loc (thr d L) ↦[(win' go3 hgo3).view.set]{fullShare} I))
              ∗ ((tV).view.loc (thr d L) ↦[(tW).view.set]{q3} ft))
        ∗ ((tV).view.loc (thr d L) ↦[Finset.univ \ (tW).view.set]{q3} ft)
        ∗ Transfers.Flight countersEmb (thr d L) (SemLoc.dma cc0_scratch7.sem) default 163840
            iprop((((slot4).view.loc (thr d L) ↦[(slot4).view.set]{fullShare} Xg4) ∗ ((win' go4 hgo4).view.loc (thr d L) ↦[(win' go4 hgo4).view.set]{fullShare} I))
              ∗ ((tV).view.loc (thr d L) ↦[(tW).view.set]{q4} ft))
        ∗ ((tV).view.loc (thr d L) ↦[Finset.univ \ (tW).view.set]{q4} ft)
        ∗ owes (thr d L) O W) : sProp 𝕄)
      ⊢ wp frame (wpE (defs₀ (F := F)) 𝒱₀ (thr d L) none) Set.univ
          (k0_t1_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k ⟨⟩)
          fun _ => iprop(∃ (W' : Waits sig (HIx 1)) (Z0 Z1 Z2 Z3 Z4 Z5 Z6 Z7 Z8 X9' : Buf (Elt F) ((thr d L).loc cc0_scratch2)) (g0 g1 g2 g3 g4 g5 g6 g7 g8 : Buf (Elt F) ((thr d L).loc main_v2_scv)),
            owes (thr d L) O W'
            ∗ ((s6).view.loc (thr d L) ↦{fullShare} P)
            ∗ ((tV).view.loc (thr d L) ↦{q0} ft)
            ∗ ((tV).view.loc (thr d L) ↦{q1} ft)
            ∗ ((tV).view.loc (thr d L) ↦{q2} ft)
            ∗ ((tV).view.loc (thr d L) ↦{q3} ft)
            ∗ ((tV).view.loc (thr d L) ↦{q4} ft)
            ∗ ((tV).view.loc (thr d L) ↦{q5} ft)
            ∗ ((win' go0 hgo0).view.loc (thr d L) ↦[(win' go0 hgo0).view.set]{fullShare} I)
            ∗ ((win' go1 hgo1).view.loc (thr d L) ↦[(win' go1 hgo1).view.set]{fullShare} I)
            ∗ ((win' go2 hgo2).view.loc (thr d L) ↦[(win' go2 hgo2).view.set]{fullShare} I)
            ∗ ((win' go3 hgo3).view.loc (thr d L) ↦[(win' go3 hgo3).view.set]{fullShare} I)
            ∗ ((win' go4 hgo4).view.loc (thr d L) ↦[(win' go4 hgo4).view.set]{fullShare} I)
            ∗ ((win' (k0_off4 k) (k0_off4_inb k k0_h2)).view.loc (thr d L) ↦[(win' (k0_off4 k) (k0_off4_inb k k0_h2)).view.set]{fullShare} I)
            ∗ ((win' (k0_off24 k) (k0_off24_inb k k0_h5)).view.loc (thr d L) ↦[(win' (k0_off24 k) (k0_off24_inb k k0_h5)).view.set]{fullShare} I)
            ∗ ((win' (k0_off43 k) (k0_off43_inb k k0_h8)).view.loc (thr d L) ↦[(win' (k0_off43 k) (k0_off43_inb k k0_h8)).view.set]{fullShare} I)
            ∗ ((win' (k0_off62 k) (k0_off62_inb k k0_h11)).view.loc (thr d L) ↦[(win' (k0_off62 k) (k0_off62_inb k k0_h11)).view.set]{fullShare} I)
            ∗ ((win' (k0_off81 k) (k0_off81_inb k k0_h14)).view.loc (thr d L) ↦[(win' (k0_off81 k) (k0_off81_inb k k0_h14)).view.set]{fullShare} I)
            ∗ ((och' ro5 hro5).view.loc (thr d L) ↦[(och' ro5 hro5).view.set]{fullShare} fw5)
            ∗ ((och' ro6 hro6).view.loc (thr d L) ↦[(och' ro6 hro6).view.set]{fullShare} fw6)
            ∗ ((och' ro7 hro7).view.loc (thr d L) ↦[(och' ro7 hro7).view.set]{fullShare} fw7)
            ∗ ((och' ro8 hro8).view.loc (thr d L) ↦[(och' ro8 hro8).view.set]{fullShare} fw8)
            ∗ (∃ f, ((och' (k0_off2 L k) (k0_off2_inb L k k0_h1)).view.loc (thr d L) ↦[(och' (k0_off2 L k) (k0_off2_inb L k k0_h1)).view.set]{fullShare} f) ∗ ⌜(och' (k0_off2 L k) (k0_off2_inb L k k0_h1)).view.read (Elt F) f = C9⌝)
            ∗ ((slot9).view.loc (thr d L) ↦[(slot9).view.set]{fullShare} X9')
            ∗ semVal ((thr d L, SemLoc.dma cc0_scratch22.sem) : GSem nD τ sig) 0
            ∗ semVal ((thr d L, SemLoc.dma cc0_scratch3.sem) : GSem nD τ sig) 0
            ∗ semVal ((thr d L, SemLoc.dma cc0_scratch4.sem) : GSem nD τ sig) 0
            ∗ semVal ((thr d L, SemLoc.dma cc0_scratch5.sem) : GSem nD τ sig) 0
            ∗ semVal ((thr d L, SemLoc.dma cc0_scratch6.sem) : GSem nD τ sig) 0
            ∗ semVal ((thr d L, SemLoc.dma cc0_scratch7.sem) : GSem nD τ sig) 0
            ∗ semVal ((thr d L, SemLoc.dma cc0_scratch8.sem) : GSem nD τ sig) 0
            ∗ semVal ((thr d L, SemLoc.dma cc0_scratch9.sem) : GSem nD τ sig) 0
            ∗ semVal ((thr d L, SemLoc.dma cc0_scratch10.sem) : GSem nD τ sig) 0
            ∗ semVal ((thr d L, SemLoc.dma cc0_scratch11.sem) : GSem nD τ sig) 0
            ∗ semVal ((thr d L, SemLoc.dma cc0_scratch12.sem) : GSem nD τ sig) 0
            ∗ Transfers.Flight countersEmb (thr d L) (SemLoc.dma cc0_scratch13.sem) default 163840
            iprop(((och' (k0_off22 L k) (k0_off22_inb L k k0_h4)).view.loc (thr d L) ↦[(och' (k0_off22 L k) (k0_off22_inb L k k0_h4)).view.set]{fullShare} g0) ∗ ((slot0).view.loc (thr d L) ↦[(slot0).view.set]{fullShare} Z0))
            ∗ Transfers.Flight countersEmb (thr d L) (SemLoc.dma cc0_scratch14.sem) default 163840
            iprop(((och' (k0_off41 L k) (k0_off41_inb L k k0_h7)).view.loc (thr d L) ↦[(och' (k0_off41 L k) (k0_off41_inb L k k0_h7)).view.set]{fullShare} g1) ∗ ((slot1).view.loc (thr d L) ↦[(slot1).view.set]{fullShare} Z1))
            ∗ Transfers.Flight countersEmb (thr d L) (SemLoc.dma cc0_scratch15.sem) default 163840
            iprop(((och' (k0_off60 L k) (k0_off60_inb L k k0_h10)).view.loc (thr d L) ↦[(och' (k0_off60 L k) (k0_off60_inb L k k0_h10)).view.set]{fullShare} g2) ∗ ((slot2).view.loc (thr d L) ↦[(slot2).view.set]{fullShare} Z2))
            ∗ Transfers.Flight countersEmb (thr d L) (SemLoc.dma cc0_scratch16.sem) default 163840
            iprop(((och' (k0_off79 L k) (k0_off79_inb L k k0_h13)).view.loc (thr d L) ↦[(och' (k0_off79 L k) (k0_off79_inb L k k0_h13)).view.set]{fullShare} g3) ∗ ((slot3).view.loc (thr d L) ↦[(slot3).view.set]{fullShare} Z3))
            ∗ Transfers.Flight countersEmb (thr d L) (SemLoc.dma cc0_scratch17.sem) default 163840
            iprop(((och' (k0_off98 L k) (k0_off98_inb L k k0_h16)).view.loc (thr d L) ↦[(och' (k0_off98 L k) (k0_off98_inb L k k0_h16)).view.set]{fullShare} g4) ∗ ((slot4).view.loc (thr d L) ↦[(slot4).view.set]{fullShare} Z4))
            ∗ Transfers.Flight countersEmb (thr d L) (SemLoc.dma cc0_scratch18.sem) default 163840
            iprop(((och' (k0_off117 L k) (k0_off117_inb L k k0_h19)).view.loc (thr d L) ↦[(och' (k0_off117 L k) (k0_off117_inb L k k0_h19)).view.set]{fullShare} g5) ∗ ((slot5).view.loc (thr d L) ↦[(slot5).view.set]{fullShare} Z5))
            ∗ Transfers.Flight countersEmb (thr d L) (SemLoc.dma cc0_scratch19.sem) default 163840
            iprop(((och' (k0_off136 L k) (k0_off136_inb L k k0_h22)).view.loc (thr d L) ↦[(och' (k0_off136 L k) (k0_off136_inb L k k0_h22)).view.set]{fullShare} g6) ∗ ((slot6).view.loc (thr d L) ↦[(slot6).view.set]{fullShare} Z6))
            ∗ Transfers.Flight countersEmb (thr d L) (SemLoc.dma cc0_scratch20.sem) default 163840
            iprop(((och' (k0_off155 L k) (k0_off155_inb L k k0_h25)).view.loc (thr d L) ↦[(och' (k0_off155 L k) (k0_off155_inb L k k0_h25)).view.set]{fullShare} g7) ∗ ((slot7).view.loc (thr d L) ↦[(slot7).view.set]{fullShare} Z7))
            ∗ Transfers.Flight countersEmb (thr d L) (SemLoc.dma cc0_scratch21.sem) default 163840
            iprop(((och' (k0_off174 L k) (k0_off174_inb L k k0_h28)).view.loc (thr d L) ↦[(och' (k0_off174 L k) (k0_off174_inb L k k0_h28)).view.set]{fullShare} g8) ∗ ((slot8).view.loc (thr d L) ↦[(slot8).view.set]{fullShare} Z8))
            ∗ ⌜∀ p ∈ W', p ∈ W ∨ p.2 = none⌝
            ∗ ⌜(slot9).view.read (Elt F) X9' = rowOp 4 P (Gw d L ft I (k0_off81 k) (k0_off81_inb k k0_h14))⌝
            ∗ ⌜(och' (k0_off22 L k) (k0_off22_inb L k k0_h4)).view.read (Elt F) g0 = rowOp 0 P (Gw d L ft I go0 hgo0)⌝
            ∗ ⌜(och' (k0_off41 L k) (k0_off41_inb L k k0_h7)).view.read (Elt F) g1 = rowOp 1 P (Gw d L ft I go1 hgo1)⌝
            ∗ ⌜(och' (k0_off60 L k) (k0_off60_inb L k k0_h10)).view.read (Elt F) g2 = rowOp 2 P (Gw d L ft I go2 hgo2)⌝
            ∗ ⌜(och' (k0_off79 L k) (k0_off79_inb L k k0_h13)).view.read (Elt F) g3 = rowOp 3 P (Gw d L ft I go3 hgo3)⌝
            ∗ ⌜(och' (k0_off98 L k) (k0_off98_inb L k k0_h16)).view.read (Elt F) g4 = rowOp 4 P (Gw d L ft I go4 hgo4)⌝
            ∗ ⌜(och' (k0_off117 L k) (k0_off117_inb L k k0_h19)).view.read (Elt F) g5 = rowOp 0 P (Gw d L ft I (k0_off4 k) (k0_off4_inb k k0_h2))⌝
            ∗ ⌜(och' (k0_off136 L k) (k0_off136_inb L k k0_h22)).view.read (Elt F) g6 = rowOp 1 P (Gw d L ft I (k0_off24 k) (k0_off24_inb k k0_h5))⌝
            ∗ ⌜(och' (k0_off155 L k) (k0_off155_inb L k k0_h25)).view.read (Elt F) g7 = rowOp 2 P (Gw d L ft I (k0_off43 k) (k0_off43_inb k k0_h8))⌝
            ∗ ⌜(och' (k0_off174 L k) (k0_off174_inb L k k0_h28)).view.read (Elt F) g8 = rowOp 3 P (Gw d L ft I (k0_off62 k) (k0_off62_inb k k0_h11))⌝) := by
  have htrips0 : Scf.trips k0_t2_loop.lb k0_t2_loop.ub k0_t2_loop.st = 40 := by decide
  have htrips1 : Scf.trips k0_t3_loop.lb k0_t3_loop.ub k0_t3_loop.st = 40 := by decide
  have htrips2 : Scf.trips k0_t4_loop.lb k0_t4_loop.ub k0_t4_loop.st = 40 := by decide
  have htrips3 : Scf.trips k0_t5_loop.lb k0_t5_loop.ub k0_t5_loop.st = 40 := by decide
  have htrips4 : Scf.trips k0_t6_loop.lb k0_t6_loop.ub k0_t6_loop.st = 40 := by decide
  have htrips5 : Scf.trips k0_t7_loop.lb k0_t7_loop.ub k0_t7_loop.st = 40 := by decide
  have htrips6 : Scf.trips k0_t8_loop.lb k0_t8_loop.ub k0_t8_loop.st = 40 := by decide
  have htrips7 : Scf.trips k0_t9_loop.lb k0_t9_loop.ub k0_t9_loop.st = 40 := by decide
  have htrips8 : Scf.trips k0_t10_loop.lb k0_t10_loop.ub k0_t10_loop.st = 40 := by decide
  have htrips9 : Scf.trips k0_t11_loop.lb k0_t11_loop.ub k0_t11_loop.st = 40 := by decide
  unfold k0_t1_body
  iintro ⟨#Hlv, Ht5, H6, Hwin0, Hwin1, Hwin2, Hwin3, Hwin4, Hoch0, Hoch1, Hoch2, Hoch3, Hoch4, Hoch5, Hoch6, Hoch7, Hoch8, Hoch9, H9, Hw9, Hw0, Hw1, Hw2, Hw3, Hw4, Hg5, Hg6, Hg7, Hg8, Hg9, WF5, WF6, WF7, WF8, GF0, RT0, GF1, RT1, GF2, RT2, GF3, RT3, GF4, RT4, HO⟩
  ihave Hmw := ((K (F := F)).mayWaits_none (thr := thr d L) hO) $$ Hlv
  have hin : ∀ (r : Rect S25600) (hr) (x : r.shape.Idx),
      BitVec.toNat (View.read (Elt F) ((s7).slice r hr).view I x) < 100000 := fun r hr x => by
    rw [View.read_apply]; exact hI _
  sl_exec
  sl_for (invInV0 d L P (Gw d L ft I go0 hgo0)) $$ [H6 GF0_dst]
  case region =>
    intro r _
    have hr40 : r.val < 40 := lt_of_lt_of_eq r.isLt htrips0
    unfold invInV0
    iintro ⟨H6, %f, Hs, %hf⟩
    sl_exec
    sl_step
    isplitl [H6]; · iexact H6
    iexists _; isplitl [Hs]; · iexact Hs
    ipureintro
    sl_unfold_run_names
    intro y
    exact rowStep (slot0).view 0 r.val hr40 P _ f (k0_off6_eq r) (k0_off7_eq r) (k0_off8_eq r) (k0_off9_eq r) (k0_off10_eq r) (k0_off11_eq r) (k0_off12_eq r) (k0_off13_eq r) (k0_off14_eq r) (k0_off15_eq r) (k0_off16_eq r) (k0_off17_eq r) (k0_off18_eq r) (k0_off19_eq r) (k0_off20_eq r) (k0_off21_eq r) hf y
  · unfold invInV0
    isplitl [H6]; · iexact H6
    iexists _; isplitl [GF0_dst]; · iexact GF0_dst
    ipureintro; intro y; rw [if_neg (Nat.not_lt_zero _)]
    exact congrFun hXg0 y
  iintro %_ HI
  unfold invInV0
  icases HI with ⟨H6, %fs0, Hsl0, %hf0⟩
  have hr0 : (slot0).view.read (Elt F) fs0 = rowOp 0 P (Gw d L ft I go0 hgo0) := by
    funext y; rw [hf0 y, htrips0, if_pos (show (y 0).val < 40 from (y 0).isLt)]
  sl_exec
  sl_for (invInV1 d L P (Gw d L ft I go1 hgo1)) $$ [H6 GF1_dst]
  case region =>
    intro r _
    have hr40 : r.val < 40 := lt_of_lt_of_eq r.isLt htrips1
    unfold invInV1
    iintro ⟨H6, %f, Hs, %hf⟩
    sl_exec
    sl_step
    isplitl [H6]; · iexact H6
    iexists _; isplitl [Hs]; · iexact Hs
    ipureintro
    sl_unfold_run_names
    intro y
    exact rowStep (slot1).view 1 r.val hr40 P _ f (k0_off25_eq r) (k0_off26_eq r) (k0_off27_eq r) (k0_off28_eq r) (k0_off29_eq r) (k0_off30_eq r) (k0_off31_eq r) (k0_off32_eq r) (k0_off33_eq r) (k0_off34_eq r) (k0_off35_eq r) (k0_off36_eq r) (k0_off37_eq r) (k0_off38_eq r) (k0_off39_eq r) (k0_off40_eq r) hf y
  · unfold invInV1
    isplitl [H6]; · iexact H6
    iexists _; isplitl [GF1_dst]; · iexact GF1_dst
    ipureintro; intro y; rw [if_neg (Nat.not_lt_zero _)]
    exact congrFun hXg1 y
  iintro %_ HI
  unfold invInV1
  icases HI with ⟨H6, %fs1, Hsl1, %hf1⟩
  have hr1 : (slot1).view.read (Elt F) fs1 = rowOp 1 P (Gw d L ft I go1 hgo1) := by
    funext y; rw [hf1 y, htrips1, if_pos (show (y 0).val < 40 from (y 0).isLt)]
  sl_exec
  sl_for (invInV2 d L P (Gw d L ft I go2 hgo2)) $$ [H6 GF2_dst]
  case region =>
    intro r _
    have hr40 : r.val < 40 := lt_of_lt_of_eq r.isLt htrips2
    unfold invInV2
    iintro ⟨H6, %f, Hs, %hf⟩
    sl_exec
    sl_step
    isplitl [H6]; · iexact H6
    iexists _; isplitl [Hs]; · iexact Hs
    ipureintro
    sl_unfold_run_names
    intro y
    exact rowStep (slot2).view 2 r.val hr40 P _ f (k0_off44_eq r) (k0_off45_eq r) (k0_off46_eq r) (k0_off47_eq r) (k0_off48_eq r) (k0_off49_eq r) (k0_off50_eq r) (k0_off51_eq r) (k0_off52_eq r) (k0_off53_eq r) (k0_off54_eq r) (k0_off55_eq r) (k0_off56_eq r) (k0_off57_eq r) (k0_off58_eq r) (k0_off59_eq r) hf y
  · unfold invInV2
    isplitl [H6]; · iexact H6
    iexists _; isplitl [GF2_dst]; · iexact GF2_dst
    ipureintro; intro y; rw [if_neg (Nat.not_lt_zero _)]
    exact congrFun hXg2 y
  iintro %_ HI
  unfold invInV2
  icases HI with ⟨H6, %fs2, Hsl2, %hf2⟩
  have hr2 : (slot2).view.read (Elt F) fs2 = rowOp 2 P (Gw d L ft I go2 hgo2) := by
    funext y; rw [hf2 y, htrips2, if_pos (show (y 0).val < 40 from (y 0).isLt)]
  sl_exec
  sl_for (invInV3 d L P (Gw d L ft I go3 hgo3)) $$ [H6 GF3_dst]
  case region =>
    intro r _
    have hr40 : r.val < 40 := lt_of_lt_of_eq r.isLt htrips3
    unfold invInV3
    iintro ⟨H6, %f, Hs, %hf⟩
    sl_exec
    sl_step
    isplitl [H6]; · iexact H6
    iexists _; isplitl [Hs]; · iexact Hs
    ipureintro
    sl_unfold_run_names
    intro y
    exact rowStep (slot3).view 3 r.val hr40 P _ f (k0_off63_eq r) (k0_off64_eq r) (k0_off65_eq r) (k0_off66_eq r) (k0_off67_eq r) (k0_off68_eq r) (k0_off69_eq r) (k0_off70_eq r) (k0_off71_eq r) (k0_off72_eq r) (k0_off73_eq r) (k0_off74_eq r) (k0_off75_eq r) (k0_off76_eq r) (k0_off77_eq r) (k0_off78_eq r) hf y
  · unfold invInV3
    isplitl [H6]; · iexact H6
    iexists _; isplitl [GF3_dst]; · iexact GF3_dst
    ipureintro; intro y; rw [if_neg (Nat.not_lt_zero _)]
    exact congrFun hXg3 y
  iintro %_ HI
  unfold invInV3
  icases HI with ⟨H6, %fs3, Hsl3, %hf3⟩
  have hr3 : (slot3).view.read (Elt F) fs3 = rowOp 3 P (Gw d L ft I go3 hgo3) := by
    funext y; rw [hf3 y, htrips3, if_pos (show (y 0).val < 40 from (y 0).isLt)]
  sl_exec
  sl_for (invInV4 d L P (Gw d L ft I go4 hgo4)) $$ [H6 GF4_dst]
  case region =>
    intro r _
    have hr40 : r.val < 40 := lt_of_lt_of_eq r.isLt htrips4
    unfold invInV4
    iintro ⟨H6, %f, Hs, %hf⟩
    sl_exec
    sl_step
    isplitl [H6]; · iexact H6
    iexists _; isplitl [Hs]; · iexact Hs
    ipureintro
    sl_unfold_run_names
    intro y
    exact rowStep (slot4).view 4 r.val hr40 P _ f (k0_off82_eq r) (k0_off83_eq r) (k0_off84_eq r) (k0_off85_eq r) (k0_off86_eq r) (k0_off87_eq r) (k0_off88_eq r) (k0_off89_eq r) (k0_off90_eq r) (k0_off91_eq r) (k0_off92_eq r) (k0_off93_eq r) (k0_off94_eq r) (k0_off95_eq r) (k0_off96_eq r) (k0_off97_eq r) hf y
  · unfold invInV4
    isplitl [H6]; · iexact H6
    iexists _; isplitl [GF4_dst]; · iexact GF4_dst
    ipureintro; intro y; rw [if_neg (Nat.not_lt_zero _)]
    exact congrFun hXg4 y
  iintro %_ HI
  unfold invInV4
  icases HI with ⟨H6, %fs4, Hsl4, %hf4⟩
  have hr4 : (slot4).view.read (Elt F) fs4 = rowOp 4 P (Gw d L ft I go4 hgo4) := by
    funext y; rw [hf4 y, htrips4, if_pos (show (y 0).val < 40 from (y 0).isLt)]
  sl_exec
  sl_for (invInV5 d L P (Gw d L ft I (k0_off4 k) (k0_off4_inb k k0_h2))) $$ [H6 WF5_src]
  case region =>
    intro r _
    have hr40 : r.val < 40 := lt_of_lt_of_eq r.isLt htrips5
    unfold invInV5
    iintro ⟨H6, %f, Hs, %hf⟩
    sl_exec
    sl_step
    isplitl [H6]; · iexact H6
    iexists _; isplitl [Hs]; · iexact Hs
    ipureintro
    sl_unfold_run_names
    intro y
    exact rowStep (slot5).view 0 r.val hr40 P _ f (k0_off101_eq r) (k0_off102_eq r) (k0_off103_eq r) (k0_off104_eq r) (k0_off105_eq r) (k0_off106_eq r) (k0_off107_eq r) (k0_off108_eq r) (k0_off109_eq r) (k0_off110_eq r) (k0_off111_eq r) (k0_off112_eq r) (k0_off113_eq r) (k0_off114_eq r) (k0_off115_eq r) (k0_off116_eq r) hf y
  · unfold invInV5
    isplitl [H6]; · iexact H6
    iexists _; isplitl [WF5_src]; · iexact WF5_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV5
  icases HI with ⟨H6, %fs5, Hsl5, %hf5⟩
  have hr5 : (slot5).view.read (Elt F) fs5 = rowOp 0 P (Gw d L ft I (k0_off4 k) (k0_off4_inb k k0_h2)) := by
    funext y; rw [hf5 y, htrips5, if_pos (show (y 0).val < 40 from (y 0).isLt)]
  sl_exec
  sl_for (invInV6 d L P (Gw d L ft I (k0_off24 k) (k0_off24_inb k k0_h5))) $$ [H6 WF6_src]
  case region =>
    intro r _
    have hr40 : r.val < 40 := lt_of_lt_of_eq r.isLt htrips6
    unfold invInV6
    iintro ⟨H6, %f, Hs, %hf⟩
    sl_exec
    sl_step
    isplitl [H6]; · iexact H6
    iexists _; isplitl [Hs]; · iexact Hs
    ipureintro
    sl_unfold_run_names
    intro y
    exact rowStep (slot6).view 1 r.val hr40 P _ f (k0_off120_eq r) (k0_off121_eq r) (k0_off122_eq r) (k0_off123_eq r) (k0_off124_eq r) (k0_off125_eq r) (k0_off126_eq r) (k0_off127_eq r) (k0_off128_eq r) (k0_off129_eq r) (k0_off130_eq r) (k0_off131_eq r) (k0_off132_eq r) (k0_off133_eq r) (k0_off134_eq r) (k0_off135_eq r) hf y
  · unfold invInV6
    isplitl [H6]; · iexact H6
    iexists _; isplitl [WF6_src]; · iexact WF6_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV6
  icases HI with ⟨H6, %fs6, Hsl6, %hf6⟩
  have hr6 : (slot6).view.read (Elt F) fs6 = rowOp 1 P (Gw d L ft I (k0_off24 k) (k0_off24_inb k k0_h5)) := by
    funext y; rw [hf6 y, htrips6, if_pos (show (y 0).val < 40 from (y 0).isLt)]
  sl_exec
  sl_for (invInV7 d L P (Gw d L ft I (k0_off43 k) (k0_off43_inb k k0_h8))) $$ [H6 WF7_src]
  case region =>
    intro r _
    have hr40 : r.val < 40 := lt_of_lt_of_eq r.isLt htrips7
    unfold invInV7
    iintro ⟨H6, %f, Hs, %hf⟩
    sl_exec
    sl_step
    isplitl [H6]; · iexact H6
    iexists _; isplitl [Hs]; · iexact Hs
    ipureintro
    sl_unfold_run_names
    intro y
    exact rowStep (slot7).view 2 r.val hr40 P _ f (k0_off139_eq r) (k0_off140_eq r) (k0_off141_eq r) (k0_off142_eq r) (k0_off143_eq r) (k0_off144_eq r) (k0_off145_eq r) (k0_off146_eq r) (k0_off147_eq r) (k0_off148_eq r) (k0_off149_eq r) (k0_off150_eq r) (k0_off151_eq r) (k0_off152_eq r) (k0_off153_eq r) (k0_off154_eq r) hf y
  · unfold invInV7
    isplitl [H6]; · iexact H6
    iexists _; isplitl [WF7_src]; · iexact WF7_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV7
  icases HI with ⟨H6, %fs7, Hsl7, %hf7⟩
  have hr7 : (slot7).view.read (Elt F) fs7 = rowOp 2 P (Gw d L ft I (k0_off43 k) (k0_off43_inb k k0_h8)) := by
    funext y; rw [hf7 y, htrips7, if_pos (show (y 0).val < 40 from (y 0).isLt)]
  sl_exec
  sl_for (invInV8 d L P (Gw d L ft I (k0_off62 k) (k0_off62_inb k k0_h11))) $$ [H6 WF8_src]
  case region =>
    intro r _
    have hr40 : r.val < 40 := lt_of_lt_of_eq r.isLt htrips8
    unfold invInV8
    iintro ⟨H6, %f, Hs, %hf⟩
    sl_exec
    sl_step
    isplitl [H6]; · iexact H6
    iexists _; isplitl [Hs]; · iexact Hs
    ipureintro
    sl_unfold_run_names
    intro y
    exact rowStep (slot8).view 3 r.val hr40 P _ f (k0_off158_eq r) (k0_off159_eq r) (k0_off160_eq r) (k0_off161_eq r) (k0_off162_eq r) (k0_off163_eq r) (k0_off164_eq r) (k0_off165_eq r) (k0_off166_eq r) (k0_off167_eq r) (k0_off168_eq r) (k0_off169_eq r) (k0_off170_eq r) (k0_off171_eq r) (k0_off172_eq r) (k0_off173_eq r) hf y
  · unfold invInV8
    isplitl [H6]; · iexact H6
    iexists _; isplitl [WF8_src]; · iexact WF8_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV8
  icases HI with ⟨H6, %fs8, Hsl8, %hf8⟩
  have hr8 : (slot8).view.read (Elt F) fs8 = rowOp 3 P (Gw d L ft I (k0_off62 k) (k0_off62_inb k k0_h11)) := by
    funext y; rw [hf8 y, htrips8, if_pos (show (y 0).val < 40 from (y 0).isLt)]
  sl_exec
  sl_for (invInV9 d L P (Gw d L ft I (k0_off81 k) (k0_off81_inb k k0_h14))) $$ [H6 H9]
  case region =>
    intro r _
    have hr40 : r.val < 40 := lt_of_lt_of_eq r.isLt htrips9
    unfold invInV9
    iintro ⟨H6, %f, Hs, %hf⟩
    sl_exec
    sl_step
    isplitl [H6]; · iexact H6
    iexists _; isplitl [Hs]; · iexact Hs
    ipureintro
    sl_unfold_run_names
    intro y
    exact rowStep (slot9).view 4 r.val hr40 P _ f (k0_off177_eq r) (k0_off178_eq r) (k0_off179_eq r) (k0_off180_eq r) (k0_off181_eq r) (k0_off182_eq r) (k0_off183_eq r) (k0_off184_eq r) (k0_off185_eq r) (k0_off186_eq r) (k0_off187_eq r) (k0_off188_eq r) (k0_off189_eq r) (k0_off190_eq r) (k0_off191_eq r) (k0_off192_eq r) hf y
  · unfold invInV9
    isplitl [H6]; · iexact H6
    iexists _; isplitl [H9]; · iexact H9
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV9
  icases HI with ⟨H6, %fs9, Hsl9, %hf9⟩
  have hr9 : (slot9).view.read (Elt F) fs9 = rowOp 4 P (Gw d L ft I (k0_off81 k) (k0_off81_inb k k0_h14)) := by
    funext y; rw [hf9 y, htrips9, if_pos (show (y 0).val < 40 from (y 0).isLt)]
  sl_exec
  sl_step
  iexists _, _, _, _, _, _, _, _, _, _, _, _, _, _, _, _, _, _, _, _
  isplitl [HO]; · iexact HO
  isplitl [H6]; · iexact H6
  isplitl [RT0]; · iexact RT0
  isplitl [RT1]; · iexact RT1
  isplitl [RT2]; · iexact RT2
  isplitl [RT3]; · iexact RT3
  isplitl [RT4]; · iexact RT4
  isplitl [Ht5]; · iexact Ht5
  isplitl [GF0_dst_and]; · iexact GF0_dst_and
  isplitl [GF1_dst_and]; · iexact GF1_dst_and
  isplitl [GF2_dst_and]; · iexact GF2_dst_and
  isplitl [GF3_dst_and]; · iexact GF3_dst_and
  isplitl [GF4_dst_and]; · iexact GF4_dst_and
  isplitl [Hwin0]; · iexact Hwin0
  isplitl [Hwin1]; · iexact Hwin1
  isplitl [Hwin2]; · iexact Hwin2
  isplitl [Hwin3]; · iexact Hwin3
  isplitl [Hwin4]; · iexact Hwin4
  isplitl [WF5_dst]; · iexact WF5_dst
  isplitl [WF6_dst]; · iexact WF6_dst
  isplitl [WF7_dst]; · iexact WF7_dst
  isplitl [WF8_dst]; · iexact WF8_dst
  isplitl [Hoch0]
  · iexists _; isplitl [Hoch0]; · iexact Hoch0
    ipureintro; refine (View.read_writes_whole _ _ _).trans ?_; sl_unfold_run_names; exact hX9
  isplitl [Hsl9]; · iexact Hsl9
  isplitl [Hw9]; · iexact Hw9
  isplitl [GF0]; · iexact GF0
  isplitl [GF1]; · iexact GF1
  isplitl [GF2]; · iexact GF2
  isplitl [GF3]; · iexact GF3
  isplitl [GF4]; · iexact GF4
  isplitl [Hg5]; · iexact Hg5
  isplitl [Hg6]; · iexact Hg6
  isplitl [Hg7]; · iexact Hg7
  isplitl [Hg8]; · iexact Hg8
  isplitl [Hg9]; · iexact Hg9
  isplitl [Hw0]; · iexact Hw0
  isplitl [Hw1]; · iexact Hw1
  isplitl [Hw2]; · iexact Hw2
  isplitl [Hw3]; · iexact Hw3
  isplitl [Hw4]; · iexact Hw4
  isplitl [WF5]; · iexact WF5
  isplitl [WF6]; · iexact WF6
  isplitl [WF7]; · iexact WF7
  isplitl [WF8]; · iexact WF8
  isplitr
  · ipureintro
    repeat' apply waits_step
    exact fun p hp => .inl hp
  isplitr; · ipureintro; exact hr9
  isplitr; · ipureintro; refine (View.read_writes_whole _ _ _).trans ?_; sl_unfold_run_names; exact hr0
  isplitr; · ipureintro; refine (View.read_writes_whole _ _ _).trans ?_; sl_unfold_run_names; exact hr1
  isplitr; · ipureintro; refine (View.read_writes_whole _ _ _).trans ?_; sl_unfold_run_names; exact hr2
  isplitr; · ipureintro; refine (View.read_writes_whole _ _ _).trans ?_; sl_unfold_run_names; exact hr3
  isplitr; · ipureintro; refine (View.read_writes_whole _ _ _).trans ?_; sl_unfold_run_names; exact hr4
  isplitr; · ipureintro; refine (View.read_writes_whole _ _ _).trans ?_; sl_unfold_run_names; exact hr5
  isplitr; · ipureintro; refine (View.read_writes_whole _ _ _).trans ?_; sl_unfold_run_names; exact hr6
  isplitr; · ipureintro; refine (View.read_writes_whole _ _ _).trans ?_; sl_unfold_run_names; exact hr7
  ipureintro; refine (View.read_writes_whole _ _ _).trans ?_; sl_unfold_run_names; exact hr8

end Cert.Proof.KI
end
-- ==== Proof.KIRegionLast.lean ====
/-
  The last trip of the main loop takes the loop's invariant before it to the invariant after the loop: no gather is
  started, so all six read shares of the table come back, and every slot but the last is left with its write-out in
  flight.
-/
import proofs.«206279_g3710851744293_cont_8to1_b_253_31_alg».proof.Proof.KIRegionPre
import proofs.«206279_g3710851744293_cont_8to1_b_253_31_alg».proof.Proof.KITripLastV
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

set_option maxHeartbeats 1600000 in
theorem region_last (d : Dev nD) (L : grid0.Coords) (O : CellTallies nD τ sig (HIx 1)) (W : Waits sig (HIx 1)) (hO : ∀ g, O g none = 0)
    (fi : Buf (Elt F) (iLoc d)) (fp : Buf (Elt F) (pLoc d))
    (ft : Buf (Elt F) ((thr d L).loc main_arg1_scv)) (fo : Buf (Elt F) ((thr d L).loc main_v2_scv))
    (P : Buf (Elt F) ((thr d L).loc cc0_scratch0)) (I : Buf (Elt F) ((thr d L).loc cc0_scratch1))
    (hI : ∀ j, (I j).toNat < 100000)
    (hIdef : ∀ j : Fin 25600, I (ValueIdx.ix1 j) = fi (ValueIdx.ix1 ⟨25600 * (wid L).val + j.val, by have := (wid L).isLt; have := j.isLt; omega⟩))
    (hP : ∀ y, P y = fp y) (k : Fin k0_t1_loop.trips) (hk : k.val = 63) (v2 : BitVec 32) :
    (Inv d L ft I P O W fo (GK fi fp ft) k.val () : sProp 𝕄)
      ⊢ wp frame (wpE (defs₀ (F := F)) 𝒱₀ (thr d L) none) Set.univ
          (k0_t1_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k ⟨⟩)
          fun _ => Inv d L ft I P O W fo (GK fi fp ft) (k.val + 1) () := by
  obtain rfl : k = k63 := Fin.ext hk
  obtain ⟨⟨k0_h1, k0_h2, k0_h3, k0_h4, k0_h5, k0_h6, k0_h7, k0_h8, k0_h9, k0_h10, k0_h11, k0_h12, k0_h13, k0_h14, k0_h15, k0_h16, k0_h19, k0_h22, k0_h25, k0_h28⟩, k0_n17, k0_n20, k0_n23, k0_n26, k0_n29⟩ := conds_last k63 hk
  have hk0 : ¬ (k63.val = 0) := by omega
  have hk63 : k63.val ≤ 63 := by omega
  have hk0' : ¬ (k63.val + 1 = 0) := by omega
  have hk63' : ¬ (k63.val + 1 ≤ 63) := by omega
  unfold Inv RingMid RingEnd
  rw [if_neg hk0, if_pos hk63, if_neg hk0', if_neg hk63']
  iintro ⟨%W', #Hlev, Howes, %hW', H6, Hbooks, %k', %hk', Hring⟩
  obtain rfl : k' = k62 := Fin.ext (show k'.val = 62 by omega)
  ihave Hring2 := (dite_pos_ent (show k62.val ≤ 62 by decide)) $$ Hring
  icases Hring2 with ⟨%q0, %q1, %q2, %q3, %q4, %q5, %Y0, %Y1, %Y2, %Y3, %Y4, %Z5, %Z6, %Z7, %Z8, %X9, %g5, %g6, %g7, %g8, %hSh, Ht5, Hs9, S22, S13, S14, S15, S16, S17, S8, S9, S10, S11, S12, GF0, RT0, GF1, RT1, GF2, RT2, GF3, RT3, GF4, RT4, WF5, WF6, WF7, WF8, %hX9, %hY0, %hY1, %hY2, %hY3, %hY4, %hg5, %hg6, %hg7, %hg8⟩
  ihave Hbooks := (Books_congr d L I fo (GK fi fp ft) (10 * k63.val) (10 * k63.val + 5) (10 * k63.val - 5) (10 * k63.val - 1) 630 635 625 629 (by omega) (by omega) (by omega) (by omega)) $$ Hbooks
  ihave Hb := (books_take_last d L I fo (GK fi fp ft) k63 hk k0_h2 k0_h5 k0_h8 k0_h11 k0_h14 k0_h1 k0_h4 k0_h7 k0_h10 k0_h13 k0_h16 k0_h19 k0_h22 k0_h25 k0_h28) $$ Hbooks
  icases Hb with ⟨Hbooks, Hw4, Hw24, Hw43, Hw62, Hw81, Ho2, Ho22, Ho41, Ho60, Ho79, Ho98, Ho117, Ho136, Ho155, Ho174⟩
  iapply (wp_wand_r frame _ _)
  isplitl [Ht5 H6 Hw4 Hw24 Hw43 Hw62 Hw81 Ho2 Ho22 Ho41 Ho60 Ho79 Ho98 Ho117 Ho136 Ho155 Ho174 Hs9 S22 S13 S14 S15 S16 S17 S8 S9 S10 S11 S12 WF5 WF6 WF7 WF8 GF0 RT0 GF1 RT1 GF2 RT2 GF3 RT3 GF4 RT4 Howes]
  · iapply (trip_lastV d L O W' hO k63 v2 q0 q1 q2 q3 q4 q5 ft fo P I hI k0_h1 k0_h2 k0_h3 k0_h4 k0_h5 k0_h6 k0_h7 k0_h8 k0_h9 k0_h10 k0_h11 k0_h12 k0_h13 k0_h14 k0_h15 k0_h16 k0_h19 k0_h22 k0_h25 k0_h28 k0_n17 k0_n20 k0_n23 k0_n26 k0_n29 X9 Y0 Y1 Y2 Y3 Y4 Z5 Z6 Z7 Z8 g5 g6 g7 g8 (k0_off100 k62) (k0_off119 k62) (k0_off138 k62) (k0_off157 k62) (k0_off176 k62) (k0_off100_inb k62 (c17 k62 (by decide))) (k0_off119_inb k62 (c20 k62 (by decide))) (k0_off138_inb k62 (c23 k62 (by decide))) (k0_off157_inb k62 (c26 k62 (by decide))) (k0_off176_inb k62 (c29 k62 (by decide))) (k0_off117 L k62) (k0_off136 L k62) (k0_off155 L k62) (k0_off174 L k62) (k0_off117_inb L k62 (c19 k62 (by decide))) (k0_off136_inb L k62 (c22 k62 (by decide))) (k0_off155_inb L k62 (c25 k62 (by decide))) (k0_off174_inb L k62 (c28 k62 (by decide))) (rowOp 4 P (Gw d L ft I (k0_off81 k62) (k0_off81_inb k62 (c14 k62 (by decide))))) hX9 hY0 hY1 hY2 hY3 hY4)
    isplitl []; · iexact Hlev
    isplitl [Ht5]; · iexact Ht5
    isplitl [H6]; · iexact H6
    isplitl [Hw4]; · iexact Hw4
    isplitl [Hw24]; · iexact Hw24
    isplitl [Hw43]; · iexact Hw43
    isplitl [Hw62]; · iexact Hw62
    isplitl [Hw81]; · iexact Hw81
    isplitl [Ho2]; · iexact Ho2
    isplitl [Ho22]; · iexact Ho22
    isplitl [Ho41]; · iexact Ho41
    isplitl [Ho60]; · iexact Ho60
    isplitl [Ho79]; · iexact Ho79
    isplitl [Ho98]; · iexact Ho98
    isplitl [Ho117]; · iexact Ho117
    isplitl [Ho136]; · iexact Ho136
    isplitl [Ho155]; · iexact Ho155
    isplitl [Ho174]; · iexact Ho174
    isplitl [Hs9]; · iexact Hs9
    isplitl [S22]; · iexact S22
    isplitl [S13]; · iexact S13
    isplitl [S14]; · iexact S14
    isplitl [S15]; · iexact S15
    isplitl [S16]; · iexact S16
    isplitl [S17]; · iexact S17
    isplitl [S8]; · iexact S8
    isplitl [S9]; · iexact S9
    isplitl [S10]; · iexact S10
    isplitl [S11]; · iexact S11
    isplitl [S12]; · iexact S12
    isplitl [WF5]; · iexact WF5
    isplitl [WF6]; · iexact WF6
    isplitl [WF7]; · iexact WF7
    isplitl [WF8]; · iexact WF8
    isplitl [GF0]; · iexact GF0
    isplitl [RT0]; · iexact RT0
    isplitl [GF1]; · iexact GF1
    isplitl [RT1]; · iexact RT1
    isplitl [GF2]; · iexact GF2
    isplitl [RT2]; · iexact RT2
    isplitl [GF3]; · iexact GF3
    isplitl [RT3]; · iexact RT3
    isplitl [GF4]; · iexact GF4
    isplitl [RT4]; · iexact RT4
    iexact Howes
  iintro %u Hpost
  icases Hpost with ⟨%W'', %Z0', %Z1', %Z2', %Z3', %Z4', %Z5', %Z6', %Z7', %Z8', %X9', %g0', %g1', %g2', %g3', %g4', %g5', %g6', %g7', %g8', Howes, H6, Tq0, Tq1, Tq2, Tq3, Tq4, Tq5, Hwg0, Hwg1, Hwg2, Hwg3, Hwg4, Hw4, Hw24, Hw43, Hw62, Hw81, Hor5, Hor6, Hor7, Hor8, ⟨%f2, Ho2, %hf2⟩, Hs9, S22, S3, S4, S5, S6, S7, S8, S9, S10, S11, S12, WF0, WF1, WF2, WF3, WF4, WF5, WF6, WF7, WF8, %hW'', %hX9', %hg0', %hg1', %hg2', %hg3', %hg4', %hg5', %hg6', %hg7', %hg8'⟩
  ihave Hor5 := (chunk_to_GK' d L fi fp ft I P hIdef hP (k0_off117_inb L k62 (c19 k62 (by decide))) (k0_off4_inb k62 (c2 k62 (by decide))) (k0_off117_eq L k62) (k0_off4_eq k62) 0 (by omega) (by omega) rfl g5 hg5) $$ Hor5
  ihave Hor6 := (chunk_to_GK' d L fi fp ft I P hIdef hP (k0_off136_inb L k62 (c22 k62 (by decide))) (k0_off24_inb k62 (c5 k62 (by decide))) (k0_off136_eq L k62) (k0_off24_eq k62) 1 (by omega) (by omega) rfl g6 hg6) $$ Hor6
  ihave Hor7 := (chunk_to_GK' d L fi fp ft I P hIdef hP (k0_off155_inb L k62 (c25 k62 (by decide))) (k0_off43_inb k62 (c8 k62 (by decide))) (k0_off155_eq L k62) (k0_off43_eq k62) 2 (by omega) (by omega) rfl g7 hg7) $$ Hor7
  ihave Hor8 := (chunk_to_GK' d L fi fp ft I P hIdef hP (k0_off174_inb L k62 (c28 k62 (by decide))) (k0_off62_inb k62 (c11 k62 (by decide))) (k0_off174_eq L k62) (k0_off62_eq k62) 3 (by omega) (by omega) rfl g8 hg8) $$ Hor8
  ihave Ho2 := (chunk_to_GK' d L fi fp ft I P hIdef hP (k0_off2_inb L k63 k0_h1) (k0_off81_inb k62 (c14 k62 (by decide))) (k0_off2_eq' L k63 k0_h1) (k0_off81_eq k62) 4 (by omega) (by omega) rfl f2 hf2) $$ Ho2
  ihave Hbooks2 := (books_put_last d L I fo (GK fi fp ft) k63 k62 hk rfl k0_h2 k0_h5 k0_h8 k0_h11 k0_h14 k0_h1 (c17 k62 (by decide)) (c20 k62 (by decide)) (c23 k62 (by decide)) (c26 k62 (by decide)) (c29 k62 (by decide)) (c19 k62 (by decide)) (c22 k62 (by decide)) (c25 k62 (by decide)) (c28 k62 (by decide))) $$ [Hbooks Hwg0 Hwg1 Hwg2 Hwg3 Hwg4 Hw4 Hw24 Hw43 Hw62 Hw81 Hor5 Hor6 Hor7 Hor8 Ho2]
  · isplitl [Hbooks]; · iexact Hbooks
    isplitl [Hwg0]; · iexact Hwg0
    isplitl [Hwg1]; · iexact Hwg1
    isplitl [Hwg2]; · iexact Hwg2
    isplitl [Hwg3]; · iexact Hwg3
    isplitl [Hwg4]; · iexact Hwg4
    isplitl [Hw4]; · iexact Hw4
    isplitl [Hw24]; · iexact Hw24
    isplitl [Hw43]; · iexact Hw43
    isplitl [Hw62]; · iexact Hw62
    isplitl [Hw81]; · iexact Hw81
    isplitl [Hor5]; · iexact Hor5
    isplitl [Hor6]; · iexact Hor6
    isplitl [Hor7]; · iexact Hor7
    isplitl [Hor8]; · iexact Hor8
    iexact Ho2
  iexists W''
  isplitl []; · iexact Hlev
  isplitl [Howes]; · iexact Howes
  isplitl []; · ipureintro; exact waits_trans hW' hW''
  isplitl [H6]; · iexact H6
  isplitl [Hbooks2]; · iexact Hbooks2
  iexists q0, q1, q2, q3, q4, q5, Z0', Z1', Z2', Z3', Z4', Z5', Z6', Z7', Z8', X9', g0', g1', g2', g3', g4', g5', g6', g7', g8'
  isplitl []; · ipureintro; exact hSh
  isplitl [Tq0]; · iexact Tq0
  isplitl [Tq1]; · iexact Tq1
  isplitl [Tq2]; · iexact Tq2
  isplitl [Tq3]; · iexact Tq3
  isplitl [Tq4]; · iexact Tq4
  isplitl [Tq5]; · iexact Tq5
  isplitl [Hs9]; · iexact Hs9
  isplitl [S22]; · iexact S22
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [WF0]; · iexact WF0
  isplitl [WF1]; · iexact WF1
  isplitl [WF2]; · iexact WF2
  isplitl [WF3]; · iexact WF3
  isplitl [WF4]; · iexact WF4
  isplitl [WF5]; · iexact WF5
  isplitl [WF6]; · iexact WF6
  isplitl [WF7]; · iexact WF7
  isplitl [WF8]; · iexact WF8
  isplitl []; · ipureintro; exact hX9'
  isplitl []; · ipureintro; exact hg0'
  isplitl []; · ipureintro; exact hg1'
  isplitl []; · ipureintro; exact hg2'
  isplitl []; · ipureintro; exact hg3'
  isplitl []; · ipureintro; exact hg4'
  isplitl []; · ipureintro; exact hg5'
  isplitl []; · ipureintro; exact hg6'
  isplitl []; · ipureintro; exact hg7'
  ipureintro; exact hg8'

end Cert.Proof.KI
end
-- ==== Proof.KIBooksLemmas3.lean ====
/-
  The books before and after the loop: the index buffer whole and the tile's rows of the result whole are the books
  with every window and every chunk in the untouched segments; with every window back and every chunk written they
  are the two buffers whole again.
-/
import proofs.«206279_g3710851744293_cont_8to1_b_253_31_alg».proof.Proof.KIBooksLemmas
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-- All windows back, all chunks written: the index buffer whole again and the tile's rows of the result at the written contents. -/
theorem books_close (d : Dev nD) (L : grid0.Coords) (I : Buf (Elt F) ((thr d L).loc cc0_scratch1)) (fo fd : Buf (Elt F) ((thr d L).loc main_v2_scv)) :
    (Books d L I fo fd 640 640 640 640 : sProp 𝕄)
      ⊢ iprop(((s7).view.loc (thr d L) ↦{fullShare} I) ∗ (oLoc d ↦[tileRows (wid L)]{fullShare} fd)) := by
  have eA : bigSep (Finset.univ.filter fun q : Fin 640 => q.val < 640) (Wn d L I) = (((s7).view.loc (thr d L) ↦{fullShare} I) : sProp 𝕄) := by
    rw [filter_lt_all]; exact (wins_split_eq d L I).symm
  have eC : bigSep (Finset.univ.filter fun q : Fin 640 => q.val < 640) (On d L fd) = ((oLoc d ↦[tileRows (wid L)]{fullShare} fd) : sProp 𝕄) := by
    rw [filter_lt_all]; exact (ochs_split_eq d L fd).symm
  unfold Books
  iintro ⟨A, -, C, -⟩
  isplitl [A]
  · iapply (eq_entails eA); iexact A
  · iapply (eq_entails eC); iexact C

/-- Before the loop: the index buffer whole and the tile's rows untouched are the books at (0, 0, 0, 0); the five windows the
    first gathers take leave (0, 5, 0, 0). -/
theorem books_open (d : Dev nD) (L : grid0.Coords) (I : Buf (Elt F) ((thr d L).loc cc0_scratch1)) (fo fd : Buf (Elt F) (oLoc d))
    (hg0 : ∀ a, (![0] : Fin 1 → ℕ) a + S40.size a ≤ S25600.size a) (hg1 : ∀ a, (![40] : Fin 1 → ℕ) a + S40.size a ≤ S25600.size a) (hg2 : ∀ a, (![80] : Fin 1 → ℕ) a + S40.size a ≤ S25600.size a) (hg3 : ∀ a, (![120] : Fin 1 → ℕ) a + S40.size a ≤ S25600.size a) (hg4 : ∀ a, (![160] : Fin 1 → ℕ) a + S40.size a ≤ S25600.size a) :
    (iprop(((s7).view.loc (thr d L) ↦{fullShare} I) ∗ (oLoc d ↦[tileRows (wid L)]{fullShare} fo)) : sProp 𝕄)
      ⊢ iprop(Books d L I fo fd 0 5 0 0
        ∗ ((win' ![0] hg0).view.loc (thr d L) ↦[(win' ![0] hg0).view.set]{fullShare} I)
        ∗ ((win' ![40] hg1).view.loc (thr d L) ↦[(win' ![40] hg1).view.set]{fullShare} I)
        ∗ ((win' ![80] hg2).view.loc (thr d L) ↦[(win' ![80] hg2).view.set]{fullShare} I)
        ∗ ((win' ![120] hg3).view.loc (thr d L) ↦[(win' ![120] hg3).view.set]{fullShare} I)
        ∗ ((win' ![160] hg4).view.loc (thr d L) ↦[(win' ![160] hg4).view.set]{fullShare} I)) := by
  have eW : (((s7).view.loc (thr d L) ↦{fullShare} I) : sProp 𝕄) = bigSep (Finset.univ.filter fun q : Fin 640 => 0 ≤ q.val) (Wn d L I) := by
    rw [filter_ge_zero]; exact wins_split_eq d L I
  have eO : ((oLoc d ↦[tileRows (wid L)]{fullShare} fo) : sProp 𝕄) = bigSep (Finset.univ.filter fun q : Fin 640 => 0 ≤ q.val) (On d L fo) := by
    rw [filter_ge_zero]; exact ochs_split_eq d L fo
  have eA : bigSep (Finset.univ.filter fun q : Fin 640 => q.val < 0) (Wn d L I) = iprop(emp) := bigSep_lt_zero _
  have eC : bigSep (Finset.univ.filter fun q : Fin 640 => q.val < 0) (On d L fd) = iprop(emp) := bigSep_lt_zero _
  have eB :=
    takeW d L I (0) (1) (by omega) (by omega) hg0 rfl (by omega) <|
    takeW d L I (1) (2) (by omega) (by omega) hg1 rfl (by omega) <|
    takeW d L I (2) (3) (by omega) (by omega) hg2 rfl (by omega) <|
    takeW d L I (3) (4) (by omega) (by omega) hg3 rfl (by omega) <|
    takeW d L I (4) (5) (by omega) (by omega) hg4 rfl (by omega) <|
    rfl
  unfold Books
  iintro ⟨Hs, Ho⟩
  ihave B2 := (eq_entails (eW.trans eB)) $$ Hs
  icases B2 with ⟨W0, W1, W2, W3, W4, B⟩
  ihave D := (eq_entails eO) $$ Ho
  isplitl [B D]
  · isplitl []; · iapply (eq_entails' eA); iempintro
    isplitl [B]; · iexact B
    isplitl []; · iapply (eq_entails' eC); iempintro
    iexact D
  isplitl [W0]; · iexact W0
  isplitl [W1]; · iexact W1
  isplitl [W2]; · iexact W2
  isplitl [W3]; · iexact W3
  iexact W4

end Cert.Proof.KI
end
-- ==== Proof.KIBody.lean ====
/-
  A tile's task, whole: the two copies that fill its positional table and its index buffer, the first five gathers,
  the main loop at its invariant (each trip by the trip lemmas), the last write-out and the ten waits; then every
  chunk it wrote holds the specification's values, and the pieces join back into what the task was handed.
-/
import proofs.«206279_g3710851744293_cont_8to1_b_253_31_alg».proof.Proof.KIPre
import proofs.«206279_g3710851744293_cont_8to1_b_253_31_alg».proof.Proof.KIChunk
import proofs.«206279_g3710851744293_cont_8to1_b_253_31_alg».proof.Proof.KIValLemmas
import proofs.«206279_g3710851744293_cont_8to1_b_253_31_alg».proof.Proof.KIJoin
import proofs.«206279_g3710851744293_cont_8to1_b_253_31_alg».proof.Proof.KIRegionFirst
import proofs.«206279_g3710851744293_cont_8to1_b_253_31_alg».proof.Proof.KIRegionMid
import proofs.«206279_g3710851744293_cont_8to1_b_253_31_alg».proof.Proof.KIRegionLast
import proofs.«206279_g3710851744293_cont_8to1_b_253_31_alg».proof.Proof.KISplit
import proofs.«206279_g3710851744293_cont_8to1_b_253_31_alg».proof.Proof.KIBooksLemmas3
import proofs.«206279_g3710851744293_cont_8to1_b_253_31_alg».proof.Proof.KIBooksLemmas2
noncomputable section
namespace Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

set_option maxHeartbeats 1600000 in
/-- A tile's task: handed its shares of the inputs and its rows of the result, the kernel function runs to the end and
    hands them back, the rows at the specification. -/
theorem tile_body (hF : (K (F := F)).Facts) : TileBody (F := F) := by
  intro d L O W hO fi fp ft fo hfi
  unfold tileGo
  rw [cc0__embed_body_eq_skeleton]; unfold cc0__embed_body_skel
  iintro ⟨#Hlv, -, ⟨Hi, Hp, Ht, Ho⟩, Hsb, Hss, HO⟩
  ihave Hsc := (Entails.of_eq (scoped_open (F := F) hF d L)) $$ [Hsb Hss]
  · isplitl [Hsb] <;> iassumption
  icases Hsc with ⟨⟨%f6, H6⟩, ⟨%f7, H7⟩, ⟨%f8, H8⟩, Hrb, Hs0, Hs1, Hs2, Hs3, Hs4, Hs5, Hs6, Hs7, Hs8, Hs9, Hs10, Hs11, Hs12, Hs13, Hs14, Hs15, Hs16, Hs17, Hs18, Hs19, Hs20, Hs21, Hrs⟩
  ihave Hmw := ((K (F := F)).mayWaits_none (thr := thr d L) hO) $$ Hlv
  ihave Hi := (Entails.of_eq (pts_i (F := F) d L _ _).symm) $$ Hi
  ihave Hp := (Entails.of_eq (pts_p (F := F) d L _ _).symm) $$ Hp
  ihave Hsl := (slots_split (F := F) d L f8).1 $$ H8
  icases Hsl with ⟨Hx0, Hx1, Hx2, Hx3, Hx4, Hx5, Hx6, Hx7, Hx8, Hx9⟩
  sl_exec
  have hIdef : ∀ j : Fin 25600, (View.write (Elt F) (s7).view f7 (tile_body.sl.dma0_1 d L fi) Finset.univ) (ValueIdx.ix1 j)
      = fi (ValueIdx.ix1 ⟨25600 * (wid L).val + j.val, by have := (wid L).isLt; have := j.isLt; omega⟩) := by
    sl_unfold_run_names; exact idx_copy d L f7 fi
  have hP : ∀ y, (View.write (Elt F) (s6).view f6 (tile_body.sl.dma0 d fp) Finset.univ) y = fp y := by
    sl_unfold_run_names; exact fun y => congrFun (pe_copy d L f6 fp) y
  have hI : ∀ j, ((View.write (Elt F) (s7).view f7 (tile_body.sl.dma0_1 d L fi) Finset.univ) j).toNat < 100000 := by
    intro j
    have h1 := hIdef ⟨(j 0).val, (j 0).isLt⟩
    have e : (ValueIdx.ix1 (n := 25600) ⟨(j 0).val, (j 0).isLt⟩) = j := by funext a; match a with | ⟨0, _⟩ => rfl
    rw [e] at h1; rw [h1]; exact hfi _
  generalize (View.write (Elt F) (s7).view f7 (tile_body.sl.dma0_1 d L fi) Finset.univ) = I at hIdef hI ⊢
  generalize (View.write (Elt F) (s6).view f6 (tile_body.sl.dma0 d fp) Finset.univ) = P at hP ⊢
  ihave Hbk := (books_open (F := F) d L I fo (GK fi fp ft) hgw0 hgw1 hgw2 hgw3 hgw4) $$ [H7 Ho]
  · isplitl [H7] <;> iassumption
  icases Hbk with ⟨Hbooks, Hwn0, Hwn1, Hwn2, Hwn3, Hwn4⟩
  ihave Ht := (Entails.of_eq (pts_t (F := F) d L _ _).symm) $$ Ht
  ihave Ht := (table_split (F := F) d L ft) $$ Ht
  icases Ht with ⟨Ht0, Ht1, Ht2, Ht3, Ht4, Ht5⟩
  have hin : ∀ (r : Rect S25600) (hr) (x : r.shape.Idx),
      BitVec.toNat (View.read (Elt F) ((s7).slice r hr).view I x) < 100000 := fun r hr x => by
    rw [View.read_apply]; exact hI _
  sl_exec
  have hgv0 : (slot0).view.read (Elt F) ((slot0).view.writes (Elt F) f8 [⟨Rect.whole S40x128, tile_body.sl.gather0 d ft I hin⟩]) = Gw d L ft I ![0] hgw0 := by
    refine (View.read_writes_whole _ _ _).trans ?_; sl_unfold_run_names; exact gather_eq_Gw d L ft I _ _ _ _
  have hgv1 : (slot1).view.read (Elt F) ((slot1).view.writes (Elt F) f8 [⟨Rect.whole S40x128, tile_body.sl.gather1 d ft I hin⟩]) = Gw d L ft I ![40] hgw1 := by
    refine (View.read_writes_whole _ _ _).trans ?_; sl_unfold_run_names; exact gather_eq_Gw d L ft I _ _ _ _
  have hgv2 : (slot2).view.read (Elt F) ((slot2).view.writes (Elt F) f8 [⟨Rect.whole S40x128, tile_body.sl.gather2 d ft I hin⟩]) = Gw d L ft I ![80] hgw2 := by
    refine (View.read_writes_whole _ _ _).trans ?_; sl_unfold_run_names; exact gather_eq_Gw d L ft I _ _ _ _
  have hgv3 : (slot3).view.read (Elt F) ((slot3).view.writes (Elt F) f8 [⟨Rect.whole S40x128, tile_body.sl.gather3 d ft I hin⟩]) = Gw d L ft I ![120] hgw3 := by
    refine (View.read_writes_whole _ _ _).trans ?_; sl_unfold_run_names; exact gather_eq_Gw d L ft I _ _ _ _
  have hgv4 : (slot4).view.read (Elt F) ((slot4).view.writes (Elt F) f8 [⟨Rect.whole S40x128, tile_body.sl.gather4 d ft I hin⟩]) = Gw d L ft I ![160] hgw4 := by
    refine (View.read_writes_whole _ _ _).trans ?_; sl_unfold_run_names; exact gather_eq_Gw d L ft I _ _ _ _
  sl_for (Inv d L ft I P O (insert (SemLoc.dma cc0_scoped1.sem, (default : HIx 1)) (insert (SemLoc.dma cc0_scoped0.sem, (default : HIx 1)) W)) fo (GK fi fp ft)) $$ [HO H6 Hbooks Ht5 Hx5 Hx6 Hx7 Hx8 Hx9 Hs5 Hs6 Hs7 Hs8 Hs9 Hs10 Hs11 Hs12 Hs13 Hs14 Hs15 Hs16 Hs17 Hs18 Hs19 Hs0 Hs1 Hs2 Hs3 Hs4 Ht0 Ht1 Ht2 Ht3 Ht4]
  case region =>
    intro k acc
    unfold tile_body.sl.prog.body_1
    have hk64 : k.val < 64 := k.isLt
    rcases Nat.eq_zero_or_pos k.val with h0 | h0
    · exact region_first d L O _ hO fi fp ft fo P I hI hIdef hP k h0 _
    · by_cases h62 : k.val ≤ 62
      · exact region_mid d L O _ hO fi fp ft fo P I hI hIdef hP k h0 h62 _
      · exact region_last d L O _ hO fi fp ft fo P I hI hIdef hP k (by omega) _
  · unfold Inv
    rw [if_pos rfl]
    iexists _
    isplitr; · iexact Hlv
    isplitl [HO]; · iexact HO
    isplitr; · ipureintro; exact fun p hp => .inl hp
    isplitl [H6]; · iexact H6
    isplitl [Hbooks]; · iexact Hbooks
    unfold Ring0
    iexists (tq (wid L) 0), (tq (wid L) 1), (tq (wid L) 2), (tq (wid L) 3), (tq (wid L) 4), (sh (wid L) 5), _, _, _, _, _, _, _, _, _, _
    isplitr; · ipureintro; exact table_join (F := F) d L
    isplitl [Ht5]; · iexact Ht5
    isplitl [Hx5]; · iexact Hx5
    isplitl [Hx6]; · iexact Hx6
    isplitl [Hx7]; · iexact Hx7
    isplitl [Hx8]; · iexact Hx8
    isplitl [Hx9]; · iexact Hx9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs5]; · iexact Hs5
    isplitl [Hs6]; · iexact Hs6
    isplitl [Hs7]; · iexact Hs7
    isplitl [Hs8]; · iexact Hs8
    isplitl [Hs9]; · iexact Hs9
    isplitl [Hs0]; · iexact Hs0
    isplitl [Ht0]; · iexact Ht0
    isplitl [Hs1]; · iexact Hs1
    isplitl [Ht1]; · iexact Ht1
    isplitl [Hs2]; · iexact Hs2
    isplitl [Ht2]; · iexact Ht2
    isplitl [Hs3]; · iexact Hs3
    isplitl [Ht3]; · iexact Ht3
    isplitl [Hs4]; · iexact Hs4
    isplitl [Ht4]; · iexact Ht4
    isplitr; · ipureintro; exact hgv0
    isplitr; · ipureintro; exact hgv1
    isplitr; · ipureintro; exact hgv2
    isplitr; · ipureintro; exact hgv3
    ipureintro; exact hgv4
  iintro %_ HI
  unfold Inv
  rw [if_neg (by decide), if_neg (by decide)]
  icases HI with ⟨%W3, -, HO, %hW3, H6, Hbooks, HR⟩
  unfold RingEnd
  icases HR with ⟨%q0, %q1, %q2, %q3, %q4, %q5, %Z0, %Z1, %Z2, %Z3, %Z4, %Z5, %Z6, %Z7, %Z8, %X9, %g0, %g1, %g2, %g3, %g4, %g5, %g6, %g7, %g8, %hSh, Hq0, Hq1, Hq2, Hq3, Hq4, Hq5, H9, Hw9, Hg0, Hg1, Hg2, Hg3, Hg4, Hg5, Hg6, Hg7, Hg8, Hg9, WF0, WF1, WF2, WF3, WF4, WF5, WF6, WF7, WF8, %hv9, %hg0, %hg1, %hg2, %hg3, %hg4, %hg5, %hg6, %hg7, %hg8⟩
  ihave Hb := (books_take_end (F := F) d L I fo (GK fi fp ft)) $$ Hbooks
  icases Hb with ⟨Hbooks, Hoch⟩
  sl_exec
  sl_step
  have e3_0 : k0_off22 L k63 = ![b0 L + 126, 0, 0] := by rw [k0_off22_eq]; rfl
  have e1_0 : k0_off100 k62 = ![25200] := by rw [k0_off100_eq]; rfl
  ihave WF0_dst := (chunk_to_GK (F := F) d L fi fp ft I P hIdef hP _ _ _ _ (0 : Fin 5)
      (by rw [e3_0]; show b0 L ≤ b0 L + 126; omega)
      (by rw [e3_0, e1_0]; show 25200 = 200 * (b0 L + 126 - b0 L) + 0; omega)
      (by rw [e3_0]; rfl) (by rw [e3_0]; rfl) g0 hg0) $$ WF0_dst
  have e3_1 : k0_off41 L k63 = ![b0 L + 126, 40, 0] := by rw [k0_off41_eq]; rfl
  have e1_1 : k0_off119 k62 = ![25240] := by rw [k0_off119_eq]; rfl
  ihave WF1_dst := (chunk_to_GK (F := F) d L fi fp ft I P hIdef hP _ _ _ _ (1 : Fin 5)
      (by rw [e3_1]; show b0 L ≤ b0 L + 126; omega)
      (by rw [e3_1, e1_1]; show 25240 = 200 * (b0 L + 126 - b0 L) + 40; omega)
      (by rw [e3_1]; rfl) (by rw [e3_1]; rfl) g1 hg1) $$ WF1_dst
  have e3_2 : k0_off60 L k63 = ![b0 L + 126, 80, 0] := by rw [k0_off60_eq]; rfl
  have e1_2 : k0_off138 k62 = ![25280] := by rw [k0_off138_eq]; rfl
  ihave WF2_dst := (chunk_to_GK (F := F) d L fi fp ft I P hIdef hP _ _ _ _ (2 : Fin 5)
      (by rw [e3_2]; show b0 L ≤ b0 L + 126; omega)
      (by rw [e3_2, e1_2]; show 25280 = 200 * (b0 L + 126 - b0 L) + 80; omega)
      (by rw [e3_2]; rfl) (by rw [e3_2]; rfl) g2 hg2) $$ WF2_dst
  have e3_3 : k0_off79 L k63 = ![b0 L + 126, 120, 0] := by rw [k0_off79_eq]; rfl
  have e1_3 : k0_off157 k62 = ![25320] := by rw [k0_off157_eq]; rfl
  ihave WF3_dst := (chunk_to_GK (F := F) d L fi fp ft I P hIdef hP _ _ _ _ (3 : Fin 5)
      (by rw [e3_3]; show b0 L ≤ b0 L + 126; omega)
      (by rw [e3_3, e1_3]; show 25320 = 200 * (b0 L + 126 - b0 L) + 120; omega)
      (by rw [e3_3]; rfl) (by rw [e3_3]; rfl) g3 hg3) $$ WF3_dst
  have e3_4 : k0_off98 L k63 = ![b0 L + 126, 160, 0] := by rw [k0_off98_eq]; rfl
  have e1_4 : k0_off176 k62 = ![25360] := by rw [k0_off176_eq]; rfl
  ihave WF4_dst := (chunk_to_GK (F := F) d L fi fp ft I P hIdef hP _ _ _ _ (4 : Fin 5)
      (by rw [e3_4]; show b0 L ≤ b0 L + 126; omega)
      (by rw [e3_4, e1_4]; show 25360 = 200 * (b0 L + 126 - b0 L) + 160; omega)
      (by rw [e3_4]; rfl) (by rw [e3_4]; rfl) g4 hg4) $$ WF4_dst
  have e3_5 : k0_off117 L k63 = ![b0 L + 127, 0, 0] := by rw [k0_off117_eq]; rfl
  have e1_5 : k0_off4 k63 = ![25400] := by rw [k0_off4_eq]; rfl
  ihave WF5_dst := (chunk_to_GK (F := F) d L fi fp ft I P hIdef hP _ _ _ _ (0 : Fin 5)
      (by rw [e3_5]; show b0 L ≤ b0 L + 127; omega)
      (by rw [e3_5, e1_5]; show 25400 = 200 * (b0 L + 127 - b0 L) + 0; omega)
      (by rw [e3_5]; rfl) (by rw [e3_5]; rfl) g5 hg5) $$ WF5_dst
  have e3_6 : k0_off136 L k63 = ![b0 L + 127, 40, 0] := by rw [k0_off136_eq]; rfl
  have e1_6 : k0_off24 k63 = ![25440] := by rw [k0_off24_eq]; rfl
  ihave WF6_dst := (chunk_to_GK (F := F) d L fi fp ft I P hIdef hP _ _ _ _ (1 : Fin 5)
      (by rw [e3_6]; show b0 L ≤ b0 L + 127; omega)
      (by rw [e3_6, e1_6]; show 25440 = 200 * (b0 L + 127 - b0 L) + 40; omega)
      (by rw [e3_6]; rfl) (by rw [e3_6]; rfl) g6 hg6) $$ WF6_dst
  have e3_7 : k0_off155 L k63 = ![b0 L + 127, 80, 0] := by rw [k0_off155_eq]; rfl
  have e1_7 : k0_off43 k63 = ![25480] := by rw [k0_off43_eq]; rfl
  ihave WF7_dst := (chunk_to_GK (F := F) d L fi fp ft I P hIdef hP _ _ _ _ (2 : Fin 5)
      (by rw [e3_7]; show b0 L ≤ b0 L + 127; omega)
      (by rw [e3_7, e1_7]; show 25480 = 200 * (b0 L + 127 - b0 L) + 80; omega)
      (by rw [e3_7]; rfl) (by rw [e3_7]; rfl) g7 hg7) $$ WF7_dst
  have e3_8 : k0_off174 L k63 = ![b0 L + 127, 120, 0] := by rw [k0_off174_eq]; rfl
  have e1_8 : k0_off62 k63 = ![25520] := by rw [k0_off62_eq]; rfl
  ihave WF8_dst := (chunk_to_GK (F := F) d L fi fp ft I P hIdef hP _ _ _ _ (3 : Fin 5)
      (by rw [e3_8]; show b0 L ≤ b0 L + 127; omega)
      (by rw [e3_8, e1_8]; show 25520 = 200 * (b0 L + 127 - b0 L) + 120; omega)
      (by rw [e3_8]; rfl) (by rw [e3_8]; rfl) g8 hg8) $$ WF8_dst
  have e3_9 : k0_off193 L = ![b0 L + 127, 160, 0] := by rw [k0_off193_eq]
  have e1_9 : k0_off81 k63 = ![25560] := by rw [k0_off81_eq]; rfl
  have hv639 : (och' (k0_off193 L) (k0_off193_inb L)).view.read (Elt F) ((och' (k0_off193 L) (k0_off193_inb L)).view.writes (Elt F) fo [⟨Rect.whole S40x128, tile_body.sl.dma0_2 d L X9⟩])
      = rowOp 4 P (Gw d L ft I (k0_off81 k63) (k0_off81_inb k63 (e14 k63 rfl))) := by
    refine (View.read_writes_whole _ _ _).trans ?_; sl_unfold_run_names; exact hv9
  ihave Hoch := (chunk_to_GK (F := F) d L fi fp ft I P hIdef hP _ _ _ _ (4 : Fin 5)
      (by rw [e3_9]; show b0 L ≤ b0 L + 127; omega)
      (by rw [e3_9, e1_9]; show 25560 = 200 * (b0 L + 127 - b0 L) + 160; omega)
      (by rw [e3_9]; rfl) (by rw [e3_9]; rfl) _ hv639) $$ Hoch
  ihave Hbooks := (books_put_end (F := F) d L I fo (GK fi fp ft) k63 rfl (e4 k63 rfl) (e7 k63 rfl) (e10 k63 rfl) (e13 k63 rfl) (e16 k63 rfl) (e19 k63 rfl) (e22 k63 rfl) (e25 k63 rfl) (e28 k63 rfl)) $$ [Hbooks WF0_dst WF1_dst WF2_dst WF3_dst WF4_dst WF5_dst WF6_dst WF7_dst WF8_dst Hoch]
  · isplitl [Hbooks]; · iexact Hbooks
    isplitl [WF0_dst]; · iexact WF0_dst
    isplitl [WF1_dst]; · iexact WF1_dst
    isplitl [WF2_dst]; · iexact WF2_dst
    isplitl [WF3_dst]; · iexact WF3_dst
    isplitl [WF4_dst]; · iexact WF4_dst
    isplitl [WF5_dst]; · iexact WF5_dst
    isplitl [WF6_dst]; · iexact WF6_dst
    isplitl [WF7_dst]; · iexact WF7_dst
    isplitl [WF8_dst]; · iexact WF8_dst
    iexact Hoch
  ihave Hcl := (books_close (F := F) d L I fo (GK fi fp ft)) $$ Hbooks
  icases Hcl with ⟨H7, Ho⟩
  ihave Ht := (hSh ft) $$ [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  ihave Ht := (Entails.of_eq (pts_t (F := F) d L _ _)) $$ Ht
  ihave Hi := (Entails.of_eq (pts_i (F := F) d L _ _)) $$ Hi
  ihave Hp := (Entails.of_eq (pts_p (F := F) d L _ _)) $$ Hp
  ihave H8 := (slots_join (F := F) d L) $$ [WF0_src WF1_src WF2_src WF3_src WF4_src WF5_src WF6_src WF7_src WF8_src H9]
  · isplitl [WF0_src]; · iexists _; iexact WF0_src
    isplitl [WF1_src]; · iexists _; iexact WF1_src
    isplitl [WF2_src]; · iexists _; iexact WF2_src
    isplitl [WF3_src]; · iexists _; iexact WF3_src
    isplitl [WF4_src]; · iexists _; iexact WF4_src
    isplitl [WF5_src]; · iexists _; iexact WF5_src
    isplitl [WF6_src]; · iexists _; iexact WF6_src
    isplitl [WF7_src]; · iexists _; iexact WF7_src
    isplitl [WF8_src]; · iexists _; iexact WF8_src
    iexists _; iexact H9
  ihave Hsc := (Entails.of_eq (scoped_open (F := F) hF d L).symm) $$ [H6 H7 H8 Hrb Hg0 Hg1 Hg2 Hg3 Hg4 Hg5 Hg6 Hg7 Hg8 Hg9 WF0 WF1 WF2 WF3 WF4 WF5 WF6 WF7 WF8 Hw9 Hs20 Hs21 Hrs]
  · isplitl [H6]; · iexists _; iexact H6
    isplitl [H7]; · iexists _; iexact H7
    isplitl [H8]; · iexact H8
    isplitl [Hrb]; · iexact Hrb
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9]; · iexact Hg9
    isplitl [WF0]; · iexact WF0
    isplitl [WF1]; · iexact WF1
    isplitl [WF2]; · iexact WF2
    isplitl [WF3]; · iexact WF3
    isplitl [WF4]; · iexact WF4
    isplitl [WF5]; · iexact WF5
    isplitl [WF6]; · iexact WF6
    isplitl [WF7]; · iexact WF7
    isplitl [WF8]; · iexact WF8
    isplitl [Hw9]; · iexact Hw9
    isplitl [Hs20]; · iexact Hs20
    isplitl [Hs21]; · iexact Hs21
    iexact Hrs
  icases Hsc with ⟨Hsb, Hss⟩
  unfold tileTd
  isplitl [Hi Hp Ht Ho]
  · isplitl [Hi]; · iexact Hi
    isplitl [Hp]; · iexact Hp
    isplitl [Ht]; · iexact Ht
    iexact Ho
  isplitl [Hsb]; · iexact Hsb
  isplitl [Hss]; · iexact Hss
  iexists _
  isplitr
  rotate_left
  · iexact HO
  · ipureintro
    repeat' apply waits_step
    intro p hp
    rcases hW3 p hp with h | h
    · rcases Finset.mem_insert.mp h with rfl | h
      · exact .inr rfl
      rcases Finset.mem_insert.mp h with rfl | h
      · exact .inr rfl
      exact .inl h
    · exact .inr h

end Cert.Proof.KI
end
-- ==== Proof.KILaunch.lean ====
/-
  The launch side of the embedding lookup: from "each tile's task is proved" to the run of the whole program.

  @main reshapes the index array [4096, 200] to one axis and the positional table [1, 200, 128] to two axes, then
  calls the kernel on 2 SparseCores of 16 vector subcores.  The TensorCore splits each of the three input arrays
  into 32 read tokens (one per tile) and a remainder it keeps, and the result array into the 32 tiles' blocks of
  128 batch rows; the call hands tile w = 2 * subcore + core its tokens and its block, and brings them back, each
  block holding the ONE whole-array function `GK`; the tokens rejoin and the blocks cover the result.
-/
import proofs.«206279_g3710851744293_cont_8to1_b_253_31_alg».proof.Proof.KIStmt

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S819200 EltTy.i32)
local notation "peV" => (Memref.whole Cert.KernelIdeal.main_v1_scv : Memref Cert.KernelIdeal.sig Kind.scVector Space.hbm Cert.KernelIdeal.S200x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x200x128 EltTy.f32)
local notation "s6" => (Memref.whole Cert.KernelIdeal.cc0_scratch0 : Memref Cert.KernelIdeal.sig Kind.scVector Space.vmem Cert.KernelIdeal.S200x128 EltTy.f32)
local notation "s7" => (Memref.whole Cert.KernelIdeal.cc0_scratch1 : Memref Cert.KernelIdeal.sig Kind.scVector Space.vmem Cert.KernelIdeal.S25600 EltTy.i32)
local notation "s8" => (Memref.whole Cert.KernelIdeal.cc0_scratch2 : Memref Cert.KernelIdeal.sig Kind.scVector Space.vmem Cert.KernelIdeal.S10x40x128 EltTy.f32)

/-! ## The launch memory and what @main's two reshapes make of it -/

variable (m : (ℓ : Loc nD τ sig) → Buf (Elt F) ℓ) (ρ : Dev nD → PrngReg)

/-- The index array and the positional table as @main receives them. -/
abbrev a0Loc (d : Dev nD) : Loc nD τ sig := (SparseCore.T d).loc main_arg0
abbrev a2Loc (d : Dev nD) : Loc nD τ sig := (SparseCore.T d).loc main_arg2

/-- The flattened indices: the index array read in row-major order on one axis. -/
def fiOf (d : Dev nD) : Buf (Elt F) (iLoc d) := shapeCast S819200 (m (a0Loc d)) shapeCasts_S4096x200_S819200
/-- The two-axis positional table: the argument with its leading unit axis dropped. -/
def fpOf (d : Dev nD) : Buf (Elt F) (pLoc d) := shapeCast S200x128 (m (a2Loc d)) shapeCasts_S1x200x128_S200x128

/-! ## What the handshakes carry -/

/-- The tile number of subcore `i` of SparseCore `c`: 2 i + c. -/
def twN (c : Fin 2) (i : Fin 16) : Fin 32 := ⟨2 * i.val + c.val, by have h0 := c.isLt; have h1 := i.isLt; omega⟩

variable [FloatOps F]

/-- What the sequencer's go hands a tile, and what its taskDone hands back. -/
def goP (q : Fin 1) (d : Dev nD) (c : Fin ((K (F := F)).nCore q)) (i : Fin ((K (F := F)).nSub q)) : sProp 𝕄 :=
  match q with
  | 0 => tileGo d (twN (Fin.cast nCore_zero c) (Fin.cast nSub_zero i)) (fiOf m d) (fpOf m d) (m (tLoc d)) (m (oLoc d))
def tdP (q : Fin 1) (d : Dev nD) (c : Fin ((K (F := F)).nCore q)) (i : Fin ((K (F := F)).nSub q)) : sProp 𝕄 :=
  match q with
  | 0 => tileTd d (twN (Fin.cast nCore_zero c) (Fin.cast nSub_zero i)) (fiOf m d) (fpOf m d) (m (tLoc d))

/-- The one call hands each SparseCore its sixteen tiles' shares and rows, and takes the same back, the rows at `GK`;
    the kernel consumes nothing of the launch's. -/
def P : (K (F := F)).Pay (nD := nD) (Val := Elt F) (Name := ℕ) (U := UU) where
  st := fun q d c => bigSep Finset.univ fun i : Fin ((K (F := F)).nSub q) => goP m q d c i
  dn := fun q d c => bigSep Finset.univ fun i : Fin ((K (F := F)).nSub q) => tdP m q d c i
  go := fun q d c i => goP m q d c i
  td := fun q d c i => tdP m q d c i
  x := fun _ _ => iprop(emp)

instance goP_storable (q : Fin 1) (d : Dev nD) (c : Fin ((K (F := F)).nCore q)) (i : Fin ((K (F := F)).nSub q)) :
    BI.Storable (upEmb : UEmb _ 𝕄) (goP m q d c i) := by
  match q with
  | 0 => unfold goP tileGo; infer_instance
instance tdP_storable (q : Fin 1) (d : Dev nD) (c : Fin ((K (F := F)).nCore q)) (i : Fin ((K (F := F)).nSub q)) :
    BI.Storable (upEmb : UEmb _ 𝕄) (tdP m q d c i) := by
  match q with
  | 0 => unfold tdP tileTd; infer_instance

instance P_storable : (P (F := F) m).IsStorable where
  st q d c := by unfold P; infer_instance
  dn q d c := by unfold P; infer_instance
  go q d c i := by unfold P; infer_instance
  td q d c i := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__embed_body (coordsV c s)
          iV (Memref.isWhole_whole _) peV (Memref.isWhole_whole _) tV (Memref.isWhole_whole _) oV (Memref.isWhole_whole _)
          s6 (Memref.isWhole_whole _) s7 (Memref.isWhole_whole _) s8 (Memref.isWhole_whole _)
          cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody (F := F)) (hidx : ∀ d j, (fiOf m d j).toNat < 100000) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO (fiOf m d) (fpOf m d) (m (tLoc d)) (m (oLoc d)) (hidx d)).trans
    (wp_mono frame _ _ fun _ => obl_post)

theorem vecSplit : (K (F := F)).VecSplit' (P m) 0 := by
  intro d c
  show (bigSep Finset.univ fun i : Fin ((K (F := F)).nSub 0) => goP m 0 d c i) ⊢ |={Set.univ}=> iprop(
      (bigSep Finset.univ fun i : Fin ((K (F := F)).nSub 0) => goP m 0 d c i)
      ∗ ((bigSep Finset.univ fun i : Fin ((K (F := F)).nSub 0) => tdP m 0 d c i)
          -∗ bigSep Finset.univ fun i : Fin ((K (F := F)).nSub 0) => tdP m 0 d c i))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KILaunchHost.lean ====
/-
  @main's host side: the TensorCore's six arrays as one held set, and what the two reshapes leave in them —
  every array at its launch contents but the two reshaped copies, which hold the flattened indices and the
  two-axis positional table.
-/
import proofs.«206279_g3710851744293_cont_8to1_b_253_31_alg».proof.Proof.KILaunch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

/-! ## The TensorCore's arrays and the two reshapes -/

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

abbrev op0 : HloOp τ sig (Elt F) := StableHlo.reshape main_arg0 main_v0 rfl shapeCasts_S4096x200_S819200
abbrev op1 : HloOp τ sig (Elt F) := StableHlo.reshape main_arg2 main_v1 rfl shapeCasts_S1x200x128_S200x128

/-- The TensorCore's arrays, all unscoped. -/
abbrev S6 : Finset (DevRef τ sig) := {a0', a1', a2', v0', v1', v2'}

theorem held_S6 (d : Dev nD) (W : Valuation τ sig (Elt F)) :
    (held (T d) S6 W : sProp 𝕄) = iprop((a0Loc d ↦{fullShare} W a0') ∗ (tLoc d ↦{fullShare} W a1') ∗ (a2Loc d ↦{fullShare} W a2')
      ∗ (iLoc d ↦{fullShare} W v0') ∗ (pLoc d ↦{fullShare} W v1') ∗ oLoc d ↦{fullShare} W v2') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (tLoc d ↦{fullShare} W main_arg1) ∗ (a2Loc d ↦{fullShare} W main_arg2)
      ∗ (iLoc d ↦{fullShare} W main_v0) ∗ (pLoc d ↦{fullShare} W main_v1) ∗ oLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation, after the first reshape, after the second. -/
def V0 (d : Dev nD) : Valuation τ sig (Elt F) := fun b => m (d, b)
abbrev VA (d : Dev nD) : Valuation τ sig (Elt F) := (op0 (F := F)).result (V0 m d)
abbrev VB (d : Dev nD) : Valuation τ sig (Elt F) := (op1 (F := F)).result (VA m d)

theorem unscoped_held (d : Dev nD) : (unscopedBufs d (fun b => m ((SparseCore.T d).loc b)) : sProp 𝕄) = held (T d) S6 (V0 m d) := by
  rw [unscopedBufs_eq, held_S6]; rfl

theorem VB_a0 (d : Dev nD) : VB m d a0' = m (a0Loc d) := by
  show (op1 (F := F)).result ((op0 (F := F)).result (V0 m d)) a0' = _
  rw [(op1 (F := F)).result_of_not_mem _ (b := a0') (show a0' ∉ ({v1'} : Finset (DevRef τ sig)) by decide),
    (op0 (F := F)).result_of_not_mem _ (b := a0') (show a0' ∉ ({v0'} : Finset (DevRef τ sig)) by decide)]
  rfl
theorem VB_a1 (d : Dev nD) : VB m d a1' = m (tLoc d) := by
  show (op1 (F := F)).result ((op0 (F := F)).result (V0 m d)) a1' = _
  rw [(op1 (F := F)).result_of_not_mem _ (b := a1') (show a1' ∉ ({v1'} : Finset (DevRef τ sig)) by decide),
    (op0 (F := F)).result_of_not_mem _ (b := a1') (show a1' ∉ ({v0'} : Finset (DevRef τ sig)) by decide)]
  rfl
theorem VB_a2 (d : Dev nD) : VB m d a2' = m (a2Loc d) := by
  show (op1 (F := F)).result ((op0 (F := F)).result (V0 m d)) a2' = _
  rw [(op1 (F := F)).result_of_not_mem _ (b := a2') (show a2' ∉ ({v1'} : Finset (DevRef τ sig)) by decide),
    (op0 (F := F)).result_of_not_mem _ (b := a2') (show a2' ∉ ({v0'} : Finset (DevRef τ sig)) by decide)]
  rfl
theorem VB_v2 (d : Dev nD) : VB m d v2' = m (oLoc d) := by
  show (op1 (F := F)).result ((op0 (F := F)).result (V0 m d)) v2' = _
  rw [(op1 (F := F)).result_of_not_mem _ (b := v2') (show v2' ∉ ({v1'} : Finset (DevRef τ sig)) by decide),
    (op0 (F := F)).result_of_not_mem _ (b := v2') (show v2' ∉ ({v0'} : Finset (DevRef τ sig)) by decide)]
  rfl
theorem VB_v0 (d : Dev nD) : VB m d v0' = fiOf m d := by
  show (op1 (F := F)).result ((op0 (F := F)).result (V0 m d)) v0' = _
  rw [(op1 (F := F)).result_of_not_mem _ (b := v0') (show v0' ∉ ({v1'} : Finset (DevRef τ sig)) by decide)]
  exact StableHlo.reshape_result main_arg0 main_v0 rfl shapeCasts_S4096x200_S819200 _ _ (V0 m d)
theorem VB_v1 (d : Dev nD) : VB m d v1' = fpOf m d := by
  show (op1 (F := F)).result ((op0 (F := F)).result (V0 m d)) v1' = _
  refine (StableHlo.reshape_result main_arg2 main_v1 rfl shapeCasts_S1x200x128_S200x128 _ _ ((op0 (F := F)).result (V0 m d))).trans ?_
  show shapeCast S200x128 ((op0 (F := F)).result (V0 m d) a2') shapeCasts_S1x200x128_S200x128 = _
  rw [(op0 (F := F)).result_of_not_mem _ (b := a2') (show a2' ∉ ({v0'} : Finset (DevRef τ sig)) by decide)]
  rfl

theorem held_VB (d : Dev nD) :
    (held (T d) S6 (VB m d) : sProp 𝕄) = iprop((a0Loc d ↦{fullShare} m (a0Loc d)) ∗ (tLoc d ↦{fullShare} m (tLoc d)) ∗ (a2Loc d ↦{fullShare} m (a2Loc d))
      ∗ (iLoc d ↦{fullShare} fiOf m d) ∗ (pLoc d ↦{fullShare} fpOf m d) ∗ oLoc d ↦{fullShare} m (oLoc d)) := by
  rw [held_S6, VB_a0, VB_a1, VB_a2, VB_v0, VB_v1, VB_v2]

theorem h0 : (op0 (F := F)).bufs ⊆ S6 := show ({a0', v0'} : Finset (DevRef τ sig)) ⊆ S6 by decide
theorem h1 : (op1 (F := F)).bufs ⊆ S6 := show ({a2', v1'} : Finset (DevRef τ sig)) ⊆ S6 by decide

end Cert.Proof.KI

end
-- ==== Proof.KILaunchSplit.lean ====
/-
  How the TensorCore deals its arrays to the 32 tiles and gathers them back: a read token of each input per tile
  (the remainder kept aside), the result cut into the tiles' blocks of 128 batch rows; and the regrouping of a
  family over the 32 tiles as the call's per-SparseCore, per-subcore family (tile = 2 * subcore + core).
-/
import proofs.«206279_g3710851744293_cont_8to1_b_253_31_alg».proof.Proof.KILaunch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

/-! ## Thirty-two tiles: two SparseCores of sixteen subcores -/

/-- (core, subcore) ↦ 2 * subcore + core numbers the 32 tiles. -/
def e32 : Fin 2 × Fin 16 ≃ Fin 32 where
  toFun p := twN p.1 p.2
  invFun w := (⟨w.val % 2, Nat.mod_lt _ (by decide)⟩, ⟨w.val / 2, by have := w.isLt; omega⟩)
  left_inv p := by
    obtain ⟨c, i⟩ := p
    have h0 := c.isLt; have h1 := i.isLt
    apply Prod.ext
    · apply Fin.ext; show (2 * i.val + c.val) % 2 = c.val; omega
    · apply Fin.ext; show (2 * i.val + c.val) / 2 = i.val; omega
  right_inv w := by
    apply Fin.ext; show 2 * (w.val / 2) + w.val % 2 = w.val; omega

/-- A family over the tiles, grouped per SparseCore and subcore as the call hands it over. -/
theorem bigSep_tiles (Φ : Fin 32 → sProp 𝕄) :
    (bigSep Finset.univ fun c : Fin ((K (F := F)).nCore 0) => bigSep Finset.univ fun i : Fin ((K (F := F)).nSub 0) =>
      Φ (twN (Fin.cast nCore_zero c) (Fin.cast nSub_zero i))) = bigSep Finset.univ Φ := by
  show (bigSep (Finset.univ : Finset (Fin 2)) fun c => bigSep (Finset.univ : Finset (Fin 16)) fun i => Φ (twN c i)) = _
  rw [← bigSep_univ_prod (fun p : Fin 2 × Fin 16 => Φ (twN p.1 p.2)), bigSep_univ_equiv e32 Φ]
  rfl

/-! ## The result's rows, tile by tile -/

theorem tileRows_eq (w : Fin 32) : tileRows w = (tileRect w).set := by
  show ((View.whole (main_v2_scv : Ref sig .scVector)).slice (tileRect w)).set = _
  rw [View.set_slice]; exact Finset.map_refl
theorem rows_disjoint : ∀ i ∈ (Finset.univ : Finset (Fin 32)), ∀ j ∈ (Finset.univ : Finset (Fin 32)), i ≠ j → Disjoint (tileRows i) (tileRows j) :=
  fun i _ j _ h => by rw [tileRows_eq, tileRows_eq]; exact Rect.part_disjoint hdiv32 h
theorem rows_cover : (Finset.univ : Finset (Fin 32)).biUnion tileRows = Finset.univ :=
  (Finset.biUnion_congr rfl fun i _ => tileRows_eq i).trans (Rect.biUnion_part hdiv32)

theorem rows_split (d : Dev nD) (f : Buf (Elt F) (oLoc d)) :
    (oLoc d ↦{fullShare} f : sProp 𝕄) = bigSep Finset.univ fun w : Fin 32 => oLoc d ↦[tileRows w]{fullShare} f := by
  rw [← pointsTo_biUnion Finset.univ (ℓ := oLoc d) tileRows rows_disjoint, rows_cover]; try rfl

variable [FloatOps F]

/-- The TensorCore deals the four arrays to the tiles: of each input a read token per tile, the remainder kept; of the
    result each tile's rows. -/
theorem go_all (d : Dev nD) (fi : Buf (Elt F) (iLoc d)) (fp : Buf (Elt F) (pLoc d)) (ft : Buf (Elt F) (tLoc d)) (fo : Buf (Elt F) (oLoc d)) :
    (iprop((iLoc d ↦{fullShare} fi) ∗ (pLoc d ↦{fullShare} fp) ∗ (tLoc d ↦{fullShare} ft) ∗ (oLoc d ↦{fullShare} fo)) : sProp 𝕄)
      ⊢ iprop(((iLoc d ↦{shareDrop fullShare 32} fi) ∗ (pLoc d ↦{shareDrop fullShare 32} fp) ∗ (tLoc d ↦{shareDrop fullShare 32} ft))
          ∗ bigSep Finset.univ fun w : Fin 32 => tileGo d w fi fp ft fo) := by
  unfold tileGo
  rw [bigSep_sep', bigSep_sep', bigSep_sep', rows_split]
  iintro ⟨Hi, Hp, Ht, Ho⟩
  ihave Hi' := (pointsTo_toks_split fullShare 32) $$ Hi
  ihave Hp' := (pointsTo_toks_split fullShare 32) $$ Hp
  ihave Ht' := (pointsTo_toks_split fullShare 32) $$ Ht
  icases Hi' with ⟨Hi0, Hi⟩
  icases Hp' with ⟨Hp0, Hp⟩
  icases Ht' with ⟨Ht0, Ht⟩
  isplitl [Hi0 Hp0 Ht0]
  · isplitl [Hi0]; · iexact Hi0
    isplitl [Hp0]; · iexact Hp0
    iexact Ht0
  isplitl [Hi]; · iexact Hi
  isplitl [Hp]; · iexact Hp
  isplitl [Ht]; · iexact Ht
  iexact Ho

/-- and gathers them back: the tokens rejoin the remainders, the rows — each at the one whole-array function — cover
    the result. -/
theorem td_all (d : Dev nD) (fi : Buf (Elt F) (iLoc d)) (fp : Buf (Elt F) (pLoc d)) (ft : Buf (Elt F) (tLoc d)) :
    (iprop(((iLoc d ↦{shareDrop fullShare 32} fi) ∗ (pLoc d ↦{shareDrop fullShare 32} fp) ∗ (tLoc d ↦{shareDrop fullShare 32} ft))
          ∗ bigSep Finset.univ fun w : Fin 32 => tileTd d w fi fp ft) : sProp 𝕄)
      ⊢ iprop((iLoc d ↦{fullShare} fi) ∗ (pLoc d ↦{fullShare} fp) ∗ (tLoc d ↦{fullShare} ft) ∗ (oLoc d ↦{fullShare} GK fi fp ft)) := by
  unfold tileTd
  rw [bigSep_sep', bigSep_sep', bigSep_sep', ← rows_split]
  iintro ⟨⟨Hi0, Hp0, Ht0⟩, Hi, Hp, Ht, Ho⟩
  isplitl [Hi0 Hi]
  · iapply (pointsTo_toks_join fullShare 32); isplitl [Hi0] <;> iassumption
  isplitl [Hp0 Hp]
  · iapply (pointsTo_toks_join fullShare 32); isplitl [Hp0] <;> iassumption
  isplitl [Ht0 Ht]
  · iapply (pointsTo_toks_join fullShare 32); isplitl [Ht0] <;> iassumption
  iexact Ho

variable (m : (ℓ : Loc nD τ sig) → Buf (Elt F) ℓ)

/-- What the call takes for the two SparseCores, and what it hands back, tile by tile. -/
theorem st0_eq (d : Dev nD) :
    (bigSep Finset.univ fun c : Fin ((K (F := F)).nCore 0) => (P m).st 0 d c)
      = bigSep Finset.univ fun w : Fin 32 => tileGo d w (fiOf m d) (fpOf m d) (m (tLoc d)) (m (oLoc d)) :=
  bigSep_tiles (F := F) fun w => tileGo d w (fiOf m d) (fpOf m d) (m (tLoc d)) (m (oLoc d))
theorem dn0_eq (d : Dev nD) :
    (bigSep Finset.univ fun c : Fin ((K (F := F)).nCore 0) => (P m).dn 0 d c)
      = bigSep Finset.univ fun w : Fin 32 => tileTd d w (fiOf m d) (fpOf m d) (m (tLoc d)) :=
  bigSep_tiles (F := F) fun w => tileTd d w (fiOf m d) (fpOf m d) (m (tLoc d))

end Cert.Proof.KI

end
-- ==== Proof.KILaunchMain.lean ====
/-
  @main on the TensorCore — the two reshapes, the deal of the arrays to the 32 tiles, the call, the gathering —,
  how the final memory reads the claim, and the run of the whole program: from "each tile's task is proved"
  every weakly fair execution terminates with the arguments unchanged and the result named.
-/
import proofs.«206279_g3710851744293_cont_8to1_b_253_31_alg».proof.Proof.KILaunchHost
import proofs.«206279_g3710851744293_cont_8to1_b_253_31_alg».proof.Proof.KILaunchSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## @main on the TensorCore -/

/-- What @main leaves the claim: the three arguments at their launch contents, the result at `GK` of the reshaped
    arguments. -/
abbrev FIN (d : Dev nD) : sProp 𝕄 :=
  iprop((a0Loc d ↦{fullShare} m (a0Loc d)) ∗ (tLoc d ↦{fullShare} m (tLoc d)) ∗ (a2Loc d ↦{fullShare} m (a2Loc d))
    ∗ oLoc d ↦{fullShare} GK (fiOf m d) (fpOf m d) (m (tLoc d)))

/-- @main on device `d`'s TensorCore: the two reshapes, the deal to the 32 tiles, the call, the gathering. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two reshapes
  iapply (wp_hlo_within 𝒱 (SparseCore.T d) none Set.univ (op := op0) (S := S6) h0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S6) h1 (V := VA m d)) $$ [Hb Hheld]
  · isplitl [Hb]; · iexact Hb
    iexact Hheld
  iintro ⟨Hb, Hheld⟩
  rw [wp_ret]; imodintro
  ihave Hh := (Entails.of_eq (held_VB (F := F) m d)) $$ Hheld
  icases Hh with ⟨Ha0, Ha1, Ha2, Hv0, Hv1, Hv2⟩
  -- the deal
  ihave Hg := (go_all d (fiOf m d) (fpOf m d) (m (tLoc d)) (m (oLoc d))) $$ [Hv0 Hv1 Ha1 Hv2]
  · isplitl [Hv0]; · iexact Hv0
    isplitl [Hv1]; · iexact Hv1
    isplitl [Ha1]; · iexact Ha1
    iexact Hv2
  icases Hg with ⟨Hkeep, Hgo⟩
  -- the call
  iapply ((K (F := F)).wp_run (D (F := F)) 𝒱 (EH := EH) (P := P m) κ d 0) $$ [Hst Hgo Hkeep Ha0 Ha2]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hj := (td_all d (fiOf m d) (fpOf m d) (m (tLoc d))) $$ [Hkeep Hdn']
  · isplitl [Hkeep]; · iexact Hkeep
    iexact Hdn'
  icases Hj with ⟨-, -, Ha1, Hv2⟩
  imodintro
  isplitl [Hst]; · iexact Hst
  isplitl [Ha0]; · iexact Ha0
  isplitl [Ha1]; · iexact Ha1
  isplitl [Ha2]; · iexact Ha2
  iexact Hv2

/-! ## The final memory reads the claim -/

def fq (d : Dev nD) (s' : Phys nD τ sig (Elt F)) : Prop :=
  s'.mem.mem (oLoc d) = GK (fiOf m d) (fpOf m d) (m (tLoc d))
    ∧ s'.mem.mem (a0Loc d) = m (a0Loc d) ∧ s'.mem.mem (tLoc d) = m (tLoc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, Ho⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := tLoc d) (I := Finset.univ) (q := fullShare) (f := m (tLoc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := oLoc d) (I := Finset.univ) (q := fullShare) (f := GK (fiOf m d) (fpOf m d) (m (tLoc d)))) $$ [HSI Ho]
  · isplitl [HSI] <;> iassumption
  icases H with %ho
  ipureintro
  exact ⟨funext fun i => ho i (Finset.mem_univ i), funext fun i => h0 i (Finset.mem_univ i), funext fun i => h1 i (Finset.mem_univ i),
    funext fun i => h2 i (Finset.mem_univ i)⟩

/-! ## The program's run -/

/-- Every weakly fair execution of the device's threads from a memory whose index words name rows of the table
    terminates, nothing faulting, the three arguments unchanged and the result at `GK` of the reshaped arguments. -/
theorem run_main [∀ e, Nonempty (Elt F e)] (hbody : TileBody (F := F)) (m : (ℓ : Loc nD τ sig) → Buf (Elt F) ℓ) (ρ : Dev nD → PrngReg)
    (hidx : ∀ d j, (fiOf m d j).toNat < 100000) :
    θ_run (Cert.KernelIdeal.defs (F := F)) (Cert.KernelIdeal.threads (F := F)) ⟨m, fun _ => 0, ρ⟩
      (fun r => ∀ c : Dev nD, r.2.mem (oLoc c) = GK (fiOf m c) (fpOf m c) (m (tLoc c))
        ∧ r.2.mem ((SparseCore.T c).loc main_arg0) = m ((SparseCore.T c).loc main_arg0)
        ∧ r.2.mem ((SparseCore.T c).loc main_arg1) = m ((SparseCore.T c).loc main_arg1)
        ∧ r.2.mem ((SparseCore.T c).loc main_arg2) = m ((SparseCore.T c).loc main_arg2)) :=
  SparseCore.Cfg.θ_run_sc (K := K (F := F)) (D := D (F := F)) (𝒱 := 𝒱) (EH := EH) (P := P m) facts v₀
    (fun q hq => match q with | 0 => nomatch hq)
    (fun q _ => match q with | 0 => tileObl m hbody hidx)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

/-- The TensorCore's locations, as the claim (Defs.lean) spells them. -/
example (c : Dev nD) (b : Ref sig .tc) : (SparseCore.T c).loc b = (c.tc : Thread nD τ).loc b := rfl

end Cert.Proof.KI

end
-- ==== Proof.KIBridge.lean ====
/-
  The kernel's result, stated over the reshaped arguments, is the specification's function of the arguments:
  word 200 b + s of the flattened index array is word (b, s) of the index array, and row s of the two-axis
  positional table is row (0, s) of the argument.
-/
import proofs.«206279_g3710851744293_cont_8to1_b_253_31_alg».proof.Proof.KILaunch
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

open Idealize.ShloMosaic.ValueIdx

variable (m : (ℓ : Loc nD τ sig) → Buf (Elt F) ℓ)

/-! ## The two reshapes read at an index -/

/-- Word 200 b + s of the flattened indices is the index array's word (b, s): the same row-major position. -/
theorem fiOf_apply (c : Dev nD) (b : Fin 4096) (s : Fin 200) (h : 200 * b.val + s.val < 819200) :
    fiOf m c (ix1 (n := 819200) ⟨200 * b.val + s.val, h⟩) = m (a0Loc c) (ix2 (n0 := 4096) (n1 := 200) b s) := by
  unfold fiOf
  exact shapeCast_apply (s := S4096x200) (t := S819200) _ _ _ _ (by
    show ((⟨2, ![4096, 200]⟩ : Shape).rowMajor (ix2 (n0 := 4096) (n1 := 200) b s)).val
      = ((⟨1, ![819200]⟩ : Shape).rowMajor (ix1 (n := 819200) ⟨200 * b.val + s.val, h⟩)).val
    rw [Shape.rowMajor_val_two, Shape.rowMajor_val_one]
    show b.val * 200 + s.val = 200 * b.val + s.val
    omega)

/-- Row s of the two-axis positional table is row (0, s) of the argument: a leading unit axis dropped. -/
theorem fpOf_apply (c : Dev nD) (s : Fin 200) (l : Fin 128) :
    fpOf m c (ix2 (n0 := 200) (n1 := 128) s l) = m (a2Loc c) (ix3 (n0 := 1) (n1 := 200) (n2 := 128) 0 s l) := by
  unfold fpOf
  exact shapeCast_1ab_ab_apply _ _ s l

/-- Index words that name rows of the table do so in any order: the flattened array holds the same words. -/
theorem hidx_of (h : ∀ d j, (m (a0Loc d) j).toNat < 100000) : ∀ d j, (fiOf m d j).toNat < 100000 := by
  intro d j
  unfold fiOf shapeCast
  exact h d _

variable [FloatOps F]

/-- What the kernel leaves, as a function of the reshaped arguments, is the specification's function of the
    arguments themselves. -/
theorem GK_eq_G (c : Dev nD) :
    GK (fiOf m c) (fpOf m c) (m (tLoc c)) = Cert.Spec.G (F := F) (m (a0Loc c)) (m (tLoc c)) (m (a2Loc c)) := by
  funext j
  have h0 : (j 0).val < 4096 := (j 0).isLt
  have h1 : (j 1).val < 200 := (j 1).isLt
  have hA := fiOf_apply m c (j 0) (j 1) (by omega)
  have hB := fpOf_apply m c (j 1) (j 2)
  unfold GK Cert.Spec.G
  erw [hA, hB]

end Cert.Proof.KI

end
-- ==== Proof.KBSetup.lean ====
/-
  The program as the launch theorem reads it, the resource algebra of its proof (the launch handshakes beside
  plain transfer counters: the kernel only makes copies of its own and waits for them), and the names of the
  arrays and scratch buffers a tile's task works on.
-/
import proofs.«206279_g3710851744293_cont_8to1_b_253_31_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206279_g3710851744293_cont_8to1_b_253_31_alg».proof.Proof.Gen.Kernel
import proofs.«206279_g3710851744293_cont_8to1_b_253_31_alg».proof.Proof.Gen.Kernel.Skeleton
import proofs.«206279_g3710851744293_cont_8to1_b_253_31_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

end Cert.Proof.KB

end
-- ==== Proof.KBRes.lean ====
/-
  What one tile's task is handed and what it hands back.

  The device's 32 tiles (2 SparseCores of 16) split the batch: tile w = 2 * subcore + core owns the batch rows
  [128 w, 128 w + 128) of the result, and only READS the flattened index array, the positional table and the
  embedding table.  So a tile is handed a read share of each of the three input arrays whole (token w of 32 of
  the full share) and the result array's elements on its own 128 batch rows outright; it hands the same back,
  the result's rows holding the looked-up, scaled and shifted rows.
-/
import proofs.«206279_g3710851744293_cont_8to1_b_253_31_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.Transfers (shareTok)

variable {F : FTy → Type}

local notation "𝕄" => MT nD τ sig (HIx 1) (Elt F) ℕ UU ℕ

/-- The four HBM arrays of the kernel, as locations of device `d`: the flattened indices, the positional table (two
    axes), the embedding table, the result. -/
abbrev iLoc (d : Dev nD) : Loc nD τ sig := (SparseCore.T d).loc main_v0
abbrev pLoc (d : Dev nD) : Loc nD τ sig := (SparseCore.T d).loc main_v1
abbrev tLoc (d : Dev nD) : Loc nD τ sig := (SparseCore.T d).loc main_arg1
abbrev oLoc (d : Dev nD) : Loc nD τ sig := (SparseCore.T d).loc main_v2

/-- The tile number of a grid point: 2 * subcore + core, below 32. -/
def wid (L : grid0.Coords) : Fin 32 := ⟨2 * (L 1).val + (L 0).val, by
  have h0 : (L 0).val < 2 := (L 0).isLt
  have h1 : (L 1).val < 16 := (L 1).isLt
  omega⟩

theorem hdiv32 : 32 ∣ S4096x200x128.size 0 := ⟨128, rfl⟩

/-- The 128 batch rows of the result that tile `w` owns, as a rectangle and as a set of indices. -/
abbrev tileRect (w : Fin 32) : Rect S4096x200x128 := Rect.part (s := S4096x200x128) (a₀ := 0) hdiv32 w
abbrev tileRows (w : Fin 32) : Finset S4096x200x128.Idx :=
  ((Memref.whole main_v2_scv : Memref sig .scVector .hbm S4096x200x128 .f32).view.slice (tileRect w)).set

/-- Tile `w`'s read share of an input array: token `w` of 32 of the full share. -/
abbrev tok (w : Fin 32) : PosShare TreeShare := shareTok fullShare 32 w

variable [FloatOps F]

/-- What a tile's task is handed: its read shares of the three inputs and its rows of the result. -/
def tileGo (d : Dev nD) (w : Fin 32) (fi : Buf (Elt F) (iLoc d)) (fp : Buf (Elt F) (pLoc d)) (ft : Buf (Elt F) (tLoc d))
    (fo : Buf (Elt F) (oLoc d)) : sProp 𝕄 :=
  iprop((iLoc d ↦{tok w} fi) ∗ (pLoc d ↦{tok w} fp) ∗ (tLoc d ↦{tok w} ft) ∗ (oLoc d ↦[tileRows w]{fullShare} fo))

/-- The result as the kernel leaves it, as ONE whole-array function of the flattened indices, the two-axis positional
    table and the embedding table: row (b, s) is the table's row named by index word 200 b + s, scaled, plus the
    positional row s. -/
def GK (fi : IVec S819200 32) (fp : FVec F S200x128 .f32) (ft : FVec F S100000x128 .f32) : FVec F S4096x200x128 .f32 :=
  fun j => FloatOps.addf
    (FloatOps.mulf (ft (ValueIdx.ix2 (n0 := 100000) (n1 := 128) (Cert.Spec.rowOf (fi (ValueIdx.ix1 (n := 819200) ⟨200 * (j 0).val + (j 1).val, by
        have h0 : (j 0).val < 4096 := (j 0).isLt
        have h1 : (j 1).val < 200 := (j 1).isLt
        omega⟩))) (j 2)))
      (FloatOps.ofBits .f32 0x413504F3#32))
    (fp (ValueIdx.ix2 (n0 := 200) (n1 := 128) (j 1) (j 2)))

/-- What a tile's task hands back: the same shares, its rows of the result at `GK`. -/
def tileTd (d : Dev nD) (w : Fin 32) (fi : Buf (Elt F) (iLoc d)) (fp : Buf (Elt F) (pLoc d)) (ft : Buf (Elt F) (tLoc d)) : sProp 𝕄 :=
  iprop((iLoc d ↦{tok w} fi) ∗ (pLoc d ↦{tok w} fp) ∗ (tLoc d ↦{tok w} ft) ∗ (oLoc d ↦[tileRows w]{fullShare} GK fi fp ft))

end Cert.Proof.KB

end
-- ==== Proof.KBStmt.lean ====
/-
  The statement of a tile's task, as the launch theorem's obligation will use it: from the task's shares and
  rows (and the subcore's own scratch and semaphores) the kernel function runs to the end and hands the shares
  back, its rows of the result at the specification.
-/
import proofs.«206279_g3710851744293_cont_8to1_b_253_31_alg».proof.Proof.KBRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-- The SparseCore and the vector subcore of a grid point, and its thread. -/
abbrev cV (L : grid0.Coords) : Fin τ.nSC := (L 0).castLE hcore0
abbrev jV (L : grid0.Coords) : Fin τ.nSub := (L 1).castLE hsub0

variable [FloatOps F]

/-- A tile's task: handed `tileGo` (with index words that name rows of the table), the kernel function at the grid
    point runs to its end, faulting nowhere, and hands back `tileTd`. -/
def TileBody : Prop :=
  ∀ (d : Dev nD) (L : grid0.Coords) (O : CellTallies nD τ sig (HIx 1)) (W : Waits sig (HIx 1)), (∀ g, O g none = 0) →
    ∀ (fi : Buf (Elt F) (iLoc d)) (fp : Buf (Elt F) (pLoc d)) (ft : Buf (Elt F) (tLoc d)) (fo : Buf (Elt F) (oLoc d)),
    (∀ j, (fi j).toNat < 100000) →
    (iprop(levAts (K (F := F)).L (K (F := F)).lev ∗ emp ∗ tileGo d (wid L) fi fp ft fo
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__embed_body L iV (Memref.isWhole_whole _) peV (Memref.isWhole_whole _) tV (Memref.isWhole_whole _) oV (Memref.isWhole_whole _)
            s6 (Memref.isWhole_whole _) s7 (Memref.isWhole_whole _) s8 (Memref.isWhole_whole _)
            cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1)
          fun _ => iprop(tileTd d (wid L) fi fp ft ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB

end
-- ==== Proof.KBInv.lean ====
/-
  Names for the pieces of memory a tile's task works on: the ten slots of its row buffer, a window of forty
  index words of its index buffer, a chunk of forty positions of one batch row of the result, the whole
  embedding table as the gathers slice it.  Chunk q (0 ≤ q < 640) of tile w is positions [40 (q mod 5), +40)
  of batch row 128 w + q div 5; its index words are words [40 q, 40 q + 40) of the tile's index buffer.
-/
import proofs.«206279_g3710851744293_cont_8to1_b_253_31_alg».proof.Proof.KBStmt
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-- The thread of the tile at a grid point. -/
abbrev thr (d : Dev nD) (L : grid0.Coords) : Thread nD τ := V d (cV L) (jV L)

abbrev slot0 : Memref sig .scVector .vmem S40x128 .f32 := ((s8).slice (Rect.unit (s := S10x40x128) ![0, 0, 0] S1x40x128.size inb_S10x40x128_S1x40x128_0_0_0) (fun _ => rfl)).squeeze S40x128 squeezes_S1x40x128_S40x128
abbrev slot1 : Memref sig .scVector .vmem S40x128 .f32 := ((s8).slice (Rect.unit (s := S10x40x128) ![1, 0, 0] S1x40x128.size inb_S10x40x128_S1x40x128_1_0_0) (fun _ => rfl)).squeeze S40x128 squeezes_S1x40x128_S40x128
abbrev slot2 : Memref sig .scVector .vmem S40x128 .f32 := ((s8).slice (Rect.unit (s := S10x40x128) ![2, 0, 0] S1x40x128.size inb_S10x40x128_S1x40x128_2_0_0) (fun _ => rfl)).squeeze S40x128 squeezes_S1x40x128_S40x128
abbrev slot3 : Memref sig .scVector .vmem S40x128 .f32 := ((s8).slice (Rect.unit (s := S10x40x128) ![3, 0, 0] S1x40x128.size inb_S10x40x128_S1x40x128_3_0_0) (fun _ => rfl)).squeeze S40x128 squeezes_S1x40x128_S40x128
abbrev slot4 : Memref sig .scVector .vmem S40x128 .f32 := ((s8).slice (Rect.unit (s := S10x40x128) ![4, 0, 0] S1x40x128.size inb_S10x40x128_S1x40x128_4_0_0) (fun _ => rfl)).squeeze S40x128 squeezes_S1x40x128_S40x128
abbrev slot5 : Memref sig .scVector .vmem S40x128 .f32 := ((s8).slice (Rect.unit (s := S10x40x128) ![5, 0, 0] S1x40x128.size inb_S10x40x128_S1x40x128_5_0_0) (fun _ => rfl)).squeeze S40x128 squeezes_S1x40x128_S40x128
abbrev slot6 : Memref sig .scVector .vmem S40x128 .f32 := ((s8).slice (Rect.unit (s := S10x40x128) ![6, 0, 0] S1x40x128.size inb_S10x40x128_S1x40x128_6_0_0) (fun _ => rfl)).squeeze S40x128 squeezes_S1x40x128_S40x128
abbrev slot7 : Memref sig .scVector .vmem S40x128 .f32 := ((s8).slice (Rect.unit (s := S10x40x128) ![7, 0, 0] S1x40x128.size inb_S10x40x128_S1x40x128_7_0_0) (fun _ => rfl)).squeeze S40x128 squeezes_S1x40x128_S40x128
abbrev slot8 : Memref sig .scVector .vmem S40x128 .f32 := ((s8).slice (Rect.unit (s := S10x40x128) ![8, 0, 0] S1x40x128.size inb_S10x40x128_S1x40x128_8_0_0) (fun _ => rfl)).squeeze S40x128 squeezes_S1x40x128_S40x128
abbrev slot9 : Memref sig .scVector .vmem S40x128 .f32 := ((s8).slice (Rect.unit (s := S10x40x128) ![9, 0, 0] S1x40x128.size inb_S10x40x128_S1x40x128_9_0_0) (fun _ => rfl)).squeeze S40x128 squeezes_S1x40x128_S40x128
/-- Slot `j` of the row buffer (`j` below 10; slot 0 otherwise). -/
abbrev slot (j : ℕ) : Memref sig .scVector .vmem S40x128 .f32 :=
  match j with
  | 0 => slot0 | 1 => slot1 | 2 => slot2 | 3 => slot3 | 4 => slot4
  | 5 => slot5 | 6 => slot6 | 7 => slot7 | 8 => slot8 | 9 => slot9 | _ => slot0

/-- The embedding table whole, as every gather slices it. -/
abbrev tW : Memref sig .scVector .hbm S100000x128 .f32 := ((tV).slice (Rect.unit (s := S100000x128) ![0, 0] S100000x128.size inb_S100000x128_S100000x128_0_0) (fun _ => rfl))

/-- The window of 40 index words at offset `off` of the index buffer. -/
abbrev win (off : ℕ) (h : off + 40 ≤ 25600) : Memref sig .scVector .vmem S40 .i32 :=
  (s7).slice (Rect.unit (s := S25600) ![off] S40.size (by intro a; obtain rfl : a = 0 := Subsingleton.elim _ _; simpa using h)) (fun _ => rfl)

/-- The first batch row of the tile at a grid point: 128 (2 subcore + core). -/
abbrev b0 (L : grid0.Coords) : ℕ := 256 * (L 1).val + 128 * (L 0).val

/-- The chunk of 40 positions starting at `col` of batch row `row` of the result. -/
abbrev och (row col : ℕ) (h : row + 1 ≤ 4096 ∧ col + 40 ≤ 200) : Memref sig .scVector .hbm S40x128 .f32 :=
  ((oV).slice (Rect.unit (s := S4096x200x128) ![row, col, 0] S1x40x128.size (by
      intro a; fin_cases a <;> simp <;> omega)) (fun _ => rfl)).squeeze S40x128 squeezes_S1x40x128_S40x128

theorem win_congr {a b : ℕ} (e : a = b) (ha : a + 40 ≤ 25600) (hb : b + 40 ≤ 25600) : win a ha = win b hb := by subst e; rfl
theorem och_congr {r r' c c' : ℕ} (e : r = r') (e' : c = c') (h : r + 1 ≤ 4096 ∧ c + 40 ≤ 200) (h' : r' + 1 ≤ 4096 ∧ c' + 40 ≤ 200) :
    och r c h = och r' c' h' := by subst e; subst e'; rfl

end Cert.Proof.KB
end
-- ==== Proof.KBInner.lean ====
/-
  The inner loop of a phase of the tile's task: the forty rows of one slot of the row buffer, each scaled by the
  constant and shifted by the matching row of the positional table, eight lane groups of sixteen words a row.
  One trip stores row r's eight groups; the invariant carries the slot's contents: rows below r done, the rest
  as the slot started.
-/
import proofs.«206279_g3710851744293_cont_8to1_b_253_31_alg».proof.Proof.KBInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type} [FloatOps F]

local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-! ## One lane group of one row -/

/-- What one trip stores in a lane group: the group's sixteen words, each scaled by the constant, plus the
    positional table's sixteen words. -/
def payF (A B : Vec F S1x16 .f32) : FVec F S1x16 .f32 :=
  shapeCast S1x16 (addf (mulf (shapeCast S16 A shapeCasts_S1x16_S16) (broadcast S16 (Scalar.ofBits .f32 0x413504F3#32)))
    (shapeCast S16 B shapeCasts_S1x16_S16)) shapeCasts_S16_S1x16

theorem payF_apply (A B : Vec F S1x16 .f32) (x : S1x16.Idx) :
    payF A B x = FloatOps.addf (FloatOps.mulf (A x) (FloatOps.ofBits .f32 0x413504F3#32)) (B x) := by
  unfold payF
  show FloatOps.addf (FloatOps.mulf (A (Shape.reshapeEquiv _ (Shape.reshapeEquiv _ x))) _) (B (Shape.reshapeEquiv _ (Shape.reshapeEquiv _ x))) = _
  rw [Shape.reshapeEquiv_reshapeEquiv, Shape.reshapeEquiv_self]
  rfl

/-- The row operation on a slot of forty rows: every word scaled by the constant, plus the word of the positional
    table's block `h` of forty rows at the same row and lane. -/
def rowOp (h : Fin 5) (P : S200x128.Idx → F .f32) (X : S40x128.Idx → F .f32) : S40x128.Idx → F .f32 :=
  fun y => FloatOps.addf (FloatOps.mulf (X y) (FloatOps.ofBits .f32 0x413504F3#32))
    (P (ix2 (n0 := 200) (n1 := 128) ⟨(y 0).val + 40 * h.val, by
      have h0 : (y 0).val < 40 := (y 0).isLt
      have h1 := h.isLt
      omega⟩ (y 1)))

/-- A lane group's payload, computed from the slot's row `r` as it stood and the positional table's row, is the row
    operation of the slot's contents at the words it is stored to. -/
theorem piece_ok (v : View sig .scVector .vmem S40x128 .f32) (h : Fin 5) (r c0 : ℕ)
    (ia : ∀ a, (![r, c0] : Fin 2 → ℕ) a + S1x16.size a ≤ S40x128.size a)
    (ib : ∀ a, (![r + 40 * h.val, c0] : Fin 2 → ℕ) a + S1x16.size a ≤ S200x128.size a)
    (P : S200x128.Idx → F .f32) (X0 : S40x128.Idx → F .f32) (f : v.ty.Contents (Elt F))
    (hf : ∀ y : S40x128.Idx, (y 0).val = r → v.read (Elt F) f y = X0 y) (x : S1x16.Idx) :
    payF (v.readAt (Elt F) (Rect.unit (s := S40x128) ![r, c0] S1x16.size ia).toLoadRect f)
        ((s6).view.readAt (Elt F) (Rect.unit (s := S200x128) ![r + 40 * h.val, c0] S1x16.size ib).toLoadRect P) x
      = rowOp h P X0 ((Rect.unit (s := S40x128) ![r, c0] S1x16.size ia).emb x) := by
  have hx0 : (x 0).val = 0 := by have h : (x 0).val < 1 := (x 0).isLt; omega
  have e0 : ((Rect.unit (s := S40x128) ![r, c0] S1x16.size ia).emb x 0).val = r := by
    rw [Rect.emb_apply]; simp [hx0]
  rw [payF_apply, View.readAt_apply, View.readAt_apply]
  rw [show (Rect.unit (s := S40x128) ![r, c0] S1x16.size ia).toLoadRect.idx x = (Rect.unit (s := S40x128) ![r, c0] S1x16.size ia).emb x from rfl, hf _ e0]
  unfold rowOp
  congr 1
  simp only [Memref.view_whole, View.read_whole]
  refine congrArg P (funext fun a => Fin.ext ?_)
  have e1 : ((Rect.unit (s := S40x128) ![r, c0] S1x16.size ia).emb x 1).val = c0 + (x 1).val := by
    rw [Rect.emb_apply]; simp
  match a with
  | ⟨0, _⟩ =>
    show r + 40 * h.val + 1 * (x 0).val = ((Rect.unit (s := S40x128) ![r, c0] S1x16.size ia).emb x 0).val + 40 * h.val
    omega
  | ⟨1, _⟩ =>
    show c0 + 1 * (x 1).val = ((Rect.unit (s := S40x128) ![r, c0] S1x16.size ia).emb x 1).val
    rw [e1]; omega

/-- One trip of the inner loop: the eight lane groups of row `r` stored (the last store first), rows below `r`
    already done, rows from `r` on as the slot started. -/
theorem rowStep (v : View sig .scVector .vmem S40x128 .f32) (h : Fin 5) (r : ℕ) (hr : r < 40)
    (P : S200x128.Idx → F .f32) (X0 : S40x128.Idx → F .f32) (f : v.ty.Contents (Elt F))
    {a0 a1 a2 a3 a4 a5 a6 a7 b0 b1 b2 b3 b4 b5 b6 b7 : Fin 2 → ℕ}
    {ia0 : ∀ a, a0 a + S1x16.size a ≤ S40x128.size a} {ib0 : ∀ a, b0 a + S1x16.size a ≤ S200x128.size a}
    {ia1 : ∀ a, a1 a + S1x16.size a ≤ S40x128.size a} {ib1 : ∀ a, b1 a + S1x16.size a ≤ S200x128.size a}
    {ia2 : ∀ a, a2 a + S1x16.size a ≤ S40x128.size a} {ib2 : ∀ a, b2 a + S1x16.size a ≤ S200x128.size a}
    {ia3 : ∀ a, a3 a + S1x16.size a ≤ S40x128.size a} {ib3 : ∀ a, b3 a + S1x16.size a ≤ S200x128.size a}
    {ia4 : ∀ a, a4 a + S1x16.size a ≤ S40x128.size a} {ib4 : ∀ a, b4 a + S1x16.size a ≤ S200x128.size a}
    {ia5 : ∀ a, a5 a + S1x16.size a ≤ S40x128.size a} {ib5 : ∀ a, b5 a + S1x16.size a ≤ S200x128.size a}
    {ia6 : ∀ a, a6 a + S1x16.size a ≤ S40x128.size a} {ib6 : ∀ a, b6 a + S1x16.size a ≤ S200x128.size a}
    {ia7 : ∀ a, a7 a + S1x16.size a ≤ S40x128.size a} {ib7 : ∀ a, b7 a + S1x16.size a ≤ S200x128.size a}
    (ea0 : a0 = ![r, 0]) (eb0 : b0 = ![r + 40 * h.val, 0])
    (ea1 : a1 = ![r, 16]) (eb1 : b1 = ![r + 40 * h.val, 16])
    (ea2 : a2 = ![r, 32]) (eb2 : b2 = ![r + 40 * h.val, 32])
    (ea3 : a3 = ![r, 48]) (eb3 : b3 = ![r + 40 * h.val, 48])
    (ea4 : a4 = ![r, 64]) (eb4 : b4 = ![r + 40 * h.val, 64])
    (ea5 : a5 = ![r, 80]) (eb5 : b5 = ![r + 40 * h.val, 80])
    (ea6 : a6 = ![r, 96]) (eb6 : b6 = ![r + 40 * h.val, 96])
    (ea7 : a7 = ![r, 112]) (eb7 : b7 = ![r + 40 * h.val, 112])
    (hf : ∀ y : S40x128.Idx, v.read (Elt F) f y = if (y 0).val < r then rowOp h P X0 y else X0 y) (y : S40x128.Idx) :
    v.read (Elt F) (v.writes (Elt F) f
      [⟨Rect.unit (s := S40x128) a7 S1x16.size ia7, payF (v.readAt (Elt F) (Rect.unit (s := S40x128) a7 S1x16.size ia7).toLoadRect f)
          ((s6).view.readAt (Elt F) (Rect.unit (s := S200x128) b7 S1x16.size ib7).toLoadRect P)⟩,
        ⟨Rect.unit (s := S40x128) a6 S1x16.size ia6, payF (v.readAt (Elt F) (Rect.unit (s := S40x128) a6 S1x16.size ia6).toLoadRect f)
          ((s6).view.readAt (Elt F) (Rect.unit (s := S200x128) b6 S1x16.size ib6).toLoadRect P)⟩,
        ⟨Rect.unit (s := S40x128) a5 S1x16.size ia5, payF (v.readAt (Elt F) (Rect.unit (s := S40x128) a5 S1x16.size ia5).toLoadRect f)
          ((s6).view.readAt (Elt F) (Rect.unit (s := S200x128) b5 S1x16.size ib5).toLoadRect P)⟩,
        ⟨Rect.unit (s := S40x128) a4 S1x16.size ia4, payF (v.readAt (Elt F) (Rect.unit (s := S40x128) a4 S1x16.size ia4).toLoadRect f)
          ((s6).view.readAt (Elt F) (Rect.unit (s := S200x128) b4 S1x16.size ib4).toLoadRect P)⟩,
        ⟨Rect.unit (s := S40x128) a3 S1x16.size ia3, payF (v.readAt (Elt F) (Rect.unit (s := S40x128) a3 S1x16.size ia3).toLoadRect f)
          ((s6).view.readAt (Elt F) (Rect.unit (s := S200x128) b3 S1x16.size ib3).toLoadRect P)⟩,
        ⟨Rect.unit (s := S40x128) a2 S1x16.size ia2, payF (v.readAt (Elt F) (Rect.unit (s := S40x128) a2 S1x16.size ia2).toLoadRect f)
          ((s6).view.readAt (Elt F) (Rect.unit (s := S200x128) b2 S1x16.size ib2).toLoadRect P)⟩,
        ⟨Rect.unit (s := S40x128) a1 S1x16.size ia1, payF (v.readAt (Elt F) (Rect.unit (s := S40x128) a1 S1x16.size ia1).toLoadRect f)
          ((s6).view.readAt (Elt F) (Rect.unit (s := S200x128) b1 S1x16.size ib1).toLoadRect P)⟩,
        ⟨Rect.unit (s := S40x128) a0 S1x16.size ia0, payF (v.readAt (Elt F) (Rect.unit (s := S40x128) a0 S1x16.size ia0).toLoadRect f)
          ((s6).view.readAt (Elt F) (Rect.unit (s := S200x128) b0 S1x16.size ib0).toLoadRect P)⟩]) y
      = if (y 0).val < r + 1 then rowOp h P X0 y else X0 y := by
  subst ea0; subst eb0; subst ea1; subst eb1; subst ea2; subst eb2; subst ea3; subst eb3; subst ea4; subst eb4; subst ea5; subst eb5; subst ea6; subst eb6; subst ea7; subst eb7
  have hrow : ∀ z : S40x128.Idx, (z 0).val = r → v.read (Elt F) f z = X0 z := fun z hz => by rw [hf z, if_neg (by omega)]
  by_cases hy : (y 0).val = r
  · rw [if_pos (by omega)]
    refine View.read_writes_apply_of_pieces v f (rowOp h P X0) _ ?_ y ?_
    · intro p hp x
      simp only [List.mem_cons, List.not_mem_nil, _root_.or_false] at hp
      rcases hp with rfl | rfl | rfl | rfl | rfl | rfl | rfl | rfl <;> exact piece_ok v h r _ _ _ P X0 f hrow x
    · have h1 : (y 1).val < 128 := (y 1).isLt
      have hm : ∀ (c0 : ℕ) (ia : ∀ a, (![r, c0] : Fin 2 → ℕ) a + S1x16.size a ≤ S40x128.size a), c0 ≤ (y 1).val → (y 1).val < c0 + 16 →
          y ∈ (Rect.unit (s := S40x128) ![r, c0] S1x16.size ia).set := fun c0 ia hl hu =>
        Rect.mem_set_unit.mpr fun a => match a with
          | ⟨0, _⟩ => ⟨by show r ≤ (y 0).val; omega, by show (y 0).val < r + 1; omega⟩
          | ⟨1, _⟩ => ⟨by show c0 ≤ (y 1).val; omega, by show (y 1).val < c0 + 16; omega⟩
      by_cases c7 : 112 ≤ (y 1).val
      · exact ⟨_, List.mem_cons_self, hm 112 ia7 c7 (by omega)⟩
      by_cases c6 : 96 ≤ (y 1).val
      · exact ⟨_, List.mem_cons_of_mem _ List.mem_cons_self, hm 96 ia6 c6 (by omega)⟩
      by_cases c5 : 80 ≤ (y 1).val
      · exact ⟨_, List.mem_cons_of_mem _ (List.mem_cons_of_mem _ List.mem_cons_self), hm 80 ia5 c5 (by omega)⟩
      by_cases c4 : 64 ≤ (y 1).val
      · exact ⟨_, List.mem_cons_of_mem _ (List.mem_cons_of_mem _ (List.mem_cons_of_mem _ List.mem_cons_self)), hm 64 ia4 c4 (by omega)⟩
      by_cases c3 : 48 ≤ (y 1).val
      · exact ⟨_, List.mem_cons_of_mem _ (List.mem_cons_of_mem _ (List.mem_cons_of_mem _ (List.mem_cons_of_mem _ List.mem_cons_self))), hm 48 ia3 c3 (by omega)⟩
      by_cases c2 : 32 ≤ (y 1).val
      · exact ⟨_, List.mem_cons_of_mem _ (List.mem_cons_of_mem _ (List.mem_cons_of_mem _ (List.mem_cons_of_mem _ (List.mem_cons_of_mem _ List.mem_cons_self)))), hm 32 ia2 c2 (by omega)⟩
      by_cases c1 : 16 ≤ (y 1).val
      · exact ⟨_, List.mem_cons_of_mem _ (List.mem_cons_of_mem _ (List.mem_cons_of_mem _ (List.mem_cons_of_mem _ (List.mem_cons_of_mem _ (List.mem_cons_of_mem _ List.mem_cons_self))))), hm 16 ia1 c1 (by omega)⟩
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), hm 0 ia0 (by omega) (by omega)⟩
  · have hn : ∀ (c0 : ℕ) (ia : ∀ a, (![r, c0] : Fin 2 → ℕ) a + S1x16.size a ≤ S40x128.size a),
        y ∉ (Rect.unit (s := S40x128) ![r, c0] S1x16.size ia).set := fun c0 ia hmem => by
      have h0 := (Rect.mem_set_unit.mp hmem) 0
      have h0' : r ≤ (y 0).val ∧ (y 0).val < r + 1 := h0
      omega
    rw [View.read_writes_apply_of_forall_not_mem v f y _ (by
      intro p hp
      simp only [List.mem_cons, List.not_mem_nil, _root_.or_false] at hp
      rcases hp with rfl | rfl | rfl | rfl | rfl | rfl | rfl | rfl <;>
        first | exact hn _ ia7 | exact hn _ ia6 | exact hn _ ia5 | exact hn _ ia4 | exact hn _ ia3 | exact hn _ ia2 | exact hn _ ia1 | exact hn _ ia0), hf y]
    by_cases hlt : (y 0).val < r
    · rw [if_pos hlt, if_pos (by omega)]
    · rw [if_neg hlt, if_neg (by omega)]

/-! ## Phase 0 -/

/-- Phase 0's invariant: the positional table untouched; rows below `r` of slot 0 done, the others as they started. -/
def invInV0 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot0).view.loc (thr d L) ↦[(slot0).view.set]{fullShare} f)
    ∗ ⌜∀ y : S40x128.Idx, (slot0).view.read (Elt F) f y = if (y 0).val < r then rowOp 0 P X0 y else X0 y⌝)

/-- Phase 0's inner loop: every row of slot 0 scaled and shifted by block 0 of the positional table. -/
theorem inner0 (d : Dev nD) (L : grid0.Coords) (P : Buf (Elt F) ((thr d L).loc cc0_scratch0)) (X : Buf (Elt F) ((thr d L).loc cc0_scratch2))
    (v2 : BitVec 32) (k : Fin k0_t1_loop.trips) (v114 v115 v151 v153 : BitVec 32) :
    (iprop(((s6).view.loc (thr d L) ↦{fullShare} P) ∗ ((slot0).view.loc (thr d L) ↦[(slot0).view.set]{fullShare} X)) : sProp 𝕄)
      ⊢ wp frame (wpE (defs₀ (F := F)) 𝒱₀ (thr d L) none) Set.univ
          (Scf.Loop.for k0_t2_loop k0_t2_ok ⟨⟩ (k0_t2_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k v114 v115 v151 v153))
          fun _ => iprop(((s6).view.loc (thr d L) ↦{fullShare} P) ∗ ∃ f, ((slot0).view.loc (thr d L) ↦[(slot0).view.set]{fullShare} f)
            ∗ ⌜(slot0).view.read (Elt F) f = rowOp 0 P ((slot0).view.read (Elt F) X)⌝) := by
  have htrips : Scf.trips k0_t2_loop.lb k0_t2_loop.ub k0_t2_loop.st = 40 := by decide
  iintro ⟨H6, H8⟩
  sl_for (invInV0 d L P ((slot0).view.read (Elt F) X)) $$ [H6 H8]
  case region =>
    intro r _
    have hr40 : r.val < 40 := lt_of_lt_of_eq r.isLt htrips
    unfold invInV0
    iintro ⟨H6, %f, H8, %hf⟩
    sl_exec
    sl_step
    isplitl [H6]; · iexact H6
    iexists _; isplitl [H8]; · iexact H8
    ipureintro
    sl_unfold_run_names
    intro y
    exact rowStep (slot0).view 0 r.val hr40 P _ f (k0_off6_eq r) (k0_off7_eq r) (k0_off8_eq r) (k0_off9_eq r) (k0_off10_eq r) (k0_off11_eq r) (k0_off12_eq r) (k0_off13_eq r) (k0_off14_eq r) (k0_off15_eq r) (k0_off16_eq r) (k0_off17_eq r) (k0_off18_eq r) (k0_off19_eq r) (k0_off20_eq r) (k0_off21_eq r) hf y
  isplitl [H6 H8]
  · unfold invInV0
    isplitl [H6]; · iexact H6
    iexists X; isplitl [H8]; · iexact H8
    ipureintro; intro y; rw [if_neg (Nat.not_lt_zero _)]
  iintro %_ HI
  unfold invInV0
  icases HI with ⟨H6, %f, H8, %hf⟩
  isplitl [H6]; · iexact H6
  iexists f; isplitl [H8]; · iexact H8
  ipureintro; funext y
  rw [hf y, htrips, if_pos (show (y 0).val < 40 from (y 0).isLt)]

end Cert.Proof.KB

end
-- ==== Proof.KBInner2.lean ====
/-
  The inner loops of phases 1 to 9 of the tile's task: the same forty-row loop as phase 0's, on slot j of the row
  buffer with block j mod 5 of the positional table.
-/
import proofs.«206279_g3710851744293_cont_8to1_b_253_31_alg».proof.Proof.KBInner

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type} [FloatOps F]

local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-! ## Phase 1 -/

/-- Phase 1's invariant: the positional table untouched; rows below `r` of slot 1 done, the others as they started. -/
def invInV1 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot1).view.loc (thr d L) ↦[(slot1).view.set]{fullShare} f)
    ∗ ⌜∀ y : S40x128.Idx, (slot1).view.read (Elt F) f y = if (y 0).val < r then rowOp 1 P X0 y else X0 y⌝)

/-- Phase 1's inner loop: every row of slot 1 scaled and shifted by block 1 of the positional table. -/
theorem inner1 (d : Dev nD) (L : grid0.Coords) (P : Buf (Elt F) ((thr d L).loc cc0_scratch0)) (X : Buf (Elt F) ((thr d L).loc cc0_scratch2))
    (v2 : BitVec 32) (k : Fin k0_t1_loop.trips) (v114 : BitVec 32) (v165 : BitVec 32) (c5_i32_159 : BitVec 32) (v184 : BitVec 32) :
    (iprop(((s6).view.loc (thr d L) ↦{fullShare} P) ∗ ((slot1).view.loc (thr d L) ↦[(slot1).view.set]{fullShare} X)) : sProp 𝕄)
      ⊢ wp frame (wpE (defs₀ (F := F)) 𝒱₀ (thr d L) none) Set.univ
          (Scf.Loop.for k0_t3_loop k0_t3_ok ⟨⟩ (k0_t3_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k v114 v165 c5_i32_159 v184))
          fun _ => iprop(((s6).view.loc (thr d L) ↦{fullShare} P) ∗ ∃ f, ((slot1).view.loc (thr d L) ↦[(slot1).view.set]{fullShare} f)
            ∗ ⌜(slot1).view.read (Elt F) f = rowOp 1 P ((slot1).view.read (Elt F) X)⌝) := by
  have htrips : Scf.trips k0_t3_loop.lb k0_t3_loop.ub k0_t3_loop.st = 40 := by decide
  iintro ⟨H6, H8⟩
  sl_for (invInV1 d L P ((slot1).view.read (Elt F) X)) $$ [H6 H8]
  case region =>
    intro r _
    have hr40 : r.val < 40 := lt_of_lt_of_eq r.isLt htrips
    unfold invInV1
    iintro ⟨H6, %f, H8, %hf⟩
    sl_exec
    sl_step
    isplitl [H6]; · iexact H6
    iexists _; isplitl [H8]; · iexact H8
    ipureintro
    sl_unfold_run_names
    intro y
    exact rowStep (slot1).view 1 r.val hr40 P _ f (k0_off25_eq r) (k0_off26_eq r) (k0_off27_eq r) (k0_off28_eq r) (k0_off29_eq r) (k0_off30_eq r) (k0_off31_eq r) (k0_off32_eq r) (k0_off33_eq r) (k0_off34_eq r) (k0_off35_eq r) (k0_off36_eq r) (k0_off37_eq r) (k0_off38_eq r) (k0_off39_eq r) (k0_off40_eq r) hf y
  isplitl [H6 H8]
  · unfold invInV1
    isplitl [H6]; · iexact H6
    iexists X; isplitl [H8]; · iexact H8
    ipureintro; intro y; rw [if_neg (Nat.not_lt_zero _)]
  iintro %_ HI
  unfold invInV1
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 2 -/

/-- Phase 2's invariant: the positional table untouched; rows below `r` of slot 2 done, the others as they started. -/
def invInV2 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot2).view.loc (thr d L) ↦[(slot2).view.set]{fullShare} f)
    ∗ ⌜∀ y : S40x128.Idx, (slot2).view.read (Elt F) f y = if (y 0).val < r then rowOp 2 P X0 y else X0 y⌝)

/-- Phase 2's inner loop: every row of slot 2 scaled and shifted by block 2 of the positional table. -/
theorem inner2 (d : Dev nD) (L : grid0.Coords) (P : Buf (Elt F) ((thr d L).loc cc0_scratch0)) (X : Buf (Elt F) ((thr d L).loc cc0_scratch2))
    (k : Fin k0_t1_loop.trips) (v114 : BitVec 32) (v215 : BitVec 32) (v255 : BitVec 32) (c640_i32_203 : BitVec 32) :
    (iprop(((s6).view.loc (thr d L) ↦{fullShare} P) ∗ ((slot2).view.loc (thr d L) ↦[(slot2).view.set]{fullShare} X)) : sProp 𝕄)
      ⊢ wp frame (wpE (defs₀ (F := F)) 𝒱₀ (thr d L) none) Set.univ
          (Scf.Loop.for k0_t4_loop k0_t4_ok ⟨⟩ (k0_t4_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 k v114 v215 v255 c640_i32_203))
          fun _ => iprop(((s6).view.loc (thr d L) ↦{fullShare} P) ∗ ∃ f, ((slot2).view.loc (thr d L) ↦[(slot2).view.set]{fullShare} f)
            ∗ ⌜(slot2).view.read (Elt F) f = rowOp 2 P ((slot2).view.read (Elt F) X)⌝) := by
  have htrips : Scf.trips k0_t4_loop.lb k0_t4_loop.ub k0_t4_loop.st = 40 := by decide
  iintro ⟨H6, H8⟩
  sl_for (invInV2 d L P ((slot2).view.read (Elt F) X)) $$ [H6 H8]
  case region =>
    intro r _
    have hr40 : r.val < 40 := lt_of_lt_of_eq r.isLt htrips
    unfold invInV2
    iintro ⟨H6, %f, H8, %hf⟩
    sl_exec
    sl_step
    isplitl [H6]; · iexact H6
    iexists _; isplitl [H8]; · iexact H8
    ipureintro
    sl_unfold_run_names
    intro y
    exact rowStep (slot2).view 2 r.val hr40 P _ f (k0_off44_eq r) (k0_off45_eq r) (k0_off46_eq r) (k0_off47_eq r) (k0_off48_eq r) (k0_off49_eq r) (k0_off50_eq r) (k0_off51_eq r) (k0_off52_eq r) (k0_off53_eq r) (k0_off54_eq r) (k0_off55_eq r) (k0_off56_eq r) (k0_off57_eq r) (k0_off58_eq r) (k0_off59_eq r) hf y
  isplitl [H6 H8]
  · unfold invInV2
    isplitl [H6]; · iexact H6
    iexists X; isplitl [H8]; · iexact H8
    ipureintro; intro y; rw [if_neg (Nat.not_lt_zero _)]
  iintro %_ HI
  unfold invInV2
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 3 -/

/-- Phase 3's invariant: the positional table untouched; rows below `r` of slot 3 done, the others as they started. -/
def invInV3 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot3).view.loc (thr d L) ↦[(slot3).view.set]{fullShare} f)
    ∗ ⌜∀ y : S40x128.Idx, (slot3).view.read (Elt F) f y = if (y 0).val < r then rowOp 3 P X0 y else X0 y⌝)

/-- Phase 3's inner loop: every row of slot 3 scaled and shifted by block 3 of the positional table. -/
theorem inner3 (d : Dev nD) (L : grid0.Coords) (P : Buf (Elt F) ((thr d L).loc cc0_scratch0)) (X : Buf (Elt F) ((thr d L).loc cc0_scratch2))
    (v2 : BitVec 32) (k : Fin k0_t1_loop.trips) (v114 : BitVec 32) (v265 : BitVec 32) (c5_i32_225 : BitVec 32) (v284 : BitVec 32) (v286 : BitVec 32) (v288 : BitVec 32) :
    (iprop(((s6).view.loc (thr d L) ↦{fullShare} P) ∗ ((slot3).view.loc (thr d L) ↦[(slot3).view.set]{fullShare} X)) : sProp 𝕄)
      ⊢ wp frame (wpE (defs₀ (F := F)) 𝒱₀ (thr d L) none) Set.univ
          (Scf.Loop.for k0_t5_loop k0_t5_ok ⟨⟩ (k0_t5_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k v114 v265 c5_i32_225 v284 v286 v288))
          fun _ => iprop(((s6).view.loc (thr d L) ↦{fullShare} P) ∗ ∃ f, ((slot3).view.loc (thr d L) ↦[(slot3).view.set]{fullShare} f)
            ∗ ⌜(slot3).view.read (Elt F) f = rowOp 3 P ((slot3).view.read (Elt F) X)⌝) := by
  have htrips : Scf.trips k0_t5_loop.lb k0_t5_loop.ub k0_t5_loop.st = 40 := by decide
  iintro ⟨H6, H8⟩
  sl_for (invInV3 d L P ((slot3).view.read (Elt F) X)) $$ [H6 H8]
  case region =>
    intro r _
    have hr40 : r.val < 40 := lt_of_lt_of_eq r.isLt htrips
    unfold invInV3
    iintro ⟨H6, %f, H8, %hf⟩
    sl_exec
    sl_step
    isplitl [H6]; · iexact H6
    iexists _; isplitl [H8]; · iexact H8
    ipureintro
    sl_unfold_run_names
    intro y
    exact rowStep (slot3).view 3 r.val hr40 P _ f (k0_off63_eq r) (k0_off64_eq r) (k0_off65_eq r) (k0_off66_eq r) (k0_off67_eq r) (k0_off68_eq r) (k0_off69_eq r) (k0_off70_eq r) (k0_off71_eq r) (k0_off72_eq r) (k0_off73_eq r) (k0_off74_eq r) (k0_off75_eq r) (k0_off76_eq r) (k0_off77_eq r) (k0_off78_eq r) hf y
  isplitl [H6 H8]
  · unfold invInV3
    isplitl [H6]; · iexact H6
    iexists X; isplitl [H8]; · iexact H8
    ipureintro; intro y; rw [if_neg (Nat.not_lt_zero _)]
  iintro %_ HI
  unfold invInV3
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 4 -/

/-- Phase 4's invariant: the positional table untouched; rows below `r` of slot 4 done, the others as they started. -/
def invInV4 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot4).view.loc (thr d L) ↦[(slot4).view.set]{fullShare} f)
    ∗ ⌜∀ y : S40x128.Idx, (slot4).view.read (Elt F) f y = if (y 0).val < r then rowOp 4 P X0 y else X0 y⌝)

/-- Phase 4's inner loop: every row of slot 4 scaled and shifted by block 4 of the positional table. -/
theorem inner4 (d : Dev nD) (L : grid0.Coords) (P : Buf (Elt F) ((thr d L).loc cc0_scratch0)) (X : Buf (Elt F) ((thr d L).loc cc0_scratch2))
    (k : Fin k0_t1_loop.trips) (v114 : BitVec 32) (v315 : BitVec 32) (c40_i32_271 : BitVec 32) :
    (iprop(((s6).view.loc (thr d L) ↦{fullShare} P) ∗ ((slot4).view.loc (thr d L) ↦[(slot4).view.set]{fullShare} X)) : sProp 𝕄)
      ⊢ wp frame (wpE (defs₀ (F := F)) 𝒱₀ (thr d L) none) Set.univ
          (Scf.Loop.for k0_t6_loop k0_t6_ok ⟨⟩ (k0_t6_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 k v114 v315 c40_i32_271))
          fun _ => iprop(((s6).view.loc (thr d L) ↦{fullShare} P) ∗ ∃ f, ((slot4).view.loc (thr d L) ↦[(slot4).view.set]{fullShare} f)
            ∗ ⌜(slot4).view.read (Elt F) f = rowOp 4 P ((slot4).view.read (Elt F) X)⌝) := by
  have htrips : Scf.trips k0_t6_loop.lb k0_t6_loop.ub k0_t6_loop.st = 40 := by decide
  iintro ⟨H6, H8⟩
  sl_for (invInV4 d L P ((slot4).view.read (Elt F) X)) $$ [H6 H8]
  case region =>
    intro r _
    have hr40 : r.val < 40 := lt_of_lt_of_eq r.isLt htrips
    unfold invInV4
    iintro ⟨H6, %f, H8, %hf⟩
    sl_exec
    sl_step
    isplitl [H6]; · iexact H6
    iexists _; isplitl [H8]; · iexact H8
    ipureintro
    sl_unfold_run_names
    intro y
    exact rowStep (slot4).view 4 r.val hr40 P _ f (k0_off82_eq r) (k0_off83_eq r) (k0_off84_eq r) (k0_off85_eq r) (k0_off86_eq r) (k0_off87_eq r) (k0_off88_eq r) (k0_off89_eq r) (k0_off90_eq r) (k0_off91_eq r) (k0_off92_eq r) (k0_off93_eq r) (k0_off94_eq r) (k0_off95_eq r) (k0_off96_eq r) (k0_off97_eq r) hf y
  isplitl [H6 H8]
  · unfold invInV4
    isplitl [H6]; · iexact H6
    iexists X; isplitl [H8]; · iexact H8
    ipureintro; intro y; rw [if_neg (Nat.not_lt_zero _)]
  iintro %_ HI
  unfold invInV4
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 5 -/

/-- Phase 5's invariant: the positional table untouched; rows below `r` of slot 5 done, the others as they started. -/
def invInV5 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot5).view.loc (thr d L) ↦[(slot5).view.set]{fullShare} f)
    ∗ ⌜∀ y : S40x128.Idx, (slot5).view.read (Elt F) f y = if (y 0).val < r then rowOp 0 P X0 y else X0 y⌝)

/-- Phase 5's inner loop: every row of slot 5 scaled and shifted by block 0 of the positional table. -/
theorem inner5 (d : Dev nD) (L : grid0.Coords) (P : Buf (Elt F) ((thr d L).loc cc0_scratch0)) (X : Buf (Elt F) ((thr d L).loc cc0_scratch2))
    (v2 : BitVec 32) (k : Fin k0_t1_loop.trips) (v114 : BitVec 32) (v365 : BitVec 32) (c5_i32_291 : BitVec 32) (v384 : BitVec 32) (v389 : BitVec 32) (v391 : BitVec 32) (v392 : BitVec 1) :
    (iprop(((s6).view.loc (thr d L) ↦{fullShare} P) ∗ ((slot5).view.loc (thr d L) ↦[(slot5).view.set]{fullShare} X)) : sProp 𝕄)
      ⊢ wp frame (wpE (defs₀ (F := F)) 𝒱₀ (thr d L) none) Set.univ
          (Scf.Loop.for k0_t7_loop k0_t7_ok ⟨⟩ (k0_t7_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k v114 v365 c5_i32_291 v384 v389 v391 v392))
          fun _ => iprop(((s6).view.loc (thr d L) ↦{fullShare} P) ∗ ∃ f, ((slot5).view.loc (thr d L) ↦[(slot5).view.set]{fullShare} f)
            ∗ ⌜(slot5).view.read (Elt F) f = rowOp 0 P ((slot5).view.read (Elt F) X)⌝) := by
  have htrips : Scf.trips k0_t7_loop.lb k0_t7_loop.ub k0_t7_loop.st = 40 := by decide
  iintro ⟨H6, H8⟩
  sl_for (invInV5 d L P ((slot5).view.read (Elt F) X)) $$ [H6 H8]
  case region =>
    intro r _
    have hr40 : r.val < 40 := lt_of_lt_of_eq r.isLt htrips
    unfold invInV5
    iintro ⟨H6, %f, H8, %hf⟩
    sl_exec
    sl_step
    isplitl [H6]; · iexact H6
    iexists _; isplitl [H8]; · iexact H8
    ipureintro
    sl_unfold_run_names
    intro y
    exact rowStep (slot5).view 0 r.val hr40 P _ f (k0_off101_eq r) (k0_off102_eq r) (k0_off103_eq r) (k0_off104_eq r) (k0_off105_eq r) (k0_off106_eq r) (k0_off107_eq r) (k0_off108_eq r) (k0_off109_eq r) (k0_off110_eq r) (k0_off111_eq r) (k0_off112_eq r) (k0_off113_eq r) (k0_off114_eq r) (k0_off115_eq r) (k0_off116_eq r) hf y
  isplitl [H6 H8]
  · unfold invInV5
    isplitl [H6]; · iexact H6
    iexists X; isplitl [H8]; · iexact H8
    ipureintro; intro y; rw [if_neg (Nat.not_lt_zero _)]
  iintro %_ HI
  unfold invInV5
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 6 -/

/-- Phase 6's invariant: the positional table untouched; rows below `r` of slot 6 done, the others as they started. -/
def invInV6 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot6).view.loc (thr d L) ↦[(slot6).view.set]{fullShare} f)
    ∗ ⌜∀ y : S40x128.Idx, (slot6).view.read (Elt F) f y = if (y 0).val < r then rowOp 1 P X0 y else X0 y⌝)

/-- Phase 6's inner loop: every row of slot 6 scaled and shifted by block 1 of the positional table. -/
theorem inner6 (d : Dev nD) (L : grid0.Coords) (P : Buf (Elt F) ((thr d L).loc cc0_scratch0)) (X : Buf (Elt F) ((thr d L).loc cc0_scratch2))
    (k : Fin k0_t1_loop.trips) (v114 : BitVec 32) :
    (iprop(((s6).view.loc (thr d L) ↦{fullShare} P) ∗ ((slot6).view.loc (thr d L) ↦[(slot6).view.set]{fullShare} X)) : sProp 𝕄)
      ⊢ wp frame (wpE (defs₀ (F := F)) 𝒱₀ (thr d L) none) Set.univ
          (Scf.Loop.for k0_t8_loop k0_t8_ok ⟨⟩ (k0_t8_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 k v114))
          fun _ => iprop(((s6).view.loc (thr d L) ↦{fullShare} P) ∗ ∃ f, ((slot6).view.loc (thr d L) ↦[(slot6).view.set]{fullShare} f)
            ∗ ⌜(slot6).view.read (Elt F) f = rowOp 1 P ((slot6).view.read (Elt F) X)⌝) := by
  have htrips : Scf.trips k0_t8_loop.lb k0_t8_loop.ub k0_t8_loop.st = 40 := by decide
  iintro ⟨H6, H8⟩
  sl_for (invInV6 d L P ((slot6).view.read (Elt F) X)) $$ [H6 H8]
  case region =>
    intro r _
    have hr40 : r.val < 40 := lt_of_lt_of_eq r.isLt htrips
    unfold invInV6
    iintro ⟨H6, %f, H8, %hf⟩
    sl_exec
    sl_step
    isplitl [H6]; · iexact H6
    iexists _; isplitl [H8]; · iexact H8
    ipureintro
    sl_unfold_run_names
    intro y
    exact rowStep (slot6).view 1 r.val hr40 P _ f (k0_off120_eq r) (k0_off121_eq r) (k0_off122_eq r) (k0_off123_eq r) (k0_off124_eq r) (k0_off125_eq r) (k0_off126_eq r) (k0_off127_eq r) (k0_off128_eq r) (k0_off129_eq r) (k0_off130_eq r) (k0_off131_eq r) (k0_off132_eq r) (k0_off133_eq r) (k0_off134_eq r) (k0_off135_eq r) hf y
  isplitl [H6 H8]
  · unfold invInV6
    isplitl [H6]; · iexact H6
    iexists X; isplitl [H8]; · iexact H8
    ipureintro; intro y; rw [if_neg (Nat.not_lt_zero _)]
  iintro %_ HI
  unfold invInV6
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 7 -/

/-- Phase 7's invariant: the positional table untouched; rows below `r` of slot 7 done, the others as they started. -/
def invInV7 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot7).view.loc (thr d L) ↦[(slot7).view.set]{fullShare} f)
    ∗ ⌜∀ y : S40x128.Idx, (slot7).view.read (Elt F) f y = if (y 0).val < r then rowOp 2 P X0 y else X0 y⌝)

/-- Phase 7's inner loop: every row of slot 7 scaled and shifted by block 2 of the positional table. -/
theorem inner7 (d : Dev nD) (L : grid0.Coords) (P : Buf (Elt F) ((thr d L).loc cc0_scratch0)) (X : Buf (Elt F) ((thr d L).loc cc0_scratch2))
    (v2 : BitVec 32) (k : Fin k0_t1_loop.trips) (v114 : BitVec 32) (v465 : BitVec 32) (v484 : BitVec 32) (v495 : BitVec 1) (v497 : BitVec 1) :
    (iprop(((s6).view.loc (thr d L) ↦{fullShare} P) ∗ ((slot7).view.loc (thr d L) ↦[(slot7).view.set]{fullShare} X)) : sProp 𝕄)
      ⊢ wp frame (wpE (defs₀ (F := F)) 𝒱₀ (thr d L) none) Set.univ
          (Scf.Loop.for k0_t9_loop k0_t9_ok ⟨⟩ (k0_t9_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k v114 v465 v484 v495 v497))
          fun _ => iprop(((s6).view.loc (thr d L) ↦{fullShare} P) ∗ ∃ f, ((slot7).view.loc (thr d L) ↦[(slot7).view.set]{fullShare} f)
            ∗ ⌜(slot7).view.read (Elt F) f = rowOp 2 P ((slot7).view.read (Elt F) X)⌝) := by
  have htrips : Scf.trips k0_t9_loop.lb k0_t9_loop.ub k0_t9_loop.st = 40 := by decide
  iintro ⟨H6, H8⟩
  sl_for (invInV7 d L P ((slot7).view.read (Elt F) X)) $$ [H6 H8]
  case region =>
    intro r _
    have hr40 : r.val < 40 := lt_of_lt_of_eq r.isLt htrips
    unfold invInV7
    iintro ⟨H6, %f, H8, %hf⟩
    sl_exec
    sl_step
    isplitl [H6]; · iexact H6
    iexists _; isplitl [H8]; · iexact H8
    ipureintro
    sl_unfold_run_names
    intro y
    exact rowStep (slot7).view 2 r.val hr40 P _ f (k0_off139_eq r) (k0_off140_eq r) (k0_off141_eq r) (k0_off142_eq r) (k0_off143_eq r) (k0_off144_eq r) (k0_off145_eq r) (k0_off146_eq r) (k0_off147_eq r) (k0_off148_eq r) (k0_off149_eq r) (k0_off150_eq r) (k0_off151_eq r) (k0_off152_eq r) (k0_off153_eq r) (k0_off154_eq r) hf y
  isplitl [H6 H8]
  · unfold invInV7
    isplitl [H6]; · iexact H6
    iexists X; isplitl [H8]; · iexact H8
    ipureintro; intro y; rw [if_neg (Nat.not_lt_zero _)]
  iintro %_ HI
  unfold invInV7
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 8 -/

/-- Phase 8's invariant: the positional table untouched; rows below `r` of slot 8 done, the others as they started. -/
def invInV8 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot8).view.loc (thr d L) ↦[(slot8).view.set]{fullShare} f)
    ∗ ⌜∀ y : S40x128.Idx, (slot8).view.read (Elt F) f y = if (y 0).val < r then rowOp 3 P X0 y else X0 y⌝)

/-- Phase 8's inner loop: every row of slot 8 scaled and shifted by block 3 of the positional table. -/
theorem inner8 (d : Dev nD) (L : grid0.Coords) (P : Buf (Elt F) ((thr d L).loc cc0_scratch0)) (X : Buf (Elt F) ((thr d L).loc cc0_scratch2))
    (v114 : BitVec 32) :
    (iprop(((s6).view.loc (thr d L) ↦{fullShare} P) ∗ ((slot8).view.loc (thr d L) ↦[(slot8).view.set]{fullShare} X)) : sProp 𝕄)
      ⊢ wp frame (wpE (defs₀ (F := F)) 𝒱₀ (thr d L) none) Set.univ
          (Scf.Loop.for k0_t10_loop k0_t10_ok ⟨⟩ (k0_t10_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v114))
          fun _ => iprop(((s6).view.loc (thr d L) ↦{fullShare} P) ∗ ∃ f, ((slot8).view.loc (thr d L) ↦[(slot8).view.set]{fullShare} f)
            ∗ ⌜(slot8).view.read (Elt F) f = rowOp 3 P ((slot8).view.read (Elt F) X)⌝) := by
  have htrips : Scf.trips k0_t10_loop.lb k0_t10_loop.ub k0_t10_loop.st = 40 := by decide
  iintro ⟨H6, H8⟩
  sl_for (invInV8 d L P ((slot8).view.read (Elt F) X)) $$ [H6 H8]
  case region =>
    intro r _
    have hr40 : r.val < 40 := lt_of_lt_of_eq r.isLt htrips
    unfold invInV8
    iintro ⟨H6, %f, H8, %hf⟩
    sl_exec
    sl_step
    isplitl [H6]; · iexact H6
    iexists _; isplitl [H8]; · iexact H8
    ipureintro
    sl_unfold_run_names
    intro y
    exact rowStep (slot8).view 3 r.val hr40 P _ f (k0_off158_eq r) (k0_off159_eq r) (k0_off160_eq r) (k0_off161_eq r) (k0_off162_eq r) (k0_off163_eq r) (k0_off164_eq r) (k0_off165_eq r) (k0_off166_eq r) (k0_off167_eq r) (k0_off168_eq r) (k0_off169_eq r) (k0_off170_eq r) (k0_off171_eq r) (k0_off172_eq r) (k0_off173_eq r) hf y
  isplitl [H6 H8]
  · unfold invInV8
    isplitl [H6]; · iexact H6
    iexists X; isplitl [H8]; · iexact H8
    ipureintro; intro y; rw [if_neg (Nat.not_lt_zero _)]
  iintro %_ HI
  unfold invInV8
  icases HI with ⟨H6, %f, H8, %hf⟩
  isplitl [H6]; · iexact H6
  iexists f; isplitl [H8]; · iexact H8
  ipureintro; funext y
  rw [hf y, htrips, if_pos (show (y 0).val < 40 from (y 0).isLt)]

/-! ## Phase 9 -/

/-- Phase 9's invariant: the positional table untouched; rows below `r` of slot 9 done, the others as they started. -/
def invInV9 (d : Dev nD) (L : grid0.Coords) (P : Buf (Elt F) ((thr d L).loc cc0_scratch0)) (X0 : S40x128.Idx → F .f32) (r : ℕ) (_ : Unit) : sProp 𝕄 :=
  iprop(((s6).view.loc (thr d L) ↦{fullShare} P) ∗ ∃ f, ((slot9).view.loc (thr d L) ↦[(slot9).view.set]{fullShare} f)
    ∗ ⌜∀ y : S40x128.Idx, (slot9).view.read (Elt F) f y = if (y 0).val < r then rowOp 4 P X0 y else X0 y⌝)

/-- Phase 9's inner loop: every row of slot 9 scaled and shifted by block 4 of the positional table. -/
theorem inner9 (d : Dev nD) (L : grid0.Coords) (P : Buf (Elt F) ((thr d L).loc cc0_scratch0)) (X : Buf (Elt F) ((thr d L).loc cc0_scratch2))
    (v2 : BitVec 32) :
    (iprop(((s6).view.loc (thr d L) ↦{fullShare} P) ∗ ((slot9).view.loc (thr d L) ↦[(slot9).view.set]{fullShare} X)) : sProp 𝕄)
      ⊢ wp frame (wpE (defs₀ (F := F)) 𝒱₀ (thr d L) none) Set.univ
          (Scf.Loop.for k0_t11_loop k0_t11_ok ⟨⟩ (k0_t11_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2))
          fun _ => iprop(((s6).view.loc (thr d L) ↦{fullShare} P) ∗ ∃ f, ((slot9).view.loc (thr d L) ↦[(slot9).view.set]{fullShare} f)
            ∗ ⌜(slot9).view.read (Elt F) f = rowOp 4 P ((slot9).view.read (Elt F) X)⌝) := by
  have htrips : Scf.trips k0_t11_loop.lb k0_t11_loop.ub k0_t11_loop.st = 40 := by decide
  iintro ⟨H6, H8⟩
  sl_for (invInV9 d L P ((slot9).view.read (Elt F) X)) $$ [H6 H8]
  case region =>
    intro r _
    have hr40 : r.val < 40 := lt_of_lt_of_eq r.isLt htrips
    unfold invInV9
    iintro ⟨H6, %f, H8, %hf⟩
    sl_exec
    sl_step
    isplitl [H6]; · iexact H6
    iexists _; isplitl [H8]; · iexact H8
    ipureintro
    sl_unfold_run_names
    intro y
    exact rowStep (slot9).view 4 r.val hr40 P _ f (k0_off177_eq r) (k0_off178_eq r) (k0_off179_eq r) (k0_off180_eq r) (k0_off181_eq r) (k0_off182_eq r) (k0_off183_eq r) (k0_off184_eq r) (k0_off185_eq r) (k0_off186_eq r) (k0_off187_eq r) (k0_off188_eq r) (k0_off189_eq r) (k0_off190_eq r) (k0_off191_eq r) (k0_off192_eq r) hf y
  isplitl [H6 H8]
  · unfold invInV9
    isplitl [H6]; · iexact H6
    iexists X; isplitl [H8]; · iexact H8
    ipureintro; intro y; rw [if_neg (Nat.not_lt_zero _)]
  iintro %_ HI
  unfold invInV9
  icases HI with ⟨H6, %f, H8, %hf⟩
  isplitl [H6]; · iexact H6
  iexists f; isplitl [H8]; · iexact H8
  ipureintro; funext y
  rw [hf y, htrips, if_pos (show (y 0).val < 40 from (y 0).isLt)]

end Cert.Proof.KB

end
-- ==== Proof.KBOwn.lean ====
/-
  A tile's own scratch and semaphores, opened.

  What a tile's task is handed of its own subcore — every buffer it owns whole at some contents, every one of its
  scoped semaphore cells at zero — is, taken apart: its three scratch buffers (the positional rows, the index words,
  the ten row slots), its 22 DMA semaphore cells by name, and the rest.  A separating conjunction over a finite set
  is the conjunction over a duplicate-free list of its members, then over the set without them.
-/
import proofs.«206279_g3710851744293_cont_8to1_b_253_31_alg».proof.Proof.KBInv
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-! ## A list of members taken out of a separating conjunction over a finite set -/

section SepList
variable {M : Type} [URA M]

/-- The separating conjunction of a list of assertions, then a remainder: a ∗ b ∗ … ∗ R. -/
def sepL : List (sProp M) → sProp M → sProp M
  | [], R => R
  | a :: l, R => iprop(a ∗ sepL l R)

theorem sepL_nil (R : sProp M) : sepL [] R = R := rfl
theorem sepL_cons (a : sProp M) (l : List (sProp M)) (R : sProp M) : sepL (a :: l) R = iprop(a ∗ sepL l R) := rfl

/-- A further conjunct goes into the remainder. -/
theorem sepL_sep (l : List (sProp M)) (R X : sProp M) : iprop(sepL l R ∗ X) = sepL l iprop(R ∗ X) := by
  induction l with
  | nil => rfl
  | cons a l ih =>
    rw [sepL_cons, sepL_cons, ← ih]
    exact BI.equiv_iff.mp ⟨Idealize.SL.BI.sep_assoc, Idealize.SL.BI.sep_assoc'⟩

/-- The conjunction over a finite set is the conjunction over a duplicate-free list of its members, then over the
    set without them. -/
theorem bigSep_take {I : Type} [DecidableEq I] (Φ : I → sProp M) :
    ∀ (l : List I) (s : Finset I), l.Nodup → (∀ i ∈ l, i ∈ s) → bigSep s Φ = sepL (l.map Φ) (bigSep (s \ l.toFinset) Φ)
  | [], s, _, _ => by
    rw [List.toFinset_nil, Finset.sdiff_empty]; rfl
  | a :: l, s, hnd, hs => by
    have ha : a ∈ s := hs a List.mem_cons_self
    have hnd' := List.nodup_cons.1 hnd
    have hl : ∀ i ∈ l, i ∈ s.erase a := fun i hi =>
      Finset.mem_erase.2 ⟨fun e => hnd'.1 (e ▸ hi), hs i (List.mem_cons_of_mem _ hi)⟩
    have hset : s.erase a \ l.toFinset = s \ (a :: l).toFinset := by
      ext x
      simp only [Finset.mem_sdiff, Finset.mem_erase, List.toFinset_cons, Finset.mem_insert, List.mem_toFinset]
      tauto
    refine (SparseCore.bigSep_erase' ha).trans ?_
    rw [bigSep_take Φ l (s.erase a) hnd'.2 hl, hset]
    rfl

end SepList

/-! ## The tile's own buffers and cells -/

/-- The tile's 22 DMA semaphore cells, in the order the kernel function takes them. -/
abbrev semList : List (SemLoc sig) :=
  [SemLoc.dma cc0_scratch3.sem, SemLoc.dma cc0_scratch4.sem, SemLoc.dma cc0_scratch5.sem, SemLoc.dma cc0_scratch6.sem, SemLoc.dma cc0_scratch7.sem, SemLoc.dma cc0_scratch8.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scratch19.sem, SemLoc.dma cc0_scratch20.sem, SemLoc.dma cc0_scratch21.sem, SemLoc.dma cc0_scratch22.sem, SemLoc.dma cc0_scoped0.sem, SemLoc.dma cc0_scoped1.sem]

theorem semList_nodup : semList.Nodup := by decide
theorem semList_scoped : ∀ sm ∈ semList, sm.isScoped .scVector = true := by decide

/-- The same cells as global cells of the tile's thread. -/
def cells (d : Dev nD) (L : grid0.Coords) : List (GSem nD τ sig) := semList.map fun sm => (thr d L, sm)

theorem cells_nodup (d : Dev nD) (L : grid0.Coords) : (cells d L).Nodup :=
  semList_nodup.map fun _ _ e => (Prod.mk.inj e).2

theorem cells_own (d : Dev nD) (L : grid0.Coords) : ∀ g ∈ cells d L, g ∈ ownCells (thr d L) := by
  intro g hg
  obtain ⟨sm, hsm, rfl⟩ := List.mem_map.1 hg
  exact mem_ownCells.mpr ⟨rfl, semList_scoped sm hsm⟩

/-- The tile's three scratch buffers as device references. -/
def bufList (L : grid0.Coords) : List (DevRef τ sig) :=
  [(Proc.scVector (cV L) (jV L)).devRef cc0_scratch0, (Proc.scVector (cV L) (jV L)).devRef cc0_scratch1,
    (Proc.scVector (cV L) (jV L)).devRef cc0_scratch2]

theorem bufList_nodup (L : grid0.Coords) : (bufList L).Nodup := by
  have h01 : (cc0_scratch0 : Ref sig .scVector) ≠ cc0_scratch1 := by decide
  have h02 : (cc0_scratch0 : Ref sig .scVector) ≠ cc0_scratch2 := by decide
  have h12 : (cc0_scratch1 : Ref sig .scVector) ≠ cc0_scratch2 := by decide
  simp only [bufList, List.nodup_cons, List.mem_cons, List.not_mem_nil, or_false, not_or, List.nodup_nil, and_true, not_false_eq_true]
  exact ⟨⟨fun e => h01 (Proc.devRef_injective _ e), fun e => h02 (Proc.devRef_injective _ e)⟩, fun e => h12 (Proc.devRef_injective _ e)⟩

theorem bufList_own (L : grid0.Coords) : ∀ b ∈ bufList L, b ∈ ownRefs (τ := τ) (sig := sig) (.scVector (cV L) (jV L)) := by
  intro b hb
  simp only [bufList, List.mem_cons, List.not_mem_nil, or_false] at hb
  rcases hb with rfl | rfl | rfl <;> exact SparseCore.Cfg.mem_ownRefs_of_owner rfl

/-- The tile's own buffers other than the three scratch buffers, each whole at some contents. -/
def restBufs (d : Dev nD) (L : grid0.Coords) : sProp 𝕄 :=
  bigSep (ownRefs (τ := τ) (sig := sig) (.scVector (cV L) (jV L)) \ (bufList L).toFinset)
    fun b => iprop(∃ f, ((d, b) : Loc nD τ sig) ↦{fullShare} f)

/-- The tile's own scoped cells other than the 22 named ones, each at zero. -/
def restSems (d : Dev nD) (L : grid0.Coords) : sProp 𝕄 :=
  bigSep (ownCells (thr d L) \ (cells d L).toFinset) fun g => semVal g 0

/-- THE TILE'S OWN STATE OPENED: the three scratch buffers, the other buffers, the 22 cells by name, the other cells. -/
theorem scoped_open (hF : (K (F := F)).Facts) (d : Dev nD) (L : grid0.Coords) :
    (iprop(scopedBufs (thr d L) ∗ scopedSems0 (thr d L)) : sProp 𝕄)
      = iprop((∃ f, (s6).view.loc (thr d L) ↦{fullShare} f) ∗ (∃ f, (s7).view.loc (thr d L) ↦{fullShare} f)
        ∗ (∃ f, (s8).view.loc (thr d L) ↦{fullShare} f) ∗ restBufs d L
        ∗ semVal ((thr d L, SemLoc.dma cc0_scratch3.sem) : GSem nD τ sig) 0
        ∗ semVal ((thr d L, SemLoc.dma cc0_scratch4.sem) : GSem nD τ sig) 0
        ∗ semVal ((thr d L, SemLoc.dma cc0_scratch5.sem) : GSem nD τ sig) 0
        ∗ semVal ((thr d L, SemLoc.dma cc0_scratch6.sem) : GSem nD τ sig) 0
        ∗ semVal ((thr d L, SemLoc.dma cc0_scratch7.sem) : GSem nD τ sig) 0
        ∗ semVal ((thr d L, SemLoc.dma cc0_scratch8.sem) : GSem nD τ sig) 0
        ∗ semVal ((thr d L, SemLoc.dma cc0_scratch9.sem) : GSem nD τ sig) 0
        ∗ semVal ((thr d L, SemLoc.dma cc0_scratch10.sem) : GSem nD τ sig) 0
        ∗ semVal ((thr d L, SemLoc.dma cc0_scratch11.sem) : GSem nD τ sig) 0
        ∗ semVal ((thr d L, SemLoc.dma cc0_scratch12.sem) : GSem nD τ sig) 0
        ∗ semVal ((thr d L, SemLoc.dma cc0_scratch13.sem) : GSem nD τ sig) 0
        ∗ semVal ((thr d L, SemLoc.dma cc0_scratch14.sem) : GSem nD τ sig) 0
        ∗ semVal ((thr d L, SemLoc.dma cc0_scratch15.sem) : GSem nD τ sig) 0
        ∗ semVal ((thr d L, SemLoc.dma cc0_scratch16.sem) : GSem nD τ sig) 0
        ∗ semVal ((thr d L, SemLoc.dma cc0_scratch17.sem) : GSem nD τ sig) 0
        ∗ semVal ((thr d L, SemLoc.dma cc0_scratch18.sem) : GSem nD τ sig) 0
        ∗ semVal ((thr d L, SemLoc.dma cc0_scratch19.sem) : GSem nD τ sig) 0
        ∗ semVal ((thr d L, SemLoc.dma cc0_scratch20.sem) : GSem nD τ sig) 0
        ∗ semVal ((thr d L, SemLoc.dma cc0_scratch21.sem) : GSem nD τ sig) 0
        ∗ semVal ((thr d L, SemLoc.dma cc0_scratch22.sem) : GSem nD τ sig) 0
        ∗ semVal ((thr d L, SemLoc.dma cc0_scoped0.sem) : GSem nD τ sig) 0
        ∗ semVal ((thr d L, SemLoc.dma cc0_scoped1.sem) : GSem nD τ sig) 0
        ∗ restSems d L) := by
  rw [(K (F := F)).scopedBufs_V hF d (cV L) (jV L), SparseCore.Cfg.scopedSems0_V (Val := Elt F) d (cV L) (jV L)]
  unfold SparseCore.Cfg.ownBufs SparseCore.Cfg.ownSems0
  rw [bigSep_take _ (bufList L) _ (bufList_nodup L) (bufList_own L), bigSep_take _ (cells d L) _ (cells_nodup d L) (cells_own d L), sepL_sep]
  rfl

end Cert.Proof.KB
end
-- ==== Proof.KBSplit.lean ====
/-
  A tile's memory cut into the pieces its task works on.

  The row buffer is its ten slots; the index buffer is its 640 windows of forty words; the tile's 128 batch rows of
  the result are their 640 chunks of forty positions (five to a row).  Each is a points-to assertion along a family of
  pairwise disjoint element sets that cover the whole; a separating conjunction over an initial or final segment of
  the chunk numbers gives up, or takes, its boundary element.
-/
import proofs.«206279_g3710851744293_cont_8to1_b_253_31_alg».proof.Proof.KBOwn
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-! ## Lists and segments -/

section Lists
variable {M : Type} [URA M]

/-- A list's conjunction that ends in emp ends in its last element. -/
theorem sepL_snoc_emp (l : List (sProp M)) (a : sProp M) : sepL (l ++ [a]) iprop(emp) = sepL l a := by
  induction l with
  | nil => exact BI.equiv_iff.mp ⟨Idealize.SL.BI.sep_emp_elim, Idealize.SL.BI.sep_emp_intro⟩
  | cons b l ih => rw [List.cons_append, sepL_cons, sepL_cons, ih]

/-- The conjunction over all of Fin n is the conjunction of the list of its values in order. -/
theorem bigSep_univ_fin {n : Nat} (Φ : Fin n → sProp M) :
    bigSep Finset.univ Φ = sepL ((List.finRange n).map Φ) iprop(emp) := by
  rw [bigSep_take Φ (List.finRange n) Finset.univ (List.nodup_finRange n) (fun i _ => Finset.mem_univ i),
    List.toFinset_finRange, Finset.sdiff_self, bigSep_empty]
  rfl

variable {N : Nat}

/-- The chunk numbers from n on: n itself, and those from n + 1 on. -/
theorem bigSep_ge_step (Φ : Fin N → sProp M) (n : Nat) (h : n < N) :
    bigSep (Finset.univ.filter fun q : Fin N => n ≤ q.val) Φ
      = iprop(Φ ⟨n, h⟩ ∗ bigSep (Finset.univ.filter fun q : Fin N => n + 1 ≤ q.val) Φ) := by
  have hs : (Finset.univ.filter fun q : Fin N => n ≤ q.val) = insert ⟨n, h⟩ (Finset.univ.filter fun q : Fin N => n + 1 ≤ q.val) := by
    ext q
    simp only [Finset.mem_filter, Finset.mem_univ, true_and, Finset.mem_insert, Fin.ext_iff]
    omega
  rw [hs]
  exact SparseCore.bigSep_insert' (by simp only [Finset.mem_filter, Finset.mem_univ, true_and]; omega)

/-- The chunk numbers below n + 1: n itself, and those below n. -/
theorem bigSep_lt_step (Ψ : Fin N → sProp M) (n : Nat) (h : n < N) :
    bigSep (Finset.univ.filter fun q : Fin N => q.val < n + 1) Ψ
      = iprop(Ψ ⟨n, h⟩ ∗ bigSep (Finset.univ.filter fun q : Fin N => q.val < n) Ψ) := by
  have hs : (Finset.univ.filter fun q : Fin N => q.val < n + 1) = insert ⟨n, h⟩ (Finset.univ.filter fun q : Fin N => q.val < n) := by
    ext q
    simp only [Finset.mem_filter, Finset.mem_univ, true_and, Finset.mem_insert, Fin.ext_iff]
    omega
  rw [hs]
  exact SparseCore.bigSep_insert' (by simp only [Finset.mem_filter, Finset.mem_univ, true_and]; omega)

theorem filter_ge_zero : (Finset.univ.filter fun q : Fin N => 0 ≤ q.val) = Finset.univ :=
  Finset.filter_true_of_mem fun _ _ => Nat.zero_le _
theorem filter_lt_all : (Finset.univ.filter fun q : Fin N => q.val < N) = Finset.univ :=
  Finset.filter_true_of_mem fun q _ => q.isLt
theorem filter_ge_all : (Finset.univ.filter fun q : Fin N => N ≤ q.val) = ∅ :=
  Finset.filter_false_of_mem fun q _ => Nat.not_le.2 q.isLt
theorem filter_lt_zero : (Finset.univ.filter fun q : Fin N => q.val < 0) = ∅ :=
  Finset.filter_false_of_mem fun q _ => Nat.not_lt_zero _

/-- All the chunk numbers, as those from 0 on; those from N on are none. -/
theorem bigSep_univ_ge (Φ : Fin N → sProp M) : bigSep Finset.univ Φ = bigSep (Finset.univ.filter fun q : Fin N => 0 ≤ q.val) Φ := by
  rw [filter_ge_zero]
theorem bigSep_ge_all (Φ : Fin N → sProp M) : bigSep (Finset.univ.filter fun q : Fin N => N ≤ q.val) Φ = iprop(emp) := by
  rw [filter_ge_all, bigSep_empty]; rfl
theorem bigSep_lt_all (Ψ : Fin N → sProp M) : bigSep (Finset.univ.filter fun q : Fin N => q.val < N) Ψ = bigSep Finset.univ Ψ := by
  rw [filter_lt_all]
theorem bigSep_lt_zero (Ψ : Fin N → sProp M) : bigSep (Finset.univ.filter fun q : Fin N => q.val < 0) Ψ = iprop(emp) := by
  rw [filter_lt_zero, bigSep_empty]; rfl

end Lists

/-! ## The row buffer: ten slots -/

theorem h10 : 10 ∣ S10x40x128.size 0 := ⟨1, rfl⟩

/-- The unit block at row j of the row buffer is the j-th of the ten parts of its first axis. -/
theorem unit_row_eq_part (j : Fin 10) (inb : ∀ a, (![j.val, 0, 0] : Fin 3 → Nat) a + S1x40x128.size a ≤ S10x40x128.size a) :
    (Rect.unit (s := S10x40x128) ![j.val, 0, 0] S1x40x128.size inb).set = (Rect.part (s := S10x40x128) (a₀ := 0) h10 j).set := by
  ext i
  rw [Rect.mem_set_unit, Rect.mem_set_unit]
  refine forall_congr' fun a => ?_
  fin_cases a <;> simp [Shape.partIx, Shape.partSize]

theorem slot0_set : (slot0).view.set = (Rect.part (s := S10x40x128) (a₀ := 0) h10 0).set := by
  simp only [Memref.view_squeeze, View.set_reshape, Memref.view_slice, Memref.view_whole, View.set_slice_whole]
  exact unit_row_eq_part 0 _
theorem slot1_set : (slot1).view.set = (Rect.part (s := S10x40x128) (a₀ := 0) h10 1).set := by
  simp only [Memref.view_squeeze, View.set_reshape, Memref.view_slice, Memref.view_whole, View.set_slice_whole]
  exact unit_row_eq_part 1 _
theorem slot2_set : (slot2).view.set = (Rect.part (s := S10x40x128) (a₀ := 0) h10 2).set := by
  simp only [Memref.view_squeeze, View.set_reshape, Memref.view_slice, Memref.view_whole, View.set_slice_whole]
  exact unit_row_eq_part 2 _
theorem slot3_set : (slot3).view.set = (Rect.part (s := S10x40x128) (a₀ := 0) h10 3).set := by
  simp only [Memref.view_squeeze, View.set_reshape, Memref.view_slice, Memref.view_whole, View.set_slice_whole]
  exact unit_row_eq_part 3 _
theorem slot4_set : (slot4).view.set = (Rect.part (s := S10x40x128) (a₀ := 0) h10 4).set := by
  simp only [Memref.view_squeeze, View.set_reshape, Memref.view_slice, Memref.view_whole, View.set_slice_whole]
  exact unit_row_eq_part 4 _
theorem slot5_set : (slot5).view.set = (Rect.part (s := S10x40x128) (a₀ := 0) h10 5).set := by
  simp only [Memref.view_squeeze, View.set_reshape, Memref.view_slice, Memref.view_whole, View.set_slice_whole]
  exact unit_row_eq_part 5 _
theorem slot6_set : (slot6).view.set = (Rect.part (s := S10x40x128) (a₀ := 0) h10 6).set := by
  simp only [Memref.view_squeeze, View.set_reshape, Memref.view_slice, Memref.view_whole, View.set_slice_whole]
  exact unit_row_eq_part 6 _
theorem slot7_set : (slot7).view.set = (Rect.part (s := S10x40x128) (a₀ := 0) h10 7).set := by
  simp only [Memref.view_squeeze, View.set_reshape, Memref.view_slice, Memref.view_whole, View.set_slice_whole]
  exact unit_row_eq_part 7 _
theorem slot8_set : (slot8).view.set = (Rect.part (s := S10x40x128) (a₀ := 0) h10 8).set := by
  simp only [Memref.view_squeeze, View.set_reshape, Memref.view_slice, Memref.view_whole, View.set_slice_whole]
  exact unit_row_eq_part 8 _
theorem slot9_set : (slot9).view.set = (Rect.part (s := S10x40x128) (a₀ := 0) h10 9).set := by
  simp only [Memref.view_squeeze, View.set_reshape, Memref.view_slice, Memref.view_whole, View.set_slice_whole]
  exact unit_row_eq_part 9 _

/-- THE ROW BUFFER IS ITS TEN SLOTS. -/
theorem slots_split_eq (d : Dev nD) (L : grid0.Coords) (f : Buf (Elt F) ((thr d L).loc cc0_scratch2)) :
    ((s8).view.loc (thr d L) ↦{fullShare} f : sProp 𝕄)
      = iprop(((slot0).view.loc (thr d L) ↦[(slot0).view.set]{fullShare} f)
        ∗ ((slot1).view.loc (thr d L) ↦[(slot1).view.set]{fullShare} f)
        ∗ ((slot2).view.loc (thr d L) ↦[(slot2).view.set]{fullShare} f)
        ∗ ((slot3).view.loc (thr d L) ↦[(slot3).view.set]{fullShare} f)
        ∗ ((slot4).view.loc (thr d L) ↦[(slot4).view.set]{fullShare} f)
        ∗ ((slot5).view.loc (thr d L) ↦[(slot5).view.set]{fullShare} f)
        ∗ ((slot6).view.loc (thr d L) ↦[(slot6).view.set]{fullShare} f)
        ∗ ((slot7).view.loc (thr d L) ↦[(slot7).view.set]{fullShare} f)
        ∗ ((slot8).view.loc (thr d L) ↦[(slot8).view.set]{fullShare} f)
        ∗ ((slot9).view.loc (thr d L) ↦[(slot9).view.set]{fullShare} f)) := by
  have e : ((s8).view.loc (thr d L) ↦{fullShare} f : sProp 𝕄)
      = bigSep Finset.univ fun j : Fin 10 => (thr d L).loc cc0_scratch2 ↦[(Rect.part (s := S10x40x128) (a₀ := 0) h10 j).set]{fullShare} f := by
    rw [← pointsTo_biUnion Finset.univ (ℓ := (thr d L).loc cc0_scratch2) (fun j : Fin 10 => (Rect.part (s := S10x40x128) (a₀ := 0) h10 j).set)
      (fun i _ j _ h => Rect.part_disjoint h10 h), Rect.biUnion_part h10]
  rw [e, bigSep_univ_fin, slot0_set, slot1_set, slot2_set, slot3_set, slot4_set, slot5_set, slot6_set, slot7_set, slot8_set, slot9_set]
  let Φ : Fin 10 → sProp 𝕄 := fun j => (thr d L).loc cc0_scratch2 ↦[(Rect.part (s := S10x40x128) (a₀ := 0) h10 j).set]{fullShare} f
  exact sepL_snoc_emp [Φ 0, Φ 1, Φ 2, Φ 3, Φ 4, Φ 5, Φ 6, Φ 7, Φ 8] (Φ 9)

theorem slots_split (d : Dev nD) (L : grid0.Coords) (f : Buf (Elt F) ((thr d L).loc cc0_scratch2)) :
    ((s8).view.loc (thr d L) ↦{fullShare} f : sProp 𝕄)
      ⊣⊢ iprop(((slot0).view.loc (thr d L) ↦[(slot0).view.set]{fullShare} f)
        ∗ ((slot1).view.loc (thr d L) ↦[(slot1).view.set]{fullShare} f)
        ∗ ((slot2).view.loc (thr d L) ↦[(slot2).view.set]{fullShare} f)
        ∗ ((slot3).view.loc (thr d L) ↦[(slot3).view.set]{fullShare} f)
        ∗ ((slot4).view.loc (thr d L) ↦[(slot4).view.set]{fullShare} f)
        ∗ ((slot5).view.loc (thr d L) ↦[(slot5).view.set]{fullShare} f)
        ∗ ((slot6).view.loc (thr d L) ↦[(slot6).view.set]{fullShare} f)
        ∗ ((slot7).view.loc (thr d L) ↦[(slot7).view.set]{fullShare} f)
        ∗ ((slot8).view.loc (thr d L) ↦[(slot8).view.set]{fullShare} f)
        ∗ ((slot9).view.loc (thr d L) ↦[(slot9).view.set]{fullShare} f)) :=
  ⟨(BI.equiv_iff.mpr (slots_split_eq d L f)).1, (BI.equiv_iff.mpr (slots_split_eq d L f)).2⟩

/-! ## The index buffer: 640 windows of forty words -/

theorem h640 : 640 ∣ S25600.size 0 := ⟨40, rfl⟩

/-- Window q of the index buffer: its words [40 q, 40 q + 40). -/
abbrev winq (q : Fin 640) : Memref sig .scVector .vmem S40 .i32 :=
  win (40 * q.val) (by have := q.isLt; omega)

/-- Window q's elements are the q-th of the 640 parts of the index buffer. -/
theorem winq_set (q : Fin 640) : (winq q).view.set = (Rect.part (s := S25600) (a₀ := 0) h640 q).set := by
  simp only [Memref.view_slice, Memref.view_whole, View.set_slice_whole]
  ext i
  rw [Rect.mem_set_unit, Rect.mem_set_unit]
  refine forall_congr' fun a => ?_
  fin_cases a
  simp [Shape.partIx, Shape.partSize]
  omega

/-- THE INDEX BUFFER IS ITS 640 WINDOWS. -/
theorem wins_split_eq (d : Dev nD) (L : grid0.Coords) (f : Buf (Elt F) ((thr d L).loc cc0_scratch1)) :
    ((s7).view.loc (thr d L) ↦{fullShare} f : sProp 𝕄)
      = bigSep Finset.univ fun q : Fin 640 => (winq q).view.loc (thr d L) ↦[(winq q).view.set]{fullShare} f := by
  have e1 : (bigSep Finset.univ fun q : Fin 640 => (winq q).view.loc (thr d L) ↦[(winq q).view.set]{fullShare} f : sProp 𝕄)
      = bigSep Finset.univ fun q : Fin 640 => (thr d L).loc cc0_scratch1 ↦[(Rect.part (s := S25600) (a₀ := 0) h640 q).set]{fullShare} f :=
    bigSep_congr fun q _ => by rw [winq_set q]
  rw [e1, ← pointsTo_biUnion Finset.univ (ℓ := (thr d L).loc cc0_scratch1) (fun q : Fin 640 => (Rect.part (s := S25600) (a₀ := 0) h640 q).set)
    (fun i _ j _ h => Rect.part_disjoint h640 h), Rect.biUnion_part h640]

theorem wins_split (d : Dev nD) (L : grid0.Coords) (f : Buf (Elt F) ((thr d L).loc cc0_scratch1)) :
    ((s7).view.loc (thr d L) ↦{fullShare} f : sProp 𝕄)
      ⊣⊢ bigSep Finset.univ fun q : Fin 640 => (winq q).view.loc (thr d L) ↦[(winq q).view.set]{fullShare} f :=
  ⟨(BI.equiv_iff.mpr (wins_split_eq d L f)).1, (BI.equiv_iff.mpr (wins_split_eq d L f)).2⟩

/-! ## The tile's rows of the result: 640 chunks of forty positions -/

theorem ochq_inb (L : grid0.Coords) (q : Fin 640) : b0 L + q.val / 5 + 1 ≤ 4096 ∧ 40 * (q.val % 5) + 40 ≤ 200 := by
  have h0 : (L 0).val < 2 := (L 0).isLt
  have h1 : (L 1).val < 16 := (L 1).isLt
  have hb : b0 L = 256 * (L 1).val + 128 * (L 0).val := rfl
  have := q.isLt
  constructor <;> omega

/-- Chunk q of the tile at a grid point: positions [40 (q mod 5), +40) of batch row b0 + q div 5. -/
abbrev ochq (L : grid0.Coords) (q : Fin 640) : Memref sig .scVector .hbm S40x128 .f32 :=
  och (b0 L + q.val / 5) (40 * (q.val % 5)) (ochq_inb L q)

theorem b0_eq (L : grid0.Coords) : b0 L = 128 * (wid L).val := by
  show 256 * (L 1).val + 128 * (L 0).val = 128 * (2 * (L 1).val + (L 0).val)
  omega

/-- An element is in chunk q exactly when its batch row is the chunk's and its position is in the chunk's forty. -/
theorem mem_ochq (L : grid0.Coords) (q : Fin 640) (i : S4096x200x128.Idx) :
    i ∈ (ochq L q).view.set ↔ (i 0).val = b0 L + q.val / 5 ∧ 40 * (q.val % 5) ≤ (i 1).val ∧ (i 1).val < 40 * (q.val % 5) + 40 := by
  simp only [Memref.view_squeeze, View.set_reshape, Memref.view_slice, Memref.view_whole, View.set_slice_whole]
  change i ∈ (Rect.unit (s := S4096x200x128) ![b0 L + q.val / 5, 40 * (q.val % 5), 0] S1x40x128.size _).set ↔ _
  rw [Rect.mem_set_unit]
  have h2 : (i 2).val < 128 := (i 2).isLt
  constructor
  · intro h
    have h0 : b0 L + q.val / 5 ≤ (i 0).val ∧ (i 0).val < b0 L + q.val / 5 + 1 := h 0
    have h1 : 40 * (q.val % 5) ≤ (i 1).val ∧ (i 1).val < 40 * (q.val % 5) + 40 := h 1
    omega
  · intro h a
    fin_cases a
    · show b0 L + q.val / 5 ≤ (i 0).val ∧ (i 0).val < b0 L + q.val / 5 + 1
      omega
    · show 40 * (q.val % 5) ≤ (i 1).val ∧ (i 1).val < 40 * (q.val % 5) + 40
      omega
    · show 0 ≤ (i 2).val ∧ (i 2).val < 0 + 128
      omega

/-- An element is in the tile's rows exactly when its batch row is one of the tile's 128. -/
theorem mem_tileRows (w : Fin 32) (i : S4096x200x128.Idx) :
    i ∈ tileRows w ↔ 128 * w.val ≤ (i 0).val ∧ (i 0).val < 128 * w.val + 128 := by
  change i ∈ ((View.whole (main_v2_scv : Ref sig .scVector)).slice (tileRect w)).set ↔ _
  rw [View.set_slice_whole]
  change i ∈ (Rect.unit (s := S4096x200x128) (fun a => S4096x200x128.partIx 0 w.val a * S4096x200x128.partSize 0 32 a)
    (S4096x200x128.partSize 0 32) _).set ↔ _
  rw [Rect.mem_set_unit]
  have h1 : (i 1).val < 200 := (i 1).isLt
  have h2 : (i 2).val < 128 := (i 2).isLt
  constructor
  · intro h
    have h0 : w.val * 128 ≤ (i 0).val ∧ (i 0).val < w.val * 128 + 128 := h 0
    omega
  · intro h a
    fin_cases a
    · show w.val * 128 ≤ (i 0).val ∧ (i 0).val < w.val * 128 + 128
      omega
    · show 0 * 200 ≤ (i 1).val ∧ (i 1).val < 0 * 200 + 200
      omega
    · show 0 * 128 ≤ (i 2).val ∧ (i 2).val < 0 * 128 + 128
      omega

theorem ochq_disjoint (L : grid0.Coords) : ∀ q ∈ (Finset.univ : Finset (Fin 640)), ∀ q' ∈ (Finset.univ : Finset (Fin 640)), q ≠ q' →
    Disjoint (ochq L q).view.set (ochq L q').view.set := by
  intro q _ q' _ hne
  refine Finset.disjoint_left.2 fun i hi hi' => ?_
  rw [mem_ochq] at hi hi'
  exact hne (Fin.ext (by omega))

theorem ochq_cover (L : grid0.Coords) : (Finset.univ : Finset (Fin 640)).biUnion (fun q => (ochq L q).view.set) = tileRows (wid L) := by
  ext i
  rw [Finset.mem_biUnion, mem_tileRows, ← b0_eq]
  have h1 : (i 1).val < 200 := (i 1).isLt
  constructor
  · rintro ⟨q, -, hq⟩
    rw [mem_ochq] at hq
    have := q.isLt
    omega
  · intro h
    refine ⟨⟨5 * ((i 0).val - b0 L) + (i 1).val / 40, by omega⟩, Finset.mem_univ _, ?_⟩
    rw [mem_ochq]
    show (i 0).val = b0 L + (5 * ((i 0).val - b0 L) + (i 1).val / 40) / 5
      ∧ 40 * ((5 * ((i 0).val - b0 L) + (i 1).val / 40) % 5) ≤ (i 1).val
      ∧ (i 1).val < 40 * ((5 * ((i 0).val - b0 L) + (i 1).val / 40) % 5) + 40
    omega

/-- THE TILE'S ROWS OF THE RESULT ARE THEIR 640 CHUNKS. -/
theorem ochs_split_eq (d : Dev nD) (L : grid0.Coords) (f : Buf (Elt F) (oLoc d)) :
    (oLoc d ↦[tileRows (wid L)]{fullShare} f : sProp 𝕄)
      = bigSep Finset.univ fun q : Fin 640 => (ochq L q).view.loc (thr d L) ↦[(ochq L q).view.set]{fullShare} f := by
  rw [← ochq_cover L, pointsTo_biUnion Finset.univ (ℓ := oLoc d) (fun q : Fin 640 => (ochq L q).view.set) (ochq_disjoint L)]

theorem ochs_split (d : Dev nD) (L : grid0.Coords) (f : Buf (Elt F) (oLoc d)) :
    (oLoc d ↦[tileRows (wid L)]{fullShare} f : sProp 𝕄)
      ⊣⊢ bigSep Finset.univ fun q : Fin 640 => (ochq L q).view.loc (thr d L) ↦[(ochq L q).view.set]{fullShare} f :=
  ⟨(BI.equiv_iff.mpr (ochs_split_eq d L f)).1, (BI.equiv_iff.mpr (ochs_split_eq d L f)).2⟩

end Cert.Proof.KB
end
-- ==== Proof.KBInv2.lean ====
/-
  The same pieces named by the offsets the printed program computes (any offsets in range): the window of forty
  index words at `off`, the chunk of forty positions at `off`; and the equations that turn one spelling of a
  held piece into another when the offsets agree.
-/
import proofs.«206279_g3710851744293_cont_8to1_b_253_31_alg».proof.Proof.KBSplit
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-- The window of 40 index words at offsets `off` of the index buffer. -/
abbrev win' (off : Fin 1 → ℕ) (h : ∀ a, off a + S40.size a ≤ S25600.size a) : Memref sig .scVector .vmem S40 .i32 :=
  (s7).slice (Rect.unit (s := S25600) off S40.size h) (fun _ => rfl)

/-- The chunk of 40 positions at offsets `off` of the result. -/
abbrev och' (off : Fin 3 → ℕ) (h : ∀ a, off a + S1x40x128.size a ≤ S4096x200x128.size a) : Memref sig .scVector .hbm S40x128 .f32 :=
  ((oV).slice (Rect.unit (s := S4096x200x128) off S1x40x128.size h) (fun _ => rfl)).squeeze S40x128 squeezes_S1x40x128_S40x128

theorem held_win'_congr (d : Dev nD) (L : grid0.Coords) {off off' : Fin 1 → ℕ} (e : off = off') (h) (h') (q : PosShare TreeShare)
    (f : Buf (Elt F) ((thr d L).loc cc0_scratch1)) :
    (((win' off h).view.loc (thr d L) ↦[(win' off h).view.set]{q} f) : sProp 𝕄)
      = ((win' off' h').view.loc (thr d L) ↦[(win' off' h').view.set]{q} f) := by
  subst e; rfl

theorem held_och'_congr (d : Dev nD) (L : grid0.Coords) {off off' : Fin 3 → ℕ} (e : off = off') (h) (h') (q : PosShare TreeShare)
    (f : Buf (Elt F) ((thr d L).loc main_v2_scv)) :
    (((och' off h).view.loc (thr d L) ↦[(och' off h).view.set]{q} f) : sProp 𝕄)
      = ((och' off' h').view.loc (thr d L) ↦[(och' off' h').view.set]{q} f) := by
  subst e; rfl

end Cert.Proof.KB
end
-- ==== Proof.KBLoopIn.lean ====
/-
  The frame invariant of the inner loop over a slot's forty rows (the positional table and the slot held), and
  the bookkeeping of the waits a thread records.
-/
import proofs.«206279_g3710851744293_cont_8to1_b_253_31_alg».proof.Proof.KBInv2
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

def invIn0 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot0).view.loc (thr d L) ↦[(slot0).view.set]{fullShare} f))
def invIn1 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot1).view.loc (thr d L) ↦[(slot1).view.set]{fullShare} f))
def invIn2 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot2).view.loc (thr d L) ↦[(slot2).view.set]{fullShare} f))
def invIn3 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot3).view.loc (thr d L) ↦[(slot3).view.set]{fullShare} f))
def invIn4 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot4).view.loc (thr d L) ↦[(slot4).view.set]{fullShare} f))
def invIn5 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot5).view.loc (thr d L) ↦[(slot5).view.set]{fullShare} f))
def invIn6 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot6).view.loc (thr d L) ↦[(slot6).view.set]{fullShare} f))
def invIn7 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot7).view.loc (thr d L) ↦[(slot7).view.set]{fullShare} f))
def invIn8 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot8).view.loc (thr d L) ↦[(slot8).view.set]{fullShare} f))
def invIn9 (d : Dev nD) (L : grid0.Coords) (P : Buf (Elt F) ((thr d L).loc cc0_scratch0)) (_ : Nat) (_ : Unit) : sProp 𝕄 :=
  iprop(((s6).view.loc (thr d L) ↦{fullShare} P) ∗ ∃ f, ((slot9).view.loc (thr d L) ↦[(slot9).view.set]{fullShare} f))

theorem waits_step {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

end Cert.Proof.KB
end
-- ==== Proof.KBVal.lean ====
/-
  What a gather leaves in a slot, as a function of the table and of the window of index words it reads: row r of the
  slot is the table's row named by the window's r-th word.
-/
import proofs.«206279_g3710851744293_cont_8to1_b_253_31_alg».proof.Proof.KBInner2
import proofs.«206279_g3710851744293_cont_8to1_b_253_31_alg».proof.Proof.KBLoopIn
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-- The forty table rows named by the window of index words at `off`. -/
def Gw (d : Dev nD) (L : grid0.Coords) (ft : Buf (Elt F) ((thr d L).loc main_arg1_scv)) (I : Buf (Elt F) ((thr d L).loc cc0_scratch1))
    (off : Fin 1 → ℕ) (h : ∀ a, off a + S40.size a ≤ S25600.size a) : S40x128.Idx → F .f32 :=
  fun y => ft (ValueIdx.ix2 (n0 := 100000) (n1 := 128)
    (Cert.Spec.rowOf ((win' off h).view.read (Elt F) I (ValueIdx.ix1 (n := 40) (y 0)))) (y 1))

end Cert.Proof.KB
end
-- ==== Proof.KBBooks.lean ====
/-
  The books a tile keeps over the main loop: which windows of its index buffer and which chunks of its rows of the
  result it holds outside the transfers in flight.  Windows below `a` have been gathered from and are back; windows
  from `b` on have not been used yet; chunks below `c` have been written and hold the contents `fd`; chunks from `e` on are
  untouched.  Between them lie the windows and chunks the transfers in flight hold.
-/
import proofs.«206279_g3710851744293_cont_8to1_b_253_31_alg».proof.Proof.KBInv2
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-- Window `q` of the index buffer held at contents `I`. -/
def Wn (d : Dev nD) (L : grid0.Coords) (I : Buf (Elt F) ((thr d L).loc cc0_scratch1)) (q : Fin 640) : sProp 𝕄 :=
  ((winq q).view.loc (thr d L) ↦[(winq q).view.set]{fullShare} I)
/-- Chunk `q` of the tile's rows of the result held at contents `f`. -/
def On (d : Dev nD) (L : grid0.Coords) (f : Buf (Elt F) ((thr d L).loc main_v2_scv)) (q : Fin 640) : sProp 𝕄 :=
  ((ochq L q).view.loc (thr d L) ↦[(ochq L q).view.set]{fullShare} f)
def Books (d : Dev nD) (L : grid0.Coords) (I : Buf (Elt F) ((thr d L).loc cc0_scratch1)) (fo fd : Buf (Elt F) ((thr d L).loc main_v2_scv))
    (a b c e : ℕ) : sProp 𝕄 :=
  iprop(BI.bigSep (Finset.univ.filter fun q : Fin 640 => q.val < a) (Wn d L I)
    ∗ BI.bigSep (Finset.univ.filter fun q : Fin 640 => b ≤ q.val) (Wn d L I)
    ∗ BI.bigSep (Finset.univ.filter fun q : Fin 640 => q.val < c) (On d L fd)
    ∗ BI.bigSep (Finset.univ.filter fun q : Fin 640 => e ≤ q.val) (On d L fo))

end Cert.Proof.KB
end
-- ==== Proof.KBRing.lean ====
/-
  The invariant of the main loop.  Besides the books (KIBooks) a tile holds, at the start of trip k: the positional
  table in its scratch; six read shares of the embedding table (five lent to the gathers in flight, which are those
  of chunks 10 k … 10 k + 4 into slots 0 … 4); for k ≥ 1 the write-outs of chunks 10 k - 5 … 10 k - 2 in flight from
  slots 5 … 8 and chunk 10 k - 1 computed in slot 9; and what each slot and each chunk in flight will read.
-/
import proofs.«206279_g3710851744293_cont_8to1_b_253_31_alg».proof.Proof.KBVal
import proofs.«206279_g3710851744293_cont_8to1_b_253_31_alg».proof.Proof.KBBooks
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

theorem conds_first : ∀ k : Fin k0_t1_loop.trips, k.val = 0 → (k0_cond2 k = 1#1 ∧ k0_cond4 k = 1#1 ∧ k0_cond5 k = 1#1 ∧ k0_cond7 k = 1#1 ∧ k0_cond8 k = 1#1 ∧ k0_cond10 k = 1#1 ∧ k0_cond11 k = 1#1 ∧ k0_cond13 k = 1#1 ∧ k0_cond14 k = 1#1 ∧ k0_cond16 k = 1#1 ∧ k0_cond17 k = 1#1 ∧ k0_cond18 k = 1#1 ∧ k0_cond19 k = 1#1 ∧ k0_cond20 k = 1#1 ∧ k0_cond21 k = 1#1 ∧ k0_cond22 k = 1#1 ∧ k0_cond23 k = 1#1 ∧ k0_cond24 k = 1#1 ∧ k0_cond25 k = 1#1 ∧ k0_cond26 k = 1#1 ∧ k0_cond27 k = 1#1 ∧ k0_cond28 k = 1#1 ∧ k0_cond29 k = 1#1 ∧ k0_cond30 k = 1#1) ∧ (¬ k0_cond1 k = 1#1 ∧ ¬ k0_cond3 k = 1#1 ∧ ¬ k0_cond6 k = 1#1 ∧ ¬ k0_cond9 k = 1#1 ∧ ¬ k0_cond12 k = 1#1 ∧ ¬ k0_cond15 k = 1#1) := by decide +kernel
theorem conds_mid : ∀ k : Fin k0_t1_loop.trips, 1 ≤ k.val → k.val ≤ 62 → k0_cond1 k = 1#1 ∧ k0_cond2 k = 1#1 ∧ k0_cond3 k = 1#1 ∧ k0_cond4 k = 1#1 ∧ k0_cond5 k = 1#1 ∧ k0_cond6 k = 1#1 ∧ k0_cond7 k = 1#1 ∧ k0_cond8 k = 1#1 ∧ k0_cond9 k = 1#1 ∧ k0_cond10 k = 1#1 ∧ k0_cond11 k = 1#1 ∧ k0_cond12 k = 1#1 ∧ k0_cond13 k = 1#1 ∧ k0_cond14 k = 1#1 ∧ k0_cond15 k = 1#1 ∧ k0_cond16 k = 1#1 ∧ k0_cond17 k = 1#1 ∧ k0_cond18 k = 1#1 ∧ k0_cond19 k = 1#1 ∧ k0_cond20 k = 1#1 ∧ k0_cond21 k = 1#1 ∧ k0_cond22 k = 1#1 ∧ k0_cond23 k = 1#1 ∧ k0_cond24 k = 1#1 ∧ k0_cond25 k = 1#1 ∧ k0_cond26 k = 1#1 ∧ k0_cond27 k = 1#1 ∧ k0_cond28 k = 1#1 ∧ k0_cond29 k = 1#1 ∧ k0_cond30 k = 1#1 := by decide +kernel
theorem conds_last : ∀ k : Fin k0_t1_loop.trips, k.val = 63 → (k0_cond1 k = 1#1 ∧ k0_cond2 k = 1#1 ∧ k0_cond3 k = 1#1 ∧ k0_cond4 k = 1#1 ∧ k0_cond5 k = 1#1 ∧ k0_cond6 k = 1#1 ∧ k0_cond7 k = 1#1 ∧ k0_cond8 k = 1#1 ∧ k0_cond9 k = 1#1 ∧ k0_cond10 k = 1#1 ∧ k0_cond11 k = 1#1 ∧ k0_cond12 k = 1#1 ∧ k0_cond13 k = 1#1 ∧ k0_cond14 k = 1#1 ∧ k0_cond15 k = 1#1 ∧ k0_cond16 k = 1#1 ∧ k0_cond19 k = 1#1 ∧ k0_cond22 k = 1#1 ∧ k0_cond25 k = 1#1 ∧ k0_cond28 k = 1#1) ∧ (¬ k0_cond17 k = 1#1 ∧ ¬ k0_cond20 k = 1#1 ∧ ¬ k0_cond23 k = 1#1 ∧ ¬ k0_cond26 k = 1#1 ∧ ¬ k0_cond29 k = 1#1) := by decide +kernel
theorem conds_le62 : ∀ k : Fin k0_t1_loop.trips, k.val ≤ 62 → k0_cond2 k = 1#1 ∧ k0_cond5 k = 1#1 ∧ k0_cond8 k = 1#1 ∧ k0_cond11 k = 1#1 ∧ k0_cond14 k = 1#1 ∧ k0_cond17 k = 1#1 ∧ k0_cond20 k = 1#1 ∧ k0_cond23 k = 1#1 ∧ k0_cond26 k = 1#1 ∧ k0_cond29 k = 1#1 ∧ k0_cond19 k = 1#1 ∧ k0_cond22 k = 1#1 ∧ k0_cond25 k = 1#1 ∧ k0_cond28 k = 1#1 := by decide +kernel
theorem conds_63 : ∀ k : Fin k0_t1_loop.trips, k.val = 63 → k0_cond1 k = 1#1 ∧ k0_cond4 k = 1#1 ∧ k0_cond7 k = 1#1 ∧ k0_cond10 k = 1#1 ∧ k0_cond13 k = 1#1 ∧ k0_cond16 k = 1#1 ∧ k0_cond19 k = 1#1 ∧ k0_cond22 k = 1#1 ∧ k0_cond25 k = 1#1 ∧ k0_cond28 k = 1#1 ∧ k0_cond2 k = 1#1 ∧ k0_cond5 k = 1#1 ∧ k0_cond8 k = 1#1 ∧ k0_cond11 k = 1#1 ∧ k0_cond14 k = 1#1 := by decide +kernel
theorem c2 (k : Fin k0_t1_loop.trips) (hk : k.val ≤ 62) : k0_cond2 k = 1#1 := by have h := conds_le62 k hk; exact h.1
theorem c5 (k : Fin k0_t1_loop.trips) (hk : k.val ≤ 62) : k0_cond5 k = 1#1 := by have h := conds_le62 k hk; exact h.2.1
theorem c8 (k : Fin k0_t1_loop.trips) (hk : k.val ≤ 62) : k0_cond8 k = 1#1 := by have h := conds_le62 k hk; exact h.2.2.1
theorem c11 (k : Fin k0_t1_loop.trips) (hk : k.val ≤ 62) : k0_cond11 k = 1#1 := by have h := conds_le62 k hk; exact h.2.2.2.1
theorem c14 (k : Fin k0_t1_loop.trips) (hk : k.val ≤ 62) : k0_cond14 k = 1#1 := by have h := conds_le62 k hk; exact h.2.2.2.2.1
theorem c17 (k : Fin k0_t1_loop.trips) (hk : k.val ≤ 62) : k0_cond17 k = 1#1 := by have h := conds_le62 k hk; exact h.2.2.2.2.2.1
theorem c20 (k : Fin k0_t1_loop.trips) (hk : k.val ≤ 62) : k0_cond20 k = 1#1 := by have h := conds_le62 k hk; exact h.2.2.2.2.2.2.1
theorem c23 (k : Fin k0_t1_loop.trips) (hk : k.val ≤ 62) : k0_cond23 k = 1#1 := by have h := conds_le62 k hk; exact h.2.2.2.2.2.2.2.1
theorem c26 (k : Fin k0_t1_loop.trips) (hk : k.val ≤ 62) : k0_cond26 k = 1#1 := by have h := conds_le62 k hk; exact h.2.2.2.2.2.2.2.2.1
theorem c29 (k : Fin k0_t1_loop.trips) (hk : k.val ≤ 62) : k0_cond29 k = 1#1 := by have h := conds_le62 k hk; exact h.2.2.2.2.2.2.2.2.2.1
theorem c19 (k : Fin k0_t1_loop.trips) (hk : k.val ≤ 62) : k0_cond19 k = 1#1 := by have h := conds_le62 k hk; exact h.2.2.2.2.2.2.2.2.2.2.1
theorem c22 (k : Fin k0_t1_loop.trips) (hk : k.val ≤ 62) : k0_cond22 k = 1#1 := by have h := conds_le62 k hk; exact h.2.2.2.2.2.2.2.2.2.2.2.1
theorem c25 (k : Fin k0_t1_loop.trips) (hk : k.val ≤ 62) : k0_cond25 k = 1#1 := by have h := conds_le62 k hk; exact h.2.2.2.2.2.2.2.2.2.2.2.2.1
theorem c28 (k : Fin k0_t1_loop.trips) (hk : k.val ≤ 62) : k0_cond28 k = 1#1 := by have h := conds_le62 k hk; exact h.2.2.2.2.2.2.2.2.2.2.2.2.2
theorem e1 (k : Fin k0_t1_loop.trips) (hk : k.val = 63) : k0_cond1 k = 1#1 := by have h := conds_63 k hk; exact h.1
theorem e4 (k : Fin k0_t1_loop.trips) (hk : k.val = 63) : k0_cond4 k = 1#1 := by have h := conds_63 k hk; exact h.2.1
theorem e7 (k : Fin k0_t1_loop.trips) (hk : k.val = 63) : k0_cond7 k = 1#1 := by have h := conds_63 k hk; exact h.2.2.1
theorem e10 (k : Fin k0_t1_loop.trips) (hk : k.val = 63) : k0_cond10 k = 1#1 := by have h := conds_63 k hk; exact h.2.2.2.1
theorem e13 (k : Fin k0_t1_loop.trips) (hk : k.val = 63) : k0_cond13 k = 1#1 := by have h := conds_63 k hk; exact h.2.2.2.2.1
theorem e16 (k : Fin k0_t1_loop.trips) (hk : k.val = 63) : k0_cond16 k = 1#1 := by have h := conds_63 k hk; exact h.2.2.2.2.2.1
theorem e19 (k : Fin k0_t1_loop.trips) (hk : k.val = 63) : k0_cond19 k = 1#1 := by have h := conds_63 k hk; exact h.2.2.2.2.2.2.1
theorem e22 (k : Fin k0_t1_loop.trips) (hk : k.val = 63) : k0_cond22 k = 1#1 := by have h := conds_63 k hk; exact h.2.2.2.2.2.2.2.1
theorem e25 (k : Fin k0_t1_loop.trips) (hk : k.val = 63) : k0_cond25 k = 1#1 := by have h := conds_63 k hk; exact h.2.2.2.2.2.2.2.2.1
theorem e28 (k : Fin k0_t1_loop.trips) (hk : k.val = 63) : k0_cond28 k = 1#1 := by have h := conds_63 k hk; exact h.2.2.2.2.2.2.2.2.2.1
theorem e2 (k : Fin k0_t1_loop.trips) (hk : k.val = 63) : k0_cond2 k = 1#1 := by have h := conds_63 k hk; exact h.2.2.2.2.2.2.2.2.2.2.1
theorem e5 (k : Fin k0_t1_loop.trips) (hk : k.val = 63) : k0_cond5 k = 1#1 := by have h := conds_63 k hk; exact h.2.2.2.2.2.2.2.2.2.2.2.1
theorem e8 (k : Fin k0_t1_loop.trips) (hk : k.val = 63) : k0_cond8 k = 1#1 := by have h := conds_63 k hk; exact h.2.2.2.2.2.2.2.2.2.2.2.2.1
theorem e11 (k : Fin k0_t1_loop.trips) (hk : k.val = 63) : k0_cond11 k = 1#1 := by have h := conds_63 k hk; exact h.2.2.2.2.2.2.2.2.2.2.2.2.2.1
theorem e14 (k : Fin k0_t1_loop.trips) (hk : k.val = 63) : k0_cond14 k = 1#1 := by have h := conds_63 k hk; exact h.2.2.2.2.2.2.2.2.2.2.2.2.2.2
theorem hgw0 : ∀ a, (![0] : Fin 1 → ℕ) a + S40.size a ≤ S25600.size a := by decide
theorem hgw1 : ∀ a, (![40] : Fin 1 → ℕ) a + S40.size a ≤ S25600.size a := by decide
theorem hgw2 : ∀ a, (![80] : Fin 1 → ℕ) a + S40.size a ≤ S25600.size a := by decide
theorem hgw3 : ∀ a, (![120] : Fin 1 → ℕ) a + S40.size a ≤ S25600.size a := by decide
theorem hgw4 : ∀ a, (![160] : Fin 1 → ℕ) a + S40.size a ≤ S25600.size a := by decide

/-- The trips as numbers of the loop: 62 and 63. -/
def k62 : Fin k0_t1_loop.trips := ⟨62, by decide⟩
def k63 : Fin k0_t1_loop.trips := ⟨63, by decide⟩

/-- Six read shares of the embedding table that join to the tile's token. -/
def ShJoin (d : Dev nD) (L : grid0.Coords) (q0 q1 q2 q3 q4 q5 : PosShare TreeShare) : Prop :=
  ∀ ft : Buf (Elt F) ((thr d L).loc main_arg1_scv),
    (iprop(((tV).view.loc (thr d L) ↦{q0} ft) ∗ ((tV).view.loc (thr d L) ↦{q1} ft) ∗ ((tV).view.loc (thr d L) ↦{q2} ft)
      ∗ ((tV).view.loc (thr d L) ↦{q3} ft) ∗ ((tV).view.loc (thr d L) ↦{q4} ft) ∗ ((tV).view.loc (thr d L) ↦{q5} ft)) : sProp 𝕄)
      ⊢ ((tV).view.loc (thr d L) ↦{tok (wid L)} ft)

section
variable (d : Dev nD) (L : grid0.Coords) (ft : Buf (Elt F) ((thr d L).loc main_arg1_scv))
  (I : Buf (Elt F) ((thr d L).loc cc0_scratch1)) (P : Buf (Elt F) ((thr d L).loc cc0_scratch0))

/-- Before the first trip. -/
def Ring0 : sProp 𝕄 :=
  iprop(∃ (q0 q1 q2 q3 q4 q5 : PosShare TreeShare) (X5 X6 X7 X8 X9 Xg0 Xg1 Xg2 Xg3 Xg4 : Buf (Elt F) ((thr d L).loc cc0_scratch2)),
    ⌜ShJoin (F := F) d L q0 q1 q2 q3 q4 q5⌝
    ∗ ((tV).view.loc (thr d L) ↦{q5} ft)
    ∗ ((slot5).view.loc (thr d L) ↦[(slot5).view.set]{fullShare} X5)
    ∗ ((slot6).view.loc (thr d L) ↦[(slot6).view.set]{fullShare} X6)
    ∗ ((slot7).view.loc (thr d L) ↦[(slot7).view.set]{fullShare} X7)
    ∗ ((slot8).view.loc (thr d L) ↦[(slot8).view.set]{fullShare} X8)
    ∗ ((slot9).view.loc (thr d L) ↦[(slot9).view.set]{fullShare} X9)
    ∗ semVal ((thr d L, SemLoc.dma cc0_scratch13.sem) : GSem nD τ sig) 0
    ∗ semVal ((thr d L, SemLoc.dma cc0_scratch14.sem) : GSem nD τ sig) 0
    ∗ semVal ((thr d L, SemLoc.dma cc0_scratch15.sem) : GSem nD τ sig) 0
    ∗ semVal ((thr d L, SemLoc.dma cc0_scratch16.sem) : GSem nD τ sig) 0
    ∗ semVal ((thr d L, SemLoc.dma cc0_scratch17.sem) : GSem nD τ sig) 0
    ∗ semVal ((thr d L, SemLoc.dma cc0_scratch18.sem) : GSem nD τ sig) 0
    ∗ semVal ((thr d L, SemLoc.dma cc0_scratch19.sem) : GSem nD τ sig) 0
    ∗ semVal ((thr d L, SemLoc.dma cc0_scratch20.sem) : GSem nD τ sig) 0
    ∗ semVal ((thr d L, SemLoc.dma cc0_scratch21.sem) : GSem nD τ sig) 0
    ∗ semVal ((thr d L, SemLoc.dma cc0_scratch22.sem) : GSem nD τ sig) 0
    ∗ semVal ((thr d L, SemLoc.dma cc0_scratch8.sem) : GSem nD τ sig) 0
    ∗ semVal ((thr d L, SemLoc.dma cc0_scratch9.sem) : GSem nD τ sig) 0
    ∗ semVal ((thr d L, SemLoc.dma cc0_scratch10.sem) : GSem nD τ sig) 0
    ∗ semVal ((thr d L, SemLoc.dma cc0_scratch11.sem) : GSem nD τ sig) 0
    ∗ semVal ((thr d L, SemLoc.dma cc0_scratch12.sem) : GSem nD τ sig) 0
    ∗ Transfers.Flight countersEmb (thr d L) (SemLoc.dma cc0_scratch3.sem) default 163840
            iprop((((slot0).view.loc (thr d L) ↦[(slot0).view.set]{fullShare} Xg0) ∗ ((win' ![0] hgw0).view.loc (thr d L) ↦[(win' ![0] hgw0).view.set]{fullShare} I))
              ∗ ((tV).view.loc (thr d L) ↦[(tW).view.set]{q0} ft))
    ∗ ((tV).view.loc (thr d L) ↦[Finset.univ \ (tW).view.set]{q0} ft)
    ∗ Transfers.Flight countersEmb (thr d L) (SemLoc.dma cc0_scratch4.sem) default 163840
            iprop((((slot1).view.loc (thr d L) ↦[(slot1).view.set]{fullShare} Xg1) ∗ ((win' ![40] hgw1).view.loc (thr d L) ↦[(win' ![40] hgw1).view.set]{fullShare} I))
              ∗ ((tV).view.loc (thr d L) ↦[(tW).view.set]{q1} ft))
    ∗ ((tV).view.loc (thr d L) ↦[Finset.univ \ (tW).view.set]{q1} ft)
    ∗ Transfers.Flight countersEmb (thr d L) (SemLoc.dma cc0_scratch5.sem) default 163840
            iprop((((slot2).view.loc (thr d L) ↦[(slot2).view.set]{fullShare} Xg2) ∗ ((win' ![80] hgw2).view.loc (thr d L) ↦[(win' ![80] hgw2).view.set]{fullShare} I))
              ∗ ((tV).view.loc (thr d L) ↦[(tW).view.set]{q2} ft))
    ∗ ((tV).view.loc (thr d L) ↦[Finset.univ \ (tW).view.set]{q2} ft)
    ∗ Transfers.Flight countersEmb (thr d L) (SemLoc.dma cc0_scratch6.sem) default 163840
            iprop((((slot3).view.loc (thr d L) ↦[(slot3).view.set]{fullShare} Xg3) ∗ ((win' ![120] hgw3).view.loc (thr d L) ↦[(win' ![120] hgw3).view.set]{fullShare} I))
              ∗ ((tV).view.loc (thr d L) ↦[(tW).view.set]{q3} ft))
    ∗ ((tV).view.loc (thr d L) ↦[Finset.univ \ (tW).view.set]{q3} ft)
    ∗ Transfers.Flight countersEmb (thr d L) (SemLoc.dma cc0_scratch7.sem) default 163840
            iprop((((slot4).view.loc (thr d L) ↦[(slot4).view.set]{fullShare} Xg4) ∗ ((win' ![160] hgw4).view.loc (thr d L) ↦[(win' ![160] hgw4).view.set]{fullShare} I))
              ∗ ((tV).view.loc (thr d L) ↦[(tW).view.set]{q4} ft))
    ∗ ((tV).view.loc (thr d L) ↦[Finset.univ \ (tW).view.set]{q4} ft)
    ∗ ⌜(slot0).view.read (Elt F) Xg0 = Gw d L ft I ![0] hgw0⌝
    ∗ ⌜(slot1).view.read (Elt F) Xg1 = Gw d L ft I ![40] hgw1⌝
    ∗ ⌜(slot2).view.read (Elt F) Xg2 = Gw d L ft I ![80] hgw2⌝
    ∗ ⌜(slot3).view.read (Elt F) Xg3 = Gw d L ft I ![120] hgw3⌝
    ∗ ⌜(slot4).view.read (Elt F) Xg4 = Gw d L ft I ![160] hgw4⌝)

/-- After trip `k` (0 ≤ k ≤ 62), in the spelling the printed program gives that trip's rectangles. -/
def RingMid (k : Fin k0_t1_loop.trips) : sProp 𝕄 :=
  if hk : k.val ≤ 62 then
    iprop(∃ (q0 q1 q2 q3 q4 q5 : PosShare TreeShare) (Y0 Y1 Y2 Y3 Y4 Z5 Z6 Z7 Z8 X9 : Buf (Elt F) ((thr d L).loc cc0_scratch2))
        (g5 g6 g7 g8 : Buf (Elt F) ((thr d L).loc main_v2_scv)),
      ⌜ShJoin (F := F) d L q0 q1 q2 q3 q4 q5⌝
      ∗ ((tV).view.loc (thr d L) ↦{q5} ft)
      ∗ ((slot9).view.loc (thr d L) ↦[(slot9).view.set]{fullShare} X9)
      ∗ semVal ((thr d L, SemLoc.dma cc0_scratch22.sem) : GSem nD τ sig) 0
      ∗ semVal ((thr d L, SemLoc.dma cc0_scratch13.sem) : GSem nD τ sig) 0
      ∗ semVal ((thr d L, SemLoc.dma cc0_scratch14.sem) : GSem nD τ sig) 0
      ∗ semVal ((thr d L, SemLoc.dma cc0_scratch15.sem) : GSem nD τ sig) 0
      ∗ semVal ((thr d L, SemLoc.dma cc0_scratch16.sem) : GSem nD τ sig) 0
      ∗ semVal ((thr d L, SemLoc.dma cc0_scratch17.sem) : GSem nD τ sig) 0
      ∗ semVal ((thr d L, SemLoc.dma cc0_scratch8.sem) : GSem nD τ sig) 0
      ∗ semVal ((thr d L, SemLoc.dma cc0_scratch9.sem) : GSem nD τ sig) 0
      ∗ semVal ((thr d L, SemLoc.dma cc0_scratch10.sem) : GSem nD τ sig) 0
      ∗ semVal ((thr d L, SemLoc.dma cc0_scratch11.sem) : GSem nD τ sig) 0
      ∗ semVal ((thr d L, SemLoc.dma cc0_scratch12.sem) : GSem nD τ sig) 0
      ∗ Transfers.Flight countersEmb (thr d L) (SemLoc.dma cc0_scratch3.sem) default 163840
            iprop((((slot0).view.loc (thr d L) ↦[(slot0).view.set]{fullShare} Y0) ∗ ((win' (k0_off100 k) (k0_off100_inb k (c17 k hk))).view.loc (thr d L) ↦[(win' (k0_off100 k) (k0_off100_inb k (c17 k hk))).view.set]{fullShare} I))
              ∗ ((tV).view.loc (thr d L) ↦[(tW).view.set]{q0} ft))
      ∗ ((tV).view.loc (thr d L) ↦[Finset.univ \ (tW).view.set]{q0} ft)
      ∗ Transfers.Flight countersEmb (thr d L) (SemLoc.dma cc0_scratch4.sem) default 163840
            iprop((((slot1).view.loc (thr d L) ↦[(slot1).view.set]{fullShare} Y1) ∗ ((win' (k0_off119 k) (k0_off119_inb k (c20 k hk))).view.loc (thr d L) ↦[(win' (k0_off119 k) (k0_off119_inb k (c20 k hk))).view.set]{fullShare} I))
              ∗ ((tV).view.loc (thr d L) ↦[(tW).view.set]{q1} ft))
      ∗ ((tV).view.loc (thr d L) ↦[Finset.univ \ (tW).view.set]{q1} ft)
      ∗ Transfers.Flight countersEmb (thr d L) (SemLoc.dma cc0_scratch5.sem) default 163840
            iprop((((slot2).view.loc (thr d L) ↦[(slot2).view.set]{fullShare} Y2) ∗ ((win' (k0_off138 k) (k0_off138_inb k (c23 k hk))).view.loc (thr d L) ↦[(win' (k0_off138 k) (k0_off138_inb k (c23 k hk))).view.set]{fullShare} I))
              ∗ ((tV).view.loc (thr d L) ↦[(tW).view.set]{q2} ft))
      ∗ ((tV).view.loc (thr d L) ↦[Finset.univ \ (tW).view.set]{q2} ft)
      ∗ Transfers.Flight countersEmb (thr d L) (SemLoc.dma cc0_scratch6.sem) default 163840
            iprop((((slot3).view.loc (thr d L) ↦[(slot3).view.set]{fullShare} Y3) ∗ ((win' (k0_off157 k) (k0_off157_inb k (c26 k hk))).view.loc (thr d L) ↦[(win' (k0_off157 k) (k0_off157_inb k (c26 k hk))).view.set]{fullShare} I))
              ∗ ((tV).view.loc (thr d L) ↦[(tW).view.set]{q3} ft))
      ∗ ((tV).view.loc (thr d L) ↦[Finset.univ \ (tW).view.set]{q3} ft)
      ∗ Transfers.Flight countersEmb (thr d L) (SemLoc.dma cc0_scratch7.sem) default 163840
            iprop((((slot4).view.loc (thr d L) ↦[(slot4).view.set]{fullShare} Y4) ∗ ((win' (k0_off176 k) (k0_off176_inb k (c29 k hk))).view.loc (thr d L) ↦[(win' (k0_off176 k) (k0_off176_inb k (c29 k hk))).view.set]{fullShare} I))
              ∗ ((tV).view.loc (thr d L) ↦[(tW).view.set]{q4} ft))
      ∗ ((tV).view.loc (thr d L) ↦[Finset.univ \ (tW).view.set]{q4} ft)
      ∗ Transfers.Flight countersEmb (thr d L) (SemLoc.dma cc0_scratch18.sem) default 163840
            iprop(((och' (k0_off117 L k) (k0_off117_inb L k (c19 k hk))).view.loc (thr d L) ↦[(och' (k0_off117 L k) (k0_off117_inb L k (c19 k hk))).view.set]{fullShare} g5) ∗ ((slot5).view.loc (thr d L) ↦[(slot5).view.set]{fullShare} Z5))
      ∗ Transfers.Flight countersEmb (thr d L) (SemLoc.dma cc0_scratch19.sem) default 163840
            iprop(((och' (k0_off136 L k) (k0_off136_inb L k (c22 k hk))).view.loc (thr d L) ↦[(och' (k0_off136 L k) (k0_off136_inb L k (c22 k hk))).view.set]{fullShare} g6) ∗ ((slot6).view.loc (thr d L) ↦[(slot6).view.set]{fullShare} Z6))
      ∗ Transfers.Flight countersEmb (thr d L) (SemLoc.dma cc0_scratch20.sem) default 163840
            iprop(((och' (k0_off155 L k) (k0_off155_inb L k (c25 k hk))).view.loc (thr d L) ↦[(och' (k0_off155 L k) (k0_off155_inb L k (c25 k hk))).view.set]{fullShare} g7) ∗ ((slot7).view.loc (thr d L) ↦[(slot7).view.set]{fullShare} Z7))
      ∗ Transfers.Flight countersEmb (thr d L) (SemLoc.dma cc0_scratch21.sem) default 163840
            iprop(((och' (k0_off174 L k) (k0_off174_inb L k (c28 k hk))).view.loc (thr d L) ↦[(och' (k0_off174 L k) (k0_off174_inb L k (c28 k hk))).view.set]{fullShare} g8) ∗ ((slot8).view.loc (thr d L) ↦[(slot8).view.set]{fullShare} Z8))
      ∗ ⌜(slot9).view.read (Elt F) X9 = rowOp 4 P (Gw d L ft I (k0_off81 k) (k0_off81_inb k (c14 k hk)))⌝
      ∗ ⌜(slot0).view.read (Elt F) Y0 = Gw d L ft I (k0_off100 k) (k0_off100_inb k (c17 k hk))⌝
      ∗ ⌜(slot1).view.read (Elt F) Y1 = Gw d L ft I (k0_off119 k) (k0_off119_inb k (c20 k hk))⌝
      ∗ ⌜(slot2).view.read (Elt F) Y2 = Gw d L ft I (k0_off138 k) (k0_off138_inb k (c23 k hk))⌝
      ∗ ⌜(slot3).view.read (Elt F) Y3 = Gw d L ft I (k0_off157 k) (k0_off157_inb k (c26 k hk))⌝
      ∗ ⌜(slot4).view.read (Elt F) Y4 = Gw d L ft I (k0_off176 k) (k0_off176_inb k (c29 k hk))⌝
      ∗ ⌜(och' (k0_off117 L k) (k0_off117_inb L k (c19 k hk))).view.read (Elt F) g5 = rowOp 0 P (Gw d L ft I (k0_off4 k) (k0_off4_inb k (c2 k hk)))⌝
      ∗ ⌜(och' (k0_off136 L k) (k0_off136_inb L k (c22 k hk))).view.read (Elt F) g6 = rowOp 1 P (Gw d L ft I (k0_off24 k) (k0_off24_inb k (c5 k hk)))⌝
      ∗ ⌜(och' (k0_off155 L k) (k0_off155_inb L k (c25 k hk))).view.read (Elt F) g7 = rowOp 2 P (Gw d L ft I (k0_off43 k) (k0_off43_inb k (c8 k hk)))⌝
      ∗ ⌜(och' (k0_off174 L k) (k0_off174_inb L k (c28 k hk))).view.read (Elt F) g8 = rowOp 3 P (Gw d L ft I (k0_off62 k) (k0_off62_inb k (c11 k hk)))⌝)
  else iprop(False)

/-- After the last trip. -/
def RingEnd : sProp 𝕄 :=
  iprop(∃ (q0 q1 q2 q3 q4 q5 : PosShare TreeShare) (Z0 Z1 Z2 Z3 Z4 Z5 Z6 Z7 Z8 X9 : Buf (Elt F) ((thr d L).loc cc0_scratch2))
      (g0 g1 g2 g3 g4 g5 g6 g7 g8 : Buf (Elt F) ((thr d L).loc main_v2_scv)),
    ⌜ShJoin (F := F) d L q0 q1 q2 q3 q4 q5⌝
    ∗ ((tV).view.loc (thr d L) ↦{q0} ft)
    ∗ ((tV).view.loc (thr d L) ↦{q1} ft)
    ∗ ((tV).view.loc (thr d L) ↦{q2} ft)
    ∗ ((tV).view.loc (thr d L) ↦{q3} ft)
    ∗ ((tV).view.loc (thr d L) ↦{q4} ft)
    ∗ ((tV).view.loc (thr d L) ↦{q5} ft)
    ∗ ((slot9).view.loc (thr d L) ↦[(slot9).view.set]{fullShare} X9)
    ∗ semVal ((thr d L, SemLoc.dma cc0_scratch22.sem) : GSem nD τ sig) 0
    ∗ semVal ((thr d L, SemLoc.dma cc0_scratch3.sem) : GSem nD τ sig) 0
    ∗ semVal ((thr d L, SemLoc.dma cc0_scratch4.sem) : GSem nD τ sig) 0
    ∗ semVal ((thr d L, SemLoc.dma cc0_scratch5.sem) : GSem nD τ sig) 0
    ∗ semVal ((thr d L, SemLoc.dma cc0_scratch6.sem) : GSem nD τ sig) 0
    ∗ semVal ((thr d L, SemLoc.dma cc0_scratch7.sem) : GSem nD τ sig) 0
    ∗ semVal ((thr d L, SemLoc.dma cc0_scratch8.sem) : GSem nD τ sig) 0
    ∗ semVal ((thr d L, SemLoc.dma cc0_scratch9.sem) : GSem nD τ sig) 0
    ∗ semVal ((thr d L, SemLoc.dma cc0_scratch10.sem) : GSem nD τ sig) 0
    ∗ semVal ((thr d L, SemLoc.dma cc0_scratch11.sem) : GSem nD τ sig) 0
    ∗ semVal ((thr d L, SemLoc.dma cc0_scratch12.sem) : GSem nD τ sig) 0
    ∗ Transfers.Flight countersEmb (thr d L) (SemLoc.dma cc0_scratch13.sem) default 163840
            iprop(((och' (k0_off22 L k63) (k0_off22_inb L k63 (e4 k63 rfl))).view.loc (thr d L) ↦[(och' (k0_off22 L k63) (k0_off22_inb L k63 (e4 k63 rfl))).view.set]{fullShare} g0) ∗ ((slot0).view.loc (thr d L) ↦[(slot0).view.set]{fullShare} Z0))
    ∗ Transfers.Flight countersEmb (thr d L) (SemLoc.dma cc0_scratch14.sem) default 163840
            iprop(((och' (k0_off41 L k63) (k0_off41_inb L k63 (e7 k63 rfl))).view.loc (thr d L) ↦[(och' (k0_off41 L k63) (k0_off41_inb L k63 (e7 k63 rfl))).view.set]{fullShare} g1) ∗ ((slot1).view.loc (thr d L) ↦[(slot1).view.set]{fullShare} Z1))
    ∗ Transfers.Flight countersEmb (thr d L) (SemLoc.dma cc0_scratch15.sem) default 163840
            iprop(((och' (k0_off60 L k63) (k0_off60_inb L k63 (e10 k63 rfl))).view.loc (thr d L) ↦[(och' (k0_off60 L k63) (k0_off60_inb L k63 (e10 k63 rfl))).view.set]{fullShare} g2) ∗ ((slot2).view.loc (thr d L) ↦[(slot2).view.set]{fullShare} Z2))
    ∗ Transfers.Flight countersEmb (thr d L) (SemLoc.dma cc0_scratch16.sem) default 163840
            iprop(((och' (k0_off79 L k63) (k0_off79_inb L k63 (e13 k63 rfl))).view.loc (thr d L) ↦[(och' (k0_off79 L k63) (k0_off79_inb L k63 (e13 k63 rfl))).view.set]{fullShare} g3) ∗ ((slot3).view.loc (thr d L) ↦[(slot3).view.set]{fullShare} Z3))
    ∗ Transfers.Flight countersEmb (thr d L) (SemLoc.dma cc0_scratch17.sem) default 163840
            iprop(((och' (k0_off98 L k63) (k0_off98_inb L k63 (e16 k63 rfl))).view.loc (thr d L) ↦[(och' (k0_off98 L k63) (k0_off98_inb L k63 (e16 k63 rfl))).view.set]{fullShare} g4) ∗ ((slot4).view.loc (thr d L) ↦[(slot4).view.set]{fullShare} Z4))
    ∗ Transfers.Flight countersEmb (thr d L) (SemLoc.dma cc0_scratch18.sem) default 163840
            iprop(((och' (k0_off117 L k63) (k0_off117_inb L k63 (e19 k63 rfl))).view.loc (thr d L) ↦[(och' (k0_off117 L k63) (k0_off117_inb L k63 (e19 k63 rfl))).view.set]{fullShare} g5) ∗ ((slot5).view.loc (thr d L) ↦[(slot5).view.set]{fullShare} Z5))
    ∗ Transfers.Flight countersEmb (thr d L) (SemLoc.dma cc0_scratch19.sem) default 163840
            iprop(((och' (k0_off136 L k63) (k0_off136_inb L k63 (e22 k63 rfl))).view.loc (thr d L) ↦[(och' (k0_off136 L k63) (k0_off136_inb L k63 (e22 k63 rfl))).view.set]{fullShare} g6) ∗ ((slot6).view.loc (thr d L) ↦[(slot6).view.set]{fullShare} Z6))
    ∗ Transfers.Flight countersEmb (thr d L) (SemLoc.dma cc0_scratch20.sem) default 163840
            iprop(((och' (k0_off155 L k63) (k0_off155_inb L k63 (e25 k63 rfl))).view.loc (thr d L) ↦[(och' (k0_off155 L k63) (k0_off155_inb L k63 (e25 k63 rfl))).view.set]{fullShare} g7) ∗ ((slot7).view.loc (thr d L) ↦[(slot7).view.set]{fullShare} Z7))
    ∗ Transfers.Flight countersEmb (thr d L) (SemLoc.dma cc0_scratch21.sem) default 163840
            iprop(((och' (k0_off174 L k63) (k0_off174_inb L k63 (e28 k63 rfl))).view.loc (thr d L) ↦[(och' (k0_off174 L k63) (k0_off174_inb L k63 (e28 k63 rfl))).view.set]{fullShare} g8) ∗ ((slot8).view.loc (thr d L) ↦[(slot8).view.set]{fullShare} Z8))
    ∗ ⌜(slot9).view.read (Elt F) X9 = rowOp 4 P (Gw d L ft I (k0_off81 k63) (k0_off81_inb k63 (e14 k63 rfl)))⌝
    ∗ ⌜(och' (k0_off22 L k63) (k0_off22_inb L k63 (e4 k63 rfl))).view.read (Elt F) g0 = rowOp 0 P (Gw d L ft I (k0_off100 k62) (k0_off100_inb k62 (c17 k62 (by decide))))⌝
    ∗ ⌜(och' (k0_off41 L k63) (k0_off41_inb L k63 (e7 k63 rfl))).view.read (Elt F) g1 = rowOp 1 P (Gw d L ft I (k0_off119 k62) (k0_off119_inb k62 (c20 k62 (by decide))))⌝
    ∗ ⌜(och' (k0_off60 L k63) (k0_off60_inb L k63 (e10 k63 rfl))).view.read (Elt F) g2 = rowOp 2 P (Gw d L ft I (k0_off138 k62) (k0_off138_inb k62 (c23 k62 (by decide))))⌝
    ∗ ⌜(och' (k0_off79 L k63) (k0_off79_inb L k63 (e13 k63 rfl))).view.read (Elt F) g3 = rowOp 3 P (Gw d L ft I (k0_off157 k62) (k0_off157_inb k62 (c26 k62 (by decide))))⌝
    ∗ ⌜(och' (k0_off98 L k63) (k0_off98_inb L k63 (e16 k63 rfl))).view.read (Elt F) g4 = rowOp 4 P (Gw d L ft I (k0_off176 k62) (k0_off176_inb k62 (c29 k62 (by decide))))⌝
    ∗ ⌜(och' (k0_off117 L k63) (k0_off117_inb L k63 (e19 k63 rfl))).view.read (Elt F) g5 = rowOp 0 P (Gw d L ft I (k0_off4 k63) (k0_off4_inb k63 (e2 k63 rfl)))⌝
    ∗ ⌜(och' (k0_off136 L k63) (k0_off136_inb L k63 (e22 k63 rfl))).view.read (Elt F) g6 = rowOp 1 P (Gw d L ft I (k0_off24 k63) (k0_off24_inb k63 (e5 k63 rfl)))⌝
    ∗ ⌜(och' (k0_off155 L k63) (k0_off155_inb L k63 (e25 k63 rfl))).view.read (Elt F) g7 = rowOp 2 P (Gw d L ft I (k0_off43 k63) (k0_off43_inb k63 (e8 k63 rfl)))⌝
    ∗ ⌜(och' (k0_off174 L k63) (k0_off174_inb L k63 (e28 k63 rfl))).view.read (Elt F) g8 = rowOp 3 P (Gw d L ft I (k0_off62 k63) (k0_off62_inb k63 (e11 k63 rfl)))⌝)

variable (O : CellTallies nD τ sig (HIx 1)) (W : Waits sig (HIx 1)) (fo fd : Buf (Elt F) ((thr d L).loc main_v2_scv))

/-- The loop's invariant before trip `k`. -/
def Inv (k : ℕ) (_ : Unit) : sProp 𝕄 :=
  iprop(∃ W' : Waits sig (HIx 1), levAts (K (F := F)).L (K (F := F)).lev ∗ owes (thr d L) O W' ∗ ⌜∀ p ∈ W', p ∈ W ∨ p.2 = none⌝
    ∗ ((s6).view.loc (thr d L) ↦{fullShare} P)
    ∗ (if k = 0 then iprop(Books d L I fo fd 0 5 0 0 ∗ Ring0 d L ft I)
       else if k ≤ 63 then iprop(Books d L I fo fd (10 * k) (10 * k + 5) (10 * k - 5) (10 * k - 1)
          ∗ ∃ k' : Fin k0_t1_loop.trips, ⌜k'.val + 1 = k⌝ ∗ RingMid d L ft I P k')
       else iprop(Books d L I fo fd 640 640 630 639 ∗ RingEnd d L ft I P)))
end

end Cert.Proof.KB
end
-- ==== Proof.KBPre.lean ====
/-
  Getting ready for a tile's task: the input arrays as the tile's memrefs address them, and the tile's read share of
  the embedding table cut in six (five gathers and a sixth starting are in flight at once, each holding a share).
-/
import proofs.«206279_g3710851744293_cont_8to1_b_253_31_alg».proof.Proof.KBRing
import proofs.«206279_g3710851744293_cont_8to1_b_253_31_alg».proof.Proof.KBOwn
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

open Idealize.ShloMosaic.Transfers (shareTok)

omit [FloatOps F] in
theorem pts_i (d : Dev nD) (L : grid0.Coords) (q : PosShare TreeShare) (f : Buf (Elt F) (iLoc d)) :
    (((iV).view.loc (thr d L) ↦{q} f) : sProp 𝕄) = (iLoc d ↦{q} f) := by
  simp only [Memref.view_whole, View.set_whole]
omit [FloatOps F] in
theorem pts_p (d : Dev nD) (L : grid0.Coords) (q : PosShare TreeShare) (f : Buf (Elt F) (pLoc d)) :
    (((peV).view.loc (thr d L) ↦{q} f) : sProp 𝕄) = (pLoc d ↦{q} f) := by
  simp only [Memref.view_whole, View.set_whole]
omit [FloatOps F] in
theorem pts_t (d : Dev nD) (L : grid0.Coords) (q : PosShare TreeShare) (f : Buf (Elt F) (tLoc d)) :
    (((tV).view.loc (thr d L) ↦{q} f) : sProp 𝕄) = (tLoc d ↦{q} f) := by
  simp only [Memref.view_whole, View.set_whole]

/-- The six shares: the token halved five times, the right half kept each time, and what is left. -/
def sh (w : Fin 32) : ℕ → PosShare TreeShare
  | 0 => tok w
  | n + 1 => (sh w n).left
abbrev tq (w : Fin 32) (j : ℕ) : PosShare TreeShare := (sh w j).right

omit [FloatOps F] in
theorem share_step (d : Dev nD) (L : grid0.Coords) (ft : Buf (Elt F) ((thr d L).loc main_arg1_scv)) (n : ℕ) :
    (((tV).view.loc (thr d L) ↦{sh (wid L) n} ft) : sProp 𝕄)
      ⊣⊢ iprop(((tV).view.loc (thr d L) ↦{sh (wid L) (n + 1)} ft) ∗ ((tV).view.loc (thr d L) ↦{tq (wid L) n} ft)) :=
  pointsTo_share (PosShare.mem_left_op_right _)

omit [FloatOps F] in
theorem table_split (d : Dev nD) (L : grid0.Coords) (ft : Buf (Elt F) ((thr d L).loc main_arg1_scv)) :
    (((tV).view.loc (thr d L) ↦{tok (wid L)} ft) : sProp 𝕄)
      ⊢ iprop(((tV).view.loc (thr d L) ↦{tq (wid L) 0} ft) ∗ ((tV).view.loc (thr d L) ↦{tq (wid L) 1} ft)
        ∗ ((tV).view.loc (thr d L) ↦{tq (wid L) 2} ft) ∗ ((tV).view.loc (thr d L) ↦{tq (wid L) 3} ft)
        ∗ ((tV).view.loc (thr d L) ↦{tq (wid L) 4} ft) ∗ ((tV).view.loc (thr d L) ↦{sh (wid L) 5} ft)) := by
  show (((tV).view.loc (thr d L) ↦{sh (wid L) 0} ft) : sProp 𝕄) ⊢ _
  iintro H
  ihave H := (share_step d L ft 0).1 $$ H
  icases H with ⟨H, H0⟩
  ihave H := (share_step d L ft 1).1 $$ H
  icases H with ⟨H, H1⟩
  ihave H := (share_step d L ft 2).1 $$ H
  icases H with ⟨H, H2⟩
  ihave H := (share_step d L ft 3).1 $$ H
  icases H with ⟨H, H3⟩
  ihave H := (share_step d L ft 4).1 $$ H
  icases H with ⟨H, H4⟩
  isplitl [H0]; · iexact H0
  isplitl [H1]; · iexact H1
  isplitl [H2]; · iexact H2
  isplitl [H3]; · iexact H3
  isplitl [H4]; · iexact H4
  iexact H

omit [FloatOps F] in
theorem table_join (d : Dev nD) (L : grid0.Coords) :
    ShJoin (F := F) d L (tq (wid L) 0) (tq (wid L) 1) (tq (wid L) 2) (tq (wid L) 3) (tq (wid L) 4) (sh (wid L) 5) := by
  intro ft
  show _ ⊢ (((tV).view.loc (thr d L) ↦{sh (wid L) 0} ft) : sProp 𝕄)
  iintro ⟨H0, H1, H2, H3, H4, H⟩
  ihave H := (share_step d L ft 4).2 $$ [H H4]
  · isplitl [H] <;> iassumption
  ihave H := (share_step d L ft 3).2 $$ [H H3]
  · isplitl [H] <;> iassumption
  ihave H := (share_step d L ft 2).2 $$ [H H2]
  · isplitl [H] <;> iassumption
  ihave H := (share_step d L ft 1).2 $$ [H H1]
  · isplitl [H] <;> iassumption
  ihave H := (share_step d L ft 0).2 $$ [H H0]
  · isplitl [H] <;> iassumption
  iexact H

/-- The shares in any other order join as well (sep is commutative): the order the loop leaves them in. -/
theorem ShJoin.rot {d : Dev nD} {L : grid0.Coords} {q0 q1 q2 q3 q4 q5 : PosShare TreeShare}
    (h : ShJoin (F := F) d L q0 q1 q2 q3 q4 q5) : ShJoin (F := F) d L q4 q5 q0 q1 q2 q3 := by
  intro ft
  refine BIBase.Entails.trans ?_ (h ft)
  iintro ⟨H4, H5, H0, H1, H2, H3⟩
  isplitl [H0]; · iexact H0
  isplitl [H1]; · iexact H1
  isplitl [H2]; · iexact H2
  isplitl [H3]; · iexact H3
  isplitl [H4]; · iexact H4
  iexact H5

end Cert.Proof.KB
end
-- ==== Proof.KBChunk.lean ====
/-
  From what a tile's task leaves in a chunk of the result to the specification.

  A chunk of forty positions of one batch row, read through its view, is row by row the gathered table rows scaled by
  the constant plus the positional rows of the chunk's block of forty.  The index words the gather read are the
  tile's 25600 words of the flattened index array, and the positional scratch holds the positional table; so element
  (b, s, l) of the chunk is the specification's: the table row named by index word 200 b + s, scaled, plus
  positional row s.
-/
import proofs.«206279_g3710851744293_cont_8to1_b_253_31_alg».proof.Proof.KBVal
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

open Idealize.ShloMosaic.ValueIdx

/-! ## The views' placements, by coordinates -/

/-- The chunk view places (row, lane) of the chunk at (batch row, first position + row, lane) of the result. -/
theorem och'_emb_val (off3 : Fin 3 → ℕ) (h3 : ∀ a, off3 a + S1x40x128.size a ≤ S4096x200x128.size a) (y : S40x128.Idx) :
    (((och' off3 h3).view.emb y : S4096x200x128.Idx) 0).val = off3 0
      ∧ (((och' off3 h3).view.emb y : S4096x200x128.Idx) 1).val = off3 1 + (y 0).val
      ∧ (((och' off3 h3).view.emb y : S4096x200x128.Idx) 2).val = off3 2 + (y 1).val := by
  have hre : Shape.reshapeEquiv squeezes_S1x40x128_S40x128.numel_eq y = ix3 (n0 := 1) (n1 := 40) (n2 := 128) 0 (y 0) (y 1) :=
    Shape.reshapeEquiv_eq_of_rowMajor _ (by
      rw [Shape.rowMajor_val_three, Shape.rowMajor_val_two]
      show ((0 : ℕ) * 40 + (y 0).val) * 128 + (y 1).val = (y 0).val * 128 + (y 1).val
      omega)
  have hemb : ((och' off3 h3).view.emb y : S4096x200x128.Idx)
      = (Rect.unit (s := S4096x200x128) off3 S1x40x128.size h3).emb (ix3 (n0 := 1) (n1 := 40) (n2 := 128) 0 (y 0) (y 1)) := by
    rw [← hre]; rfl
  rw [hemb]
  refine ⟨?_, ?_, ?_⟩
  · show off3 0 + 1 * 0 = off3 0
    omega
  · show off3 1 + 1 * (y 0).val = off3 1 + (y 0).val
    omega
  · show off3 2 + 1 * (y 1).val = off3 2 + (y 1).val
    omega

/-- The window view places word r of the window at word (offset + r) of the index buffer. -/
theorem win'_emb_val (off1 : Fin 1 → ℕ) (h1 : ∀ a, off1 a + S40.size a ≤ S25600.size a) (x : S40.Idx) :
    (((win' off1 h1).view.emb x : S25600.Idx) 0).val = off1 0 + (x 0).val := by
  show off1 0 + 1 * (x 0).val = off1 0 + (x 0).val
  omega

/-! ## One element of a chunk -/

/-- The specification's element, stated so that the index word, the lane and the positional word can each be replaced
    by an equal one. -/
theorem elt_congr (ft : S100000x128.Idx → F .f32) {w w' : BitVec 32} {l l' : Fin 128} {a b : F .f32}
    (hw : w = w') (hl : l = l') (hab : a = b) :
    FloatOps.addf (FloatOps.mulf (ft (ix2 (n0 := 100000) (n1 := 128) (Cert.Spec.rowOf w) l)) (FloatOps.ofBits .f32 0x413504F3#32)) a
      = FloatOps.addf (FloatOps.mulf (ft (ix2 (n0 := 100000) (n1 := 128) (Cert.Spec.rowOf w') l')) (FloatOps.ofBits .f32 0x413504F3#32)) b := by
  subst hw; subst hl; subst hab; rfl

/-- A word of a rank-one array is named by its position alone. -/
theorem ix1_congr {n : ℕ} {α : Type} (g : (⟨1, ![n]⟩ : Shape).Idx → α) {i j : (⟨1, ![n]⟩ : Shape).Idx} (h : (i 0).val = (j 0).val) : g i = g j := by
  congr 1
  funext a
  obtain rfl : a = 0 := Subsingleton.elim _ _
  exact Fin.ext h

/-- A word of a rank-two array is named by its two coordinates alone. -/
theorem ix2_congr {n0 n1 : ℕ} {α : Type} (g : (⟨2, ![n0, n1]⟩ : Shape).Idx → α) {i j : (⟨2, ![n0, n1]⟩ : Shape).Idx}
    (h0 : (i 0).val = (j 0).val) (h1 : (i 1).val = (j 1).val) : g i = g j := by
  congr 1
  funext a
  match a with
  | ⟨0, _⟩ => exact Fin.ext h0
  | ⟨1, _⟩ => exact Fin.ext h1

/-- THE CHUNK'S VALUE IS THE SPECIFICATION'S: a chunk that holds the row operation of its gathered rows holds the
    specification's function on its elements. -/
theorem chunk_to_GK (d : Dev nD) (L : grid0.Coords) (fi : Buf (Elt F) (iLoc d)) (fp : Buf (Elt F) (pLoc d)) (ft : Buf (Elt F) (tLoc d))
    (I : Buf (Elt F) ((thr d L).loc cc0_scratch1)) (P : Buf (Elt F) ((thr d L).loc cc0_scratch0))
    (hI : ∀ j : Fin 25600, I (ix1 (n := 25600) j) = fi (ix1 (n := 819200) ⟨25600 * (wid L).val + j.val, by
      have := (wid L).isLt; have := j.isLt; omega⟩))
    (hP : ∀ y : S200x128.Idx, P y = fp y)
    (off3 : Fin 3 → ℕ) (h3 : ∀ a, off3 a + S1x40x128.size a ≤ S4096x200x128.size a)
    (off1 : Fin 1 → ℕ) (h1 : ∀ a, off1 a + S40.size a ≤ S25600.size a) (hh : Fin 5)
    (hrow : b0 L ≤ off3 0) (hoff : off1 0 = 200 * (off3 0 - b0 L) + off3 1) (hcol : off3 1 = 40 * hh.val) (hz : off3 2 = 0)
    (f : Buf (Elt F) ((thr d L).loc main_v2_scv))
    (hf : (och' off3 h3).view.read (Elt F) f = rowOp hh P (Gw d L ft I off1 h1)) :
    (((och' off3 h3).view.loc (thr d L) ↦[(och' off3 h3).view.set]{fullShare} f) : sProp 𝕄)
      ⊢ ((och' off3 h3).view.loc (thr d L) ↦[(och' off3 h3).view.set]{fullShare} GK fi fp ft) := by
  refine Entails.of_eq (pointsTo_congr fun i hi => ?_)
  obtain ⟨y, -, rfl⟩ := Finset.mem_map.mp hi
  have hfy : f ((och' off3 h3).view.emb y) = rowOp hh P (Gw d L ft I off1 h1) y := congrFun hf y
  refine hfy.trans ?_
  obtain ⟨e0, e1, e2⟩ := och'_emb_val off3 h3 y
  have hb := b0_eq L
  have hw := (wid L).isLt
  have hy0 : (y 0).val < 40 := (y 0).isLt
  have h1' : off1 0 + 40 ≤ 25600 := h1 0
  -- the index word the gather read is the specification's
  have hA : (win' off1 h1).view.read (Elt F) I (ix1 (n := 40) (y 0))
      = fi (ix1 (n := 819200) ⟨200 * (((och' off3 h3).view.emb y : S4096x200x128.Idx) 0).val + (((och' off3 h3).view.emb y : S4096x200x128.Idx) 1).val, by
          have hi0 : (((och' off3 h3).view.emb y : S4096x200x128.Idx) 0).val < 4096 := (((och' off3 h3).view.emb y : S4096x200x128.Idx) 0).isLt
          have hi1 : (((och' off3 h3).view.emb y : S4096x200x128.Idx) 1).val < 200 := (((och' off3 h3).view.emb y : S4096x200x128.Idx) 1).isLt
          omega⟩) := by
    have hr : (win' off1 h1).view.read (Elt F) I (ix1 (n := 40) (y 0)) = I ((win' off1 h1).view.emb (ix1 (n := 40) (y 0))) := rfl
    rw [hr]
    have hj : off1 0 + (y 0).val < 25600 := by omega
    refine (ix1_congr (n := 25600) I (j := ix1 (n := 25600) ⟨off1 0 + (y 0).val, hj⟩) (win'_emb_val off1 h1 _)).trans ?_
    rw [hI ⟨off1 0 + (y 0).val, hj⟩]
    refine ix1_congr (n := 819200) fi ?_
    show 25600 * (wid L).val + (off1 0 + (y 0).val) = 200 * _ + _
    rw [e0, e1]
    omega
  -- the lane
  have hB : (y 1) = (((och' off3 h3).view.emb y : S4096x200x128.Idx) 2) := Fin.ext (by rw [e2, hz]; omega)
  -- the positional word
  have hC : P (ix2 (n0 := 200) (n1 := 128) ⟨(y 0).val + 40 * hh.val, by have := hh.isLt; omega⟩ (y 1))
      = fp (ix2 (n0 := 200) (n1 := 128) (((och' off3 h3).view.emb y : S4096x200x128.Idx) 1) (((och' off3 h3).view.emb y : S4096x200x128.Idx) 2)) := by
    rw [hP]
    refine ix2_congr (n0 := 200) (n1 := 128) fp ?_ ?_
    · show (y 0).val + 40 * hh.val = _
      rw [e1, hcol]; omega
    · show (y 1).val = _
      rw [e2, hz]; omega
  exact elt_congr ft hA hB hC

/-! ## The two copies at the start of the task -/

/-- After the copy of the whole positional table, the positional scratch holds the table. -/
theorem pe_copy (d : Dev nD) (L : grid0.Coords) (f6 : Buf (Elt F) ((thr d L).loc cc0_scratch0))
    (fp : Buf (Elt F) ((thr d L).loc main_v1_scv)) :
    View.write (Elt F) (s6).view f6 (ReadAs.same.apply (View.read (Elt F) (peV).view fp)) Finset.univ = fp :=
  View.write_whole_univ cc0_scratch0 f6 _

/-- After the copy of the tile's 25600 words of the flattened index array, word j of the index scratch is word
    25600 w + j of the array, w the tile's number. -/
theorem idx_copy (d : Dev nD) (L : grid0.Coords) (f7 : Buf (Elt F) ((thr d L).loc cc0_scratch1))
    (fi : Buf (Elt F) ((thr d L).loc main_v0_scv)) :
    ∀ j : Fin 25600,
      (View.write (Elt F) (s7).view f7
        (ReadAs.same.apply (View.read (Elt F)
          ((iV).slice (Rect.unit (s := S819200) (k0_off1 L) S25600.size (k0_off1_inb L)) (fun _ => rfl)).view fi)) Finset.univ)
          (ix1 (n := 25600) j)
        = fi (ix1 (n := 819200) ⟨25600 * (wid L).val + j.val, by
            have := (wid L).isLt; have := j.isLt; omega⟩) := by
  intro j
  refine (congrFun (View.write_whole_univ cc0_scratch1 f7 _) (ix1 (n := 25600) j)).trans ?_
  show fi (((iV).slice (Rect.unit (s := S819200) (k0_off1 L) S25600.size (k0_off1_inb L)) (fun _ => rfl)).view.emb (ix1 (n := 25600) j)) = _
  refine ix1_congr (n := 819200) fi ?_
  show k0_off1 L 0 + 1 * j.val = 25600 * (wid L).val + j.val
  rw [k0_off1_eq L]
  show 51200 * (L 1).val + 25600 * (L 0).val + 1 * j.val = 25600 * (2 * (L 1).val + (L 0).val) + j.val
  omega

end Cert.Proof.KB
end
-- ==== Proof.KBValLemmas.lean ====
/-
  Pure facts about what a trip's transfers deliver: a gather through a window of index words lands the forty table
  rows those words name; a copy of a slot lands what the slot reads.
-/
import proofs.«206279_g3710851744293_cont_8to1_b_253_31_alg».proof.Proof.KBVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type} [FloatOps F]

local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-- The table's row block a window of forty index words names, as the gather lands it: row r of the payload is the
    table's row named by word r of the window (every word below 100000 names the row of its own value). -/
theorem gather_eq_Gw (d : Dev nD) (L : grid0.Coords) (ft : Buf (Elt F) ((thr d L).loc main_arg1_scv)) (I : Buf (Elt F) ((thr d L).loc cc0_scratch1))
    (off : Fin 1 → ℕ) (h : ∀ a, off a + S40.size a ≤ S25600.size a)
    (hn : S40.numel = S40x128.size (gathers_S100000x128_S40x128).axis')
    (hin : ∀ x, ((win' off h).view.read (Elt F) I x).toNat < S100000x128.size (gathers_S100000x128_S40x128).axis) :
    SparseCore.gatherPayload gathers_S100000x128_S40x128 ((tW).view.read (Elt F) ft)
        (SparseCore.rows ((win' off h).view.read (Elt F) I) hn hin) = Gw d L ft I off h := by
  funext y
  unfold SparseCore.gatherPayload Gw
  rw [View.read_apply]
  show ft _ = ft _
  have hz : ∀ z : S100000x128.Idx, (tW).view.emb z = z := fun z => by
    funext a; apply Fin.ext
    show (![0, 0] : Fin 2 → ℕ) a + 1 * (z a).val = (z a).val
    match a with
    | ⟨0, _⟩ => show 0 + 1 * (z 0).val = (z 0).val; omega
    | ⟨1, _⟩ => show 0 + 1 * (z 1).val = (z 1).val; omega
  rw [hz]
  refine congrArg ft (funext fun a => Fin.ext ?_)
  match a with
  | ⟨0, _⟩ =>
    show ((gathers_S100000x128_S40x128).idx (SparseCore.rows ((win' off h).view.read (Elt F) I) hn hin) y (gathers_S100000x128_S40x128).axis).val
      = (Cert.Spec.rowOf ((win' off h).view.read (Elt F) I (ix1 (n := 40) (y 0)))).val
    rw [Shape.Gathers.idx_axis, Cert.Spec.rowOf_val_of_lt (hin _)]
    show ((win' off h).view.read (Elt F) I (S40.rowMajor.symm ((y (gathers_S100000x128_S40x128).axis').cast hn.symm))).toNat
      = ((win' off h).view.read (Elt F) I (ix1 (n := 40) (y 0))).toNat
    have e : S40.rowMajor.symm ((y (gathers_S100000x128_S40x128).axis').cast hn.symm) = ix1 (n := 40) (y 0) :=
      (Equiv.symm_apply_eq _).mpr (Fin.ext (by rw [Shape.rowMajor_val_one]; rfl))
    rw [e]
  | ⟨1, _⟩ =>
    exact Shape.Gathers.idx_of_ne (gathers_S100000x128_S40x128) _ y ⟨1, by decide⟩ (by decide)

end Cert.Proof.KB

end
-- ==== Proof.KBJoin.lean ====
/-
  The ten slots back into the row buffer.

  Ten slots held at ten different contents are the row buffer held at some contents: the slots' element sets are the
  ten parts of the buffer's first axis, pairwise disjoint and covering it, and contents given part by part are the
  parts of one function on the whole.
-/
import proofs.«206279_g3710851744293_cont_8to1_b_253_31_alg».proof.Proof.KBSplit
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-- THE TEN SLOTS JOIN INTO THE ROW BUFFER, whatever each holds. -/
theorem slots_join (d : Dev nD) (L : grid0.Coords) :
    (iprop((∃ f, (slot0).view.loc (thr d L) ↦[(slot0).view.set]{fullShare} f)
        ∗ (∃ f, (slot1).view.loc (thr d L) ↦[(slot1).view.set]{fullShare} f)
        ∗ (∃ f, (slot2).view.loc (thr d L) ↦[(slot2).view.set]{fullShare} f)
        ∗ (∃ f, (slot3).view.loc (thr d L) ↦[(slot3).view.set]{fullShare} f)
        ∗ (∃ f, (slot4).view.loc (thr d L) ↦[(slot4).view.set]{fullShare} f)
        ∗ (∃ f, (slot5).view.loc (thr d L) ↦[(slot5).view.set]{fullShare} f)
        ∗ (∃ f, (slot6).view.loc (thr d L) ↦[(slot6).view.set]{fullShare} f)
        ∗ (∃ f, (slot7).view.loc (thr d L) ↦[(slot7).view.set]{fullShare} f)
        ∗ (∃ f, (slot8).view.loc (thr d L) ↦[(slot8).view.set]{fullShare} f)
        ∗ (∃ f, (slot9).view.loc (thr d L) ↦[(slot9).view.set]{fullShare} f)) : sProp 𝕄)
      ⊢ iprop(∃ f, (s8).view.loc (thr d L) ↦{fullShare} f) := by
  let Ψ : Fin 10 → sProp 𝕄 := fun j =>
    iprop(∃ f, (thr d L).loc cc0_scratch2 ↦[(Rect.part (s := S10x40x128) (a₀ := 0) h10 j).set]{fullShare} f)
  have e : (iprop((∃ f, (slot0).view.loc (thr d L) ↦[(slot0).view.set]{fullShare} f)
        ∗ (∃ f, (slot1).view.loc (thr d L) ↦[(slot1).view.set]{fullShare} f)
        ∗ (∃ f, (slot2).view.loc (thr d L) ↦[(slot2).view.set]{fullShare} f)
        ∗ (∃ f, (slot3).view.loc (thr d L) ↦[(slot3).view.set]{fullShare} f)
        ∗ (∃ f, (slot4).view.loc (thr d L) ↦[(slot4).view.set]{fullShare} f)
        ∗ (∃ f, (slot5).view.loc (thr d L) ↦[(slot5).view.set]{fullShare} f)
        ∗ (∃ f, (slot6).view.loc (thr d L) ↦[(slot6).view.set]{fullShare} f)
        ∗ (∃ f, (slot7).view.loc (thr d L) ↦[(slot7).view.set]{fullShare} f)
        ∗ (∃ f, (slot8).view.loc (thr d L) ↦[(slot8).view.set]{fullShare} f)
        ∗ (∃ f, (slot9).view.loc (thr d L) ↦[(slot9).view.set]{fullShare} f)) : sProp 𝕄) = bigSep Finset.univ Ψ := by
    rw [bigSep_univ_fin, slot0_set, slot1_set, slot2_set, slot3_set, slot4_set, slot5_set, slot6_set, slot7_set, slot8_set, slot9_set]
    exact (sepL_snoc_emp [Ψ 0, Ψ 1, Ψ 2, Ψ 3, Ψ 4, Ψ 5, Ψ 6, Ψ 7, Ψ 8] (Ψ 9)).symm
  refine (Entails.of_eq e).trans ?_
  refine (bigSep_exists_pi Finset.univ (fun (j : Fin 10) (f : Buf (Elt F) ((thr d L).loc cc0_scratch2)) =>
    ((thr d L).loc cc0_scratch2 ↦[(Rect.part (s := S10x40x128) (a₀ := 0) h10 j).set]{fullShare} f : sProp 𝕄))).trans ?_
  iintro ⟨%fs, H⟩
  ihave H' := (pointsTo_biUnion_join Finset.univ (fun j : Fin 10 => (Rect.part (s := S10x40x128) (a₀ := 0) h10 j).set) fs (fs 0)
    (fun i _ j _ h => Rect.part_disjoint h10 h)) $$ H
  icases H' with ⟨%g, -, Hg⟩
  rw [Rect.biUnion_part h10]
  iexists g; iexact Hg

end Cert.Proof.KB
end
-- ==== Proof.KBBooksLemmas.lean ====
/-
  The books around one trip of the main loop: ten windows and ten chunks leave the books in the spelling the program
  uses for them at that trip, and ten of each come back.  Every step takes the least element out of a final segment
  of the chunk numbers, or puts the next element into an initial segment, and respells the piece by an offset equation.
-/
import proofs.«206279_g3710851744293_cont_8to1_b_253_31_alg».proof.Proof.KBBooks
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-! ## One spelling of a held piece for another -/

/-- On a trip where the first phase's write-out is waited for, its chunk is the last of the batch row before the trip's first. -/
theorem k0_off2_eq' : ∀ (L : grid0.Coords) (k : Fin k0_t1_loop.trips), k0_cond1 k = 1#1 →
    k0_off2 L k = ![256 * (L 1).val + 128 * (L 0).val + 2 * k.val - 1, 160, 0] := by decide +kernel

/-- Window `q` of the books is the window the program names by any offset equal to `40 q`. -/
theorem Wn_spell (d : Dev nD) (L : grid0.Coords) (I : Buf (Elt F) ((thr d L).loc cc0_scratch1)) (q : Fin 640)
    {off : Fin 1 → ℕ} (h : ∀ a, off a + S40.size a ≤ S25600.size a) {x : ℕ} (e : off = ![x]) (hx : x = 40 * q.val) :
    Wn d L I q = ((win' off h).view.loc (thr d L) ↦[(win' off h).view.set]{fullShare} I) := by
  subst hx; subst e; rfl

/-- Chunk `q` of the books is the chunk the program names by any offsets equal to (first row + q div 5, 40 (q mod 5), 0). -/
theorem On_spell (d : Dev nD) (L : grid0.Coords) (f : Buf (Elt F) ((thr d L).loc main_v2_scv)) (q : Fin 640)
    {off : Fin 3 → ℕ} (h : ∀ a, off a + S1x40x128.size a ≤ S4096x200x128.size a) {r c : ℕ} (e : off = ![r, c, 0])
    (hr : r = 256 * (L 1).val + 128 * (L 0).val + q.val / 5) (hc : c = 40 * (q.val % 5)) :
    On d L f q = ((och' off h).view.loc (thr d L) ↦[(och' off h).view.set]{fullShare} f) := by
  subst hr; subst hc; subst e; rfl

/-- An equation between assertions read as an entailment, either way. -/
theorem eq_entails {M : Type} [URA M] {P Q : sProp M} (e : P = Q) : P ⊢ Q := by subst e; exact .rfl
theorem eq_entails' {M : Type} [URA M] {P Q : sProp M} (e : P = Q) : Q ⊢ P := by subst e; exact .rfl

/-! ## Taking the least element out of a final segment, putting the next element into an initial segment

Each lemma also takes what the remaining segment has already been shown equal to, so that ten of them nest into one
equation. -/

/-- The windows from `n` on: window `n` in the program's spelling, and those from `n + 1` on. -/
theorem takeW (d : Dev nD) (L : grid0.Coords) (I : Buf (Elt F) ((thr d L).loc cc0_scratch1)) (n m : ℕ) (hm : m = n + 1) (hn : n < 640)
    {off : Fin 1 → ℕ} (h : ∀ a, off a + S40.size a ≤ S25600.size a) {x : ℕ} (e : off = ![x]) (hx : x = 40 * n) {R : sProp 𝕄}
    (hR : bigSep (Finset.univ.filter fun q : Fin 640 => m ≤ q.val) (Wn d L I) = R) :
    bigSep (Finset.univ.filter fun q : Fin 640 => n ≤ q.val) (Wn d L I)
      = iprop(((win' off h).view.loc (thr d L) ↦[(win' off h).view.set]{fullShare} I) ∗ R) := by
  subst hm; subst hR
  rw [bigSep_ge_step _ n hn, Wn_spell d L I ⟨n, hn⟩ h e hx]

/-- The windows below `n + 1`: window `n` in the program's spelling, and those below `n`. -/
theorem putW (d : Dev nD) (L : grid0.Coords) (I : Buf (Elt F) ((thr d L).loc cc0_scratch1)) (m n : ℕ) (hm : m = n + 1) (hn : n < 640)
    {off : Fin 1 → ℕ} (h : ∀ a, off a + S40.size a ≤ S25600.size a) {x : ℕ} (e : off = ![x]) (hx : x = 40 * n) {R : sProp 𝕄}
    (hR : bigSep (Finset.univ.filter fun q : Fin 640 => q.val < n) (Wn d L I) = R) :
    bigSep (Finset.univ.filter fun q : Fin 640 => q.val < m) (Wn d L I)
      = iprop(((win' off h).view.loc (thr d L) ↦[(win' off h).view.set]{fullShare} I) ∗ R) := by
  subst hm; subst hR
  rw [bigSep_lt_step _ n hn, Wn_spell d L I ⟨n, hn⟩ h e hx]

/-- The chunks from `n` on: chunk `n` in the program's spelling, and those from `n + 1` on. -/
theorem takeO (d : Dev nD) (L : grid0.Coords) (f : Buf (Elt F) ((thr d L).loc main_v2_scv)) (n m : ℕ) (hm : m = n + 1) (hn : n < 640)
    {off : Fin 3 → ℕ} (h : ∀ a, off a + S1x40x128.size a ≤ S4096x200x128.size a) {r c : ℕ} (e : off = ![r, c, 0])
    (hr : r = 256 * (L 1).val + 128 * (L 0).val + n / 5) (hc : c = 40 * (n % 5)) {R : sProp 𝕄}
    (hR : bigSep (Finset.univ.filter fun q : Fin 640 => m ≤ q.val) (On d L f) = R) :
    bigSep (Finset.univ.filter fun q : Fin 640 => n ≤ q.val) (On d L f)
      = iprop(((och' off h).view.loc (thr d L) ↦[(och' off h).view.set]{fullShare} f) ∗ R) := by
  subst hm; subst hR
  rw [bigSep_ge_step _ n hn, On_spell d L f ⟨n, hn⟩ h e hr hc]

/-- The chunks below `n + 1`: chunk `n` in the program's spelling, and those below `n`. -/
theorem putO (d : Dev nD) (L : grid0.Coords) (f : Buf (Elt F) ((thr d L).loc main_v2_scv)) (m n : ℕ) (hm : m = n + 1) (hn : n < 640)
    {off : Fin 3 → ℕ} (h : ∀ a, off a + S1x40x128.size a ≤ S4096x200x128.size a) {r c : ℕ} (e : off = ![r, c, 0])
    (hr : r = 256 * (L 1).val + 128 * (L 0).val + n / 5) (hc : c = 40 * (n % 5)) {R : sProp 𝕄}
    (hR : bigSep (Finset.univ.filter fun q : Fin 640 => q.val < n) (On d L f) = R) :
    bigSep (Finset.univ.filter fun q : Fin 640 => q.val < m) (On d L f)
      = iprop(((och' off h).view.loc (thr d L) ↦[(och' off h).view.set]{fullShare} f) ∗ R) := by
  subst hm; subst hR
  rw [bigSep_lt_step _ n hn, On_spell d L f ⟨n, hn⟩ h e hr hc]

/-! ## A trip in the middle of the loop -/

theorem books_take_mid (d : Dev nD) (L : grid0.Coords) (I : Buf (Elt F) ((thr d L).loc cc0_scratch1)) (fo fd : Buf (Elt F) ((thr d L).loc main_v2_scv))
    (k : Fin k0_t1_loop.trips) (hk1 : 1 ≤ k.val) (hk2 : k.val ≤ 62) (k0_h2 : k0_cond2 k = 1#1) (k0_h5 : k0_cond5 k = 1#1) (k0_h8 : k0_cond8 k = 1#1) (k0_h11 : k0_cond11 k = 1#1) (k0_h14 : k0_cond14 k = 1#1) (k0_h17 : k0_cond17 k = 1#1) (k0_h20 : k0_cond20 k = 1#1) (k0_h23 : k0_cond23 k = 1#1) (k0_h26 : k0_cond26 k = 1#1) (k0_h29 : k0_cond29 k = 1#1) (k0_h1 : k0_cond1 k = 1#1) (k0_h4 : k0_cond4 k = 1#1) (k0_h7 : k0_cond7 k = 1#1) (k0_h10 : k0_cond10 k = 1#1) (k0_h13 : k0_cond13 k = 1#1) (k0_h16 : k0_cond16 k = 1#1) (k0_h19 : k0_cond19 k = 1#1) (k0_h22 : k0_cond22 k = 1#1) (k0_h25 : k0_cond25 k = 1#1) (k0_h28 : k0_cond28 k = 1#1) :
    (Books d L I fo fd (10 * k.val) (10 * k.val + 5) (10 * k.val - 5) (10 * k.val - 1) : sProp 𝕄)
      ⊢ iprop(Books d L I fo fd (10 * k.val) (10 * k.val + 15) (10 * k.val - 5) (10 * k.val + 9)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((win' (k0_off100 k) (k0_off100_inb k k0_h17)).view.loc (thr d L) ↦[(win' (k0_off100 k) (k0_off100_inb k k0_h17)).view.set]{fullShare} I)
        ∗ ((win' (k0_off119 k) (k0_off119_inb k k0_h20)).view.loc (thr d L) ↦[(win' (k0_off119 k) (k0_off119_inb k k0_h20)).view.set]{fullShare} I)
        ∗ ((win' (k0_off138 k) (k0_off138_inb k k0_h23)).view.loc (thr d L) ↦[(win' (k0_off138 k) (k0_off138_inb k k0_h23)).view.set]{fullShare} I)
        ∗ ((win' (k0_off157 k) (k0_off157_inb k k0_h26)).view.loc (thr d L) ↦[(win' (k0_off157 k) (k0_off157_inb k k0_h26)).view.set]{fullShare} I)
        ∗ ((win' (k0_off176 k) (k0_off176_inb k k0_h29)).view.loc (thr d L) ↦[(win' (k0_off176 k) (k0_off176_inb k k0_h29)).view.set]{fullShare} I)
        ∗ ((och' (k0_off2 L k) (k0_off2_inb L k k0_h1)).view.loc (thr d L) ↦[(och' (k0_off2 L k) (k0_off2_inb L k k0_h1)).view.set]{fullShare} fo)
        ∗ ((och' (k0_off22 L k) (k0_off22_inb L k k0_h4)).view.loc (thr d L) ↦[(och' (k0_off22 L k) (k0_off22_inb L k k0_h4)).view.set]{fullShare} fo)
        ∗ ((och' (k0_off41 L k) (k0_off41_inb L k k0_h7)).view.loc (thr d L) ↦[(och' (k0_off41 L k) (k0_off41_inb L k k0_h7)).view.set]{fullShare} fo)
        ∗ ((och' (k0_off60 L k) (k0_off60_inb L k k0_h10)).view.loc (thr d L) ↦[(och' (k0_off60 L k) (k0_off60_inb L k k0_h10)).view.set]{fullShare} fo)
        ∗ ((och' (k0_off79 L k) (k0_off79_inb L k k0_h13)).view.loc (thr d L) ↦[(och' (k0_off79 L k) (k0_off79_inb L k k0_h13)).view.set]{fullShare} fo)
        ∗ ((och' (k0_off98 L k) (k0_off98_inb L k k0_h16)).view.loc (thr d L) ↦[(och' (k0_off98 L k) (k0_off98_inb L k k0_h16)).view.set]{fullShare} fo)
        ∗ ((och' (k0_off117 L k) (k0_off117_inb L k k0_h19)).view.loc (thr d L) ↦[(och' (k0_off117 L k) (k0_off117_inb L k k0_h19)).view.set]{fullShare} fo)
        ∗ ((och' (k0_off136 L k) (k0_off136_inb L k k0_h22)).view.loc (thr d L) ↦[(och' (k0_off136 L k) (k0_off136_inb L k k0_h22)).view.set]{fullShare} fo)
        ∗ ((och' (k0_off155 L k) (k0_off155_inb L k k0_h25)).view.loc (thr d L) ↦[(och' (k0_off155 L k) (k0_off155_inb L k k0_h25)).view.set]{fullShare} fo)
        ∗ ((och' (k0_off174 L k) (k0_off174_inb L k k0_h28)).view.loc (thr d L) ↦[(och' (k0_off174 L k) (k0_off174_inb L k k0_h28)).view.set]{fullShare} fo)) := by
  have eB :=
    takeW d L I (10 * k.val + 5) (10 * k.val + 6) (by omega) (by omega) (k0_off4_inb k k0_h2) (k0_off4_eq k) (by omega) <|
    takeW d L I (10 * k.val + 6) (10 * k.val + 7) (by omega) (by omega) (k0_off24_inb k k0_h5) (k0_off24_eq k) (by omega) <|
    takeW d L I (10 * k.val + 7) (10 * k.val + 8) (by omega) (by omega) (k0_off43_inb k k0_h8) (k0_off43_eq k) (by omega) <|
    takeW d L I (10 * k.val + 8) (10 * k.val + 9) (by omega) (by omega) (k0_off62_inb k k0_h11) (k0_off62_eq k) (by omega) <|
    takeW d L I (10 * k.val + 9) (10 * k.val + 10) (by omega) (by omega) (k0_off81_inb k k0_h14) (k0_off81_eq k) (by omega) <|
    takeW d L I (10 * k.val + 10) (10 * k.val + 11) (by omega) (by omega) (k0_off100_inb k k0_h17) (k0_off100_eq k) (by omega) <|
    takeW d L I (10 * k.val + 11) (10 * k.val + 12) (by omega) (by omega) (k0_off119_inb k k0_h20) (k0_off119_eq k) (by omega) <|
    takeW d L I (10 * k.val + 12) (10 * k.val + 13) (by omega) (by omega) (k0_off138_inb k k0_h23) (k0_off138_eq k) (by omega) <|
    takeW d L I (10 * k.val + 13) (10 * k.val + 14) (by omega) (by omega) (k0_off157_inb k k0_h26) (k0_off157_eq k) (by omega) <|
    takeW d L I (10 * k.val + 14) (10 * k.val + 15) (by omega) (by omega) (k0_off176_inb k k0_h29) (k0_off176_eq k) (by omega) <|
    rfl
  have eD :=
    takeO d L fo (10 * k.val - 1) (10 * k.val) (by omega) (by omega) (k0_off2_inb L k k0_h1) (k0_off2_eq' L k k0_h1) (by omega) (by omega) <|
    takeO d L fo (10 * k.val) (10 * k.val + 1) (by omega) (by omega) (k0_off22_inb L k k0_h4) (k0_off22_eq L k) (by omega) (by omega) <|
    takeO d L fo (10 * k.val + 1) (10 * k.val + 2) (by omega) (by omega) (k0_off41_inb L k k0_h7) (k0_off41_eq L k) (by omega) (by omega) <|
    takeO d L fo (10 * k.val + 2) (10 * k.val + 3) (by omega) (by omega) (k0_off60_inb L k k0_h10) (k0_off60_eq L k) (by omega) (by omega) <|
    takeO d L fo (10 * k.val + 3) (10 * k.val + 4) (by omega) (by omega) (k0_off79_inb L k k0_h13) (k0_off79_eq L k) (by omega) (by omega) <|
    takeO d L fo (10 * k.val + 4) (10 * k.val + 5) (by omega) (by omega) (k0_off98_inb L k k0_h16) (k0_off98_eq L k) (by omega) (by omega) <|
    takeO d L fo (10 * k.val + 5) (10 * k.val + 6) (by omega) (by omega) (k0_off117_inb L k k0_h19) (k0_off117_eq L k) (by omega) (by omega) <|
    takeO d L fo (10 * k.val + 6) (10 * k.val + 7) (by omega) (by omega) (k0_off136_inb L k k0_h22) (k0_off136_eq L k) (by omega) (by omega) <|
    takeO d L fo (10 * k.val + 7) (10 * k.val + 8) (by omega) (by omega) (k0_off155_inb L k k0_h25) (k0_off155_eq L k) (by omega) (by omega) <|
    takeO d L fo (10 * k.val + 8) (10 * k.val + 9) (by omega) (by omega) (k0_off174_inb L k k0_h28) (k0_off174_eq L k) (by omega) (by omega) <|
    rfl
  unfold Books
  iintro ⟨A, B, C, D⟩
  ihave B2 := (eq_entails eB) $$ B
  icases B2 with ⟨W0, W1, W2, W3, W4, W5, W6, W7, W8, W9, B⟩
  ihave D2 := (eq_entails eD) $$ D
  icases D2 with ⟨O0, O1, O2, O3, O4, O5, O6, O7, O8, O9, D⟩
  isplitl [A B C D]
  · isplitl [A]; · iexact A
    isplitl [B]; · iexact B
    isplitl [C]; · iexact C
    iexact D
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  iexact O9

theorem books_put_mid (d : Dev nD) (L : grid0.Coords) (I : Buf (Elt F) ((thr d L).loc cc0_scratch1)) (fo fd : Buf (Elt F) ((thr d L).loc main_v2_scv))
    (k k' : Fin k0_t1_loop.trips) (hk : k'.val + 1 = k.val) (hk2 : k.val ≤ 62) (k0_h2 : k0_cond2 k = 1#1) (k0_h5 : k0_cond5 k = 1#1) (k0_h8 : k0_cond8 k = 1#1) (k0_h11 : k0_cond11 k = 1#1) (k0_h14 : k0_cond14 k = 1#1) (k0_h1 : k0_cond1 k = 1#1) (k0_h4 : k0_cond4 k = 1#1) (k0_h7 : k0_cond7 k = 1#1) (k0_h10 : k0_cond10 k = 1#1) (k0_h13 : k0_cond13 k = 1#1) (k0_h16 : k0_cond16 k = 1#1) (k0_p17 : k0_cond17 k' = 1#1) (k0_p20 : k0_cond20 k' = 1#1) (k0_p23 : k0_cond23 k' = 1#1) (k0_p26 : k0_cond26 k' = 1#1) (k0_p29 : k0_cond29 k' = 1#1) (k0_p19 : k0_cond19 k' = 1#1) (k0_p22 : k0_cond22 k' = 1#1) (k0_p25 : k0_cond25 k' = 1#1) (k0_p28 : k0_cond28 k' = 1#1) :
    (iprop(Books d L I fo fd (10 * k.val) (10 * k.val + 15) (10 * k.val - 5) (10 * k.val + 9)
        ∗ ((win' (k0_off100 k') (k0_off100_inb k' k0_p17)).view.loc (thr d L) ↦[(win' (k0_off100 k') (k0_off100_inb k' k0_p17)).view.set]{fullShare} I)
        ∗ ((win' (k0_off119 k') (k0_off119_inb k' k0_p20)).view.loc (thr d L) ↦[(win' (k0_off119 k') (k0_off119_inb k' k0_p20)).view.set]{fullShare} I)
        ∗ ((win' (k0_off138 k') (k0_off138_inb k' k0_p23)).view.loc (thr d L) ↦[(win' (k0_off138 k') (k0_off138_inb k' k0_p23)).view.set]{fullShare} I)
        ∗ ((win' (k0_off157 k') (k0_off157_inb k' k0_p26)).view.loc (thr d L) ↦[(win' (k0_off157 k') (k0_off157_inb k' k0_p26)).view.set]{fullShare} I)
        ∗ ((win' (k0_off176 k') (k0_off176_inb k' k0_p29)).view.loc (thr d L) ↦[(win' (k0_off176 k') (k0_off176_inb k' k0_p29)).view.set]{fullShare} I)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((och' (k0_off117 L k') (k0_off117_inb L k' k0_p19)).view.loc (thr d L) ↦[(och' (k0_off117 L k') (k0_off117_inb L k' k0_p19)).view.set]{fullShare} fd)
        ∗ ((och' (k0_off136 L k') (k0_off136_inb L k' k0_p22)).view.loc (thr d L) ↦[(och' (k0_off136 L k') (k0_off136_inb L k' k0_p22)).view.set]{fullShare} fd)
        ∗ ((och' (k0_off155 L k') (k0_off155_inb L k' k0_p25)).view.loc (thr d L) ↦[(och' (k0_off155 L k') (k0_off155_inb L k' k0_p25)).view.set]{fullShare} fd)
        ∗ ((och' (k0_off174 L k') (k0_off174_inb L k' k0_p28)).view.loc (thr d L) ↦[(och' (k0_off174 L k') (k0_off174_inb L k' k0_p28)).view.set]{fullShare} fd)
        ∗ ((och' (k0_off2 L k) (k0_off2_inb L k k0_h1)).view.loc (thr d L) ↦[(och' (k0_off2 L k) (k0_off2_inb L k k0_h1)).view.set]{fullShare} fd)
        ∗ ((och' (k0_off22 L k) (k0_off22_inb L k k0_h4)).view.loc (thr d L) ↦[(och' (k0_off22 L k) (k0_off22_inb L k k0_h4)).view.set]{fullShare} fd)
        ∗ ((och' (k0_off41 L k) (k0_off41_inb L k k0_h7)).view.loc (thr d L) ↦[(och' (k0_off41 L k) (k0_off41_inb L k k0_h7)).view.set]{fullShare} fd)
        ∗ ((och' (k0_off60 L k) (k0_off60_inb L k k0_h10)).view.loc (thr d L) ↦[(och' (k0_off60 L k) (k0_off60_inb L k k0_h10)).view.set]{fullShare} fd)
        ∗ ((och' (k0_off79 L k) (k0_off79_inb L k k0_h13)).view.loc (thr d L) ↦[(och' (k0_off79 L k) (k0_off79_inb L k k0_h13)).view.set]{fullShare} fd)
        ∗ ((och' (k0_off98 L k) (k0_off98_inb L k k0_h16)).view.loc (thr d L) ↦[(och' (k0_off98 L k) (k0_off98_inb L k k0_h16)).view.set]{fullShare} fd)) : sProp 𝕄)
      ⊢ Books d L I fo fd (10 * k.val + 10) (10 * k.val + 15) (10 * k.val + 5) (10 * k.val + 9) := by
  have hk1 : 1 ≤ k.val := by omega
  have eA :=
    putW d L I (10 * k.val + 10) (10 * k.val + 9) (by omega) (by omega) (k0_off81_inb k k0_h14) (k0_off81_eq k) (by omega) <|
    putW d L I (10 * k.val + 9) (10 * k.val + 8) (by omega) (by omega) (k0_off62_inb k k0_h11) (k0_off62_eq k) (by omega) <|
    putW d L I (10 * k.val + 8) (10 * k.val + 7) (by omega) (by omega) (k0_off43_inb k k0_h8) (k0_off43_eq k) (by omega) <|
    putW d L I (10 * k.val + 7) (10 * k.val + 6) (by omega) (by omega) (k0_off24_inb k k0_h5) (k0_off24_eq k) (by omega) <|
    putW d L I (10 * k.val + 6) (10 * k.val + 5) (by omega) (by omega) (k0_off4_inb k k0_h2) (k0_off4_eq k) (by omega) <|
    putW d L I (10 * k.val + 5) (10 * k.val + 4) (by omega) (by omega) (k0_off176_inb k' k0_p29) (k0_off176_eq k') (by omega) <|
    putW d L I (10 * k.val + 4) (10 * k.val + 3) (by omega) (by omega) (k0_off157_inb k' k0_p26) (k0_off157_eq k') (by omega) <|
    putW d L I (10 * k.val + 3) (10 * k.val + 2) (by omega) (by omega) (k0_off138_inb k' k0_p23) (k0_off138_eq k') (by omega) <|
    putW d L I (10 * k.val + 2) (10 * k.val + 1) (by omega) (by omega) (k0_off119_inb k' k0_p20) (k0_off119_eq k') (by omega) <|
    putW d L I (10 * k.val + 1) (10 * k.val) (by omega) (by omega) (k0_off100_inb k' k0_p17) (k0_off100_eq k') (by omega) <|
    rfl
  have eC :=
    putO d L fd (10 * k.val + 5) (10 * k.val + 4) (by omega) (by omega) (k0_off98_inb L k k0_h16) (k0_off98_eq L k) (by omega) (by omega) <|
    putO d L fd (10 * k.val + 4) (10 * k.val + 3) (by omega) (by omega) (k0_off79_inb L k k0_h13) (k0_off79_eq L k) (by omega) (by omega) <|
    putO d L fd (10 * k.val + 3) (10 * k.val + 2) (by omega) (by omega) (k0_off60_inb L k k0_h10) (k0_off60_eq L k) (by omega) (by omega) <|
    putO d L fd (10 * k.val + 2) (10 * k.val + 1) (by omega) (by omega) (k0_off41_inb L k k0_h7) (k0_off41_eq L k) (by omega) (by omega) <|
    putO d L fd (10 * k.val + 1) (10 * k.val) (by omega) (by omega) (k0_off22_inb L k k0_h4) (k0_off22_eq L k) (by omega) (by omega) <|
    putO d L fd (10 * k.val) (10 * k.val - 1) (by omega) (by omega) (k0_off2_inb L k k0_h1) (k0_off2_eq' L k k0_h1) (by omega) (by omega) <|
    putO d L fd (10 * k.val - 1) (10 * k.val - 2) (by omega) (by omega) (k0_off174_inb L k' k0_p28) (k0_off174_eq L k') (by omega) (by omega) <|
    putO d L fd (10 * k.val - 2) (10 * k.val - 3) (by omega) (by omega) (k0_off155_inb L k' k0_p25) (k0_off155_eq L k') (by omega) (by omega) <|
    putO d L fd (10 * k.val - 3) (10 * k.val - 4) (by omega) (by omega) (k0_off136_inb L k' k0_p22) (k0_off136_eq L k') (by omega) (by omega) <|
    putO d L fd (10 * k.val - 4) (10 * k.val - 5) (by omega) (by omega) (k0_off117_inb L k' k0_p19) (k0_off117_eq L k') (by omega) (by omega) <|
    rfl
  unfold Books
  iintro ⟨⟨A, B, C, D⟩, W0, W1, W2, W3, W4, W5, W6, W7, W8, W9, O0, O1, O2, O3, O4, O5, O6, O7, O8, O9⟩
  isplitl [A W0 W1 W2 W3 W4 W5 W6 W7 W8 W9]
  · iapply (eq_entails' eA)
    isplitl [W9]; · iexact W9
    isplitl [W8]; · iexact W8
    isplitl [W7]; · iexact W7
    isplitl [W6]; · iexact W6
    isplitl [W5]; · iexact W5
    isplitl [W4]; · iexact W4
    isplitl [W3]; · iexact W3
    isplitl [W2]; · iexact W2
    isplitl [W1]; · iexact W1
    isplitl [W0]; · iexact W0
    iexact A
  isplitl [B]; · iexact B
  isplitl [C O0 O1 O2 O3 O4 O5 O6 O7 O8 O9]
  · iapply (eq_entails' eC)
    isplitl [O9]; · iexact O9
    isplitl [O8]; · iexact O8
    isplitl [O7]; · iexact O7
    isplitl [O6]; · iexact O6
    isplitl [O5]; · iexact O5
    isplitl [O4]; · iexact O4
    isplitl [O3]; · iexact O3
    isplitl [O2]; · iexact O2
    isplitl [O1]; · iexact O1
    isplitl [O0]; · iexact O0
    iexact C
  iexact D

end Cert.Proof.KB
end
-- ==== Proof.KBBooksLemmas2.lean ====
/-
  The books around the first trip, the last trip, and the write-out after the loop: the same steps as in the middle
  of the loop, at the numbers those trips have.
-/
import proofs.«206279_g3710851744293_cont_8to1_b_253_31_alg».proof.Proof.KBBooksLemmas
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-! ## The first trip -/

theorem books_take_first (d : Dev nD) (L : grid0.Coords) (I : Buf (Elt F) ((thr d L).loc cc0_scratch1)) (fo fd : Buf (Elt F) ((thr d L).loc main_v2_scv))
    (k : Fin k0_t1_loop.trips) (hk0 : k.val = 0) (k0_h2 : k0_cond2 k = 1#1) (k0_h5 : k0_cond5 k = 1#1) (k0_h8 : k0_cond8 k = 1#1) (k0_h11 : k0_cond11 k = 1#1) (k0_h14 : k0_cond14 k = 1#1) (k0_h17 : k0_cond17 k = 1#1) (k0_h20 : k0_cond20 k = 1#1) (k0_h23 : k0_cond23 k = 1#1) (k0_h26 : k0_cond26 k = 1#1) (k0_h29 : k0_cond29 k = 1#1) (k0_h4 : k0_cond4 k = 1#1) (k0_h7 : k0_cond7 k = 1#1) (k0_h10 : k0_cond10 k = 1#1) (k0_h13 : k0_cond13 k = 1#1) (k0_h16 : k0_cond16 k = 1#1) (k0_h19 : k0_cond19 k = 1#1) (k0_h22 : k0_cond22 k = 1#1) (k0_h25 : k0_cond25 k = 1#1) (k0_h28 : k0_cond28 k = 1#1) :
    (Books d L I fo fd 0 5 0 0 : sProp 𝕄)
      ⊢ iprop(Books d L I fo fd 0 15 0 9
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((win' (k0_off100 k) (k0_off100_inb k k0_h17)).view.loc (thr d L) ↦[(win' (k0_off100 k) (k0_off100_inb k k0_h17)).view.set]{fullShare} I)
        ∗ ((win' (k0_off119 k) (k0_off119_inb k k0_h20)).view.loc (thr d L) ↦[(win' (k0_off119 k) (k0_off119_inb k k0_h20)).view.set]{fullShare} I)
        ∗ ((win' (k0_off138 k) (k0_off138_inb k k0_h23)).view.loc (thr d L) ↦[(win' (k0_off138 k) (k0_off138_inb k k0_h23)).view.set]{fullShare} I)
        ∗ ((win' (k0_off157 k) (k0_off157_inb k k0_h26)).view.loc (thr d L) ↦[(win' (k0_off157 k) (k0_off157_inb k k0_h26)).view.set]{fullShare} I)
        ∗ ((win' (k0_off176 k) (k0_off176_inb k k0_h29)).view.loc (thr d L) ↦[(win' (k0_off176 k) (k0_off176_inb k k0_h29)).view.set]{fullShare} I)
        ∗ ((och' (k0_off22 L k) (k0_off22_inb L k k0_h4)).view.loc (thr d L) ↦[(och' (k0_off22 L k) (k0_off22_inb L k k0_h4)).view.set]{fullShare} fo)
        ∗ ((och' (k0_off41 L k) (k0_off41_inb L k k0_h7)).view.loc (thr d L) ↦[(och' (k0_off41 L k) (k0_off41_inb L k k0_h7)).view.set]{fullShare} fo)
        ∗ ((och' (k0_off60 L k) (k0_off60_inb L k k0_h10)).view.loc (thr d L) ↦[(och' (k0_off60 L k) (k0_off60_inb L k k0_h10)).view.set]{fullShare} fo)
        ∗ ((och' (k0_off79 L k) (k0_off79_inb L k k0_h13)).view.loc (thr d L) ↦[(och' (k0_off79 L k) (k0_off79_inb L k k0_h13)).view.set]{fullShare} fo)
        ∗ ((och' (k0_off98 L k) (k0_off98_inb L k k0_h16)).view.loc (thr d L) ↦[(och' (k0_off98 L k) (k0_off98_inb L k k0_h16)).view.set]{fullShare} fo)
        ∗ ((och' (k0_off117 L k) (k0_off117_inb L k k0_h19)).view.loc (thr d L) ↦[(och' (k0_off117 L k) (k0_off117_inb L k k0_h19)).view.set]{fullShare} fo)
        ∗ ((och' (k0_off136 L k) (k0_off136_inb L k k0_h22)).view.loc (thr d L) ↦[(och' (k0_off136 L k) (k0_off136_inb L k k0_h22)).view.set]{fullShare} fo)
        ∗ ((och' (k0_off155 L k) (k0_off155_inb L k k0_h25)).view.loc (thr d L) ↦[(och' (k0_off155 L k) (k0_off155_inb L k k0_h25)).view.set]{fullShare} fo)
        ∗ ((och' (k0_off174 L k) (k0_off174_inb L k k0_h28)).view.loc (thr d L) ↦[(och' (k0_off174 L k) (k0_off174_inb L k k0_h28)).view.set]{fullShare} fo)) := by
  have eB :=
    takeW d L I (5) (6) (by omega) (by omega) (k0_off4_inb k k0_h2) (k0_off4_eq k) (by omega) <|
    takeW d L I (6) (7) (by omega) (by omega) (k0_off24_inb k k0_h5) (k0_off24_eq k) (by omega) <|
    takeW d L I (7) (8) (by omega) (by omega) (k0_off43_inb k k0_h8) (k0_off43_eq k) (by omega) <|
    takeW d L I (8) (9) (by omega) (by omega) (k0_off62_inb k k0_h11) (k0_off62_eq k) (by omega) <|
    takeW d L I (9) (10) (by omega) (by omega) (k0_off81_inb k k0_h14) (k0_off81_eq k) (by omega) <|
    takeW d L I (10) (11) (by omega) (by omega) (k0_off100_inb k k0_h17) (k0_off100_eq k) (by omega) <|
    takeW d L I (11) (12) (by omega) (by omega) (k0_off119_inb k k0_h20) (k0_off119_eq k) (by omega) <|
    takeW d L I (12) (13) (by omega) (by omega) (k0_off138_inb k k0_h23) (k0_off138_eq k) (by omega) <|
    takeW d L I (13) (14) (by omega) (by omega) (k0_off157_inb k k0_h26) (k0_off157_eq k) (by omega) <|
    takeW d L I (14) (15) (by omega) (by omega) (k0_off176_inb k k0_h29) (k0_off176_eq k) (by omega) <|
    rfl
  have eD :=
    takeO d L fo (0) (1) (by omega) (by omega) (k0_off22_inb L k k0_h4) (k0_off22_eq L k) (by omega) (by omega) <|
    takeO d L fo (1) (2) (by omega) (by omega) (k0_off41_inb L k k0_h7) (k0_off41_eq L k) (by omega) (by omega) <|
    takeO d L fo (2) (3) (by omega) (by omega) (k0_off60_inb L k k0_h10) (k0_off60_eq L k) (by omega) (by omega) <|
    takeO d L fo (3) (4) (by omega) (by omega) (k0_off79_inb L k k0_h13) (k0_off79_eq L k) (by omega) (by omega) <|
    takeO d L fo (4) (5) (by omega) (by omega) (k0_off98_inb L k k0_h16) (k0_off98_eq L k) (by omega) (by omega) <|
    takeO d L fo (5) (6) (by omega) (by omega) (k0_off117_inb L k k0_h19) (k0_off117_eq L k) (by omega) (by omega) <|
    takeO d L fo (6) (7) (by omega) (by omega) (k0_off136_inb L k k0_h22) (k0_off136_eq L k) (by omega) (by omega) <|
    takeO d L fo (7) (8) (by omega) (by omega) (k0_off155_inb L k k0_h25) (k0_off155_eq L k) (by omega) (by omega) <|
    takeO d L fo (8) (9) (by omega) (by omega) (k0_off174_inb L k k0_h28) (k0_off174_eq L k) (by omega) (by omega) <|
    rfl
  unfold Books
  iintro ⟨A, B, C, D⟩
  ihave B2 := (eq_entails eB) $$ B
  icases B2 with ⟨W0, W1, W2, W3, W4, W5, W6, W7, W8, W9, B⟩
  ihave D2 := (eq_entails eD) $$ D
  icases D2 with ⟨O0, O1, O2, O3, O4, O5, O6, O7, O8, D⟩
  isplitl [A B C D]
  · isplitl [A]; · iexact A
    isplitl [B]; · iexact B
    isplitl [C]; · iexact C
    iexact D
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  iexact O8

theorem books_put_first (d : Dev nD) (L : grid0.Coords) (I : Buf (Elt F) ((thr d L).loc cc0_scratch1)) (fo fd : Buf (Elt F) ((thr d L).loc main_v2_scv))
    (k : Fin k0_t1_loop.trips) (hk0 : k.val = 0) (k0_h2 : k0_cond2 k = 1#1) (k0_h5 : k0_cond5 k = 1#1) (k0_h8 : k0_cond8 k = 1#1) (k0_h11 : k0_cond11 k = 1#1) (k0_h14 : k0_cond14 k = 1#1) (k0_h4 : k0_cond4 k = 1#1) (k0_h7 : k0_cond7 k = 1#1) (k0_h10 : k0_cond10 k = 1#1) (k0_h13 : k0_cond13 k = 1#1) (k0_h16 : k0_cond16 k = 1#1)
    (hg0 : ∀ a, (![0] : Fin 1 → ℕ) a + S40.size a ≤ S25600.size a) (hg1 : ∀ a, (![40] : Fin 1 → ℕ) a + S40.size a ≤ S25600.size a) (hg2 : ∀ a, (![80] : Fin 1 → ℕ) a + S40.size a ≤ S25600.size a) (hg3 : ∀ a, (![120] : Fin 1 → ℕ) a + S40.size a ≤ S25600.size a) (hg4 : ∀ a, (![160] : Fin 1 → ℕ) a + S40.size a ≤ S25600.size a) :
    (iprop(Books d L I fo fd 0 15 0 9
        ∗ ((win' ![0] hg0).view.loc (thr d L) ↦[(win' ![0] hg0).view.set]{fullShare} I)
        ∗ ((win' ![40] hg1).view.loc (thr d L) ↦[(win' ![40] hg1).view.set]{fullShare} I)
        ∗ ((win' ![80] hg2).view.loc (thr d L) ↦[(win' ![80] hg2).view.set]{fullShare} I)
        ∗ ((win' ![120] hg3).view.loc (thr d L) ↦[(win' ![120] hg3).view.set]{fullShare} I)
        ∗ ((win' ![160] hg4).view.loc (thr d L) ↦[(win' ![160] hg4).view.set]{fullShare} I)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((och' (k0_off22 L k) (k0_off22_inb L k k0_h4)).view.loc (thr d L) ↦[(och' (k0_off22 L k) (k0_off22_inb L k k0_h4)).view.set]{fullShare} fd)
        ∗ ((och' (k0_off41 L k) (k0_off41_inb L k k0_h7)).view.loc (thr d L) ↦[(och' (k0_off41 L k) (k0_off41_inb L k k0_h7)).view.set]{fullShare} fd)
        ∗ ((och' (k0_off60 L k) (k0_off60_inb L k k0_h10)).view.loc (thr d L) ↦[(och' (k0_off60 L k) (k0_off60_inb L k k0_h10)).view.set]{fullShare} fd)
        ∗ ((och' (k0_off79 L k) (k0_off79_inb L k k0_h13)).view.loc (thr d L) ↦[(och' (k0_off79 L k) (k0_off79_inb L k k0_h13)).view.set]{fullShare} fd)
        ∗ ((och' (k0_off98 L k) (k0_off98_inb L k k0_h16)).view.loc (thr d L) ↦[(och' (k0_off98 L k) (k0_off98_inb L k k0_h16)).view.set]{fullShare} fd)) : sProp 𝕄)
      ⊢ Books d L I fo fd 10 15 5 9 := by
  have eA :=
    putW d L I (10) (9) (by omega) (by omega) (k0_off81_inb k k0_h14) (k0_off81_eq k) (by omega) <|
    putW d L I (9) (8) (by omega) (by omega) (k0_off62_inb k k0_h11) (k0_off62_eq k) (by omega) <|
    putW d L I (8) (7) (by omega) (by omega) (k0_off43_inb k k0_h8) (k0_off43_eq k) (by omega) <|
    putW d L I (7) (6) (by omega) (by omega) (k0_off24_inb k k0_h5) (k0_off24_eq k) (by omega) <|
    putW d L I (6) (5) (by omega) (by omega) (k0_off4_inb k k0_h2) (k0_off4_eq k) (by omega) <|
    putW d L I (5) (4) (by omega) (by omega) hg4 rfl (by omega) <|
    putW d L I (4) (3) (by omega) (by omega) hg3 rfl (by omega) <|
    putW d L I (3) (2) (by omega) (by omega) hg2 rfl (by omega) <|
    putW d L I (2) (1) (by omega) (by omega) hg1 rfl (by omega) <|
    putW d L I (1) (0) (by omega) (by omega) hg0 rfl (by omega) <|
    rfl
  have eC :=
    putO d L fd (5) (4) (by omega) (by omega) (k0_off98_inb L k k0_h16) (k0_off98_eq L k) (by omega) (by omega) <|
    putO d L fd (4) (3) (by omega) (by omega) (k0_off79_inb L k k0_h13) (k0_off79_eq L k) (by omega) (by omega) <|
    putO d L fd (3) (2) (by omega) (by omega) (k0_off60_inb L k k0_h10) (k0_off60_eq L k) (by omega) (by omega) <|
    putO d L fd (2) (1) (by omega) (by omega) (k0_off41_inb L k k0_h7) (k0_off41_eq L k) (by omega) (by omega) <|
    putO d L fd (1) (0) (by omega) (by omega) (k0_off22_inb L k k0_h4) (k0_off22_eq L k) (by omega) (by omega) <|
    rfl
  unfold Books
  iintro ⟨⟨A, B, C, D⟩, W0, W1, W2, W3, W4, W5, W6, W7, W8, W9, O0, O1, O2, O3, O4⟩
  isplitl [A W0 W1 W2 W3 W4 W5 W6 W7 W8 W9]
  · iapply (eq_entails' eA)
    isplitl [W9]; · iexact W9
    isplitl [W8]; · iexact W8
    isplitl [W7]; · iexact W7
    isplitl [W6]; · iexact W6
    isplitl [W5]; · iexact W5
    isplitl [W4]; · iexact W4
    isplitl [W3]; · iexact W3
    isplitl [W2]; · iexact W2
    isplitl [W1]; · iexact W1
    isplitl [W0]; · iexact W0
    iexact A
  isplitl [B]; · iexact B
  isplitl [C O0 O1 O2 O3 O4]
  · iapply (eq_entails' eC)
    isplitl [O4]; · iexact O4
    isplitl [O3]; · iexact O3
    isplitl [O2]; · iexact O2
    isplitl [O1]; · iexact O1
    isplitl [O0]; · iexact O0
    iexact C
  iexact D

/-! ## The last trip -/

theorem books_take_last (d : Dev nD) (L : grid0.Coords) (I : Buf (Elt F) ((thr d L).loc cc0_scratch1)) (fo fd : Buf (Elt F) ((thr d L).loc main_v2_scv))
    (k : Fin k0_t1_loop.trips) (hk : k.val = 63) (k0_h2 : k0_cond2 k = 1#1) (k0_h5 : k0_cond5 k = 1#1) (k0_h8 : k0_cond8 k = 1#1) (k0_h11 : k0_cond11 k = 1#1) (k0_h14 : k0_cond14 k = 1#1) (k0_h1 : k0_cond1 k = 1#1) (k0_h4 : k0_cond4 k = 1#1) (k0_h7 : k0_cond7 k = 1#1) (k0_h10 : k0_cond10 k = 1#1) (k0_h13 : k0_cond13 k = 1#1) (k0_h16 : k0_cond16 k = 1#1) (k0_h19 : k0_cond19 k = 1#1) (k0_h22 : k0_cond22 k = 1#1) (k0_h25 : k0_cond25 k = 1#1) (k0_h28 : k0_cond28 k = 1#1) :
    (Books d L I fo fd 630 635 625 629 : sProp 𝕄)
      ⊢ iprop(Books d L I fo fd 630 640 625 639
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((och' (k0_off2 L k) (k0_off2_inb L k k0_h1)).view.loc (thr d L) ↦[(och' (k0_off2 L k) (k0_off2_inb L k k0_h1)).view.set]{fullShare} fo)
        ∗ ((och' (k0_off22 L k) (k0_off22_inb L k k0_h4)).view.loc (thr d L) ↦[(och' (k0_off22 L k) (k0_off22_inb L k k0_h4)).view.set]{fullShare} fo)
        ∗ ((och' (k0_off41 L k) (k0_off41_inb L k k0_h7)).view.loc (thr d L) ↦[(och' (k0_off41 L k) (k0_off41_inb L k k0_h7)).view.set]{fullShare} fo)
        ∗ ((och' (k0_off60 L k) (k0_off60_inb L k k0_h10)).view.loc (thr d L) ↦[(och' (k0_off60 L k) (k0_off60_inb L k k0_h10)).view.set]{fullShare} fo)
        ∗ ((och' (k0_off79 L k) (k0_off79_inb L k k0_h13)).view.loc (thr d L) ↦[(och' (k0_off79 L k) (k0_off79_inb L k k0_h13)).view.set]{fullShare} fo)
        ∗ ((och' (k0_off98 L k) (k0_off98_inb L k k0_h16)).view.loc (thr d L) ↦[(och' (k0_off98 L k) (k0_off98_inb L k k0_h16)).view.set]{fullShare} fo)
        ∗ ((och' (k0_off117 L k) (k0_off117_inb L k k0_h19)).view.loc (thr d L) ↦[(och' (k0_off117 L k) (k0_off117_inb L k k0_h19)).view.set]{fullShare} fo)
        ∗ ((och' (k0_off136 L k) (k0_off136_inb L k k0_h22)).view.loc (thr d L) ↦[(och' (k0_off136 L k) (k0_off136_inb L k k0_h22)).view.set]{fullShare} fo)
        ∗ ((och' (k0_off155 L k) (k0_off155_inb L k k0_h25)).view.loc (thr d L) ↦[(och' (k0_off155 L k) (k0_off155_inb L k k0_h25)).view.set]{fullShare} fo)
        ∗ ((och' (k0_off174 L k) (k0_off174_inb L k k0_h28)).view.loc (thr d L) ↦[(och' (k0_off174 L k) (k0_off174_inb L k k0_h28)).view.set]{fullShare} fo)) := by
  have eB :=
    takeW d L I (635) (636) (by omega) (by omega) (k0_off4_inb k k0_h2) (k0_off4_eq k) (by omega) <|
    takeW d L I (636) (637) (by omega) (by omega) (k0_off24_inb k k0_h5) (k0_off24_eq k) (by omega) <|
    takeW d L I (637) (638) (by omega) (by omega) (k0_off43_inb k k0_h8) (k0_off43_eq k) (by omega) <|
    takeW d L I (638) (639) (by omega) (by omega) (k0_off62_inb k k0_h11) (k0_off62_eq k) (by omega) <|
    takeW d L I (639) (640) (by omega) (by omega) (k0_off81_inb k k0_h14) (k0_off81_eq k) (by omega) <|
    rfl
  have eD :=
    takeO d L fo (629) (630) (by omega) (by omega) (k0_off2_inb L k k0_h1) (k0_off2_eq' L k k0_h1) (by omega) (by omega) <|
    takeO d L fo (630) (631) (by omega) (by omega) (k0_off22_inb L k k0_h4) (k0_off22_eq L k) (by omega) (by omega) <|
    takeO d L fo (631) (632) (by omega) (by omega) (k0_off41_inb L k k0_h7) (k0_off41_eq L k) (by omega) (by omega) <|
    takeO d L fo (632) (633) (by omega) (by omega) (k0_off60_inb L k k0_h10) (k0_off60_eq L k) (by omega) (by omega) <|
    takeO d L fo (633) (634) (by omega) (by omega) (k0_off79_inb L k k0_h13) (k0_off79_eq L k) (by omega) (by omega) <|
    takeO d L fo (634) (635) (by omega) (by omega) (k0_off98_inb L k k0_h16) (k0_off98_eq L k) (by omega) (by omega) <|
    takeO d L fo (635) (636) (by omega) (by omega) (k0_off117_inb L k k0_h19) (k0_off117_eq L k) (by omega) (by omega) <|
    takeO d L fo (636) (637) (by omega) (by omega) (k0_off136_inb L k k0_h22) (k0_off136_eq L k) (by omega) (by omega) <|
    takeO d L fo (637) (638) (by omega) (by omega) (k0_off155_inb L k k0_h25) (k0_off155_eq L k) (by omega) (by omega) <|
    takeO d L fo (638) (639) (by omega) (by omega) (k0_off174_inb L k k0_h28) (k0_off174_eq L k) (by omega) (by omega) <|
    rfl
  unfold Books
  iintro ⟨A, B, C, D⟩
  ihave B2 := (eq_entails eB) $$ B
  icases B2 with ⟨W0, W1, W2, W3, W4, B⟩
  ihave D2 := (eq_entails eD) $$ D
  icases D2 with ⟨O0, O1, O2, O3, O4, O5, O6, O7, O8, O9, D⟩
  isplitl [A B C D]
  · isplitl [A]; · iexact A
    isplitl [B]; · iexact B
    isplitl [C]; · iexact C
    iexact D
  isplitl [W0]; · iexact W0
  isplitl [W1]; · iexact W1
  isplitl [W2]; · iexact W2
  isplitl [W3]; · iexact W3
  isplitl [W4]; · iexact W4
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  iexact O9

theorem books_put_last (d : Dev nD) (L : grid0.Coords) (I : Buf (Elt F) ((thr d L).loc cc0_scratch1)) (fo fd : Buf (Elt F) ((thr d L).loc main_v2_scv))
    (k k' : Fin k0_t1_loop.trips) (hk : k.val = 63) (hk' : k'.val = 62) (k0_h2 : k0_cond2 k = 1#1) (k0_h5 : k0_cond5 k = 1#1) (k0_h8 : k0_cond8 k = 1#1) (k0_h11 : k0_cond11 k = 1#1) (k0_h14 : k0_cond14 k = 1#1) (k0_h1 : k0_cond1 k = 1#1) (k0_p17 : k0_cond17 k' = 1#1) (k0_p20 : k0_cond20 k' = 1#1) (k0_p23 : k0_cond23 k' = 1#1) (k0_p26 : k0_cond26 k' = 1#1) (k0_p29 : k0_cond29 k' = 1#1) (k0_p19 : k0_cond19 k' = 1#1) (k0_p22 : k0_cond22 k' = 1#1) (k0_p25 : k0_cond25 k' = 1#1) (k0_p28 : k0_cond28 k' = 1#1) :
    (iprop(Books d L I fo fd 630 640 625 639
        ∗ ((win' (k0_off100 k') (k0_off100_inb k' k0_p17)).view.loc (thr d L) ↦[(win' (k0_off100 k') (k0_off100_inb k' k0_p17)).view.set]{fullShare} I)
        ∗ ((win' (k0_off119 k') (k0_off119_inb k' k0_p20)).view.loc (thr d L) ↦[(win' (k0_off119 k') (k0_off119_inb k' k0_p20)).view.set]{fullShare} I)
        ∗ ((win' (k0_off138 k') (k0_off138_inb k' k0_p23)).view.loc (thr d L) ↦[(win' (k0_off138 k') (k0_off138_inb k' k0_p23)).view.set]{fullShare} I)
        ∗ ((win' (k0_off157 k') (k0_off157_inb k' k0_p26)).view.loc (thr d L) ↦[(win' (k0_off157 k') (k0_off157_inb k' k0_p26)).view.set]{fullShare} I)
        ∗ ((win' (k0_off176 k') (k0_off176_inb k' k0_p29)).view.loc (thr d L) ↦[(win' (k0_off176 k') (k0_off176_inb k' k0_p29)).view.set]{fullShare} I)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((och' (k0_off117 L k') (k0_off117_inb L k' k0_p19)).view.loc (thr d L) ↦[(och' (k0_off117 L k') (k0_off117_inb L k' k0_p19)).view.set]{fullShare} fd)
        ∗ ((och' (k0_off136 L k') (k0_off136_inb L k' k0_p22)).view.loc (thr d L) ↦[(och' (k0_off136 L k') (k0_off136_inb L k' k0_p22)).view.set]{fullShare} fd)
        ∗ ((och' (k0_off155 L k') (k0_off155_inb L k' k0_p25)).view.loc (thr d L) ↦[(och' (k0_off155 L k') (k0_off155_inb L k' k0_p25)).view.set]{fullShare} fd)
        ∗ ((och' (k0_off174 L k') (k0_off174_inb L k' k0_p28)).view.loc (thr d L) ↦[(och' (k0_off174 L k') (k0_off174_inb L k' k0_p28)).view.set]{fullShare} fd)
        ∗ ((och' (k0_off2 L k) (k0_off2_inb L k k0_h1)).view.loc (thr d L) ↦[(och' (k0_off2 L k) (k0_off2_inb L k k0_h1)).view.set]{fullShare} fd)) : sProp 𝕄)
      ⊢ Books d L I fo fd 640 640 630 639 := by
  have eA :=
    putW d L I (640) (639) (by omega) (by omega) (k0_off81_inb k k0_h14) (k0_off81_eq k) (by omega) <|
    putW d L I (639) (638) (by omega) (by omega) (k0_off62_inb k k0_h11) (k0_off62_eq k) (by omega) <|
    putW d L I (638) (637) (by omega) (by omega) (k0_off43_inb k k0_h8) (k0_off43_eq k) (by omega) <|
    putW d L I (637) (636) (by omega) (by omega) (k0_off24_inb k k0_h5) (k0_off24_eq k) (by omega) <|
    putW d L I (636) (635) (by omega) (by omega) (k0_off4_inb k k0_h2) (k0_off4_eq k) (by omega) <|
    putW d L I (635) (634) (by omega) (by omega) (k0_off176_inb k' k0_p29) (k0_off176_eq k') (by omega) <|
    putW d L I (634) (633) (by omega) (by omega) (k0_off157_inb k' k0_p26) (k0_off157_eq k') (by omega) <|
    putW d L I (633) (632) (by omega) (by omega) (k0_off138_inb k' k0_p23) (k0_off138_eq k') (by omega) <|
    putW d L I (632) (631) (by omega) (by omega) (k0_off119_inb k' k0_p20) (k0_off119_eq k') (by omega) <|
    putW d L I (631) (630) (by omega) (by omega) (k0_off100_inb k' k0_p17) (k0_off100_eq k') (by omega) <|
    rfl
  have eC :=
    putO d L fd (630) (629) (by omega) (by omega) (k0_off2_inb L k k0_h1) (k0_off2_eq' L k k0_h1) (by omega) (by omega) <|
    putO d L fd (629) (628) (by omega) (by omega) (k0_off174_inb L k' k0_p28) (k0_off174_eq L k') (by omega) (by omega) <|
    putO d L fd (628) (627) (by omega) (by omega) (k0_off155_inb L k' k0_p25) (k0_off155_eq L k') (by omega) (by omega) <|
    putO d L fd (627) (626) (by omega) (by omega) (k0_off136_inb L k' k0_p22) (k0_off136_eq L k') (by omega) (by omega) <|
    putO d L fd (626) (625) (by omega) (by omega) (k0_off117_inb L k' k0_p19) (k0_off117_eq L k') (by omega) (by omega) <|
    rfl
  unfold Books
  iintro ⟨⟨A, B, C, D⟩, W0, W1, W2, W3, W4, W5, W6, W7, W8, W9, O0, O1, O2, O3, O4⟩
  isplitl [A W0 W1 W2 W3 W4 W5 W6 W7 W8 W9]
  · iapply (eq_entails' eA)
    isplitl [W9]; · iexact W9
    isplitl [W8]; · iexact W8
    isplitl [W7]; · iexact W7
    isplitl [W6]; · iexact W6
    isplitl [W5]; · iexact W5
    isplitl [W4]; · iexact W4
    isplitl [W3]; · iexact W3
    isplitl [W2]; · iexact W2
    isplitl [W1]; · iexact W1
    isplitl [W0]; · iexact W0
    iexact A
  isplitl [B]; · iexact B
  isplitl [C O0 O1 O2 O3 O4]
  · iapply (eq_entails' eC)
    isplitl [O4]; · iexact O4
    isplitl [O3]; · iexact O3
    isplitl [O2]; · iexact O2
    isplitl [O1]; · iexact O1
    isplitl [O0]; · iexact O0
    iexact C
  iexact D

/-! ## After the loop -/

theorem books_take_end (d : Dev nD) (L : grid0.Coords) (I : Buf (Elt F) ((thr d L).loc cc0_scratch1)) (fo fd : Buf (Elt F) ((thr d L).loc main_v2_scv)) :
    (Books d L I fo fd 640 640 630 639 : sProp 𝕄)
      ⊢ iprop(Books d L I fo fd 640 640 630 640 ∗ ((och' (k0_off193 L) (k0_off193_inb L)).view.loc (thr d L) ↦[(och' (k0_off193 L) (k0_off193_inb L)).view.set]{fullShare} fo)) := by
  have eD :=
    takeO d L fo (639) (640) (by omega) (by omega) (k0_off193_inb L) (k0_off193_eq L) (by omega) (by omega) <|
    rfl
  unfold Books
  iintro ⟨A, B, C, D⟩
  ihave D2 := (eq_entails eD) $$ D
  icases D2 with ⟨O0, D⟩
  isplitl [A B C D]
  · isplitl [A]; · iexact A
    isplitl [B]; · iexact B
    isplitl [C]; · iexact C
    iexact D
  iexact O0

theorem books_put_end (d : Dev nD) (L : grid0.Coords) (I : Buf (Elt F) ((thr d L).loc cc0_scratch1)) (fo fd : Buf (Elt F) ((thr d L).loc main_v2_scv))
    (k : Fin k0_t1_loop.trips) (hk : k.val = 63) (k0_h4 : k0_cond4 k = 1#1) (k0_h7 : k0_cond7 k = 1#1) (k0_h10 : k0_cond10 k = 1#1) (k0_h13 : k0_cond13 k = 1#1) (k0_h16 : k0_cond16 k = 1#1) (k0_h19 : k0_cond19 k = 1#1) (k0_h22 : k0_cond22 k = 1#1) (k0_h25 : k0_cond25 k = 1#1) (k0_h28 : k0_cond28 k = 1#1) :
    (iprop(Books d L I fo fd 640 640 630 640
        ∗ ((och' (k0_off22 L k) (k0_off22_inb L k k0_h4)).view.loc (thr d L) ↦[(och' (k0_off22 L k) (k0_off22_inb L k k0_h4)).view.set]{fullShare} fd)
        ∗ ((och' (k0_off41 L k) (k0_off41_inb L k k0_h7)).view.loc (thr d L) ↦[(och' (k0_off41 L k) (k0_off41_inb L k k0_h7)).view.set]{fullShare} fd)
        ∗ ((och' (k0_off60 L k) (k0_off60_inb L k k0_h10)).view.loc (thr d L) ↦[(och' (k0_off60 L k) (k0_off60_inb L k k0_h10)).view.set]{fullShare} fd)
        ∗ ((och' (k0_off79 L k) (k0_off79_inb L k k0_h13)).view.loc (thr d L) ↦[(och' (k0_off79 L k) (k0_off79_inb L k k0_h13)).view.set]{fullShare} fd)
        ∗ ((och' (k0_off98 L k) (k0_off98_inb L k k0_h16)).view.loc (thr d L) ↦[(och' (k0_off98 L k) (k0_off98_inb L k k0_h16)).view.set]{fullShare} fd)
        ∗ ((och' (k0_off117 L k) (k0_off117_inb L k k0_h19)).view.loc (thr d L) ↦[(och' (k0_off117 L k) (k0_off117_inb L k k0_h19)).view.set]{fullShare} fd)
        ∗ ((och' (k0_off136 L k) (k0_off136_inb L k k0_h22)).view.loc (thr d L) ↦[(och' (k0_off136 L k) (k0_off136_inb L k k0_h22)).view.set]{fullShare} fd)
        ∗ ((och' (k0_off155 L k) (k0_off155_inb L k k0_h25)).view.loc (thr d L) ↦[(och' (k0_off155 L k) (k0_off155_inb L k k0_h25)).view.set]{fullShare} fd)
        ∗ ((och' (k0_off174 L k) (k0_off174_inb L k k0_h28)).view.loc (thr d L) ↦[(och' (k0_off174 L k) (k0_off174_inb L k k0_h28)).view.set]{fullShare} fd)
        ∗ ((och' (k0_off193 L) (k0_off193_inb L)).view.loc (thr d L) ↦[(och' (k0_off193 L) (k0_off193_inb L)).view.set]{fullShare} fd)) : sProp 𝕄)
      ⊢ Books d L I fo fd 640 640 640 640 := by
  have eC :=
    putO d L fd (640) (639) (by omega) (by omega) (k0_off193_inb L) (k0_off193_eq L) (by omega) (by omega) <|
    putO d L fd (639) (638) (by omega) (by omega) (k0_off174_inb L k k0_h28) (k0_off174_eq L k) (by omega) (by omega) <|
    putO d L fd (638) (637) (by omega) (by omega) (k0_off155_inb L k k0_h25) (k0_off155_eq L k) (by omega) (by omega) <|
    putO d L fd (637) (636) (by omega) (by omega) (k0_off136_inb L k k0_h22) (k0_off136_eq L k) (by omega) (by omega) <|
    putO d L fd (636) (635) (by omega) (by omega) (k0_off117_inb L k k0_h19) (k0_off117_eq L k) (by omega) (by omega) <|
    putO d L fd (635) (634) (by omega) (by omega) (k0_off98_inb L k k0_h16) (k0_off98_eq L k) (by omega) (by omega) <|
    putO d L fd (634) (633) (by omega) (by omega) (k0_off79_inb L k k0_h13) (k0_off79_eq L k) (by omega) (by omega) <|
    putO d L fd (633) (632) (by omega) (by omega) (k0_off60_inb L k k0_h10) (k0_off60_eq L k) (by omega) (by omega) <|
    putO d L fd (632) (631) (by omega) (by omega) (k0_off41_inb L k k0_h7) (k0_off41_eq L k) (by omega) (by omega) <|
    putO d L fd (631) (630) (by omega) (by omega) (k0_off22_inb L k k0_h4) (k0_off22_eq L k) (by omega) (by omega) <|
    rfl
  unfold Books
  iintro ⟨⟨A, B, C, D⟩, O0, O1, O2, O3, O4, O5, O6, O7, O8, O9⟩
  isplitl [A ]
  · iexact A
  isplitl [B]; · iexact B
  isplitl [C O0 O1 O2 O3 O4 O5 O6 O7 O8 O9]
  · iapply (eq_entails' eC)
    isplitl [O9]; · iexact O9
    isplitl [O8]; · iexact O8
    isplitl [O7]; · iexact O7
    isplitl [O6]; · iexact O6
    isplitl [O5]; · iexact O5
    isplitl [O4]; · iexact O4
    isplitl [O3]; · iexact O3
    isplitl [O2]; · iexact O2
    isplitl [O1]; · iexact O1
    isplitl [O0]; · iexact O0
    iexact C
  iexact D

end Cert.Proof.KB
end
-- ==== Proof.KBRegionPre.lean ====
/-
  Small steps shared by the three regions of the main loop: the books at equal bounds, a returned chunk's value turned
  into the specification's through the closed forms of its offsets, a case split read at the case that holds, and
  the waits a trip adds.
-/
import proofs.«206279_g3710851744293_cont_8to1_b_253_31_alg».proof.Proof.KBPre
import proofs.«206279_g3710851744293_cont_8to1_b_253_31_alg».proof.Proof.KBChunk
import proofs.«206279_g3710851744293_cont_8to1_b_253_31_alg».proof.Proof.KBBooksLemmas2
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-! ## Small steps the three regions share -/

/-- The books at equal bounds. -/
theorem Books_congr (d : Dev nD) (L : grid0.Coords) (I : Buf (Elt F) ((thr d L).loc cc0_scratch1)) (fo fd : Buf (Elt F) ((thr d L).loc main_v2_scv))
    (a b c e a' b' c' e' : ℕ) (ha : a = a') (hb : b = b') (hc : c = c') (he : e = e') :
    (Books d L I fo fd a b c e : sProp 𝕄) ⊢ Books d L I fo fd a' b' c' e' := by
  subst ha; subst hb; subst hc; subst he; exact .rfl

/-- A chunk that holds the row operation of the rows its window named holds the specification's values, the two
    offsets given by their closed forms: the window's offset is 200 (batch row - first row) + first position. -/
theorem chunk_to_GK' (d : Dev nD) (L : grid0.Coords) (fi : Buf (Elt F) (iLoc d)) (fp : Buf (Elt F) (pLoc d))
    (ft : Buf (Elt F) ((thr d L).loc main_arg1_scv))
    (I : Buf (Elt F) ((thr d L).loc cc0_scratch1)) (P : Buf (Elt F) ((thr d L).loc cc0_scratch0))
    (hI : ∀ j : Fin 25600, I (ValueIdx.ix1 j) = fi (ValueIdx.ix1 ⟨25600 * (wid L).val + j.val, by have := (wid L).isLt; have := j.isLt; omega⟩))
    (hP : ∀ y, P y = fp y)
    {off3 : Fin 3 → ℕ} (h3 : ∀ a, off3 a + S1x40x128.size a ≤ S4096x200x128.size a)
    {off1 : Fin 1 → ℕ} (h1 : ∀ a, off1 a + S40.size a ≤ S25600.size a) {r c x : ℕ}
    (e3 : off3 = ![r, c, 0]) (e1 : off1 = ![x]) (hh : Fin 5)
    (hrow : 256 * (L 1).val + 128 * (L 0).val ≤ r) (hoff : x = 200 * (r - (256 * (L 1).val + 128 * (L 0).val)) + c) (hcol : c = 40 * hh.val)
    (f : Buf (Elt F) ((thr d L).loc main_v2_scv))
    (hf : (och' off3 h3).view.read (Elt F) f = rowOp hh P (Gw d L ft I off1 h1)) :
    (((och' off3 h3).view.loc (thr d L) ↦[(och' off3 h3).view.set]{fullShare} f) : sProp 𝕄)
      ⊢ ((och' off3 h3).view.loc (thr d L) ↦[(och' off3 h3).view.set]{fullShare} GK fi fp ft) := by
  subst e3; subst e1
  exact chunk_to_GK d L fi fp ft I P hI hP _ h3 _ h1 hh hrow hoff hcol rfl f hf

/-- A case split on a decidable fact, read at the case that holds. -/
theorem dite_pos_ent {M : Type} [URA M] {c : Prop} [Decidable c] (hc : c) {t : c → sProp M} {e : ¬ c → sProp M} :
    (dite c t e) ⊢ t hc := by rw [dif_pos hc]
theorem dite_pos_ent' {M : Type} [URA M] {c : Prop} [Decidable c] (hc : c) {t : c → sProp M} {e : ¬ c → sProp M} :
    t hc ⊢ (dite c t e) := by rw [dif_pos hc]

/-- What a trip adds to the waits stays within what the loop may add. -/
theorem waits_trans {W W' W'' : Waits sig (HIx 1)} (h : ∀ p ∈ W', p ∈ W ∨ p.2 = none) (h' : ∀ p ∈ W'', p ∈ W' ∨ p.2 = none) :
    ∀ p ∈ W'', p ∈ W ∨ p.2 = none := by
  intro p hp
  rcases h' p hp with h1 | h1
  · exact h p h1
  · exact .inr h1

end Cert.Proof.KB
end
-- ==== Proof.KBTripFirstV.lean ====
import proofs.«206279_g3710851744293_cont_8to1_b_253_31_alg».proof.Proof.KBValLemmas
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

-- The first trip with the contents tracked: what each slot reads before it, what each slot and chunk reads after it.
set_option maxHeartbeats 1600000 in
theorem trip_firstV (d : Dev nD) (L : grid0.Coords) (O : CellTallies nD τ sig (HIx 1)) (W : Waits sig (HIx 1)) (hO : ∀ g, O g none = 0)
    (k : Fin k0_t1_loop.trips) (v2 : BitVec 32)
    (q0 q1 q2 q3 q4 q5 : PosShare TreeShare)
    (ft : Buf (Elt F) ((thr d L).loc main_arg1_scv)) (fo : Buf (Elt F) ((thr d L).loc main_v2_scv))
    (P : Buf (Elt F) ((thr d L).loc cc0_scratch0)) (I : Buf (Elt F) ((thr d L).loc cc0_scratch1))
    (hI : ∀ j, (I j).toNat < 100000) (k0_h2 : k0_cond2 k = 1#1) (k0_h4 : k0_cond4 k = 1#1) (k0_h5 : k0_cond5 k = 1#1) (k0_h7 : k0_cond7 k = 1#1) (k0_h8 : k0_cond8 k = 1#1) (k0_h10 : k0_cond10 k = 1#1) (k0_h11 : k0_cond11 k = 1#1) (k0_h13 : k0_cond13 k = 1#1) (k0_h14 : k0_cond14 k = 1#1) (k0_h16 : k0_cond16 k = 1#1) (k0_h17 : k0_cond17 k = 1#1) (k0_h18 : k0_cond18 k = 1#1) (k0_h19 : k0_cond19 k = 1#1) (k0_h20 : k0_cond20 k = 1#1) (k0_h21 : k0_cond21 k = 1#1) (k0_h22 : k0_cond22 k = 1#1) (k0_h23 : k0_cond23 k = 1#1) (k0_h24 : k0_cond24 k = 1#1) (k0_h25 : k0_cond25 k = 1#1) (k0_h26 : k0_cond26 k = 1#1) (k0_h27 : k0_cond27 k = 1#1) (k0_h28 : k0_cond28 k = 1#1) (k0_h29 : k0_cond29 k = 1#1) (k0_h30 : k0_cond30 k = 1#1) (k0_n1 : ¬ k0_cond1 k = 1#1) (k0_n3 : ¬ k0_cond3 k = 1#1) (k0_n6 : ¬ k0_cond6 k = 1#1) (k0_n9 : ¬ k0_cond9 k = 1#1) (k0_n12 : ¬ k0_cond12 k = 1#1) (k0_n15 : ¬ k0_cond15 k = 1#1)
    (X5 X6 X7 X8 X9 Xg0 Xg1 Xg2 Xg3 Xg4 : Buf (Elt F) ((thr d L).loc cc0_scratch2))
    (go0 go1 go2 go3 go4 : Fin 1 → ℕ) (hgo0 : ∀ a, go0 a + S40.size a ≤ S25600.size a) (hgo1 : ∀ a, go1 a + S40.size a ≤ S25600.size a) (hgo2 : ∀ a, go2 a + S40.size a ≤ S25600.size a) (hgo3 : ∀ a, go3 a + S40.size a ≤ S25600.size a) (hgo4 : ∀ a, go4 a + S40.size a ≤ S25600.size a)
    (hXg0 : (slot0).view.read (Elt F) Xg0 = Gw d L ft I go0 hgo0)
    (hXg1 : (slot1).view.read (Elt F) Xg1 = Gw d L ft I go1 hgo1)
    (hXg2 : (slot2).view.read (Elt F) Xg2 = Gw d L ft I go2 hgo2)
    (hXg3 : (slot3).view.read (Elt F) Xg3 = Gw d L ft I go3 hgo3)
    (hXg4 : (slot4).view.read (Elt F) Xg4 = Gw d L ft I go4 hgo4) :
    (iprop(levAts (K (F := F)).L (K (F := F)).lev
        ∗ ((tV).view.loc (thr d L) ↦{q5} ft)
        ∗ ((s6).view.loc (thr d L) ↦{fullShare} P)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((win' (k0_off100 k) (k0_off100_inb k k0_h17)).view.loc (thr d L) ↦[(win' (k0_off100 k) (k0_off100_inb k k0_h17)).view.set]{fullShare} I)
        ∗ ((win' (k0_off119 k) (k0_off119_inb k k0_h20)).view.loc (thr d L) ↦[(win' (k0_off119 k) (k0_off119_inb k k0_h20)).view.set]{fullShare} I)
        ∗ ((win' (k0_off138 k) (k0_off138_inb k k0_h23)).view.loc (thr d L) ↦[(win' (k0_off138 k) (k0_off138_inb k k0_h23)).view.set]{fullShare} I)
        ∗ ((win' (k0_off157 k) (k0_off157_inb k k0_h26)).view.loc (thr d L) ↦[(win' (k0_off157 k) (k0_off157_inb k k0_h26)).view.set]{fullShare} I)
        ∗ ((win' (k0_off176 k) (k0_off176_inb k k0_h29)).view.loc (thr d L) ↦[(win' (k0_off176 k) (k0_off176_inb k k0_h29)).view.set]{fullShare} I)
        ∗ ((och' (k0_off22 L k) (k0_off22_inb L k k0_h4)).view.loc (thr d L) ↦[(och' (k0_off22 L k) (k0_off22_inb L k k0_h4)).view.set]{fullShare} fo)
        ∗ ((och' (k0_off41 L k) (k0_off41_inb L k k0_h7)).view.loc (thr d L) ↦[(och' (k0_off41 L k) (k0_off41_inb L k k0_h7)).view.set]{fullShare} fo)
        ∗ ((och' (k0_off60 L k) (k0_off60_inb L k k0_h10)).view.loc (thr d L) ↦[(och' (k0_off60 L k) (k0_off60_inb L k k0_h10)).view.set]{fullShare} fo)
        ∗ ((och' (k0_off79 L k) (k0_off79_inb L k k0_h13)).view.loc (thr d L) ↦[(och' (k0_off79 L k) (k0_off79_inb L k k0_h13)).view.set]{fullShare} fo)
        ∗ ((och' (k0_off98 L k) (k0_off98_inb L k k0_h16)).view.loc (thr d L) ↦[(och' (k0_off98 L k) (k0_off98_inb L k k0_h16)).view.set]{fullShare} fo)
        ∗ ((och' (k0_off117 L k) (k0_off117_inb L k k0_h19)).view.loc (thr d L) ↦[(och' (k0_off117 L k) (k0_off117_inb L k k0_h19)).view.set]{fullShare} fo)
        ∗ ((och' (k0_off136 L k) (k0_off136_inb L k k0_h22)).view.loc (thr d L) ↦[(och' (k0_off136 L k) (k0_off136_inb L k k0_h22)).view.set]{fullShare} fo)
        ∗ ((och' (k0_off155 L k) (k0_off155_inb L k k0_h25)).view.loc (thr d L) ↦[(och' (k0_off155 L k) (k0_off155_inb L k k0_h25)).view.set]{fullShare} fo)
        ∗ ((och' (k0_off174 L k) (k0_off174_inb L k k0_h28)).view.loc (thr d L) ↦[(och' (k0_off174 L k) (k0_off174_inb L k k0_h28)).view.set]{fullShare} fo)
        ∗ ((slot5).view.loc (thr d L) ↦[(slot5).view.set]{fullShare} X5)
        ∗ ((slot6).view.loc (thr d L) ↦[(slot6).view.set]{fullShare} X6)
        ∗ ((slot7).view.loc (thr d L) ↦[(slot7).view.set]{fullShare} X7)
        ∗ ((slot8).view.loc (thr d L) ↦[(slot8).view.set]{fullShare} X8)
        ∗ ((slot9).view.loc (thr d L) ↦[(slot9).view.set]{fullShare} X9)
        ∗ semVal ((thr d L, SemLoc.dma cc0_scratch13.sem) : GSem nD τ sig) 0
        ∗ semVal ((thr d L, SemLoc.dma cc0_scratch14.sem) : GSem nD τ sig) 0
        ∗ semVal ((thr d L, SemLoc.dma cc0_scratch15.sem) : GSem nD τ sig) 0
        ∗ semVal ((thr d L, SemLoc.dma cc0_scratch16.sem) : GSem nD τ sig) 0
        ∗ semVal ((thr d L, SemLoc.dma cc0_scratch17.sem) : GSem nD τ sig) 0
        ∗ semVal ((thr d L, SemLoc.dma cc0_scratch18.sem) : GSem nD τ sig) 0
        ∗ semVal ((thr d L, SemLoc.dma cc0_scratch19.sem) : GSem nD τ sig) 0
        ∗ semVal ((thr d L, SemLoc.dma cc0_scratch20.sem) : GSem nD τ sig) 0
        ∗ semVal ((thr d L, SemLoc.dma cc0_scratch21.sem) : GSem nD τ sig) 0
        ∗ semVal ((thr d L, SemLoc.dma cc0_scratch22.sem) : GSem nD τ sig) 0
        ∗ semVal ((thr d L, SemLoc.dma cc0_scratch8.sem) : GSem nD τ sig) 0
        ∗ semVal ((thr d L, SemLoc.dma cc0_scratch9.sem) : GSem nD τ sig) 0
        ∗ semVal ((thr d L, SemLoc.dma cc0_scratch10.sem) : GSem nD τ sig) 0
        ∗ semVal ((thr d L, SemLoc.dma cc0_scratch11.sem) : GSem nD τ sig) 0
        ∗ semVal ((thr d L, SemLoc.dma cc0_scratch12.sem) : GSem nD τ sig) 0
        ∗ Transfers.Flight countersEmb (thr d L) (SemLoc.dma cc0_scratch3.sem) default 163840
            iprop((((slot0).view.loc (thr d L) ↦[(slot0).view.set]{fullShare} Xg0) ∗ ((win' go0 hgo0).view.loc (thr d L) ↦[(win' go0 hgo0).view.set]{fullShare} I))
              ∗ ((tV).view.loc (thr d L) ↦[(tW).view.set]{q0} ft))
        ∗ ((tV).view.loc (thr d L) ↦[Finset.univ \ (tW).view.set]{q0} ft)
        ∗ Transfers.Flight countersEmb (thr d L) (SemLoc.dma cc0_scratch4.sem) default 163840
            iprop((((slot1).view.loc (thr d L) ↦[(slot1).view.set]{fullShare} Xg1) ∗ ((win' go1 hgo1).view.loc (thr d L) ↦[(win' go1 hgo1).view.set]{fullShare} I))
              ∗ ((tV).view.loc (thr d L) ↦[(tW).view.set]{q1} ft))
        ∗ ((tV).view.loc (thr d L) ↦[Finset.univ \ (tW).view.set]{q1} ft)
        ∗ Transfers.Flight countersEmb (thr d L) (SemLoc.dma cc0_scratch5.sem) default 163840
            iprop((((slot2).view.loc (thr d L) ↦[(slot2).view.set]{fullShare} Xg2) ∗ ((win' go2 hgo2).view.loc (thr d L) ↦[(win' go2 hgo2).view.set]{fullShare} I))
              ∗ ((tV).view.loc (thr d L) ↦[(tW).view.set]{q2} ft))
        ∗ ((tV).view.loc (thr d L) ↦[Finset.univ \ (tW).view.set]{q2} ft)
        ∗ Transfers.Flight countersEmb (thr d L) (SemLoc.dma cc0_scratch6.sem) default 163840
            iprop((((slot3).view.loc (thr d L) ↦[(slot3).view.set]{fullShare} Xg3) ∗ ((win' go3 hgo3).view.loc (thr d L) ↦[(win' go3 hgo3).view.set]{fullShare} I))
              ∗ ((tV).view.loc (thr d L) ↦[(tW).view.set]{q3} ft))
        ∗ ((tV).view.loc (thr d L) ↦[Finset.univ \ (tW).view.set]{q3} ft)
        ∗ Transfers.Flight countersEmb (thr d L) (SemLoc.dma cc0_scratch7.sem) default 163840
            iprop((((slot4).view.loc (thr d L) ↦[(slot4).view.set]{fullShare} Xg4) ∗ ((win' go4 hgo4).view.loc (thr d L) ↦[(win' go4 hgo4).view.set]{fullShare} I))
              ∗ ((tV).view.loc (thr d L) ↦[(tW).view.set]{q4} ft))
        ∗ ((tV).view.loc (thr d L) ↦[Finset.univ \ (tW).view.set]{q4} ft)
        ∗ owes (thr d L) O W) : sProp 𝕄)
      ⊢ wp frame (wpE (defs₀ (F := F)) 𝒱₀ (thr d L) none) Set.univ
          (k0_t1_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k ⟨⟩)
          fun _ => iprop(∃ (W' : Waits sig (HIx 1)) (Y0 Y1 Y2 Y3 Y4 Z5 Z6 Z7 Z8 X9' : Buf (Elt F) ((thr d L).loc cc0_scratch2)) (g5 g6 g7 g8 : Buf (Elt F) ((thr d L).loc main_v2_scv)),
            owes (thr d L) O W'
            ∗ ((s6).view.loc (thr d L) ↦{fullShare} P)
            ∗ ((tV).view.loc (thr d L) ↦{q3} ft)
            ∗ ((win' go0 hgo0).view.loc (thr d L) ↦[(win' go0 hgo0).view.set]{fullShare} I)
            ∗ ((win' go1 hgo1).view.loc (thr d L) ↦[(win' go1 hgo1).view.set]{fullShare} I)
            ∗ ((win' go2 hgo2).view.loc (thr d L) ↦[(win' go2 hgo2).view.set]{fullShare} I)
            ∗ ((win' go3 hgo3).view.loc (thr d L) ↦[(win' go3 hgo3).view.set]{fullShare} I)
            ∗ ((win' go4 hgo4).view.loc (thr d L) ↦[(win' go4 hgo4).view.set]{fullShare} I)
            ∗ ((win' (k0_off4 k) (k0_off4_inb k k0_h2)).view.loc (thr d L) ↦[(win' (k0_off4 k) (k0_off4_inb k k0_h2)).view.set]{fullShare} I)
            ∗ ((win' (k0_off24 k) (k0_off24_inb k k0_h5)).view.loc (thr d L) ↦[(win' (k0_off24 k) (k0_off24_inb k k0_h5)).view.set]{fullShare} I)
            ∗ ((win' (k0_off43 k) (k0_off43_inb k k0_h8)).view.loc (thr d L) ↦[(win' (k0_off43 k) (k0_off43_inb k k0_h8)).view.set]{fullShare} I)
            ∗ ((win' (k0_off62 k) (k0_off62_inb k k0_h11)).view.loc (thr d L) ↦[(win' (k0_off62 k) (k0_off62_inb k k0_h11)).view.set]{fullShare} I)
            ∗ ((win' (k0_off81 k) (k0_off81_inb k k0_h14)).view.loc (thr d L) ↦[(win' (k0_off81 k) (k0_off81_inb k k0_h14)).view.set]{fullShare} I)
            ∗ (∃ f, ((och' (k0_off22 L k) (k0_off22_inb L k k0_h4)).view.loc (thr d L) ↦[(och' (k0_off22 L k) (k0_off22_inb L k k0_h4)).view.set]{fullShare} f) ∗ ⌜(och' (k0_off22 L k) (k0_off22_inb L k k0_h4)).view.read (Elt F) f = rowOp 0 P (Gw d L ft I go0 hgo0)⌝)
            ∗ (∃ f, ((och' (k0_off41 L k) (k0_off41_inb L k k0_h7)).view.loc (thr d L) ↦[(och' (k0_off41 L k) (k0_off41_inb L k k0_h7)).view.set]{fullShare} f) ∗ ⌜(och' (k0_off41 L k) (k0_off41_inb L k k0_h7)).view.read (Elt F) f = rowOp 1 P (Gw d L ft I go1 hgo1)⌝)
            ∗ (∃ f, ((och' (k0_off60 L k) (k0_off60_inb L k k0_h10)).view.loc (thr d L) ↦[(och' (k0_off60 L k) (k0_off60_inb L k k0_h10)).view.set]{fullShare} f) ∗ ⌜(och' (k0_off60 L k) (k0_off60_inb L k k0_h10)).view.read (Elt F) f = rowOp 2 P (Gw d L ft I go2 hgo2)⌝)
            ∗ (∃ f, ((och' (k0_off79 L k) (k0_off79_inb L k k0_h13)).view.loc (thr d L) ↦[(och' (k0_off79 L k) (k0_off79_inb L k k0_h13)).view.set]{fullShare} f) ∗ ⌜(och' (k0_off79 L k) (k0_off79_inb L k k0_h13)).view.read (Elt F) f = rowOp 3 P (Gw d L ft I go3 hgo3)⌝)
            ∗ (∃ f, ((och' (k0_off98 L k) (k0_off98_inb L k k0_h16)).view.loc (thr d L) ↦[(och' (k0_off98 L k) (k0_off98_inb L k k0_h16)).view.set]{fullShare} f) ∗ ⌜(och' (k0_off98 L k) (k0_off98_inb L k k0_h16)).view.read (Elt F) f = rowOp 4 P (Gw d L ft I go4 hgo4)⌝)
            ∗ ((slot9).view.loc (thr d L) ↦[(slot9).view.set]{fullShare} X9')
            ∗ semVal ((thr d L, SemLoc.dma cc0_scratch22.sem) : GSem nD τ sig) 0
            ∗ semVal ((thr d L, SemLoc.dma cc0_scratch13.sem) : GSem nD τ sig) 0
            ∗ semVal ((thr d L, SemLoc.dma cc0_scratch14.sem) : GSem nD τ sig) 0
            ∗ semVal ((thr d L, SemLoc.dma cc0_scratch15.sem) : GSem nD τ sig) 0
            ∗ semVal ((thr d L, SemLoc.dma cc0_scratch16.sem) : GSem nD τ sig) 0
            ∗ semVal ((thr d L, SemLoc.dma cc0_scratch17.sem) : GSem nD τ sig) 0
            ∗ semVal ((thr d L, SemLoc.dma cc0_scratch8.sem) : GSem nD τ sig) 0
            ∗ semVal ((thr d L, SemLoc.dma cc0_scratch9.sem) : GSem nD τ sig) 0
            ∗ semVal ((thr d L, SemLoc.dma cc0_scratch10.sem) : GSem nD τ sig) 0
            ∗ semVal ((thr d L, SemLoc.dma cc0_scratch11.sem) : GSem nD τ sig) 0
            ∗ semVal ((thr d L, SemLoc.dma cc0_scratch12.sem) : GSem nD τ sig) 0
            ∗ Transfers.Flight countersEmb (thr d L) (SemLoc.dma cc0_scratch3.sem) default 163840
            iprop((((slot0).view.loc (thr d L) ↦[(slot0).view.set]{fullShare} Y0) ∗ ((win' (k0_off100 k) (k0_off100_inb k k0_h17)).view.loc (thr d L) ↦[(win' (k0_off100 k) (k0_off100_inb k k0_h17)).view.set]{fullShare} I))
              ∗ ((tV).view.loc (thr d L) ↦[(tW).view.set]{q4} ft))
            ∗ ((tV).view.loc (thr d L) ↦[Finset.univ \ (tW).view.set]{q4} ft)
            ∗ Transfers.Flight countersEmb (thr d L) (SemLoc.dma cc0_scratch4.sem) default 163840
            iprop((((slot1).view.loc (thr d L) ↦[(slot1).view.set]{fullShare} Y1) ∗ ((win' (k0_off119 k) (k0_off119_inb k k0_h20)).view.loc (thr d L) ↦[(win' (k0_off119 k) (k0_off119_inb k k0_h20)).view.set]{fullShare} I))
              ∗ ((tV).view.loc (thr d L) ↦[(tW).view.set]{q5} ft))
            ∗ ((tV).view.loc (thr d L) ↦[Finset.univ \ (tW).view.set]{q5} ft)
            ∗ Transfers.Flight countersEmb (thr d L) (SemLoc.dma cc0_scratch5.sem) default 163840
            iprop((((slot2).view.loc (thr d L) ↦[(slot2).view.set]{fullShare} Y2) ∗ ((win' (k0_off138 k) (k0_off138_inb k k0_h23)).view.loc (thr d L) ↦[(win' (k0_off138 k) (k0_off138_inb k k0_h23)).view.set]{fullShare} I))
              ∗ ((tV).view.loc (thr d L) ↦[(tW).view.set]{q0} ft))
            ∗ ((tV).view.loc (thr d L) ↦[Finset.univ \ (tW).view.set]{q0} ft)
            ∗ Transfers.Flight countersEmb (thr d L) (SemLoc.dma cc0_scratch6.sem) default 163840
            iprop((((slot3).view.loc (thr d L) ↦[(slot3).view.set]{fullShare} Y3) ∗ ((win' (k0_off157 k) (k0_off157_inb k k0_h26)).view.loc (thr d L) ↦[(win' (k0_off157 k) (k0_off157_inb k k0_h26)).view.set]{fullShare} I))
              ∗ ((tV).view.loc (thr d L) ↦[(tW).view.set]{q1} ft))
            ∗ ((tV).view.loc (thr d L) ↦[Finset.univ \ (tW).view.set]{q1} ft)
            ∗ Transfers.Flight countersEmb (thr d L) (SemLoc.dma cc0_scratch7.sem) default 163840
            iprop((((slot4).view.loc (thr d L) ↦[(slot4).view.set]{fullShare} Y4) ∗ ((win' (k0_off176 k) (k0_off176_inb k k0_h29)).view.loc (thr d L) ↦[(win' (k0_off176 k) (k0_off176_inb k k0_h29)).view.set]{fullShare} I))
              ∗ ((tV).view.loc (thr d L) ↦[(tW).view.set]{q2} ft))
            ∗ ((tV).view.loc (thr d L) ↦[Finset.univ \ (tW).view.set]{q2} ft)
            ∗ Transfers.Flight countersEmb (thr d L) (SemLoc.dma cc0_scratch18.sem) default 163840
            iprop(((och' (k0_off117 L k) (k0_off117_inb L k k0_h19)).view.loc (thr d L) ↦[(och' (k0_off117 L k) (k0_off117_inb L k k0_h19)).view.set]{fullShare} g5) ∗ ((slot5).view.loc (thr d L) ↦[(slot5).view.set]{fullShare} Z5))
            ∗ Transfers.Flight countersEmb (thr d L) (SemLoc.dma cc0_scratch19.sem) default 163840
            iprop(((och' (k0_off136 L k) (k0_off136_inb L k k0_h22)).view.loc (thr d L) ↦[(och' (k0_off136 L k) (k0_off136_inb L k k0_h22)).view.set]{fullShare} g6) ∗ ((slot6).view.loc (thr d L) ↦[(slot6).view.set]{fullShare} Z6))
            ∗ Transfers.Flight countersEmb (thr d L) (SemLoc.dma cc0_scratch20.sem) default 163840
            iprop(((och' (k0_off155 L k) (k0_off155_inb L k k0_h25)).view.loc (thr d L) ↦[(och' (k0_off155 L k) (k0_off155_inb L k k0_h25)).view.set]{fullShare} g7) ∗ ((slot7).view.loc (thr d L) ↦[(slot7).view.set]{fullShare} Z7))
            ∗ Transfers.Flight countersEmb (thr d L) (SemLoc.dma cc0_scratch21.sem) default 163840
            iprop(((och' (k0_off174 L k) (k0_off174_inb L k k0_h28)).view.loc (thr d L) ↦[(och' (k0_off174 L k) (k0_off174_inb L k k0_h28)).view.set]{fullShare} g8) ∗ ((slot8).view.loc (thr d L) ↦[(slot8).view.set]{fullShare} Z8))
            ∗ ⌜∀ p ∈ W', p ∈ W ∨ p.2 = none⌝
            ∗ ⌜(slot9).view.read (Elt F) X9' = rowOp 4 P (Gw d L ft I (k0_off81 k) (k0_off81_inb k k0_h14))⌝
            ∗ ⌜(slot0).view.read (Elt F) Y0 = Gw d L ft I (k0_off100 k) (k0_off100_inb k k0_h17)⌝
            ∗ ⌜(slot1).view.read (Elt F) Y1 = Gw d L ft I (k0_off119 k) (k0_off119_inb k k0_h20)⌝
            ∗ ⌜(slot2).view.read (Elt F) Y2 = Gw d L ft I (k0_off138 k) (k0_off138_inb k k0_h23)⌝
            ∗ ⌜(slot3).view.read (Elt F) Y3 = Gw d L ft I (k0_off157 k) (k0_off157_inb k k0_h26)⌝
            ∗ ⌜(slot4).view.read (Elt F) Y4 = Gw d L ft I (k0_off176 k) (k0_off176_inb k k0_h29)⌝
            ∗ ⌜(och' (k0_off117 L k) (k0_off117_inb L k k0_h19)).view.read (Elt F) g5 = rowOp 0 P (Gw d L ft I (k0_off4 k) (k0_off4_inb k k0_h2))⌝
            ∗ ⌜(och' (k0_off136 L k) (k0_off136_inb L k k0_h22)).view.read (Elt F) g6 = rowOp 1 P (Gw d L ft I (k0_off24 k) (k0_off24_inb k k0_h5))⌝
            ∗ ⌜(och' (k0_off155 L k) (k0_off155_inb L k k0_h25)).view.read (Elt F) g7 = rowOp 2 P (Gw d L ft I (k0_off43 k) (k0_off43_inb k k0_h8))⌝
            ∗ ⌜(och' (k0_off174 L k) (k0_off174_inb L k k0_h28)).view.read (Elt F) g8 = rowOp 3 P (Gw d L ft I (k0_off62 k) (k0_off62_inb k k0_h11))⌝) := by
  have htrips0 : Scf.trips k0_t2_loop.lb k0_t2_loop.ub k0_t2_loop.st = 40 := by decide
  have htrips1 : Scf.trips k0_t3_loop.lb k0_t3_loop.ub k0_t3_loop.st = 40 := by decide
  have htrips2 : Scf.trips k0_t4_loop.lb k0_t4_loop.ub k0_t4_loop.st = 40 := by decide
  have htrips3 : Scf.trips k0_t5_loop.lb k0_t5_loop.ub k0_t5_loop.st = 40 := by decide
  have htrips4 : Scf.trips k0_t6_loop.lb k0_t6_loop.ub k0_t6_loop.st = 40 := by decide
  have htrips5 : Scf.trips k0_t7_loop.lb k0_t7_loop.ub k0_t7_loop.st = 40 := by decide
  have htrips6 : Scf.trips k0_t8_loop.lb k0_t8_loop.ub k0_t8_loop.st = 40 := by decide
  have htrips7 : Scf.trips k0_t9_loop.lb k0_t9_loop.ub k0_t9_loop.st = 40 := by decide
  have htrips8 : Scf.trips k0_t10_loop.lb k0_t10_loop.ub k0_t10_loop.st = 40 := by decide
  have htrips9 : Scf.trips k0_t11_loop.lb k0_t11_loop.ub k0_t11_loop.st = 40 := by decide
  unfold k0_t1_body
  iintro ⟨#Hlv, Ht5, H6, Hwin0, Hwin1, Hwin2, Hwin3, Hwin4, Hwin5, Hwin6, Hwin7, Hwin8, Hwin9, Hoch1, Hoch2, Hoch3, Hoch4, Hoch5, Hoch6, Hoch7, Hoch8, Hoch9, Hs5, Hs6, Hs7, Hs8, H9, Hw0, Hw1, Hw2, Hw3, Hw4, Hw5, Hw6, Hw7, Hw8, Hw9, Hg5, Hg6, Hg7, Hg8, Hg9, GF0, RT0, GF1, RT1, GF2, RT2, GF3, RT3, GF4, RT4, HO⟩
  ihave Hmw := ((K (F := F)).mayWaits_none (thr := thr d L) hO) $$ Hlv
  have hin : ∀ (r : Rect S25600) (hr) (x : r.shape.Idx),
      BitVec.toNat (View.read (Elt F) ((s7).slice r hr).view I x) < 100000 := fun r hr x => by
    rw [View.read_apply]; exact hI _
  sl_exec
  sl_for (invInV0 d L P (Gw d L ft I go0 hgo0)) $$ [H6 GF0_dst]
  case region =>
    intro r _
    have hr40 : r.val < 40 := lt_of_lt_of_eq r.isLt htrips0
    unfold invInV0
    iintro ⟨H6, %f, Hs, %hf⟩
    sl_exec
    sl_step
    isplitl [H6]; · iexact H6
    iexists _; isplitl [Hs]; · iexact Hs
    ipureintro
    sl_unfold_run_names
    intro y
    exact rowStep (slot0).view 0 r.val hr40 P _ f (k0_off6_eq r) (k0_off7_eq r) (k0_off8_eq r) (k0_off9_eq r) (k0_off10_eq r) (k0_off11_eq r) (k0_off12_eq r) (k0_off13_eq r) (k0_off14_eq r) (k0_off15_eq r) (k0_off16_eq r) (k0_off17_eq r) (k0_off18_eq r) (k0_off19_eq r) (k0_off20_eq r) (k0_off21_eq r) hf y
  · unfold invInV0
    isplitl [H6]; · iexact H6
    iexists _; isplitl [GF0_dst]; · iexact GF0_dst
    ipureintro; intro y; rw [if_neg (Nat.not_lt_zero _)]
    exact congrFun hXg0 y
  iintro %_ HI
  unfold invInV0
  icases HI with ⟨H6, %fs0, Hsl0, %hf0⟩
  have hr0 : (slot0).view.read (Elt F) fs0 = rowOp 0 P (Gw d L ft I go0 hgo0) := by
    funext y; rw [hf0 y, htrips0, if_pos (show (y 0).val < 40 from (y 0).isLt)]
  sl_exec
  sl_for (invInV1 d L P (Gw d L ft I go1 hgo1)) $$ [H6 GF1_dst]
  case region =>
    intro r _
    have hr40 : r.val < 40 := lt_of_lt_of_eq r.isLt htrips1
    unfold invInV1
    iintro ⟨H6, %f, Hs, %hf⟩
    sl_exec
    sl_step
    isplitl [H6]; · iexact H6
    iexists _; isplitl [Hs]; · iexact Hs
    ipureintro
    sl_unfold_run_names
    intro y
    exact rowStep (slot1).view 1 r.val hr40 P _ f (k0_off25_eq r) (k0_off26_eq r) (k0_off27_eq r) (k0_off28_eq r) (k0_off29_eq r) (k0_off30_eq r) (k0_off31_eq r) (k0_off32_eq r) (k0_off33_eq r) (k0_off34_eq r) (k0_off35_eq r) (k0_off36_eq r) (k0_off37_eq r) (k0_off38_eq r) (k0_off39_eq r) (k0_off40_eq r) hf y
  · unfold invInV1
    isplitl [H6]; · iexact H6
    iexists _; isplitl [GF1_dst]; · iexact GF1_dst
    ipureintro; intro y; rw [if_neg (Nat.not_lt_zero _)]
    exact congrFun hXg1 y
  iintro %_ HI
  unfold invInV1
  icases HI with ⟨H6, %fs1, Hsl1, %hf1⟩
  have hr1 : (slot1).view.read (Elt F) fs1 = rowOp 1 P (Gw d L ft I go1 hgo1) := by
    funext y; rw [hf1 y, htrips1, if_pos (show (y 0).val < 40 from (y 0).isLt)]
  sl_exec
  sl_for (invInV2 d L P (Gw d L ft I go2 hgo2)) $$ [H6 GF2_dst]
  case region =>
    intro r _
    have hr40 : r.val < 40 := lt_of_lt_of_eq r.isLt htrips2
    unfold invInV2
    iintro ⟨H6, %f, Hs, %hf⟩
    sl_exec
    sl_step
    isplitl [H6]; · iexact H6
    iexists _; isplitl [Hs]; · iexact Hs
    ipureintro
    sl_unfold_run_names
    intro y
    exact rowStep (slot2).view 2 r.val hr40 P _ f (k0_off44_eq r) (k0_off45_eq r) (k0_off46_eq r) (k0_off47_eq r) (k0_off48_eq r) (k0_off49_eq r) (k0_off50_eq r) (k0_off51_eq r) (k0_off52_eq r) (k0_off53_eq r) (k0_off54_eq r) (k0_off55_eq r) (k0_off56_eq r) (k0_off57_eq r) (k0_off58_eq r) (k0_off59_eq r) hf y
  · unfold invInV2
    isplitl [H6]; · iexact H6
    iexists _; isplitl [GF2_dst]; · iexact GF2_dst
    ipureintro; intro y; rw [if_neg (Nat.not_lt_zero _)]
    exact congrFun hXg2 y
  iintro %_ HI
  unfold invInV2
  icases HI with ⟨H6, %fs2, Hsl2, %hf2⟩
  have hr2 : (slot2).view.read (Elt F) fs2 = rowOp 2 P (Gw d L ft I go2 hgo2) := by
    funext y; rw [hf2 y, htrips2, if_pos (show (y 0).val < 40 from (y 0).isLt)]
  sl_exec
  sl_for (invInV3 d L P (Gw d L ft I go3 hgo3)) $$ [H6 GF3_dst]
  case region =>
    intro r _
    have hr40 : r.val < 40 := lt_of_lt_of_eq r.isLt htrips3
    unfold invInV3
    iintro ⟨H6, %f, Hs, %hf⟩
    sl_exec
    sl_step
    isplitl [H6]; · iexact H6
    iexists _; isplitl [Hs]; · iexact Hs
    ipureintro
    sl_unfold_run_names
    intro y
    exact rowStep (slot3).view 3 r.val hr40 P _ f (k0_off63_eq r) (k0_off64_eq r) (k0_off65_eq r) (k0_off66_eq r) (k0_off67_eq r) (k0_off68_eq r) (k0_off69_eq r) (k0_off70_eq r) (k0_off71_eq r) (k0_off72_eq r) (k0_off73_eq r) (k0_off74_eq r) (k0_off75_eq r) (k0_off76_eq r) (k0_off77_eq r) (k0_off78_eq r) hf y
  · unfold invInV3
    isplitl [H6]; · iexact H6
    iexists _; isplitl [GF3_dst]; · iexact GF3_dst
    ipureintro; intro y; rw [if_neg (Nat.not_lt_zero _)]
    exact congrFun hXg3 y
  iintro %_ HI
  unfold invInV3
  icases HI with ⟨H6, %fs3, Hsl3, %hf3⟩
  have hr3 : (slot3).view.read (Elt F) fs3 = rowOp 3 P (Gw d L ft I go3 hgo3) := by
    funext y; rw [hf3 y, htrips3, if_pos (show (y 0).val < 40 from (y 0).isLt)]
  sl_exec
  sl_for (invInV4 d L P (Gw d L ft I go4 hgo4)) $$ [H6 GF4_dst]
  case region =>
    intro r _
    have hr40 : r.val < 40 := lt_of_lt_of_eq r.isLt htrips4
    unfold invInV4
    iintro ⟨H6, %f, Hs, %hf⟩
    sl_exec
    sl_step
    isplitl [H6]; · iexact H6
    iexists _; isplitl [Hs]; · iexact Hs
    ipureintro
    sl_unfold_run_names
    intro y
    exact rowStep (slot4).view 4 r.val hr40 P _ f (k0_off82_eq r) (k0_off83_eq r) (k0_off84_eq r) (k0_off85_eq r) (k0_off86_eq r) (k0_off87_eq r) (k0_off88_eq r) (k0_off89_eq r) (k0_off90_eq r) (k0_off91_eq r) (k0_off92_eq r) (k0_off93_eq r) (k0_off94_eq r) (k0_off95_eq r) (k0_off96_eq r) (k0_off97_eq r) hf y
  · unfold invInV4
    isplitl [H6]; · iexact H6
    iexists _; isplitl [GF4_dst]; · iexact GF4_dst
    ipureintro; intro y; rw [if_neg (Nat.not_lt_zero _)]
    exact congrFun hXg4 y
  iintro %_ HI
  unfold invInV4
  icases HI with ⟨H6, %fs4, Hsl4, %hf4⟩
  have hr4 : (slot4).view.read (Elt F) fs4 = rowOp 4 P (Gw d L ft I go4 hgo4) := by
    funext y; rw [hf4 y, htrips4, if_pos (show (y 0).val < 40 from (y 0).isLt)]
  sl_exec
  sl_for (invInV5 d L P (Gw d L ft I (k0_off4 k) (k0_off4_inb k k0_h2))) $$ [H6 Hs5]
  case region =>
    intro r _
    have hr40 : r.val < 40 := lt_of_lt_of_eq r.isLt htrips5
    unfold invInV5
    iintro ⟨H6, %f, Hs, %hf⟩
    sl_exec
    sl_step
    isplitl [H6]; · iexact H6
    iexists _; isplitl [Hs]; · iexact Hs
    ipureintro
    sl_unfold_run_names
    intro y
    exact rowStep (slot5).view 0 r.val hr40 P _ f (k0_off101_eq r) (k0_off102_eq r) (k0_off103_eq r) (k0_off104_eq r) (k0_off105_eq r) (k0_off106_eq r) (k0_off107_eq r) (k0_off108_eq r) (k0_off109_eq r) (k0_off110_eq r) (k0_off111_eq r) (k0_off112_eq r) (k0_off113_eq r) (k0_off114_eq r) (k0_off115_eq r) (k0_off116_eq r) hf y
  · unfold invInV5
    isplitl [H6]; · iexact H6
    iexists _; isplitl [Hs5]; · iexact Hs5
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV5
  icases HI with ⟨H6, %fs5, Hsl5, %hf5⟩
  have hr5 : (slot5).view.read (Elt F) fs5 = rowOp 0 P (Gw d L ft I (k0_off4 k) (k0_off4_inb k k0_h2)) := by
    funext y; rw [hf5 y, htrips5, if_pos (show (y 0).val < 40 from (y 0).isLt)]
  sl_exec
  sl_for (invInV6 d L P (Gw d L ft I (k0_off24 k) (k0_off24_inb k k0_h5))) $$ [H6 Hs6]
  case region =>
    intro r _
    have hr40 : r.val < 40 := lt_of_lt_of_eq r.isLt htrips6
    unfold invInV6
    iintro ⟨H6, %f, Hs, %hf⟩
    sl_exec
    sl_step
    isplitl [H6]; · iexact H6
    iexists _; isplitl [Hs]; · iexact Hs
    ipureintro
    sl_unfold_run_names
    intro y
    exact rowStep (slot6).view 1 r.val hr40 P _ f (k0_off120_eq r) (k0_off121_eq r) (k0_off122_eq r) (k0_off123_eq r) (k0_off124_eq r) (k0_off125_eq r) (k0_off126_eq r) (k0_off127_eq r) (k0_off128_eq r) (k0_off129_eq r) (k0_off130_eq r) (k0_off131_eq r) (k0_off132_eq r) (k0_off133_eq r) (k0_off134_eq r) (k0_off135_eq r) hf y
  · unfold invInV6
    isplitl [H6]; · iexact H6
    iexists _; isplitl [Hs6]; · iexact Hs6
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV6
  icases HI with ⟨H6, %fs6, Hsl6, %hf6⟩
  have hr6 : (slot6).view.read (Elt F) fs6 = rowOp 1 P (Gw d L ft I (k0_off24 k) (k0_off24_inb k k0_h5)) := by
    funext y; rw [hf6 y, htrips6, if_pos (show (y 0).val < 40 from (y 0).isLt)]
  sl_exec
  sl_for (invInV7 d L P (Gw d L ft I (k0_off43 k) (k0_off43_inb k k0_h8))) $$ [H6 Hs7]
  case region =>
    intro r _
    have hr40 : r.val < 40 := lt_of_lt_of_eq r.isLt htrips7
    unfold invInV7
    iintro ⟨H6, %f, Hs, %hf⟩
    sl_exec
    sl_step
    isplitl [H6]; · iexact H6
    iexists _; isplitl [Hs]; · iexact Hs
    ipureintro
    sl_unfold_run_names
    intro y
    exact rowStep (slot7).view 2 r.val hr40 P _ f (k0_off139_eq r) (k0_off140_eq r) (k0_off141_eq r) (k0_off142_eq r) (k0_off143_eq r) (k0_off144_eq r) (k0_off145_eq r) (k0_off146_eq r) (k0_off147_eq r) (k0_off148_eq r) (k0_off149_eq r) (k0_off150_eq r) (k0_off151_eq r) (k0_off152_eq r) (k0_off153_eq r) (k0_off154_eq r) hf y
  · unfold invInV7
    isplitl [H6]; · iexact H6
    iexists _; isplitl [Hs7]; · iexact Hs7
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV7
  icases HI with ⟨H6, %fs7, Hsl7, %hf7⟩
  have hr7 : (slot7).view.read (Elt F) fs7 = rowOp 2 P (Gw d L ft I (k0_off43 k) (k0_off43_inb k k0_h8)) := by
    funext y; rw [hf7 y, htrips7, if_pos (show (y 0).val < 40 from (y 0).isLt)]
  sl_exec
  sl_for (invInV8 d L P (Gw d L ft I (k0_off62 k) (k0_off62_inb k k0_h11))) $$ [H6 Hs8]
  case region =>
    intro r _
    have hr40 : r.val < 40 := lt_of_lt_of_eq r.isLt htrips8
    unfold invInV8
    iintro ⟨H6, %f, Hs, %hf⟩
    sl_exec
    sl_step
    isplitl [H6]; · iexact H6
    iexists _; isplitl [Hs]; · iexact Hs
    ipureintro
    sl_unfold_run_names
    intro y
    exact rowStep (slot8).view 3 r.val hr40 P _ f (k0_off158_eq r) (k0_off159_eq r) (k0_off160_eq r) (k0_off161_eq r) (k0_off162_eq r) (k0_off163_eq r) (k0_off164_eq r) (k0_off165_eq r) (k0_off166_eq r) (k0_off167_eq r) (k0_off168_eq r) (k0_off169_eq r) (k0_off170_eq r) (k0_off171_eq r) (k0_off172_eq r) (k0_off173_eq r) hf y
  · unfold invInV8
    isplitl [H6]; · iexact H6
    iexists _; isplitl [Hs8]; · iexact Hs8
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV8
  icases HI with ⟨H6, %fs8, Hsl8, %hf8⟩
  have hr8 : (slot8).view.read (Elt F) fs8 = rowOp 3 P (Gw d L ft I (k0_off62 k) (k0_off62_inb k k0_h11)) := by
    funext y; rw [hf8 y, htrips8, if_pos (show (y 0).val < 40 from (y 0).isLt)]
  sl_exec
  sl_for (invInV9 d L P (Gw d L ft I (k0_off81 k) (k0_off81_inb k k0_h14))) $$ [H6 H9]
  case region =>
    intro r _
    have hr40 : r.val < 40 := lt_of_lt_of_eq r.isLt htrips9
    unfold invInV9
    iintro ⟨H6, %f, Hs, %hf⟩
    sl_exec
    sl_step
    isplitl [H6]; · iexact H6
    iexists _; isplitl [Hs]; · iexact Hs
    ipureintro
    sl_unfold_run_names
    intro y
    exact rowStep (slot9).view 4 r.val hr40 P _ f (k0_off177_eq r) (k0_off178_eq r) (k0_off179_eq r) (k0_off180_eq r) (k0_off181_eq r) (k0_off182_eq r) (k0_off183_eq r) (k0_off184_eq r) (k0_off185_eq r) (k0_off186_eq r) (k0_off187_eq r) (k0_off188_eq r) (k0_off189_eq r) (k0_off190_eq r) (k0_off191_eq r) (k0_off192_eq r) hf y
  · unfold invInV9
    isplitl [H6]; · iexact H6
    iexists _; isplitl [H9]; · iexact H9
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV9
  icases HI with ⟨H6, %fs9, Hsl9, %hf9⟩
  have hr9 : (slot9).view.read (Elt F) fs9 = rowOp 4 P (Gw d L ft I (k0_off81 k) (k0_off81_inb k k0_h14)) := by
    funext y; rw [hf9 y, htrips9, if_pos (show (y 0).val < 40 from (y 0).isLt)]
  sl_exec
  sl_step
  iexists _, _, _, _, _, _, _, _, _, _, _, _, _, _, _
  isplitl [HO]; · iexact HO
  isplitl [H6]; · iexact H6
  isplitl [RT3]; · iexact RT3
  isplitl [GF0_dst_and]; · iexact GF0_dst_and
  isplitl [GF1_dst_and]; · iexact GF1_dst_and
  isplitl [GF2_dst_and]; · iexact GF2_dst_and
  isplitl [GF3_dst_and]; · iexact GF3_dst_and
  isplitl [GF4_dst_and]; · iexact GF4_dst_and
  isplitl [Hwin0]; · iexact Hwin0
  isplitl [Hwin1]; · iexact Hwin1
  isplitl [Hwin2]; · iexact Hwin2
  isplitl [Hwin3]; · iexact Hwin3
  isplitl [Hwin4]; · iexact Hwin4
  isplitl [Hoch1]
  · iexists _; isplitl [Hoch1]; · iexact Hoch1
    ipureintro; refine (View.read_writes_whole _ _ _).trans ?_; sl_unfold_run_names; exact hr0
  isplitl [Hoch2]
  · iexists _; isplitl [Hoch2]; · iexact Hoch2
    ipureintro; refine (View.read_writes_whole _ _ _).trans ?_; sl_unfold_run_names; exact hr1
  isplitl [Hoch3]
  · iexists _; isplitl [Hoch3]; · iexact Hoch3
    ipureintro; refine (View.read_writes_whole _ _ _).trans ?_; sl_unfold_run_names; exact hr2
  isplitl [Hoch4]
  · iexists _; isplitl [Hoch4]; · iexact Hoch4
    ipureintro; refine (View.read_writes_whole _ _ _).trans ?_; sl_unfold_run_names; exact hr3
  isplitl [Hoch5]
  · iexists _; isplitl [Hoch5]; · iexact Hoch5
    ipureintro; refine (View.read_writes_whole _ _ _).trans ?_; sl_unfold_run_names; exact hr4
  isplitl [Hsl9]; · iexact Hsl9
  isplitl [Hw9]; · iexact Hw9
  isplitl [Hw0]; · iexact Hw0
  isplitl [Hw1]; · iexact Hw1
  isplitl [Hw2]; · iexact Hw2
  isplitl [Hw3]; · iexact Hw3
  isplitl [Hw4]; · iexact Hw4
  isplitl [Hg5]; · iexact Hg5
  isplitl [Hg6]; · iexact Hg6
  isplitl [Hg7]; · iexact Hg7
  isplitl [Hg8]; · iexact Hg8
  isplitl [Hg9]; · iexact Hg9
  isplitl [GF0]; · iexact GF0
  isplitl [RT4]; · iexact RT4
  isplitl [GF1]; · iexact GF1
  isplitl [Ht5]; · iexact Ht5
  isplitl [GF2]; · iexact GF2
  isplitl [RT0]; · iexact RT0
  isplitl [GF3]; · iexact GF3
  isplitl [RT1]; · iexact RT1
  isplitl [GF4]; · iexact GF4
  isplitl [RT2]; · iexact RT2
  isplitl [Hw5]; · iexact Hw5
  isplitl [Hw6]; · iexact Hw6
  isplitl [Hw7]; · iexact Hw7
  isplitl [Hw8]; · iexact Hw8
  isplitr
  · ipureintro
    repeat' apply waits_step
    exact fun p hp => .inl hp
  isplitr; · ipureintro; exact hr9
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact hr5
  isplitr; · ipureintro; refine (View.read_writes_whole _ _ _).trans ?_; sl_unfold_run_names; exact hr6
  isplitr; · ipureintro; refine (View.read_writes_whole _ _ _).trans ?_; sl_unfold_run_names; exact hr7
  ipureintro; refine (View.read_writes_whole _ _ _).trans ?_; sl_unfold_run_names; exact hr8

end Cert.Proof.KB
end
-- ==== Proof.KBRegionFirst.lean ====
/-
  The first trip of the main loop takes the loop's invariant before it to the invariant after it: the five gathers
  started before the loop are the transfers in flight, no write-out is waited for, and the chunks the trip computes
  are the first five of the tile's rows.
-/
import proofs.«206279_g3710851744293_cont_8to1_b_253_31_alg».proof.Proof.KBRegionPre
import proofs.«206279_g3710851744293_cont_8to1_b_253_31_alg».proof.Proof.KBTripFirstV
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

theorem region_first (d : Dev nD) (L : grid0.Coords) (O : CellTallies nD τ sig (HIx 1)) (W : Waits sig (HIx 1)) (hO : ∀ g, O g none = 0)
    (fi : Buf (Elt F) (iLoc d)) (fp : Buf (Elt F) (pLoc d))
    (ft : Buf (Elt F) ((thr d L).loc main_arg1_scv)) (fo : Buf (Elt F) ((thr d L).loc main_v2_scv))
    (P : Buf (Elt F) ((thr d L).loc cc0_scratch0)) (I : Buf (Elt F) ((thr d L).loc cc0_scratch1))
    (hI : ∀ j, (I j).toNat < 100000)
    (hIdef : ∀ j : Fin 25600, I (ValueIdx.ix1 j) = fi (ValueIdx.ix1 ⟨25600 * (wid L).val + j.val, by have := (wid L).isLt; have := j.isLt; omega⟩))
    (hP : ∀ y, P y = fp y) (k : Fin k0_t1_loop.trips) (hk : k.val = 0) (v2 : BitVec 32) :
    (Inv d L ft I P O W fo (GK fi fp ft) k.val () : sProp 𝕄)
      ⊢ wp frame (wpE (defs₀ (F := F)) 𝒱₀ (thr d L) none) Set.univ
          (k0_t1_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k ⟨⟩)
          fun _ => Inv d L ft I P O W fo (GK fi fp ft) (k.val + 1) () := by
  obtain ⟨⟨k0_h2, k0_h4, k0_h5, k0_h7, k0_h8, k0_h10, k0_h11, k0_h13, k0_h14, k0_h16, k0_h17, k0_h18, k0_h19, k0_h20, k0_h21, k0_h22, k0_h23, k0_h24, k0_h25, k0_h26, k0_h27, k0_h28, k0_h29, k0_h30⟩, k0_n1, k0_n3, k0_n6, k0_n9, k0_n12, k0_n15⟩ := conds_first k hk
  have hk62 : k.val ≤ 62 := by omega
  have hk0' : ¬ (k.val + 1 = 0) := by omega
  have hk63' : k.val + 1 ≤ 63 := by omega
  unfold Inv RingMid Ring0
  rw [if_pos hk, if_neg hk0', if_pos hk63']
  iintro ⟨%W', #Hlev, Howes, %hW', H6, Hbooks, %q0, %q1, %q2, %q3, %q4, %q5, %X5, %X6, %X7, %X8, %X9, %Xg0, %Xg1, %Xg2, %Xg3, %Xg4, %hSh, Ht5, Hs5, Hs6, Hs7, Hs8, Hs9, S13, S14, S15, S16, S17, S18, S19, S20, S21, S22, S8, S9, S10, S11, S12, GF0, RT0, GF1, RT1, GF2, RT2, GF3, RT3, GF4, RT4, %hXg0, %hXg1, %hXg2, %hXg3, %hXg4⟩
  ihave Hb := (books_take_first d L I fo (GK fi fp ft) k hk k0_h2 k0_h5 k0_h8 k0_h11 k0_h14 k0_h17 k0_h20 k0_h23 k0_h26 k0_h29 k0_h4 k0_h7 k0_h10 k0_h13 k0_h16 k0_h19 k0_h22 k0_h25 k0_h28) $$ Hbooks
  icases Hb with ⟨Hbooks, Hw4, Hw24, Hw43, Hw62, Hw81, Hw100, Hw119, Hw138, Hw157, Hw176, Ho22, Ho41, Ho60, Ho79, Ho98, Ho117, Ho136, Ho155, Ho174⟩
  iapply (wp_wand_r frame _ _)
  isplitl [Ht5 H6 Hw4 Hw24 Hw43 Hw62 Hw81 Hw100 Hw119 Hw138 Hw157 Hw176 Ho22 Ho41 Ho60 Ho79 Ho98 Ho117 Ho136 Ho155 Ho174 Hs5 Hs6 Hs7 Hs8 Hs9 S13 S14 S15 S16 S17 S18 S19 S20 S21 S22 S8 S9 S10 S11 S12 GF0 RT0 GF1 RT1 GF2 RT2 GF3 RT3 GF4 RT4 Howes]
  · iapply (trip_firstV d L O W' hO k v2 q0 q1 q2 q3 q4 q5 ft fo P I hI k0_h2 k0_h4 k0_h5 k0_h7 k0_h8 k0_h10 k0_h11 k0_h13 k0_h14 k0_h16 k0_h17 k0_h18 k0_h19 k0_h20 k0_h21 k0_h22 k0_h23 k0_h24 k0_h25 k0_h26 k0_h27 k0_h28 k0_h29 k0_h30 k0_n1 k0_n3 k0_n6 k0_n9 k0_n12 k0_n15 X5 X6 X7 X8 X9 Xg0 Xg1 Xg2 Xg3 Xg4 ![0] ![40] ![80] ![120] ![160] hgw0 hgw1 hgw2 hgw3 hgw4 hXg0 hXg1 hXg2 hXg3 hXg4)
    isplitl []; · iexact Hlev
    isplitl [Ht5]; · iexact Ht5
    isplitl [H6]; · iexact H6
    isplitl [Hw4]; · iexact Hw4
    isplitl [Hw24]; · iexact Hw24
    isplitl [Hw43]; · iexact Hw43
    isplitl [Hw62]; · iexact Hw62
    isplitl [Hw81]; · iexact Hw81
    isplitl [Hw100]; · iexact Hw100
    isplitl [Hw119]; · iexact Hw119
    isplitl [Hw138]; · iexact Hw138
    isplitl [Hw157]; · iexact Hw157
    isplitl [Hw176]; · iexact Hw176
    isplitl [Ho22]; · iexact Ho22
    isplitl [Ho41]; · iexact Ho41
    isplitl [Ho60]; · iexact Ho60
    isplitl [Ho79]; · iexact Ho79
    isplitl [Ho98]; · iexact Ho98
    isplitl [Ho117]; · iexact Ho117
    isplitl [Ho136]; · iexact Ho136
    isplitl [Ho155]; · iexact Ho155
    isplitl [Ho174]; · iexact Ho174
    isplitl [Hs5]; · iexact Hs5
    isplitl [Hs6]; · iexact Hs6
    isplitl [Hs7]; · iexact Hs7
    isplitl [Hs8]; · iexact Hs8
    isplitl [Hs9]; · iexact Hs9
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S8]; · iexact S8
    isplitl [S9]; · iexact S9
    isplitl [S10]; · iexact S10
    isplitl [S11]; · iexact S11
    isplitl [S12]; · iexact S12
    isplitl [GF0]; · iexact GF0
    isplitl [RT0]; · iexact RT0
    isplitl [GF1]; · iexact GF1
    isplitl [RT1]; · iexact RT1
    isplitl [GF2]; · iexact GF2
    isplitl [RT2]; · iexact RT2
    isplitl [GF3]; · iexact GF3
    isplitl [RT3]; · iexact RT3
    isplitl [GF4]; · iexact GF4
    isplitl [RT4]; · iexact RT4
    iexact Howes
  iintro %u Hpost
  icases Hpost with ⟨%W'', %Y0', %Y1', %Y2', %Y3', %Y4', %Z5', %Z6', %Z7', %Z8', %X9', %g5', %g6', %g7', %g8', Howes, H6, Ht3, Hwg0, Hwg1, Hwg2, Hwg3, Hwg4, Hw4, Hw24, Hw43, Hw62, Hw81, ⟨%f22, Ho22, %hf22⟩, ⟨%f41, Ho41, %hf41⟩, ⟨%f60, Ho60, %hf60⟩, ⟨%f79, Ho79, %hf79⟩, ⟨%f98, Ho98, %hf98⟩, Hs9, S22, S13, S14, S15, S16, S17, S8, S9, S10, S11, S12, GF0, RT4, GF1, RT5, GF2, RT0, GF3, RT1, GF4, RT2, WF5, WF6, WF7, WF8, %hW'', %hX9', %hY0', %hY1', %hY2', %hY3', %hY4', %hg5', %hg6', %hg7', %hg8'⟩
  ihave Ho22 := (chunk_to_GK' d L fi fp ft I P hIdef hP (k0_off22_inb L k k0_h4) hgw0 (k0_off22_eq L k) rfl 0 (by omega) (by omega) rfl f22 hf22) $$ Ho22
  ihave Ho41 := (chunk_to_GK' d L fi fp ft I P hIdef hP (k0_off41_inb L k k0_h7) hgw1 (k0_off41_eq L k) rfl 1 (by omega) (by omega) rfl f41 hf41) $$ Ho41
  ihave Ho60 := (chunk_to_GK' d L fi fp ft I P hIdef hP (k0_off60_inb L k k0_h10) hgw2 (k0_off60_eq L k) rfl 2 (by omega) (by omega) rfl f60 hf60) $$ Ho60
  ihave Ho79 := (chunk_to_GK' d L fi fp ft I P hIdef hP (k0_off79_inb L k k0_h13) hgw3 (k0_off79_eq L k) rfl 3 (by omega) (by omega) rfl f79 hf79) $$ Ho79
  ihave Ho98 := (chunk_to_GK' d L fi fp ft I P hIdef hP (k0_off98_inb L k k0_h16) hgw4 (k0_off98_eq L k) rfl 4 (by omega) (by omega) rfl f98 hf98) $$ Ho98
  ihave Hbooks2 := (books_put_first d L I fo (GK fi fp ft) k hk k0_h2 k0_h5 k0_h8 k0_h11 k0_h14 k0_h4 k0_h7 k0_h10 k0_h13 k0_h16 hgw0 hgw1 hgw2 hgw3 hgw4) $$ [Hbooks Hwg0 Hwg1 Hwg2 Hwg3 Hwg4 Hw4 Hw24 Hw43 Hw62 Hw81 Ho22 Ho41 Ho60 Ho79 Ho98]
  · isplitl [Hbooks]; · iexact Hbooks
    isplitl [Hwg0]; · iexact Hwg0
    isplitl [Hwg1]; · iexact Hwg1
    isplitl [Hwg2]; · iexact Hwg2
    isplitl [Hwg3]; · iexact Hwg3
    isplitl [Hwg4]; · iexact Hwg4
    isplitl [Hw4]; · iexact Hw4
    isplitl [Hw24]; · iexact Hw24
    isplitl [Hw43]; · iexact Hw43
    isplitl [Hw62]; · iexact Hw62
    isplitl [Hw81]; · iexact Hw81
    isplitl [Ho22]; · iexact Ho22
    isplitl [Ho41]; · iexact Ho41
    isplitl [Ho60]; · iexact Ho60
    isplitl [Ho79]; · iexact Ho79
    iexact Ho98
  iexists W''
  isplitl []; · iexact Hlev
  isplitl [Howes]; · iexact Howes
  isplitl []; · ipureintro; exact waits_trans hW' hW''
  isplitl [H6]; · iexact H6
  isplitl [Hbooks2]; · iapply (Books_congr d L I fo (GK fi fp ft) 10 15 5 9 (10 * (k.val + 1)) (10 * (k.val + 1) + 5) (10 * (k.val + 1) - 5) (10 * (k.val + 1) - 1) (by omega) (by omega) (by omega) (by omega)); iexact Hbooks2
  iexists k
  isplitl []; · ipureintro; rfl
  iapply (dite_pos_ent' hk62)
  iexists q4, q5, q0, q1, q2, q3, Y0', Y1', Y2', Y3', Y4', Z5', Z6', Z7', Z8', X9', g5', g6', g7', g8'
  isplitl []; · ipureintro; exact hSh.rot
  isplitl [Ht3]; · iexact Ht3
  isplitl [Hs9]; · iexact Hs9
  isplitl [S22]; · iexact S22
  isplitl [S13]; · iexact S13
  isplitl [S14]; · iexact S14
  isplitl [S15]; · iexact S15
  isplitl [S16]; · iexact S16
  isplitl [S17]; · iexact S17
  isplitl [S8]; · iexact S8
  isplitl [S9]; · iexact S9
  isplitl [S10]; · iexact S10
  isplitl [S11]; · iexact S11
  isplitl [S12]; · iexact S12
  isplitl [GF0]; · iexact GF0
  isplitl [RT4]; · iexact RT4
  isplitl [GF1]; · iexact GF1
  isplitl [RT5]; · iexact RT5
  isplitl [GF2]; · iexact GF2
  isplitl [RT0]; · iexact RT0
  isplitl [GF3]; · iexact GF3
  isplitl [RT1]; · iexact RT1
  isplitl [GF4]; · iexact GF4
  isplitl [RT2]; · iexact RT2
  isplitl [WF5]; · iexact WF5
  isplitl [WF6]; · iexact WF6
  isplitl [WF7]; · iexact WF7
  isplitl [WF8]; · iexact WF8
  isplitl []; · ipureintro; exact hX9'
  isplitl []; · ipureintro; exact hY0'
  isplitl []; · ipureintro; exact hY1'
  isplitl []; · ipureintro; exact hY2'
  isplitl []; · ipureintro; exact hY3'
  isplitl []; · ipureintro; exact hY4'
  isplitl []; · ipureintro; exact hg5'
  isplitl []; · ipureintro; exact hg6'
  isplitl []; · ipureintro; exact hg7'
  ipureintro; exact hg8'

end Cert.Proof.KB
end
-- ==== Proof.KBTripMidV.lean ====
import proofs.«206279_g3710851744293_cont_8to1_b_253_31_alg».proof.Proof.KBValLemmas
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

-- A middle trip with the contents tracked: what each slot and each chunk reads before it, and after it.
set_option maxHeartbeats 1600000 in
theorem trip_midV (d : Dev nD) (L : grid0.Coords) (O : CellTallies nD τ sig (HIx 1)) (W : Waits sig (HIx 1)) (hO : ∀ g, O g none = 0)
    (k : Fin k0_t1_loop.trips) (v2 : BitVec 32)
    (q0 q1 q2 q3 q4 q5 : PosShare TreeShare)
    (ft : Buf (Elt F) ((thr d L).loc main_arg1_scv)) (fo : Buf (Elt F) ((thr d L).loc main_v2_scv))
    (P : Buf (Elt F) ((thr d L).loc cc0_scratch0)) (I : Buf (Elt F) ((thr d L).loc cc0_scratch1))
    (hI : ∀ j, (I j).toNat < 100000) (k0_h1 : k0_cond1 k = 1#1) (k0_h2 : k0_cond2 k = 1#1) (k0_h3 : k0_cond3 k = 1#1) (k0_h4 : k0_cond4 k = 1#1) (k0_h5 : k0_cond5 k = 1#1) (k0_h6 : k0_cond6 k = 1#1) (k0_h7 : k0_cond7 k = 1#1) (k0_h8 : k0_cond8 k = 1#1) (k0_h9 : k0_cond9 k = 1#1) (k0_h10 : k0_cond10 k = 1#1) (k0_h11 : k0_cond11 k = 1#1) (k0_h12 : k0_cond12 k = 1#1) (k0_h13 : k0_cond13 k = 1#1) (k0_h14 : k0_cond14 k = 1#1) (k0_h15 : k0_cond15 k = 1#1) (k0_h16 : k0_cond16 k = 1#1) (k0_h17 : k0_cond17 k = 1#1) (k0_h18 : k0_cond18 k = 1#1) (k0_h19 : k0_cond19 k = 1#1) (k0_h20 : k0_cond20 k = 1#1) (k0_h21 : k0_cond21 k = 1#1) (k0_h22 : k0_cond22 k = 1#1) (k0_h23 : k0_cond23 k = 1#1) (k0_h24 : k0_cond24 k = 1#1) (k0_h25 : k0_cond25 k = 1#1) (k0_h26 : k0_cond26 k = 1#1) (k0_h27 : k0_cond27 k = 1#1) (k0_h28 : k0_cond28 k = 1#1) (k0_h29 : k0_cond29 k = 1#1) (k0_h30 : k0_cond30 k = 1#1)
    (X9 Xg0 Xg1 Xg2 Xg3 Xg4 Xw5 Xw6 Xw7 Xw8 : Buf (Elt F) ((thr d L).loc cc0_scratch2)) (fw5 fw6 fw7 fw8 : Buf (Elt F) ((thr d L).loc main_v2_scv))
    (go0 go1 go2 go3 go4 : Fin 1 → ℕ) (hgo0 : ∀ a, go0 a + S40.size a ≤ S25600.size a) (hgo1 : ∀ a, go1 a + S40.size a ≤ S25600.size a) (hgo2 : ∀ a, go2 a + S40.size a ≤ S25600.size a) (hgo3 : ∀ a, go3 a + S40.size a ≤ S25600.size a) (hgo4 : ∀ a, go4 a + S40.size a ≤ S25600.size a)
    (ro5 ro6 ro7 ro8 : Fin 3 → ℕ) (hro5 : ∀ a, ro5 a + S1x40x128.size a ≤ S4096x200x128.size a) (hro6 : ∀ a, ro6 a + S1x40x128.size a ≤ S4096x200x128.size a) (hro7 : ∀ a, ro7 a + S1x40x128.size a ≤ S4096x200x128.size a) (hro8 : ∀ a, ro8 a + S1x40x128.size a ≤ S4096x200x128.size a)
    (C9 : S40x128.Idx → F .f32) (hX9 : (slot9).view.read (Elt F) X9 = C9)
    (hXg0 : (slot0).view.read (Elt F) Xg0 = Gw d L ft I go0 hgo0)
    (hXg1 : (slot1).view.read (Elt F) Xg1 = Gw d L ft I go1 hgo1)
    (hXg2 : (slot2).view.read (Elt F) Xg2 = Gw d L ft I go2 hgo2)
    (hXg3 : (slot3).view.read (Elt F) Xg3 = Gw d L ft I go3 hgo3)
    (hXg4 : (slot4).view.read (Elt F) Xg4 = Gw d L ft I go4 hgo4) :
    (iprop(levAts (K (F := F)).L (K (F := F)).lev
        ∗ ((tV).view.loc (thr d L) ↦{q5} ft)
        ∗ ((s6).view.loc (thr d L) ↦{fullShare} P)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((win' (k0_off100 k) (k0_off100_inb k k0_h17)).view.loc (thr d L) ↦[(win' (k0_off100 k) (k0_off100_inb k k0_h17)).view.set]{fullShare} I)
        ∗ ((win' (k0_off119 k) (k0_off119_inb k k0_h20)).view.loc (thr d L) ↦[(win' (k0_off119 k) (k0_off119_inb k k0_h20)).view.set]{fullShare} I)
        ∗ ((win' (k0_off138 k) (k0_off138_inb k k0_h23)).view.loc (thr d L) ↦[(win' (k0_off138 k) (k0_off138_inb k k0_h23)).view.set]{fullShare} I)
        ∗ ((win' (k0_off157 k) (k0_off157_inb k k0_h26)).view.loc (thr d L) ↦[(win' (k0_off157 k) (k0_off157_inb k k0_h26)).view.set]{fullShare} I)
        ∗ ((win' (k0_off176 k) (k0_off176_inb k k0_h29)).view.loc (thr d L) ↦[(win' (k0_off176 k) (k0_off176_inb k k0_h29)).view.set]{fullShare} I)
        ∗ ((och' (k0_off2 L k) (k0_off2_inb L k k0_h1)).view.loc (thr d L) ↦[(och' (k0_off2 L k) (k0_off2_inb L k k0_h1)).view.set]{fullShare} fo)
        ∗ ((och' (k0_off22 L k) (k0_off22_inb L k k0_h4)).view.loc (thr d L) ↦[(och' (k0_off22 L k) (k0_off22_inb L k k0_h4)).view.set]{fullShare} fo)
        ∗ ((och' (k0_off41 L k) (k0_off41_inb L k k0_h7)).view.loc (thr d L) ↦[(och' (k0_off41 L k) (k0_off41_inb L k k0_h7)).view.set]{fullShare} fo)
        ∗ ((och' (k0_off60 L k) (k0_off60_inb L k k0_h10)).view.loc (thr d L) ↦[(och' (k0_off60 L k) (k0_off60_inb L k k0_h10)).view.set]{fullShare} fo)
        ∗ ((och' (k0_off79 L k) (k0_off79_inb L k k0_h13)).view.loc (thr d L) ↦[(och' (k0_off79 L k) (k0_off79_inb L k k0_h13)).view.set]{fullShare} fo)
        ∗ ((och' (k0_off98 L k) (k0_off98_inb L k k0_h16)).view.loc (thr d L) ↦[(och' (k0_off98 L k) (k0_off98_inb L k k0_h16)).view.set]{fullShare} fo)
        ∗ ((och' (k0_off117 L k) (k0_off117_inb L k k0_h19)).view.loc (thr d L) ↦[(och' (k0_off117 L k) (k0_off117_inb L k k0_h19)).view.set]{fullShare} fo)
        ∗ ((och' (k0_off136 L k) (k0_off136_inb L k k0_h22)).view.loc (thr d L) ↦[(och' (k0_off136 L k) (k0_off136_inb L k k0_h22)).view.set]{fullShare} fo)
        ∗ ((och' (k0_off155 L k) (k0_off155_inb L k k0_h25)).view.loc (thr d L) ↦[(och' (k0_off155 L k) (k0_off155_inb L k k0_h25)).view.set]{fullShare} fo)
        ∗ ((och' (k0_off174 L k) (k0_off174_inb L k k0_h28)).view.loc (thr d L) ↦[(och' (k0_off174 L k) (k0_off174_inb L k k0_h28)).view.set]{fullShare} fo)
        ∗ ((slot9).view.loc (thr d L) ↦[(slot9).view.set]{fullShare} X9)
        ∗ semVal ((thr d L, SemLoc.dma cc0_scratch22.sem) : GSem nD τ sig) 0
        ∗ semVal ((thr d L, SemLoc.dma cc0_scratch13.sem) : GSem nD τ sig) 0
        ∗ semVal ((thr d L, SemLoc.dma cc0_scratch14.sem) : GSem nD τ sig) 0
        ∗ semVal ((thr d L, SemLoc.dma cc0_scratch15.sem) : GSem nD τ sig) 0
        ∗ semVal ((thr d L, SemLoc.dma cc0_scratch16.sem) : GSem nD τ sig) 0
        ∗ semVal ((thr d L, SemLoc.dma cc0_scratch17.sem) : GSem nD τ sig) 0
        ∗ semVal ((thr d L, SemLoc.dma cc0_scratch8.sem) : GSem nD τ sig) 0
        ∗ semVal ((thr d L, SemLoc.dma cc0_scratch9.sem) : GSem nD τ sig) 0
        ∗ semVal ((thr d L, SemLoc.dma cc0_scratch10.sem) : GSem nD τ sig) 0
        ∗ semVal ((thr d L, SemLoc.dma cc0_scratch11.sem) : GSem nD τ sig) 0
        ∗ semVal ((thr d L, SemLoc.dma cc0_scratch12.sem) : GSem nD τ sig) 0
        ∗ Transfers.Flight countersEmb (thr d L) (SemLoc.dma cc0_scratch18.sem) default 163840
            iprop(((och' ro5 hro5).view.loc (thr d L) ↦[(och' ro5 hro5).view.set]{fullShare} fw5) ∗ ((slot5).view.loc (thr d L) ↦[(slot5).view.set]{fullShare} Xw5))
        ∗ Transfers.Flight countersEmb (thr d L) (SemLoc.dma cc0_scratch19.sem) default 163840
            iprop(((och' ro6 hro6).view.loc (thr d L) ↦[(och' ro6 hro6).view.set]{fullShare} fw6) ∗ ((slot6).view.loc (thr d L) ↦[(slot6).view.set]{fullShare} Xw6))
        ∗ Transfers.Flight countersEmb (thr d L) (SemLoc.dma cc0_scratch20.sem) default 163840
            iprop(((och' ro7 hro7).view.loc (thr d L) ↦[(och' ro7 hro7).view.set]{fullShare} fw7) ∗ ((slot7).view.loc (thr d L) ↦[(slot7).view.set]{fullShare} Xw7))
        ∗ Transfers.Flight countersEmb (thr d L) (SemLoc.dma cc0_scratch21.sem) default 163840
            iprop(((och' ro8 hro8).view.loc (thr d L) ↦[(och' ro8 hro8).view.set]{fullShare} fw8) ∗ ((slot8).view.loc (thr d L) ↦[(slot8).view.set]{fullShare} Xw8))
        ∗ Transfers.Flight countersEmb (thr d L) (SemLoc.dma cc0_scratch3.sem) default 163840
            iprop((((slot0).view.loc (thr d L) ↦[(slot0).view.set]{fullShare} Xg0) ∗ ((win' go0 hgo0).view.loc (thr d L) ↦[(win' go0 hgo0).view.set]{fullShare} I))
              ∗ ((tV).view.loc (thr d L) ↦[(tW).view.set]{q0} ft))
        ∗ ((tV).view.loc (thr d L) ↦[Finset.univ \ (tW).view.set]{q0} ft)
        ∗ Transfers.Flight countersEmb (thr d L) (SemLoc.dma cc0_scratch4.sem) default 163840
            iprop((((slot1).view.loc (thr d L) ↦[(slot1).view.set]{fullShare} Xg1) ∗ ((win' go1 hgo1).view.loc (thr d L) ↦[(win' go1 hgo1).view.set]{fullShare} I))
              ∗ ((tV).view.loc (thr d L) ↦[(tW).view.set]{q1} ft))
        ∗ ((tV).view.loc (thr d L) ↦[Finset.univ \ (tW).view.set]{q1} ft)
        ∗ Transfers.Flight countersEmb (thr d L) (SemLoc.dma cc0_scratch5.sem) default 163840
            iprop((((slot2).view.loc (thr d L) ↦[(slot2).view.set]{fullShare} Xg2) ∗ ((win' go2 hgo2).view.loc (thr d L) ↦[(win' go2 hgo2).view.set]{fullShare} I))
              ∗ ((tV).view.loc (thr d L) ↦[(tW).view.set]{q2} ft))
        ∗ ((tV).view.loc (thr d L) ↦[Finset.univ \ (tW).view.set]{q2} ft)
        ∗ Transfers.Flight countersEmb (thr d L) (SemLoc.dma cc0_scratch6.sem) default 163840
            iprop((((slot3).view.loc (thr d L) ↦[(slot3).view.set]{fullShare} Xg3) ∗ ((win' go3 hgo3).view.loc (thr d L) ↦[(win' go3 hgo3).view.set]{fullShare} I))
              ∗ ((tV).view.loc (thr d L) ↦[(tW).view.set]{q3} ft))
        ∗ ((tV).view.loc (thr d L) ↦[Finset.univ \ (tW).view.set]{q3} ft)
        ∗ Transfers.Flight countersEmb (thr d L) (SemLoc.dma cc0_scratch7.sem) default 163840
            iprop((((slot4).view.loc (thr d L) ↦[(slot4).view.set]{fullShare} Xg4) ∗ ((win' go4 hgo4).view.loc (thr d L) ↦[(win' go4 hgo4).view.set]{fullShare} I))
              ∗ ((tV).view.loc (thr d L) ↦[(tW).view.set]{q4} ft))
        ∗ ((tV).view.loc (thr d L) ↦[Finset.univ \ (tW).view.set]{q4} ft)
        ∗ owes (thr d L) O W) : sProp 𝕄)
      ⊢ wp frame (wpE (defs₀ (F := F)) 𝒱₀ (thr d L) none) Set.univ
          (k0_t1_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k ⟨⟩)
          fun _ => iprop(∃ (W' : Waits sig (HIx 1)) (Y0 Y1 Y2 Y3 Y4 Z5 Z6 Z7 Z8 X9' : Buf (Elt F) ((thr d L).loc cc0_scratch2)) (g5 g6 g7 g8 : Buf (Elt F) ((thr d L).loc main_v2_scv)),
            owes (thr d L) O W'
            ∗ ((s6).view.loc (thr d L) ↦{fullShare} P)
            ∗ ((tV).view.loc (thr d L) ↦{q3} ft)
            ∗ ((win' go0 hgo0).view.loc (thr d L) ↦[(win' go0 hgo0).view.set]{fullShare} I)
            ∗ ((win' go1 hgo1).view.loc (thr d L) ↦[(win' go1 hgo1).view.set]{fullShare} I)
            ∗ ((win' go2 hgo2).view.loc (thr d L) ↦[(win' go2 hgo2).view.set]{fullShare} I)
            ∗ ((win' go3 hgo3).view.loc (thr d L) ↦[(win' go3 hgo3).view.set]{fullShare} I)
            ∗ ((win' go4 hgo4).view.loc (thr d L) ↦[(win' go4 hgo4).view.set]{fullShare} I)
            ∗ ((win' (k0_off4 k) (k0_off4_inb k k0_h2)).view.loc (thr d L) ↦[(win' (k0_off4 k) (k0_off4_inb k k0_h2)).view.set]{fullShare} I)
            ∗ ((win' (k0_off24 k) (k0_off24_inb k k0_h5)).view.loc (thr d L) ↦[(win' (k0_off24 k) (k0_off24_inb k k0_h5)).view.set]{fullShare} I)
            ∗ ((win' (k0_off43 k) (k0_off43_inb k k0_h8)).view.loc (thr d L) ↦[(win' (k0_off43 k) (k0_off43_inb k k0_h8)).view.set]{fullShare} I)
            ∗ ((win' (k0_off62 k) (k0_off62_inb k k0_h11)).view.loc (thr d L) ↦[(win' (k0_off62 k) (k0_off62_inb k k0_h11)).view.set]{fullShare} I)
            ∗ ((win' (k0_off81 k) (k0_off81_inb k k0_h14)).view.loc (thr d L) ↦[(win' (k0_off81 k) (k0_off81_inb k k0_h14)).view.set]{fullShare} I)
            ∗ ((och' ro5 hro5).view.loc (thr d L) ↦[(och' ro5 hro5).view.set]{fullShare} fw5)
            ∗ ((och' ro6 hro6).view.loc (thr d L) ↦[(och' ro6 hro6).view.set]{fullShare} fw6)
            ∗ ((och' ro7 hro7).view.loc (thr d L) ↦[(och' ro7 hro7).view.set]{fullShare} fw7)
            ∗ ((och' ro8 hro8).view.loc (thr d L) ↦[(och' ro8 hro8).view.set]{fullShare} fw8)
            ∗ (∃ f, ((och' (k0_off2 L k) (k0_off2_inb L k k0_h1)).view.loc (thr d L) ↦[(och' (k0_off2 L k) (k0_off2_inb L k k0_h1)).view.set]{fullShare} f) ∗ ⌜(och' (k0_off2 L k) (k0_off2_inb L k k0_h1)).view.read (Elt F) f = C9⌝)
            ∗ (∃ f, ((och' (k0_off22 L k) (k0_off22_inb L k k0_h4)).view.loc (thr d L) ↦[(och' (k0_off22 L k) (k0_off22_inb L k k0_h4)).view.set]{fullShare} f) ∗ ⌜(och' (k0_off22 L k) (k0_off22_inb L k k0_h4)).view.read (Elt F) f = rowOp 0 P (Gw d L ft I go0 hgo0)⌝)
            ∗ (∃ f, ((och' (k0_off41 L k) (k0_off41_inb L k k0_h7)).view.loc (thr d L) ↦[(och' (k0_off41 L k) (k0_off41_inb L k k0_h7)).view.set]{fullShare} f) ∗ ⌜(och' (k0_off41 L k) (k0_off41_inb L k k0_h7)).view.read (Elt F) f = rowOp 1 P (Gw d L ft I go1 hgo1)⌝)
            ∗ (∃ f, ((och' (k0_off60 L k) (k0_off60_inb L k k0_h10)).view.loc (thr d L) ↦[(och' (k0_off60 L k) (k0_off60_inb L k k0_h10)).view.set]{fullShare} f) ∗ ⌜(och' (k0_off60 L k) (k0_off60_inb L k k0_h10)).view.read (Elt F) f = rowOp 2 P (Gw d L ft I go2 hgo2)⌝)
            ∗ (∃ f, ((och' (k0_off79 L k) (k0_off79_inb L k k0_h13)).view.loc (thr d L) ↦[(och' (k0_off79 L k) (k0_off79_inb L k k0_h13)).view.set]{fullShare} f) ∗ ⌜(och' (k0_off79 L k) (k0_off79_inb L k k0_h13)).view.read (Elt F) f = rowOp 3 P (Gw d L ft I go3 hgo3)⌝)
            ∗ (∃ f, ((och' (k0_off98 L k) (k0_off98_inb L k k0_h16)).view.loc (thr d L) ↦[(och' (k0_off98 L k) (k0_off98_inb L k k0_h16)).view.set]{fullShare} f) ∗ ⌜(och' (k0_off98 L k) (k0_off98_inb L k k0_h16)).view.read (Elt F) f = rowOp 4 P (Gw d L ft I go4 hgo4)⌝)
            ∗ ((slot9).view.loc (thr d L) ↦[(slot9).view.set]{fullShare} X9')
            ∗ semVal ((thr d L, SemLoc.dma cc0_scratch22.sem) : GSem nD τ sig) 0
            ∗ semVal ((thr d L, SemLoc.dma cc0_scratch13.sem) : GSem nD τ sig) 0
            ∗ semVal ((thr d L, SemLoc.dma cc0_scratch14.sem) : GSem nD τ sig) 0
            ∗ semVal ((thr d L, SemLoc.dma cc0_scratch15.sem) : GSem nD τ sig) 0
            ∗ semVal ((thr d L, SemLoc.dma cc0_scratch16.sem) : GSem nD τ sig) 0
            ∗ semVal ((thr d L, SemLoc.dma cc0_scratch17.sem) : GSem nD τ sig) 0
            ∗ semVal ((thr d L, SemLoc.dma cc0_scratch8.sem) : GSem nD τ sig) 0
            ∗ semVal ((thr d L, SemLoc.dma cc0_scratch9.sem) : GSem nD τ sig) 0
            ∗ semVal ((thr d L, SemLoc.dma cc0_scratch10.sem) : GSem nD τ sig) 0
            ∗ semVal ((thr d L, SemLoc.dma cc0_scratch11.sem) : GSem nD τ sig) 0
            ∗ semVal ((thr d L, SemLoc.dma cc0_scratch12.sem) : GSem nD τ sig) 0
            ∗ Transfers.Flight countersEmb (thr d L) (SemLoc.dma cc0_scratch3.sem) default 163840
            iprop((((slot0).view.loc (thr d L) ↦[(slot0).view.set]{fullShare} Y0) ∗ ((win' (k0_off100 k) (k0_off100_inb k k0_h17)).view.loc (thr d L) ↦[(win' (k0_off100 k) (k0_off100_inb k k0_h17)).view.set]{fullShare} I))
              ∗ ((tV).view.loc (thr d L) ↦[(tW).view.set]{q4} ft))
            ∗ ((tV).view.loc (thr d L) ↦[Finset.univ \ (tW).view.set]{q4} ft)
            ∗ Transfers.Flight countersEmb (thr d L) (SemLoc.dma cc0_scratch4.sem) default 163840
            iprop((((slot1).view.loc (thr d L) ↦[(slot1).view.set]{fullShare} Y1) ∗ ((win' (k0_off119 k) (k0_off119_inb k k0_h20)).view.loc (thr d L) ↦[(win' (k0_off119 k) (k0_off119_inb k k0_h20)).view.set]{fullShare} I))
              ∗ ((tV).view.loc (thr d L) ↦[(tW).view.set]{q5} ft))
            ∗ ((tV).view.loc (thr d L) ↦[Finset.univ \ (tW).view.set]{q5} ft)
            ∗ Transfers.Flight countersEmb (thr d L) (SemLoc.dma cc0_scratch5.sem) default 163840
            iprop((((slot2).view.loc (thr d L) ↦[(slot2).view.set]{fullShare} Y2) ∗ ((win' (k0_off138 k) (k0_off138_inb k k0_h23)).view.loc (thr d L) ↦[(win' (k0_off138 k) (k0_off138_inb k k0_h23)).view.set]{fullShare} I))
              ∗ ((tV).view.loc (thr d L) ↦[(tW).view.set]{q0} ft))
            ∗ ((tV).view.loc (thr d L) ↦[Finset.univ \ (tW).view.set]{q0} ft)
            ∗ Transfers.Flight countersEmb (thr d L) (SemLoc.dma cc0_scratch6.sem) default 163840
            iprop((((slot3).view.loc (thr d L) ↦[(slot3).view.set]{fullShare} Y3) ∗ ((win' (k0_off157 k) (k0_off157_inb k k0_h26)).view.loc (thr d L) ↦[(win' (k0_off157 k) (k0_off157_inb k k0_h26)).view.set]{fullShare} I))
              ∗ ((tV).view.loc (thr d L) ↦[(tW).view.set]{q1} ft))
            ∗ ((tV).view.loc (thr d L) ↦[Finset.univ \ (tW).view.set]{q1} ft)
            ∗ Transfers.Flight countersEmb (thr d L) (SemLoc.dma cc0_scratch7.sem) default 163840
            iprop((((slot4).view.loc (thr d L) ↦[(slot4).view.set]{fullShare} Y4) ∗ ((win' (k0_off176 k) (k0_off176_inb k k0_h29)).view.loc (thr d L) ↦[(win' (k0_off176 k) (k0_off176_inb k k0_h29)).view.set]{fullShare} I))
              ∗ ((tV).view.loc (thr d L) ↦[(tW).view.set]{q2} ft))
            ∗ ((tV).view.loc (thr d L) ↦[Finset.univ \ (tW).view.set]{q2} ft)
            ∗ Transfers.Flight countersEmb (thr d L) (SemLoc.dma cc0_scratch18.sem) default 163840
            iprop(((och' (k0_off117 L k) (k0_off117_inb L k k0_h19)).view.loc (thr d L) ↦[(och' (k0_off117 L k) (k0_off117_inb L k k0_h19)).view.set]{fullShare} g5) ∗ ((slot5).view.loc (thr d L) ↦[(slot5).view.set]{fullShare} Z5))
            ∗ Transfers.Flight countersEmb (thr d L) (SemLoc.dma cc0_scratch19.sem) default 163840
            iprop(((och' (k0_off136 L k) (k0_off136_inb L k k0_h22)).view.loc (thr d L) ↦[(och' (k0_off136 L k) (k0_off136_inb L k k0_h22)).view.set]{fullShare} g6) ∗ ((slot6).view.loc (thr d L) ↦[(slot6).view.set]{fullShare} Z6))
            ∗ Transfers.Flight countersEmb (thr d L) (SemLoc.dma cc0_scratch20.sem) default 163840
            iprop(((och' (k0_off155 L k) (k0_off155_inb L k k0_h25)).view.loc (thr d L) ↦[(och' (k0_off155 L k) (k0_off155_inb L k k0_h25)).view.set]{fullShare} g7) ∗ ((slot7).view.loc (thr d L) ↦[(slot7).view.set]{fullShare} Z7))
            ∗ Transfers.Flight countersEmb (thr d L) (SemLoc.dma cc0_scratch21.sem) default 163840
            iprop(((och' (k0_off174 L k) (k0_off174_inb L k k0_h28)).view.loc (thr d L) ↦[(och' (k0_off174 L k) (k0_off174_inb L k k0_h28)).view.set]{fullShare} g8) ∗ ((slot8).view.loc (thr d L) ↦[(slot8).view.set]{fullShare} Z8))
            ∗ ⌜∀ p ∈ W', p ∈ W ∨ p.2 = none⌝
            ∗ ⌜(slot9).view.read (Elt F) X9' = rowOp 4 P (Gw d L ft I (k0_off81 k) (k0_off81_inb k k0_h14))⌝
            ∗ ⌜(slot0).view.read (Elt F) Y0 = Gw d L ft I (k0_off100 k) (k0_off100_inb k k0_h17)⌝
            ∗ ⌜(slot1).view.read (Elt F) Y1 = Gw d L ft I (k0_off119 k) (k0_off119_inb k k0_h20)⌝
            ∗ ⌜(slot2).view.read (Elt F) Y2 = Gw d L ft I (k0_off138 k) (k0_off138_inb k k0_h23)⌝
            ∗ ⌜(slot3).view.read (Elt F) Y3 = Gw d L ft I (k0_off157 k) (k0_off157_inb k k0_h26)⌝
            ∗ ⌜(slot4).view.read (Elt F) Y4 = Gw d L ft I (k0_off176 k) (k0_off176_inb k k0_h29)⌝
            ∗ ⌜(och' (k0_off117 L k) (k0_off117_inb L k k0_h19)).view.read (Elt F) g5 = rowOp 0 P (Gw d L ft I (k0_off4 k) (k0_off4_inb k k0_h2))⌝
            ∗ ⌜(och' (k0_off136 L k) (k0_off136_inb L k k0_h22)).view.read (Elt F) g6 = rowOp 1 P (Gw d L ft I (k0_off24 k) (k0_off24_inb k k0_h5))⌝
            ∗ ⌜(och' (k0_off155 L k) (k0_off155_inb L k k0_h25)).view.read (Elt F) g7 = rowOp 2 P (Gw d L ft I (k0_off43 k) (k0_off43_inb k k0_h8))⌝
            ∗ ⌜(och' (k0_off174 L k) (k0_off174_inb L k k0_h28)).view.read (Elt F) g8 = rowOp 3 P (Gw d L ft I (k0_off62 k) (k0_off62_inb k k0_h11))⌝) := by
  have htrips0 : Scf.trips k0_t2_loop.lb k0_t2_loop.ub k0_t2_loop.st = 40 := by decide
  have htrips1 : Scf.trips k0_t3_loop.lb k0_t3_loop.ub k0_t3_loop.st = 40 := by decide
  have htrips2 : Scf.trips k0_t4_loop.lb k0_t4_loop.ub k0_t4_loop.st = 40 := by decide
  have htrips3 : Scf.trips k0_t5_loop.lb k0_t5_loop.ub k0_t5_loop.st = 40 := by decide
  have htrips4 : Scf.trips k0_t6_loop.lb k0_t6_loop.ub k0_t6_loop.st = 40 := by decide
  have htrips5 : Scf.trips k0_t7_loop.lb k0_t7_loop.ub k0_t7_loop.st = 40 := by decide
  have htrips6 : Scf.trips k0_t8_loop.lb k0_t8_loop.ub k0_t8_loop.st = 40 := by decide
  have htrips7 : Scf.trips k0_t9_loop.lb k0_t9_loop.ub k0_t9_loop.st = 40 := by decide
  have htrips8 : Scf.trips k0_t10_loop.lb k0_t10_loop.ub k0_t10_loop.st = 40 := by decide
  have htrips9 : Scf.trips k0_t11_loop.lb k0_t11_loop.ub k0_t11_loop.st = 40 := by decide
  unfold k0_t1_body
  iintro ⟨#Hlv, Ht5, H6, Hwin0, Hwin1, Hwin2, Hwin3, Hwin4, Hwin5, Hwin6, Hwin7, Hwin8, Hwin9, Hoch0, Hoch1, Hoch2, Hoch3, Hoch4, Hoch5, Hoch6, Hoch7, Hoch8, Hoch9, H9, Hw9, Hw0, Hw1, Hw2, Hw3, Hw4, Hg5, Hg6, Hg7, Hg8, Hg9, WF5, WF6, WF7, WF8, GF0, RT0, GF1, RT1, GF2, RT2, GF3, RT3, GF4, RT4, HO⟩
  ihave Hmw := ((K (F := F)).mayWaits_none (thr := thr d L) hO) $$ Hlv
  have hin : ∀ (r : Rect S25600) (hr) (x : r.shape.Idx),
      BitVec.toNat (View.read (Elt F) ((s7).slice r hr).view I x) < 100000 := fun r hr x => by
    rw [View.read_apply]; exact hI _
  sl_exec
  sl_for (invInV0 d L P (Gw d L ft I go0 hgo0)) $$ [H6 GF0_dst]
  case region =>
    intro r _
    have hr40 : r.val < 40 := lt_of_lt_of_eq r.isLt htrips0
    unfold invInV0
    iintro ⟨H6, %f, Hs, %hf⟩
    sl_exec
    sl_step
    isplitl [H6]; · iexact H6
    iexists _; isplitl [Hs]; · iexact Hs
    ipureintro
    sl_unfold_run_names
    intro y
    exact rowStep (slot0).view 0 r.val hr40 P _ f (k0_off6_eq r) (k0_off7_eq r) (k0_off8_eq r) (k0_off9_eq r) (k0_off10_eq r) (k0_off11_eq r) (k0_off12_eq r) (k0_off13_eq r) (k0_off14_eq r) (k0_off15_eq r) (k0_off16_eq r) (k0_off17_eq r) (k0_off18_eq r) (k0_off19_eq r) (k0_off20_eq r) (k0_off21_eq r) hf y
  · unfold invInV0
    isplitl [H6]; · iexact H6
    iexists _; isplitl [GF0_dst]; · iexact GF0_dst
    ipureintro; intro y; rw [if_neg (Nat.not_lt_zero _)]
    exact congrFun hXg0 y
  iintro %_ HI
  unfold invInV0
  icases HI with ⟨H6, %fs0, Hsl0, %hf0⟩
  have hr0 : (slot0).view.read (Elt F) fs0 = rowOp 0 P (Gw d L ft I go0 hgo0) := by
    funext y; rw [hf0 y, htrips0, if_pos (show (y 0).val < 40 from (y 0).isLt)]
  sl_exec
  sl_for (invInV1 d L P (Gw d L ft I go1 hgo1)) $$ [H6 GF1_dst]
  case region =>
    intro r _
    have hr40 : r.val < 40 := lt_of_lt_of_eq r.isLt htrips1
    unfold invInV1
    iintro ⟨H6, %f, Hs, %hf⟩
    sl_exec
    sl_step
    isplitl [H6]; · iexact H6
    iexists _; isplitl [Hs]; · iexact Hs
    ipureintro
    sl_unfold_run_names
    intro y
    exact rowStep (slot1).view 1 r.val hr40 P _ f (k0_off25_eq r) (k0_off26_eq r) (k0_off27_eq r) (k0_off28_eq r) (k0_off29_eq r) (k0_off30_eq r) (k0_off31_eq r) (k0_off32_eq r) (k0_off33_eq r) (k0_off34_eq r) (k0_off35_eq r) (k0_off36_eq r) (k0_off37_eq r) (k0_off38_eq r) (k0_off39_eq r) (k0_off40_eq r) hf y
  · unfold invInV1
    isplitl [H6]; · iexact H6
    iexists _; isplitl [GF1_dst]; · iexact GF1_dst
    ipureintro; intro y; rw [if_neg (Nat.not_lt_zero _)]
    exact congrFun hXg1 y
  iintro %_ HI
  unfold invInV1
  icases HI with ⟨H6, %fs1, Hsl1, %hf1⟩
  have hr1 : (slot1).view.read (Elt F) fs1 = rowOp 1 P (Gw d L ft I go1 hgo1) := by
    funext y; rw [hf1 y, htrips1, if_pos (show (y 0).val < 40 from (y 0).isLt)]
  sl_exec
  sl_for (invInV2 d L P (Gw d L ft I go2 hgo2)) $$ [H6 GF2_dst]
  case region =>
    intro r _
    have hr40 : r.val < 40 := lt_of_lt_of_eq r.isLt htrips2
    unfold invInV2
    iintro ⟨H6, %f, Hs, %hf⟩
    sl_exec
    sl_step
    isplitl [H6]; · iexact H6
    iexists _; isplitl [Hs]; · iexact Hs
    ipureintro
    sl_unfold_run_names
    intro y
    exact rowStep (slot2).view 2 r.val hr40 P _ f (k0_off44_eq r) (k0_off45_eq r) (k0_off46_eq r) (k0_off47_eq r) (k0_off48_eq r) (k0_off49_eq r) (k0_off50_eq r) (k0_off51_eq r) (k0_off52_eq r) (k0_off53_eq r) (k0_off54_eq r) (k0_off55_eq r) (k0_off56_eq r) (k0_off57_eq r) (k0_off58_eq r) (k0_off59_eq r) hf y
  · unfold invInV2
    isplitl [H6]; · iexact H6
    iexists _; isplitl [GF2_dst]; · iexact GF2_dst
    ipureintro; intro y; rw [if_neg (Nat.not_lt_zero _)]
    exact congrFun hXg2 y
  iintro %_ HI
  unfold invInV2
  icases HI with ⟨H6, %fs2, Hsl2, %hf2⟩
  have hr2 : (slot2).view.read (Elt F) fs2 = rowOp 2 P (Gw d L ft I go2 hgo2) := by
    funext y; rw [hf2 y, htrips2, if_pos (show (y 0).val < 40 from (y 0).isLt)]
  sl_exec
  sl_for (invInV3 d L P (Gw d L ft I go3 hgo3)) $$ [H6 GF3_dst]
  case region =>
    intro r _
    have hr40 : r.val < 40 := lt_of_lt_of_eq r.isLt htrips3
    unfold invInV3
    iintro ⟨H6, %f, Hs, %hf⟩
    sl_exec
    sl_step
    isplitl [H6]; · iexact H6
    iexists _; isplitl [Hs]; · iexact Hs
    ipureintro
    sl_unfold_run_names
    intro y
    exact rowStep (slot3).view 3 r.val hr40 P _ f (k0_off63_eq r) (k0_off64_eq r) (k0_off65_eq r) (k0_off66_eq r) (k0_off67_eq r) (k0_off68_eq r) (k0_off69_eq r) (k0_off70_eq r) (k0_off71_eq r) (k0_off72_eq r) (k0_off73_eq r) (k0_off74_eq r) (k0_off75_eq r) (k0_off76_eq r) (k0_off77_eq r) (k0_off78_eq r) hf y
  · unfold invInV3
    isplitl [H6]; · iexact H6
    iexists _; isplitl [GF3_dst]; · iexact GF3_dst
    ipureintro; intro y; rw [if_neg (Nat.not_lt_zero _)]
    exact congrFun hXg3 y
  iintro %_ HI
  unfold invInV3
  icases HI with ⟨H6, %fs3, Hsl3, %hf3⟩
  have hr3 : (slot3).view.read (Elt F) fs3 = rowOp 3 P (Gw d L ft I go3 hgo3) := by
    funext y; rw [hf3 y, htrips3, if_pos (show (y 0).val < 40 from (y 0).isLt)]
  sl_exec
  sl_for (invInV4 d L P (Gw d L ft I go4 hgo4)) $$ [H6 GF4_dst]
  case region =>
    intro r _
    have hr40 : r.val < 40 := lt_of_lt_of_eq r.isLt htrips4
    unfold invInV4
    iintro ⟨H6, %f, Hs, %hf⟩
    sl_exec
    sl_step
    isplitl [H6]; · iexact H6
    iexists _; isplitl [Hs]; · iexact Hs
    ipureintro
    sl_unfold_run_names
    intro y
    exact rowStep (slot4).view 4 r.val hr40 P _ f (k0_off82_eq r) (k0_off83_eq r) (k0_off84_eq r) (k0_off85_eq r) (k0_off86_eq r) (k0_off87_eq r) (k0_off88_eq r) (k0_off89_eq r) (k0_off90_eq r) (k0_off91_eq r) (k0_off92_eq r) (k0_off93_eq r) (k0_off94_eq r) (k0_off95_eq r) (k0_off96_eq r) (k0_off97_eq r) hf y
  · unfold invInV4
    isplitl [H6]; · iexact H6
    iexists _; isplitl [GF4_dst]; · iexact GF4_dst
    ipureintro; intro y; rw [if_neg (Nat.not_lt_zero _)]
    exact congrFun hXg4 y
  iintro %_ HI
  unfold invInV4
  icases HI with ⟨H6, %fs4, Hsl4, %hf4⟩
  have hr4 : (slot4).view.read (Elt F) fs4 = rowOp 4 P (Gw d L ft I go4 hgo4) := by
    funext y; rw [hf4 y, htrips4, if_pos (show (y 0).val < 40 from (y 0).isLt)]
  sl_exec
  sl_for (invInV5 d L P (Gw d L ft I (k0_off4 k) (k0_off4_inb k k0_h2))) $$ [H6 WF5_src]
  case region =>
    intro r _
    have hr40 : r.val < 40 := lt_of_lt_of_eq r.isLt htrips5
    unfold invInV5
    iintro ⟨H6, %f, Hs, %hf⟩
    sl_exec
    sl_step
    isplitl [H6]; · iexact H6
    iexists _; isplitl [Hs]; · iexact Hs
    ipureintro
    sl_unfold_run_names
    intro y
    exact rowStep (slot5).view 0 r.val hr40 P _ f (k0_off101_eq r) (k0_off102_eq r) (k0_off103_eq r) (k0_off104_eq r) (k0_off105_eq r) (k0_off106_eq r) (k0_off107_eq r) (k0_off108_eq r) (k0_off109_eq r) (k0_off110_eq r) (k0_off111_eq r) (k0_off112_eq r) (k0_off113_eq r) (k0_off114_eq r) (k0_off115_eq r) (k0_off116_eq r) hf y
  · unfold invInV5
    isplitl [H6]; · iexact H6
    iexists _; isplitl [WF5_src]; · iexact WF5_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV5
  icases HI with ⟨H6, %fs5, Hsl5, %hf5⟩
  have hr5 : (slot5).view.read (Elt F) fs5 = rowOp 0 P (Gw d L ft I (k0_off4 k) (k0_off4_inb k k0_h2)) := by
    funext y; rw [hf5 y, htrips5, if_pos (show (y 0).val < 40 from (y 0).isLt)]
  sl_exec
  sl_for (invInV6 d L P (Gw d L ft I (k0_off24 k) (k0_off24_inb k k0_h5))) $$ [H6 WF6_src]
  case region =>
    intro r _
    have hr40 : r.val < 40 := lt_of_lt_of_eq r.isLt htrips6
    unfold invInV6
    iintro ⟨H6, %f, Hs, %hf⟩
    sl_exec
    sl_step
    isplitl [H6]; · iexact H6
    iexists _; isplitl [Hs]; · iexact Hs
    ipureintro
    sl_unfold_run_names
    intro y
    exact rowStep (slot6).view 1 r.val hr40 P _ f (k0_off120_eq r) (k0_off121_eq r) (k0_off122_eq r) (k0_off123_eq r) (k0_off124_eq r) (k0_off125_eq r) (k0_off126_eq r) (k0_off127_eq r) (k0_off128_eq r) (k0_off129_eq r) (k0_off130_eq r) (k0_off131_eq r) (k0_off132_eq r) (k0_off133_eq r) (k0_off134_eq r) (k0_off135_eq r) hf y
  · unfold invInV6
    isplitl [H6]; · iexact H6
    iexists _; isplitl [WF6_src]; · iexact WF6_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV6
  icases HI with ⟨H6, %fs6, Hsl6, %hf6⟩
  have hr6 : (slot6).view.read (Elt F) fs6 = rowOp 1 P (Gw d L ft I (k0_off24 k) (k0_off24_inb k k0_h5)) := by
    funext y; rw [hf6 y, htrips6, if_pos (show (y 0).val < 40 from (y 0).isLt)]
  sl_exec
  sl_for (invInV7 d L P (Gw d L ft I (k0_off43 k) (k0_off43_inb k k0_h8))) $$ [H6 WF7_src]
  case region =>
    intro r _
    have hr40 : r.val < 40 := lt_of_lt_of_eq r.isLt htrips7
    unfold invInV7
    iintro ⟨H6, %f, Hs, %hf⟩
    sl_exec
    sl_step
    isplitl [H6]; · iexact H6
    iexists _; isplitl [Hs]; · iexact Hs
    ipureintro
    sl_unfold_run_names
    intro y
    exact rowStep (slot7).view 2 r.val hr40 P _ f (k0_off139_eq r) (k0_off140_eq r) (k0_off141_eq r) (k0_off142_eq r) (k0_off143_eq r) (k0_off144_eq r) (k0_off145_eq r) (k0_off146_eq r) (k0_off147_eq r) (k0_off148_eq r) (k0_off149_eq r) (k0_off150_eq r) (k0_off151_eq r) (k0_off152_eq r) (k0_off153_eq r) (k0_off154_eq r) hf y
  · unfold invInV7
    isplitl [H6]; · iexact H6
    iexists _; isplitl [WF7_src]; · iexact WF7_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV7
  icases HI with ⟨H6, %fs7, Hsl7, %hf7⟩
  have hr7 : (slot7).view.read (Elt F) fs7 = rowOp 2 P (Gw d L ft I (k0_off43 k) (k0_off43_inb k k0_h8)) := by
    funext y; rw [hf7 y, htrips7, if_pos (show (y 0).val < 40 from (y 0).isLt)]
  sl_exec
  sl_for (invInV8 d L P (Gw d L ft I (k0_off62 k) (k0_off62_inb k k0_h11))) $$ [H6 WF8_src]
  case region =>
    intro r _
    have hr40 : r.val < 40 := lt_of_lt_of_eq r.isLt htrips8
    unfold invInV8
    iintro ⟨H6, %f, Hs, %hf⟩
    sl_exec
    sl_step
    isplitl [H6]; · iexact H6
    iexists _; isplitl [Hs]; · iexact Hs
    ipureintro
    sl_unfold_run_names
    intro y
    exact rowStep (slot8).view 3 r.val hr40 P _ f (k0_off158_eq r) (k0_off159_eq r) (k0_off160_eq r) (k0_off161_eq r) (k0_off162_eq r) (k0_off163_eq r) (k0_off164_eq r) (k0_off165_eq r) (k0_off166_eq r) (k0_off167_eq r) (k0_off168_eq r) (k0_off169_eq r) (k0_off170_eq r) (k0_off171_eq r) (k0_off172_eq r) (k0_off173_eq r) hf y
  · unfold invInV8
    isplitl [H6]; · iexact H6
    iexists _; isplitl [WF8_src]; · iexact WF8_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV8
  icases HI with ⟨H6, %fs8, Hsl8, %hf8⟩
  have hr8 : (slot8).view.read (Elt F) fs8 = rowOp 3 P (Gw d L ft I (k0_off62 k) (k0_off62_inb k k0_h11)) := by
    funext y; rw [hf8 y, htrips8, if_pos (show (y 0).val < 40 from (y 0).isLt)]
  sl_exec
  sl_for (invInV9 d L P (Gw d L ft I (k0_off81 k) (k0_off81_inb k k0_h14))) $$ [H6 H9]
  case region =>
    intro r _
    have hr40 : r.val < 40 := lt_of_lt_of_eq r.isLt htrips9
    unfold invInV9
    iintro ⟨H6, %f, Hs, %hf⟩
    sl_exec
    sl_step
    isplitl [H6]; · iexact H6
    iexists _; isplitl [Hs]; · iexact Hs
    ipureintro
    sl_unfold_run_names
    intro y
    exact rowStep (slot9).view 4 r.val hr40 P _ f (k0_off177_eq r) (k0_off178_eq r) (k0_off179_eq r) (k0_off180_eq r) (k0_off181_eq r) (k0_off182_eq r) (k0_off183_eq r) (k0_off184_eq r) (k0_off185_eq r) (k0_off186_eq r) (k0_off187_eq r) (k0_off188_eq r) (k0_off189_eq r) (k0_off190_eq r) (k0_off191_eq r) (k0_off192_eq r) hf y
  · unfold invInV9
    isplitl [H6]; · iexact H6
    iexists _; isplitl [H9]; · iexact H9
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV9
  icases HI with ⟨H6, %fs9, Hsl9, %hf9⟩
  have hr9 : (slot9).view.read (Elt F) fs9 = rowOp 4 P (Gw d L ft I (k0_off81 k) (k0_off81_inb k k0_h14)) := by
    funext y; rw [hf9 y, htrips9, if_pos (show (y 0).val < 40 from (y 0).isLt)]
  sl_exec
  sl_step
  iexists _, _, _, _, _, _, _, _, _, _, _, _, _, _, _
  isplitl [HO]; · iexact HO
  isplitl [H6]; · iexact H6
  isplitl [RT3]; · iexact RT3
  isplitl [GF0_dst_and]; · iexact GF0_dst_and
  isplitl [GF1_dst_and]; · iexact GF1_dst_and
  isplitl [GF2_dst_and]; · iexact GF2_dst_and
  isplitl [GF3_dst_and]; · iexact GF3_dst_and
  isplitl [GF4_dst_and]; · iexact GF4_dst_and
  isplitl [Hwin0]; · iexact Hwin0
  isplitl [Hwin1]; · iexact Hwin1
  isplitl [Hwin2]; · iexact Hwin2
  isplitl [Hwin3]; · iexact Hwin3
  isplitl [Hwin4]; · iexact Hwin4
  isplitl [WF5_dst]; · iexact WF5_dst
  isplitl [WF6_dst]; · iexact WF6_dst
  isplitl [WF7_dst]; · iexact WF7_dst
  isplitl [WF8_dst]; · iexact WF8_dst
  isplitl [Hoch0]
  · iexists _; isplitl [Hoch0]; · iexact Hoch0
    ipureintro; refine (View.read_writes_whole _ _ _).trans ?_; sl_unfold_run_names; exact hX9
  isplitl [Hoch1]
  · iexists _; isplitl [Hoch1]; · iexact Hoch1
    ipureintro; refine (View.read_writes_whole _ _ _).trans ?_; sl_unfold_run_names; exact hr0
  isplitl [Hoch2]
  · iexists _; isplitl [Hoch2]; · iexact Hoch2
    ipureintro; refine (View.read_writes_whole _ _ _).trans ?_; sl_unfold_run_names; exact hr1
  isplitl [Hoch3]
  · iexists _; isplitl [Hoch3]; · iexact Hoch3
    ipureintro; refine (View.read_writes_whole _ _ _).trans ?_; sl_unfold_run_names; exact hr2
  isplitl [Hoch4]
  · iexists _; isplitl [Hoch4]; · iexact Hoch4
    ipureintro; refine (View.read_writes_whole _ _ _).trans ?_; sl_unfold_run_names; exact hr3
  isplitl [Hoch5]
  · iexists _; isplitl [Hoch5]; · iexact Hoch5
    ipureintro; refine (View.read_writes_whole _ _ _).trans ?_; sl_unfold_run_names; exact hr4
  isplitl [Hsl9]; · iexact Hsl9
  isplitl [Hw9]; · iexact Hw9
  isplitl [Hw0]; · iexact Hw0
  isplitl [Hw1]; · iexact Hw1
  isplitl [Hw2]; · iexact Hw2
  isplitl [Hw3]; · iexact Hw3
  isplitl [Hw4]; · iexact Hw4
  isplitl [Hg5]; · iexact Hg5
  isplitl [Hg6]; · iexact Hg6
  isplitl [Hg7]; · iexact Hg7
  isplitl [Hg8]; · iexact Hg8
  isplitl [Hg9]; · iexact Hg9
  isplitl [GF0]; · iexact GF0
  isplitl [RT4]; · iexact RT4
  isplitl [GF1]; · iexact GF1
  isplitl [Ht5]; · iexact Ht5
  isplitl [GF2]; · iexact GF2
  isplitl [RT0]; · iexact RT0
  isplitl [GF3]; · iexact GF3
  isplitl [RT1]; · iexact RT1
  isplitl [GF4]; · iexact GF4
  isplitl [RT2]; · iexact RT2
  isplitl [WF5]; · iexact WF5
  isplitl [WF6]; · iexact WF6
  isplitl [WF7]; · iexact WF7
  isplitl [WF8]; · iexact WF8
  isplitr
  · ipureintro
    repeat' apply waits_step
    exact fun p hp => .inl hp
  isplitr; · ipureintro; exact hr9
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact gather_eq_Gw d L ft I _ _ _ _
  isplitr; · ipureintro; refine (View.read_writes_whole _ _ _).trans ?_; sl_unfold_run_names; exact hr5
  isplitr; · ipureintro; refine (View.read_writes_whole _ _ _).trans ?_; sl_unfold_run_names; exact hr6
  isplitr; · ipureintro; refine (View.read_writes_whole _ _ _).trans ?_; sl_unfold_run_names; exact hr7
  ipureintro; refine (View.read_writes_whole _ _ _).trans ?_; sl_unfold_run_names; exact hr8

end Cert.Proof.KB
end
-- ==== Proof.KBRegionMid.lean ====
/-
  One trip in the middle of the main loop takes the loop's invariant before it to the invariant after it: the
  invariant gives the trip its ten windows and ten chunks out of the books and the transfers in flight; what the trip
  hands back goes into the books again, every returned chunk at the specification's values, and the transfers it
  leaves in flight are the next invariant's, the read shares of the table rotated by two.
-/
import proofs.«206279_g3710851744293_cont_8to1_b_253_31_alg».proof.Proof.KBRegionPre
import proofs.«206279_g3710851744293_cont_8to1_b_253_31_alg».proof.Proof.KBTripMidV
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

theorem region_mid (d : Dev nD) (L : grid0.Coords) (O : CellTallies nD τ sig (HIx 1)) (W : Waits sig (HIx 1)) (hO : ∀ g, O g none = 0)
    (fi : Buf (Elt F) (iLoc d)) (fp : Buf (Elt F) (pLoc d))
    (ft : Buf (Elt F) ((thr d L).loc main_arg1_scv)) (fo : Buf (Elt F) ((thr d L).loc main_v2_scv))
    (P : Buf (Elt F) ((thr d L).loc cc0_scratch0)) (I : Buf (Elt F) ((thr d L).loc cc0_scratch1))
    (hI : ∀ j, (I j).toNat < 100000)
    (hIdef : ∀ j : Fin 25600, I (ValueIdx.ix1 j) = fi (ValueIdx.ix1 ⟨25600 * (wid L).val + j.val, by have := (wid L).isLt; have := j.isLt; omega⟩))
    (hP : ∀ y, P y = fp y) (k : Fin k0_t1_loop.trips) (hk1 : 1 ≤ k.val) (hk2 : k.val ≤ 62) (v2 : BitVec 32) :
    (Inv d L ft I P O W fo (GK fi fp ft) k.val () : sProp 𝕄)
      ⊢ wp frame (wpE (defs₀ (F := F)) 𝒱₀ (thr d L) none) Set.univ
          (k0_t1_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k ⟨⟩)
          fun _ => Inv d L ft I P O W fo (GK fi fp ft) (k.val + 1) () := by
  obtain ⟨k0_h1, k0_h2, k0_h3, k0_h4, k0_h5, k0_h6, k0_h7, k0_h8, k0_h9, k0_h10, k0_h11, k0_h12, k0_h13, k0_h14, k0_h15, k0_h16, k0_h17, k0_h18, k0_h19, k0_h20, k0_h21, k0_h22, k0_h23, k0_h24, k0_h25, k0_h26, k0_h27, k0_h28, k0_h29, k0_h30⟩ := conds_mid k hk1 hk2
  have hk0 : ¬ (k.val = 0) := by omega
  have hk63 : k.val ≤ 63 := by omega
  have hk0' : ¬ (k.val + 1 = 0) := by omega
  have hk63' : k.val + 1 ≤ 63 := by omega
  unfold Inv RingMid
  rw [if_neg hk0, if_pos hk63, if_neg hk0', if_pos hk63']
  iintro ⟨%W', #Hlev, Howes, %hW', H6, Hbooks, %k', %hk', Hring⟩
  have hk'62 : k'.val ≤ 62 := by omega
  ihave Hring2 := (dite_pos_ent hk'62) $$ Hring
  icases Hring2 with ⟨%q0, %q1, %q2, %q3, %q4, %q5, %Y0, %Y1, %Y2, %Y3, %Y4, %Z5, %Z6, %Z7, %Z8, %X9, %g5, %g6, %g7, %g8, %hSh, Ht5, Hs9, S22, S13, S14, S15, S16, S17, S8, S9, S10, S11, S12, GF0, RT0, GF1, RT1, GF2, RT2, GF3, RT3, GF4, RT4, WF5, WF6, WF7, WF8, %hX9, %hY0, %hY1, %hY2, %hY3, %hY4, %hg5, %hg6, %hg7, %hg8⟩
  ihave Hb := (books_take_mid d L I fo (GK fi fp ft) k hk1 hk2 k0_h2 k0_h5 k0_h8 k0_h11 k0_h14 k0_h17 k0_h20 k0_h23 k0_h26 k0_h29 k0_h1 k0_h4 k0_h7 k0_h10 k0_h13 k0_h16 k0_h19 k0_h22 k0_h25 k0_h28) $$ Hbooks
  icases Hb with ⟨Hbooks, Hw4, Hw24, Hw43, Hw62, Hw81, Hw100, Hw119, Hw138, Hw157, Hw176, Ho2, Ho22, Ho41, Ho60, Ho79, Ho98, Ho117, Ho136, Ho155, Ho174⟩
  iapply (wp_wand_r frame _ _)
  isplitl [Ht5 H6 Hw4 Hw24 Hw43 Hw62 Hw81 Hw100 Hw119 Hw138 Hw157 Hw176 Ho2 Ho22 Ho41 Ho60 Ho79 Ho98 Ho117 Ho136 Ho155 Ho174 Hs9 S22 S13 S14 S15 S16 S17 S8 S9 S10 S11 S12 WF5 WF6 WF7 WF8 GF0 RT0 GF1 RT1 GF2 RT2 GF3 RT3 GF4 RT4 Howes]
  · iapply (trip_midV d L O W' hO k v2 q0 q1 q2 q3 q4 q5 ft fo P I hI k0_h1 k0_h2 k0_h3 k0_h4 k0_h5 k0_h6 k0_h7 k0_h8 k0_h9 k0_h10 k0_h11 k0_h12 k0_h13 k0_h14 k0_h15 k0_h16 k0_h17 k0_h18 k0_h19 k0_h20 k0_h21 k0_h22 k0_h23 k0_h24 k0_h25 k0_h26 k0_h27 k0_h28 k0_h29 k0_h30 X9 Y0 Y1 Y2 Y3 Y4 Z5 Z6 Z7 Z8 g5 g6 g7 g8 (k0_off100 k') (k0_off119 k') (k0_off138 k') (k0_off157 k') (k0_off176 k') (k0_off100_inb k' (c17 k' hk'62)) (k0_off119_inb k' (c20 k' hk'62)) (k0_off138_inb k' (c23 k' hk'62)) (k0_off157_inb k' (c26 k' hk'62)) (k0_off176_inb k' (c29 k' hk'62)) (k0_off117 L k') (k0_off136 L k') (k0_off155 L k') (k0_off174 L k') (k0_off117_inb L k' (c19 k' hk'62)) (k0_off136_inb L k' (c22 k' hk'62)) (k0_off155_inb L k' (c25 k' hk'62)) (k0_off174_inb L k' (c28 k' hk'62)) (rowOp 4 P (Gw d L ft I (k0_off81 k') (k0_off81_inb k' (c14 k' hk'62)))) hX9 hY0 hY1 hY2 hY3 hY4)
    isplitl []; · iexact Hlev
    isplitl [Ht5]; · iexact Ht5
    isplitl [H6]; · iexact H6
    isplitl [Hw4]; · iexact Hw4
    isplitl [Hw24]; · iexact Hw24
    isplitl [Hw43]; · iexact Hw43
    isplitl [Hw62]; · iexact Hw62
    isplitl [Hw81]; · iexact Hw81
    isplitl [Hw100]; · iexact Hw100
    isplitl [Hw119]; · iexact Hw119
    isplitl [Hw138]; · iexact Hw138
    isplitl [Hw157]; · iexact Hw157
    isplitl [Hw176]; · iexact Hw176
    isplitl [Ho2]; · iexact Ho2
    isplitl [Ho22]; · iexact Ho22
    isplitl [Ho41]; · iexact Ho41
    isplitl [Ho60]; · iexact Ho60
    isplitl [Ho79]; · iexact Ho79
    isplitl [Ho98]; · iexact Ho98
    isplitl [Ho117]; · iexact Ho117
    isplitl [Ho136]; · iexact Ho136
    isplitl [Ho155]; · iexact Ho155
    isplitl [Ho174]; · iexact Ho174
    isplitl [Hs9]; · iexact Hs9
    isplitl [S22]; · iexact S22
    isplitl [S13]; · iexact S13
    isplitl [S14]; · iexact S14
    isplitl [S15]; · iexact S15
    isplitl [S16]; · iexact S16
    isplitl [S17]; · iexact S17
    isplitl [S8]; · iexact S8
    isplitl [S9]; · iexact S9
    isplitl [S10]; · iexact S10
    isplitl [S11]; · iexact S11
    isplitl [S12]; · iexact S12
    isplitl [WF5]; · iexact WF5
    isplitl [WF6]; · iexact WF6
    isplitl [WF7]; · iexact WF7
    isplitl [WF8]; · iexact WF8
    isplitl [GF0]; · iexact GF0
    isplitl [RT0]; · iexact RT0
    isplitl [GF1]; · iexact GF1
    isplitl [RT1]; · iexact RT1
    isplitl [GF2]; · iexact GF2
    isplitl [RT2]; · iexact RT2
    isplitl [GF3]; · iexact GF3
    isplitl [RT3]; · iexact RT3
    isplitl [GF4]; · iexact GF4
    isplitl [RT4]; · iexact RT4
    iexact Howes
  iintro %u Hpost
  icases Hpost with ⟨%W'', %Y0', %Y1', %Y2', %Y3', %Y4', %Z5', %Z6', %Z7', %Z8', %X9', %g5', %g6', %g7', %g8', Howes, H6, Ht3, Hwg0, Hwg1, Hwg2, Hwg3, Hwg4, Hw4, Hw24, Hw43, Hw62, Hw81, Hor5, Hor6, Hor7, Hor8, ⟨%f2, Ho2, %hf2⟩, ⟨%f22, Ho22, %hf22⟩, ⟨%f41, Ho41, %hf41⟩, ⟨%f60, Ho60, %hf60⟩, ⟨%f79, Ho79, %hf79⟩, ⟨%f98, Ho98, %hf98⟩, Hs9, S22, S13, S14, S15, S16, S17, S8, S9, S10, S11, S12, GF0, RT4, GF1, RT5, GF2, RT0, GF3, RT1, GF4, RT2, WF5, WF6, WF7, WF8, %hW'', %hX9', %hY0', %hY1', %hY2', %hY3', %hY4', %hg5', %hg6', %hg7', %hg8'⟩
  ihave Hor5 := (chunk_to_GK' d L fi fp ft I P hIdef hP (k0_off117_inb L k' (c19 k' hk'62)) (k0_off4_inb k' (c2 k' hk'62)) (k0_off117_eq L k') (k0_off4_eq k') 0 (by omega) (by omega) rfl g5 hg5) $$ Hor5
  ihave Hor6 := (chunk_to_GK' d L fi fp ft I P hIdef hP (k0_off136_inb L k' (c22 k' hk'62)) (k0_off24_inb k' (c5 k' hk'62)) (k0_off136_eq L k') (k0_off24_eq k') 1 (by omega) (by omega) rfl g6 hg6) $$ Hor6
  ihave Hor7 := (chunk_to_GK' d L fi fp ft I P hIdef hP (k0_off155_inb L k' (c25 k' hk'62)) (k0_off43_inb k' (c8 k' hk'62)) (k0_off155_eq L k') (k0_off43_eq k') 2 (by omega) (by omega) rfl g7 hg7) $$ Hor7
  ihave Hor8 := (chunk_to_GK' d L fi fp ft I P hIdef hP (k0_off174_inb L k' (c28 k' hk'62)) (k0_off62_inb k' (c11 k' hk'62)) (k0_off174_eq L k') (k0_off62_eq k') 3 (by omega) (by omega) rfl g8 hg8) $$ Hor8
  ihave Ho2 := (chunk_to_GK' d L fi fp ft I P hIdef hP (k0_off2_inb L k k0_h1) (k0_off81_inb k' (c14 k' hk'62)) (k0_off2_eq' L k k0_h1) (k0_off81_eq k') 4 (by omega) (by omega) rfl f2 hf2) $$ Ho2
  ihave Ho22 := (chunk_to_GK' d L fi fp ft I P hIdef hP (k0_off22_inb L k k0_h4) (k0_off100_inb k' (c17 k' hk'62)) (k0_off22_eq L k) (k0_off100_eq k') 0 (by omega) (by omega) rfl f22 hf22) $$ Ho22
  ihave Ho41 := (chunk_to_GK' d L fi fp ft I P hIdef hP (k0_off41_inb L k k0_h7) (k0_off119_inb k' (c20 k' hk'62)) (k0_off41_eq L k) (k0_off119_eq k') 1 (by omega) (by omega) rfl f41 hf41) $$ Ho41
  ihave Ho60 := (chunk_to_GK' d L fi fp ft I P hIdef hP (k0_off60_inb L k k0_h10) (k0_off138_inb k' (c23 k' hk'62)) (k0_off60_eq L k) (k0_off138_eq k') 2 (by omega) (by omega) rfl f60 hf60) $$ Ho60
  ihave Ho79 := (chunk_to_GK' d L fi fp ft I P hIdef hP (k0_off79_inb L k k0_h13) (k0_off157_inb k' (c26 k' hk'62)) (k0_off79_eq L k) (k0_off157_eq k') 3 (by omega) (by omega) rfl f79 hf79) $$ Ho79
  ihave Ho98 := (chunk_to_GK' d L fi fp ft I P hIdef hP (k0_off98_inb L k k0_h16) (k0_off176_inb k' (c29 k' hk'62)) (k0_off98_eq L k) (k0_off176_eq k') 4 (by omega) (by omega) rfl f98 hf98) $$ Ho98
  ihave Hbooks2 := (books_put_mid d L I fo (GK fi fp ft) k k' hk' hk2 k0_h2 k0_h5 k0_h8 k0_h11 k0_h14 k0_h1 k0_h4 k0_h7 k0_h10 k0_h13 k0_h16 (c17 k' hk'62) (c20 k' hk'62) (c23 k' hk'62) (c26 k' hk'62) (c29 k' hk'62) (c19 k' hk'62) (c22 k' hk'62) (c25 k' hk'62) (c28 k' hk'62)) $$ [Hbooks Hwg0 Hwg1 Hwg2 Hwg3 Hwg4 Hw4 Hw24 Hw43 Hw62 Hw81 Hor5 Hor6 Hor7 Hor8 Ho2 Ho22 Ho41 Ho60 Ho79 Ho98]
  · isplitl [Hbooks]; · iexact Hbooks
    isplitl [Hwg0]; · iexact Hwg0
    isplitl [Hwg1]; · iexact Hwg1
    isplitl [Hwg2]; · iexact Hwg2
    isplitl [Hwg3]; · iexact Hwg3
    isplitl [Hwg4]; · iexact Hwg4
    isplitl [Hw4]; · iexact Hw4
    isplitl [Hw24]; · iexact Hw24
    isplitl [Hw43]; · iexact Hw43
    isplitl [Hw62]; · iexact Hw62
    isplitl [Hw81]; · iexact Hw81
    isplitl [Hor5]; · iexact Hor5
    isplitl [Hor6]; · iexact Hor6
    isplitl [Hor7]; · iexact Hor7
    isplitl [Hor8]; · iexact Hor8
    isplitl [Ho2]; · iexact Ho2
    isplitl [Ho22]; · iexact Ho22
    isplitl [Ho41]; · iexact Ho41
    isplitl [Ho60]; · iexact Ho60
    isplitl [Ho79]; · iexact Ho79
    iexact Ho98
  iexists W''
  isplitl []; · iexact Hlev
  isplitl [Howes]; · iexact Howes
  isplitl []; · ipureintro; exact waits_trans hW' hW''
  isplitl [H6]; · iexact H6
  isplitl [Hbooks2]; · iapply (Books_congr d L I fo (GK fi fp ft) (10 * k.val + 10) (10 * k.val + 15) (10 * k.val + 5) (10 * k.val + 9) (10 * (k.val + 1)) (10 * (k.val + 1) + 5) (10 * (k.val + 1) - 5) (10 * (k.val + 1) - 1) (by omega) (by omega) (by omega) (by omega)); iexact Hbooks2
  iexists k
  isplitl []; · ipureintro; rfl
  iapply (dite_pos_ent' hk2)
  iexists q4, q5, q0, q1, q2, q3, Y0', Y1', Y2', Y3', Y4', Z5', Z6', Z7', Z8', X9', g5', g6', g7', g8'
  isplitl []; · ipureintro; exact hSh.rot
  isplitl [Ht3]; · iexact Ht3
  isplitl [Hs9]; · iexact Hs9
  isplitl [S22]; · iexact S22
  isplitl [S13]; · iexact S13
  isplitl [S14]; · iexact S14
  isplitl [S15]; · iexact S15
  isplitl [S16]; · iexact S16
  isplitl [S17]; · iexact S17
  isplitl [S8]; · iexact S8
  isplitl [S9]; · iexact S9
  isplitl [S10]; · iexact S10
  isplitl [S11]; · iexact S11
  isplitl [S12]; · iexact S12
  isplitl [GF0]; · iexact GF0
  isplitl [RT4]; · iexact RT4
  isplitl [GF1]; · iexact GF1
  isplitl [RT5]; · iexact RT5
  isplitl [GF2]; · iexact GF2
  isplitl [RT0]; · iexact RT0
  isplitl [GF3]; · iexact GF3
  isplitl [RT1]; · iexact RT1
  isplitl [GF4]; · iexact GF4
  isplitl [RT2]; · iexact RT2
  isplitl [WF5]; · iexact WF5
  isplitl [WF6]; · iexact WF6
  isplitl [WF7]; · iexact WF7
  isplitl [WF8]; · iexact WF8
  isplitl []; · ipureintro; exact hX9'
  isplitl []; · ipureintro; exact hY0'
  isplitl []; · ipureintro; exact hY1'
  isplitl []; · ipureintro; exact hY2'
  isplitl []; · ipureintro; exact hY3'
  isplitl []; · ipureintro; exact hY4'
  isplitl []; · ipureintro; exact hg5'
  isplitl []; · ipureintro; exact hg6'
  isplitl []; · ipureintro; exact hg7'
  ipureintro; exact hg8'

end Cert.Proof.KB
end
-- ==== Proof.KBTripLastV.lean ====
import proofs.«206279_g3710851744293_cont_8to1_b_253_31_alg».proof.Proof.KBValLemmas
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

-- The last trip with the contents tracked: what each slot and each chunk reads before it, and after it.
set_option maxHeartbeats 1600000 in
theorem trip_lastV (d : Dev nD) (L : grid0.Coords) (O : CellTallies nD τ sig (HIx 1)) (W : Waits sig (HIx 1)) (hO : ∀ g, O g none = 0)
    (k : Fin k0_t1_loop.trips) (v2 : BitVec 32)
    (q0 q1 q2 q3 q4 q5 : PosShare TreeShare)
    (ft : Buf (Elt F) ((thr d L).loc main_arg1_scv)) (fo : Buf (Elt F) ((thr d L).loc main_v2_scv))
    (P : Buf (Elt F) ((thr d L).loc cc0_scratch0)) (I : Buf (Elt F) ((thr d L).loc cc0_scratch1))
    (hI : ∀ j, (I j).toNat < 100000) (k0_h1 : k0_cond1 k = 1#1) (k0_h2 : k0_cond2 k = 1#1) (k0_h3 : k0_cond3 k = 1#1) (k0_h4 : k0_cond4 k = 1#1) (k0_h5 : k0_cond5 k = 1#1) (k0_h6 : k0_cond6 k = 1#1) (k0_h7 : k0_cond7 k = 1#1) (k0_h8 : k0_cond8 k = 1#1) (k0_h9 : k0_cond9 k = 1#1) (k0_h10 : k0_cond10 k = 1#1) (k0_h11 : k0_cond11 k = 1#1) (k0_h12 : k0_cond12 k = 1#1) (k0_h13 : k0_cond13 k = 1#1) (k0_h14 : k0_cond14 k = 1#1) (k0_h15 : k0_cond15 k = 1#1) (k0_h16 : k0_cond16 k = 1#1) (k0_h19 : k0_cond19 k = 1#1) (k0_h22 : k0_cond22 k = 1#1) (k0_h25 : k0_cond25 k = 1#1) (k0_h28 : k0_cond28 k = 1#1) (k0_n17 : ¬ k0_cond17 k = 1#1) (k0_n20 : ¬ k0_cond20 k = 1#1) (k0_n23 : ¬ k0_cond23 k = 1#1) (k0_n26 : ¬ k0_cond26 k = 1#1) (k0_n29 : ¬ k0_cond29 k = 1#1)
    (X9 Xg0 Xg1 Xg2 Xg3 Xg4 Xw5 Xw6 Xw7 Xw8 : Buf (Elt F) ((thr d L).loc cc0_scratch2)) (fw5 fw6 fw7 fw8 : Buf (Elt F) ((thr d L).loc main_v2_scv))
    (go0 go1 go2 go3 go4 : Fin 1 → ℕ) (hgo0 : ∀ a, go0 a + S40.size a ≤ S25600.size a) (hgo1 : ∀ a, go1 a + S40.size a ≤ S25600.size a) (hgo2 : ∀ a, go2 a + S40.size a ≤ S25600.size a) (hgo3 : ∀ a, go3 a + S40.size a ≤ S25600.size a) (hgo4 : ∀ a, go4 a + S40.size a ≤ S25600.size a)
    (ro5 ro6 ro7 ro8 : Fin 3 → ℕ) (hro5 : ∀ a, ro5 a + S1x40x128.size a ≤ S4096x200x128.size a) (hro6 : ∀ a, ro6 a + S1x40x128.size a ≤ S4096x200x128.size a) (hro7 : ∀ a, ro7 a + S1x40x128.size a ≤ S4096x200x128.size a) (hro8 : ∀ a, ro8 a + S1x40x128.size a ≤ S4096x200x128.size a)
    (C9 : S40x128.Idx → F .f32) (hX9 : (slot9).view.read (Elt F) X9 = C9)
    (hXg0 : (slot0).view.read (Elt F) Xg0 = Gw d L ft I go0 hgo0)
    (hXg1 : (slot1).view.read (Elt F) Xg1 = Gw d L ft I go1 hgo1)
    (hXg2 : (slot2).view.read (Elt F) Xg2 = Gw d L ft I go2 hgo2)
    (hXg3 : (slot3).view.read (Elt F) Xg3 = Gw d L ft I go3 hgo3)
    (hXg4 : (slot4).view.read (Elt F) Xg4 = Gw d L ft I go4 hgo4) :
    (iprop(levAts (K (F := F)).L (K (F := F)).lev
        ∗ ((tV).view.loc (thr d L) ↦{q5} ft)
        ∗ ((s6).view.loc (thr d L) ↦{fullShare} P)
        ∗ ((win' (k0_off4 k) (k0_off4_inb k k0_h2)).view.loc (thr d L) ↦[(win' (k0_off4 k) (k0_off4_inb k k0_h2)).view.set]{fullShare} I)
        ∗ ((win' (k0_off24 k) (k0_off24_inb k k0_h5)).view.loc (thr d L) ↦[(win' (k0_off24 k) (k0_off24_inb k k0_h5)).view.set]{fullShare} I)
        ∗ ((win' (k0_off43 k) (k0_off43_inb k k0_h8)).view.loc (thr d L) ↦[(win' (k0_off43 k) (k0_off43_inb k k0_h8)).view.set]{fullShare} I)
        ∗ ((win' (k0_off62 k) (k0_off62_inb k k0_h11)).view.loc (thr d L) ↦[(win' (k0_off62 k) (k0_off62_inb k k0_h11)).view.set]{fullShare} I)
        ∗ ((win' (k0_off81 k) (k0_off81_inb k k0_h14)).view.loc (thr d L) ↦[(win' (k0_off81 k) (k0_off81_inb k k0_h14)).view.set]{fullShare} I)
        ∗ ((och' (k0_off2 L k) (k0_off2_inb L k k0_h1)).view.loc (thr d L) ↦[(och' (k0_off2 L k) (k0_off2_inb L k k0_h1)).view.set]{fullShare} fo)
        ∗ ((och' (k0_off22 L k) (k0_off22_inb L k k0_h4)).view.loc (thr d L) ↦[(och' (k0_off22 L k) (k0_off22_inb L k k0_h4)).view.set]{fullShare} fo)
        ∗ ((och' (k0_off41 L k) (k0_off41_inb L k k0_h7)).view.loc (thr d L) ↦[(och' (k0_off41 L k) (k0_off41_inb L k k0_h7)).view.set]{fullShare} fo)
        ∗ ((och' (k0_off60 L k) (k0_off60_inb L k k0_h10)).view.loc (thr d L) ↦[(och' (k0_off60 L k) (k0_off60_inb L k k0_h10)).view.set]{fullShare} fo)
        ∗ ((och' (k0_off79 L k) (k0_off79_inb L k k0_h13)).view.loc (thr d L) ↦[(och' (k0_off79 L k) (k0_off79_inb L k k0_h13)).view.set]{fullShare} fo)
        ∗ ((och' (k0_off98 L k) (k0_off98_inb L k k0_h16)).view.loc (thr d L) ↦[(och' (k0_off98 L k) (k0_off98_inb L k k0_h16)).view.set]{fullShare} fo)
        ∗ ((och' (k0_off117 L k) (k0_off117_inb L k k0_h19)).view.loc (thr d L) ↦[(och' (k0_off117 L k) (k0_off117_inb L k k0_h19)).view.set]{fullShare} fo)
        ∗ ((och' (k0_off136 L k) (k0_off136_inb L k k0_h22)).view.loc (thr d L) ↦[(och' (k0_off136 L k) (k0_off136_inb L k k0_h22)).view.set]{fullShare} fo)
        ∗ ((och' (k0_off155 L k) (k0_off155_inb L k k0_h25)).view.loc (thr d L) ↦[(och' (k0_off155 L k) (k0_off155_inb L k k0_h25)).view.set]{fullShare} fo)
        ∗ ((och' (k0_off174 L k) (k0_off174_inb L k k0_h28)).view.loc (thr d L) ↦[(och' (k0_off174 L k) (k0_off174_inb L k k0_h28)).view.set]{fullShare} fo)
        ∗ ((slot9).view.loc (thr d L) ↦[(slot9).view.set]{fullShare} X9)
        ∗ semVal ((thr d L, SemLoc.dma cc0_scratch22.sem) : GSem nD τ sig) 0
        ∗ semVal ((thr d L, SemLoc.dma cc0_scratch13.sem) : GSem nD τ sig) 0
        ∗ semVal ((thr d L, SemLoc.dma cc0_scratch14.sem) : GSem nD τ sig) 0
        ∗ semVal ((thr d L, SemLoc.dma cc0_scratch15.sem) : GSem nD τ sig) 0
        ∗ semVal ((thr d L, SemLoc.dma cc0_scratch16.sem) : GSem nD τ sig) 0
        ∗ semVal ((thr d L, SemLoc.dma cc0_scratch17.sem) : GSem nD τ sig) 0
        ∗ semVal ((thr d L, SemLoc.dma cc0_scratch8.sem) : GSem nD τ sig) 0
        ∗ semVal ((thr d L, SemLoc.dma cc0_scratch9.sem) : GSem nD τ sig) 0
        ∗ semVal ((thr d L, SemLoc.dma cc0_scratch10.sem) : GSem nD τ sig) 0
        ∗ semVal ((thr d L, SemLoc.dma cc0_scratch11.sem) : GSem nD τ sig) 0
        ∗ semVal ((thr d L, SemLoc.dma cc0_scratch12.sem) : GSem nD τ sig) 0
        ∗ Transfers.Flight countersEmb (thr d L) (SemLoc.dma cc0_scratch18.sem) default 163840
            iprop(((och' ro5 hro5).view.loc (thr d L) ↦[(och' ro5 hro5).view.set]{fullShare} fw5) ∗ ((slot5).view.loc (thr d L) ↦[(slot5).view.set]{fullShare} Xw5))
        ∗ Transfers.Flight countersEmb (thr d L) (SemLoc.dma cc0_scratch19.sem) default 163840
            iprop(((och' ro6 hro6).view.loc (thr d L) ↦[(och' ro6 hro6).view.set]{fullShare} fw6) ∗ ((slot6).view.loc (thr d L) ↦[(slot6).view.set]{fullShare} Xw6))
        ∗ Transfers.Flight countersEmb (thr d L) (SemLoc.dma cc0_scratch20.sem) default 163840
            iprop(((och' ro7 hro7).view.loc (thr d L) ↦[(och' ro7 hro7).view.set]{fullShare} fw7) ∗ ((slot7).view.loc (thr d L) ↦[(slot7).view.set]{fullShare} Xw7))
        ∗ Transfers.Flight countersEmb (thr d L) (SemLoc.dma cc0_scratch21.sem) default 163840
            iprop(((och' ro8 hro8).view.loc (thr d L) ↦[(och' ro8 hro8).view.set]{fullShare} fw8) ∗ ((slot8).view.loc (thr d L) ↦[(slot8).view.set]{fullShare} Xw8))
        ∗ Transfers.Flight countersEmb (thr d L) (SemLoc.dma cc0_scratch3.sem) default 163840
            iprop((((slot0).view.loc (thr d L) ↦[(slot0).view.set]{fullShare} Xg0) ∗ ((win' go0 hgo0).view.loc (thr d L) ↦[(win' go0 hgo0).view.set]{fullShare} I))
              ∗ ((tV).view.loc (thr d L) ↦[(tW).view.set]{q0} ft))
        ∗ ((tV).view.loc (thr d L) ↦[Finset.univ \ (tW).view.set]{q0} ft)
        ∗ Transfers.Flight countersEmb (thr d L) (SemLoc.dma cc0_scratch4.sem) default 163840
            iprop((((slot1).view.loc (thr d L) ↦[(slot1).view.set]{fullShare} Xg1) ∗ ((win' go1 hgo1).view.loc (thr d L) ↦[(win' go1 hgo1).view.set]{fullShare} I))
              ∗ ((tV).view.loc (thr d L) ↦[(tW).view.set]{q1} ft))
        ∗ ((tV).view.loc (thr d L) ↦[Finset.univ \ (tW).view.set]{q1} ft)
        ∗ Transfers.Flight countersEmb (thr d L) (SemLoc.dma cc0_scratch5.sem) default 163840
            iprop((((slot2).view.loc (thr d L) ↦[(slot2).view.set]{fullShare} Xg2) ∗ ((win' go2 hgo2).view.loc (thr d L) ↦[(win' go2 hgo2).view.set]{fullShare} I))
              ∗ ((tV).view.loc (thr d L) ↦[(tW).view.set]{q2} ft))
        ∗ ((tV).view.loc (thr d L) ↦[Finset.univ \ (tW).view.set]{q2} ft)
        ∗ Transfers.Flight countersEmb (thr d L) (SemLoc.dma cc0_scratch6.sem) default 163840
            iprop((((slot3).view.loc (thr d L) ↦[(slot3).view.set]{fullShare} Xg3) ∗ ((win' go3 hgo3).view.loc (thr d L) ↦[(win' go3 hgo3).view.set]{fullShare} I))
              ∗ ((tV).view.loc (thr d L) ↦[(tW).view.set]{q3} ft))
        ∗ ((tV).view.loc (thr d L) ↦[Finset.univ \ (tW).view.set]{q3} ft)
        ∗ Transfers.Flight countersEmb (thr d L) (SemLoc.dma cc0_scratch7.sem) default 163840
            iprop((((slot4).view.loc (thr d L) ↦[(slot4).view.set]{fullShare} Xg4) ∗ ((win' go4 hgo4).view.loc (thr d L) ↦[(win' go4 hgo4).view.set]{fullShare} I))
              ∗ ((tV).view.loc (thr d L) ↦[(tW).view.set]{q4} ft))
        ∗ ((tV).view.loc (thr d L) ↦[Finset.univ \ (tW).view.set]{q4} ft)
        ∗ owes (thr d L) O W) : sProp 𝕄)
      ⊢ wp frame (wpE (defs₀ (F := F)) 𝒱₀ (thr d L) none) Set.univ
          (k0_t1_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k ⟨⟩)
          fun _ => iprop(∃ (W' : Waits sig (HIx 1)) (Z0 Z1 Z2 Z3 Z4 Z5 Z6 Z7 Z8 X9' : Buf (Elt F) ((thr d L).loc cc0_scratch2)) (g0 g1 g2 g3 g4 g5 g6 g7 g8 : Buf (Elt F) ((thr d L).loc main_v2_scv)),
            owes (thr d L) O W'
            ∗ ((s6).view.loc (thr d L) ↦{fullShare} P)
            ∗ ((tV).view.loc (thr d L) ↦{q0} ft)
            ∗ ((tV).view.loc (thr d L) ↦{q1} ft)
            ∗ ((tV).view.loc (thr d L) ↦{q2} ft)
            ∗ ((tV).view.loc (thr d L) ↦{q3} ft)
            ∗ ((tV).view.loc (thr d L) ↦{q4} ft)
            ∗ ((tV).view.loc (thr d L) ↦{q5} ft)
            ∗ ((win' go0 hgo0).view.loc (thr d L) ↦[(win' go0 hgo0).view.set]{fullShare} I)
            ∗ ((win' go1 hgo1).view.loc (thr d L) ↦[(win' go1 hgo1).view.set]{fullShare} I)
            ∗ ((win' go2 hgo2).view.loc (thr d L) ↦[(win' go2 hgo2).view.set]{fullShare} I)
            ∗ ((win' go3 hgo3).view.loc (thr d L) ↦[(win' go3 hgo3).view.set]{fullShare} I)
            ∗ ((win' go4 hgo4).view.loc (thr d L) ↦[(win' go4 hgo4).view.set]{fullShare} I)
            ∗ ((win' (k0_off4 k) (k0_off4_inb k k0_h2)).view.loc (thr d L) ↦[(win' (k0_off4 k) (k0_off4_inb k k0_h2)).view.set]{fullShare} I)
            ∗ ((win' (k0_off24 k) (k0_off24_inb k k0_h5)).view.loc (thr d L) ↦[(win' (k0_off24 k) (k0_off24_inb k k0_h5)).view.set]{fullShare} I)
            ∗ ((win' (k0_off43 k) (k0_off43_inb k k0_h8)).view.loc (thr d L) ↦[(win' (k0_off43 k) (k0_off43_inb k k0_h8)).view.set]{fullShare} I)
            ∗ ((win' (k0_off62 k) (k0_off62_inb k k0_h11)).view.loc (thr d L) ↦[(win' (k0_off62 k) (k0_off62_inb k k0_h11)).view.set]{fullShare} I)
            ∗ ((win' (k0_off81 k) (k0_off81_inb k k0_h14)).view.loc (thr d L) ↦[(win' (k0_off81 k) (k0_off81_inb k k0_h14)).view.set]{fullShare} I)
            ∗ ((och' ro5 hro5).view.loc (thr d L) ↦[(och' ro5 hro5).view.set]{fullShare} fw5)
            ∗ ((och' ro6 hro6).view.loc (thr d L) ↦[(och' ro6 hro6).view.set]{fullShare} fw6)
            ∗ ((och' ro7 hro7).view.loc (thr d L) ↦[(och' ro7 hro7).view.set]{fullShare} fw7)
            ∗ ((och' ro8 hro8).view.loc (thr d L) ↦[(och' ro8 hro8).view.set]{fullShare} fw8)
            ∗ (∃ f, ((och' (k0_off2 L k) (k0_off2_inb L k k0_h1)).view.loc (thr d L) ↦[(och' (k0_off2 L k) (k0_off2_inb L k k0_h1)).view.set]{fullShare} f) ∗ ⌜(och' (k0_off2 L k) (k0_off2_inb L k k0_h1)).view.read (Elt F) f = C9⌝)
            ∗ ((slot9).view.loc (thr d L) ↦[(slot9).view.set]{fullShare} X9')
            ∗ semVal ((thr d L, SemLoc.dma cc0_scratch22.sem) : GSem nD τ sig) 0
            ∗ semVal ((thr d L, SemLoc.dma cc0_scratch3.sem) : GSem nD τ sig) 0
            ∗ semVal ((thr d L, SemLoc.dma cc0_scratch4.sem) : GSem nD τ sig) 0
            ∗ semVal ((thr d L, SemLoc.dma cc0_scratch5.sem) : GSem nD τ sig) 0
            ∗ semVal ((thr d L, SemLoc.dma cc0_scratch6.sem) : GSem nD τ sig) 0
            ∗ semVal ((thr d L, SemLoc.dma cc0_scratch7.sem) : GSem nD τ sig) 0
            ∗ semVal ((thr d L, SemLoc.dma cc0_scratch8.sem) : GSem nD τ sig) 0
            ∗ semVal ((thr d L, SemLoc.dma cc0_scratch9.sem) : GSem nD τ sig) 0
            ∗ semVal ((thr d L, SemLoc.dma cc0_scratch10.sem) : GSem nD τ sig) 0
            ∗ semVal ((thr d L, SemLoc.dma cc0_scratch11.sem) : GSem nD τ sig) 0
            ∗ semVal ((thr d L, SemLoc.dma cc0_scratch12.sem) : GSem nD τ sig) 0
            ∗ Transfers.Flight countersEmb (thr d L) (SemLoc.dma cc0_scratch13.sem) default 163840
            iprop(((och' (k0_off22 L k) (k0_off22_inb L k k0_h4)).view.loc (thr d L) ↦[(och' (k0_off22 L k) (k0_off22_inb L k k0_h4)).view.set]{fullShare} g0) ∗ ((slot0).view.loc (thr d L) ↦[(slot0).view.set]{fullShare} Z0))
            ∗ Transfers.Flight countersEmb (thr d L) (SemLoc.dma cc0_scratch14.sem) default 163840
            iprop(((och' (k0_off41 L k) (k0_off41_inb L k k0_h7)).view.loc (thr d L) ↦[(och' (k0_off41 L k) (k0_off41_inb L k k0_h7)).view.set]{fullShare} g1) ∗ ((slot1).view.loc (thr d L) ↦[(slot1).view.set]{fullShare} Z1))
            ∗ Transfers.Flight countersEmb (thr d L) (SemLoc.dma cc0_scratch15.sem) default 163840
            iprop(((och' (k0_off60 L k) (k0_off60_inb L k k0_h10)).view.loc (thr d L) ↦[(och' (k0_off60 L k) (k0_off60_inb L k k0_h10)).view.set]{fullShare} g2) ∗ ((slot2).view.loc (thr d L) ↦[(slot2).view.set]{fullShare} Z2))
            ∗ Transfers.Flight countersEmb (thr d L) (SemLoc.dma cc0_scratch16.sem) default 163840
            iprop(((och' (k0_off79 L k) (k0_off79_inb L k k0_h13)).view.loc (thr d L) ↦[(och' (k0_off79 L k) (k0_off79_inb L k k0_h13)).view.set]{fullShare} g3) ∗ ((slot3).view.loc (thr d L) ↦[(slot3).view.set]{fullShare} Z3))
            ∗ Transfers.Flight countersEmb (thr d L) (SemLoc.dma cc0_scratch17.sem) default 163840
            iprop(((och' (k0_off98 L k) (k0_off98_inb L k k0_h16)).view.loc (thr d L) ↦[(och' (k0_off98 L k) (k0_off98_inb L k k0_h16)).view.set]{fullShare} g4) ∗ ((slot4).view.loc (thr d L) ↦[(slot4).view.set]{fullShare} Z4))
            ∗ Transfers.Flight countersEmb (thr d L) (SemLoc.dma cc0_scratch18.sem) default 163840
            iprop(((och' (k0_off117 L k) (k0_off117_inb L k k0_h19)).view.loc (thr d L) ↦[(och' (k0_off117 L k) (k0_off117_inb L k k0_h19)).view.set]{fullShare} g5) ∗ ((slot5).view.loc (thr d L) ↦[(slot5).view.set]{fullShare} Z5))
            ∗ Transfers.Flight countersEmb (thr d L) (SemLoc.dma cc0_scratch19.sem) default 163840
            iprop(((och' (k0_off136 L k) (k0_off136_inb L k k0_h22)).view.loc (thr d L) ↦[(och' (k0_off136 L k) (k0_off136_inb L k k0_h22)).view.set]{fullShare} g6) ∗ ((slot6).view.loc (thr d L) ↦[(slot6).view.set]{fullShare} Z6))
            ∗ Transfers.Flight countersEmb (thr d L) (SemLoc.dma cc0_scratch20.sem) default 163840
            iprop(((och' (k0_off155 L k) (k0_off155_inb L k k0_h25)).view.loc (thr d L) ↦[(och' (k0_off155 L k) (k0_off155_inb L k k0_h25)).view.set]{fullShare} g7) ∗ ((slot7).view.loc (thr d L) ↦[(slot7).view.set]{fullShare} Z7))
            ∗ Transfers.Flight countersEmb (thr d L) (SemLoc.dma cc0_scratch21.sem) default 163840
            iprop(((och' (k0_off174 L k) (k0_off174_inb L k k0_h28)).view.loc (thr d L) ↦[(och' (k0_off174 L k) (k0_off174_inb L k k0_h28)).view.set]{fullShare} g8) ∗ ((slot8).view.loc (thr d L) ↦[(slot8).view.set]{fullShare} Z8))
            ∗ ⌜∀ p ∈ W', p ∈ W ∨ p.2 = none⌝
            ∗ ⌜(slot9).view.read (Elt F) X9' = rowOp 4 P (Gw d L ft I (k0_off81 k) (k0_off81_inb k k0_h14))⌝
            ∗ ⌜(och' (k0_off22 L k) (k0_off22_inb L k k0_h4)).view.read (Elt F) g0 = rowOp 0 P (Gw d L ft I go0 hgo0)⌝
            ∗ ⌜(och' (k0_off41 L k) (k0_off41_inb L k k0_h7)).view.read (Elt F) g1 = rowOp 1 P (Gw d L ft I go1 hgo1)⌝
            ∗ ⌜(och' (k0_off60 L k) (k0_off60_inb L k k0_h10)).view.read (Elt F) g2 = rowOp 2 P (Gw d L ft I go2 hgo2)⌝
            ∗ ⌜(och' (k0_off79 L k) (k0_off79_inb L k k0_h13)).view.read (Elt F) g3 = rowOp 3 P (Gw d L ft I go3 hgo3)⌝
            ∗ ⌜(och' (k0_off98 L k) (k0_off98_inb L k k0_h16)).view.read (Elt F) g4 = rowOp 4 P (Gw d L ft I go4 hgo4)⌝
            ∗ ⌜(och' (k0_off117 L k) (k0_off117_inb L k k0_h19)).view.read (Elt F) g5 = rowOp 0 P (Gw d L ft I (k0_off4 k) (k0_off4_inb k k0_h2))⌝
            ∗ ⌜(och' (k0_off136 L k) (k0_off136_inb L k k0_h22)).view.read (Elt F) g6 = rowOp 1 P (Gw d L ft I (k0_off24 k) (k0_off24_inb k k0_h5))⌝
            ∗ ⌜(och' (k0_off155 L k) (k0_off155_inb L k k0_h25)).view.read (Elt F) g7 = rowOp 2 P (Gw d L ft I (k0_off43 k) (k0_off43_inb k k0_h8))⌝
            ∗ ⌜(och' (k0_off174 L k) (k0_off174_inb L k k0_h28)).view.read (Elt F) g8 = rowOp 3 P (Gw d L ft I (k0_off62 k) (k0_off62_inb k k0_h11))⌝) := by
  have htrips0 : Scf.trips k0_t2_loop.lb k0_t2_loop.ub k0_t2_loop.st = 40 := by decide
  have htrips1 : Scf.trips k0_t3_loop.lb k0_t3_loop.ub k0_t3_loop.st = 40 := by decide
  have htrips2 : Scf.trips k0_t4_loop.lb k0_t4_loop.ub k0_t4_loop.st = 40 := by decide
  have htrips3 : Scf.trips k0_t5_loop.lb k0_t5_loop.ub k0_t5_loop.st = 40 := by decide
  have htrips4 : Scf.trips k0_t6_loop.lb k0_t6_loop.ub k0_t6_loop.st = 40 := by decide
  have htrips5 : Scf.trips k0_t7_loop.lb k0_t7_loop.ub k0_t7_loop.st = 40 := by decide
  have htrips6 : Scf.trips k0_t8_loop.lb k0_t8_loop.ub k0_t8_loop.st = 40 := by decide
  have htrips7 : Scf.trips k0_t9_loop.lb k0_t9_loop.ub k0_t9_loop.st = 40 := by decide
  have htrips8 : Scf.trips k0_t10_loop.lb k0_t10_loop.ub k0_t10_loop.st = 40 := by decide
  have htrips9 : Scf.trips k0_t11_loop.lb k0_t11_loop.ub k0_t11_loop.st = 40 := by decide
  unfold k0_t1_body
  iintro ⟨#Hlv, Ht5, H6, Hwin0, Hwin1, Hwin2, Hwin3, Hwin4, Hoch0, Hoch1, Hoch2, Hoch3, Hoch4, Hoch5, Hoch6, Hoch7, Hoch8, Hoch9, H9, Hw9, Hw0, Hw1, Hw2, Hw3, Hw4, Hg5, Hg6, Hg7, Hg8, Hg9, WF5, WF6, WF7, WF8, GF0, RT0, GF1, RT1, GF2, RT2, GF3, RT3, GF4, RT4, HO⟩
  ihave Hmw := ((K (F := F)).mayWaits_none (thr := thr d L) hO) $$ Hlv
  have hin : ∀ (r : Rect S25600) (hr) (x : r.shape.Idx),
      BitVec.toNat (View.read (Elt F) ((s7).slice r hr).view I x) < 100000 := fun r hr x => by
    rw [View.read_apply]; exact hI _
  sl_exec
  sl_for (invInV0 d L P (Gw d L ft I go0 hgo0)) $$ [H6 GF0_dst]
  case region =>
    intro r _
    have hr40 : r.val < 40 := lt_of_lt_of_eq r.isLt htrips0
    unfold invInV0
    iintro ⟨H6, %f, Hs, %hf⟩
    sl_exec
    sl_step
    isplitl [H6]; · iexact H6
    iexists _; isplitl [Hs]; · iexact Hs
    ipureintro
    sl_unfold_run_names
    intro y
    exact rowStep (slot0).view 0 r.val hr40 P _ f (k0_off6_eq r) (k0_off7_eq r) (k0_off8_eq r) (k0_off9_eq r) (k0_off10_eq r) (k0_off11_eq r) (k0_off12_eq r) (k0_off13_eq r) (k0_off14_eq r) (k0_off15_eq r) (k0_off16_eq r) (k0_off17_eq r) (k0_off18_eq r) (k0_off19_eq r) (k0_off20_eq r) (k0_off21_eq r) hf y
  · unfold invInV0
    isplitl [H6]; · iexact H6
    iexists _; isplitl [GF0_dst]; · iexact GF0_dst
    ipureintro; intro y; rw [if_neg (Nat.not_lt_zero _)]
    exact congrFun hXg0 y
  iintro %_ HI
  unfold invInV0
  icases HI with ⟨H6, %fs0, Hsl0, %hf0⟩
  have hr0 : (slot0).view.read (Elt F) fs0 = rowOp 0 P (Gw d L ft I go0 hgo0) := by
    funext y; rw [hf0 y, htrips0, if_pos (show (y 0).val < 40 from (y 0).isLt)]
  sl_exec
  sl_for (invInV1 d L P (Gw d L ft I go1 hgo1)) $$ [H6 GF1_dst]
  case region =>
    intro r _
    have hr40 : r.val < 40 := lt_of_lt_of_eq r.isLt htrips1
    unfold invInV1
    iintro ⟨H6, %f, Hs, %hf⟩
    sl_exec
    sl_step
    isplitl [H6]; · iexact H6
    iexists _; isplitl [Hs]; · iexact Hs
    ipureintro
    sl_unfold_run_names
    intro y
    exact rowStep (slot1).view 1 r.val hr40 P _ f (k0_off25_eq r) (k0_off26_eq r) (k0_off27_eq r) (k0_off28_eq r) (k0_off29_eq r) (k0_off30_eq r) (k0_off31_eq r) (k0_off32_eq r) (k0_off33_eq r) (k0_off34_eq r) (k0_off35_eq r) (k0_off36_eq r) (k0_off37_eq r) (k0_off38_eq r) (k0_off39_eq r) (k0_off40_eq r) hf y
  · unfold invInV1
    isplitl [H6]; · iexact H6
    iexists _; isplitl [GF1_dst]; · iexact GF1_dst
    ipureintro; intro y; rw [if_neg (Nat.not_lt_zero _)]
    exact congrFun hXg1 y
  iintro %_ HI
  unfold invInV1
  icases HI with ⟨H6, %fs1, Hsl1, %hf1⟩
  have hr1 : (slot1).view.read (Elt F) fs1 = rowOp 1 P (Gw d L ft I go1 hgo1) := by
    funext y; rw [hf1 y, htrips1, if_pos (show (y 0).val < 40 from (y 0).isLt)]
  sl_exec
  sl_for (invInV2 d L P (Gw d L ft I go2 hgo2)) $$ [H6 GF2_dst]
  case region =>
    intro r _
    have hr40 : r.val < 40 := lt_of_lt_of_eq r.isLt htrips2
    unfold invInV2
    iintro ⟨H6, %f, Hs, %hf⟩
    sl_exec
    sl_step
    isplitl [H6]; · iexact H6
    iexists _; isplitl [Hs]; · iexact Hs
    ipureintro
    sl_unfold_run_names
    intro y
    exact rowStep (slot2).view 2 r.val hr40 P _ f (k0_off44_eq r) (k0_off45_eq r) (k0_off46_eq r) (k0_off47_eq r) (k0_off48_eq r) (k0_off49_eq r) (k0_off50_eq r) (k0_off51_eq r) (k0_off52_eq r) (k0_off53_eq r) (k0_off54_eq r) (k0_off55_eq r) (k0_off56_eq r) (k0_off57_eq r) (k0_off58_eq r) (k0_off59_eq r) hf y
  · unfold invInV2
    isplitl [H6]; · iexact H6
    iexists _; isplitl [GF2_dst]; · iexact GF2_dst
    ipureintro; intro y; rw [if_neg (Nat.not_lt_zero _)]
    exact congrFun hXg2 y
  iintro %_ HI
  unfold invInV2
  icases HI with ⟨H6, %fs2, Hsl2, %hf2⟩
  have hr2 : (slot2).view.read (Elt F) fs2 = rowOp 2 P (Gw d L ft I go2 hgo2) := by
    funext y; rw [hf2 y, htrips2, if_pos (show (y 0).val < 40 from (y 0).isLt)]
  sl_exec
  sl_for (invInV3 d L P (Gw d L ft I go3 hgo3)) $$ [H6 GF3_dst]
  case region =>
    intro r _
    have hr40 : r.val < 40 := lt_of_lt_of_eq r.isLt htrips3
    unfold invInV3
    iintro ⟨H6, %f, Hs, %hf⟩
    sl_exec
    sl_step
    isplitl [H6]; · iexact H6
    iexists _; isplitl [Hs]; · iexact Hs
    ipureintro
    sl_unfold_run_names
    intro y
    exact rowStep (slot3).view 3 r.val hr40 P _ f (k0_off63_eq r) (k0_off64_eq r) (k0_off65_eq r) (k0_off66_eq r) (k0_off67_eq r) (k0_off68_eq r) (k0_off69_eq r) (k0_off70_eq r) (k0_off71_eq r) (k0_off72_eq r) (k0_off73_eq r) (k0_off74_eq r) (k0_off75_eq r) (k0_off76_eq r) (k0_off77_eq r) (k0_off78_eq r) hf y
  · unfold invInV3
    isplitl [H6]; · iexact H6
    iexists _; isplitl [GF3_dst]; · iexact GF3_dst
    ipureintro; intro y; rw [if_neg (Nat.not_lt_zero _)]
    exact congrFun hXg3 y
  iintro %_ HI
  unfold invInV3
  icases HI with ⟨H6, %fs3, Hsl3, %hf3⟩
  have hr3 : (slot3).view.read (Elt F) fs3 = rowOp 3 P (Gw d L ft I go3 hgo3) := by
    funext y; rw [hf3 y, htrips3, if_pos (show (y 0).val < 40 from (y 0).isLt)]
  sl_exec
  sl_for (invInV4 d L P (Gw d L ft I go4 hgo4)) $$ [H6 GF4_dst]
  case region =>
    intro r _
    have hr40 : r.val < 40 := lt_of_lt_of_eq r.isLt htrips4
    unfold invInV4
    iintro ⟨H6, %f, Hs, %hf⟩
    sl_exec
    sl_step
    isplitl [H6]; · iexact H6
    iexists _; isplitl [Hs]; · iexact Hs
    ipureintro
    sl_unfold_run_names
    intro y
    exact rowStep (slot4).view 4 r.val hr40 P _ f (k0_off82_eq r) (k0_off83_eq r) (k0_off84_eq r) (k0_off85_eq r) (k0_off86_eq r) (k0_off87_eq r) (k0_off88_eq r) (k0_off89_eq r) (k0_off90_eq r) (k0_off91_eq r) (k0_off92_eq r) (k0_off93_eq r) (k0_off94_eq r) (k0_off95_eq r) (k0_off96_eq r) (k0_off97_eq r) hf y
  · unfold invInV4
    isplitl [H6]; · iexact H6
    iexists _; isplitl [GF4_dst]; · iexact GF4_dst
    ipureintro; intro y; rw [if_neg (Nat.not_lt_zero _)]
    exact congrFun hXg4 y
  iintro %_ HI
  unfold invInV4
  icases HI with ⟨H6, %fs4, Hsl4, %hf4⟩
  have hr4 : (slot4).view.read (Elt F) fs4 = rowOp 4 P (Gw d L ft I go4 hgo4) := by
    funext y; rw [hf4 y, htrips4, if_pos (show (y 0).val < 40 from (y 0).isLt)]
  sl_exec
  sl_for (invInV5 d L P (Gw d L ft I (k0_off4 k) (k0_off4_inb k k0_h2))) $$ [H6 WF5_src]
  case region =>
    intro r _
    have hr40 : r.val < 40 := lt_of_lt_of_eq r.isLt htrips5
    unfold invInV5
    iintro ⟨H6, %f, Hs, %hf⟩
    sl_exec
    sl_step
    isplitl [H6]; · iexact H6
    iexists _; isplitl [Hs]; · iexact Hs
    ipureintro
    sl_unfold_run_names
    intro y
    exact rowStep (slot5).view 0 r.val hr40 P _ f (k0_off101_eq r) (k0_off102_eq r) (k0_off103_eq r) (k0_off104_eq r) (k0_off105_eq r) (k0_off106_eq r) (k0_off107_eq r) (k0_off108_eq r) (k0_off109_eq r) (k0_off110_eq r) (k0_off111_eq r) (k0_off112_eq r) (k0_off113_eq r) (k0_off114_eq r) (k0_off115_eq r) (k0_off116_eq r) hf y
  · unfold invInV5
    isplitl [H6]; · iexact H6
    iexists _; isplitl [WF5_src]; · iexact WF5_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV5
  icases HI with ⟨H6, %fs5, Hsl5, %hf5⟩
  have hr5 : (slot5).view.read (Elt F) fs5 = rowOp 0 P (Gw d L ft I (k0_off4 k) (k0_off4_inb k k0_h2)) := by
    funext y; rw [hf5 y, htrips5, if_pos (show (y 0).val < 40 from (y 0).isLt)]
  sl_exec
  sl_for (invInV6 d L P (Gw d L ft I (k0_off24 k) (k0_off24_inb k k0_h5))) $$ [H6 WF6_src]
  case region =>
    intro r _
    have hr40 : r.val < 40 := lt_of_lt_of_eq r.isLt htrips6
    unfold invInV6
    iintro ⟨H6, %f, Hs, %hf⟩
    sl_exec
    sl_step
    isplitl [H6]; · iexact H6
    iexists _; isplitl [Hs]; · iexact Hs
    ipureintro
    sl_unfold_run_names
    intro y
    exact rowStep (slot6).view 1 r.val hr40 P _ f (k0_off120_eq r) (k0_off121_eq r) (k0_off122_eq r) (k0_off123_eq r) (k0_off124_eq r) (k0_off125_eq r) (k0_off126_eq r) (k0_off127_eq r) (k0_off128_eq r) (k0_off129_eq r) (k0_off130_eq r) (k0_off131_eq r) (k0_off132_eq r) (k0_off133_eq r) (k0_off134_eq r) (k0_off135_eq r) hf y
  · unfold invInV6
    isplitl [H6]; · iexact H6
    iexists _; isplitl [WF6_src]; · iexact WF6_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV6
  icases HI with ⟨H6, %fs6, Hsl6, %hf6⟩
  have hr6 : (slot6).view.read (Elt F) fs6 = rowOp 1 P (Gw d L ft I (k0_off24 k) (k0_off24_inb k k0_h5)) := by
    funext y; rw [hf6 y, htrips6, if_pos (show (y 0).val < 40 from (y 0).isLt)]
  sl_exec
  sl_for (invInV7 d L P (Gw d L ft I (k0_off43 k) (k0_off43_inb k k0_h8))) $$ [H6 WF7_src]
  case region =>
    intro r _
    have hr40 : r.val < 40 := lt_of_lt_of_eq r.isLt htrips7
    unfold invInV7
    iintro ⟨H6, %f, Hs, %hf⟩
    sl_exec
    sl_step
    isplitl [H6]; · iexact H6
    iexists _; isplitl [Hs]; · iexact Hs
    ipureintro
    sl_unfold_run_names
    intro y
    exact rowStep (slot7).view 2 r.val hr40 P _ f (k0_off139_eq r) (k0_off140_eq r) (k0_off141_eq r) (k0_off142_eq r) (k0_off143_eq r) (k0_off144_eq r) (k0_off145_eq r) (k0_off146_eq r) (k0_off147_eq r) (k0_off148_eq r) (k0_off149_eq r) (k0_off150_eq r) (k0_off151_eq r) (k0_off152_eq r) (k0_off153_eq r) (k0_off154_eq r) hf y
  · unfold invInV7
    isplitl [H6]; · iexact H6
    iexists _; isplitl [WF7_src]; · iexact WF7_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV7
  icases HI with ⟨H6, %fs7, Hsl7, %hf7⟩
  have hr7 : (slot7).view.read (Elt F) fs7 = rowOp 2 P (Gw d L ft I (k0_off43 k) (k0_off43_inb k k0_h8)) := by
    funext y; rw [hf7 y, htrips7, if_pos (show (y 0).val < 40 from (y 0).isLt)]
  sl_exec
  sl_for (invInV8 d L P (Gw d L ft I (k0_off62 k) (k0_off62_inb k k0_h11))) $$ [H6 WF8_src]
  case region =>
    intro r _
    have hr40 : r.val < 40 := lt_of_lt_of_eq r.isLt htrips8
    unfold invInV8
    iintro ⟨H6, %f, Hs, %hf⟩
    sl_exec
    sl_step
    isplitl [H6]; · iexact H6
    iexists _; isplitl [Hs]; · iexact Hs
    ipureintro
    sl_unfold_run_names
    intro y
    exact rowStep (slot8).view 3 r.val hr40 P _ f (k0_off158_eq r) (k0_off159_eq r) (k0_off160_eq r) (k0_off161_eq r) (k0_off162_eq r) (k0_off163_eq r) (k0_off164_eq r) (k0_off165_eq r) (k0_off166_eq r) (k0_off167_eq r) (k0_off168_eq r) (k0_off169_eq r) (k0_off170_eq r) (k0_off171_eq r) (k0_off172_eq r) (k0_off173_eq r) hf y
  · unfold invInV8
    isplitl [H6]; · iexact H6
    iexists _; isplitl [WF8_src]; · iexact WF8_src
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV8
  icases HI with ⟨H6, %fs8, Hsl8, %hf8⟩
  have hr8 : (slot8).view.read (Elt F) fs8 = rowOp 3 P (Gw d L ft I (k0_off62 k) (k0_off62_inb k k0_h11)) := by
    funext y; rw [hf8 y, htrips8, if_pos (show (y 0).val < 40 from (y 0).isLt)]
  sl_exec
  sl_for (invInV9 d L P (Gw d L ft I (k0_off81 k) (k0_off81_inb k k0_h14))) $$ [H6 H9]
  case region =>
    intro r _
    have hr40 : r.val < 40 := lt_of_lt_of_eq r.isLt htrips9
    unfold invInV9
    iintro ⟨H6, %f, Hs, %hf⟩
    sl_exec
    sl_step
    isplitl [H6]; · iexact H6
    iexists _; isplitl [Hs]; · iexact Hs
    ipureintro
    sl_unfold_run_names
    intro y
    exact rowStep (slot9).view 4 r.val hr40 P _ f (k0_off177_eq r) (k0_off178_eq r) (k0_off179_eq r) (k0_off180_eq r) (k0_off181_eq r) (k0_off182_eq r) (k0_off183_eq r) (k0_off184_eq r) (k0_off185_eq r) (k0_off186_eq r) (k0_off187_eq r) (k0_off188_eq r) (k0_off189_eq r) (k0_off190_eq r) (k0_off191_eq r) (k0_off192_eq r) hf y
  · unfold invInV9
    isplitl [H6]; · iexact H6
    iexists _; isplitl [H9]; · iexact H9
    ipureintro; intro y; rw [if_neg (Nat.not_lt_zero _)]
    refine (congrFun (View.read_writes_whole _ _ _) y).trans ?_
    sl_unfold_run_names
    exact congrFun (gather_eq_Gw d L ft I _ _ _ _) y
  iintro %_ HI
  unfold invInV9
  icases HI with ⟨H6, %fs9, Hsl9, %hf9⟩
  have hr9 : (slot9).view.read (Elt F) fs9 = rowOp 4 P (Gw d L ft I (k0_off81 k) (k0_off81_inb k k0_h14)) := by
    funext y; rw [hf9 y, htrips9, if_pos (show (y 0).val < 40 from (y 0).isLt)]
  sl_exec
  sl_step
  iexists _, _, _, _, _, _, _, _, _, _, _, _, _, _, _, _, _, _, _, _
  isplitl [HO]; · iexact HO
  isplitl [H6]; · iexact H6
  isplitl [RT0]; · iexact RT0
  isplitl [RT1]; · iexact RT1
  isplitl [RT2]; · iexact RT2
  isplitl [RT3]; · iexact RT3
  isplitl [RT4]; · iexact RT4
  isplitl [Ht5]; · iexact Ht5
  isplitl [GF0_dst_and]; · iexact GF0_dst_and
  isplitl [GF1_dst_and]; · iexact GF1_dst_and
  isplitl [GF2_dst_and]; · iexact GF2_dst_and
  isplitl [GF3_dst_and]; · iexact GF3_dst_and
  isplitl [GF4_dst_and]; · iexact GF4_dst_and
  isplitl [Hwin0]; · iexact Hwin0
  isplitl [Hwin1]; · iexact Hwin1
  isplitl [Hwin2]; · iexact Hwin2
  isplitl [Hwin3]; · iexact Hwin3
  isplitl [Hwin4]; · iexact Hwin4
  isplitl [WF5_dst]; · iexact WF5_dst
  isplitl [WF6_dst]; · iexact WF6_dst
  isplitl [WF7_dst]; · iexact WF7_dst
  isplitl [WF8_dst]; · iexact WF8_dst
  isplitl [Hoch0]
  · iexists _; isplitl [Hoch0]; · iexact Hoch0
    ipureintro; refine (View.read_writes_whole _ _ _).trans ?_; sl_unfold_run_names; exact hX9
  isplitl [Hsl9]; · iexact Hsl9
  isplitl [Hw9]; · iexact Hw9
  isplitl [GF0]; · iexact GF0
  isplitl [GF1]; · iexact GF1
  isplitl [GF2]; · iexact GF2
  isplitl [GF3]; · iexact GF3
  isplitl [GF4]; · iexact GF4
  isplitl [Hg5]; · iexact Hg5
  isplitl [Hg6]; · iexact Hg6
  isplitl [Hg7]; · iexact Hg7
  isplitl [Hg8]; · iexact Hg8
  isplitl [Hg9]; · iexact Hg9
  isplitl [Hw0]; · iexact Hw0
  isplitl [Hw1]; · iexact Hw1
  isplitl [Hw2]; · iexact Hw2
  isplitl [Hw3]; · iexact Hw3
  isplitl [Hw4]; · iexact Hw4
  isplitl [WF5]; · iexact WF5
  isplitl [WF6]; · iexact WF6
  isplitl [WF7]; · iexact WF7
  isplitl [WF8]; · iexact WF8
  isplitr
  · ipureintro
    repeat' apply waits_step
    exact fun p hp => .inl hp
  isplitr; · ipureintro; exact hr9
  isplitr; · ipureintro; refine (View.read_writes_whole _ _ _).trans ?_; sl_unfold_run_names; exact hr0
  isplitr; · ipureintro; refine (View.read_writes_whole _ _ _).trans ?_; sl_unfold_run_names; exact hr1
  isplitr; · ipureintro; refine (View.read_writes_whole _ _ _).trans ?_; sl_unfold_run_names; exact hr2
  isplitr; · ipureintro; refine (View.read_writes_whole _ _ _).trans ?_; sl_unfold_run_names; exact hr3
  isplitr; · ipureintro; refine (View.read_writes_whole _ _ _).trans ?_; sl_unfold_run_names; exact hr4
  isplitr; · ipureintro; refine (View.read_writes_whole _ _ _).trans ?_; sl_unfold_run_names; exact hr5
  isplitr; · ipureintro; refine (View.read_writes_whole _ _ _).trans ?_; sl_unfold_run_names; exact hr6
  isplitr; · ipureintro; refine (View.read_writes_whole _ _ _).trans ?_; sl_unfold_run_names; exact hr7
  ipureintro; refine (View.read_writes_whole _ _ _).trans ?_; sl_unfold_run_names; exact hr8

end Cert.Proof.KB
end
-- ==== Proof.KBRegionLast.lean ====
/-
  The last trip of the main loop takes the loop's invariant before it to the invariant after the loop: no gather is
  started, so all six read shares of the table come back, and every slot but the last is left with its write-out in
  flight.
-/
import proofs.«206279_g3710851744293_cont_8to1_b_253_31_alg».proof.Proof.KBRegionPre
import proofs.«206279_g3710851744293_cont_8to1_b_253_31_alg».proof.Proof.KBTripLastV
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

set_option maxHeartbeats 1600000 in
theorem region_last (d : Dev nD) (L : grid0.Coords) (O : CellTallies nD τ sig (HIx 1)) (W : Waits sig (HIx 1)) (hO : ∀ g, O g none = 0)
    (fi : Buf (Elt F) (iLoc d)) (fp : Buf (Elt F) (pLoc d))
    (ft : Buf (Elt F) ((thr d L).loc main_arg1_scv)) (fo : Buf (Elt F) ((thr d L).loc main_v2_scv))
    (P : Buf (Elt F) ((thr d L).loc cc0_scratch0)) (I : Buf (Elt F) ((thr d L).loc cc0_scratch1))
    (hI : ∀ j, (I j).toNat < 100000)
    (hIdef : ∀ j : Fin 25600, I (ValueIdx.ix1 j) = fi (ValueIdx.ix1 ⟨25600 * (wid L).val + j.val, by have := (wid L).isLt; have := j.isLt; omega⟩))
    (hP : ∀ y, P y = fp y) (k : Fin k0_t1_loop.trips) (hk : k.val = 63) (v2 : BitVec 32) :
    (Inv d L ft I P O W fo (GK fi fp ft) k.val () : sProp 𝕄)
      ⊢ wp frame (wpE (defs₀ (F := F)) 𝒱₀ (thr d L) none) Set.univ
          (k0_t1_body L iV (Memref.isWhole_whole _) peV (Memref.isWhole_whole _) tV (Memref.isWhole_whole _) oV (Memref.isWhole_whole _) s6 (Memref.isWhole_whole _) s7 (Memref.isWhole_whole _) s8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1 v2 k ⟨⟩)
          fun _ => Inv d L ft I P O W fo (GK fi fp ft) (k.val + 1) () := by
  obtain rfl : k = k63 := Fin.ext hk
  obtain ⟨⟨k0_h1, k0_h2, k0_h3, k0_h4, k0_h5, k0_h6, k0_h7, k0_h8, k0_h9, k0_h10, k0_h11, k0_h12, k0_h13, k0_h14, k0_h15, k0_h16, k0_h19, k0_h22, k0_h25, k0_h28⟩, k0_n17, k0_n20, k0_n23, k0_n26, k0_n29⟩ := conds_last k63 hk
  have hk0 : ¬ (k63.val = 0) := by omega
  have hk63 : k63.val ≤ 63 := by omega
  have hk0' : ¬ (k63.val + 1 = 0) := by omega
  have hk63' : ¬ (k63.val + 1 ≤ 63) := by omega
  unfold Inv RingMid RingEnd
  rw [if_neg hk0, if_pos hk63, if_neg hk0', if_neg hk63']
  iintro ⟨%W', #Hlev, Howes, %hW', H6, Hbooks, %k', %hk', Hring⟩
  obtain rfl : k' = k62 := Fin.ext (show k'.val = 62 by omega)
  ihave Hring2 := (dite_pos_ent (show k62.val ≤ 62 by decide)) $$ Hring
  icases Hring2 with ⟨%q0, %q1, %q2, %q3, %q4, %q5, %Y0, %Y1, %Y2, %Y3, %Y4, %Z5, %Z6, %Z7, %Z8, %X9, %g5, %g6, %g7, %g8, %hSh, Ht5, Hs9, S22, S13, S14, S15, S16, S17, S8, S9, S10, S11, S12, GF0, RT0, GF1, RT1, GF2, RT2, GF3, RT3, GF4, RT4, WF5, WF6, WF7, WF8, %hX9, %hY0, %hY1, %hY2, %hY3, %hY4, %hg5, %hg6, %hg7, %hg8⟩
  ihave Hbooks := (Books_congr d L I fo (GK fi fp ft) (10 * k63.val) (10 * k63.val + 5) (10 * k63.val - 5) (10 * k63.val - 1) 630 635 625 629 (by omega) (by omega) (by omega) (by omega)) $$ Hbooks
  ihave Hb := (books_take_last d L I fo (GK fi fp ft) k63 hk k0_h2 k0_h5 k0_h8 k0_h11 k0_h14 k0_h1 k0_h4 k0_h7 k0_h10 k0_h13 k0_h16 k0_h19 k0_h22 k0_h25 k0_h28) $$ Hbooks
  icases Hb with ⟨Hbooks, Hw4, Hw24, Hw43, Hw62, Hw81, Ho2, Ho22, Ho41, Ho60, Ho79, Ho98, Ho117, Ho136, Ho155, Ho174⟩
  iapply (wp_wand_r frame _ _)
  isplitl [Ht5 H6 Hw4 Hw24 Hw43 Hw62 Hw81 Ho2 Ho22 Ho41 Ho60 Ho79 Ho98 Ho117 Ho136 Ho155 Ho174 Hs9 S22 S13 S14 S15 S16 S17 S8 S9 S10 S11 S12 WF5 WF6 WF7 WF8 GF0 RT0 GF1 RT1 GF2 RT2 GF3 RT3 GF4 RT4 Howes]
  · iapply (trip_lastV d L O W' hO k63 v2 q0 q1 q2 q3 q4 q5 ft fo P I hI k0_h1 k0_h2 k0_h3 k0_h4 k0_h5 k0_h6 k0_h7 k0_h8 k0_h9 k0_h10 k0_h11 k0_h12 k0_h13 k0_h14 k0_h15 k0_h16 k0_h19 k0_h22 k0_h25 k0_h28 k0_n17 k0_n20 k0_n23 k0_n26 k0_n29 X9 Y0 Y1 Y2 Y3 Y4 Z5 Z6 Z7 Z8 g5 g6 g7 g8 (k0_off100 k62) (k0_off119 k62) (k0_off138 k62) (k0_off157 k62) (k0_off176 k62) (k0_off100_inb k62 (c17 k62 (by decide))) (k0_off119_inb k62 (c20 k62 (by decide))) (k0_off138_inb k62 (c23 k62 (by decide))) (k0_off157_inb k62 (c26 k62 (by decide))) (k0_off176_inb k62 (c29 k62 (by decide))) (k0_off117 L k62) (k0_off136 L k62) (k0_off155 L k62) (k0_off174 L k62) (k0_off117_inb L k62 (c19 k62 (by decide))) (k0_off136_inb L k62 (c22 k62 (by decide))) (k0_off155_inb L k62 (c25 k62 (by decide))) (k0_off174_inb L k62 (c28 k62 (by decide))) (rowOp 4 P (Gw d L ft I (k0_off81 k62) (k0_off81_inb k62 (c14 k62 (by decide))))) hX9 hY0 hY1 hY2 hY3 hY4)
    isplitl []; · iexact Hlev
    isplitl [Ht5]; · iexact Ht5
    isplitl [H6]; · iexact H6
    isplitl [Hw4]; · iexact Hw4
    isplitl [Hw24]; · iexact Hw24
    isplitl [Hw43]; · iexact Hw43
    isplitl [Hw62]; · iexact Hw62
    isplitl [Hw81]; · iexact Hw81
    isplitl [Ho2]; · iexact Ho2
    isplitl [Ho22]; · iexact Ho22
    isplitl [Ho41]; · iexact Ho41
    isplitl [Ho60]; · iexact Ho60
    isplitl [Ho79]; · iexact Ho79
    isplitl [Ho98]; · iexact Ho98
    isplitl [Ho117]; · iexact Ho117
    isplitl [Ho136]; · iexact Ho136
    isplitl [Ho155]; · iexact Ho155
    isplitl [Ho174]; · iexact Ho174
    isplitl [Hs9]; · iexact Hs9
    isplitl [S22]; · iexact S22
    isplitl [S13]; · iexact S13
    isplitl [S14]; · iexact S14
    isplitl [S15]; · iexact S15
    isplitl [S16]; · iexact S16
    isplitl [S17]; · iexact S17
    isplitl [S8]; · iexact S8
    isplitl [S9]; · iexact S9
    isplitl [S10]; · iexact S10
    isplitl [S11]; · iexact S11
    isplitl [S12]; · iexact S12
    isplitl [WF5]; · iexact WF5
    isplitl [WF6]; · iexact WF6
    isplitl [WF7]; · iexact WF7
    isplitl [WF8]; · iexact WF8
    isplitl [GF0]; · iexact GF0
    isplitl [RT0]; · iexact RT0
    isplitl [GF1]; · iexact GF1
    isplitl [RT1]; · iexact RT1
    isplitl [GF2]; · iexact GF2
    isplitl [RT2]; · iexact RT2
    isplitl [GF3]; · iexact GF3
    isplitl [RT3]; · iexact RT3
    isplitl [GF4]; · iexact GF4
    isplitl [RT4]; · iexact RT4
    iexact Howes
  iintro %u Hpost
  icases Hpost with ⟨%W'', %Z0', %Z1', %Z2', %Z3', %Z4', %Z5', %Z6', %Z7', %Z8', %X9', %g0', %g1', %g2', %g3', %g4', %g5', %g6', %g7', %g8', Howes, H6, Tq0, Tq1, Tq2, Tq3, Tq4, Tq5, Hwg0, Hwg1, Hwg2, Hwg3, Hwg4, Hw4, Hw24, Hw43, Hw62, Hw81, Hor5, Hor6, Hor7, Hor8, ⟨%f2, Ho2, %hf2⟩, Hs9, S22, S3, S4, S5, S6, S7, S8, S9, S10, S11, S12, WF0, WF1, WF2, WF3, WF4, WF5, WF6, WF7, WF8, %hW'', %hX9', %hg0', %hg1', %hg2', %hg3', %hg4', %hg5', %hg6', %hg7', %hg8'⟩
  ihave Hor5 := (chunk_to_GK' d L fi fp ft I P hIdef hP (k0_off117_inb L k62 (c19 k62 (by decide))) (k0_off4_inb k62 (c2 k62 (by decide))) (k0_off117_eq L k62) (k0_off4_eq k62) 0 (by omega) (by omega) rfl g5 hg5) $$ Hor5
  ihave Hor6 := (chunk_to_GK' d L fi fp ft I P hIdef hP (k0_off136_inb L k62 (c22 k62 (by decide))) (k0_off24_inb k62 (c5 k62 (by decide))) (k0_off136_eq L k62) (k0_off24_eq k62) 1 (by omega) (by omega) rfl g6 hg6) $$ Hor6
  ihave Hor7 := (chunk_to_GK' d L fi fp ft I P hIdef hP (k0_off155_inb L k62 (c25 k62 (by decide))) (k0_off43_inb k62 (c8 k62 (by decide))) (k0_off155_eq L k62) (k0_off43_eq k62) 2 (by omega) (by omega) rfl g7 hg7) $$ Hor7
  ihave Hor8 := (chunk_to_GK' d L fi fp ft I P hIdef hP (k0_off174_inb L k62 (c28 k62 (by decide))) (k0_off62_inb k62 (c11 k62 (by decide))) (k0_off174_eq L k62) (k0_off62_eq k62) 3 (by omega) (by omega) rfl g8 hg8) $$ Hor8
  ihave Ho2 := (chunk_to_GK' d L fi fp ft I P hIdef hP (k0_off2_inb L k63 k0_h1) (k0_off81_inb k62 (c14 k62 (by decide))) (k0_off2_eq' L k63 k0_h1) (k0_off81_eq k62) 4 (by omega) (by omega) rfl f2 hf2) $$ Ho2
  ihave Hbooks2 := (books_put_last d L I fo (GK fi fp ft) k63 k62 hk rfl k0_h2 k0_h5 k0_h8 k0_h11 k0_h14 k0_h1 (c17 k62 (by decide)) (c20 k62 (by decide)) (c23 k62 (by decide)) (c26 k62 (by decide)) (c29 k62 (by decide)) (c19 k62 (by decide)) (c22 k62 (by decide)) (c25 k62 (by decide)) (c28 k62 (by decide))) $$ [Hbooks Hwg0 Hwg1 Hwg2 Hwg3 Hwg4 Hw4 Hw24 Hw43 Hw62 Hw81 Hor5 Hor6 Hor7 Hor8 Ho2]
  · isplitl [Hbooks]; · iexact Hbooks
    isplitl [Hwg0]; · iexact Hwg0
    isplitl [Hwg1]; · iexact Hwg1
    isplitl [Hwg2]; · iexact Hwg2
    isplitl [Hwg3]; · iexact Hwg3
    isplitl [Hwg4]; · iexact Hwg4
    isplitl [Hw4]; · iexact Hw4
    isplitl [Hw24]; · iexact Hw24
    isplitl [Hw43]; · iexact Hw43
    isplitl [Hw62]; · iexact Hw62
    isplitl [Hw81]; · iexact Hw81
    isplitl [Hor5]; · iexact Hor5
    isplitl [Hor6]; · iexact Hor6
    isplitl [Hor7]; · iexact Hor7
    isplitl [Hor8]; · iexact Hor8
    iexact Ho2
  iexists W''
  isplitl []; · iexact Hlev
  isplitl [Howes]; · iexact Howes
  isplitl []; · ipureintro; exact waits_trans hW' hW''
  isplitl [H6]; · iexact H6
  isplitl [Hbooks2]; · iexact Hbooks2
  iexists q0, q1, q2, q3, q4, q5, Z0', Z1', Z2', Z3', Z4', Z5', Z6', Z7', Z8', X9', g0', g1', g2', g3', g4', g5', g6', g7', g8'
  isplitl []; · ipureintro; exact hSh
  isplitl [Tq0]; · iexact Tq0
  isplitl [Tq1]; · iexact Tq1
  isplitl [Tq2]; · iexact Tq2
  isplitl [Tq3]; · iexact Tq3
  isplitl [Tq4]; · iexact Tq4
  isplitl [Tq5]; · iexact Tq5
  isplitl [Hs9]; · iexact Hs9
  isplitl [S22]; · iexact S22
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [WF0]; · iexact WF0
  isplitl [WF1]; · iexact WF1
  isplitl [WF2]; · iexact WF2
  isplitl [WF3]; · iexact WF3
  isplitl [WF4]; · iexact WF4
  isplitl [WF5]; · iexact WF5
  isplitl [WF6]; · iexact WF6
  isplitl [WF7]; · iexact WF7
  isplitl [WF8]; · iexact WF8
  isplitl []; · ipureintro; exact hX9'
  isplitl []; · ipureintro; exact hg0'
  isplitl []; · ipureintro; exact hg1'
  isplitl []; · ipureintro; exact hg2'
  isplitl []; · ipureintro; exact hg3'
  isplitl []; · ipureintro; exact hg4'
  isplitl []; · ipureintro; exact hg5'
  isplitl []; · ipureintro; exact hg6'
  isplitl []; · ipureintro; exact hg7'
  ipureintro; exact hg8'

end Cert.Proof.KB
end
-- ==== Proof.KBBooksLemmas3.lean ====
/-
  The books before and after the loop: the index buffer whole and the tile's rows of the result whole are the books
  with every window and every chunk in the untouched segments; with every window back and every chunk written they
  are the two buffers whole again.
-/
import proofs.«206279_g3710851744293_cont_8to1_b_253_31_alg».proof.Proof.KBBooksLemmas
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-- All windows back, all chunks written: the index buffer whole again and the tile's rows of the result at the written contents. -/
theorem books_close (d : Dev nD) (L : grid0.Coords) (I : Buf (Elt F) ((thr d L).loc cc0_scratch1)) (fo fd : Buf (Elt F) ((thr d L).loc main_v2_scv)) :
    (Books d L I fo fd 640 640 640 640 : sProp 𝕄)
      ⊢ iprop(((s7).view.loc (thr d L) ↦{fullShare} I) ∗ (oLoc d ↦[tileRows (wid L)]{fullShare} fd)) := by
  have eA : bigSep (Finset.univ.filter fun q : Fin 640 => q.val < 640) (Wn d L I) = (((s7).view.loc (thr d L) ↦{fullShare} I) : sProp 𝕄) := by
    rw [filter_lt_all]; exact (wins_split_eq d L I).symm
  have eC : bigSep (Finset.univ.filter fun q : Fin 640 => q.val < 640) (On d L fd) = ((oLoc d ↦[tileRows (wid L)]{fullShare} fd) : sProp 𝕄) := by
    rw [filter_lt_all]; exact (ochs_split_eq d L fd).symm
  unfold Books
  iintro ⟨A, -, C, -⟩
  isplitl [A]
  · iapply (eq_entails eA); iexact A
  · iapply (eq_entails eC); iexact C

/-- Before the loop: the index buffer whole and the tile's rows untouched are the books at (0, 0, 0, 0); the five windows the
    first gathers take leave (0, 5, 0, 0). -/
theorem books_open (d : Dev nD) (L : grid0.Coords) (I : Buf (Elt F) ((thr d L).loc cc0_scratch1)) (fo fd : Buf (Elt F) (oLoc d))
    (hg0 : ∀ a, (![0] : Fin 1 → ℕ) a + S40.size a ≤ S25600.size a) (hg1 : ∀ a, (![40] : Fin 1 → ℕ) a + S40.size a ≤ S25600.size a) (hg2 : ∀ a, (![80] : Fin 1 → ℕ) a + S40.size a ≤ S25600.size a) (hg3 : ∀ a, (![120] : Fin 1 → ℕ) a + S40.size a ≤ S25600.size a) (hg4 : ∀ a, (![160] : Fin 1 → ℕ) a + S40.size a ≤ S25600.size a) :
    (iprop(((s7).view.loc (thr d L) ↦{fullShare} I) ∗ (oLoc d ↦[tileRows (wid L)]{fullShare} fo)) : sProp 𝕄)
      ⊢ iprop(Books d L I fo fd 0 5 0 0
        ∗ ((win' ![0] hg0).view.loc (thr d L) ↦[(win' ![0] hg0).view.set]{fullShare} I)
        ∗ ((win' ![40] hg1).view.loc (thr d L) ↦[(win' ![40] hg1).view.set]{fullShare} I)
        ∗ ((win' ![80] hg2).view.loc (thr d L) ↦[(win' ![80] hg2).view.set]{fullShare} I)
        ∗ ((win' ![120] hg3).view.loc (thr d L) ↦[(win' ![120] hg3).view.set]{fullShare} I)
        ∗ ((win' ![160] hg4).view.loc (thr d L) ↦[(win' ![160] hg4).view.set]{fullShare} I)) := by
  have eW : (((s7).view.loc (thr d L) ↦{fullShare} I) : sProp 𝕄) = bigSep (Finset.univ.filter fun q : Fin 640 => 0 ≤ q.val) (Wn d L I) := by
    rw [filter_ge_zero]; exact wins_split_eq d L I
  have eO : ((oLoc d ↦[tileRows (wid L)]{fullShare} fo) : sProp 𝕄) = bigSep (Finset.univ.filter fun q : Fin 640 => 0 ≤ q.val) (On d L fo) := by
    rw [filter_ge_zero]; exact ochs_split_eq d L fo
  have eA : bigSep (Finset.univ.filter fun q : Fin 640 => q.val < 0) (Wn d L I) = iprop(emp) := bigSep_lt_zero _
  have eC : bigSep (Finset.univ.filter fun q : Fin 640 => q.val < 0) (On d L fd) = iprop(emp) := bigSep_lt_zero _
  have eB :=
    takeW d L I (0) (1) (by omega) (by omega) hg0 rfl (by omega) <|
    takeW d L I (1) (2) (by omega) (by omega) hg1 rfl (by omega) <|
    takeW d L I (2) (3) (by omega) (by omega) hg2 rfl (by omega) <|
    takeW d L I (3) (4) (by omega) (by omega) hg3 rfl (by omega) <|
    takeW d L I (4) (5) (by omega) (by omega) hg4 rfl (by omega) <|
    rfl
  unfold Books
  iintro ⟨Hs, Ho⟩
  ihave B2 := (eq_entails (eW.trans eB)) $$ Hs
  icases B2 with ⟨W0, W1, W2, W3, W4, B⟩
  ihave D := (eq_entails eO) $$ Ho
  isplitl [B D]
  · isplitl []; · iapply (eq_entails' eA); iempintro
    isplitl [B]; · iexact B
    isplitl []; · iapply (eq_entails' eC); iempintro
    iexact D
  isplitl [W0]; · iexact W0
  isplitl [W1]; · iexact W1
  isplitl [W2]; · iexact W2
  isplitl [W3]; · iexact W3
  iexact W4

end Cert.Proof.KB
end
-- ==== Proof.KBBody.lean ====
/-
  A tile's task, whole: the two copies that fill its positional table and its index buffer, the first five gathers,
  the main loop at its invariant (each trip by the trip lemmas), the last write-out and the ten waits; then every
  chunk it wrote holds the specification's values, and the pieces join back into what the task was handed.
-/
import proofs.«206279_g3710851744293_cont_8to1_b_253_31_alg».proof.Proof.KBPre
import proofs.«206279_g3710851744293_cont_8to1_b_253_31_alg».proof.Proof.KBChunk
import proofs.«206279_g3710851744293_cont_8to1_b_253_31_alg».proof.Proof.KBValLemmas
import proofs.«206279_g3710851744293_cont_8to1_b_253_31_alg».proof.Proof.KBJoin
import proofs.«206279_g3710851744293_cont_8to1_b_253_31_alg».proof.Proof.KBRegionFirst
import proofs.«206279_g3710851744293_cont_8to1_b_253_31_alg».proof.Proof.KBRegionMid
import proofs.«206279_g3710851744293_cont_8to1_b_253_31_alg».proof.Proof.KBRegionLast
import proofs.«206279_g3710851744293_cont_8to1_b_253_31_alg».proof.Proof.KBSplit
import proofs.«206279_g3710851744293_cont_8to1_b_253_31_alg».proof.Proof.KBBooksLemmas3
import proofs.«206279_g3710851744293_cont_8to1_b_253_31_alg».proof.Proof.KBBooksLemmas2
noncomputable section
namespace Cert.Proof.KB
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
local notation "𝕄" => MT nD τ sig (HIx 1) (Elt F) ℕ UU ℕ
local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

set_option maxHeartbeats 1600000 in
/-- A tile's task: handed its shares of the inputs and its rows of the result, the kernel function runs to the end and
    hands them back, the rows at the specification. -/
theorem tile_body (hF : (K (F := F)).Facts) : TileBody (F := F) := by
  intro d L O W hO fi fp ft fo hfi
  unfold tileGo
  rw [cc0__embed_body_eq_skeleton]; unfold cc0__embed_body_skel
  iintro ⟨#Hlv, -, ⟨Hi, Hp, Ht, Ho⟩, Hsb, Hss, HO⟩
  ihave Hsc := (Entails.of_eq (scoped_open (F := F) hF d L)) $$ [Hsb Hss]
  · isplitl [Hsb] <;> iassumption
  icases Hsc with ⟨⟨%f6, H6⟩, ⟨%f7, H7⟩, ⟨%f8, H8⟩, Hrb, Hs0, Hs1, Hs2, Hs3, Hs4, Hs5, Hs6, Hs7, Hs8, Hs9, Hs10, Hs11, Hs12, Hs13, Hs14, Hs15, Hs16, Hs17, Hs18, Hs19, Hs20, Hs21, Hrs⟩
  ihave Hmw := ((K (F := F)).mayWaits_none (thr := thr d L) hO) $$ Hlv
  ihave Hi := (Entails.of_eq (pts_i (F := F) d L _ _).symm) $$ Hi
  ihave Hp := (Entails.of_eq (pts_p (F := F) d L _ _).symm) $$ Hp
  ihave Hsl := (slots_split (F := F) d L f8).1 $$ H8
  icases Hsl with ⟨Hx0, Hx1, Hx2, Hx3, Hx4, Hx5, Hx6, Hx7, Hx8, Hx9⟩
  sl_exec
  have hIdef : ∀ j : Fin 25600, (View.write (Elt F) (s7).view f7 (tile_body.sl.dma0_1 d L fi) Finset.univ) (ValueIdx.ix1 j)
      = fi (ValueIdx.ix1 ⟨25600 * (wid L).val + j.val, by have := (wid L).isLt; have := j.isLt; omega⟩) := by
    sl_unfold_run_names; exact idx_copy d L f7 fi
  have hP : ∀ y, (View.write (Elt F) (s6).view f6 (tile_body.sl.dma0 d fp) Finset.univ) y = fp y := by
    sl_unfold_run_names; exact fun y => congrFun (pe_copy d L f6 fp) y
  have hI : ∀ j, ((View.write (Elt F) (s7).view f7 (tile_body.sl.dma0_1 d L fi) Finset.univ) j).toNat < 100000 := by
    intro j
    have h1 := hIdef ⟨(j 0).val, (j 0).isLt⟩
    have e : (ValueIdx.ix1 (n := 25600) ⟨(j 0).val, (j 0).isLt⟩) = j := by funext a; match a with | ⟨0, _⟩ => rfl
    rw [e] at h1; rw [h1]; exact hfi _
  generalize (View.write (Elt F) (s7).view f7 (tile_body.sl.dma0_1 d L fi) Finset.univ) = I at hIdef hI ⊢
  generalize (View.write (Elt F) (s6).view f6 (tile_body.sl.dma0 d fp) Finset.univ) = P at hP ⊢
  ihave Hbk := (books_open (F := F) d L I fo (GK fi fp ft) hgw0 hgw1 hgw2 hgw3 hgw4) $$ [H7 Ho]
  · isplitl [H7] <;> iassumption
  icases Hbk with ⟨Hbooks, Hwn0, Hwn1, Hwn2, Hwn3, Hwn4⟩
  ihave Ht := (Entails.of_eq (pts_t (F := F) d L _ _).symm) $$ Ht
  ihave Ht := (table_split (F := F) d L ft) $$ Ht
  icases Ht with ⟨Ht0, Ht1, Ht2, Ht3, Ht4, Ht5⟩
  have hin : ∀ (r : Rect S25600) (hr) (x : r.shape.Idx),
      BitVec.toNat (View.read (Elt F) ((s7).slice r hr).view I x) < 100000 := fun r hr x => by
    rw [View.read_apply]; exact hI _
  sl_exec
  have hgv0 : (slot0).view.read (Elt F) ((slot0).view.writes (Elt F) f8 [⟨Rect.whole S40x128, tile_body.sl.gather0 d ft I hin⟩]) = Gw d L ft I ![0] hgw0 := by
    refine (View.read_writes_whole _ _ _).trans ?_; sl_unfold_run_names; exact gather_eq_Gw d L ft I _ _ _ _
  have hgv1 : (slot1).view.read (Elt F) ((slot1).view.writes (Elt F) f8 [⟨Rect.whole S40x128, tile_body.sl.gather1 d ft I hin⟩]) = Gw d L ft I ![40] hgw1 := by
    refine (View.read_writes_whole _ _ _).trans ?_; sl_unfold_run_names; exact gather_eq_Gw d L ft I _ _ _ _
  have hgv2 : (slot2).view.read (Elt F) ((slot2).view.writes (Elt F) f8 [⟨Rect.whole S40x128, tile_body.sl.gather2 d ft I hin⟩]) = Gw d L ft I ![80] hgw2 := by
    refine (View.read_writes_whole _ _ _).trans ?_; sl_unfold_run_names; exact gather_eq_Gw d L ft I _ _ _ _
  have hgv3 : (slot3).view.read (Elt F) ((slot3).view.writes (Elt F) f8 [⟨Rect.whole S40x128, tile_body.sl.gather3 d ft I hin⟩]) = Gw d L ft I ![120] hgw3 := by
    refine (View.read_writes_whole _ _ _).trans ?_; sl_unfold_run_names; exact gather_eq_Gw d L ft I _ _ _ _
  have hgv4 : (slot4).view.read (Elt F) ((slot4).view.writes (Elt F) f8 [⟨Rect.whole S40x128, tile_body.sl.gather4 d ft I hin⟩]) = Gw d L ft I ![160] hgw4 := by
    refine (View.read_writes_whole _ _ _).trans ?_; sl_unfold_run_names; exact gather_eq_Gw d L ft I _ _ _ _
  sl_for (Inv d L ft I P O (insert (SemLoc.dma cc0_scoped1.sem, (default : HIx 1)) (insert (SemLoc.dma cc0_scoped0.sem, (default : HIx 1)) W)) fo (GK fi fp ft)) $$ [HO H6 Hbooks Ht5 Hx5 Hx6 Hx7 Hx8 Hx9 Hs5 Hs6 Hs7 Hs8 Hs9 Hs10 Hs11 Hs12 Hs13 Hs14 Hs15 Hs16 Hs17 Hs18 Hs19 Hs0 Hs1 Hs2 Hs3 Hs4 Ht0 Ht1 Ht2 Ht3 Ht4]
  case region =>
    intro k acc
    unfold tile_body.sl.prog.body_1
    have hk64 : k.val < 64 := k.isLt
    rcases Nat.eq_zero_or_pos k.val with h0 | h0
    · exact region_first d L O _ hO fi fp ft fo P I hI hIdef hP k h0 _
    · by_cases h62 : k.val ≤ 62
      · exact region_mid d L O _ hO fi fp ft fo P I hI hIdef hP k h0 h62 _
      · exact region_last d L O _ hO fi fp ft fo P I hI hIdef hP k (by omega) _
  · unfold Inv
    rw [if_pos rfl]
    iexists _
    isplitr; · iexact Hlv
    isplitl [HO]; · iexact HO
    isplitr; · ipureintro; exact fun p hp => .inl hp
    isplitl [H6]; · iexact H6
    isplitl [Hbooks]; · iexact Hbooks
    unfold Ring0
    iexists (tq (wid L) 0), (tq (wid L) 1), (tq (wid L) 2), (tq (wid L) 3), (tq (wid L) 4), (sh (wid L) 5), _, _, _, _, _, _, _, _, _, _
    isplitr; · ipureintro; exact table_join (F := F) d L
    isplitl [Ht5]; · iexact Ht5
    isplitl [Hx5]; · iexact Hx5
    isplitl [Hx6]; · iexact Hx6
    isplitl [Hx7]; · iexact Hx7
    isplitl [Hx8]; · iexact Hx8
    isplitl [Hx9]; · iexact Hx9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs5]; · iexact Hs5
    isplitl [Hs6]; · iexact Hs6
    isplitl [Hs7]; · iexact Hs7
    isplitl [Hs8]; · iexact Hs8
    isplitl [Hs9]; · iexact Hs9
    isplitl [Hs0]; · iexact Hs0
    isplitl [Ht0]; · iexact Ht0
    isplitl [Hs1]; · iexact Hs1
    isplitl [Ht1]; · iexact Ht1
    isplitl [Hs2]; · iexact Hs2
    isplitl [Ht2]; · iexact Ht2
    isplitl [Hs3]; · iexact Hs3
    isplitl [Ht3]; · iexact Ht3
    isplitl [Hs4]; · iexact Hs4
    isplitl [Ht4]; · iexact Ht4
    isplitr; · ipureintro; exact hgv0
    isplitr; · ipureintro; exact hgv1
    isplitr; · ipureintro; exact hgv2
    isplitr; · ipureintro; exact hgv3
    ipureintro; exact hgv4
  iintro %_ HI
  unfold Inv
  rw [if_neg (by decide), if_neg (by decide)]
  icases HI with ⟨%W3, -, HO, %hW3, H6, Hbooks, HR⟩
  unfold RingEnd
  icases HR with ⟨%q0, %q1, %q2, %q3, %q4, %q5, %Z0, %Z1, %Z2, %Z3, %Z4, %Z5, %Z6, %Z7, %Z8, %X9, %g0, %g1, %g2, %g3, %g4, %g5, %g6, %g7, %g8, %hSh, Hq0, Hq1, Hq2, Hq3, Hq4, Hq5, H9, Hw9, Hg0, Hg1, Hg2, Hg3, Hg4, Hg5, Hg6, Hg7, Hg8, Hg9, WF0, WF1, WF2, WF3, WF4, WF5, WF6, WF7, WF8, %hv9, %hg0, %hg1, %hg2, %hg3, %hg4, %hg5, %hg6, %hg7, %hg8⟩
  ihave Hb := (books_take_end (F := F) d L I fo (GK fi fp ft)) $$ Hbooks
  icases Hb with ⟨Hbooks, Hoch⟩
  sl_exec
  sl_step
  have e3_0 : k0_off22 L k63 = ![b0 L + 126, 0, 0] := by rw [k0_off22_eq]; rfl
  have e1_0 : k0_off100 k62 = ![25200] := by rw [k0_off100_eq]; rfl
  ihave WF0_dst := (chunk_to_GK (F := F) d L fi fp ft I P hIdef hP _ _ _ _ (0 : Fin 5)
      (by rw [e3_0]; show b0 L ≤ b0 L + 126; omega)
      (by rw [e3_0, e1_0]; show 25200 = 200 * (b0 L + 126 - b0 L) + 0; omega)
      (by rw [e3_0]; rfl) (by rw [e3_0]; rfl) g0 hg0) $$ WF0_dst
  have e3_1 : k0_off41 L k63 = ![b0 L + 126, 40, 0] := by rw [k0_off41_eq]; rfl
  have e1_1 : k0_off119 k62 = ![25240] := by rw [k0_off119_eq]; rfl
  ihave WF1_dst := (chunk_to_GK (F := F) d L fi fp ft I P hIdef hP _ _ _ _ (1 : Fin 5)
      (by rw [e3_1]; show b0 L ≤ b0 L + 126; omega)
      (by rw [e3_1, e1_1]; show 25240 = 200 * (b0 L + 126 - b0 L) + 40; omega)
      (by rw [e3_1]; rfl) (by rw [e3_1]; rfl) g1 hg1) $$ WF1_dst
  have e3_2 : k0_off60 L k63 = ![b0 L + 126, 80, 0] := by rw [k0_off60_eq]; rfl
  have e1_2 : k0_off138 k62 = ![25280] := by rw [k0_off138_eq]; rfl
  ihave WF2_dst := (chunk_to_GK (F := F) d L fi fp ft I P hIdef hP _ _ _ _ (2 : Fin 5)
      (by rw [e3_2]; show b0 L ≤ b0 L + 126; omega)
      (by rw [e3_2, e1_2]; show 25280 = 200 * (b0 L + 126 - b0 L) + 80; omega)
      (by rw [e3_2]; rfl) (by rw [e3_2]; rfl) g2 hg2) $$ WF2_dst
  have e3_3 : k0_off79 L k63 = ![b0 L + 126, 120, 0] := by rw [k0_off79_eq]; rfl
  have e1_3 : k0_off157 k62 = ![25320] := by rw [k0_off157_eq]; rfl
  ihave WF3_dst := (chunk_to_GK (F := F) d L fi fp ft I P hIdef hP _ _ _ _ (3 : Fin 5)
      (by rw [e3_3]; show b0 L ≤ b0 L + 126; omega)
      (by rw [e3_3, e1_3]; show 25320 = 200 * (b0 L + 126 - b0 L) + 120; omega)
      (by rw [e3_3]; rfl) (by rw [e3_3]; rfl) g3 hg3) $$ WF3_dst
  have e3_4 : k0_off98 L k63 = ![b0 L + 126, 160, 0] := by rw [k0_off98_eq]; rfl
  have e1_4 : k0_off176 k62 = ![25360] := by rw [k0_off176_eq]; rfl
  ihave WF4_dst := (chunk_to_GK (F := F) d L fi fp ft I P hIdef hP _ _ _ _ (4 : Fin 5)
      (by rw [e3_4]; show b0 L ≤ b0 L + 126; omega)
      (by rw [e3_4, e1_4]; show 25360 = 200 * (b0 L + 126 - b0 L) + 160; omega)
      (by rw [e3_4]; rfl) (by rw [e3_4]; rfl) g4 hg4) $$ WF4_dst
  have e3_5 : k0_off117 L k63 = ![b0 L + 127, 0, 0] := by rw [k0_off117_eq]; rfl
  have e1_5 : k0_off4 k63 = ![25400] := by rw [k0_off4_eq]; rfl
  ihave WF5_dst := (chunk_to_GK (F := F) d L fi fp ft I P hIdef hP _ _ _ _ (0 : Fin 5)
      (by rw [e3_5]; show b0 L ≤ b0 L + 127; omega)
      (by rw [e3_5, e1_5]; show 25400 = 200 * (b0 L + 127 - b0 L) + 0; omega)
      (by rw [e3_5]; rfl) (by rw [e3_5]; rfl) g5 hg5) $$ WF5_dst
  have e3_6 : k0_off136 L k63 = ![b0 L + 127, 40, 0] := by rw [k0_off136_eq]; rfl
  have e1_6 : k0_off24 k63 = ![25440] := by rw [k0_off24_eq]; rfl
  ihave WF6_dst := (chunk_to_GK (F := F) d L fi fp ft I P hIdef hP _ _ _ _ (1 : Fin 5)
      (by rw [e3_6]; show b0 L ≤ b0 L + 127; omega)
      (by rw [e3_6, e1_6]; show 25440 = 200 * (b0 L + 127 - b0 L) + 40; omega)
      (by rw [e3_6]; rfl) (by rw [e3_6]; rfl) g6 hg6) $$ WF6_dst
  have e3_7 : k0_off155 L k63 = ![b0 L + 127, 80, 0] := by rw [k0_off155_eq]; rfl
  have e1_7 : k0_off43 k63 = ![25480] := by rw [k0_off43_eq]; rfl
  ihave WF7_dst := (chunk_to_GK (F := F) d L fi fp ft I P hIdef hP _ _ _ _ (2 : Fin 5)
      (by rw [e3_7]; show b0 L ≤ b0 L + 127; omega)
      (by rw [e3_7, e1_7]; show 25480 = 200 * (b0 L + 127 - b0 L) + 80; omega)
      (by rw [e3_7]; rfl) (by rw [e3_7]; rfl) g7 hg7) $$ WF7_dst
  have e3_8 : k0_off174 L k63 = ![b0 L + 127, 120, 0] := by rw [k0_off174_eq]; rfl
  have e1_8 : k0_off62 k63 = ![25520] := by rw [k0_off62_eq]; rfl
  ihave WF8_dst := (chunk_to_GK (F := F) d L fi fp ft I P hIdef hP _ _ _ _ (3 : Fin 5)
      (by rw [e3_8]; show b0 L ≤ b0 L + 127; omega)
      (by rw [e3_8, e1_8]; show 25520 = 200 * (b0 L + 127 - b0 L) + 120; omega)
      (by rw [e3_8]; rfl) (by rw [e3_8]; rfl) g8 hg8) $$ WF8_dst
  have e3_9 : k0_off193 L = ![b0 L + 127, 160, 0] := by rw [k0_off193_eq]
  have e1_9 : k0_off81 k63 = ![25560] := by rw [k0_off81_eq]; rfl
  have hv639 : (och' (k0_off193 L) (k0_off193_inb L)).view.read (Elt F) ((och' (k0_off193 L) (k0_off193_inb L)).view.writes (Elt F) fo [⟨Rect.whole S40x128, tile_body.sl.dma0_2 d L X9⟩])
      = rowOp 4 P (Gw d L ft I (k0_off81 k63) (k0_off81_inb k63 (e14 k63 rfl))) := by
    refine (View.read_writes_whole _ _ _).trans ?_; sl_unfold_run_names; exact hv9
  ihave Hoch := (chunk_to_GK (F := F) d L fi fp ft I P hIdef hP _ _ _ _ (4 : Fin 5)
      (by rw [e3_9]; show b0 L ≤ b0 L + 127; omega)
      (by rw [e3_9, e1_9]; show 25560 = 200 * (b0 L + 127 - b0 L) + 160; omega)
      (by rw [e3_9]; rfl) (by rw [e3_9]; rfl) _ hv639) $$ Hoch
  ihave Hbooks := (books_put_end (F := F) d L I fo (GK fi fp ft) k63 rfl (e4 k63 rfl) (e7 k63 rfl) (e10 k63 rfl) (e13 k63 rfl) (e16 k63 rfl) (e19 k63 rfl) (e22 k63 rfl) (e25 k63 rfl) (e28 k63 rfl)) $$ [Hbooks WF0_dst WF1_dst WF2_dst WF3_dst WF4_dst WF5_dst WF6_dst WF7_dst WF8_dst Hoch]
  · isplitl [Hbooks]; · iexact Hbooks
    isplitl [WF0_dst]; · iexact WF0_dst
    isplitl [WF1_dst]; · iexact WF1_dst
    isplitl [WF2_dst]; · iexact WF2_dst
    isplitl [WF3_dst]; · iexact WF3_dst
    isplitl [WF4_dst]; · iexact WF4_dst
    isplitl [WF5_dst]; · iexact WF5_dst
    isplitl [WF6_dst]; · iexact WF6_dst
    isplitl [WF7_dst]; · iexact WF7_dst
    isplitl [WF8_dst]; · iexact WF8_dst
    iexact Hoch
  ihave Hcl := (books_close (F := F) d L I fo (GK fi fp ft)) $$ Hbooks
  icases Hcl with ⟨H7, Ho⟩
  ihave Ht := (hSh ft) $$ [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  ihave Ht := (Entails.of_eq (pts_t (F := F) d L _ _)) $$ Ht
  ihave Hi := (Entails.of_eq (pts_i (F := F) d L _ _)) $$ Hi
  ihave Hp := (Entails.of_eq (pts_p (F := F) d L _ _)) $$ Hp
  ihave H8 := (slots_join (F := F) d L) $$ [WF0_src WF1_src WF2_src WF3_src WF4_src WF5_src WF6_src WF7_src WF8_src H9]
  · isplitl [WF0_src]; · iexists _; iexact WF0_src
    isplitl [WF1_src]; · iexists _; iexact WF1_src
    isplitl [WF2_src]; · iexists _; iexact WF2_src
    isplitl [WF3_src]; · iexists _; iexact WF3_src
    isplitl [WF4_src]; · iexists _; iexact WF4_src
    isplitl [WF5_src]; · iexists _; iexact WF5_src
    isplitl [WF6_src]; · iexists _; iexact WF6_src
    isplitl [WF7_src]; · iexists _; iexact WF7_src
    isplitl [WF8_src]; · iexists _; iexact WF8_src
    iexists _; iexact H9
  ihave Hsc := (Entails.of_eq (scoped_open (F := F) hF d L).symm) $$ [H6 H7 H8 Hrb Hg0 Hg1 Hg2 Hg3 Hg4 Hg5 Hg6 Hg7 Hg8 Hg9 WF0 WF1 WF2 WF3 WF4 WF5 WF6 WF7 WF8 Hw9 Hs20 Hs21 Hrs]
  · isplitl [H6]; · iexists _; iexact H6
    isplitl [H7]; · iexists _; iexact H7
    isplitl [H8]; · iexact H8
    isplitl [Hrb]; · iexact Hrb
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9]; · iexact Hg9
    isplitl [WF0]; · iexact WF0
    isplitl [WF1]; · iexact WF1
    isplitl [WF2]; · iexact WF2
    isplitl [WF3]; · iexact WF3
    isplitl [WF4]; · iexact WF4
    isplitl [WF5]; · iexact WF5
    isplitl [WF6]; · iexact WF6
    isplitl [WF7]; · iexact WF7
    isplitl [WF8]; · iexact WF8
    isplitl [Hw9]; · iexact Hw9
    isplitl [Hs20]; · iexact Hs20
    isplitl [Hs21]; · iexact Hs21
    iexact Hrs
  icases Hsc with ⟨Hsb, Hss⟩
  unfold tileTd
  isplitl [Hi Hp Ht Ho]
  · isplitl [Hi]; · iexact Hi
    isplitl [Hp]; · iexact Hp
    isplitl [Ht]; · iexact Ht
    iexact Ho
  isplitl [Hsb]; · iexact Hsb
  isplitl [Hss]; · iexact Hss
  iexists _
  isplitr
  rotate_left
  · iexact HO
  · ipureintro
    repeat' apply waits_step
    intro p hp
    rcases hW3 p hp with h | h
    · rcases Finset.mem_insert.mp h with rfl | h
      · exact .inr rfl
      rcases Finset.mem_insert.mp h with rfl | h
      · exact .inr rfl
      exact .inl h
    · exact .inr h

end Cert.Proof.KB
end
-- ==== Proof.KBLaunch.lean ====
/-
  The launch side of the embedding lookup: from "each tile's task is proved" to the run of the whole program.

  @main reshapes the index array [4096, 200] to one axis and the positional table [1, 200, 128] to two axes, then
  calls the kernel on 2 SparseCores of 16 vector subcores.  The TensorCore splits each of the three input arrays
  into 32 read tokens (one per tile) and a remainder it keeps, and the result array into the 32 tiles' blocks of
  128 batch rows; the call hands tile w = 2 * subcore + core its tokens and its block, and brings them back, each
  block holding the ONE whole-array function `GK`; the tokens rejoin and the blocks cover the result.
-/
import proofs.«206279_g3710851744293_cont_8to1_b_253_31_alg».proof.Proof.KBStmt

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S819200 EltTy.i32)
local notation "peV" => (Memref.whole Cert.Kernel.main_v1_scv : Memref Cert.Kernel.sig Kind.scVector Space.hbm Cert.Kernel.S200x128 EltTy.f32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x200x128 EltTy.f32)
local notation "s6" => (Memref.whole Cert.Kernel.cc0_scratch0 : Memref Cert.Kernel.sig Kind.scVector Space.vmem Cert.Kernel.S200x128 EltTy.f32)
local notation "s7" => (Memref.whole Cert.Kernel.cc0_scratch1 : Memref Cert.Kernel.sig Kind.scVector Space.vmem Cert.Kernel.S25600 EltTy.i32)
local notation "s8" => (Memref.whole Cert.Kernel.cc0_scratch2 : Memref Cert.Kernel.sig Kind.scVector Space.vmem Cert.Kernel.S10x40x128 EltTy.f32)

/-! ## The launch memory and what @main's two reshapes make of it -/

variable (m : (ℓ : Loc nD τ sig) → Buf (Elt F) ℓ) (ρ : Dev nD → PrngReg)

/-- The index array and the positional table as @main receives them. -/
abbrev a0Loc (d : Dev nD) : Loc nD τ sig := (SparseCore.T d).loc main_arg0
abbrev a2Loc (d : Dev nD) : Loc nD τ sig := (SparseCore.T d).loc main_arg2

/-- The flattened indices: the index array read in row-major order on one axis. -/
def fiOf (d : Dev nD) : Buf (Elt F) (iLoc d) := shapeCast S819200 (m (a0Loc d)) shapeCasts_S4096x200_S819200
/-- The two-axis positional table: the argument with its leading unit axis dropped. -/
def fpOf (d : Dev nD) : Buf (Elt F) (pLoc d) := shapeCast S200x128 (m (a2Loc d)) shapeCasts_S1x200x128_S200x128

/-! ## What the handshakes carry -/

/-- The tile number of subcore `i` of SparseCore `c`: 2 i + c. -/
def twN (c : Fin 2) (i : Fin 16) : Fin 32 := ⟨2 * i.val + c.val, by have h0 := c.isLt; have h1 := i.isLt; omega⟩

variable [FloatOps F]

/-- What the sequencer's go hands a tile, and what its taskDone hands back. -/
def goP (q : Fin 1) (d : Dev nD) (c : Fin ((K (F := F)).nCore q)) (i : Fin ((K (F := F)).nSub q)) : sProp 𝕄 :=
  match q with
  | 0 => tileGo d (twN (Fin.cast nCore_zero c) (Fin.cast nSub_zero i)) (fiOf m d) (fpOf m d) (m (tLoc d)) (m (oLoc d))
def tdP (q : Fin 1) (d : Dev nD) (c : Fin ((K (F := F)).nCore q)) (i : Fin ((K (F := F)).nSub q)) : sProp 𝕄 :=
  match q with
  | 0 => tileTd d (twN (Fin.cast nCore_zero c) (Fin.cast nSub_zero i)) (fiOf m d) (fpOf m d) (m (tLoc d))

/-- The one call hands each SparseCore its sixteen tiles' shares and rows, and takes the same back, the rows at `GK`;
    the kernel consumes nothing of the launch's. -/
def P : (K (F := F)).Pay (nD := nD) (Val := Elt F) (Name := ℕ) (U := UU) where
  st := fun q d c => bigSep Finset.univ fun i : Fin ((K (F := F)).nSub q) => goP m q d c i
  dn := fun q d c => bigSep Finset.univ fun i : Fin ((K (F := F)).nSub q) => tdP m q d c i
  go := fun q d c i => goP m q d c i
  td := fun q d c i => tdP m q d c i
  x := fun _ _ => iprop(emp)

instance goP_storable (q : Fin 1) (d : Dev nD) (c : Fin ((K (F := F)).nCore q)) (i : Fin ((K (F := F)).nSub q)) :
    BI.Storable (upEmb : UEmb _ 𝕄) (goP m q d c i) := by
  match q with
  | 0 => unfold goP tileGo; infer_instance
instance tdP_storable (q : Fin 1) (d : Dev nD) (c : Fin ((K (F := F)).nCore q)) (i : Fin ((K (F := F)).nSub q)) :
    BI.Storable (upEmb : UEmb _ 𝕄) (tdP m q d c i) := by
  match q with
  | 0 => unfold tdP tileTd; infer_instance

instance P_storable : (P (F := F) m).IsStorable where
  st q d c := by unfold P; infer_instance
  dn q d c := by unfold P; infer_instance
  go q d c i := by unfold P; infer_instance
  td q d c i := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__embed_body (coordsV c s)
          iV (Memref.isWhole_whole _) peV (Memref.isWhole_whole _) tV (Memref.isWhole_whole _) oV (Memref.isWhole_whole _)
          s6 (Memref.isWhole_whole _) s7 (Memref.isWhole_whole _) s8 (Memref.isWhole_whole _)
          cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody (F := F)) (hidx : ∀ d j, (fiOf m d j).toNat < 100000) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO (fiOf m d) (fpOf m d) (m (tLoc d)) (m (oLoc d)) (hidx d)).trans
    (wp_mono frame _ _ fun _ => obl_post)

theorem vecSplit : (K (F := F)).VecSplit' (P m) 0 := by
  intro d c
  show (bigSep Finset.univ fun i : Fin ((K (F := F)).nSub 0) => goP m 0 d c i) ⊢ |={Set.univ}=> iprop(
      (bigSep Finset.univ fun i : Fin ((K (F := F)).nSub 0) => goP m 0 d c i)
      ∗ ((bigSep Finset.univ fun i : Fin ((K (F := F)).nSub 0) => tdP m 0 d c i)
          -∗ bigSep Finset.univ fun i : Fin ((K (F := F)).nSub 0) => tdP m 0 d c i))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.KBLaunchHost.lean ====
/-
  @main's host side: the TensorCore's six arrays as one held set, and what the two reshapes leave in them —
  every array at its launch contents but the two reshaped copies, which hold the flattened indices and the
  two-axis positional table.
-/
import proofs.«206279_g3710851744293_cont_8to1_b_253_31_alg».proof.Proof.KBLaunch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

/-! ## The TensorCore's arrays and the two reshapes -/

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

abbrev op0 : HloOp τ sig (Elt F) := StableHlo.reshape main_arg0 main_v0 rfl shapeCasts_S4096x200_S819200
abbrev op1 : HloOp τ sig (Elt F) := StableHlo.reshape main_arg2 main_v1 rfl shapeCasts_S1x200x128_S200x128

/-- The TensorCore's arrays, all unscoped. -/
abbrev S6 : Finset (DevRef τ sig) := {a0', a1', a2', v0', v1', v2'}

theorem held_S6 (d : Dev nD) (W : Valuation τ sig (Elt F)) :
    (held (T d) S6 W : sProp 𝕄) = iprop((a0Loc d ↦{fullShare} W a0') ∗ (tLoc d ↦{fullShare} W a1') ∗ (a2Loc d ↦{fullShare} W a2')
      ∗ (iLoc d ↦{fullShare} W v0') ∗ (pLoc d ↦{fullShare} W v1') ∗ oLoc d ↦{fullShare} W v2') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (tLoc d ↦{fullShare} W main_arg1) ∗ (a2Loc d ↦{fullShare} W main_arg2)
      ∗ (iLoc d ↦{fullShare} W main_v0) ∗ (pLoc d ↦{fullShare} W main_v1) ∗ oLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation, after the first reshape, after the second. -/
def V0 (d : Dev nD) : Valuation τ sig (Elt F) := fun b => m (d, b)
abbrev VA (d : Dev nD) : Valuation τ sig (Elt F) := (op0 (F := F)).result (V0 m d)
abbrev VB (d : Dev nD) : Valuation τ sig (Elt F) := (op1 (F := F)).result (VA m d)

theorem unscoped_held (d : Dev nD) : (unscopedBufs d (fun b => m ((SparseCore.T d).loc b)) : sProp 𝕄) = held (T d) S6 (V0 m d) := by
  rw [unscopedBufs_eq, held_S6]; rfl

theorem VB_a0 (d : Dev nD) : VB m d a0' = m (a0Loc d) := by
  show (op1 (F := F)).result ((op0 (F := F)).result (V0 m d)) a0' = _
  rw [(op1 (F := F)).result_of_not_mem _ (b := a0') (show a0' ∉ ({v1'} : Finset (DevRef τ sig)) by decide),
    (op0 (F := F)).result_of_not_mem _ (b := a0') (show a0' ∉ ({v0'} : Finset (DevRef τ sig)) by decide)]
  rfl
theorem VB_a1 (d : Dev nD) : VB m d a1' = m (tLoc d) := by
  show (op1 (F := F)).result ((op0 (F := F)).result (V0 m d)) a1' = _
  rw [(op1 (F := F)).result_of_not_mem _ (b := a1') (show a1' ∉ ({v1'} : Finset (DevRef τ sig)) by decide),
    (op0 (F := F)).result_of_not_mem _ (b := a1') (show a1' ∉ ({v0'} : Finset (DevRef τ sig)) by decide)]
  rfl
theorem VB_a2 (d : Dev nD) : VB m d a2' = m (a2Loc d) := by
  show (op1 (F := F)).result ((op0 (F := F)).result (V0 m d)) a2' = _
  rw [(op1 (F := F)).result_of_not_mem _ (b := a2') (show a2' ∉ ({v1'} : Finset (DevRef τ sig)) by decide),
    (op0 (F := F)).result_of_not_mem _ (b := a2') (show a2' ∉ ({v0'} : Finset (DevRef τ sig)) by decide)]
  rfl
theorem VB_v2 (d : Dev nD) : VB m d v2' = m (oLoc d) := by
  show (op1 (F := F)).result ((op0 (F := F)).result (V0 m d)) v2' = _
  rw [(op1 (F := F)).result_of_not_mem _ (b := v2') (show v2' ∉ ({v1'} : Finset (DevRef τ sig)) by decide),
    (op0 (F := F)).result_of_not_mem _ (b := v2') (show v2' ∉ ({v0'} : Finset (DevRef τ sig)) by decide)]
  rfl
theorem VB_v0 (d : Dev nD) : VB m d v0' = fiOf m d := by
  show (op1 (F := F)).result ((op0 (F := F)).result (V0 m d)) v0' = _
  rw [(op1 (F := F)).result_of_not_mem _ (b := v0') (show v0' ∉ ({v1'} : Finset (DevRef τ sig)) by decide)]
  exact StableHlo.reshape_result main_arg0 main_v0 rfl shapeCasts_S4096x200_S819200 _ _ (V0 m d)
theorem VB_v1 (d : Dev nD) : VB m d v1' = fpOf m d := by
  show (op1 (F := F)).result ((op0 (F := F)).result (V0 m d)) v1' = _
  refine (StableHlo.reshape_result main_arg2 main_v1 rfl shapeCasts_S1x200x128_S200x128 _ _ ((op0 (F := F)).result (V0 m d))).trans ?_
  show shapeCast S200x128 ((op0 (F := F)).result (V0 m d) a2') shapeCasts_S1x200x128_S200x128 = _
  rw [(op0 (F := F)).result_of_not_mem _ (b := a2') (show a2' ∉ ({v0'} : Finset (DevRef τ sig)) by decide)]
  rfl

theorem held_VB (d : Dev nD) :
    (held (T d) S6 (VB m d) : sProp 𝕄) = iprop((a0Loc d ↦{fullShare} m (a0Loc d)) ∗ (tLoc d ↦{fullShare} m (tLoc d)) ∗ (a2Loc d ↦{fullShare} m (a2Loc d))
      ∗ (iLoc d ↦{fullShare} fiOf m d) ∗ (pLoc d ↦{fullShare} fpOf m d) ∗ oLoc d ↦{fullShare} m (oLoc d)) := by
  rw [held_S6, VB_a0, VB_a1, VB_a2, VB_v0, VB_v1, VB_v2]

theorem h0 : (op0 (F := F)).bufs ⊆ S6 := show ({a0', v0'} : Finset (DevRef τ sig)) ⊆ S6 by decide
theorem h1 : (op1 (F := F)).bufs ⊆ S6 := show ({a2', v1'} : Finset (DevRef τ sig)) ⊆ S6 by decide

end Cert.Proof.KB

end
-- ==== Proof.KBLaunchSplit.lean ====
/-
  How the TensorCore deals its arrays to the 32 tiles and gathers them back: a read token of each input per tile
  (the remainder kept aside), the result cut into the tiles' blocks of 128 batch rows; and the regrouping of a
  family over the 32 tiles as the call's per-SparseCore, per-subcore family (tile = 2 * subcore + core).
-/
import proofs.«206279_g3710851744293_cont_8to1_b_253_31_alg».proof.Proof.KBLaunch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

/-! ## Thirty-two tiles: two SparseCores of sixteen subcores -/

/-- (core, subcore) ↦ 2 * subcore + core numbers the 32 tiles. -/
def e32 : Fin 2 × Fin 16 ≃ Fin 32 where
  toFun p := twN p.1 p.2
  invFun w := (⟨w.val % 2, Nat.mod_lt _ (by decide)⟩, ⟨w.val / 2, by have := w.isLt; omega⟩)
  left_inv p := by
    obtain ⟨c, i⟩ := p
    have h0 := c.isLt; have h1 := i.isLt
    apply Prod.ext
    · apply Fin.ext; show (2 * i.val + c.val) % 2 = c.val; omega
    · apply Fin.ext; show (2 * i.val + c.val) / 2 = i.val; omega
  right_inv w := by
    apply Fin.ext; show 2 * (w.val / 2) + w.val % 2 = w.val; omega

/-- A family over the tiles, grouped per SparseCore and subcore as the call hands it over. -/
theorem bigSep_tiles (Φ : Fin 32 → sProp 𝕄) :
    (bigSep Finset.univ fun c : Fin ((K (F := F)).nCore 0) => bigSep Finset.univ fun i : Fin ((K (F := F)).nSub 0) =>
      Φ (twN (Fin.cast nCore_zero c) (Fin.cast nSub_zero i))) = bigSep Finset.univ Φ := by
  show (bigSep (Finset.univ : Finset (Fin 2)) fun c => bigSep (Finset.univ : Finset (Fin 16)) fun i => Φ (twN c i)) = _
  rw [← bigSep_univ_prod (fun p : Fin 2 × Fin 16 => Φ (twN p.1 p.2)), bigSep_univ_equiv e32 Φ]
  rfl

/-! ## The result's rows, tile by tile -/

theorem tileRows_eq (w : Fin 32) : tileRows w = (tileRect w).set := by
  show ((View.whole (main_v2_scv : Ref sig .scVector)).slice (tileRect w)).set = _
  rw [View.set_slice]; exact Finset.map_refl
theorem rows_disjoint : ∀ i ∈ (Finset.univ : Finset (Fin 32)), ∀ j ∈ (Finset.univ : Finset (Fin 32)), i ≠ j → Disjoint (tileRows i) (tileRows j) :=
  fun i _ j _ h => by rw [tileRows_eq, tileRows_eq]; exact Rect.part_disjoint hdiv32 h
theorem rows_cover : (Finset.univ : Finset (Fin 32)).biUnion tileRows = Finset.univ :=
  (Finset.biUnion_congr rfl fun i _ => tileRows_eq i).trans (Rect.biUnion_part hdiv32)

theorem rows_split (d : Dev nD) (f : Buf (Elt F) (oLoc d)) :
    (oLoc d ↦{fullShare} f : sProp 𝕄) = bigSep Finset.univ fun w : Fin 32 => oLoc d ↦[tileRows w]{fullShare} f := by
  rw [← pointsTo_biUnion Finset.univ (ℓ := oLoc d) tileRows rows_disjoint, rows_cover]; try rfl

variable [FloatOps F]

/-- The TensorCore deals the four arrays to the tiles: of each input a read token per tile, the remainder kept; of the
    result each tile's rows. -/
theorem go_all (d : Dev nD) (fi : Buf (Elt F) (iLoc d)) (fp : Buf (Elt F) (pLoc d)) (ft : Buf (Elt F) (tLoc d)) (fo : Buf (Elt F) (oLoc d)) :
    (iprop((iLoc d ↦{fullShare} fi) ∗ (pLoc d ↦{fullShare} fp) ∗ (tLoc d ↦{fullShare} ft) ∗ (oLoc d ↦{fullShare} fo)) : sProp 𝕄)
      ⊢ iprop(((iLoc d ↦{shareDrop fullShare 32} fi) ∗ (pLoc d ↦{shareDrop fullShare 32} fp) ∗ (tLoc d ↦{shareDrop fullShare 32} ft))
          ∗ bigSep Finset.univ fun w : Fin 32 => tileGo d w fi fp ft fo) := by
  unfold tileGo
  rw [bigSep_sep', bigSep_sep', bigSep_sep', rows_split]
  iintro ⟨Hi, Hp, Ht, Ho⟩
  ihave Hi' := (pointsTo_toks_split fullShare 32) $$ Hi
  ihave Hp' := (pointsTo_toks_split fullShare 32) $$ Hp
  ihave Ht' := (pointsTo_toks_split fullShare 32) $$ Ht
  icases Hi' with ⟨Hi0, Hi⟩
  icases Hp' with ⟨Hp0, Hp⟩
  icases Ht' with ⟨Ht0, Ht⟩
  isplitl [Hi0 Hp0 Ht0]
  · isplitl [Hi0]; · iexact Hi0
    isplitl [Hp0]; · iexact Hp0
    iexact Ht0
  isplitl [Hi]; · iexact Hi
  isplitl [Hp]; · iexact Hp
  isplitl [Ht]; · iexact Ht
  iexact Ho

/-- and gathers them back: the tokens rejoin the remainders, the rows — each at the one whole-array function — cover
    the result. -/
theorem td_all (d : Dev nD) (fi : Buf (Elt F) (iLoc d)) (fp : Buf (Elt F) (pLoc d)) (ft : Buf (Elt F) (tLoc d)) :
    (iprop(((iLoc d ↦{shareDrop fullShare 32} fi) ∗ (pLoc d ↦{shareDrop fullShare 32} fp) ∗ (tLoc d ↦{shareDrop fullShare 32} ft))
          ∗ bigSep Finset.univ fun w : Fin 32 => tileTd d w fi fp ft) : sProp 𝕄)
      ⊢ iprop((iLoc d ↦{fullShare} fi) ∗ (pLoc d ↦{fullShare} fp) ∗ (tLoc d ↦{fullShare} ft) ∗ (oLoc d ↦{fullShare} GK fi fp ft)) := by
  unfold tileTd
  rw [bigSep_sep', bigSep_sep', bigSep_sep', ← rows_split]
  iintro ⟨⟨Hi0, Hp0, Ht0⟩, Hi, Hp, Ht, Ho⟩
  isplitl [Hi0 Hi]
  · iapply (pointsTo_toks_join fullShare 32); isplitl [Hi0] <;> iassumption
  isplitl [Hp0 Hp]
  · iapply (pointsTo_toks_join fullShare 32); isplitl [Hp0] <;> iassumption
  isplitl [Ht0 Ht]
  · iapply (pointsTo_toks_join fullShare 32); isplitl [Ht0] <;> iassumption
  iexact Ho

variable (m : (ℓ : Loc nD τ sig) → Buf (Elt F) ℓ)

/-- What the call takes for the two SparseCores, and what it hands back, tile by tile. -/
theorem st0_eq (d : Dev nD) :
    (bigSep Finset.univ fun c : Fin ((K (F := F)).nCore 0) => (P m).st 0 d c)
      = bigSep Finset.univ fun w : Fin 32 => tileGo d w (fiOf m d) (fpOf m d) (m (tLoc d)) (m (oLoc d)) :=
  bigSep_tiles (F := F) fun w => tileGo d w (fiOf m d) (fpOf m d) (m (tLoc d)) (m (oLoc d))
theorem dn0_eq (d : Dev nD) :
    (bigSep Finset.univ fun c : Fin ((K (F := F)).nCore 0) => (P m).dn 0 d c)
      = bigSep Finset.univ fun w : Fin 32 => tileTd d w (fiOf m d) (fpOf m d) (m (tLoc d)) :=
  bigSep_tiles (F := F) fun w => tileTd d w (fiOf m d) (fpOf m d) (m (tLoc d))

end Cert.Proof.KB

end
-- ==== Proof.KBLaunchMain.lean ====
/-
  @main on the TensorCore — the two reshapes, the deal of the arrays to the 32 tiles, the call, the gathering —,
  how the final memory reads the claim, and the run of the whole program: from "each tile's task is proved"
  every weakly fair execution terminates with the arguments unchanged and the result named.
-/
import proofs.«206279_g3710851744293_cont_8to1_b_253_31_alg».proof.Proof.KBLaunchHost
import proofs.«206279_g3710851744293_cont_8to1_b_253_31_alg».proof.Proof.KBLaunchSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## @main on the TensorCore -/

/-- What @main leaves the claim: the three arguments at their launch contents, the result at `GK` of the reshaped
    arguments. -/
abbrev FIN (d : Dev nD) : sProp 𝕄 :=
  iprop((a0Loc d ↦{fullShare} m (a0Loc d)) ∗ (tLoc d ↦{fullShare} m (tLoc d)) ∗ (a2Loc d ↦{fullShare} m (a2Loc d))
    ∗ oLoc d ↦{fullShare} GK (fiOf m d) (fpOf m d) (m (tLoc d)))

/-- @main on device `d`'s TensorCore: the two reshapes, the deal to the 32 tiles, the call, the gathering. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two reshapes
  iapply (wp_hlo_within 𝒱 (SparseCore.T d) none Set.univ (op := op0) (S := S6) h0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S6) h1 (V := VA m d)) $$ [Hb Hheld]
  · isplitl [Hb]; · iexact Hb
    iexact Hheld
  iintro ⟨Hb, Hheld⟩
  rw [wp_ret]; imodintro
  ihave Hh := (Entails.of_eq (held_VB (F := F) m d)) $$ Hheld
  icases Hh with ⟨Ha0, Ha1, Ha2, Hv0, Hv1, Hv2⟩
  -- the deal
  ihave Hg := (go_all d (fiOf m d) (fpOf m d) (m (tLoc d)) (m (oLoc d))) $$ [Hv0 Hv1 Ha1 Hv2]
  · isplitl [Hv0]; · iexact Hv0
    isplitl [Hv1]; · iexact Hv1
    isplitl [Ha1]; · iexact Ha1
    iexact Hv2
  icases Hg with ⟨Hkeep, Hgo⟩
  -- the call
  iapply ((K (F := F)).wp_run (D (F := F)) 𝒱 (EH := EH) (P := P m) κ d 0) $$ [Hst Hgo Hkeep Ha0 Ha2]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hj := (td_all d (fiOf m d) (fpOf m d) (m (tLoc d))) $$ [Hkeep Hdn']
  · isplitl [Hkeep]; · iexact Hkeep
    iexact Hdn'
  icases Hj with ⟨-, -, Ha1, Hv2⟩
  imodintro
  isplitl [Hst]; · iexact Hst
  isplitl [Ha0]; · iexact Ha0
  isplitl [Ha1]; · iexact Ha1
  isplitl [Ha2]; · iexact Ha2
  iexact Hv2

/-! ## The final memory reads the claim -/

def fq (d : Dev nD) (s' : Phys nD τ sig (Elt F)) : Prop :=
  s'.mem.mem (oLoc d) = GK (fiOf m d) (fpOf m d) (m (tLoc d))
    ∧ s'.mem.mem (a0Loc d) = m (a0Loc d) ∧ s'.mem.mem (tLoc d) = m (tLoc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, Ho⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := tLoc d) (I := Finset.univ) (q := fullShare) (f := m (tLoc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := oLoc d) (I := Finset.univ) (q := fullShare) (f := GK (fiOf m d) (fpOf m d) (m (tLoc d)))) $$ [HSI Ho]
  · isplitl [HSI] <;> iassumption
  icases H with %ho
  ipureintro
  exact ⟨funext fun i => ho i (Finset.mem_univ i), funext fun i => h0 i (Finset.mem_univ i), funext fun i => h1 i (Finset.mem_univ i),
    funext fun i => h2 i (Finset.mem_univ i)⟩

/-! ## The program's run -/

/-- Every weakly fair execution of the device's threads from a memory whose index words name rows of the table
    terminates, nothing faulting, the three arguments unchanged and the result at `GK` of the reshaped arguments. -/
theorem run_main [∀ e, Nonempty (Elt F e)] (hbody : TileBody (F := F)) (m : (ℓ : Loc nD τ sig) → Buf (Elt F) ℓ) (ρ : Dev nD → PrngReg)
    (hidx : ∀ d j, (fiOf m d j).toNat < 100000) :
    θ_run (Cert.Kernel.defs (F := F)) (Cert.Kernel.threads (F := F)) ⟨m, fun _ => 0, ρ⟩
      (fun r => ∀ c : Dev nD, r.2.mem (oLoc c) = GK (fiOf m c) (fpOf m c) (m (tLoc c))
        ∧ r.2.mem ((SparseCore.T c).loc main_arg0) = m ((SparseCore.T c).loc main_arg0)
        ∧ r.2.mem ((SparseCore.T c).loc main_arg1) = m ((SparseCore.T c).loc main_arg1)
        ∧ r.2.mem ((SparseCore.T c).loc main_arg2) = m ((SparseCore.T c).loc main_arg2)) :=
  SparseCore.Cfg.θ_run_sc (K := K (F := F)) (D := D (F := F)) (𝒱 := 𝒱) (EH := EH) (P := P m) facts v₀
    (fun q hq => match q with | 0 => nomatch hq)
    (fun q _ => match q with | 0 => tileObl m hbody hidx)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

/-- The TensorCore's locations, as the claim (Defs.lean) spells them. -/
example (c : Dev nD) (b : Ref sig .tc) : (SparseCore.T c).loc b = (c.tc : Thread nD τ).loc b := rfl

end Cert.Proof.KB

end
-- ==== Proof.KBBridge.lean ====
/-
  The kernel's result, stated over the reshaped arguments, is the specification's function of the arguments:
  word 200 b + s of the flattened index array is word (b, s) of the index array, and row s of the two-axis
  positional table is row (0, s) of the argument.
-/
import proofs.«206279_g3710851744293_cont_8to1_b_253_31_alg».proof.Proof.KBLaunch
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

open Idealize.ShloMosaic.ValueIdx

variable (m : (ℓ : Loc nD τ sig) → Buf (Elt F) ℓ)

/-! ## The two reshapes read at an index -/

/-- Word 200 b + s of the flattened indices is the index array's word (b, s): the same row-major position. -/
theorem fiOf_apply (c : Dev nD) (b : Fin 4096) (s : Fin 200) (h : 200 * b.val + s.val < 819200) :
    fiOf m c (ix1 (n := 819200) ⟨200 * b.val + s.val, h⟩) = m (a0Loc c) (ix2 (n0 := 4096) (n1 := 200) b s) := by
  unfold fiOf
  exact shapeCast_apply (s := S4096x200) (t := S819200) _ _ _ _ (by
    show ((⟨2, ![4096, 200]⟩ : Shape).rowMajor (ix2 (n0 := 4096) (n1 := 200) b s)).val
      = ((⟨1, ![819200]⟩ : Shape).rowMajor (ix1 (n := 819200) ⟨200 * b.val + s.val, h⟩)).val
    rw [Shape.rowMajor_val_two, Shape.rowMajor_val_one]
    show b.val * 200 + s.val = 200 * b.val + s.val
    omega)

/-- Row s of the two-axis positional table is row (0, s) of the argument: a leading unit axis dropped. -/
theorem fpOf_apply (c : Dev nD) (s : Fin 200) (l : Fin 128) :
    fpOf m c (ix2 (n0 := 200) (n1 := 128) s l) = m (a2Loc c) (ix3 (n0 := 1) (n1 := 200) (n2 := 128) 0 s l) := by
  unfold fpOf
  exact shapeCast_1ab_ab_apply _ _ s l

/-- Index words that name rows of the table do so in any order: the flattened array holds the same words. -/
theorem hidx_of (h : ∀ d j, (m (a0Loc d) j).toNat < 100000) : ∀ d j, (fiOf m d j).toNat < 100000 := by
  intro d j
  unfold fiOf shapeCast
  exact h d _

variable [FloatOps F]

/-- What the kernel leaves, as a function of the reshaped arguments, is the specification's function of the
    arguments themselves. -/
theorem GK_eq_G (c : Dev nD) :
    GK (fiOf m c) (fpOf m c) (m (tLoc c)) = Cert.Spec.G (F := F) (m (a0Loc c)) (m (tLoc c)) (m (a2Loc c)) := by
  funext j
  have h0 : (j 0).val < 4096 := (j 0).isLt
  have h1 : (j 1).val < 200 := (j 1).isLt
  have hA := fiOf_apply m c (j 0) (j 1) (by omega)
  have hB := fpOf_apply m c (j 1) (j 2)
  unfold GK Cert.Spec.G
  erw [hA, hB]

end Cert.Proof.KB

end
-- ==== Proof.lean ====
/-
  An embedding lookup with a positional term, on the SparseCore, against its jnp reference.

  For a batch row b, a position s and a lane l both programs compute
      out[b, s, l] = table[inputs[b, s], l] * c + pe[0, s, l]
  with c the single-precision word nearest to sqrt 128, the same word in both (it is never evaluated), and the two
  float operations in the same order: no algebraic law is needed, only that both programs read the same entries.
  The kernel splits the 4096 batch rows among the device's 32 vector subcores (128 rows each); a subcore copies the
  positional table and its 25600 index words into its own memory and then works through 640 chunks of forty
  positions in a ring of ten row buffers: gather the forty table rows a chunk's index words name (five chunks ahead),
  scale and shift them in place, write the chunk out, and reuse the buffer once its write-out has landed.  Every
  transfer has a semaphore of its own while it is in flight, and a buffer is not touched between the start of a
  transfer on it and the wait for it, so every execution ends with the same result.
  The reference is jnp.take (wrap a negative index, gather, mask indices out of range) followed by the same two
  operations; the precondition puts every index in [0, 100000), where the wrap is the identity and the mask is 1.

  The modules: Spec (the function G both compute); PreIdx (the index range out of the precondition); RefOps, RefTerm,
  RefRun (the reference's run and its term read at an index); for the kernel, once per float instance (KI: exact
  reals, KB: words): Setup, Res, Stmt (the launch's view of the program and a tile's task as a triple), Launch*
  (from the tiles' tasks to the whole program), Bridge (the flattened-index form of G is G), Inv … Ring (the ring's
  invariant), Inner*, TripFirstV / TripMidV / TripLastV (one trip of the main loop), Books* (which chunks and index
  windows a tile holds), Region* (a trip preserves the invariant), Body (the tile's task).
-/
import proofs.«206279_g3710851744293_cont_8to1_b_253_31_alg».proof.Defs
import proofs.«206279_g3710851744293_cont_8to1_b_253_31_alg».proof.Proof.Gen.Kernel
import proofs.«206279_g3710851744293_cont_8to1_b_253_31_alg».proof.Proof.Gen.KernelIdeal
import proofs.«206279_g3710851744293_cont_8to1_b_253_31_alg».proof.Proof.Gen.ReferenceIdeal
import proofs.«206279_g3710851744293_cont_8to1_b_253_31_alg».proof.Proof.Gen.Pre_input_domain
import proofs.«206279_g3710851744293_cont_8to1_b_253_31_alg».proof.Proof.PreIdx
import proofs.«206279_g3710851744293_cont_8to1_b_253_31_alg».proof.Proof.RefRun
import proofs.«206279_g3710851744293_cont_8to1_b_253_31_alg».proof.Proof.KIBody
import proofs.«206279_g3710851744293_cont_8to1_b_253_31_alg».proof.Proof.KILaunchMain
import proofs.«206279_g3710851744293_cont_8to1_b_253_31_alg».proof.Proof.KIBridge
import proofs.«206279_g3710851744293_cont_8to1_b_253_31_alg».proof.Proof.KBBody
import proofs.«206279_g3710851744293_cont_8to1_b_253_31_alg».proof.Proof.KBLaunchMain
import proofs.«206279_g3710851744293_cont_8to1_b_253_31_alg».proof.Proof.KBBridge
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_K : Cert.frame_Kernel (hKernel := Cert.Kernel.Gen.facts) (hPre_input_domain := Cert.Pre_input_domain.Gen.facts) := fun m g hpre =>
  (θ_run _ _ _).mono (fun _ h c => (h c).2)
    (Cert.Proof.KB.run_main (F := Bits) (Cert.Proof.KB.tile_body Cert.Proof.KB.facts) m g
      (Cert.Proof.KB.hidx_of m fun d j => Cert.PreIdx.idx_lt (F := Bits) _ _ _ (hpre d) j))

/-- So does the kernel read over the exact reals. -/
theorem frame_KI : Cert.frame_KernelIdeal (hKernelIdeal := Cert.KernelIdeal.Gen.facts) (hPre_input_domain := Cert.Pre_input_domain.Gen.facts) := fun m g hpre =>
  (θ_run _ _ _).mono (fun _ h c => (h c).2)
    (Cert.Proof.KI.run_main (F := Ideal) (Cert.Proof.KI.tile_body Cert.Proof.KI.facts) m g
      (Cert.Proof.KI.hidx_of m fun d j => Cert.PreIdx.idx_lt (F := Ideal) _ _ _ (hpre d) j))

/-- Over the exact reals the kernel and the reference, run on the same arguments, both end with the array G of them. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.Spec.G (F := Ideal) (m (Cert.Proof.KI.a0Loc c)) (m (Cert.Proof.KI.tLoc c)) (m (Cert.Proof.KI.a2Loc c)), ?_, ?_⟩
  · exact (θ_run _ _ _).mono (fun _ h c => ⟨(h c).1.trans (Cert.Proof.KI.GK_eq_G m c), (h c).2⟩)
      (Cert.Proof.KI.run_main (F := Ideal) (Cert.Proof.KI.tile_body Cert.Proof.KI.facts) m g
        (Cert.Proof.KI.hidx_of m fun d j => Cert.PreIdx.idx_lt (F := Ideal) _ _ _ (hpre d) j))
  · have hpre' : Cert.Pre_ReferenceIdeal (hPre_input_domain := Cert.Pre_input_domain.Gen.facts) m' := fun c => by
      rw [(hagree c).1, (hagree c).2.1, (hagree c).2.2]; exact hpre c
    refine (θ_run _ _ _).mono (fun _ h c => ⟨?_, (h c).2⟩) (Cert.ReferenceIdeal.RefValue.run m' g' hpre')
    rw [(h c).1, (hagree c).1, (hagree c).2.1, (hagree c).2.2]

theorem claim : Cert.Claim := ⟨Cert.Kernel.Gen.facts, Cert.KernelIdeal.Gen.facts, Cert.ReferenceIdeal.Gen.facts, Cert.Pre_input_domain.Gen.facts,
  frame_K, frame_KI, Cert.ReferenceIdeal.RefValue.frame, trivial, algebraic⟩

end Cert.Proof

end
